-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v66)) (v2 : (c : Dev Cert.KernelIdeal.nD) → Buf (Elt Ideal) ((c.tc : Thread Cert.KernelIdeal.nD Cert.KernelIdeal.τ).loc Cert.KernelIdeal.main_v71)) (v3 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_v76) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024 : Shape := ⟨1, ![1024]⟩
abbrev S1024x1024 : Shape := ⟨2, ![1024, 1024]⟩
abbrev S2048x1024 : Shape := ⟨2, ![2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part6 {F : FTy → Type} [FloatOps F] (main_arg21 : FVec F S2048x1024 .f32) (main_arg22 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S2048x1024 .f32 := Host.absf main_arg21
  let main_cst_40 : FVec F S_ .f32 := constant S_ .f32 0x7F800000#32
  let main_v105 : FVec F S2048x1024 .f32 := broadcastInDim S2048x1024 ![] bcast_S_S2048x1024 main_cst_40
  let main_v106 : IVec S2048x1024 1 := cmpf .olt main_v104 main_v105
  let main_c_41 : IVec S_ 1 := constantI S_ 1 1#1
  let main_v107 : IVec S_ 1 := (fun x v => Host.reduce IntOp.andi x v reducesTo_S2048x1024_S_d0_1 h_S_) main_v106 main_c_41
  let main_v108 : IVec S_ 1 := andi main_v103 main_v107
  let main_v109 : FVec F S1024 .f32 := Host.absf main_arg22
  let main_cst_42 : FVec F S_ .f32 := constant S_ .f32 0x7F800000#32
  let main_v110 : FVec F S1024 .f32 := broadcastInDim S1024 ![] bcast_S_S1024 main_cst_42
  let main_v111 : IVec S1024 1 := cmpf .olt main_v109 main_v110
  let main_c_43 : IVec S_ 1 := constantI S_ 1 1#1
  let main_v112 : IVec S_ 1 := (fun x v => Host.reduce IntOp.andi x v reducesTo_S1024_S_d0 h_S_) main_v111 main_c_43
  let main_v113 : IVec S_ 1 := andi main_v108 main_v112
  main_v113

def fn_part5 {F : FTy → Type} [FloatOps F] (main_arg18 : FVec F S1024 .f32) (main_arg19 : FVec F S2048x1024 .f32) (main_arg20 : FVec F S1024 .f32) (main_arg21 : FVec F S2048x1024 .f32) (main_arg22 : FVec F S1024 .f32) (main_v83 : IVec S_ 1) (main_v84 : FVec F S2048x1024 .f32) (main_cst_32 : FVec F S_ .f32) : IVec S_ 1 :=
  let main_v85 : FVec F S2048x1024 .f32 := broadcastInDim S2048x1024 ![] bcast_S_S2048x1024 main_cst_32
  let main_v86 : IVec S2048x1024 1 := cmpf .olt main_v84 main_v85
  let main_c_33 : IVec S_ 1 := constantI S_ 1 1#1
  let main_v87 : IVec S_ 1 := (fun x v => Host.reduce IntOp.andi x v reducesTo_S2048x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S2048x1024 .f32 := Host.absf main_arg19
  let main_cst_36 : FVec F S_ .f32 := constant S_ .f32 0x7F800000#32
  let main_v95 : FVec F S2048x1024 .f32 := broadcastInDim S2048x1024 ![] bcast_S_S2048x1024 main_cst_36
  let main_v96 : IVec S2048x1024 1 := cmpf .olt main_v94 main_v95
  let main_c_37 : IVec S_ 1 := constantI S_ 1 1#1
  let main_v97 : IVec S_ 1 := (fun x v => Host.reduce IntOp.andi x v reducesTo_S2048x1024_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S1024 .f32) (main_arg15 : FVec F S1024x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S2048x1024 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S4x2048x1024 .f32) (main_arg1 : FVec F S4x2048x1024 .f32) (main_arg2 : FVec F S4x2048x1024 .f32) (main_arg3 : FVec F S3072x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S4x2048x1024 : Shape := ⟨3, ![4, 2048, 1024]⟩
abbrev S3072x1024 : Shape := ⟨2, ![3072, 1024]⟩
abbrev S1024 : Shape := ⟨1, ![1024]⟩
abbrev S1024x1024 : Shape := ⟨2, ![1024, 1024]⟩
abbrev S2048x1024 : Shape := ⟨2, ![2048, 1024]⟩
abbrev S8192x1024 : Shape := ⟨2, ![8192, 1024]⟩
abbrev S1x1024 : Shape := ⟨2, ![1, 1024]⟩
abbrev S512x1024 : Shape := ⟨2, ![512, 1024]⟩
abbrev S1x512x1024 : Shape := ⟨3, ![1, 512, 1024]⟩
abbrev S512x1 : Shape := ⟨2, ![512, 1]⟩
abbrev S1024x512 : Shape := ⟨2, ![1024, 512]⟩
abbrev S512x512 : Shape := ⟨2, ![512, 512]⟩
abbrev S512 : Shape := ⟨1, ![512]⟩
abbrev S4x2048x1x1024 : Shape := ⟨4, ![4, 2048, 1, 1024]⟩
abbrev S4x2048x2x1024 : Shape := ⟨4, ![4, 2048, 2, 1024]⟩
abbrev S4x4096x1024 : Shape := ⟨3, ![4, 4096, 1024]⟩
abbrev S4x6144x1024 : Shape := ⟨3, ![4, 6144, 1024]⟩

abbrev nBuf : Space → Nat
  | .hbm => 100
  | .vmem => 111
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S3072x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S2048x1024, .f32⟩
  | .hbm, ⟨18, _⟩ => ⟨S1024, .f32⟩
  | .hbm, ⟨19, _⟩ => ⟨S2048x1024, .f32⟩
  | .hbm, ⟨20, _⟩ => ⟨S1024, .f32⟩
  | .hbm, ⟨21, _⟩ => ⟨S2048x1024, .f32⟩
  | .hbm, ⟨22, _⟩ => ⟨S1024, .f32⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .bf16⟩
  | .hbm, ⟨34, _⟩ => ⟨S4x2048x1024, .bf16⟩
  | .hbm, ⟨35, _⟩ => ⟨S1024x1024, .bf16⟩
  | .hbm, ⟨36, _⟩ => ⟨S8192x1024, .f32⟩
  | .hbm, ⟨37, _⟩ => ⟨S1x1024, .f32⟩
  | .hbm, ⟨38, _⟩ => ⟨S8192x1024, .bf16⟩
  | .hbm, ⟨39, _⟩ => ⟨S4x2048x1024, .bf16⟩
  | .hbm, ⟨40, _⟩ => ⟨S1024x1024, .bf16⟩
  | .hbm, ⟨41, _⟩ => ⟨S8192x1024, .f32⟩
  | .hbm, ⟨42, _⟩ => ⟨S1x1024, .f32⟩
  | .hbm, ⟨43, _⟩ => ⟨S8192x1024, .bf16⟩
  | .hbm, ⟨44, _⟩ => ⟨S4x2048x1024, .bf16⟩
  | .hbm, ⟨45, _⟩ => ⟨S4x2048x1024, .bf16⟩
  | .hbm, ⟨46, _⟩ => ⟨S1024x1024, .bf16⟩
  | .hbm, ⟨47, _⟩ => ⟨S8192x1024, .f32⟩
  | .hbm, ⟨48, _⟩ => ⟨S1x1024, .f32⟩
  | .hbm, ⟨49, _⟩ => ⟨S8192x1024, .bf16⟩
  | .hbm, ⟨50, _⟩ => ⟨S4x2048x1024, .bf16⟩
  | .hbm, ⟨51, _⟩ => ⟨S1024x1024, .bf16⟩
  | .hbm, ⟨52, _⟩ => ⟨S8192x1024, .f32⟩
  | .hbm, ⟨53, _⟩ => ⟨S1x1024, .f32⟩
  | .hbm, ⟨54, _⟩ => ⟨S8192x1024, .bf16⟩
  | .hbm, ⟨55, _⟩ => ⟨S4x2048x1024, .bf16⟩
  | .hbm, ⟨56, _⟩ => ⟨S4x2048x1024, .bf16⟩
  | .hbm, ⟨57, _⟩ => ⟨S1024x1024, .bf16⟩
  | .hbm, ⟨58, _⟩ => ⟨S8192x1024, .f32⟩
  | .hbm, ⟨59, _⟩ => ⟨S1x1024, .f32⟩
  | .hbm, ⟨60, _⟩ => ⟨S8192x1024, .bf16⟩
  | .hbm, ⟨61, _⟩ => ⟨S4x2048x1024, .bf16⟩
  | .hbm, ⟨62, _⟩ => ⟨S1024x1024, .bf16⟩
  | .hbm, ⟨63, _⟩ => ⟨S8192x1024, .f32⟩
  | .hbm, ⟨64, _⟩ => ⟨S1x1024, .f32⟩
  | .hbm, ⟨65, _⟩ => ⟨S8192x1024, .bf16⟩
  | .hbm, ⟨66, _⟩ => ⟨S4x2048x1024, .bf16⟩
  | .hbm, ⟨67, _⟩ => ⟨S4x2048x1024, .bf16⟩
  | .hbm, ⟨68, _⟩ => ⟨S1024x1024, .f32⟩
  | .hbm, ⟨69, _⟩ => ⟨S1024x1024, .bf16⟩
  | .hbm, ⟨70, _⟩ => ⟨S1024x1024, .f32⟩
  | .hbm, ⟨71, _⟩ => ⟨S1024x1024, .bf16⟩
  | .hbm, ⟨72, _⟩ => ⟨S1024x1024, .f32⟩
  | .hbm, ⟨73, _⟩ => ⟨S1024x1024, .bf16⟩
  | .hbm, ⟨74, _⟩ => ⟨S1024x1024, .f32⟩
  | .hbm, ⟨75, _⟩ => ⟨S1024x1024, .bf16⟩
  | .hbm, ⟨76, _⟩ => ⟨S1024x1024, .f32⟩
  | .hbm, ⟨77, _⟩ => ⟨S1024x1024, .bf16⟩
  | .hbm, ⟨78, _⟩ => ⟨S1024x1024, .f32⟩
  | .hbm, ⟨79, _⟩ => ⟨S1024x1024, .bf16⟩
  | .hbm, ⟨80, _⟩ => ⟨S8192x1024, .f32⟩
  | .hbm, ⟨81, _⟩ => ⟨S8192x1024, .bf16⟩
  | .hbm, ⟨82, _⟩ => ⟨S1x1024, .f32⟩
  | .hbm, ⟨83, _⟩ => ⟨S8192x1024, .f32⟩
  | .hbm, ⟨84, _⟩ => ⟨S4x2048x1024, .f32⟩
  | .hbm, ⟨85, _⟩ => ⟨S8192x1024, .f32⟩
  | .hbm, ⟨86, _⟩ => ⟨S8192x1024, .bf16⟩
  | .hbm, ⟨87, _⟩ => ⟨S1x1024, .f32⟩
  | .hbm, ⟨88, _⟩ => ⟨S8192x1024, .f32⟩
  | .hbm, ⟨89, _⟩ => ⟨S4x2048x1024, .f32⟩
  | .hbm, ⟨90, _⟩ => ⟨S8192x1024, .f32⟩
  | .hbm, ⟨91, _⟩ => ⟨S8192x1024, .bf16⟩
  | .hbm, ⟨92, _⟩ => ⟨S1x1024, .f32⟩
  | .hbm, ⟨93, _⟩ => ⟨S8192x1024, .f32⟩
  | .hbm, ⟨94, _⟩ => ⟨S4x2048x1024, .f32⟩
  | .hbm, ⟨95, _⟩ => ⟨S4x2048x1x1024, .f32⟩
  | .hbm, ⟨96, _⟩ => ⟨S4x2048x1x1024, .f32⟩
  | .hbm, ⟨97, _⟩ => ⟨S4x2048x2x1024, .f32⟩
  | .hbm, ⟨98, _⟩ => ⟨S4x4096x1024, .f32⟩
  | .hbm, ⟨99, _⟩ => ⟨S4x6144x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1024x1024, .bf16⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S512x1, .f32⟩
  | .local _ .vmem, ⟨33, _⟩ => ⟨S512x1, .f32⟩
  | .local _ .vmem, ⟨34, _⟩ => ⟨S512x1024, .f32⟩
  | .local _ .vmem, ⟨35, _⟩ => ⟨S512x1024, .bf16⟩
  | .local _ .vmem, ⟨36, _⟩ => ⟨S512x1024, .f32⟩
  | .local _ .vmem, ⟨37, _⟩ => ⟨S512x1024, .f32⟩
  | .local _ .vmem, ⟨38, _⟩ => ⟨S1024x1024, .bf16⟩
  | .local _ .vmem, ⟨39, _⟩ => ⟨S1x1024, .f32⟩
  | .local _ .vmem, ⟨40, _⟩ => ⟨S512x1024, .bf16⟩
  | .local _ .vmem, ⟨41, _⟩ => ⟨S512x1024, .bf16⟩
  | .local _ .vmem, ⟨42, _⟩ => ⟨S512x1024, .f32⟩
  | .local _ .vmem, ⟨43, _⟩ => ⟨S512x1024, .f32⟩
  | .local _ .vmem, ⟨44, _⟩ => ⟨S1024x1024, .bf16⟩
  | .local _ .vmem, ⟨45, _⟩ => ⟨S1x1024, .f32⟩
  | .local _ .vmem, ⟨46, _⟩ => ⟨S512x1024, .bf16⟩
  | .local _ .vmem, ⟨47, _⟩ => ⟨S512x1024, .bf16⟩
  | .local _ .vmem, ⟨48, _⟩ => ⟨S1x512x1024, .bf16⟩
  | .local _ .vmem, ⟨49, _⟩ => ⟨S1x512x1024, .bf16⟩
  | .local _ .vmem, ⟨50, _⟩ => ⟨S1x512x1024, .bf16⟩
  | .local _ .vmem, ⟨51, _⟩ => ⟨S1x512x1024, .bf16⟩
  | .local _ .vmem, ⟨52, _⟩ => ⟨S1x512x1024, .bf16⟩
  | .local _ .vmem, ⟨53, _⟩ => ⟨S1x512x1024, .bf16⟩
  | .local _ .vmem, ⟨54, _⟩ => ⟨S1x512x1024, .bf16⟩
  | .local _ .vmem, ⟨55, _⟩ => ⟨S1x512x1024, .bf16⟩
  | .local _ .vmem, ⟨56, _⟩ => ⟨S512x1, .f32⟩
  | .local _ .vmem, ⟨57, _⟩ => ⟨S512x1, .f32⟩
  | .local _ .vmem, ⟨58, _⟩ => ⟨S512x1024, .f32⟩
  | .local _ .vmem, ⟨59, _⟩ => ⟨S512x1024, .bf16⟩
  | .local _ .vmem, ⟨60, _⟩ => ⟨S512x1024, .f32⟩
  | .local _ .vmem, ⟨61, _⟩ => ⟨S512x1024, .f32⟩
  | .local _ .vmem, ⟨62, _⟩ => ⟨S1024x1024, .bf16⟩
  | .local _ .vmem, ⟨63, _⟩ => ⟨S1x1024, .f32⟩
  | .local _ .vmem, ⟨64, _⟩ => ⟨S512x1024, .bf16⟩
  | .local _ .vmem, ⟨65, _⟩ => ⟨S512x1024, .bf16⟩
  | .local _ .vmem, ⟨66, _⟩ => ⟨S512x1024, .f32⟩
  | .local _ .vmem, ⟨67, _⟩ => ⟨S512x1024, .f32⟩
  | .local _ .vmem, ⟨68, _⟩ => ⟨S1024x1024, .bf16⟩
  | .local _ .vmem, ⟨69, _⟩ => ⟨S1x1024, .f32⟩
  | .local _ .vmem, ⟨70, _⟩ => ⟨S512x1024, .bf16⟩
  | .local _ .vmem, ⟨71, _⟩ => ⟨S512x1024, .bf16⟩
  | .local _ .vmem, ⟨72, _⟩ => ⟨S1x512x1024, .bf16⟩
  | .local _ .vmem, ⟨73, _⟩ => ⟨S1x512x1024, .bf16⟩
  | .local _ .vmem, ⟨74, _⟩ => ⟨S1x512x1024, .bf16⟩
  | .local _ .vmem, ⟨75, _⟩ => ⟨S1x512x1024, .bf16⟩
  | .local _ .vmem, ⟨76, _⟩ => ⟨S1x512x1024, .bf16⟩
  | .local _ .vmem, ⟨77, _⟩ => ⟨S1x512x1024, .bf16⟩
  | .local _ .vmem, ⟨78, _⟩ => ⟨S1x512x1024, .bf16⟩
  | .local _ .vmem, ⟨79, _⟩ => ⟨S1x512x1024, .bf16⟩
  | .local _ .vmem, ⟨80, _⟩ => ⟨S512x1, .f32⟩
  | .local _ .vmem, ⟨81, _⟩ => ⟨S512x1, .f32⟩
  | .local _ .vmem, ⟨82, _⟩ => ⟨S512x1024, .f32⟩
  | .local _ .vmem, ⟨83, _⟩ => ⟨S512x1024, .bf16⟩
  | .local _ .vmem, ⟨84, _⟩ => ⟨S512x1024, .f32⟩
  | .local _ .vmem, ⟨85, _⟩ => ⟨S512x1024, .f32⟩
  | .local _ .vmem, ⟨86, _⟩ => ⟨S512x1024, .bf16⟩
  | .local _ .vmem, ⟨87, _⟩ => ⟨S512x1024, .bf16⟩
  | .local _ .vmem, ⟨88, _⟩ => ⟨S1024x1024, .bf16⟩
  | .local _ .vmem, ⟨89, _⟩ => ⟨S1024x1024, .bf16⟩
  | .local _ .vmem, ⟨90, _⟩ => ⟨S1x1024, .f32⟩
  | .local _ .vmem, ⟨91, _⟩ => ⟨S512x1024, .f32⟩
  | .local _ .vmem, ⟨92, _⟩ => ⟨S512x1024, .f32⟩
  | .local _ .vmem, ⟨93, _⟩ => ⟨S512x1024, .f32⟩
  | .local _ .vmem, ⟨94, _⟩ => ⟨S512x1024, .f32⟩
  | .local _ .vmem, ⟨95, _⟩ => ⟨S512x1024, .bf16⟩
  | .local _ .vmem, ⟨96, _⟩ => ⟨S512x1024, .bf16⟩
  | .local _ .vmem, ⟨97, _⟩ => ⟨S1024x1024, .bf16⟩
  | .local _ .vmem, ⟨98, _⟩ => ⟨S1024x1024, .bf16⟩
  | .local _ .vmem, ⟨99, _⟩ => ⟨S1x1024, .f32⟩
  | .local _ .vmem, ⟨100, _⟩ => ⟨S512x1024, .f32⟩
  | .local _ .vmem, ⟨101, _⟩ => ⟨S512x1024, .f32⟩
  | .local _ .vmem, ⟨102, _⟩ => ⟨S512x1024, .f32⟩
  | .local _ .vmem, ⟨103, _⟩ => ⟨S512x1024, .f32⟩
  | .local _ .vmem, ⟨104, _⟩ => ⟨S512x1024, .bf16⟩
  | .local _ .vmem, ⟨105, _⟩ => ⟨S512x1024, .bf16⟩
  | .local _ .vmem, ⟨106, _⟩ => ⟨S1024x1024, .bf16⟩
  | .local _ .vmem, ⟨107, _⟩ => ⟨S1024x1024, .bf16⟩
  | .local _ .vmem, ⟨108, _⟩ => ⟨S1x1024, .f32⟩
  | .local _ .vmem, ⟨109, _⟩ => ⟨S512x1024, .f32⟩
  | .local _ .vmem, ⟨110, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | _, _ => false

abbrev semScoped : Fin 0 → Bool
  | ⟨_, h⟩ => absurd h (Nat.not_lt_zero _)

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  ofTc nBuf bufTy 0 99 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_scratch0 : Ref sig .tc := ⟨.vmem, 32, rfl⟩
abbrev cc3_scratch1 : Ref sig .tc := ⟨.vmem, 33, rfl⟩
abbrev cc3_scratch2 : Ref sig .tc := ⟨.vmem, 34, rfl⟩
abbrev cc3_scratch3 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg3_1 : Ref sig .tc := ⟨.vmem, 55, rfl⟩
abbrev cc6_scratch0 : Ref sig .tc := ⟨.vmem, 56, rfl⟩
abbrev cc6_scratch1 : Ref sig .tc := ⟨.vmem, 57, rfl⟩
abbrev cc6_scratch2 : Ref sig .tc := ⟨.vmem, 58, rfl⟩
abbrev cc6_scratch3 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg3_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg3_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg1_1 : Ref sig .tc := ⟨.vmem, 75, rfl⟩
abbrev cc9_stg2_0 : Ref sig .tc := ⟨.vmem, 76, rfl⟩
abbrev cc9_stg2_1 : Ref sig .tc := ⟨.vmem, 77, rfl⟩
abbrev cc9_stg3_0 : Ref sig .tc := ⟨.vmem, 78, rfl⟩
abbrev cc9_stg3_1 : Ref sig .tc := ⟨.vmem, 79, rfl⟩
abbrev cc9_scratch0 : Ref sig .tc := ⟨.vmem, 80, rfl⟩
abbrev cc9_scratch1 : Ref sig .tc := ⟨.vmem, 81, rfl⟩
abbrev cc9_scratch2 : Ref sig .tc := ⟨.vmem, 82, rfl⟩
abbrev cc9_scratch3 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg1_1 : Ref sig .tc := ⟨.vmem, 87, rfl⟩
abbrev cc10_stg2_0 : Ref sig .tc := ⟨.vmem, 88, rfl⟩
abbrev cc10_stg3_0 : Ref sig .tc := ⟨.vmem, 89, rfl⟩
abbrev cc10_stg4_0 : Ref sig .tc := ⟨.vmem, 90, rfl⟩
abbrev cc10_stg5_0 : Ref sig .tc := ⟨.vmem, 91, rfl⟩
abbrev cc10_stg5_1 : Ref sig .tc := ⟨.vmem, 92, rfl⟩
abbrev cc11_stg0_0 : Ref sig .tc := ⟨.vmem, 93, rfl⟩
abbrev cc11_stg0_1 : Ref sig .tc := ⟨.vmem, 94, rfl⟩
abbrev cc11_stg1_0 : Ref sig .tc := ⟨.vmem, 95, rfl⟩
abbrev cc11_stg1_1 : Ref sig .tc := ⟨.vmem, 96, rfl⟩
abbrev cc11_stg2_0 : Ref sig .tc := ⟨.vmem, 97, rfl⟩
abbrev cc11_stg3_0 : Ref sig .tc := ⟨.vmem, 98, rfl⟩
abbrev cc11_stg4_0 : Ref sig .tc := ⟨.vmem, 99, rfl⟩
abbrev cc11_stg5_0 : Ref sig .tc := ⟨.vmem, 100, rfl⟩
abbrev cc11_stg5_1 : Ref sig .tc := ⟨.vmem, 101, rfl⟩
abbrev cc12_stg0_0 : Ref sig .tc := ⟨.vmem, 102, rfl⟩
abbrev cc12_stg0_1 : Ref sig .tc := ⟨.vmem, 103, rfl⟩
abbrev cc12_stg1_0 : Ref sig .tc := ⟨.vmem, 104, rfl⟩
abbrev cc12_stg1_1 : Ref sig .tc := ⟨.vmem, 105, rfl⟩
abbrev cc12_stg2_0 : Ref sig .tc := ⟨.vmem, 106, rfl⟩
abbrev cc12_stg3_0 : Ref sig .tc := ⟨.vmem, 107, rfl⟩
abbrev cc12_stg4_0 : Ref sig .tc := ⟨.vmem, 108, rfl⟩
abbrev cc12_stg5_0 : Ref sig .tc := ⟨.vmem, 109, rfl⟩
abbrev cc12_stg5_1 : Ref sig .tc := ⟨.vmem, 110, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem3_1 : DmaSem sig := 57
abbrev cc8_sem0_0 : DmaSem sig := 58
abbrev cc8_sem0_1 : DmaSem sig := 59
abbrev cc8_sem1_0 : DmaSem sig := 60
abbrev cc8_sem2_0 : DmaSem sig := 61
abbrev cc8_sem3_0 : DmaSem sig := 62
abbrev cc8_sem3_1 : DmaSem sig := 63
abbrev cc9_sem0_0 : DmaSem sig := 64
abbrev cc9_sem0_1 : DmaSem sig := 65
abbrev cc9_sem1_0 : DmaSem sig := 66
abbrev cc9_sem1_1 : DmaSem sig := 67
abbrev cc9_sem2_0 : DmaSem sig := 68
abbrev cc9_sem2_1 : DmaSem sig := 69
abbrev cc9_sem3_0 : DmaSem sig := 70
abbrev cc9_sem3_1 : DmaSem sig := 71
abbrev cc10_sem0_0 : DmaSem sig := 72
abbrev cc10_sem0_1 : DmaSem sig := 73
abbrev cc10_sem1_0 : DmaSem sig := 74
abbrev cc10_sem1_1 : DmaSem sig := 75
abbrev cc10_sem2_0 : DmaSem sig := 76
abbrev cc10_sem3_0 : DmaSem sig := 77
abbrev cc10_sem4_0 : DmaSem sig := 78
abbrev cc10_sem5_0 : DmaSem sig := 79
abbrev cc10_sem5_1 : DmaSem sig := 80
abbrev cc11_sem0_0 : DmaSem sig := 81
abbrev cc11_sem0_1 : DmaSem sig := 82
abbrev cc11_sem1_0 : DmaSem sig := 83
abbrev cc11_sem1_1 : DmaSem sig := 84
abbrev cc11_sem2_0 : DmaSem sig := 85
abbrev cc11_sem3_0 : DmaSem sig := 86
abbrev cc11_sem4_0 : DmaSem sig := 87
abbrev cc11_sem5_0 : DmaSem sig := 88
abbrev cc11_sem5_1 : DmaSem sig := 89
abbrev cc12_sem0_0 : DmaSem sig := 90
abbrev cc12_sem0_1 : DmaSem sig := 91
abbrev cc12_sem1_0 : DmaSem sig := 92
abbrev cc12_sem1_1 : DmaSem sig := 93
abbrev cc12_sem2_0 : DmaSem sig := 94
abbrev cc12_sem3_0 : DmaSem sig := 95
abbrev cc12_sem4_0 : DmaSem sig := 96
abbrev cc12_sem5_0 : DmaSem sig := 97
abbrev cc12_sem5_1 : DmaSem sig := 98

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![4, 4, 4], ![false, false, false]⟩

def k3_cond2 (i : grid3.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_25 : BitVec 32 := 0#32
  let v42 : BitVec 1 := Scalar.cmpi .ne v41 c0_i32_25
  v42

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨3, ![4, 4, 4], ![false, false, false]⟩

def k6_cond2 (i : grid6.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_25 : BitVec 32 := 0#32
  let v42 : BitVec 1 := Scalar.cmpi .ne v41 c0_i32_25
  v42

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage6_0 : Fin 2 → Memref sig .tc .vmem S1x512x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true, false]

abbrev stage6_1 : Fin 2 → Memref sig .tc .vmem S1x512x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S1x512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false, true]

abbrev stage6_3 : Fin 2 → Memref sig .tc .vmem S1x512x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S512x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1024x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S512x1024 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨3, ![4, 4, 4], ![false, false, false]⟩

def k9_cond2 (i : grid9.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_25 : BitVec 32 := 0#32
  let v42 : BitVec 1 := Scalar.cmpi .ne v41 c0_i32_25
  v42

def cc9_transform_0 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc9_transform_3 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage9_0 : Fin 2 → Memref sig .tc .vmem S1x512x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true, false]

abbrev stage9_1 : Fin 2 → Memref sig .tc .vmem S1x512x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false, true]

abbrev stage9_2 : Fin 2 → Memref sig .tc .vmem S1x512x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false, true]

abbrev stage9_3 : Fin 2 → Memref sig .tc .vmem S1x512x1024 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]

abbrev grid10 : Pipeline.Grid := ⟨1, ![16], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S512x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1024x1024 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1024x1024 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1024 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S512x1024 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S512x1024 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S512x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1024x1024 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1024x1024 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x1024 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S512x1024 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![16], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S512x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S512x1024 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1024x1024 .bf16 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1024x1024 .bf16 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x1024 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S512x1024 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

class Facts₀ : Prop where
  slices_S3072x1024_S1024x1024_0_0 : S3072x1024.Slices ![0, 0] S1024x1024
  bitsLt_bf16_f32 : FTy.bits .bf16 < FTy.bits .f32
  slices_S3072x1024_S1024x1024_1024_0 : S3072x1024.Slices ![1024, 0] S1024x1024
  slices_S3072x1024_S1024x1024_2048_0 : S3072x1024.Slices ![2048, 0] S1024x1024
  shapeCasts_S4x2048x1024_S8192x1024 : S4x2048x1024.ShapeCasts S8192x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  slices_S2048x1024_S1024x1024_0_0 : S2048x1024.Slices ![0, 0] S1024x1024
  slices_S2048x1024_S1024x1024_1024_0 : S2048x1024.Slices ![1024, 0] S1024x1024
  bcast_S4x2048x1024_S4x2048x1x1024_0_1_3 : S4x2048x1024.BroadcastsInDim S4x2048x1x1024 (![0, 1, 3] : Fin 3 → Fin S4x2048x1x1024.rank)
  concatenates_S4x2048x1x1024_S4x2048x1x1024_S4x2048x2x1024_d2 : Shape.Concatenates [S4x2048x1x1024, S4x2048x1x1024] S4x2048x2x1024 2
  shapeCasts_S4x2048x2x1024_S4x4096x1024 : S4x2048x2x1024.ShapeCasts S4x4096x1024
  concatenates_S4x4096x1024_S4x2048x1024_S4x6144x1024_d1 : Shape.Concatenates [S4x4096x1024, S4x2048x1024] S4x6144x1024 1
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .bf16 = 32 ∨ (Rect.block (s := S8192x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .bf16 = 32 ∨ (Rect.block (s := S8192x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x1024.size a ≤ S4x2048x1024.size a
  hwx3_0 : ∀ i : grid3.Coords, EltTy.bits .bf16 = 32 ∨ (Rect.block (s := S4x2048x1024) S1x512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x1024.size a ≤ S4x2048x1024.size a
  hwx3_1 : ∀ i : grid3.Coords, EltTy.bits .bf16 = 32 ∨ (Rect.block (s := S4x2048x1024) S1x512x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x1024.size a ≤ S4x2048x1024.size a
  hwx3_2 : ∀ i : grid3.Coords, EltTy.bits .bf16 = 32 ∨ (Rect.block (s := S4x2048x1024) S1x512x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x1024.size a ≤ S4x2048x1024.size a
  hwx3_3 : ∀ i : grid3.Coords, EltTy.bits .bf16 = 32 ∨ (Rect.block (s := S4x2048x1024) S1x512x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x1024.size a
  hwx4_0 : ∀ i : grid4.Coords, EltTy.bits .f32 = 32 ∨ (Rect.block (s := S8192x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x1024.size a
  hwx4_3 : ∀ i : grid4.Coords, EltTy.bits .bf16 = 32 ∨ (Rect.block (s := S8192x1024) S512x1024.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S8192x1024.size a
  hwx5_0 : ∀ i : grid5.Coords, EltTy.bits .f32 = 32 ∨ (Rect.block (s := S8192x1024) S512x1024.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S1024x1024.size a
  hwx5_1 : ∀ i : grid5.Coords, EltTy.bits .bf16 = 32 ∨ (Rect.block (s := S1024x1024) S1024x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x1024.size a ≤ S8192x1024.size a
  hwx5_3 : ∀ i : grid5.Coords, EltTy.bits .bf16 = 32 ∨ (Rect.block (s := S8192x1024) S512x1024.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x512x1024.size a ≤ S4x2048x1024.size a
  hwx6_0 : ∀ i : grid6.Coords, EltTy.bits .bf16 = 32 ∨ (Rect.block (s := S4x2048x1024) S1x512x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x512x1024.size a ≤ S4x2048x1024.size a
  hwx6_1 : ∀ i : grid6.Coords, EltTy.bits .bf16 = 32 ∨ (Rect.block (s := S4x2048x1024) S1x512x1024.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x512x1024.size a ≤ S4x2048x1024.size a
  hwx6_2 : ∀ i : grid6.Coords, EltTy.bits .bf16 = 32 ∨ (Rect.block (s := S4x2048x1024) S1x512x1024.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x512x1024.size a ≤ S4x2048x1024.size a
  hwx6_3 : ∀ i : grid6.Coords, EltTy.bits .bf16 = 32 ∨ (Rect.block (s := S4x2048x1024) S1x512x1024.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x1024.size a ≤ S8192x1024.size a
  hwx7_0 : ∀ i : grid7.Coords, EltTy.bits .f32 = 32 ∨ (Rect.block (s := S8192x1024) S512x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x1024.size a ≤ S1024x1024.size a
  hwx7_1 : ∀ i : grid7.Coords, EltTy.bits .bf16 = 32 ∨ (Rect.block (s := S1024x1024) S1024x1024.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1024.size a ≤ S1x1024.size a
  hwx7_2 : ∀ i : grid7.Coords, EltTy.bits .f32 = 32 ∨ (Rect.block (s := S1x1024) S1x1024.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x1024.size a ≤ S8192x1024.size a
  hwx7_3 : ∀ i : grid7.Coords, EltTy.bits .bf16 = 32 ∨ (Rect.block (s := S8192x1024) S512x1024.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x1024.size a ≤ S8192x1024.size a
  hwx8_0 : ∀ i : grid8.Coords, EltTy.bits .f32 = 32 ∨ (Rect.block (s := S8192x1024) S512x1024.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1024x1024.size a ≤ S1024x1024.size a
  hwx8_1 : ∀ i : grid8.Coords, EltTy.bits .bf16 = 32 ∨ (Rect.block (s := S1024x1024) S1024x1024.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x1024.size a
  hwx8_2 : ∀ i : grid8.Coords, EltTy.bits .f32 = 32 ∨ (Rect.block (s := S1x1024) S1x1024.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S512x1024.size a ≤ S8192x1024.size a
  hwx8_3 : ∀ i : grid8.Coords, EltTy.bits .bf16 = 32 ∨ (Rect.block (s := S8192x1024) S512x1024.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x512x1024.size a ≤ S4x2048x1024.size a
  hwx9_0 : ∀ i : grid9.Coords, EltTy.bits .bf16 = 32 ∨ (Rect.block (s := S4x2048x1024) S1x512x1024.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x512x1024.size a ≤ S4x2048x1024.size a
  hwx9_1 : ∀ i : grid9.Coords, EltTy.bits .bf16 = 32 ∨ (Rect.block (s := S4x2048x1024) S1x512x1024.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1x512x1024.size a ≤ S4x2048x1024.size a
  hwx9_2 : ∀ i : grid9.Coords, EltTy.bits .bf16 = 32 ∨ (Rect.block (s := S4x2048x1024) S1x512x1024.size (cc9_transform_2 i) (hinb9_2 i)).WholeWords (EltTy.packing .bf16)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1x512x1024.size a ≤ S4x2048x1024.size a
  hwx9_3 : ∀ i : grid9.Coords, EltTy.bits .bf16 = 32 ∨ (Rect.block (s := S4x2048x1024) S1x512x1024.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x1024.size a ≤ S8192x1024.size a
  hwx10_0 : ∀ i : grid10.Coords, EltTy.bits .f32 = 32 ∨ (Rect.block (s := S8192x1024) S512x1024.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S512x1024.size a ≤ S8192x1024.size a
  hwx10_1 : ∀ i : grid10.Coords, EltTy.bits .bf16 = 32 ∨ (Rect.block (s := S8192x1024) S512x1024.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1024x1024.size a ≤ S1024x1024.size a
  hwx10_2 : ∀ i : grid10.Coords, EltTy.bits .bf16 = 32 ∨ (Rect.block (s := S1024x1024) S1024x1024.size (cc10_transform_2 i) (hinb10_2 i)).WholeWords (EltTy.packing .bf16)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1024x1024.size a ≤ S1024x1024.size a
  hwx10_3 : ∀ i : grid10.Coords, EltTy.bits .bf16 = 32 ∨ (Rect.block (s := S1024x1024) S1024x1024.size (cc10_transform_3 i) (hinb10_3 i)).WholeWords (EltTy.packing .bf16)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x1024.size a ≤ S1x1024.size a
  hwx10_4 : ∀ i : grid10.Coords, EltTy.bits .f32 = 32 ∨ (Rect.block (s := S1x1024) S1x1024.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S512x1024.size a ≤ S8192x1024.size a
  hwx10_5 : ∀ i : grid10.Coords, EltTy.bits .f32 = 32 ∨ (Rect.block (s := S8192x1024) S512x1024.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S512x1024.size a ≤ S8192x1024.size a
  hwx11_0 : ∀ i : grid11.Coords, EltTy.bits .f32 = 32 ∨ (Rect.block (s := S8192x1024) S512x1024.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S512x1024.size a ≤ S8192x1024.size a
  hwx11_1 : ∀ i : grid11.Coords, EltTy.bits .bf16 = 32 ∨ (Rect.block (s := S8192x1024) S512x1024.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1024x1024.size a ≤ S1024x1024.size a
  hwx11_2 : ∀ i : grid11.Coords, EltTy.bits .bf16 = 32 ∨ (Rect.block (s := S1024x1024) S1024x1024.size (cc11_transform_2 i) (hinb11_2 i)).WholeWords (EltTy.packing .bf16)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1024x1024.size a ≤ S1024x1024.size a
  hwx11_3 : ∀ i : grid11.Coords, EltTy.bits .bf16 = 32 ∨ (Rect.block (s := S1024x1024) S1024x1024.size (cc11_transform_3 i) (hinb11_3 i)).WholeWords (EltTy.packing .bf16)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x1024.size a ≤ S1x1024.size a
  hwx11_4 : ∀ i : grid11.Coords, EltTy.bits .f32 = 32 ∨ (Rect.block (s := S1x1024) S1x1024.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S512x1024.size a ≤ S8192x1024.size a
  hwx11_5 : ∀ i : grid11.Coords, EltTy.bits .f32 = 32 ∨ (Rect.block (s := S8192x1024) S512x1024.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S512x1024.size a ≤ S8192x1024.size a
  hwx12_0 : ∀ i : grid12.Coords, EltTy.bits .f32 = 32 ∨ (Rect.block (s := S8192x1024) S512x1024.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S512x1024.size a ≤ S8192x1024.size a
  hwx12_1 : ∀ i : grid12.Coords, EltTy.bits .bf16 = 32 ∨ (Rect.block (s := S8192x1024) S512x1024.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1024x1024.size a ≤ S1024x1024.size a
  hwx12_2 : ∀ i : grid12.Coords, EltTy.bits .bf16 = 32 ∨ (Rect.block (s := S1024x1024) S1024x1024.size (cc12_transform_2 i) (hinb12_2 i)).WholeWords (EltTy.packing .bf16)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1024x1024.size a ≤ S1024x1024.size a
  hwx12_3 : ∀ i : grid12.Coords, EltTy.bits .bf16 = 32 ∨ (Rect.block (s := S1024x1024) S1024x1024.size (cc12_transform_3 i) (hinb12_3 i)).WholeWords (EltTy.packing .bf16)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x1024.size a ≤ S1x1024.size a
  hwx12_4 : ∀ i : grid12.Coords, EltTy.bits .f32 = 32 ∨ (Rect.block (s := S1x1024) S1x1024.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S512x1024.size a ≤ S8192x1024.size a
  hwx12_5 : ∀ i : grid12.Coords, EltTy.bits .f32 = 32 ∨ (Rect.block (s := S8192x1024) S512x1024.size (cc12_transform_5 i) (hinb12_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v11) S1x512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v22) S1x512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v24) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v26) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v29) S512x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v28) S1024x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v30) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v31) S512x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v11) S1x512x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v27) S1x512x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v32) S1x512x1024.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v33) S1x512x1024.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v35) S512x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v34) S1024x1024.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v36) S1x1024.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v37) S512x1024.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v40) S512x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v39) S1024x1024.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v41) S1x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v42) S512x1024.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v11) S1x512x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v38) S1x512x1024.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v43) S1x512x1024.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v44) S1x512x1024.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v57) S512x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v58) S512x1024.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v46) S1024x1024.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v48) S1024x1024.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v59) S1x1024.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v60) S512x1024.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v62) S512x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v63) S512x1024.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v50) S1024x1024.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v52) S1024x1024.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v64) S1x1024.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v65) S512x1024.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v67) S512x1024.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v68) S512x1024.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v54) S1024x1024.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v56) S1024x1024.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v69) S1x1024.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v70) S512x1024.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024 : Shape := ⟨1, ![1024]⟩
abbrev S1024x1024 : Shape := ⟨2, ![1024, 1024]⟩
abbrev S2048x1024 : Shape := ⟨2, ![2048, 1024]⟩
abbrev S_ : Shape := ⟨0, ![]⟩
abbrev S4x2048x3072 : Shape := ⟨3, ![4, 2048, 3072]⟩
abbrev S1x1x1024 : Shape := ⟨3, ![1, 1, 1024]⟩
abbrev S4x2048x2048 : Shape := ⟨3, ![4, 2048, 2048]⟩
abbrev S4x2048 : Shape := ⟨2, ![4, 2048]⟩
abbrev S4x2048x1 : Shape := ⟨3, ![4, 2048, 1]⟩
abbrev S4x2048x1x1024 : Shape := ⟨4, ![4, 2048, 1, 1024]⟩
abbrev S4x2048x2x1024 : Shape := ⟨4, ![4, 2048, 2, 1024]⟩
abbrev S4x4096x1024 : Shape := ⟨3, ![4, 4096, 1024]⟩
abbrev S4x6144x1024 : Shape := ⟨3, ![4, 6144, 1024]⟩

abbrev nBuf : Space → Nat
  | .hbm => 130
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x2048x1024, .f32⟩
  | 3 => ⟨S3072x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024x1024, .f32⟩
  | 16 => ⟨S1024, .f32⟩
  | 17 => ⟨S2048x1024, .f32⟩
  | 18 => ⟨S1024, .f32⟩
  | 19 => ⟨S2048x1024, .f32⟩
  | 20 => ⟨S1024, .f32⟩
  | 21 => ⟨S2048x1024, .f32⟩
  | 22 => ⟨S1024, .f32⟩
  | 23 => ⟨S_, .f32⟩
  | 24 => ⟨S_, .f32⟩
  | 25 => ⟨S_, .f32⟩
  | 26 => ⟨S_, .f32⟩
  | 27 => ⟨S4x2048x3072, .f32⟩
  | 28 => ⟨S4x2048x1024, .f32⟩
  | 29 => ⟨S1x1x1024, .f32⟩
  | 30 => ⟨S4x2048x1024, .f32⟩
  | 31 => ⟨S4x2048x1024, .f32⟩
  | 32 => ⟨S4x2048x1024, .f32⟩
  | 33 => ⟨S1x1x1024, .f32⟩
  | 34 => ⟨S4x2048x1024, .f32⟩
  | 35 => ⟨S4x2048x1024, .f32⟩
  | 36 => ⟨S4x2048x1024, .f32⟩
  | 37 => ⟨S1x1x1024, .f32⟩
  | 38 => ⟨S4x2048x1024, .f32⟩
  | 39 => ⟨S4x2048x1024, .f32⟩
  | 40 => ⟨S4x2048x2048, .f32⟩
  | 41 => ⟨S4x2048x2048, .f32⟩
  | 42 => ⟨S4x2048x2048, .f32⟩
  | 43 => ⟨S_, .f32⟩
  | 44 => ⟨S4x2048, .f32⟩
  | 45 => ⟨S_, .f32⟩
  | 46 => ⟨S4x2048, .f32⟩
  | 47 => ⟨S4x2048, .f32⟩
  | 48 => ⟨S4x2048x1, .f32⟩
  | 49 => ⟨S4x2048x2048, .f32⟩
  | 50 => ⟨S4x2048x2048, .f32⟩
  | 51 => ⟨S4x2048x2048, .f32⟩
  | 52 => ⟨S_, .f32⟩
  | 53 => ⟨S4x2048, .f32⟩
  | 54 => ⟨S4x2048x1, .f32⟩
  | 55 => ⟨S4x2048x2048, .f32⟩
  | 56 => ⟨S4x2048x2048, .f32⟩
  | 57 => ⟨S4x2048x1024, .f32⟩
  | 58 => ⟨S4x2048x1024, .f32⟩
  | 59 => ⟨S1x1x1024, .f32⟩
  | 60 => ⟨S4x2048x1024, .f32⟩
  | 61 => ⟨S4x2048x1024, .f32⟩
  | 62 => ⟨S4x2048x1024, .f32⟩
  | 63 => ⟨S1x1x1024, .f32⟩
  | 64 => ⟨S4x2048x1024, .f32⟩
  | 65 => ⟨S4x2048x1024, .f32⟩
  | 66 => ⟨S4x2048x2048, .f32⟩
  | 67 => ⟨S4x2048x2048, .f32⟩
  | 68 => ⟨S4x2048x2048, .f32⟩
  | 69 => ⟨S_, .f32⟩
  | 70 => ⟨S4x2048, .f32⟩
  | 71 => ⟨S_, .f32⟩
  | 72 => ⟨S4x2048, .f32⟩
  | 73 => ⟨S4x2048, .f32⟩
  | 74 => ⟨S4x2048x1, .f32⟩
  | 75 => ⟨S4x2048x2048, .f32⟩
  | 76 => ⟨S4x2048x2048, .f32⟩
  | 77 => ⟨S4x2048x2048, .f32⟩
  | 78 => ⟨S_, .f32⟩
  | 79 => ⟨S4x2048, .f32⟩
  | 80 => ⟨S4x2048x1, .f32⟩
  | 81 => ⟨S4x2048x2048, .f32⟩
  | 82 => ⟨S4x2048x2048, .f32⟩
  | 83 => ⟨S4x2048x1024, .f32⟩
  | 84 => ⟨S4x2048x1024, .f32⟩
  | 85 => ⟨S1x1x1024, .f32⟩
  | 86 => ⟨S4x2048x1024, .f32⟩
  | 87 => ⟨S4x2048x1024, .f32⟩
  | 88 => ⟨S4x2048x1024, .f32⟩
  | 89 => ⟨S1x1x1024, .f32⟩
  | 90 => ⟨S4x2048x1024, .f32⟩
  | 91 => ⟨S4x2048x1024, .f32⟩
  | 92 => ⟨S4x2048x2048, .f32⟩
  | 93 => ⟨S4x2048x2048, .f32⟩
  | 94 => ⟨S4x2048x2048, .f32⟩
  | 95 => ⟨S_, .f32⟩
  | 96 => ⟨S4x2048, .f32⟩
  | 97 => ⟨S_, .f32⟩
  | 98 => ⟨S4x2048, .f32⟩
  | 99 => ⟨S4x2048, .f32⟩
  | 100 => ⟨S4x2048x1, .f32⟩
  | 101 => ⟨S4x2048x2048, .f32⟩
  | 102 => ⟨S4x2048x2048, .f32⟩
  | 103 => ⟨S4x2048x2048, .f32⟩
  | 104 => ⟨S_, .f32⟩
  | 105 => ⟨S4x2048, .f32⟩
  | 106 => ⟨S4x2048x1, .f32⟩
  | 107 => ⟨S4x2048x2048, .f32⟩
  | 108 => ⟨S4x2048x2048, .f32⟩
  | 109 => ⟨S4x2048x1024, .f32⟩
  | 110 => ⟨S4x2048x2048, .f32⟩
  | 111 => ⟨S4x2048x1024, .f32⟩
  | 112 => ⟨S1x1x1024, .f32⟩
  | 113 => ⟨S4x2048x1024, .f32⟩
  | 114 => ⟨S4x2048x1024, .f32⟩
  | 115 => ⟨S4x2048x2048, .f32⟩
  | 116 => ⟨S4x2048x1024, .f32⟩
  | 117 => ⟨S1x1x1024, .f32⟩
  | 118 => ⟨S4x2048x1024, .f32⟩
  | 119 => ⟨S4x2048x1024, .f32⟩
  | 120 => ⟨S4x2048x2048, .f32⟩
  | 121 => ⟨S4x2048x1024, .f32⟩
  | 122 => ⟨S1x1x1024, .f32⟩
  | 123 => ⟨S4x2048x1024, .f32⟩
  | 124 => ⟨S4x2048x1024, .f32⟩
  | 125 => ⟨S4x2048x1x1024, .f32⟩
  | 126 => ⟨S4x2048x1x1024, .f32⟩
  | 127 => ⟨S4x2048x2x1024, .f32⟩
  | _ => ⟨S4x2048x1024, .f32⟩

abbrev hbmTy0_1 (i : Nat) : BufTy := match i % 128 with
  | 0 => ⟨S4x4096x1024, .f32⟩
  | 1 => ⟨S4x6144x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_cst_0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_4 : Ref sig .tc := ⟨.hbm, 69, rfl⟩
abbrev main_v41 : Ref sig .tc := ⟨.hbm, 70, rfl⟩
abbrev main_cst_5 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_6 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_7 : Ref sig .tc := ⟨.hbm, 95, rfl⟩
abbrev main_v64 : Ref sig .tc := ⟨.hbm, 96, rfl⟩
abbrev main_cst_8 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  concatenates_S4x2048x1024_S4x2048x1024_S4x2048x1024_S4x2048x3072_d2 : Shape.Concatenates [S4x2048x1024, S4x2048x1024, S4x2048x1024] S4x2048x3072 2
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  concatenates_S4x2048x1024_S4x2048x1024_S4x2048x2048_d2 : Shape.Concatenates [S4x2048x1024, S4x2048x1024] S4x2048x2048 2
  bcast_S4x2048x1024_S4x2048x1x1024_0_1_3 : S4x2048x1024.BroadcastsInDim S4x2048x1x1024 (![0, 1, 3] : Fin 3 → Fin S4x2048x1x1024.rank)
  concatenates_S4x2048x1x1024_S4x2048x1x1024_S4x2048x2x1024_d2 : Shape.Concatenates [S4x2048x1x1024, S4x2048x1x1024] S4x2048x2x1024 2
  shapeCasts_S4x2048x2x1024_S4x4096x1024 : S4x2048x2x1024.ShapeCasts S4x4096x1024
  concatenates_S4x4096x1024_S4x2048x1024_S4x6144x1024_d1 : Shape.Concatenates [S4x4096x1024, S4x2048x1024] S4x6144x1024 1
  dot_S4x2048x3072_S3072x1024_S4x2048x1024_2_0_01_1_n_n_wf : DotDims.WF S4x2048x3072 S3072x1024 S4x2048x1024 [2] [0] [0, 1] [1] [] []
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x2048_S2048x1024_S4x2048x1024_2_0_01_1_n_n_wf : DotDims.WF S4x2048x2048 S2048x1024 S4x2048x1024 [2] [0] [0, 1] [1] [] []

variable [Facts₀]

def dot_S4x2048x3072_S3072x1024_S4x2048x1024_2_0_01_1_n_n : DotDims S4x2048x3072 S3072x1024 S4x2048x1024 where
  lhsContracting := [2]
  rhsContracting := [0]
  lhsNonContracting := [0, 1]
  rhsNonContracting := [1]
  lhsBatch := []
  rhsBatch := []
  wf := dot_S4x2048x3072_S3072x1024_S4x2048x1024_2_0_01_1_n_n_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x2048_S2048x1024_S4x2048x1024_2_0_01_1_n_n : DotDims S4x2048x2048 S2048x1024 S4x2048x1024 where
  lhsContracting := [2]
  rhsContracting := [0]
  lhsNonContracting := [0, 1]
  rhsNonContracting := [1]
  lhsBatch := []
  rhsBatch := []
  wf := dot_S4x2048x2048_S2048x1024_S4x2048x1024_2_0_01_1_n_n_wf

class Facts : Prop extends Facts₀ where

variable [Facts]
-- ==== Proof.RunBase.lean ====
/-
  Small shared definitions for the run of the kernel program's @main: a valuation read at the TensorCore's references, what
  every segment carries beside the unscoped buffers, and the trivial level assignment (no core waits on another).
-/
import proofs.«117683_j11484742549629_2_alg».proof.Proof.RegionsKI
import Idealize.ShloMosaic.Lib.Pipeline.RegionsLoop

noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]

/-- A valuation read at the TensorCore's references: the form a region's proof data take their entry contents in. -/
abbrev atTc (W : Dev nD → Valuation τ sig (Elt F)) : (c : Dev nD) → (b : Ref sig .tc) → Buf (Elt F) ((c : Thread nD τ).loc b) :=
  fun c b => W c b

/-- What every segment carries beside the unscoped buffers: the core's generator register at some state, and the core
    owing nothing. -/
abbrev beside (c : Dev nD) : sProp (MT nD τ sig Unit (Elt F) ℕ (UR sig nD τ) ℕ) :=
  iprop((∃ r, prngReg c r) ∗ ∃ W, owes (c : Thread nD τ) (0 : CellTallies nD τ sig Unit) W)

/-- No core waits on another: no level is assigned anywhere. -/
abbrev noLevels : GSem nD τ sig → Finset Unit := fun _ => ∅
abbrev levelZero : GSem nD τ sig → Unit → ℕ := fun _ _ => 0

end Cert.KernelIdeal.Hand
end
-- ==== Proof.LinDat0.lean ====
/- Region 0 (the query projection: three activation tiles, each times its weight matrix, summed, plus the bias row, rounded to bf16): the blocks its 8 windows
   hold at a grid point, the block its body stores as a function of the 7 input blocks, and the pipeline's
   proof data at an arbitrary entry valuation. -/
import proofs.«117683_j11484742549629_2_alg».proof.Proof.Gen.KernelIdeal.Skeleton
import proofs.«117683_j11484742549629_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The rectangles the body reads and writes: each is a whole staging buffer -/

/-- all of a 512x1024 tile (an input tile, and the result tile) -/
abbrev tileAll0 : Rect S512x1024 := Rect.unit (s := S512x1024) ![0, 0] S512x1024.size inb_S512x1024_S512x1024_0_0
/-- all of a 1024x1024 weight matrix -/
abbrev weightAll0 : Rect S1024x1024 := Rect.unit (s := S1024x1024) ![0, 0] S1024x1024.size inb_S1024x1024_S1024x1024_0_0
/-- all of the 1x1024 bias row -/
abbrev biasAll0 : Rect S1x1024 := Rect.unit (s := S1x1024) ![0, 0] S1x1024.size inb_S1x1024_S1x1024_0_0

/-- A pair of zero offsets is the constant-zero offset. -/
theorem zeroOffsets0 : (![0, 0] : Fin 2 → Nat) = fun _ => 0 := funext fun a => by fin_cases a <;> rfl

/-! ## The stored block -/

/-- The result buffer after the body, given the 7 input buffers' contents: the body's single store,
    which goes through the whole tile, with the payload evaluated at the 7 whole-buffer loads. -/
def out0 (x1 : Vec F S512x1024 .f32) (x2 : Vec F S512x1024 .f32) (x3 : Vec F S512x1024 .f32) (w1 : Vec F S1024x1024 .bf16) (w2 : Vec F S1024x1024 .bf16) (w3 : Vec F S1024x1024 .bf16) (bias : Vec F S1x1024 .f32) : Vec F S512x1024 .bf16 :=
  View.canon [⟨tileAll0, k0_pay1 (View.ld x1 tileAll0) (View.ld x2 tileAll0) (View.ld x3 tileAll0) (View.ld w1 weightAll0) (View.ld w2 weightAll0) (View.ld w3 weightAll0) (View.ld bias biasAll0)⟩]

/-- Since the store and the loads are through whole buffers, the stored block is the payload of the
    input blocks themselves. -/
theorem out0_eq_pay (x1 : Vec F S512x1024 .f32) (x2 : Vec F S512x1024 .f32) (x3 : Vec F S512x1024 .f32) (w1 : Vec F S1024x1024 .bf16) (w2 : Vec F S1024x1024 .bf16) (w3 : Vec F S1024x1024 .bf16) (bias : Vec F S1x1024 .f32) :
    out0 x1 x2 x3 w1 w2 w3 bias = k0_pay1 x1 x2 x3 w1 w2 w3 bias := by
  unfold out0
  rw [View.canon_unit_zero (S := S512x1024) zeroOffsets0 inb_S512x1024_S512x1024_0_0]
  rw [View.ld_unit_zero (S := S512x1024) zeroOffsets0 inb_S512x1024_S512x1024_0_0 x1]
  rw [View.ld_unit_zero (S := S512x1024) zeroOffsets0 inb_S512x1024_S512x1024_0_0 x2]
  rw [View.ld_unit_zero (S := S512x1024) zeroOffsets0 inb_S512x1024_S512x1024_0_0 x3]
  rw [View.ld_unit_zero (S := S1024x1024) zeroOffsets0 inb_S1024x1024_S1024x1024_0_0 w1]
  rw [View.ld_unit_zero (S := S1024x1024) zeroOffsets0 inb_S1024x1024_S1024x1024_0_0 w2]
  rw [View.ld_unit_zero (S := S1024x1024) zeroOffsets0 inb_S1024x1024_S1024x1024_0_0 w3]
  rw [View.ld_unit_zero (S := S1x1024) zeroOffsets0 inb_S1x1024_S1x1024_0_0 bias]

/-- The single store reaches every index of the tile. -/
theorem storeCovers0 (p : Vec F S512x1024 .bf16) (y : S512x1024.Idx) :
    ∃ pc ∈ ([⟨tileAll0, p⟩] : List (View.Piece (Elt F) S512x1024 .bf16)), y ∈ pc.1.set :=
  ⟨_, List.mem_singleton_self _, View.mem_set_unit_zero (S := S512x1024) zeroOffsets0 inb_S512x1024_S512x1024_0_0 y⟩

/-! ## Proof data of the pipeline -/

/-- On core `c`: every window's array is what the entry valuation says; after the body at point `t` the 7
    input buffers still hold their blocks and the result buffer holds `out0` of them; the invariant is the
    untouched rest (scoped buffers and the generator register); no debts, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0 (iblk0 V c 0 t) (iblk0 V c 1 t) (iblk0 V c 2 t) (iblk0 V c 3 t) (iblk0 V c 4 t) (iblk0 V c 5 t) (iblk0 V c 6 t) := by dsimp only [dat0]

/-- The same, with the stored block spelt as the payload of the input blocks. -/
theorem after0_7_pay (c : Dev nD) (t : Fin cfg0.N) :
    (dat0 V c).after 7 t = k0_pay1 (iblk0 V c 0 t) (iblk0 V c 1 t) (iblk0 V c 2 t) (iblk0 V c 3 t) (iblk0 V c 4 t) (iblk0 V c 5 t) (iblk0 V c 6 t) := by
  rw [after0_7, out0_eq_pay]

/-! ## What an input's staging buffer holds when the body starts

A tile's buffer is fetched at every point; a weight matrix and the bias row are fetched once and their index
never moves. Either way the buffer holds the window's block of the entry array. -/

/-- the first activation tile -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- the second activation tile -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- the third activation tile -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- the first weight matrix -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- the second weight matrix -/
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-- the third weight matrix -/
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-- the bias row -/
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

end Cert.KernelIdeal.Hand
-- ==== Proof.LinBody0.lean ====
/- Region 0 (the query projection: three activation tiles, each times its weight matrix, summed, plus the bias row, rounded to bf16): the kernel body run on whole
   staging buffers, and from it the obligation the pipeline asks of the body at every grid point. -/
import proofs.«117683_j11484742549629_2_alg».proof.Proof.LinDat0
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the eight windows, written out. -/
theorem eightWindows0 {M : Type} [URA M] (P : Fin 8 → sProp M) :
    bigSep Finset.univ P = iprop(P 0 ∗ P 1 ∗ P 2 ∗ P 3 ∗ P 4 ∗ P 5 ∗ P 6 ∗ P 7) :=
  bigSep_univ_eq_bigSepL [(0 : Fin 8), 1, 2, 3, 4, 5, 6, 7] (by decide) (by decide) P

variable (V : (c : Dev nD) → (b : Ref sig .tc) → Buf (Elt F) ((c : Thread nD τ).loc b))

/-! ## The body on whole buffers -/

set_option maxHeartbeats 1000000 in
/-- Given the 7 inputs in whole buffers, and one more whole buffer holding anything, the body ends with the
    inputs unchanged and the last buffer holding `out0` of them. It loads every buffer whole and stores once,
    through the whole tile. -/
theorem sound_kernel0 (c : Dev nD) (E : Set ℕ) (i : grid0.Coords)
    (m_x1 : Memref sig .tc .vmem S512x1024 .f32) (h_x1 : m_x1.IsWhole)
    (m_x2 : Memref sig .tc .vmem S512x1024 .f32) (h_x2 : m_x2.IsWhole)
    (m_x3 : Memref sig .tc .vmem S512x1024 .f32) (h_x3 : m_x3.IsWhole)
    (m_w1 : Memref sig .tc .vmem S1024x1024 .bf16) (h_w1 : m_w1.IsWhole)
    (m_w2 : Memref sig .tc .vmem S1024x1024 .bf16) (h_w2 : m_w2.IsWhole)
    (m_w3 : Memref sig .tc .vmem S1024x1024 .bf16) (h_w3 : m_w3.IsWhole)
    (m_bias : Memref sig .tc .vmem S1x1024 .f32) (h_bias : m_bias.IsWhole)
    (m_res : Memref sig .tc .vmem S512x1024 .bf16) (h_res : m_res.IsWhole)
    (x1 : Vec F S512x1024 .f32) (x2 : Vec F S512x1024 .f32) (x3 : Vec F S512x1024 .f32) (w1 : Vec F S1024x1024 .bf16) (w2 : Vec F S1024x1024 .bf16) (w3 : Vec F S1024x1024 .bf16) (bias : Vec F S1x1024 .f32) (K : PUnit → sProp 𝕄) :
    iprop(owns (c : Thread nD τ) m_x1 fullShare x1
        ∗ owns (c : Thread nD τ) m_x2 fullShare x2
        ∗ owns (c : Thread nD τ) m_x3 fullShare x3
        ∗ owns (c : Thread nD τ) m_w1 fullShare w1
        ∗ owns (c : Thread nD τ) m_w2 fullShare w2
        ∗ owns (c : Thread nD τ) m_w3 fullShare w3
        ∗ owns (c : Thread nD τ) m_bias fullShare bias
        ∗ (∃ d, owns (c : Thread nD τ) m_res fullShare d)
        ∗ (iprop(owns (c : Thread nD τ) m_x1 fullShare x1
            ∗ owns (c : Thread nD τ) m_x2 fullShare x2
            ∗ owns (c : Thread nD τ) m_x3 fullShare x3
            ∗ owns (c : Thread nD τ) m_w1 fullShare w1
            ∗ owns (c : Thread nD τ) m_w2 fullShare w2
            ∗ owns (c : Thread nD τ) m_w3 fullShare w3
            ∗ owns (c : Thread nD τ) m_bias fullShare bias
            ∗ owns (c : Thread nD τ) m_res fullShare (out0 x1 x2 x3 w1 w2 w3 bias)) -∗ K ⟨⟩))
      ⊢ wp frame (wpE (defs₀ (F := F)) Variants.none c none) E (cc0__qproj_kernel i m_x1 h_x1 m_x2 h_x2 m_x3 h_x3 m_w1 h_w1 m_w2 h_w2 m_w3 h_w3 m_bias h_bias m_res h_res) K := by
  rw [cc0__qproj_kernel_eq_skeleton]; unfold cc0__qproj_kernel_skel
  unfold owns
  iintro ⟨⟨%f_x1, %e_x1, P_x1⟩, ⟨%f_x2, %e_x2, P_x2⟩, ⟨%f_x3, %e_x3, P_x3⟩, ⟨%f_w1, %e_w1, P_w1⟩, ⟨%f_w2, %e_w2, P_w2⟩, ⟨%f_w3, %e_w3, P_w3⟩, ⟨%f_bias, %e_bias, P_bias⟩, ⟨%d, %f_res, -, P_res⟩, Hcont⟩
  subst e_x1; subst e_x2; subst e_x3; subst e_w1; subst e_w2; subst e_w3; subst e_bias
  sl_exec
  sl_step
  iapply Hcont
  isplitl [P_x1]
  · iexists f_x1; isplitr
    · ipureintro; rfl
    · iexact P_x1
  isplitl [P_x2]
  · iexists f_x2; isplitr
    · ipureintro; rfl
    · iexact P_x2
  isplitl [P_x3]
  · iexists f_x3; isplitr
    · ipureintro; rfl
    · iexact P_x3
  isplitl [P_w1]
  · iexists f_w1; isplitr
    · ipureintro; rfl
    · iexact P_w1
  isplitl [P_w2]
  · iexists f_w2; isplitr
    · ipureintro; rfl
    · iexact P_w2
  isplitl [P_w3]
  · iexists f_w3; isplitr
    · ipureintro; rfl
    · iexact P_w3
  isplitl [P_bias]
  · iexists f_bias; isplitr
    · ipureintro; rfl
    · iexact P_bias
  iexists _; isplitr
  swap
  · iexact P_res
  ipureintro
  exact View.read_writes_eq_canon _ _ _ (storeCovers0 _)

/-! ## The obligation at a grid point -/

/-- What the pipeline hands the body at point `t`: the invariant, the core's debts, and the eight staging buffers. -/
def bodyGiven0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it must hand back. -/
def bodyOwed0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- At every point the input buffers hold their blocks, so the run on whole buffers applies; the invariant and
    the debts are not touched by the body. -/
theorem sound_body0 (c : Dev nD) (t : Fin cfg0.N) :
    bodyGiven0 V c t ⊢ wp frame (wpE (defs₀ (F := F)) Variants.none c none) Set.univ (bodyAt0 t) (fun _ => bodyOwed0 V c t) := by
  unfold bodyGiven0 bodyOwed0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨Hinv, Hdebt, ⟨%d0, B0⟩, ⟨%d1, B1⟩, ⟨%d2, B2⟩, ⟨%d3, B3⟩, ⟨%d4, B4⟩, ⟨%d5, B5⟩, ⟨%d6, B6⟩, ⟨%d7, B7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexists _; iexact B7
  iintro ⟨B0, B1, B2, B3, B4, B5, B6, B7⟩
  isplitl [Hinv]; · iexact Hinv
  isplitl [Hdebt]; · iexact Hdebt
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

/-- The pipeline's obligation on the body, at every grid point. -/
theorem body_obligation0 (c : Dev nD) :
    BodyObligation (dat0 (F := F) V c) (defs₀ (F := F)) Variants.none () Set.univ := fun t => by
  rw [eightWindows0, eightWindows0]
  exact sound_body0 V c t

end Cert.KernelIdeal.Hand
-- ==== Proof.RunSeg0.lean ====
/-
  Region 0 of the kernel program's @main as a segment of the run. The region reads its input windows' arrays and writes one
  array, main_v10: so the contents after it are the contents before it with that buffer replaced by the fold of the grid
  points' write-backs, every input window's array being what it was (a window that is never written back keeps its array).
-/
import proofs.«117683_j11484742549629_2_alg».proof.Proof.RunBase
import proofs.«117683_j11484742549629_2_alg».proof.Proof.LinBody0

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What region 0 leaves in main_v10, from entry contents Wi. -/
def outArr0 (Wi : Dev nD → Valuation τ sig (Elt F)) (c : Dev nD) : Buf (Elt F) ((c : Thread nD τ).loc main_v10) :=
  (dat0 (atTc Wi) c).arrAt 7 cfg0.N
/-- The contents after region 0. -/
abbrev after0 (Wi : Dev nD → Valuation τ sig (Elt F)) (c : Dev nD) : Valuation τ sig (Elt F) :=
  Function.update (Wi c) main_v10 (outArr0 Wi c)

/-- Each window's array after the last grid point is the exit contents at that window's buffer. -/
theorem exitArr0 (Wi : Dev nD → Valuation τ sig (Elt F)) (c : Dev nD) (w : Fin cfg0.W) :
    (dat0 (atTc Wi) c).arrAt w cfg0.N = atTc (after0 Wi) c (Pipeline.arrRef spec0 w) := by
  match w with
  | ⟨0, _⟩ => exact ((dat0 (atTc Wi) c).arrAt_in ⟨0, by decide⟩ rfl _).trans (Function.update_of_ne (StableHlo.devRef_ne_of_ne (by decide)) _ _).symm
  | ⟨1, _⟩ => exact ((dat0 (atTc Wi) c).arrAt_in ⟨1, by decide⟩ rfl _).trans (Function.update_of_ne (StableHlo.devRef_ne_of_ne (by decide)) _ _).symm
  | ⟨2, _⟩ => exact ((dat0 (atTc Wi) c).arrAt_in ⟨2, by decide⟩ rfl _).trans (Function.update_of_ne (StableHlo.devRef_ne_of_ne (by decide)) _ _).symm
  | ⟨3, _⟩ => exact ((dat0 (atTc Wi) c).arrAt_in ⟨3, by decide⟩ rfl _).trans (Function.update_of_ne (StableHlo.devRef_ne_of_ne (by decide)) _ _).symm
  | ⟨4, _⟩ => exact ((dat0 (atTc Wi) c).arrAt_in ⟨4, by decide⟩ rfl _).trans (Function.update_of_ne (StableHlo.devRef_ne_of_ne (by decide)) _ _).symm
  | ⟨5, _⟩ => exact ((dat0 (atTc Wi) c).arrAt_in ⟨5, by decide⟩ rfl _).trans (Function.update_of_ne (StableHlo.devRef_ne_of_ne (by decide)) _ _).symm
  | ⟨6, _⟩ => exact ((dat0 (atTc Wi) c).arrAt_in ⟨6, by decide⟩ rfl _).trans (Function.update_of_ne (StableHlo.devRef_ne_of_ne (by decide)) _ _).symm
  | ⟨7, _⟩ => exact (Function.update_self (Proc.devRef .tc main_v10 : DevRef τ sig) (outArr0 Wi c) (Wi c)).symm

/-- Every buffer that is no window's array is as at entry. -/
theorem exitKeep0 (Wi : Dev nD → Valuation τ sig (Elt F)) (c : Dev nD) :
    ∀ b, b ∉ Finset.univ.image (Pipeline.arrRef spec0) → atTc (after0 Wi) c b = atTc Wi c b := by
  intro b hb
  have hne : b ≠ main_v10 := fun e => hb (Finset.mem_image.mpr ⟨7, Finset.mem_univ _, e.symm ▸ rfl⟩)
  exact Function.update_of_ne (StableHlo.devRef_ne_of_ne hne) _ _

set_option backward.isDefEq.respectTransparency.types false in
/-- Region 0 as a segment between two valuations Wi (entry) and Wo (exit) of the unscoped buffers, for any family of proof
    data whose entry at region 0 is this region's. The region's arrays are split out of the unscoped buffers at entry and put
    back at exit, where each window's array is Wo at that window's buffer (hArr) and every other buffer is as at entry (hKeep);
    the generator register goes into the class invariant and comes back; the kernel has no semaphore of its own and owes nothing. -/
def linSeg0 (pdats : (p : Fin 13) → (c : Dev nD) → Dat τ (Elt F) Unit ℕ (UR sig nD τ) ℕ (cfgs p) c)
    (Wi Wo : Dev nD → Valuation τ sig (Elt F))
    (hp : ∀ c, pdats 0 c = dat0 (atTc Wi) c)
    (hArr : ∀ c (w : Fin cfg0.W), (dat0 (atTc Wi) c).arrAt w cfg0.N = atTc Wo c (Pipeline.arrRef spec0 w))
    (hKeep : ∀ c, ∀ b, b ∉ Finset.univ.image (Pipeline.arrRef spec0) → atTc Wo c b = atTc Wi c b) :
    RegionSeg (pcfgs (F := F)) adm pdats () defs₀ Variants.none noLevels levelZero 0 where
  win := launch0.win.to₀
  block_pos := launch0.block_pos
  stage_whole := launch0.stage_whole
  K := PEmpty
  osem k := k.elim
  ho := Pipeline.OwnSemFacts.none _
  hbody c := by rw [hp c]; exact (body_obligation0 (atTc Wi) c).loose
  hwaits := Pipeline.hwaits_of_owed_zero _ _ _ _ noLevels levelZero 0 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec0 c (atTc Wi c)
  hentry c := by
    rw [Pipeline.ownSems0_none]
    have hsplit := Pipeline.arrays_of_unscopedBufs (p := 0) (pcfgs (F := F)) adm pdats launch0.win launch0.arr_whole c
      ((pdats 0 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec0 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec0 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full fun _ => by rw [hp c]; rfl)
      (atTc Wi c) (atTc Wo c) ((pdats 0 c).arrAt · cfg0.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.LinDat1.lean ====
/- Region 1 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.KernelIdeal.Skeleton
import proofs.«117683_j11484742549629_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The rectangles the body reads and writes: each is a whole staging buffer -/

/-- all of a 512x1024 tile (the activation tile, and the result tile) -/
abbrev tileAll1 : Rect S512x1024 := Rect.unit (s := S512x1024) ![0, 0] S512x1024.size inb_S512x1024_S512x1024_0_0
/-- all of the 1024x1024 weight matrix -/
abbrev weightAll1 : Rect S1024x1024 := Rect.unit (s := S1024x1024) ![0, 0] S1024x1024.size inb_S1024x1024_S1024x1024_0_0
/-- all of the 1x1024 bias row -/
abbrev biasAll1 : Rect S1x1024 := Rect.unit (s := S1x1024) ![0, 0] S1x1024.size inb_S1x1024_S1x1024_0_0

/-- A pair of zero offsets is the constant-zero offset. -/
theorem zeroOffsets1 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out1 (x : Vec F S512x1024 .f32) (wt : Vec F S1024x1024 .bf16) (bias : Vec F S1x1024 .f32) : Vec F S512x1024 .bf16 :=
  View.canon [⟨tileAll1, k1_pay1 (View.ld x tileAll1) (View.ld wt weightAll1) (View.ld bias biasAll1)⟩]

/-- Since the store and the loads are through whole buffers, the stored block is the payload of the
    input blocks themselves. -/
theorem out1_eq_pay (x : Vec F S512x1024 .f32) (wt : Vec F S1024x1024 .bf16) (bias : Vec F S1x1024 .f32) :
    out1 x wt bias = k1_pay1 x wt bias := by
  unfold out1
  rw [View.canon_unit_zero (S := S512x1024) zeroOffsets1 inb_S512x1024_S512x1024_0_0,
    View.ld_unit_zero (S := S512x1024) zeroOffsets1 inb_S512x1024_S512x1024_0_0,
    View.ld_unit_zero (S := S1024x1024) zeroOffsets1 inb_S1024x1024_S1024x1024_0_0,
    View.ld_unit_zero (S := S1x1024) zeroOffsets1 inb_S1x1024_S1x1024_0_0]

/-- The single store reaches every index of the tile. -/
theorem storeCovers1 (p : Vec F S512x1024 .bf16) (y : S512x1024.Idx) :
    ∃ pc ∈ ([⟨tileAll1, p⟩] : List (View.Piece (Elt F) S512x1024 .bf16)), y ∈ pc.1.set :=
  ⟨_, List.mem_singleton_self _, View.mem_set_unit_zero (S := S512x1024) zeroOffsets1 inb_S512x1024_S512x1024_0_0 y⟩

/-! ## Proof data of the pipeline -/

/-- On core `c`: every window's array is what the entry valuation says; after the body at point `t` the three
    input buffers still hold their blocks and the result buffer holds `out1` of them; the invariant is the
    untouched rest (scoped buffers and the generator register); no debts, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

/-- The same, with the stored block spelt as the payload of the input blocks. -/
theorem after1_3_pay (c : Dev nD) (t : Fin cfg1.N) :
    (dat1 V c).after 3 t = k1_pay1 (iblk1 V c 0 t) (iblk1 V c 1 t) (iblk1 V c 2 t) := by
  rw [after1_3, out1_eq_pay]

/-! ## What an input's staging buffer holds when the body starts -/

/-- The activation tile's buffer holds the tile's block at every point (it is fetched at every point). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The weight matrix's buffer holds the matrix at every point: fetched once, and its index never moves. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Likewise the bias row's buffer. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

end Cert.KernelIdeal.Hand
-- ==== Proof.LinBody1.lean ====
/- Region 1 (a key/value projection): the kernel body run on whole staging buffers, and from it the
   obligation the pipeline asks of the body at every grid point. -/
import proofs.«117683_j11484742549629_2_alg».proof.Proof.LinDat1
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows1 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out1` of them. It loads the four buffers whole and stores once, through the whole tile. -/
theorem sound_kernel1 (c : Dev nD) (E : Set ℕ) (i : grid1.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out1 x wt bias)) -∗ K ⟨⟩))
      ⊢ wp frame (wpE (defs₀ (F := F)) Variants.none c none) E (cc1__kv_kernel i mx hmx mw hmw mb hmb mo hmo) K := by
  rw [cc1__kv_kernel_eq_skeleton]; unfold cc1__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers1 _)

/-! ## The obligation at a grid point -/

/-- What the pipeline hands the body at point `t`: the invariant, the core's debts, and the four staging buffers. -/
def bodyGiven1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it must hand back. -/
def bodyOwed1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At every point the three input buffers hold their blocks, so the run on whole buffers applies; the
    invariant and the debts are not touched by the body. -/
theorem sound_body1 (c : Dev nD) (t : Fin cfg1.N) :
    bodyGiven1 V c t ⊢ wp frame (wpE (defs₀ (F := F)) Variants.none c none) Set.univ (bodyAt1 t) (fun _ => bodyOwed1 V c t) := by
  unfold bodyGiven1 bodyOwed1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨Hinv, Hdebt, ⟨%d0, B0⟩, ⟨%d1, B1⟩, ⟨%d2, B2⟩, ⟨%d3, B3⟩⟩
  iapply (sound_kernel1 c Set.univ _ _ _ _ _ _ _ _ _ (iblk1 V c 0 t) (iblk1 V c 1 t) (iblk1 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation1 (c : Dev nD) :
    BodyObligation (dat1 (F := F) V c) (defs₀ (F := F)) Variants.none () Set.univ := fun t => by
  rw [fourWindows1, fourWindows1]
  exact sound_body1 V c t

end Cert.KernelIdeal.Hand
-- ==== Proof.RunSeg1.lean ====
/-
  Region 1 of the kernel program's @main as a segment of the run. The region reads its input windows' arrays and writes one
  array, main_v15: so the contents after it are the contents before it with that buffer replaced by the fold of the grid
  points' write-backs, every input window's array being what it was (a window that is never written back keeps its array).
-/
import proofs.«117683_j11484742549629_2_alg».proof.Proof.RunBase
import proofs.«117683_j11484742549629_2_alg».proof.Proof.LinBody1

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What region 1 leaves in main_v15, from entry contents Wi. -/
def outArr1 (Wi : Dev nD → Valuation τ sig (Elt F)) (c : Dev nD) : Buf (Elt F) ((c : Thread nD τ).loc main_v15) :=
  (dat1 (atTc Wi) c).arrAt 3 cfg1.N
/-- The contents after region 1. -/
abbrev after1 (Wi : Dev nD → Valuation τ sig (Elt F)) (c : Dev nD) : Valuation τ sig (Elt F) :=
  Function.update (Wi c) main_v15 (outArr1 Wi c)

/-- Each window's array after the last grid point is the exit contents at that window's buffer. -/
theorem exitArr1 (Wi : Dev nD → Valuation τ sig (Elt F)) (c : Dev nD) (w : Fin cfg1.W) :
    (dat1 (atTc Wi) c).arrAt w cfg1.N = atTc (after1 Wi) c (Pipeline.arrRef spec1 w) := by
  match w with
  | ⟨0, _⟩ => exact ((dat1 (atTc Wi) c).arrAt_in ⟨0, by decide⟩ rfl _).trans (Function.update_of_ne (StableHlo.devRef_ne_of_ne (by decide)) _ _).symm
  | ⟨1, _⟩ => exact ((dat1 (atTc Wi) c).arrAt_in ⟨1, by decide⟩ rfl _).trans (Function.update_of_ne (StableHlo.devRef_ne_of_ne (by decide)) _ _).symm
  | ⟨2, _⟩ => exact ((dat1 (atTc Wi) c).arrAt_in ⟨2, by decide⟩ rfl _).trans (Function.update_of_ne (StableHlo.devRef_ne_of_ne (by decide)) _ _).symm
  | ⟨3, _⟩ => exact (Function.update_self (Proc.devRef .tc main_v15 : DevRef τ sig) (outArr1 Wi c) (Wi c)).symm

/-- Every buffer that is no window's array is as at entry. -/
theorem exitKeep1 (Wi : Dev nD → Valuation τ sig (Elt F)) (c : Dev nD) :
    ∀ b, b ∉ Finset.univ.image (Pipeline.arrRef spec1) → atTc (after1 Wi) c b = atTc Wi c b := by
  intro b hb
  have hne : b ≠ main_v15 := fun e => hb (Finset.mem_image.mpr ⟨3, Finset.mem_univ _, e.symm ▸ rfl⟩)
  exact Function.update_of_ne (StableHlo.devRef_ne_of_ne hne) _ _

set_option backward.isDefEq.respectTransparency.types false in
/-- Region 1 as a segment between two valuations Wi (entry) and Wo (exit) of the unscoped buffers, for any family of proof
    data whose entry at region 1 is this region's. The region's arrays are split out of the unscoped buffers at entry and put
    back at exit, where each window's array is Wo at that window's buffer (hArr) and every other buffer is as at entry (hKeep);
    the generator register goes into the class invariant and comes back; the kernel has no semaphore of its own and owes nothing. -/
def linSeg1 (pdats : (p : Fin 13) → (c : Dev nD) → Dat τ (Elt F) Unit ℕ (UR sig nD τ) ℕ (cfgs p) c)
    (Wi Wo : Dev nD → Valuation τ sig (Elt F))
    (hp : ∀ c, pdats 1 c = dat1 (atTc Wi) c)
    (hArr : ∀ c (w : Fin cfg1.W), (dat1 (atTc Wi) c).arrAt w cfg1.N = atTc Wo c (Pipeline.arrRef spec1 w))
    (hKeep : ∀ c, ∀ b, b ∉ Finset.univ.image (Pipeline.arrRef spec1) → atTc Wo c b = atTc Wi c b) :
    RegionSeg (pcfgs (F := F)) adm pdats () defs₀ Variants.none noLevels levelZero 1 where
  win := launch1.win.to₀
  block_pos := launch1.block_pos
  stage_whole := launch1.stage_whole
  K := PEmpty
  osem k := k.elim
  ho := Pipeline.OwnSemFacts.none _
  hbody c := by rw [hp c]; exact (body_obligation1 (atTc Wi) c).loose
  hwaits := Pipeline.hwaits_of_owed_zero _ _ _ _ noLevels levelZero 1 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec1 c (atTc Wi c)
  hentry c := by
    rw [Pipeline.ownSems0_none]
    have hsplit := Pipeline.arrays_of_unscopedBufs (p := 1) (pcfgs (F := F)) adm pdats launch1.win launch1.arr_whole c
      ((pdats 1 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec1 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec1 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full fun _ => by rw [hp c]; rfl)
      (atTc Wi c) (atTc Wo c) ((pdats 1 c).arrAt · cfg1.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.LinDat2.lean ====
/- Region 2 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.KernelIdeal.Skeleton
import proofs.«117683_j11484742549629_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## The rectangles the body reads and writes: each is a whole staging buffer -/

/-- all of a 512x1024 tile (the activation tile, and the result tile) -/
abbrev tileAll2 : Rect S512x1024 := Rect.unit (s := S512x1024) ![0, 0] S512x1024.size inb_S512x1024_S512x1024_0_0
/-- all of the 1024x1024 weight matrix -/
abbrev weightAll2 : Rect S1024x1024 := Rect.unit (s := S1024x1024) ![0, 0] S1024x1024.size inb_S1024x1024_S1024x1024_0_0
/-- all of the 1x1024 bias row -/
abbrev biasAll2 : Rect S1x1024 := Rect.unit (s := S1x1024) ![0, 0] S1x1024.size inb_S1x1024_S1x1024_0_0

/-- A pair of zero offsets is the constant-zero offset. -/
theorem zeroOffsets2 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out2 (x : Vec F S512x1024 .f32) (wt : Vec F S1024x1024 .bf16) (bias : Vec F S1x1024 .f32) : Vec F S512x1024 .bf16 :=
  View.canon [⟨tileAll2, k2_pay1 (View.ld x tileAll2) (View.ld wt weightAll2) (View.ld bias biasAll2)⟩]

/-- Since the store and the loads are through whole buffers, the stored block is the payload of the
    input blocks themselves. -/
theorem out2_eq_pay (x : Vec F S512x1024 .f32) (wt : Vec F S1024x1024 .bf16) (bias : Vec F S1x1024 .f32) :
    out2 x wt bias = k2_pay1 x wt bias := by
  unfold out2
  rw [View.canon_unit_zero (S := S512x1024) zeroOffsets2 inb_S512x1024_S512x1024_0_0,
    View.ld_unit_zero (S := S512x1024) zeroOffsets2 inb_S512x1024_S512x1024_0_0,
    View.ld_unit_zero (S := S1024x1024) zeroOffsets2 inb_S1024x1024_S1024x1024_0_0,
    View.ld_unit_zero (S := S1x1024) zeroOffsets2 inb_S1x1024_S1x1024_0_0]

/-- The single store reaches every index of the tile. -/
theorem storeCovers2 (p : Vec F S512x1024 .bf16) (y : S512x1024.Idx) :
    ∃ pc ∈ ([⟨tileAll2, p⟩] : List (View.Piece (Elt F) S512x1024 .bf16)), y ∈ pc.1.set :=
  ⟨_, List.mem_singleton_self _, View.mem_set_unit_zero (S := S512x1024) zeroOffsets2 inb_S512x1024_S512x1024_0_0 y⟩

/-! ## Proof data of the pipeline -/

/-- On core `c`: every window's array is what the entry valuation says; after the body at point `t` the three
    input buffers still hold their blocks and the result buffer holds `out2` of them; the invariant is the
    untouched rest (scoped buffers and the generator register); no debts, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

/-- The same, with the stored block spelt as the payload of the input blocks. -/
theorem after2_3_pay (c : Dev nD) (t : Fin cfg2.N) :
    (dat2 V c).after 3 t = k2_pay1 (iblk2 V c 0 t) (iblk2 V c 1 t) (iblk2 V c 2 t) := by
  rw [after2_3, out2_eq_pay]

/-! ## What an input's staging buffer holds when the body starts -/

/-- The activation tile's buffer holds the tile's block at every point (it is fetched at every point). -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The weight matrix's buffer holds the matrix at every point: fetched once, and its index never moves. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Likewise the bias row's buffer. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

end Cert.KernelIdeal.Hand
-- ==== Proof.LinBody2.lean ====
/- Region 2 (a key/value projection): the kernel body run on whole staging buffers, and from it the
   obligation the pipeline asks of the body at every grid point. -/
import proofs.«117683_j11484742549629_2_alg».proof.Proof.LinDat2
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows2 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out2` of them. It loads the four buffers whole and stores once, through the whole tile. -/
theorem sound_kernel2 (c : Dev nD) (E : Set ℕ) (i : grid2.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out2 x wt bias)) -∗ K ⟨⟩))
      ⊢ wp frame (wpE (defs₀ (F := F)) Variants.none c none) E (cc2__kv_kernel i mx hmx mw hmw mb hmb mo hmo) K := by
  rw [cc2__kv_kernel_eq_skeleton]; unfold cc2__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers2 _)

/-! ## The obligation at a grid point -/

/-- What the pipeline hands the body at point `t`: the invariant, the core's debts, and the four staging buffers. -/
def bodyGiven2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it must hand back. -/
def bodyOwed2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At every point the three input buffers hold their blocks, so the run on whole buffers applies; the
    invariant and the debts are not touched by the body. -/
theorem sound_body2 (c : Dev nD) (t : Fin cfg2.N) :
    bodyGiven2 V c t ⊢ wp frame (wpE (defs₀ (F := F)) Variants.none c none) Set.univ (bodyAt2 t) (fun _ => bodyOwed2 V c t) := by
  unfold bodyGiven2 bodyOwed2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨Hinv, Hdebt, ⟨%d0, B0⟩, ⟨%d1, B1⟩, ⟨%d2, B2⟩, ⟨%d3, B3⟩⟩
  iapply (sound_kernel2 c Set.univ _ _ _ _ _ _ _ _ _ (iblk2 V c 0 t) (iblk2 V c 1 t) (iblk2 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation2 (c : Dev nD) :
    BodyObligation (dat2 (F := F) V c) (defs₀ (F := F)) Variants.none () Set.univ := fun t => by
  rw [fourWindows2, fourWindows2]
  exact sound_body2 V c t

end Cert.KernelIdeal.Hand
-- ==== Proof.RunSeg2.lean ====
/-
  Region 2 of the kernel program's @main as a segment of the run. The region reads its input windows' arrays and writes one
  array, main_v20: so the contents after it are the contents before it with that buffer replaced by the fold of the grid
  points' write-backs, every input window's array being what it was (a window that is never written back keeps its array).
-/
import proofs.«117683_j11484742549629_2_alg».proof.Proof.RunBase
import proofs.«117683_j11484742549629_2_alg».proof.Proof.LinBody2

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What region 2 leaves in main_v20, from entry contents Wi. -/
def outArr2 (Wi : Dev nD → Valuation τ sig (Elt F)) (c : Dev nD) : Buf (Elt F) ((c : Thread nD τ).loc main_v20) :=
  (dat2 (atTc Wi) c).arrAt 3 cfg2.N
/-- The contents after region 2. -/
abbrev after2 (Wi : Dev nD → Valuation τ sig (Elt F)) (c : Dev nD) : Valuation τ sig (Elt F) :=
  Function.update (Wi c) main_v20 (outArr2 Wi c)

/-- Each window's array after the last grid point is the exit contents at that window's buffer. -/
theorem exitArr2 (Wi : Dev nD → Valuation τ sig (Elt F)) (c : Dev nD) (w : Fin cfg2.W) :
    (dat2 (atTc Wi) c).arrAt w cfg2.N = atTc (after2 Wi) c (Pipeline.arrRef spec2 w) := by
  match w with
  | ⟨0, _⟩ => exact ((dat2 (atTc Wi) c).arrAt_in ⟨0, by decide⟩ rfl _).trans (Function.update_of_ne (StableHlo.devRef_ne_of_ne (by decide)) _ _).symm
  | ⟨1, _⟩ => exact ((dat2 (atTc Wi) c).arrAt_in ⟨1, by decide⟩ rfl _).trans (Function.update_of_ne (StableHlo.devRef_ne_of_ne (by decide)) _ _).symm
  | ⟨2, _⟩ => exact ((dat2 (atTc Wi) c).arrAt_in ⟨2, by decide⟩ rfl _).trans (Function.update_of_ne (StableHlo.devRef_ne_of_ne (by decide)) _ _).symm
  | ⟨3, _⟩ => exact (Function.update_self (Proc.devRef .tc main_v20 : DevRef τ sig) (outArr2 Wi c) (Wi c)).symm

/-- Every buffer that is no window's array is as at entry. -/
theorem exitKeep2 (Wi : Dev nD → Valuation τ sig (Elt F)) (c : Dev nD) :
    ∀ b, b ∉ Finset.univ.image (Pipeline.arrRef spec2) → atTc (after2 Wi) c b = atTc Wi c b := by
  intro b hb
  have hne : b ≠ main_v20 := fun e => hb (Finset.mem_image.mpr ⟨3, Finset.mem_univ _, e.symm ▸ rfl⟩)
  exact Function.update_of_ne (StableHlo.devRef_ne_of_ne hne) _ _

set_option backward.isDefEq.respectTransparency.types false in
/-- Region 2 as a segment between two valuations Wi (entry) and Wo (exit) of the unscoped buffers, for any family of proof
    data whose entry at region 2 is this region's. The region's arrays are split out of the unscoped buffers at entry and put
    back at exit, where each window's array is Wo at that window's buffer (hArr) and every other buffer is as at entry (hKeep);
    the generator register goes into the class invariant and comes back; the kernel has no semaphore of its own and owes nothing. -/
def linSeg2 (pdats : (p : Fin 13) → (c : Dev nD) → Dat τ (Elt F) Unit ℕ (UR sig nD τ) ℕ (cfgs p) c)
    (Wi Wo : Dev nD → Valuation τ sig (Elt F))
    (hp : ∀ c, pdats 2 c = dat2 (atTc Wi) c)
    (hArr : ∀ c (w : Fin cfg2.W), (dat2 (atTc Wi) c).arrAt w cfg2.N = atTc Wo c (Pipeline.arrRef spec2 w))
    (hKeep : ∀ c, ∀ b, b ∉ Finset.univ.image (Pipeline.arrRef spec2) → atTc Wo c b = atTc Wi c b) :
    RegionSeg (pcfgs (F := F)) adm pdats () defs₀ Variants.none noLevels levelZero 2 where
  win := launch2.win.to₀
  block_pos := launch2.block_pos
  stage_whole := launch2.stage_whole
  K := PEmpty
  osem k := k.elim
  ho := Pipeline.OwnSemFacts.none _
  hbody c := by rw [hp c]; exact (body_obligation2 (atTc Wi) c).loose
  hwaits := Pipeline.hwaits_of_owed_zero _ _ _ _ noLevels levelZero 2 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec2 c (atTc Wi c)
  hentry c := by
    rw [Pipeline.ownSems0_none]
    have hsplit := Pipeline.arrays_of_unscopedBufs (p := 2) (pcfgs (F := F)) adm pdats launch2.win launch2.arr_whole c
      ((pdats 2 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec2 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec2 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full fun _ => by rw [hp c]; rfl)
      (atTc Wi c) (atTc Wo c) ((pdats 2 c).arrAt · cfg2.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.AttnDat.lean ====
/-
  The attention launch of branch 1 (the fourth pallas_call: grid batch x query tile x key tile = 4 x 4 x 4, the key
  tile innermost): what its four carried buffers — running maximum, running denominator, running numerator, scaled
  queries — hold after every grid point, by recursion on the point, in terms of the body's store payloads; what the
  output block holds where it is stored; and the proof data of the launch built from them.

  At a point whose key tile is the first the body resets the four buffers (maximum to a large negative constant,
  denominator and numerator to zero, scaled queries to the query block times 1/32) before the update; at every point
  it folds the key and value blocks into maximum, denominator and numerator; at a point whose key tile is the last it
  stores numerator / denominator into the output block.
-/
import proofs.«117683_j11484742549629_2_alg».proof.Proof.Gen.KernelIdeal.Skeleton
import proofs.«117683_j11484742549629_2_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The carried state and one step of the online softmax -/

/-- The four buffers the attention body carries from one key tile to the next: the running row maximum `m`, the
    running row denominator `l`, the running numerator `acc` and the scaled query tile `qs`. -/
structure AttnScr (F : FTy → Type) where
  m : Vec F S512x1 .f32
  l : Vec F S512x1 .f32
  acc : Vec F S512x1024 .f32
  qs : Vec F S512x1024 .bf16

/-- The state a first key tile starts from, given the query block: maximum at the body's negative constant,
    denominator and numerator at zero, the queries scaled by 1/32. -/
def attnReset (q : Vec F S1x512x1024 .bf16) : AttnScr F where
  m := k3_pay4 (F := F)
  l := k3_pay5 (F := F)
  acc := k3_pay6 (F := F)
  qs := k3_pay7 q

/-- One key tile folded in: from the state `s` and the key and value blocks, the new maximum
    `max m (rowmax (qs kᵀ))`, the new denominator `exp (m - m') * l + rowsum (exp (qs kᵀ - m'))`, the new numerator
    `exp (m - m') * acc + exp (qs kᵀ - m') v`; the scaled queries stay. -/
def attnStep (k v : Vec F S1x512x1024 .bf16) (s : AttnScr F) : AttnScr F where
  m := k3_pay2 (k3_pay10 s.qs k s.m)
  l := k3_pay13 s.qs k s.m s.m s.l
  acc := k3_pay1 (k3_pay8 v) (k3_pay14 s.qs k s.m s.m s.acc) (k3_pay15 s.qs k s.m)
  qs := s.qs

/-- What a last key tile stores into the output block: numerator times the reciprocal of the denominator. -/
def attnOut (s : AttnScr F) : Vec F S1x512x1024 .bf16 := k3_pay3 s.acc s.l

/-! ## Branch 1 (pallas_call 3) at the contents `V` its region is entered with -/

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query, key and value blocks at point `t`. -/
def qBlk3 (c : Dev nD) (t : Fin cfg3.N) : Vec F S1x512x1024 .bf16 := iblk3 V c 0 t
def kBlk3 (c : Dev nD) (t : Fin cfg3.N) : Vec F S1x512x1024 .bf16 := iblk3 V c 1 t
def vBlk3 (c : Dev nD) (t : Fin cfg3.N) : Vec F S1x512x1024 .bf16 := iblk3 V c 2 t

/-- THE RECURRENCE. What the four carried buffers hold after the body at position `n` of the grid (the key tile is
    `n % 4`): at a first key tile the reset state with this point's keys and values folded in, elsewhere the state the
    point before left with them folded in. -/
def scrAt3 (c : Dev nD) : (n : ℕ) → n < cfg3.N → AttnScr F
  | 0, h => attnStep (kBlk3 V c ⟨0, h⟩) (vBlk3 V c ⟨0, h⟩) (attnReset (qBlk3 V c ⟨0, h⟩))
  | n + 1, h =>
    attnStep (kBlk3 V c ⟨n + 1, h⟩) (vBlk3 V c ⟨n + 1, h⟩)
      (if (n + 1) % 4 = 0 then attnReset (qBlk3 V c ⟨n + 1, h⟩) else scrAt3 c n (Nat.lt_of_succ_lt h))

/-- The state point `t` leaves, and its components by name. -/
def scr3 (c : Dev nD) (t : Fin cfg3.N) : AttnScr F := scrAt3 V c t.val t.isLt
def scrM3 (c : Dev nD) (t : Fin cfg3.N) : Vec F S512x1 .f32 := (scr3 V c t).m
def scrL3 (c : Dev nD) (t : Fin cfg3.N) : Vec F S512x1 .f32 := (scr3 V c t).l
def scrAcc3 (c : Dev nD) (t : Fin cfg3.N) : Vec F S512x1024 .f32 := (scr3 V c t).acc
def scrQs3 (c : Dev nD) (t : Fin cfg3.N) : Vec F S512x1024 .bf16 := (scr3 V c t).qs

/-- What the output block's staging buffer holds after point `t` (stored at the last key tile). -/
def outBlk3 (c : Dev nD) (t : Fin cfg3.N) : Vec F S1x512x1024 .bf16 := attnOut (scr3 V c t)

/-- At a first key tile: the reset state, this point's keys and values folded in. -/
theorem scr3_first (c : Dev nD) (t : Fin cfg3.N) (h0 : t.val % 4 = 0) :
    scr3 V c t = attnStep (kBlk3 V c t) (vBlk3 V c t) (attnReset (qBlk3 V c t)) := by
  obtain ⟨n, hn⟩ := t
  cases n with
  | zero => rfl
  | succ n => exact congrArg (attnStep _ _) (if_pos h0)

/-- Elsewhere: what the point before left, this point's keys and values folded in. -/
theorem scr3_next (c : Dev nD) (t : Fin cfg3.N) (h0 : ¬ t.val % 4 = 0) :
    scr3 V c t = attnStep (kBlk3 V c t) (vBlk3 V c t)
      (scr3 V c ⟨t.val - 1, Nat.lt_of_le_of_lt (Nat.sub_le _ _) t.isLt⟩) := by
  obtain ⟨n, hn⟩ := t
  cases n with
  | zero => exact absurd (Nat.zero_mod _) h0
  | succ n => exact congrArg (attnStep _ _) (if_neg h0)

/-! ## The invariant: the four scratch buffers at the recurrence's contents -/

/-- The call's four scratch buffers, whole, at the state `s`. -/
def scrHeld3 (c : Dev nD) (s : AttnScr F) : sProp 𝕄 :=
  iprop(owns (c : Thread nD τ) (Memref.whole cc3_scratch0) fullShare s.m
    ∗ owns (c : Thread nD τ) (Memref.whole cc3_scratch1) fullShare s.l
    ∗ owns (c : Thread nD τ) (Memref.whole cc3_scratch2) fullShare s.acc
    ∗ owns (c : Thread nD τ) (Memref.whole cc3_scratch3) fullShare s.qs)

/-- The core's other scoped buffers that are no staging buffer of this call, each at some contents. -/
abbrev scrRest3 (c : Dev nD) : sProp 𝕄 :=
  Pipeline.scopedRestBut (Ix := Unit) (Name := ℕ) (U := UR sig nD τ) (Lvl := ℕ) (Val := Elt F) spec3 c
    [cc3_scratch0, cc3_scratch1, cc3_scratch2, cc3_scratch3]

/-- Before position `n`: at the launch's start every scoped non-staging buffer at some contents and the generator
    register at some state; afterwards the four scratch buffers at what the point before left, the other scoped
    buffers at some contents, the generator register at some state. -/
def Phi3 (c : Dev nD) : (n : ℕ) → n ≤ cfg3.N → sProp 𝕄
  | 0, _ => Pipeline.ΦA spec3 c
  | n + 1, hn => iprop(scrHeld3 c (scrAt3 V c n hn) ∗ scrRest3 (F := F) c ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(scrHeld3 c (scr3 V c ⟨n, hn⟩) ∗ scrRest3 (F := F) c ∗ (∃ r, prngReg c r)) := rfl

theorem Phi3_pos (c : Dev nD) (n : ℕ) (h : n ≤ cfg3.N) (hz : n ≠ 0) :
    Phi3 V c n h = iprop(scrHeld3 c (scr3 V c ⟨n - 1, by omega⟩) ∗ scrRest3 (F := F) c ∗ (∃ r, prngReg c r)) := by
  cases n with
  | zero => exact absurd rfl hz
  | succ n => rfl

/-! ## The proof data -/

/-- The proof data of the launch on core `c`: the arrays as the region finds them; after the body each input's
    buffer at its block and the output's at the quotient the state gives; the invariant `Phi3`; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outBlk3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outBlk3 V c t := by dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem Phi3_at_succ (c : Dev nD) (t : Fin cfg3.N) :
    (dat3 V c).Φ t.succ = iprop(scrHeld3 c (scr3 V c t) ∗ scrRest3 (F := F) c ∗ (∃ r, prngReg c r)) := rfl

end Region3

end Cert.KernelIdeal.Hand

end
-- ==== Proof.AttnRun.lean ====
/-
  The attention body's triple. On whole memrefs — the query, key and value blocks, the output block and the four carried
  buffers — the body run at a grid point leaves the three input blocks as it found them, takes the carried buffers from a
  state to that state with the key and value blocks folded in (from the reset state at a first key tile, whatever the
  buffers held), and leaves the output block as found except at a last key tile, where it stores the quotient. One
  theorem per case of the two tests on the key-tile coordinate; with four key tiles no point is both first and last.
-/
import proofs.«117683_j11484742549629_2_alg».proof.Proof.AttnDat
import proofs.«117683_j11484742549629_2_alg».proof.Proof.LaunchKI
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the attention body goes through the rectangle at zero offsets of the buffer's own sizes: a load
reads the buffer's contents, a store leaves its payload whatever was there before. -/

theorem zeroOff2 : (![0, 0] : Fin 2 → Nat) = fun _ => 0 := funext fun a => by fin_cases a <;> rfl
theorem zeroOff3 : (![0, 0, 0] : Fin 3 → Nat) = fun _ => 0 := funext fun a => by fin_cases a <;> rfl

section Whole

variable {sg : RefSig} {κ : Kind} {sp : Space} {S : Shape} {e : EltTy} {Val : EltTy → Type} [∀ e, Nonempty (Val e)]

/-- A load through the whole-shape rectangle reads what the view reads. -/
theorem readAt_wholeRect (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- After a last store through the whole-shape rectangle the view reads that store's payload. -/
theorem read_writes_wholeRect (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self .., View.mem_set_unit_zero h inb y⟩).trans
    (View.canon_cons_unit_zero h inb w L)

end Whole

/-! ## The body's two tests on the key-tile coordinate -/

/-- The first-key-tile test, as the body computes it from the grid coordinates. -/
abbrev kvFirst3 (i : grid3.Coords) : Prop :=
  Scalar.cmpi .ne (Scalar.extui (Scalar.cmpi .eq (BitVec.ofNat 32 (i 2).val) 0#32)) 0#32 = 1#1

/-- The last-key-tile test. -/
abbrev kvLast3 (i : grid3.Coords) : Prop := k3_cond2 i = 1#1

/-- On the grid the first test holds exactly at the positions ≡ 0 (mod 4), -/
theorem kvFirst3_iff : ∀ t : Fin cfg3.N, kvFirst3 (grid3.coords t) ↔ t.val % 4 = 0 :=
  (by decide +kernel : ∀ t : Fin grid3.N, kvFirst3 (grid3.coords t) ↔ t.val % 4 = 0)

/-- and the last exactly at the positions ≡ 3 (mod 4). -/
theorem kvLast3_iff : ∀ t : Fin cfg3.N, kvLast3 (grid3.coords t) ↔ t.val % 4 = 3 :=
  (by decide +kernel : ∀ t : Fin grid3.N, kvLast3 (grid3.coords t) ↔ t.val % 4 = 3)

/-! ## The body's triple, per case of the two tests

On whole memrefs: the three input blocks are left as found; the four carried buffers go from a state to that state with
the key and value blocks folded in (`attnStep`), starting from the reset state at a first key tile whatever they
held; the output block is left as found except at a last key tile, where it ends at the quotient (`attnOut`). -/

set_option maxHeartbeats 4000000 in
/-- A first key tile that is not the last. -/
theorem attn_run_first3 (c : Dev nD) (E : Set ℕ) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : kvFirst3 i) (hlast : ¬ kvLast3 i)
    (q k v o : Vec F S1x512x1024 .bf16) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v (attnReset q)).m ∗ owns (c : Thread nD τ) arg8 fullShare (attnStep k v (attnReset q)).l
        ∗ owns (c : Thread nD τ) arg9 fullShare (attnStep k v (attnReset q)).acc ∗ owns (c : Thread nD τ) arg10 fullShare (attnStep k v (attnReset q)).qs) -∗ K ⟨⟩))
      ⊢ wp frame (wpE (defs₀ (F := F)) Variants.none c none) E (cc3__attn_kernel i arg3 harg3 arg4 harg4 arg5 harg5 arg6 harg6 arg7 harg7 arg8 harg8 arg9 harg9 arg10 harg10) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  iexists _; isplitr
  swap; · iexact H10
  ipureintro
  sl_unfold_run_names
  rw [read_writes_wholeRect (S := S512x1024) _ _ zeroOff2]
  simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
  rfl

set_option maxHeartbeats 4000000 in
/-- A key tile that is neither first nor last. -/
theorem attn_run_mid3 (c : Dev nD) (E : Set ℕ) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst3 i) (hlast : ¬ kvLast3 i)
    (q k v o : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc3__attn_kernel i arg3 harg3 arg4 harg4 arg5 harg5 arg6 harg6 arg7 harg7 arg8 harg8 arg9 harg9 arg10 harg10) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

set_option maxHeartbeats 4000000 in
/-- A last key tile that is not the first. -/
theorem attn_run_last3 (c : Dev nD) (E : Set ℕ) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst3 i) (hlast : kvLast3 i)
    (q k v : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare (attnOut (attnStep k v s))
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc3__attn_kernel i arg3 harg3 arg4 harg4 arg5 harg5 arg6 harg6 arg7 harg7 arg8 harg8 arg9 harg9 arg10 harg10) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists _; isplitr
    swap; · iexact H6
    ipureintro
    sl_unfold_run_names
    rw [read_writes_wholeRect (S := S1x512x1024) _ _ zeroOff3]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

end Cert.KernelIdeal.Hand

end
-- ==== Proof.AttnBody.lean ====
/-
  The attention launch of branch 1: the body obligation of its proof data. At every grid point the body, called on the
  windows' current staging buffers and the four scratch buffers, takes the invariant before the point to the invariant
  after it: at a first key tile the scratch is handed over at whatever it holds and returned at the reset state with the
  tile folded in; elsewhere it is handed over at what the point before left and returned with the tile folded in; the
  output block's buffer is returned untouched except at a last key tile, where it holds the quotient.
-/
import proofs.«117683_j11484742549629_2_alg».proof.Proof.AttnRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## Where the windows are live, and where the output block is written back -/

/-- The three input windows are live at every point. -/
theorem live3_0 : ∀ t : Fin cfg3.N, cfg3.idle 0 (grid3.coords t) = false := fun _ => rfl
theorem live3_1 : ∀ t : Fin cfg3.N, cfg3.idle 1 (grid3.coords t) = false := fun _ => rfl
theorem live3_2 : ∀ t : Fin cfg3.N, cfg3.idle 2 (grid3.coords t) = false := fun _ => rfl
/-- The output window is idle away from the last key tile, live at it. -/
theorem idle3_3 : ∀ t : Fin cfg3.N, ¬ t.val % 4 = 3 → cfg3.idle 3 (grid3.coords t) = true := by decide +kernel
theorem live3_3 : ∀ t : Fin cfg3.N, t.val % 4 = 3 → cfg3.idle 3 (grid3.coords t) = false := by decide +kernel
/-- Away from the last key tile the output block is not written back. -/
theorem noFlush3_3 (t : Fin cfg3.N) (h : ¬ t.val % 4 = 3) : (cfg3.win 3).flush t = false :=
  Bool.eq_false_iff.mpr fun hf => h ((flush3_3 t).mp hf)

/-! ## Each input's staging buffer holds its block at every point -/

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-! ## The invariant with the scratch buffers' names forgotten -/

/-- The four scratch buffers, each at some contents. -/
def scrAny3 (c : Dev nD) : sProp 𝕄 :=
  iprop((∃ d, owns (c : Thread nD τ) (Memref.whole cc3_scratch0) fullShare d)
    ∗ (∃ d, owns (c : Thread nD τ) (Memref.whole cc3_scratch1) fullShare d)
    ∗ (∃ d, owns (c : Thread nD τ) (Memref.whole cc3_scratch2) fullShare d)
    ∗ (∃ d, owns (c : Thread nD τ) (Memref.whole cc3_scratch3) fullShare d))

/-- The launch's starting invariant, the call's scratch buffers split out of the scoped rest. -/
theorem PhiA3_eq (c : Dev nD) :
    (Pipeline.ΦA spec3 c : sProp 𝕄) = iprop(iprop(scrAny3 (F := F) c ∗ scrRest3 (F := F) c) ∗ (∃ r, prngReg c r)) := by
  unfold Pipeline.ΦA scrAny3; rw [scopedRest3_split]; simp only [owns_whole]; try rfl

/-- Before any point the invariant holds the scratch buffers at SOME contents. -/
theorem Phi3_forget (c : Dev nD) (n : ℕ) (h : n ≤ cfg3.N) :
    Phi3 V c n h ⊢ iprop(iprop(scrAny3 (F := F) c ∗ scrRest3 (F := F) c) ∗ (∃ r, prngReg c r)) := by
  cases n with
  | zero => rw [Phi3_zero V c 0 h rfl, PhiA3_eq]
  | succ n =>
    rw [Phi3_succ]; unfold scrHeld3 scrAny3
    iintro ⟨⟨H0, H1, H2, H3⟩, Hr, Hg⟩
    isplitl [H0 H1 H2 H3 Hr]
    · isplitl [H0 H1 H2 H3]
      · isplitl [H0]; · iexists _; iexact H0
        isplitl [H1]; · iexists _; iexact H1
        isplitl [H2]; · iexists _; iexact H2
        iexists _; iexact H3
      iexact Hr
    iexact Hg

/-- So the invariant at any point gives the launch's starting invariant back. -/
theorem Phi3_to_start (c : Dev nD) (n : ℕ) (h : n ≤ cfg3.N) : Phi3 V c n h ⊢ Pipeline.ΦA spec3 c := by
  rw [PhiA3_eq]; exact Phi3_forget V c n h

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point, by the case of its key tile. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [Phi3_at_succ V c t, Phi3_castSucc V c t]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  rw [show (dat3 V c).leavesExact 2 t = owns (c : Thread nD τ) (st3_2 t) fullShare ((dat3 V c).after 2 t) from by
    unfold Dat.leavesExact; rw [live3_2 t], after3_2]
  have hN : t.val < 64 := lt_of_lt_of_eq t.isLt (show cfg3.N = 64 from N_3)
  by_cases h0 : t.val % 4 = 0
  · have h3 : ¬ t.val % 4 = 3 := by omega
    rw [Dat.leavesExact_idle (dat3 V c) 3 t (idle3_3 t h3) (noFlush3_3 t h3)]
    rw [scr3_first V c t h0]; unfold qBlk3 kBlk3 vBlk3 scrHeld3
    iintro ⟨HΦ, Ho, ⟨%d0, H0⟩, ⟨%d1, H1⟩, ⟨%d2, H2⟩, ⟨%d3, H3⟩⟩
    ihave HΦ' := (Phi3_forget V c _ _) $$ HΦ
    unfold scrAny3
    icases HΦ' with ⟨⟨⟨HS0, HS1, HS2, HS3⟩, Hr⟩, Hg⟩
    iapply (attn_run_first3 c Set.univ (grid3.coords t) _ _ _ _ _ _ _ _ _ _ _ _ _ _ _ _ ((kvFirst3_iff t).mpr h0)
      (fun h => h3 ((kvLast3_iff t).mp h)) (iblk3 V c 0 t) (iblk3 V c 1 t) (iblk3 V c 2 t) _ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hr Hg]
    · isplitl [HS0 HS1 HS2 HS3]
      · isplitl [HS0]; · iexact HS0
        isplitl [HS1]; · iexact HS1
        isplitl [HS2]; · iexact HS2
        iexact HS3
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [Phi3_pos V c _ _ hz]
    by_cases h3 : t.val % 4 = 3
    · rw [show (dat3 V c).leavesExact 3 t = owns (c : Thread nD τ) (st3_3 t) fullShare ((dat3 V c).after 3 t) from by
        unfold Dat.leavesExact; rw [live3_3 t h3], after3_3]
      unfold outBlk3
      rw [scr3_next V c t h0]; unfold kBlk3 vBlk3 scrHeld3
      iintro ⟨⟨⟨HS0, HS1, HS2, HS3⟩, Hr, Hg⟩, Ho, ⟨%d0, H0⟩, ⟨%d1, H1⟩, ⟨%d2, H2⟩, ⟨%d3, H3⟩⟩
      iapply (attn_run_last3 c Set.univ (grid3.coords t) _ _ _ _ _ _ _ _ _ _ _ _ _ _ _ _ (fun h => h0 ((kvFirst3_iff t).mp h))
        ((kvLast3_iff t).mpr h3) (iblk3 V c 0 t) (iblk3 V c 1 t) (iblk3 V c 2 t) (scr3 V c ⟨t.val - 1, by omega⟩) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat3 V c) 3 t (idle3_3 t h3) (noFlush3_3 t h3)]
      rw [scr3_next V c t h0]; unfold kBlk3 vBlk3 scrHeld3
      iintro ⟨⟨⟨HS0, HS1, HS2, HS3⟩, Hr, Hg⟩, Ho, ⟨%d0, H0⟩, ⟨%d1, H1⟩, ⟨%d2, H2⟩, ⟨%d3, H3⟩⟩
      iapply (attn_run_mid3 c Set.univ (grid3.coords t) _ _ _ _ _ _ _ _ _ _ _ _ _ _ _ _ (fun h => h0 ((kvFirst3_iff t).mp h))
        (fun h => h3 ((kvLast3_iff t).mp h)) (iblk3 V c 0 t) (iblk3 V c 1 t) (iblk3 V c 2 t) _ (scr3 V c ⟨t.val - 1, by omega⟩) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) :
    BodyObligation (dat3 (F := F) V c) (defs₀ (F := F)) Variants.none () Set.univ := fun t => by
  rw [bigSep_W3, bigSep_W3]
  exact sound_body3 V c t

/-! ## The invariant at the launch's two ends -/

/-- Before the first point the invariant is the launch's starting one. -/
theorem Phi3_first (c : Dev nD) : (dat3 V c).Φ 0 = Pipeline.ΦA spec3 c := rfl

/-- After the last point it gives that back. -/
theorem Phi3_last (c : Dev nD) : (dat3 V c).Φ (Fin.last cfg3.N) ⊢ Pipeline.ΦA spec3 c :=
  Phi3_to_start V c (Fin.last cfg3.N).val (Nat.le_of_lt_succ (Fin.last cfg3.N).isLt)

end Region3

end Cert.KernelIdeal.Hand

end
-- ==== Proof.AttnSeg.lean ====
/-
  The attention launch of branch 1 as a segment of the kernel program's run. The launch reads the query, key and value
  arrays and writes one array, main_v22: after it every unscoped buffer is as before it except that one, which holds the
  fold of the write-backs at the last key tiles. Inside, the launch's four scratch buffers enter the invariant out of
  the scoped buffers at whatever they hold, carry the online softmax's state from point to point, and are given back
  with their contents forgotten.
-/
import proofs.«117683_j11484742549629_2_alg».proof.Proof.RunBase
import proofs.«117683_j11484742549629_2_alg».proof.Proof.AttnBody

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What the launch leaves in main_v22, from the contents `Wi` it is entered with: its output window's array after
    the last grid point. -/
def attnArr3 (Wi : Dev nD → Valuation τ sig (Elt F)) (c : Dev nD) : Buf (Elt F) ((c : Thread nD τ).loc main_v22) :=
  (dat3 (atTc Wi) c).arrAt 3 cfg3.N

/-- The unscoped buffers after the launch: as before it, main_v22 replaced. -/
abbrev attnAfter3 (Wi : Dev nD → Valuation τ sig (Elt F)) (c : Dev nD) : Valuation τ sig (Elt F) :=
  Function.update (Wi c) main_v22 (attnArr3 Wi c)

/-- After the last point each window's array is the exit contents at its buffer: an input's array is never written,
    the output's is the replaced buffer. -/
theorem attnExitArr3 (Wi : Dev nD → Valuation τ sig (Elt F)) (c : Dev nD) (w : Fin cfg3.W) :
    (dat3 (atTc Wi) c).arrAt w cfg3.N = atTc (attnAfter3 Wi) c (Pipeline.arrRef spec3 w) := by
  match w with
  | ⟨0, _⟩ => exact ((dat3 (atTc Wi) c).arrAt_in ⟨0, by decide⟩ rfl _).trans (Function.update_of_ne (StableHlo.devRef_ne_of_ne (by decide)) _ _).symm
  | ⟨1, _⟩ => exact ((dat3 (atTc Wi) c).arrAt_in ⟨1, by decide⟩ rfl _).trans (Function.update_of_ne (StableHlo.devRef_ne_of_ne (by decide)) _ _).symm
  | ⟨2, _⟩ => exact ((dat3 (atTc Wi) c).arrAt_in ⟨2, by decide⟩ rfl _).trans (Function.update_of_ne (StableHlo.devRef_ne_of_ne (by decide)) _ _).symm
  | ⟨3, _⟩ => exact (Function.update_self (Proc.devRef .tc main_v22 : DevRef τ sig) (attnArr3 Wi c) (Wi c)).symm

/-- Every buffer that is no window's array is as at entry. -/
theorem attnExitKeep3 (Wi : Dev nD → Valuation τ sig (Elt F)) (c : Dev nD) :
    ∀ b, b ∉ Finset.univ.image (Pipeline.arrRef spec3) → atTc (attnAfter3 Wi) c b = atTc Wi c b := by
  intro b hb
  have hne : b ≠ main_v22 := fun e => hb (Finset.mem_image.mpr ⟨3, Finset.mem_univ _, e.symm ▸ rfl⟩)
  exact Function.update_of_ne (StableHlo.devRef_ne_of_ne hne) _ _

set_option backward.isDefEq.respectTransparency.types false in
/-- The launch as a segment between the unscoped buffers' contents `Wi` at entry and `Wo` at exit, for any family of
    proof data whose member at this launch is `dat3` at `Wi`. At entry the windows' arrays are split out of the unscoped
    buffers and the generator register goes into the invariant, which at the first point is the launch's starting one
    (every scoped buffer that is no staging buffer at some contents: the four scratch buffers among them). At exit the
    invariant after the last point, which holds the scratch at the last state, gives the starting one back; the arrays
    are put back, each at `Wo` (`hArr`), every other buffer as at entry (`hKeep`). The kernel has no semaphore of its
    own and the core owes nothing. -/
def attnSeg3 (pdats : (p : Fin 13) → (c : Dev nD) → Dat τ (Elt F) Unit ℕ (UR sig nD τ) ℕ (cfgs p) c)
    (Wi Wo : Dev nD → Valuation τ sig (Elt F))
    (hp : ∀ c, pdats 3 c = dat3 (atTc Wi) c)
    (hArr : ∀ c (w : Fin cfg3.W), (dat3 (atTc Wi) c).arrAt w cfg3.N = atTc Wo c (Pipeline.arrRef spec3 w))
    (hKeep : ∀ c, ∀ b, b ∉ Finset.univ.image (Pipeline.arrRef spec3) → atTc Wo c b = atTc Wi c b) :
    RegionSeg (pcfgs (F := F)) adm pdats () defs₀ Variants.none noLevels levelZero 3 where
  win := launch3.win.to₀
  block_pos := launch3.block_pos
  stage_whole := launch3.stage_whole
  K := PEmpty
  osem k := k.elim
  ho := Pipeline.OwnSemFacts.none _
  hbody c := by rw [hp c]; exact (body_obligation3 (atTc Wi) c).loose
  hwaits := Pipeline.hwaits_of_owed_zero _ _ _ _ noLevels levelZero 3 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec3 c (atTc Wi c)
  hentry c := by
    rw [Pipeline.ownSems0_none]
    have hsplit := Pipeline.arrays_of_unscopedBufs (p := 3) (pcfgs (F := F)) adm pdats launch3.win launch3.arr_whole c
      ((pdats 3 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec3 c : sProp 𝕄)
    unfold Pipeline.ΦA
    iintro ⟨Hreg, -, Hscoped⟩
    isplitl [Hscoped]; · iexact Hscoped
    iexact Hreg
  hout c := by
    rw [Pipeline.ownSems0_none, hp c]
    refine (Phi3_last (atTc Wi) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c pdats ((pdats 3 c).share_full fun _ => by rw [hp c]; rfl)
      (atTc Wi c) (atTc Wo c) ((pdats 3 c).arrAt · cfg3.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.LinDat4.lean ====
/- Region 4 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.KernelIdeal.Skeleton
import proofs.«117683_j11484742549629_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-! ## The rectangles the body reads and writes: each is a whole staging buffer -/

/-- all of a 512x1024 tile (the activation tile, and the result tile) -/
abbrev tileAll4 : Rect S512x1024 := Rect.unit (s := S512x1024) ![0, 0] S512x1024.size inb_S512x1024_S512x1024_0_0
/-- all of the 1024x1024 weight matrix -/
abbrev weightAll4 : Rect S1024x1024 := Rect.unit (s := S1024x1024) ![0, 0] S1024x1024.size inb_S1024x1024_S1024x1024_0_0
/-- all of the 1x1024 bias row -/
abbrev biasAll4 : Rect S1x1024 := Rect.unit (s := S1x1024) ![0, 0] S1x1024.size inb_S1x1024_S1x1024_0_0

/-- A pair of zero offsets is the constant-zero offset. -/
theorem zeroOffsets4 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out4 (x : Vec F S512x1024 .f32) (wt : Vec F S1024x1024 .bf16) (bias : Vec F S1x1024 .f32) : Vec F S512x1024 .bf16 :=
  View.canon [⟨tileAll4, k4_pay1 (View.ld x tileAll4) (View.ld wt weightAll4) (View.ld bias biasAll4)⟩]

/-- Since the store and the loads are through whole buffers, the stored block is the payload of the
    input blocks themselves. -/
theorem out4_eq_pay (x : Vec F S512x1024 .f32) (wt : Vec F S1024x1024 .bf16) (bias : Vec F S1x1024 .f32) :
    out4 x wt bias = k4_pay1 x wt bias := by
  unfold out4
  rw [View.canon_unit_zero (S := S512x1024) zeroOffsets4 inb_S512x1024_S512x1024_0_0,
    View.ld_unit_zero (S := S512x1024) zeroOffsets4 inb_S512x1024_S512x1024_0_0,
    View.ld_unit_zero (S := S1024x1024) zeroOffsets4 inb_S1024x1024_S1024x1024_0_0,
    View.ld_unit_zero (S := S1x1024) zeroOffsets4 inb_S1x1024_S1x1024_0_0]

/-- The single store reaches every index of the tile. -/
theorem storeCovers4 (p : Vec F S512x1024 .bf16) (y : S512x1024.Idx) :
    ∃ pc ∈ ([⟨tileAll4, p⟩] : List (View.Piece (Elt F) S512x1024 .bf16)), y ∈ pc.1.set :=
  ⟨_, List.mem_singleton_self _, View.mem_set_unit_zero (S := S512x1024) zeroOffsets4 inb_S512x1024_S512x1024_0_0 y⟩

/-! ## Proof data of the pipeline -/

/-- On core `c`: every window's array is what the entry valuation says; after the body at point `t` the three
    input buffers still hold their blocks and the result buffer holds `out4` of them; the invariant is the
    untouched rest (scoped buffers and the generator register); no debts, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4 (iblk4 V c 0 t) (iblk4 V c 1 t) (iblk4 V c 2 t) := by dsimp only [dat4]

/-- The same, with the stored block spelt as the payload of the input blocks. -/
theorem after4_3_pay (c : Dev nD) (t : Fin cfg4.N) :
    (dat4 V c).after 3 t = k4_pay1 (iblk4 V c 0 t) (iblk4 V c 1 t) (iblk4 V c 2 t) := by
  rw [after4_3, out4_eq_pay]

/-! ## What an input's staging buffer holds when the body starts -/

/-- The activation tile's buffer holds the tile's block at every point (it is fetched at every point). -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- The weight matrix's buffer holds the matrix at every point: fetched once, and its index never moves. -/
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-- Likewise the bias row's buffer. -/
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

end Cert.KernelIdeal.Hand
-- ==== Proof.LinBody4.lean ====
/- Region 4 (a key/value projection): the kernel body run on whole staging buffers, and from it the
   obligation the pipeline asks of the body at every grid point. -/
import proofs.«117683_j11484742549629_2_alg».proof.Proof.LinDat4
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows4 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out4` of them. It loads the four buffers whole and stores once, through the whole tile. -/
theorem sound_kernel4 (c : Dev nD) (E : Set ℕ) (i : grid4.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out4 x wt bias)) -∗ K ⟨⟩))
      ⊢ wp frame (wpE (defs₀ (F := F)) Variants.none c none) E (cc4__kv_kernel i mx hmx mw hmw mb hmb mo hmo) K := by
  rw [cc4__kv_kernel_eq_skeleton]; unfold cc4__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers4 _)

/-! ## The obligation at a grid point -/

/-- What the pipeline hands the body at point `t`: the invariant, the core's debts, and the four staging buffers. -/
def bodyGiven4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- What it must hand back. -/
def bodyOwed4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At every point the three input buffers hold their blocks, so the run on whole buffers applies; the
    invariant and the debts are not touched by the body. -/
theorem sound_body4 (c : Dev nD) (t : Fin cfg4.N) :
    bodyGiven4 V c t ⊢ wp frame (wpE (defs₀ (F := F)) Variants.none c none) Set.univ (bodyAt4 t) (fun _ => bodyOwed4 V c t) := by
  unfold bodyGiven4 bodyOwed4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨Hinv, Hdebt, ⟨%d0, B0⟩, ⟨%d1, B1⟩, ⟨%d2, B2⟩, ⟨%d3, B3⟩⟩
  iapply (sound_kernel4 c Set.univ _ _ _ _ _ _ _ _ _ (iblk4 V c 0 t) (iblk4 V c 1 t) (iblk4 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation4 (c : Dev nD) :
    BodyObligation (dat4 (F := F) V c) (defs₀ (F := F)) Variants.none () Set.univ := fun t => by
  rw [fourWindows4, fourWindows4]
  exact sound_body4 V c t

end Cert.KernelIdeal.Hand
-- ==== Proof.RunSeg4.lean ====
/-
  Region 4 of the kernel program's @main as a segment of the run. The region reads its input windows' arrays and writes one
  array, main_v26: so the contents after it are the contents before it with that buffer replaced by the fold of the grid
  points' write-backs, every input window's array being what it was (a window that is never written back keeps its array).
-/
import proofs.«117683_j11484742549629_2_alg».proof.Proof.RunBase
import proofs.«117683_j11484742549629_2_alg».proof.Proof.LinBody4

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What region 4 leaves in main_v26, from entry contents Wi. -/
def outArr4 (Wi : Dev nD → Valuation τ sig (Elt F)) (c : Dev nD) : Buf (Elt F) ((c : Thread nD τ).loc main_v26) :=
  (dat4 (atTc Wi) c).arrAt 3 cfg4.N
/-- The contents after region 4. -/
abbrev after4 (Wi : Dev nD → Valuation τ sig (Elt F)) (c : Dev nD) : Valuation τ sig (Elt F) :=
  Function.update (Wi c) main_v26 (outArr4 Wi c)

/-- Each window's array after the last grid point is the exit contents at that window's buffer. -/
theorem exitArr4 (Wi : Dev nD → Valuation τ sig (Elt F)) (c : Dev nD) (w : Fin cfg4.W) :
    (dat4 (atTc Wi) c).arrAt w cfg4.N = atTc (after4 Wi) c (Pipeline.arrRef spec4 w) := by
  match w with
  | ⟨0, _⟩ => exact ((dat4 (atTc Wi) c).arrAt_in ⟨0, by decide⟩ rfl _).trans (Function.update_of_ne (StableHlo.devRef_ne_of_ne (by decide)) _ _).symm
  | ⟨1, _⟩ => exact ((dat4 (atTc Wi) c).arrAt_in ⟨1, by decide⟩ rfl _).trans (Function.update_of_ne (StableHlo.devRef_ne_of_ne (by decide)) _ _).symm
  | ⟨2, _⟩ => exact ((dat4 (atTc Wi) c).arrAt_in ⟨2, by decide⟩ rfl _).trans (Function.update_of_ne (StableHlo.devRef_ne_of_ne (by decide)) _ _).symm
  | ⟨3, _⟩ => exact (Function.update_self (Proc.devRef .tc main_v26 : DevRef τ sig) (outArr4 Wi c) (Wi c)).symm

/-- Every buffer that is no window's array is as at entry. -/
theorem exitKeep4 (Wi : Dev nD → Valuation τ sig (Elt F)) (c : Dev nD) :
    ∀ b, b ∉ Finset.univ.image (Pipeline.arrRef spec4) → atTc (after4 Wi) c b = atTc Wi c b := by
  intro b hb
  have hne : b ≠ main_v26 := fun e => hb (Finset.mem_image.mpr ⟨3, Finset.mem_univ _, e.symm ▸ rfl⟩)
  exact Function.update_of_ne (StableHlo.devRef_ne_of_ne hne) _ _

set_option backward.isDefEq.respectTransparency.types false in
/-- Region 4 as a segment between two valuations Wi (entry) and Wo (exit) of the unscoped buffers, for any family of proof
    data whose entry at region 4 is this region's. The region's arrays are split out of the unscoped buffers at entry and put
    back at exit, where each window's array is Wo at that window's buffer (hArr) and every other buffer is as at entry (hKeep);
    the generator register goes into the class invariant and comes back; the kernel has no semaphore of its own and owes nothing. -/
def linSeg4 (pdats : (p : Fin 13) → (c : Dev nD) → Dat τ (Elt F) Unit ℕ (UR sig nD τ) ℕ (cfgs p) c)
    (Wi Wo : Dev nD → Valuation τ sig (Elt F))
    (hp : ∀ c, pdats 4 c = dat4 (atTc Wi) c)
    (hArr : ∀ c (w : Fin cfg4.W), (dat4 (atTc Wi) c).arrAt w cfg4.N = atTc Wo c (Pipeline.arrRef spec4 w))
    (hKeep : ∀ c, ∀ b, b ∉ Finset.univ.image (Pipeline.arrRef spec4) → atTc Wo c b = atTc Wi c b) :
    RegionSeg (pcfgs (F := F)) adm pdats () defs₀ Variants.none noLevels levelZero 4 where
  win := launch4.win.to₀
  block_pos := launch4.block_pos
  stage_whole := launch4.stage_whole
  K := PEmpty
  osem k := k.elim
  ho := Pipeline.OwnSemFacts.none _
  hbody c := by rw [hp c]; exact (body_obligation4 (atTc Wi) c).loose
  hwaits := Pipeline.hwaits_of_owed_zero _ _ _ _ noLevels levelZero 4 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec4 c (atTc Wi c)
  hentry c := by
    rw [Pipeline.ownSems0_none]
    have hsplit := Pipeline.arrays_of_unscopedBufs (p := 4) (pcfgs (F := F)) adm pdats launch4.win launch4.arr_whole c
      ((pdats 4 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec4 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec4 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 4) (pcfgs (F := F)) adm (Ix := Unit) (Name := ℕ) (U := UR sig nD τ) (Lvl := ℕ)
      launch4.win launch4.arr_whole c pdats ((pdats 4 c).share_full fun _ => by rw [hp c]; rfl)
      (atTc Wi c) (atTc Wo c) ((pdats 4 c).arrAt · cfg4.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.LinDat5.lean ====
/- Region 5 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.KernelIdeal.Skeleton
import proofs.«117683_j11484742549629_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## The rectangles the body reads and writes: each is a whole staging buffer -/

/-- all of a 512x1024 tile (the activation tile, and the result tile) -/
abbrev tileAll5 : Rect S512x1024 := Rect.unit (s := S512x1024) ![0, 0] S512x1024.size inb_S512x1024_S512x1024_0_0
/-- all of the 1024x1024 weight matrix -/
abbrev weightAll5 : Rect S1024x1024 := Rect.unit (s := S1024x1024) ![0, 0] S1024x1024.size inb_S1024x1024_S1024x1024_0_0
/-- all of the 1x1024 bias row -/
abbrev biasAll5 : Rect S1x1024 := Rect.unit (s := S1x1024) ![0, 0] S1x1024.size inb_S1x1024_S1x1024_0_0

/-- A pair of zero offsets is the constant-zero offset. -/
theorem zeroOffsets5 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out5 (x : Vec F S512x1024 .f32) (wt : Vec F S1024x1024 .bf16) (bias : Vec F S1x1024 .f32) : Vec F S512x1024 .bf16 :=
  View.canon [⟨tileAll5, k5_pay1 (View.ld x tileAll5) (View.ld wt weightAll5) (View.ld bias biasAll5)⟩]

/-- Since the store and the loads are through whole buffers, the stored block is the payload of the
    input blocks themselves. -/
theorem out5_eq_pay (x : Vec F S512x1024 .f32) (wt : Vec F S1024x1024 .bf16) (bias : Vec F S1x1024 .f32) :
    out5 x wt bias = k5_pay1 x wt bias := by
  unfold out5
  rw [View.canon_unit_zero (S := S512x1024) zeroOffsets5 inb_S512x1024_S512x1024_0_0,
    View.ld_unit_zero (S := S512x1024) zeroOffsets5 inb_S512x1024_S512x1024_0_0,
    View.ld_unit_zero (S := S1024x1024) zeroOffsets5 inb_S1024x1024_S1024x1024_0_0,
    View.ld_unit_zero (S := S1x1024) zeroOffsets5 inb_S1x1024_S1x1024_0_0]

/-- The single store reaches every index of the tile. -/
theorem storeCovers5 (p : Vec F S512x1024 .bf16) (y : S512x1024.Idx) :
    ∃ pc ∈ ([⟨tileAll5, p⟩] : List (View.Piece (Elt F) S512x1024 .bf16)), y ∈ pc.1.set :=
  ⟨_, List.mem_singleton_self _, View.mem_set_unit_zero (S := S512x1024) zeroOffsets5 inb_S512x1024_S512x1024_0_0 y⟩

/-! ## Proof data of the pipeline -/

/-- On core `c`: every window's array is what the entry valuation says; after the body at point `t` the three
    input buffers still hold their blocks and the result buffer holds `out5` of them; the invariant is the
    untouched rest (scoped buffers and the generator register); no debts, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5 (iblk5 V c 0 t) (iblk5 V c 1 t) (iblk5 V c 2 t) := by dsimp only [dat5]

/-- The same, with the stored block spelt as the payload of the input blocks. -/
theorem after5_3_pay (c : Dev nD) (t : Fin cfg5.N) :
    (dat5 V c).after 3 t = k5_pay1 (iblk5 V c 0 t) (iblk5 V c 1 t) (iblk5 V c 2 t) := by
  rw [after5_3, out5_eq_pay]

/-! ## What an input's staging buffer holds when the body starts -/

/-- The activation tile's buffer holds the tile's block at every point (it is fetched at every point). -/
theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)

/-- The weight matrix's buffer holds the matrix at every point: fetched once, and its index never moves. -/
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

/-- Likewise the bias row's buffer. -/
theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

end Cert.KernelIdeal.Hand
-- ==== Proof.LinBody5.lean ====
/- Region 5 (a key/value projection): the kernel body run on whole staging buffers, and from it the
   obligation the pipeline asks of the body at every grid point. -/
import proofs.«117683_j11484742549629_2_alg».proof.Proof.LinDat5
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows5 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out5` of them. It loads the four buffers whole and stores once, through the whole tile. -/
theorem sound_kernel5 (c : Dev nD) (E : Set ℕ) (i : grid5.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out5 x wt bias)) -∗ K ⟨⟩))
      ⊢ wp frame (wpE (defs₀ (F := F)) Variants.none c none) E (cc5__kv_kernel i mx hmx mw hmw mb hmb mo hmo) K := by
  rw [cc5__kv_kernel_eq_skeleton]; unfold cc5__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers5 _)

/-! ## The obligation at a grid point -/

/-- What the pipeline hands the body at point `t`: the invariant, the core's debts, and the four staging buffers. -/
def bodyGiven5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- What it must hand back. -/
def bodyOwed5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- At every point the three input buffers hold their blocks, so the run on whole buffers applies; the
    invariant and the debts are not touched by the body. -/
theorem sound_body5 (c : Dev nD) (t : Fin cfg5.N) :
    bodyGiven5 V c t ⊢ wp frame (wpE (defs₀ (F := F)) Variants.none c none) Set.univ (bodyAt5 t) (fun _ => bodyOwed5 V c t) := by
  unfold bodyGiven5 bodyOwed5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨Hinv, Hdebt, ⟨%d0, B0⟩, ⟨%d1, B1⟩, ⟨%d2, B2⟩, ⟨%d3, B3⟩⟩
  iapply (sound_kernel5 c Set.univ _ _ _ _ _ _ _ _ _ (iblk5 V c 0 t) (iblk5 V c 1 t) (iblk5 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation5 (c : Dev nD) :
    BodyObligation (dat5 (F := F) V c) (defs₀ (F := F)) Variants.none () Set.univ := fun t => by
  rw [fourWindows5, fourWindows5]
  exact sound_body5 V c t

end Cert.KernelIdeal.Hand
-- ==== Proof.RunSeg5.lean ====
/-
  Region 5 of the kernel program's @main as a segment of the run. The region reads its input windows' arrays and writes one
  array, main_v31: so the contents after it are the contents before it with that buffer replaced by the fold of the grid
  points' write-backs, every input window's array being what it was (a window that is never written back keeps its array).
-/
import proofs.«117683_j11484742549629_2_alg».proof.Proof.RunBase
import proofs.«117683_j11484742549629_2_alg».proof.Proof.LinBody5

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What region 5 leaves in main_v31, from entry contents Wi. -/
def outArr5 (Wi : Dev nD → Valuation τ sig (Elt F)) (c : Dev nD) : Buf (Elt F) ((c : Thread nD τ).loc main_v31) :=
  (dat5 (atTc Wi) c).arrAt 3 cfg5.N
/-- The contents after region 5. -/
abbrev after5 (Wi : Dev nD → Valuation τ sig (Elt F)) (c : Dev nD) : Valuation τ sig (Elt F) :=
  Function.update (Wi c) main_v31 (outArr5 Wi c)

/-- Each window's array after the last grid point is the exit contents at that window's buffer. -/
theorem exitArr5 (Wi : Dev nD → Valuation τ sig (Elt F)) (c : Dev nD) (w : Fin cfg5.W) :
    (dat5 (atTc Wi) c).arrAt w cfg5.N = atTc (after5 Wi) c (Pipeline.arrRef spec5 w) := by
  match w with
  | ⟨0, _⟩ => exact ((dat5 (atTc Wi) c).arrAt_in ⟨0, by decide⟩ rfl _).trans (Function.update_of_ne (StableHlo.devRef_ne_of_ne (by decide)) _ _).symm
  | ⟨1, _⟩ => exact ((dat5 (atTc Wi) c).arrAt_in ⟨1, by decide⟩ rfl _).trans (Function.update_of_ne (StableHlo.devRef_ne_of_ne (by decide)) _ _).symm
  | ⟨2, _⟩ => exact ((dat5 (atTc Wi) c).arrAt_in ⟨2, by decide⟩ rfl _).trans (Function.update_of_ne (StableHlo.devRef_ne_of_ne (by decide)) _ _).symm
  | ⟨3, _⟩ => exact (Function.update_self (Proc.devRef .tc main_v31 : DevRef τ sig) (outArr5 Wi c) (Wi c)).symm

/-- Every buffer that is no window's array is as at entry. -/
theorem exitKeep5 (Wi : Dev nD → Valuation τ sig (Elt F)) (c : Dev nD) :
    ∀ b, b ∉ Finset.univ.image (Pipeline.arrRef spec5) → atTc (after5 Wi) c b = atTc Wi c b := by
  intro b hb
  have hne : b ≠ main_v31 := fun e => hb (Finset.mem_image.mpr ⟨3, Finset.mem_univ _, e.symm ▸ rfl⟩)
  exact Function.update_of_ne (StableHlo.devRef_ne_of_ne hne) _ _

set_option backward.isDefEq.respectTransparency.types false in
/-- Region 5 as a segment between two valuations Wi (entry) and Wo (exit) of the unscoped buffers, for any family of proof
    data whose entry at region 5 is this region's. The region's arrays are split out of the unscoped buffers at entry and put
    back at exit, where each window's array is Wo at that window's buffer (hArr) and every other buffer is as at entry (hKeep);
    the generator register goes into the class invariant and comes back; the kernel has no semaphore of its own and owes nothing. -/
def linSeg5 (pdats : (p : Fin 13) → (c : Dev nD) → Dat τ (Elt F) Unit ℕ (UR sig nD τ) ℕ (cfgs p) c)
    (Wi Wo : Dev nD → Valuation τ sig (Elt F))
    (hp : ∀ c, pdats 5 c = dat5 (atTc Wi) c)
    (hArr : ∀ c (w : Fin cfg5.W), (dat5 (atTc Wi) c).arrAt w cfg5.N = atTc Wo c (Pipeline.arrRef spec5 w))
    (hKeep : ∀ c, ∀ b, b ∉ Finset.univ.image (Pipeline.arrRef spec5) → atTc Wo c b = atTc Wi c b) :
    RegionSeg (pcfgs (F := F)) adm pdats () defs₀ Variants.none noLevels levelZero 5 where
  win := launch5.win.to₀
  block_pos := launch5.block_pos
  stage_whole := launch5.stage_whole
  K := PEmpty
  osem k := k.elim
  ho := Pipeline.OwnSemFacts.none _
  hbody c := by rw [hp c]; exact (body_obligation5 (atTc Wi) c).loose
  hwaits := Pipeline.hwaits_of_owed_zero _ _ _ _ noLevels levelZero 5 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec5 c (atTc Wi c)
  hentry c := by
    rw [Pipeline.ownSems0_none]
    have hsplit := Pipeline.arrays_of_unscopedBufs (p := 5) (pcfgs (F := F)) adm pdats launch5.win launch5.arr_whole c
      ((pdats 5 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec5 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec5 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 5) (pcfgs (F := F)) adm (Ix := Unit) (Name := ℕ) (U := UR sig nD τ) (Lvl := ℕ)
      launch5.win launch5.arr_whole c pdats ((pdats 5 c).share_full fun _ => by rw [hp c]; rfl)
      (atTc Wi c) (atTc Wo c) ((pdats 5 c).arrAt · cfg5.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.AttnDat6.lean ====
/-
  The attention launch of branch 2 (the seventh pallas_call: grid batch x query tile x key tile = 4 x 4 x 4, the key
  tile innermost): what its four carried buffers — running maximum, running denominator, running numerator, scaled
  queries — hold after every grid point, by recursion on the point, in terms of the body's store payloads; what the
  output block holds where it is stored; and the proof data of the launch built from them.

  At a point whose key tile is the first the body resets the four buffers (maximum to a large negative constant,
  denominator and numerator to zero, scaled queries to the query block times 1/32) before the update; at every point
  it folds the key and value blocks into maximum, denominator and numerator; at a point whose key tile is the last it
  stores numerator / denominator into the output block.
-/
import proofs.«117683_j11484742549629_2_alg».proof.Proof.AttnDat
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Branch 2 (pallas_call 6) at the contents `V` its region is entered with -/

section Region6

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The query, key and value blocks at point `t`. -/
def qBlk6 (c : Dev nD) (t : Fin cfg6.N) : Vec F S1x512x1024 .bf16 := iblk6 V c 0 t
def kBlk6 (c : Dev nD) (t : Fin cfg6.N) : Vec F S1x512x1024 .bf16 := iblk6 V c 1 t
def vBlk6 (c : Dev nD) (t : Fin cfg6.N) : Vec F S1x512x1024 .bf16 := iblk6 V c 2 t

/-- THE RECURRENCE. What the four carried buffers hold after the body at position `n` of the grid (the key tile is
    `n % 4`): at a first key tile the reset state with this point's keys and values folded in, elsewhere the state the
    point before left with them folded in. -/
def scrAt6 (c : Dev nD) : (n : ℕ) → n < cfg6.N → AttnScr F
  | 0, h => attnStep (kBlk6 V c ⟨0, h⟩) (vBlk6 V c ⟨0, h⟩) (attnReset (qBlk6 V c ⟨0, h⟩))
  | n + 1, h =>
    attnStep (kBlk6 V c ⟨n + 1, h⟩) (vBlk6 V c ⟨n + 1, h⟩)
      (if (n + 1) % 4 = 0 then attnReset (qBlk6 V c ⟨n + 1, h⟩) else scrAt6 c n (Nat.lt_of_succ_lt h))

/-- The state point `t` leaves, and its components by name. -/
def scr6 (c : Dev nD) (t : Fin cfg6.N) : AttnScr F := scrAt6 V c t.val t.isLt
def scrM6 (c : Dev nD) (t : Fin cfg6.N) : Vec F S512x1 .f32 := (scr6 V c t).m
def scrL6 (c : Dev nD) (t : Fin cfg6.N) : Vec F S512x1 .f32 := (scr6 V c t).l
def scrAcc6 (c : Dev nD) (t : Fin cfg6.N) : Vec F S512x1024 .f32 := (scr6 V c t).acc
def scrQs6 (c : Dev nD) (t : Fin cfg6.N) : Vec F S512x1024 .bf16 := (scr6 V c t).qs

/-- What the output block's staging buffer holds after point `t` (stored at the last key tile). -/
def outBlk6 (c : Dev nD) (t : Fin cfg6.N) : Vec F S1x512x1024 .bf16 := attnOut (scr6 V c t)

/-- At a first key tile: the reset state, this point's keys and values folded in. -/
theorem scr6_first (c : Dev nD) (t : Fin cfg6.N) (h0 : t.val % 4 = 0) :
    scr6 V c t = attnStep (kBlk6 V c t) (vBlk6 V c t) (attnReset (qBlk6 V c t)) := by
  obtain ⟨n, hn⟩ := t
  cases n with
  | zero => rfl
  | succ n => exact congrArg (attnStep _ _) (if_pos h0)

/-- Elsewhere: what the point before left, this point's keys and values folded in. -/
theorem scr6_next (c : Dev nD) (t : Fin cfg6.N) (h0 : ¬ t.val % 4 = 0) :
    scr6 V c t = attnStep (kBlk6 V c t) (vBlk6 V c t)
      (scr6 V c ⟨t.val - 1, Nat.lt_of_le_of_lt (Nat.sub_le _ _) t.isLt⟩) := by
  obtain ⟨n, hn⟩ := t
  cases n with
  | zero => exact absurd (Nat.zero_mod _) h0
  | succ n => exact congrArg (attnStep _ _) (if_neg h0)

/-! ## The invariant: the four scratch buffers at the recurrence's contents -/

/-- The call's four scratch buffers, whole, at the state `s`. -/
def scrHeld6 (c : Dev nD) (s : AttnScr F) : sProp 𝕄 :=
  iprop(owns (c : Thread nD τ) (Memref.whole cc6_scratch0) fullShare s.m
    ∗ owns (c : Thread nD τ) (Memref.whole cc6_scratch1) fullShare s.l
    ∗ owns (c : Thread nD τ) (Memref.whole cc6_scratch2) fullShare s.acc
    ∗ owns (c : Thread nD τ) (Memref.whole cc6_scratch3) fullShare s.qs)

/-- The core's other scoped buffers that are no staging buffer of this call, each at some contents. -/
abbrev scrRest6 (c : Dev nD) : sProp 𝕄 :=
  Pipeline.scopedRestBut (Ix := Unit) (Name := ℕ) (U := UR sig nD τ) (Lvl := ℕ) (Val := Elt F) spec6 c
    [cc6_scratch0, cc6_scratch1, cc6_scratch2, cc6_scratch3]

/-- Before position `n`: at the launch's start every scoped non-staging buffer at some contents and the generator
    register at some state; afterwards the four scratch buffers at what the point before left, the other scoped
    buffers at some contents, the generator register at some state. -/
def Phi6 (c : Dev nD) : (n : ℕ) → n ≤ cfg6.N → sProp 𝕄
  | 0, _ => Pipeline.ΦA spec6 c
  | n + 1, hn => iprop(scrHeld6 c (scrAt6 V c n hn) ∗ scrRest6 (F := F) c ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(scrHeld6 c (scr6 V c ⟨n, hn⟩) ∗ scrRest6 (F := F) c ∗ (∃ r, prngReg c r)) := rfl

theorem Phi6_pos (c : Dev nD) (n : ℕ) (h : n ≤ cfg6.N) (hz : n ≠ 0) :
    Phi6 V c n h = iprop(scrHeld6 c (scr6 V c ⟨n - 1, by omega⟩) ∗ scrRest6 (F := F) c ∗ (∃ r, prngReg c r)) := by
  cases n with
  | zero => exact absurd rfl hz
  | succ n => rfl

/-! ## The proof data -/

/-- The proof data of the launch on core `c`: the arrays as the region finds them; after the body each input's
    buffer at its block and the output's at the quotient the state gives; the invariant `Phi6`; nothing owed; full
    shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => outBlk6 V c t
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = outBlk6 V c t := by dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem Phi6_at_succ (c : Dev nD) (t : Fin cfg6.N) :
    (dat6 V c).Φ t.succ = iprop(scrHeld6 c (scr6 V c t) ∗ scrRest6 (F := F) c ∗ (∃ r, prngReg c r)) := rfl

end Region6

end Cert.KernelIdeal.Hand

end
-- ==== Proof.AttnRun6.lean ====
/-
  The attention body's triple. On whole memrefs — the query, key and value blocks, the output block and the four carried
  buffers — the body run at a grid point leaves the three input blocks as it found them, takes the carried buffers from a
  state to that state with the key and value blocks folded in (from the reset state at a first key tile, whatever the
  buffers held), and leaves the output block as found except at a last key tile, where it stores the quotient. One
  theorem per case of the two tests on the key-tile coordinate; with four key tiles no point is both first and last.
-/
import proofs.«117683_j11484742549629_2_alg».proof.Proof.AttnDat6
import proofs.«117683_j11484742549629_2_alg».proof.Proof.AttnRun
import proofs.«117683_j11484742549629_2_alg».proof.Proof.LaunchKI
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two tests on the key-tile coordinate -/

/-- The first-key-tile test, as the body computes it from the grid coordinates. -/
abbrev kvFirst6 (i : grid6.Coords) : Prop :=
  Scalar.cmpi .ne (Scalar.extui (Scalar.cmpi .eq (BitVec.ofNat 32 (i 2).val) 0#32)) 0#32 = 1#1

/-- The last-key-tile test. -/
abbrev kvLast6 (i : grid6.Coords) : Prop := k6_cond2 i = 1#1

/-- On the grid the first test holds exactly at the positions ≡ 0 (mod 4), -/
theorem kvFirst6_iff : ∀ t : Fin cfg6.N, kvFirst6 (grid6.coords t) ↔ t.val % 4 = 0 :=
  (by decide +kernel : ∀ t : Fin grid6.N, kvFirst6 (grid6.coords t) ↔ t.val % 4 = 0)

/-- and the last exactly at the positions ≡ 3 (mod 4). -/
theorem kvLast6_iff : ∀ t : Fin cfg6.N, kvLast6 (grid6.coords t) ↔ t.val % 4 = 3 :=
  (by decide +kernel : ∀ t : Fin grid6.N, kvLast6 (grid6.coords t) ↔ t.val % 4 = 3)

/-! ## The body's triple, per case of the two tests

On whole memrefs: the three input blocks are left as found; the four carried buffers go from a state to that state with
the key and value blocks folded in (`attnStep`), starting from the reset state at a first key tile whatever they
held; the output block is left as found except at a last key tile, where it ends at the quotient (`attnOut`). -/

set_option maxHeartbeats 4000000 in
/-- A first key tile that is not the last. -/
theorem attn_run_first6 (c : Dev nD) (E : Set ℕ) (i : grid6.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : kvFirst6 i) (hlast : ¬ kvLast6 i)
    (q k v o : Vec F S1x512x1024 .bf16) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v (attnReset q)).m ∗ owns (c : Thread nD τ) arg8 fullShare (attnStep k v (attnReset q)).l
        ∗ owns (c : Thread nD τ) arg9 fullShare (attnStep k v (attnReset q)).acc ∗ owns (c : Thread nD τ) arg10 fullShare (attnStep k v (attnReset q)).qs) -∗ K ⟨⟩))
      ⊢ wp frame (wpE (defs₀ (F := F)) Variants.none c none) E (cc6__attn_kernel i arg3 harg3 arg4 harg4 arg5 harg5 arg6 harg6 arg7 harg7 arg8 harg8 arg9 harg9 arg10 harg10) K := by
  simp only [cc6__attn_kernel_eq_skeleton]; unfold cc6__attn_kernel_skel
  simp only [k6_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  iexists _; isplitr
  swap; · iexact H10
  ipureintro
  sl_unfold_run_names
  rw [read_writes_wholeRect (S := S512x1024) _ _ zeroOff2]
  simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
  rfl

set_option maxHeartbeats 4000000 in
/-- A key tile that is neither first nor last. -/
theorem attn_run_mid6 (c : Dev nD) (E : Set ℕ) (i : grid6.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst6 i) (hlast : ¬ kvLast6 i)
    (q k v o : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc6__attn_kernel i arg3 harg3 arg4 harg4 arg5 harg5 arg6 harg6 arg7 harg7 arg8 harg8 arg9 harg9 arg10 harg10) K := by
  simp only [cc6__attn_kernel_eq_skeleton]; unfold cc6__attn_kernel_skel
  simp only [k6_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

set_option maxHeartbeats 4000000 in
/-- A last key tile that is not the first. -/
theorem attn_run_last6 (c : Dev nD) (E : Set ℕ) (i : grid6.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst6 i) (hlast : kvLast6 i)
    (q k v : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare (attnOut (attnStep k v s))
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc6__attn_kernel i arg3 harg3 arg4 harg4 arg5 harg5 arg6 harg6 arg7 harg7 arg8 harg8 arg9 harg9 arg10 harg10) K := by
  simp only [cc6__attn_kernel_eq_skeleton]; unfold cc6__attn_kernel_skel
  simp only [k6_part1_eq_skeleton]
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists _; isplitr
    swap; · iexact H6
    ipureintro
    sl_unfold_run_names
    rw [read_writes_wholeRect (S := S1x512x1024) _ _ zeroOff3]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

end Cert.KernelIdeal.Hand

end
-- ==== Proof.AttnBody6.lean ====
/-
  The attention launch of branch 2: the body obligation of its proof data. At every grid point the body, called on the
  windows' current staging buffers and the four scratch buffers, takes the invariant before the point to the invariant
  after it: at a first key tile the scratch is handed over at whatever it holds and returned at the reset state with the
  tile folded in; elsewhere it is handed over at what the point before left and returned with the tile folded in; the
  output block's buffer is returned untouched except at a last key tile, where it holds the quotient.
-/
import proofs.«117683_j11484742549629_2_alg».proof.Proof.AttnRun6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

/-! ## Where the windows are live, and where the output block is written back -/

/-- The three input windows are live at every point. -/
theorem live6_0 : ∀ t : Fin cfg6.N, cfg6.idle 0 (grid6.coords t) = false := fun _ => rfl
theorem live6_1 : ∀ t : Fin cfg6.N, cfg6.idle 1 (grid6.coords t) = false := fun _ => rfl
theorem live6_2 : ∀ t : Fin cfg6.N, cfg6.idle 2 (grid6.coords t) = false := fun _ => rfl
/-- The output window is idle away from the last key tile, live at it. -/
theorem idle6_3 : ∀ t : Fin cfg6.N, ¬ t.val % 4 = 3 → cfg6.idle 3 (grid6.coords t) = true := by decide +kernel
theorem live6_3 : ∀ t : Fin cfg6.N, t.val % 4 = 3 → cfg6.idle 3 (grid6.coords t) = false := by decide +kernel
/-- Away from the last key tile the output block is not written back. -/
theorem noFlush6_3 (t : Fin cfg6.N) (h : ¬ t.val % 4 = 3) : (cfg6.win 3).flush t = false :=
  Bool.eq_false_iff.mpr fun hf => h ((flush6_3 t).mp hf)

/-! ## Each input's staging buffer holds its block at every point -/

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)

theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)

theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)

/-! ## The invariant with the scratch buffers' names forgotten -/

/-- The four scratch buffers, each at some contents. -/
def scrAny6 (c : Dev nD) : sProp 𝕄 :=
  iprop((∃ d, owns (c : Thread nD τ) (Memref.whole cc6_scratch0) fullShare d)
    ∗ (∃ d, owns (c : Thread nD τ) (Memref.whole cc6_scratch1) fullShare d)
    ∗ (∃ d, owns (c : Thread nD τ) (Memref.whole cc6_scratch2) fullShare d)
    ∗ (∃ d, owns (c : Thread nD τ) (Memref.whole cc6_scratch3) fullShare d))

/-- The launch's starting invariant, the call's scratch buffers split out of the scoped rest. -/
theorem PhiA6_eq (c : Dev nD) :
    (Pipeline.ΦA spec6 c : sProp 𝕄) = iprop(iprop(scrAny6 (F := F) c ∗ scrRest6 (F := F) c) ∗ (∃ r, prngReg c r)) := by
  unfold Pipeline.ΦA scrAny6; rw [scopedRest6_split]; simp only [owns_whole]; try rfl

/-- Before any point the invariant holds the scratch buffers at SOME contents. -/
theorem Phi6_forget (c : Dev nD) (n : ℕ) (h : n ≤ cfg6.N) :
    Phi6 V c n h ⊢ iprop(iprop(scrAny6 (F := F) c ∗ scrRest6 (F := F) c) ∗ (∃ r, prngReg c r)) := by
  cases n with
  | zero => rw [Phi6_zero V c 0 h rfl, PhiA6_eq]
  | succ n =>
    rw [Phi6_succ]; unfold scrHeld6 scrAny6
    iintro ⟨⟨H0, H1, H2, H3⟩, Hr, Hg⟩
    isplitl [H0 H1 H2 H3 Hr]
    · isplitl [H0 H1 H2 H3]
      · isplitl [H0]; · iexists _; iexact H0
        isplitl [H1]; · iexists _; iexact H1
        isplitl [H2]; · iexists _; iexact H2
        iexists _; iexact H3
      iexact Hr
    iexact Hg

/-- So the invariant at any point gives the launch's starting invariant back. -/
theorem Phi6_to_start (c : Dev nD) (n : ℕ) (h : n ≤ cfg6.N) : Phi6 V c n h ⊢ Pipeline.ΦA spec6 c := by
  rw [PhiA6_eq]; exact Phi6_forget V c n h

/-! ## The body obligation -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4000000 in
/-- The body at any point, by the case of its key tile. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [Phi6_at_succ V c t, Phi6_castSucc V c t]
  rw [show (dat6 V c).leavesExact 0 t = owns (c : Thread nD τ) (st6_0 t) fullShare ((dat6 V c).after 0 t) from by
    unfold Dat.leavesExact; rw [live6_0 t], after6_0]
  rw [show (dat6 V c).leavesExact 1 t = owns (c : Thread nD τ) (st6_1 t) fullShare ((dat6 V c).after 1 t) from by
    unfold Dat.leavesExact; rw [live6_1 t], after6_1]
  rw [show (dat6 V c).leavesExact 2 t = owns (c : Thread nD τ) (st6_2 t) fullShare ((dat6 V c).after 2 t) from by
    unfold Dat.leavesExact; rw [live6_2 t], after6_2]
  have hN : t.val < 64 := lt_of_lt_of_eq t.isLt (show cfg6.N = 64 from N_6)
  by_cases h0 : t.val % 4 = 0
  · have h3 : ¬ t.val % 4 = 3 := by omega
    rw [Dat.leavesExact_idle (dat6 V c) 3 t (idle6_3 t h3) (noFlush6_3 t h3)]
    rw [scr6_first V c t h0]; unfold qBlk6 kBlk6 vBlk6 scrHeld6
    iintro ⟨HΦ, Ho, ⟨%d0, H0⟩, ⟨%d1, H1⟩, ⟨%d2, H2⟩, ⟨%d3, H3⟩⟩
    ihave HΦ' := (Phi6_forget V c _ _) $$ HΦ
    unfold scrAny6
    icases HΦ' with ⟨⟨⟨HS0, HS1, HS2, HS3⟩, Hr⟩, Hg⟩
    iapply (attn_run_first6 c Set.univ (grid6.coords t) _ _ _ _ _ _ _ _ _ _ _ _ _ _ _ _ ((kvFirst6_iff t).mpr h0)
      (fun h => h3 ((kvLast6_iff t).mp h)) (iblk6 V c 0 t) (iblk6 V c 1 t) (iblk6 V c 2 t) _ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hr Hg]
    · isplitl [HS0 HS1 HS2 HS3]
      · isplitl [HS0]; · iexact HS0
        isplitl [HS1]; · iexact HS1
        isplitl [HS2]; · iexact HS2
        iexact HS3
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [Phi6_pos V c _ _ hz]
    by_cases h3 : t.val % 4 = 3
    · rw [show (dat6 V c).leavesExact 3 t = owns (c : Thread nD τ) (st6_3 t) fullShare ((dat6 V c).after 3 t) from by
        unfold Dat.leavesExact; rw [live6_3 t h3], after6_3]
      unfold outBlk6
      rw [scr6_next V c t h0]; unfold kBlk6 vBlk6 scrHeld6
      iintro ⟨⟨⟨HS0, HS1, HS2, HS3⟩, Hr, Hg⟩, Ho, ⟨%d0, H0⟩, ⟨%d1, H1⟩, ⟨%d2, H2⟩, ⟨%d3, H3⟩⟩
      iapply (attn_run_last6 c Set.univ (grid6.coords t) _ _ _ _ _ _ _ _ _ _ _ _ _ _ _ _ (fun h => h0 ((kvFirst6_iff t).mp h))
        ((kvLast6_iff t).mpr h3) (iblk6 V c 0 t) (iblk6 V c 1 t) (iblk6 V c 2 t) (scr6 V c ⟨t.val - 1, by omega⟩) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat6 V c) 3 t (idle6_3 t h3) (noFlush6_3 t h3)]
      rw [scr6_next V c t h0]; unfold kBlk6 vBlk6 scrHeld6
      iintro ⟨⟨⟨HS0, HS1, HS2, HS3⟩, Hr, Hg⟩, Ho, ⟨%d0, H0⟩, ⟨%d1, H1⟩, ⟨%d2, H2⟩, ⟨%d3, H3⟩⟩
      iapply (attn_run_mid6 c Set.univ (grid6.coords t) _ _ _ _ _ _ _ _ _ _ _ _ _ _ _ _ (fun h => h0 ((kvFirst6_iff t).mp h))
        (fun h => h3 ((kvLast6_iff t).mp h)) (iblk6 V c 0 t) (iblk6 V c 1 t) (iblk6 V c 2 t) _ (scr6 V c ⟨t.val - 1, by omega⟩) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation6 (c : Dev nD) :
    BodyObligation (dat6 (F := F) V c) (defs₀ (F := F)) Variants.none () Set.univ := fun t => by
  rw [bigSep_W6, bigSep_W6]
  exact sound_body6 V c t

/-! ## The invariant at the launch's two ends -/

/-- Before the first point the invariant is the launch's starting one. -/
theorem Phi6_first (c : Dev nD) : (dat6 V c).Φ 0 = Pipeline.ΦA spec6 c := rfl

/-- After the last point it gives that back. -/
theorem Phi6_last (c : Dev nD) : (dat6 V c).Φ (Fin.last cfg6.N) ⊢ Pipeline.ΦA spec6 c :=
  Phi6_to_start V c (Fin.last cfg6.N).val (Nat.le_of_lt_succ (Fin.last cfg6.N).isLt)

end Region6

end Cert.KernelIdeal.Hand

end
-- ==== Proof.AttnSeg6.lean ====
/-
  The attention launch of branch 2 as a segment of the kernel program's run. The launch reads the query, key and value
  arrays and writes one array, main_v33: after it every unscoped buffer is as before it except that one, which holds the
  fold of the write-backs at the last key tiles. Inside, the launch's four scratch buffers enter the invariant out of
  the scoped buffers at whatever they hold, carry the online softmax's state from point to point, and are given back
  with their contents forgotten.
-/
import proofs.«117683_j11484742549629_2_alg».proof.Proof.RunBase
import proofs.«117683_j11484742549629_2_alg».proof.Proof.AttnBody6

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What the launch leaves in main_v33, from the contents `Wi` it is entered with: its output window's array after
    the last grid point. -/
def attnArr6 (Wi : Dev nD → Valuation τ sig (Elt F)) (c : Dev nD) : Buf (Elt F) ((c : Thread nD τ).loc main_v33) :=
  (dat6 (atTc Wi) c).arrAt 3 cfg6.N

/-- The unscoped buffers after the launch: as before it, main_v33 replaced. -/
abbrev attnAfter6 (Wi : Dev nD → Valuation τ sig (Elt F)) (c : Dev nD) : Valuation τ sig (Elt F) :=
  Function.update (Wi c) main_v33 (attnArr6 Wi c)

/-- After the last point each window's array is the exit contents at its buffer: an input's array is never written,
    the output's is the replaced buffer. -/
theorem attnExitArr6 (Wi : Dev nD → Valuation τ sig (Elt F)) (c : Dev nD) (w : Fin cfg6.W) :
    (dat6 (atTc Wi) c).arrAt w cfg6.N = atTc (attnAfter6 Wi) c (Pipeline.arrRef spec6 w) := by
  match w with
  | ⟨0, _⟩ => exact ((dat6 (atTc Wi) c).arrAt_in ⟨0, by decide⟩ rfl _).trans (Function.update_of_ne (StableHlo.devRef_ne_of_ne (by decide)) _ _).symm
  | ⟨1, _⟩ => exact ((dat6 (atTc Wi) c).arrAt_in ⟨1, by decide⟩ rfl _).trans (Function.update_of_ne (StableHlo.devRef_ne_of_ne (by decide)) _ _).symm
  | ⟨2, _⟩ => exact ((dat6 (atTc Wi) c).arrAt_in ⟨2, by decide⟩ rfl _).trans (Function.update_of_ne (StableHlo.devRef_ne_of_ne (by decide)) _ _).symm
  | ⟨3, _⟩ => exact (Function.update_self (Proc.devRef .tc main_v33 : DevRef τ sig) (attnArr6 Wi c) (Wi c)).symm

/-- Every buffer that is no window's array is as at entry. -/
theorem attnExitKeep6 (Wi : Dev nD → Valuation τ sig (Elt F)) (c : Dev nD) :
    ∀ b, b ∉ Finset.univ.image (Pipeline.arrRef spec6) → atTc (attnAfter6 Wi) c b = atTc Wi c b := by
  intro b hb
  have hne : b ≠ main_v33 := fun e => hb (Finset.mem_image.mpr ⟨3, Finset.mem_univ _, e.symm ▸ rfl⟩)
  exact Function.update_of_ne (StableHlo.devRef_ne_of_ne hne) _ _

set_option backward.isDefEq.respectTransparency.types false in
/-- The launch as a segment between the unscoped buffers' contents `Wi` at entry and `Wo` at exit, for any family of
    proof data whose member at this launch is `dat6` at `Wi`. At entry the windows' arrays are split out of the unscoped
    buffers and the generator register goes into the invariant, which at the first point is the launch's starting one
    (every scoped buffer that is no staging buffer at some contents: the four scratch buffers among them). At exit the
    invariant after the last point, which holds the scratch at the last state, gives the starting one back; the arrays
    are put back, each at `Wo` (`hArr`), every other buffer as at entry (`hKeep`). The kernel has no semaphore of its
    own and the core owes nothing. -/
def attnSeg6 (pdats : (p : Fin 13) → (c : Dev nD) → Dat τ (Elt F) Unit ℕ (UR sig nD τ) ℕ (cfgs p) c)
    (Wi Wo : Dev nD → Valuation τ sig (Elt F))
    (hp : ∀ c, pdats 6 c = dat6 (atTc Wi) c)
    (hArr : ∀ c (w : Fin cfg6.W), (dat6 (atTc Wi) c).arrAt w cfg6.N = atTc Wo c (Pipeline.arrRef spec6 w))
    (hKeep : ∀ c, ∀ b, b ∉ Finset.univ.image (Pipeline.arrRef spec6) → atTc Wo c b = atTc Wi c b) :
    RegionSeg (pcfgs (F := F)) adm pdats () defs₀ Variants.none noLevels levelZero 6 where
  win := launch6.win.to₀
  block_pos := launch6.block_pos
  stage_whole := launch6.stage_whole
  K := PEmpty
  osem k := k.elim
  ho := Pipeline.OwnSemFacts.none _
  hbody c := by rw [hp c]; exact (body_obligation6 (atTc Wi) c).loose
  hwaits := Pipeline.hwaits_of_owed_zero _ _ _ _ noLevels levelZero 6 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec6 c (atTc Wi c)
  hentry c := by
    rw [Pipeline.ownSems0_none]
    have hsplit := Pipeline.arrays_of_unscopedBufs (p := 6) (pcfgs (F := F)) adm pdats launch6.win launch6.arr_whole c
      ((pdats 6 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec6 c : sProp 𝕄)
    unfold Pipeline.ΦA
    iintro ⟨Hreg, -, Hscoped⟩
    isplitl [Hscoped]; · iexact Hscoped
    iexact Hreg
  hout c := by
    rw [Pipeline.ownSems0_none, hp c]
    refine (Phi6_last (atTc Wi) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 6) (pcfgs (F := F)) adm (Ix := Unit) (Name := ℕ) (U := UR sig nD τ) (Lvl := ℕ)
      launch6.win launch6.arr_whole c pdats ((pdats 6 c).share_full fun _ => by rw [hp c]; rfl)
      (atTc Wi c) (atTc Wo c) ((pdats 6 c).arrAt · cfg6.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.LinDat7.lean ====
/- Region 7 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.KernelIdeal.Skeleton
import proofs.«117683_j11484742549629_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-! ## The rectangles the body reads and writes: each is a whole staging buffer -/

/-- all of a 512x1024 tile (the activation tile, and the result tile) -/
abbrev tileAll7 : Rect S512x1024 := Rect.unit (s := S512x1024) ![0, 0] S512x1024.size inb_S512x1024_S512x1024_0_0
/-- all of the 1024x1024 weight matrix -/
abbrev weightAll7 : Rect S1024x1024 := Rect.unit (s := S1024x1024) ![0, 0] S1024x1024.size inb_S1024x1024_S1024x1024_0_0
/-- all of the 1x1024 bias row -/
abbrev biasAll7 : Rect S1x1024 := Rect.unit (s := S1x1024) ![0, 0] S1x1024.size inb_S1x1024_S1x1024_0_0

/-- A pair of zero offsets is the constant-zero offset. -/
theorem zeroOffsets7 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out7 (x : Vec F S512x1024 .f32) (wt : Vec F S1024x1024 .bf16) (bias : Vec F S1x1024 .f32) : Vec F S512x1024 .bf16 :=
  View.canon [⟨tileAll7, k7_pay1 (View.ld x tileAll7) (View.ld wt weightAll7) (View.ld bias biasAll7)⟩]

/-- Since the store and the loads are through whole buffers, the stored block is the payload of the
    input blocks themselves. -/
theorem out7_eq_pay (x : Vec F S512x1024 .f32) (wt : Vec F S1024x1024 .bf16) (bias : Vec F S1x1024 .f32) :
    out7 x wt bias = k7_pay1 x wt bias := by
  unfold out7
  rw [View.canon_unit_zero (S := S512x1024) zeroOffsets7 inb_S512x1024_S512x1024_0_0,
    View.ld_unit_zero (S := S512x1024) zeroOffsets7 inb_S512x1024_S512x1024_0_0,
    View.ld_unit_zero (S := S1024x1024) zeroOffsets7 inb_S1024x1024_S1024x1024_0_0,
    View.ld_unit_zero (S := S1x1024) zeroOffsets7 inb_S1x1024_S1x1024_0_0]

/-- The single store reaches every index of the tile. -/
theorem storeCovers7 (p : Vec F S512x1024 .bf16) (y : S512x1024.Idx) :
    ∃ pc ∈ ([⟨tileAll7, p⟩] : List (View.Piece (Elt F) S512x1024 .bf16)), y ∈ pc.1.set :=
  ⟨_, List.mem_singleton_self _, View.mem_set_unit_zero (S := S512x1024) zeroOffsets7 inb_S512x1024_S512x1024_0_0 y⟩

/-! ## Proof data of the pipeline -/

/-- On core `c`: every window's array is what the entry valuation says; after the body at point `t` the three
    input buffers still hold their blocks and the result buffer holds `out7` of them; the invariant is the
    untouched rest (scoped buffers and the generator register); no debts, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7 (iblk7 V c 0 t) (iblk7 V c 1 t) (iblk7 V c 2 t) := by dsimp only [dat7]

/-- The same, with the stored block spelt as the payload of the input blocks. -/
theorem after7_3_pay (c : Dev nD) (t : Fin cfg7.N) :
    (dat7 V c).after 3 t = k7_pay1 (iblk7 V c 0 t) (iblk7 V c 1 t) (iblk7 V c 2 t) := by
  rw [after7_3, out7_eq_pay]

/-! ## What an input's staging buffer holds when the body starts -/

/-- The activation tile's buffer holds the tile's block at every point (it is fetched at every point). -/
theorem before7_0 (c : Dev nD) (t : Fin cfg7.N) (d) : (dat7 V c).before 0 t d = iblk7 V c 0 t :=
  ((dat7 V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

/-- The weight matrix's buffer holds the matrix at every point: fetched once, and its index never moves. -/
theorem before7_1 (c : Dev nD) (t : Fin cfg7.N) (d) : (dat7 V c).before 1 t d = iblk7 V c 1 t :=
  ((dat7 V c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)

/-- Likewise the bias row's buffer. -/
theorem before7_2 (c : Dev nD) (t : Fin cfg7.N) (d) : (dat7 V c).before 2 t d = iblk7 V c 2 t :=
  ((dat7 V c).before_in_eq_fetched 2 rfl (fun _ => rfl) (fun _ _ _ => rfl)
      (fun t => by rw [after7_2]; unfold Dat.blockOf iblk7; rw [A_eq7]; try rfl) t d).trans
    (by unfold Dat.fetched Dat.blockOf iblk7; rw [A_eq7]; try rfl)

end Cert.KernelIdeal.Hand
-- ==== Proof.LinBody7.lean ====
/- Region 7 (a key/value projection): the kernel body run on whole staging buffers, and from it the
   obligation the pipeline asks of the body at every grid point. -/
import proofs.«117683_j11484742549629_2_alg».proof.Proof.LinDat7
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows7 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out7` of them. It loads the four buffers whole and stores once, through the whole tile. -/
theorem sound_kernel7 (c : Dev nD) (E : Set ℕ) (i : grid7.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out7 x wt bias)) -∗ K ⟨⟩))
      ⊢ wp frame (wpE (defs₀ (F := F)) Variants.none c none) E (cc7__kv_kernel i mx hmx mw hmw mb hmb mo hmo) K := by
  rw [cc7__kv_kernel_eq_skeleton]; unfold cc7__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers7 _)

/-! ## The obligation at a grid point -/

/-- What the pipeline hands the body at point `t`: the invariant, the core's debts, and the four staging buffers. -/
def bodyGiven7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- What it must hand back. -/
def bodyOwed7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- At every point the three input buffers hold their blocks, so the run on whole buffers applies; the
    invariant and the debts are not touched by the body. -/
theorem sound_body7 (c : Dev nD) (t : Fin cfg7.N) :
    bodyGiven7 V c t ⊢ wp frame (wpE (defs₀ (F := F)) Variants.none c none) Set.univ (bodyAt7 t) (fun _ => bodyOwed7 V c t) := by
  unfold bodyGiven7 bodyOwed7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨Hinv, Hdebt, ⟨%d0, B0⟩, ⟨%d1, B1⟩, ⟨%d2, B2⟩, ⟨%d3, B3⟩⟩
  iapply (sound_kernel7 c Set.univ _ _ _ _ _ _ _ _ _ (iblk7 V c 0 t) (iblk7 V c 1 t) (iblk7 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation7 (c : Dev nD) :
    BodyObligation (dat7 (F := F) V c) (defs₀ (F := F)) Variants.none () Set.univ := fun t => by
  rw [fourWindows7, fourWindows7]
  exact sound_body7 V c t

end Cert.KernelIdeal.Hand
-- ==== Proof.RunSeg7.lean ====
/-
  Region 7 of the kernel program's @main as a segment of the run. The region reads its input windows' arrays and writes one
  array, main_v37: so the contents after it are the contents before it with that buffer replaced by the fold of the grid
  points' write-backs, every input window's array being what it was (a window that is never written back keeps its array).
-/
import proofs.«117683_j11484742549629_2_alg».proof.Proof.RunBase
import proofs.«117683_j11484742549629_2_alg».proof.Proof.LinBody7

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What region 7 leaves in main_v37, from entry contents Wi. -/
def outArr7 (Wi : Dev nD → Valuation τ sig (Elt F)) (c : Dev nD) : Buf (Elt F) ((c : Thread nD τ).loc main_v37) :=
  (dat7 (atTc Wi) c).arrAt 3 cfg7.N
/-- The contents after region 7. -/
abbrev after7 (Wi : Dev nD → Valuation τ sig (Elt F)) (c : Dev nD) : Valuation τ sig (Elt F) :=
  Function.update (Wi c) main_v37 (outArr7 Wi c)

/-- Each window's array after the last grid point is the exit contents at that window's buffer. -/
theorem exitArr7 (Wi : Dev nD → Valuation τ sig (Elt F)) (c : Dev nD) (w : Fin cfg7.W) :
    (dat7 (atTc Wi) c).arrAt w cfg7.N = atTc (after7 Wi) c (Pipeline.arrRef spec7 w) := by
  match w with
  | ⟨0, _⟩ => exact ((dat7 (atTc Wi) c).arrAt_in ⟨0, by decide⟩ rfl _).trans (Function.update_of_ne (StableHlo.devRef_ne_of_ne (by decide)) _ _).symm
  | ⟨1, _⟩ => exact ((dat7 (atTc Wi) c).arrAt_in ⟨1, by decide⟩ rfl _).trans (Function.update_of_ne (StableHlo.devRef_ne_of_ne (by decide)) _ _).symm
  | ⟨2, _⟩ => exact ((dat7 (atTc Wi) c).arrAt_in ⟨2, by decide⟩ rfl _).trans (Function.update_of_ne (StableHlo.devRef_ne_of_ne (by decide)) _ _).symm
  | ⟨3, _⟩ => exact (Function.update_self (Proc.devRef .tc main_v37 : DevRef τ sig) (outArr7 Wi c) (Wi c)).symm

/-- Every buffer that is no window's array is as at entry. -/
theorem exitKeep7 (Wi : Dev nD → Valuation τ sig (Elt F)) (c : Dev nD) :
    ∀ b, b ∉ Finset.univ.image (Pipeline.arrRef spec7) → atTc (after7 Wi) c b = atTc Wi c b := by
  intro b hb
  have hne : b ≠ main_v37 := fun e => hb (Finset.mem_image.mpr ⟨3, Finset.mem_univ _, e.symm ▸ rfl⟩)
  exact Function.update_of_ne (StableHlo.devRef_ne_of_ne hne) _ _

set_option backward.isDefEq.respectTransparency.types false in
/-- Region 7 as a segment between two valuations Wi (entry) and Wo (exit) of the unscoped buffers, for any family of proof
    data whose entry at region 7 is this region's. The region's arrays are split out of the unscoped buffers at entry and put
    back at exit, where each window's array is Wo at that window's buffer (hArr) and every other buffer is as at entry (hKeep);
    the generator register goes into the class invariant and comes back; the kernel has no semaphore of its own and owes nothing. -/
def linSeg7 (pdats : (p : Fin 13) → (c : Dev nD) → Dat τ (Elt F) Unit ℕ (UR sig nD τ) ℕ (cfgs p) c)
    (Wi Wo : Dev nD → Valuation τ sig (Elt F))
    (hp : ∀ c, pdats 7 c = dat7 (atTc Wi) c)
    (hArr : ∀ c (w : Fin cfg7.W), (dat7 (atTc Wi) c).arrAt w cfg7.N = atTc Wo c (Pipeline.arrRef spec7 w))
    (hKeep : ∀ c, ∀ b, b ∉ Finset.univ.image (Pipeline.arrRef spec7) → atTc Wo c b = atTc Wi c b) :
    RegionSeg (pcfgs (F := F)) adm pdats () defs₀ Variants.none noLevels levelZero 7 where
  win := launch7.win.to₀
  block_pos := launch7.block_pos
  stage_whole := launch7.stage_whole
  K := PEmpty
  osem k := k.elim
  ho := Pipeline.OwnSemFacts.none _
  hbody c := by rw [hp c]; exact (body_obligation7 (atTc Wi) c).loose
  hwaits := Pipeline.hwaits_of_owed_zero _ _ _ _ noLevels levelZero 7 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec7 c (atTc Wi c)
  hentry c := by
    rw [Pipeline.ownSems0_none]
    have hsplit := Pipeline.arrays_of_unscopedBufs (p := 7) (pcfgs (F := F)) adm pdats launch7.win launch7.arr_whole c
      ((pdats 7 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec7 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec7 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 7) (pcfgs (F := F)) adm (Ix := Unit) (Name := ℕ) (U := UR sig nD τ) (Lvl := ℕ)
      launch7.win launch7.arr_whole c pdats ((pdats 7 c).share_full fun _ => by rw [hp c]; rfl)
      (atTc Wi c) (atTc Wo c) ((pdats 7 c).arrAt · cfg7.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.LinDat8.lean ====
/- Region 8 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.KernelIdeal.Skeleton
import proofs.«117683_j11484742549629_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-! ## The rectangles the body reads and writes: each is a whole staging buffer -/

/-- all of a 512x1024 tile (the activation tile, and the result tile) -/
abbrev tileAll8 : Rect S512x1024 := Rect.unit (s := S512x1024) ![0, 0] S512x1024.size inb_S512x1024_S512x1024_0_0
/-- all of the 1024x1024 weight matrix -/
abbrev weightAll8 : Rect S1024x1024 := Rect.unit (s := S1024x1024) ![0, 0] S1024x1024.size inb_S1024x1024_S1024x1024_0_0
/-- all of the 1x1024 bias row -/
abbrev biasAll8 : Rect S1x1024 := Rect.unit (s := S1x1024) ![0, 0] S1x1024.size inb_S1x1024_S1x1024_0_0

/-- A pair of zero offsets is the constant-zero offset. -/
theorem zeroOffsets8 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out8 (x : Vec F S512x1024 .f32) (wt : Vec F S1024x1024 .bf16) (bias : Vec F S1x1024 .f32) : Vec F S512x1024 .bf16 :=
  View.canon [⟨tileAll8, k8_pay1 (View.ld x tileAll8) (View.ld wt weightAll8) (View.ld bias biasAll8)⟩]

/-- Since the store and the loads are through whole buffers, the stored block is the payload of the
    input blocks themselves. -/
theorem out8_eq_pay (x : Vec F S512x1024 .f32) (wt : Vec F S1024x1024 .bf16) (bias : Vec F S1x1024 .f32) :
    out8 x wt bias = k8_pay1 x wt bias := by
  unfold out8
  rw [View.canon_unit_zero (S := S512x1024) zeroOffsets8 inb_S512x1024_S512x1024_0_0,
    View.ld_unit_zero (S := S512x1024) zeroOffsets8 inb_S512x1024_S512x1024_0_0,
    View.ld_unit_zero (S := S1024x1024) zeroOffsets8 inb_S1024x1024_S1024x1024_0_0,
    View.ld_unit_zero (S := S1x1024) zeroOffsets8 inb_S1x1024_S1x1024_0_0]

/-- The single store reaches every index of the tile. -/
theorem storeCovers8 (p : Vec F S512x1024 .bf16) (y : S512x1024.Idx) :
    ∃ pc ∈ ([⟨tileAll8, p⟩] : List (View.Piece (Elt F) S512x1024 .bf16)), y ∈ pc.1.set :=
  ⟨_, List.mem_singleton_self _, View.mem_set_unit_zero (S := S512x1024) zeroOffsets8 inb_S512x1024_S512x1024_0_0 y⟩

/-! ## Proof data of the pipeline -/

/-- On core `c`: every window's array is what the entry valuation says; after the body at point `t` the three
    input buffers still hold their blocks and the result buffer holds `out8` of them; the invariant is the
    untouched rest (scoped buffers and the generator register); no debts, full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8 (iblk8 V c 0 t) (iblk8 V c 1 t) (iblk8 V c 2 t) := by dsimp only [dat8]

/-- The same, with the stored block spelt as the payload of the input blocks. -/
theorem after8_3_pay (c : Dev nD) (t : Fin cfg8.N) :
    (dat8 V c).after 3 t = k8_pay1 (iblk8 V c 0 t) (iblk8 V c 1 t) (iblk8 V c 2 t) := by
  rw [after8_3, out8_eq_pay]

/-! ## What an input's staging buffer holds when the body starts -/

/-- The activation tile's buffer holds the tile's block at every point (it is fetched at every point). -/
theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)

/-- The weight matrix's buffer holds the matrix at every point: fetched once, and its index never moves. -/
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

/-- Likewise the bias row's buffer. -/
theorem before8_2 (c : Dev nD) (t : Fin cfg8.N) (d) : (dat8 V c).before 2 t d = iblk8 V c 2 t :=
  ((dat8 V c).before_in_eq_fetched 2 rfl (fun _ => rfl) (fun _ _ _ => rfl)
      (fun t => by rw [after8_2]; unfold Dat.blockOf iblk8; rw [A_eq8]; try rfl) t d).trans
    (by unfold Dat.fetched Dat.blockOf iblk8; rw [A_eq8]; try rfl)

end Cert.KernelIdeal.Hand
-- ==== Proof.LinBody8.lean ====
/- Region 8 (a key/value projection): the kernel body run on whole staging buffers, and from it the
   obligation the pipeline asks of the body at every grid point. -/
import proofs.«117683_j11484742549629_2_alg».proof.Proof.LinDat8
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows8 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out8` of them. It loads the four buffers whole and stores once, through the whole tile. -/
theorem sound_kernel8 (c : Dev nD) (E : Set ℕ) (i : grid8.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out8 x wt bias)) -∗ K ⟨⟩))
      ⊢ wp frame (wpE (defs₀ (F := F)) Variants.none c none) E (cc8__kv_kernel i mx hmx mw hmw mb hmb mo hmo) K := by
  rw [cc8__kv_kernel_eq_skeleton]; unfold cc8__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers8 _)

/-! ## The obligation at a grid point -/

/-- What the pipeline hands the body at point `t`: the invariant, the core's debts, and the four staging buffers. -/
def bodyGiven8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- What it must hand back. -/
def bodyOwed8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- At every point the three input buffers hold their blocks, so the run on whole buffers applies; the
    invariant and the debts are not touched by the body. -/
theorem sound_body8 (c : Dev nD) (t : Fin cfg8.N) :
    bodyGiven8 V c t ⊢ wp frame (wpE (defs₀ (F := F)) Variants.none c none) Set.univ (bodyAt8 t) (fun _ => bodyOwed8 V c t) := by
  unfold bodyGiven8 bodyOwed8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨Hinv, Hdebt, ⟨%d0, B0⟩, ⟨%d1, B1⟩, ⟨%d2, B2⟩, ⟨%d3, B3⟩⟩
  iapply (sound_kernel8 c Set.univ _ _ _ _ _ _ _ _ _ (iblk8 V c 0 t) (iblk8 V c 1 t) (iblk8 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation8 (c : Dev nD) :
    BodyObligation (dat8 (F := F) V c) (defs₀ (F := F)) Variants.none () Set.univ := fun t => by
  rw [fourWindows8, fourWindows8]
  exact sound_body8 V c t

end Cert.KernelIdeal.Hand
-- ==== Proof.RunSeg8.lean ====
/-
  Region 8 of the kernel program's @main as a segment of the run. The region reads its input windows' arrays and writes one
  array, main_v42: so the contents after it are the contents before it with that buffer replaced by the fold of the grid
  points' write-backs, every input window's array being what it was (a window that is never written back keeps its array).
-/
import proofs.«117683_j11484742549629_2_alg».proof.Proof.RunBase
import proofs.«117683_j11484742549629_2_alg».proof.Proof.LinBody8

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What region 8 leaves in main_v42, from entry contents Wi. -/
def outArr8 (Wi : Dev nD → Valuation τ sig (Elt F)) (c : Dev nD) : Buf (Elt F) ((c : Thread nD τ).loc main_v42) :=
  (dat8 (atTc Wi) c).arrAt 3 cfg8.N
/-- The contents after region 8. -/
abbrev after8 (Wi : Dev nD → Valuation τ sig (Elt F)) (c : Dev nD) : Valuation τ sig (Elt F) :=
  Function.update (Wi c) main_v42 (outArr8 Wi c)

/-- Each window's array after the last grid point is the exit contents at that window's buffer. -/
theorem exitArr8 (Wi : Dev nD → Valuation τ sig (Elt F)) (c : Dev nD) (w : Fin cfg8.W) :
    (dat8 (atTc Wi) c).arrAt w cfg8.N = atTc (after8 Wi) c (Pipeline.arrRef spec8 w) := by
  match w with
  | ⟨0, _⟩ => exact ((dat8 (atTc Wi) c).arrAt_in ⟨0, by decide⟩ rfl _).trans (Function.update_of_ne (StableHlo.devRef_ne_of_ne (by decide)) _ _).symm
  | ⟨1, _⟩ => exact ((dat8 (atTc Wi) c).arrAt_in ⟨1, by decide⟩ rfl _).trans (Function.update_of_ne (StableHlo.devRef_ne_of_ne (by decide)) _ _).symm
  | ⟨2, _⟩ => exact ((dat8 (atTc Wi) c).arrAt_in ⟨2, by decide⟩ rfl _).trans (Function.update_of_ne (StableHlo.devRef_ne_of_ne (by decide)) _ _).symm
  | ⟨3, _⟩ => exact (Function.update_self (Proc.devRef .tc main_v42 : DevRef τ sig) (outArr8 Wi c) (Wi c)).symm

/-- Every buffer that is no window's array is as at entry. -/
theorem exitKeep8 (Wi : Dev nD → Valuation τ sig (Elt F)) (c : Dev nD) :
    ∀ b, b ∉ Finset.univ.image (Pipeline.arrRef spec8) → atTc (after8 Wi) c b = atTc Wi c b := by
  intro b hb
  have hne : b ≠ main_v42 := fun e => hb (Finset.mem_image.mpr ⟨3, Finset.mem_univ _, e.symm ▸ rfl⟩)
  exact Function.update_of_ne (StableHlo.devRef_ne_of_ne hne) _ _

set_option backward.isDefEq.respectTransparency.types false in
/-- Region 8 as a segment between two valuations Wi (entry) and Wo (exit) of the unscoped buffers, for any family of proof
    data whose entry at region 8 is this region's. The region's arrays are split out of the unscoped buffers at entry and put
    back at exit, where each window's array is Wo at that window's buffer (hArr) and every other buffer is as at entry (hKeep);
    the generator register goes into the class invariant and comes back; the kernel has no semaphore of its own and owes nothing. -/
def linSeg8 (pdats : (p : Fin 13) → (c : Dev nD) → Dat τ (Elt F) Unit ℕ (UR sig nD τ) ℕ (cfgs p) c)
    (Wi Wo : Dev nD → Valuation τ sig (Elt F))
    (hp : ∀ c, pdats 8 c = dat8 (atTc Wi) c)
    (hArr : ∀ c (w : Fin cfg8.W), (dat8 (atTc Wi) c).arrAt w cfg8.N = atTc Wo c (Pipeline.arrRef spec8 w))
    (hKeep : ∀ c, ∀ b, b ∉ Finset.univ.image (Pipeline.arrRef spec8) → atTc Wo c b = atTc Wi c b) :
    RegionSeg (pcfgs (F := F)) adm pdats () defs₀ Variants.none noLevels levelZero 8 where
  win := launch8.win.to₀
  block_pos := launch8.block_pos
  stage_whole := launch8.stage_whole
  K := PEmpty
  osem k := k.elim
  ho := Pipeline.OwnSemFacts.none _
  hbody c := by rw [hp c]; exact (body_obligation8 (atTc Wi) c).loose
  hwaits := Pipeline.hwaits_of_owed_zero _ _ _ _ noLevels levelZero 8 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec8 c (atTc Wi c)
  hentry c := by
    rw [Pipeline.ownSems0_none]
    have hsplit := Pipeline.arrays_of_unscopedBufs (p := 8) (pcfgs (F := F)) adm pdats launch8.win launch8.arr_whole c
      ((pdats 8 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec8 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec8 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 8) (pcfgs (F := F)) adm (Ix := Unit) (Name := ℕ) (U := UR sig nD τ) (Lvl := ℕ)
      launch8.win launch8.arr_whole c pdats ((pdats 8 c).share_full fun _ => by rw [hp c]; rfl)
      (atTc Wi c) (atTc Wo c) ((pdats 8 c).arrAt · cfg8.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.AttnDat9.lean ====
/-
  The attention launch of branch 3 (the tenth pallas_call: grid batch x query tile x key tile = 4 x 4 x 4, the key
  tile innermost): what its four carried buffers — running maximum, running denominator, running numerator, scaled
  queries — hold after every grid point, by recursion on the point, in terms of the body's store payloads; what the
  output block holds where it is stored; and the proof data of the launch built from them.

  At a point whose key tile is the first the body resets the four buffers (maximum to a large negative constant,
  denominator and numerator to zero, scaled queries to the query block times 1/32) before the update; at every point
  it folds the key and value blocks into maximum, denominator and numerator; at a point whose key tile is the last it
  stores numerator / denominator into the output block.
-/
import proofs.«117683_j11484742549629_2_alg».proof.Proof.AttnDat
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Branch 3 (pallas_call 9) at the contents `V` its region is entered with -/

section Region9

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The query, key and value blocks at point `t`. -/
def qBlk9 (c : Dev nD) (t : Fin cfg9.N) : Vec F S1x512x1024 .bf16 := iblk9 V c 0 t
def kBlk9 (c : Dev nD) (t : Fin cfg9.N) : Vec F S1x512x1024 .bf16 := iblk9 V c 1 t
def vBlk9 (c : Dev nD) (t : Fin cfg9.N) : Vec F S1x512x1024 .bf16 := iblk9 V c 2 t

/-- THE RECURRENCE. What the four carried buffers hold after the body at position `n` of the grid (the key tile is
    `n % 4`): at a first key tile the reset state with this point's keys and values folded in, elsewhere the state the
    point before left with them folded in. -/
def scrAt9 (c : Dev nD) : (n : ℕ) → n < cfg9.N → AttnScr F
  | 0, h => attnStep (kBlk9 V c ⟨0, h⟩) (vBlk9 V c ⟨0, h⟩) (attnReset (qBlk9 V c ⟨0, h⟩))
  | n + 1, h =>
    attnStep (kBlk9 V c ⟨n + 1, h⟩) (vBlk9 V c ⟨n + 1, h⟩)
      (if (n + 1) % 4 = 0 then attnReset (qBlk9 V c ⟨n + 1, h⟩) else scrAt9 c n (Nat.lt_of_succ_lt h))

/-- The state point `t` leaves, and its components by name. -/
def scr9 (c : Dev nD) (t : Fin cfg9.N) : AttnScr F := scrAt9 V c t.val t.isLt
def scrM9 (c : Dev nD) (t : Fin cfg9.N) : Vec F S512x1 .f32 := (scr9 V c t).m
def scrL9 (c : Dev nD) (t : Fin cfg9.N) : Vec F S512x1 .f32 := (scr9 V c t).l
def scrAcc9 (c : Dev nD) (t : Fin cfg9.N) : Vec F S512x1024 .f32 := (scr9 V c t).acc
def scrQs9 (c : Dev nD) (t : Fin cfg9.N) : Vec F S512x1024 .bf16 := (scr9 V c t).qs

/-- What the output block's staging buffer holds after point `t` (stored at the last key tile). -/
def outBlk9 (c : Dev nD) (t : Fin cfg9.N) : Vec F S1x512x1024 .bf16 := attnOut (scr9 V c t)

/-- At a first key tile: the reset state, this point's keys and values folded in. -/
theorem scr9_first (c : Dev nD) (t : Fin cfg9.N) (h0 : t.val % 4 = 0) :
    scr9 V c t = attnStep (kBlk9 V c t) (vBlk9 V c t) (attnReset (qBlk9 V c t)) := by
  obtain ⟨n, hn⟩ := t
  cases n with
  | zero => rfl
  | succ n => exact congrArg (attnStep _ _) (if_pos h0)

/-- Elsewhere: what the point before left, this point's keys and values folded in. -/
theorem scr9_next (c : Dev nD) (t : Fin cfg9.N) (h0 : ¬ t.val % 4 = 0) :
    scr9 V c t = attnStep (kBlk9 V c t) (vBlk9 V c t)
      (scr9 V c ⟨t.val - 1, Nat.lt_of_le_of_lt (Nat.sub_le _ _) t.isLt⟩) := by
  obtain ⟨n, hn⟩ := t
  cases n with
  | zero => exact absurd (Nat.zero_mod _) h0
  | succ n => exact congrArg (attnStep _ _) (if_neg h0)

/-! ## The invariant: the four scratch buffers at the recurrence's contents -/

/-- The call's four scratch buffers, whole, at the state `s`. -/
def scrHeld9 (c : Dev nD) (s : AttnScr F) : sProp 𝕄 :=
  iprop(owns (c : Thread nD τ) (Memref.whole cc9_scratch0) fullShare s.m
    ∗ owns (c : Thread nD τ) (Memref.whole cc9_scratch1) fullShare s.l
    ∗ owns (c : Thread nD τ) (Memref.whole cc9_scratch2) fullShare s.acc
    ∗ owns (c : Thread nD τ) (Memref.whole cc9_scratch3) fullShare s.qs)

/-- The core's other scoped buffers that are no staging buffer of this call, each at some contents. -/
abbrev scrRest9 (c : Dev nD) : sProp 𝕄 :=
  Pipeline.scopedRestBut (Ix := Unit) (Name := ℕ) (U := UR sig nD τ) (Lvl := ℕ) (Val := Elt F) spec9 c
    [cc9_scratch0, cc9_scratch1, cc9_scratch2, cc9_scratch3]

/-- Before position `n`: at the launch's start every scoped non-staging buffer at some contents and the generator
    register at some state; afterwards the four scratch buffers at what the point before left, the other scoped
    buffers at some contents, the generator register at some state. -/
def Phi9 (c : Dev nD) : (n : ℕ) → n ≤ cfg9.N → sProp 𝕄
  | 0, _ => Pipeline.ΦA spec9 c
  | n + 1, hn => iprop(scrHeld9 c (scrAt9 V c n hn) ∗ scrRest9 (F := F) c ∗ (∃ r, prngReg c r))

theorem Phi9_zero (c : Dev nD) (n : ℕ) (h : n ≤ cfg9.N) (hz : n = 0) : Phi9 V c n h = Pipeline.ΦA spec9 c := by
  subst hz; rfl

theorem Phi9_succ (c : Dev nD) (n : ℕ) (hn : n < cfg9.N) :
    Phi9 V c (n + 1) hn = iprop(scrHeld9 c (scr9 V c ⟨n, hn⟩) ∗ scrRest9 (F := F) c ∗ (∃ r, prngReg c r)) := rfl

theorem Phi9_pos (c : Dev nD) (n : ℕ) (h : n ≤ cfg9.N) (hz : n ≠ 0) :
    Phi9 V c n h = iprop(scrHeld9 c (scr9 V c ⟨n - 1, by omega⟩) ∗ scrRest9 (F := F) c ∗ (∃ r, prngReg c r)) := by
  cases n with
  | zero => exact absurd rfl hz
  | succ n => rfl

/-! ## The proof data -/

/-- The proof data of the launch on core `c`: the arrays as the region finds them; after the body each input's
    buffer at its block and the output's at the quotient the state gives; the invariant `Phi9`; nothing owed; full
    shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => outBlk9 V c t
  Φ t := Phi9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = outBlk9 V c t := by dsimp only [dat9]

theorem Phi9_castSucc (c : Dev nD) (t : Fin cfg9.N) :
    (dat9 V c).Φ t.castSucc = Phi9 V c t.val (Nat.le_of_lt t.isLt) := by
  dsimp only [dat9]; simp only [Fin.coe_castSucc]

theorem Phi9_at_succ (c : Dev nD) (t : Fin cfg9.N) :
    (dat9 V c).Φ t.succ = iprop(scrHeld9 c (scr9 V c t) ∗ scrRest9 (F := F) c ∗ (∃ r, prngReg c r)) := rfl

end Region9

end Cert.KernelIdeal.Hand

end
-- ==== Proof.AttnRun9.lean ====
/-
  The attention body's triple. On whole memrefs — the query, key and value blocks, the output block and the four carried
  buffers — the body run at a grid point leaves the three input blocks as it found them, takes the carried buffers from a
  state to that state with the key and value blocks folded in (from the reset state at a first key tile, whatever the
  buffers held), and leaves the output block as found except at a last key tile, where it stores the quotient. One
  theorem per case of the two tests on the key-tile coordinate; with four key tiles no point is both first and last.
-/
import proofs.«117683_j11484742549629_2_alg».proof.Proof.AttnDat9
import proofs.«117683_j11484742549629_2_alg».proof.Proof.AttnRun
import proofs.«117683_j11484742549629_2_alg».proof.Proof.LaunchKI
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two tests on the key-tile coordinate -/

/-- The first-key-tile test, as the body computes it from the grid coordinates. -/
abbrev kvFirst9 (i : grid9.Coords) : Prop :=
  Scalar.cmpi .ne (Scalar.extui (Scalar.cmpi .eq (BitVec.ofNat 32 (i 2).val) 0#32)) 0#32 = 1#1

/-- The last-key-tile test. -/
abbrev kvLast9 (i : grid9.Coords) : Prop := k9_cond2 i = 1#1

/-- On the grid the first test holds exactly at the positions ≡ 0 (mod 4), -/
theorem kvFirst9_iff : ∀ t : Fin cfg9.N, kvFirst9 (grid9.coords t) ↔ t.val % 4 = 0 :=
  (by decide +kernel : ∀ t : Fin grid9.N, kvFirst9 (grid9.coords t) ↔ t.val % 4 = 0)

/-- and the last exactly at the positions ≡ 3 (mod 4). -/
theorem kvLast9_iff : ∀ t : Fin cfg9.N, kvLast9 (grid9.coords t) ↔ t.val % 4 = 3 :=
  (by decide +kernel : ∀ t : Fin grid9.N, kvLast9 (grid9.coords t) ↔ t.val % 4 = 3)

/-! ## The body's triple, per case of the two tests

On whole memrefs: the three input blocks are left as found; the four carried buffers go from a state to that state with
the key and value blocks folded in (`attnStep`), starting from the reset state at a first key tile whatever they
held; the output block is left as found except at a last key tile, where it ends at the quotient (`attnOut`). -/

set_option maxHeartbeats 4000000 in
/-- A first key tile that is not the last. -/
theorem attn_run_first9 (c : Dev nD) (E : Set ℕ) (i : grid9.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : kvFirst9 i) (hlast : ¬ kvLast9 i)
    (q k v o : Vec F S1x512x1024 .bf16) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v (attnReset q)).m ∗ owns (c : Thread nD τ) arg8 fullShare (attnStep k v (attnReset q)).l
        ∗ owns (c : Thread nD τ) arg9 fullShare (attnStep k v (attnReset q)).acc ∗ owns (c : Thread nD τ) arg10 fullShare (attnStep k v (attnReset q)).qs) -∗ K ⟨⟩))
      ⊢ wp frame (wpE (defs₀ (F := F)) Variants.none c none) E (cc9__attn_kernel i arg3 harg3 arg4 harg4 arg5 harg5 arg6 harg6 arg7 harg7 arg8 harg8 arg9 harg9 arg10 harg10) K := by
  simp only [cc9__attn_kernel_eq_skeleton]; unfold cc9__attn_kernel_skel
  simp only [k9_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  iexists _; isplitr
  swap; · iexact H10
  ipureintro
  sl_unfold_run_names
  rw [read_writes_wholeRect (S := S512x1024) _ _ zeroOff2]
  simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
  rfl

set_option maxHeartbeats 4000000 in
/-- A key tile that is neither first nor last. -/
theorem attn_run_mid9 (c : Dev nD) (E : Set ℕ) (i : grid9.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst9 i) (hlast : ¬ kvLast9 i)
    (q k v o : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc9__attn_kernel i arg3 harg3 arg4 harg4 arg5 harg5 arg6 harg6 arg7 harg7 arg8 harg8 arg9 harg9 arg10 harg10) K := by
  simp only [cc9__attn_kernel_eq_skeleton]; unfold cc9__attn_kernel_skel
  simp only [k9_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

set_option maxHeartbeats 4000000 in
/-- A last key tile that is not the first. -/
theorem attn_run_last9 (c : Dev nD) (E : Set ℕ) (i : grid9.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst9 i) (hlast : kvLast9 i)
    (q k v : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare (attnOut (attnStep k v s))
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc9__attn_kernel i arg3 harg3 arg4 harg4 arg5 harg5 arg6 harg6 arg7 harg7 arg8 harg8 arg9 harg9 arg10 harg10) K := by
  simp only [cc9__attn_kernel_eq_skeleton]; unfold cc9__attn_kernel_skel
  simp only [k9_part1_eq_skeleton]
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists _; isplitr
    swap; · iexact H6
    ipureintro
    sl_unfold_run_names
    rw [read_writes_wholeRect (S := S1x512x1024) _ _ zeroOff3]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

end Cert.KernelIdeal.Hand

end
-- ==== Proof.AttnBody9.lean ====
/-
  The attention launch of branch 3: the body obligation of its proof data. At every grid point the body, called on the
  windows' current staging buffers and the four scratch buffers, takes the invariant before the point to the invariant
  after it: at a first key tile the scratch is handed over at whatever it holds and returned at the reset state with the
  tile folded in; elsewhere it is handed over at what the point before left and returned with the tile folded in; the
  output block's buffer is returned untouched except at a last key tile, where it holds the quotient.
-/
import proofs.«117683_j11484742549629_2_alg».proof.Proof.AttnRun9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9

variable (V : (c : Dev nD) → (b : Ref sig .tc) → Buf (Elt F) ((c : Thread nD τ).loc b))

/-! ## Where the windows are live, and where the output block is written back -/

/-- The three input windows are live at every point. -/
theorem live9_0 : ∀ t : Fin cfg9.N, cfg9.idle 0 (grid9.coords t) = false := fun _ => rfl
theorem live9_1 : ∀ t : Fin cfg9.N, cfg9.idle 1 (grid9.coords t) = false := fun _ => rfl
theorem live9_2 : ∀ t : Fin cfg9.N, cfg9.idle 2 (grid9.coords t) = false := fun _ => rfl
/-- The output window is idle away from the last key tile, live at it. -/
theorem idle9_3 : ∀ t : Fin cfg9.N, ¬ t.val % 4 = 3 → cfg9.idle 3 (grid9.coords t) = true := by decide +kernel
theorem live9_3 : ∀ t : Fin cfg9.N, t.val % 4 = 3 → cfg9.idle 3 (grid9.coords t) = false := by decide +kernel
/-- Away from the last key tile the output block is not written back. -/
theorem noFlush9_3 (t : Fin cfg9.N) (h : ¬ t.val % 4 = 3) : (cfg9.win 3).flush t = false :=
  Bool.eq_false_iff.mpr fun hf => h ((flush9_3 t).mp hf)

/-! ## Each input's staging buffer holds its block at every point -/

theorem before9_0 (c : Dev nD) (t : Fin cfg9.N) (d) : (dat9 V c).before 0 t d = iblk9 V c 0 t :=
  ((dat9 V c).before_in_eq_fetched 0 rfl (fun _ => rfl) (fun _ _ _ => rfl)
    (fun t => by rw [after9_0]; unfold Dat.blockOf iblk9; rw [A_eq9]; try rfl) t d).trans
    (by unfold Dat.fetched Dat.blockOf iblk9; rw [A_eq9]; try rfl)

theorem before9_1 (c : Dev nD) (t : Fin cfg9.N) (d) : (dat9 V c).before 1 t d = iblk9 V c 1 t :=
  ((dat9 V c).before_in_eq_fetched 1 rfl (fun _ => rfl) (fun _ _ _ => rfl)
    (fun t => by rw [after9_1]; unfold Dat.blockOf iblk9; rw [A_eq9]; try rfl) t d).trans
    (by unfold Dat.fetched Dat.blockOf iblk9; rw [A_eq9]; try rfl)

theorem before9_2 (c : Dev nD) (t : Fin cfg9.N) (d) : (dat9 V c).before 2 t d = iblk9 V c 2 t :=
  ((dat9 V c).before_in_eq_fetched 2 rfl (fun _ => rfl) (fun _ _ _ => rfl)
    (fun t => by rw [after9_2]; unfold Dat.blockOf iblk9; rw [A_eq9]; try rfl) t d).trans
    (by unfold Dat.fetched Dat.blockOf iblk9; rw [A_eq9]; try rfl)

/-! ## The invariant with the scratch buffers' names forgotten -/

/-- The four scratch buffers, each at some contents. -/
def scrAny9 (c : Dev nD) : sProp 𝕄 :=
  iprop((∃ d, owns (c : Thread nD τ) (Memref.whole cc9_scratch0) fullShare d)
    ∗ (∃ d, owns (c : Thread nD τ) (Memref.whole cc9_scratch1) fullShare d)
    ∗ (∃ d, owns (c : Thread nD τ) (Memref.whole cc9_scratch2) fullShare d)
    ∗ (∃ d, owns (c : Thread nD τ) (Memref.whole cc9_scratch3) fullShare d))

/-- The launch's starting invariant, the call's scratch buffers split out of the scoped rest. -/
theorem PhiA9_eq (c : Dev nD) :
    (Pipeline.ΦA spec9 c : sProp 𝕄) = iprop(iprop(scrAny9 (F := F) c ∗ scrRest9 (F := F) c) ∗ (∃ r, prngReg c r)) := by
  unfold Pipeline.ΦA scrAny9; rw [scopedRest9_split]; simp only [owns_whole]; try rfl

/-- Before any point the invariant holds the scratch buffers at SOME contents. -/
theorem Phi9_forget (c : Dev nD) (n : ℕ) (h : n ≤ cfg9.N) :
    Phi9 V c n h ⊢ iprop(iprop(scrAny9 (F := F) c ∗ scrRest9 (F := F) c) ∗ (∃ r, prngReg c r)) := by
  cases n with
  | zero => rw [Phi9_zero V c 0 h rfl, PhiA9_eq]
  | succ n =>
    rw [Phi9_succ]; unfold scrHeld9 scrAny9
    iintro ⟨⟨H0, H1, H2, H3⟩, Hr, Hg⟩
    isplitl [H0 H1 H2 H3 Hr]
    · isplitl [H0 H1 H2 H3]
      · isplitl [H0]; · iexists _; iexact H0
        isplitl [H1]; · iexists _; iexact H1
        isplitl [H2]; · iexists _; iexact H2
        iexists _; iexact H3
      iexact Hr
    iexact Hg

/-- So the invariant at any point gives the launch's starting invariant back. -/
theorem Phi9_to_start (c : Dev nD) (n : ℕ) (h : n ≤ cfg9.N) : Phi9 V c n h ⊢ Pipeline.ΦA spec9 c := by
  rw [PhiA9_eq]; exact Phi9_forget V c n h

/-! ## The body obligation -/

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4000000 in
/-- The body at any point, by the case of its key tile. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [Phi9_at_succ V c t, Phi9_castSucc V c t]
  rw [show (dat9 V c).leavesExact 0 t = owns (c : Thread nD τ) (st9_0 t) fullShare ((dat9 V c).after 0 t) from by
    unfold Dat.leavesExact; rw [live9_0 t], after9_0]
  rw [show (dat9 V c).leavesExact 1 t = owns (c : Thread nD τ) (st9_1 t) fullShare ((dat9 V c).after 1 t) from by
    unfold Dat.leavesExact; rw [live9_1 t], after9_1]
  rw [show (dat9 V c).leavesExact 2 t = owns (c : Thread nD τ) (st9_2 t) fullShare ((dat9 V c).after 2 t) from by
    unfold Dat.leavesExact; rw [live9_2 t], after9_2]
  have hN : t.val < 64 := lt_of_lt_of_eq t.isLt (show cfg9.N = 64 from N_9)
  by_cases h0 : t.val % 4 = 0
  · have h3 : ¬ t.val % 4 = 3 := by omega
    rw [Dat.leavesExact_idle (dat9 V c) 3 t (idle9_3 t h3) (noFlush9_3 t h3)]
    rw [scr9_first V c t h0]; unfold qBlk9 kBlk9 vBlk9 scrHeld9
    iintro ⟨HΦ, Ho, ⟨%d0, H0⟩, ⟨%d1, H1⟩, ⟨%d2, H2⟩, ⟨%d3, H3⟩⟩
    ihave HΦ' := (Phi9_forget V c _ _) $$ HΦ
    unfold scrAny9
    icases HΦ' with ⟨⟨⟨HS0, HS1, HS2, HS3⟩, Hr⟩, Hg⟩
    iapply (attn_run_first9 c Set.univ (grid9.coords t) _ _ _ _ _ _ _ _ _ _ _ _ _ _ _ _ ((kvFirst9_iff t).mpr h0)
      (fun h => h3 ((kvLast9_iff t).mp h)) (iblk9 V c 0 t) (iblk9 V c 1 t) (iblk9 V c 2 t) _ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hr Hg]
    · isplitl [HS0 HS1 HS2 HS3]
      · isplitl [HS0]; · iexact HS0
        isplitl [HS1]; · iexact HS1
        isplitl [HS2]; · iexact HS2
        iexact HS3
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [Phi9_pos V c _ _ hz]
    by_cases h3 : t.val % 4 = 3
    · rw [show (dat9 V c).leavesExact 3 t = owns (c : Thread nD τ) (st9_3 t) fullShare ((dat9 V c).after 3 t) from by
        unfold Dat.leavesExact; rw [live9_3 t h3], after9_3]
      unfold outBlk9
      rw [scr9_next V c t h0]; unfold kBlk9 vBlk9 scrHeld9
      iintro ⟨⟨⟨HS0, HS1, HS2, HS3⟩, Hr, Hg⟩, Ho, ⟨%d0, H0⟩, ⟨%d1, H1⟩, ⟨%d2, H2⟩, ⟨%d3, H3⟩⟩
      iapply (attn_run_last9 c Set.univ (grid9.coords t) _ _ _ _ _ _ _ _ _ _ _ _ _ _ _ _ (fun h => h0 ((kvFirst9_iff t).mp h))
        ((kvLast9_iff t).mpr h3) (iblk9 V c 0 t) (iblk9 V c 1 t) (iblk9 V c 2 t) (scr9 V c ⟨t.val - 1, by omega⟩) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat9 V c) 3 t (idle9_3 t h3) (noFlush9_3 t h3)]
      rw [scr9_next V c t h0]; unfold kBlk9 vBlk9 scrHeld9
      iintro ⟨⟨⟨HS0, HS1, HS2, HS3⟩, Hr, Hg⟩, Ho, ⟨%d0, H0⟩, ⟨%d1, H1⟩, ⟨%d2, H2⟩, ⟨%d3, H3⟩⟩
      iapply (attn_run_mid9 c Set.univ (grid9.coords t) _ _ _ _ _ _ _ _ _ _ _ _ _ _ _ _ (fun h => h0 ((kvFirst9_iff t).mp h))
        (fun h => h3 ((kvLast9_iff t).mp h)) (iblk9 V c 0 t) (iblk9 V c 1 t) (iblk9 V c 2 t) _ (scr9 V c ⟨t.val - 1, by omega⟩) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation9 (c : Dev nD) :
    BodyObligation (dat9 (F := F) V c) (defs₀ (F := F)) Variants.none () Set.univ := fun t => by
  rw [bigSep_W9, bigSep_W9]
  exact sound_body9 V c t

/-! ## The invariant at the launch's two ends -/

/-- Before the first point the invariant is the launch's starting one. -/
theorem Phi9_first (c : Dev nD) : (dat9 V c).Φ 0 = Pipeline.ΦA spec9 c := rfl

/-- After the last point it gives that back. -/
theorem Phi9_last (c : Dev nD) : (dat9 V c).Φ (Fin.last cfg9.N) ⊢ Pipeline.ΦA spec9 c :=
  Phi9_to_start V c (Fin.last cfg9.N).val (Nat.le_of_lt_succ (Fin.last cfg9.N).isLt)

end Region9

end Cert.KernelIdeal.Hand

end
-- ==== Proof.AttnSeg9.lean ====
/-
  The attention launch of branch 3 as a segment of the kernel program's run. The launch reads the query, key and value
  arrays and writes one array, main_v44: after it every unscoped buffer is as before it except that one, which holds the
  fold of the write-backs at the last key tiles. Inside, the launch's four scratch buffers enter the invariant out of
  the scoped buffers at whatever they hold, carry the online softmax's state from point to point, and are given back
  with their contents forgotten.
-/
import proofs.«117683_j11484742549629_2_alg».proof.Proof.RunBase
import proofs.«117683_j11484742549629_2_alg».proof.Proof.AttnBody9

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What the launch leaves in main_v44, from the contents `Wi` it is entered with: its output window's array after
    the last grid point. -/
def attnArr9 (Wi : Dev nD → Valuation τ sig (Elt F)) (c : Dev nD) : Buf (Elt F) ((c : Thread nD τ).loc main_v44) :=
  (dat9 (atTc Wi) c).arrAt 3 cfg9.N

/-- The unscoped buffers after the launch: as before it, main_v44 replaced. -/
abbrev attnAfter9 (Wi : Dev nD → Valuation τ sig (Elt F)) (c : Dev nD) : Valuation τ sig (Elt F) :=
  Function.update (Wi c) main_v44 (attnArr9 Wi c)

/-- After the last point each window's array is the exit contents at its buffer: an input's array is never written,
    the output's is the replaced buffer. -/
theorem attnExitArr9 (Wi : Dev nD → Valuation τ sig (Elt F)) (c : Dev nD) (w : Fin cfg9.W) :
    (dat9 (atTc Wi) c).arrAt w cfg9.N = atTc (attnAfter9 Wi) c (Pipeline.arrRef spec9 w) := by
  match w with
  | ⟨0, _⟩ => exact ((dat9 (atTc Wi) c).arrAt_in ⟨0, by decide⟩ rfl _).trans (Function.update_of_ne (StableHlo.devRef_ne_of_ne (by decide)) _ _).symm
  | ⟨1, _⟩ => exact ((dat9 (atTc Wi) c).arrAt_in ⟨1, by decide⟩ rfl _).trans (Function.update_of_ne (StableHlo.devRef_ne_of_ne (by decide)) _ _).symm
  | ⟨2, _⟩ => exact ((dat9 (atTc Wi) c).arrAt_in ⟨2, by decide⟩ rfl _).trans (Function.update_of_ne (StableHlo.devRef_ne_of_ne (by decide)) _ _).symm
  | ⟨3, _⟩ => exact (Function.update_self (Proc.devRef .tc main_v44 : DevRef τ sig) (attnArr9 Wi c) (Wi c)).symm

/-- Every buffer that is no window's array is as at entry. -/
theorem attnExitKeep9 (Wi : Dev nD → Valuation τ sig (Elt F)) (c : Dev nD) :
    ∀ b, b ∉ Finset.univ.image (Pipeline.arrRef spec9) → atTc (attnAfter9 Wi) c b = atTc Wi c b := by
  intro b hb
  have hne : b ≠ main_v44 := fun e => hb (Finset.mem_image.mpr ⟨3, Finset.mem_univ _, e.symm ▸ rfl⟩)
  exact Function.update_of_ne (StableHlo.devRef_ne_of_ne hne) _ _

set_option backward.isDefEq.respectTransparency.types false in
/-- The launch as a segment between the unscoped buffers' contents `Wi` at entry and `Wo` at exit, for any family of
    proof data whose member at this launch is `dat9` at `Wi`. At entry the windows' arrays are split out of the unscoped
    buffers and the generator register goes into the invariant, which at the first point is the launch's starting one
    (every scoped buffer that is no staging buffer at some contents: the four scratch buffers among them). At exit the
    invariant after the last point, which holds the scratch at the last state, gives the starting one back; the arrays
    are put back, each at `Wo` (`hArr`), every other buffer as at entry (`hKeep`). The kernel has no semaphore of its
    own and the core owes nothing. -/
def attnSeg9 (pdats : (p : Fin 13) → (c : Dev nD) → Dat τ (Elt F) Unit ℕ (UR sig nD τ) ℕ (cfgs p) c)
    (Wi Wo : Dev nD → Valuation τ sig (Elt F))
    (hp : ∀ c, pdats 9 c = dat9 (atTc Wi) c)
    (hArr : ∀ c (w : Fin cfg9.W), (dat9 (atTc Wi) c).arrAt w cfg9.N = atTc Wo c (Pipeline.arrRef spec9 w))
    (hKeep : ∀ c, ∀ b, b ∉ Finset.univ.image (Pipeline.arrRef spec9) → atTc Wo c b = atTc Wi c b) :
    RegionSeg (pcfgs (F := F)) adm pdats () defs₀ Variants.none noLevels levelZero 9 where
  win := launch9.win.to₀
  block_pos := launch9.block_pos
  stage_whole := launch9.stage_whole
  K := PEmpty
  osem k := k.elim
  ho := Pipeline.OwnSemFacts.none _
  hbody c := by rw [hp c]; exact (body_obligation9 (atTc Wi) c).loose
  hwaits := Pipeline.hwaits_of_owed_zero _ _ _ _ noLevels levelZero 9 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec9 c (atTc Wi c)
  hentry c := by
    rw [Pipeline.ownSems0_none]
    have hsplit := Pipeline.arrays_of_unscopedBufs (p := 9) (pcfgs (F := F)) adm pdats launch9.win launch9.arr_whole c
      ((pdats 9 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec9 c : sProp 𝕄)
    unfold Pipeline.ΦA
    iintro ⟨Hreg, -, Hscoped⟩
    isplitl [Hscoped]; · iexact Hscoped
    iexact Hreg
  hout c := by
    rw [Pipeline.ownSems0_none, hp c]
    refine (Phi9_last (atTc Wi) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 9) (pcfgs (F := F)) adm (Ix := Unit) (Name := ℕ) (U := UR sig nD τ) (Lvl := ℕ)
      launch9.win launch9.arr_whole c pdats ((pdats 9 c).share_full fun _ => by rw [hp c]; rfl)
      (atTc Wi c) (atTc Wo c) ((pdats 9 c).arrAt · cfg9.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.LinDat10.lean ====
/- Region 10 (an output projection: the activation tile times one weight matrix plus the attention-context tile times another, plus the bias row, kept in f32): the blocks its 6 windows
   hold at a grid point, the block its body stores as a function of the 5 input blocks, and the pipeline's
   proof data at an arbitrary entry valuation. -/
import proofs.«117683_j11484742549629_2_alg».proof.Proof.Gen.KernelIdeal.Skeleton
import proofs.«117683_j11484742549629_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk10 (c : Dev nD) (w : Fin cfg10.W) (t : Fin cfg10.N) :
    ((cfg10.win w).xblock (cfg10.grid.coords t)).Idx → Elt F (cfg10.win w).elt :=
  ((cfg10.win w).blk t).view.read (Elt F) (V c (Pipeline.arrRef spec10 w))

/-! ## The rectangles the body reads and writes: each is a whole staging buffer -/

/-- all of a 512x1024 tile (an input tile, and the result tile) -/
abbrev tileAll10 : Rect S512x1024 := Rect.unit (s := S512x1024) ![0, 0] S512x1024.size inb_S512x1024_S512x1024_0_0
/-- all of a 1024x1024 weight matrix -/
abbrev weightAll10 : Rect S1024x1024 := Rect.unit (s := S1024x1024) ![0, 0] S1024x1024.size inb_S1024x1024_S1024x1024_0_0
/-- all of the 1x1024 bias row -/
abbrev biasAll10 : Rect S1x1024 := Rect.unit (s := S1x1024) ![0, 0] S1x1024.size inb_S1x1024_S1x1024_0_0

/-- A pair of zero offsets is the constant-zero offset. -/
theorem zeroOffsets10 : (![0, 0] : Fin 2 → Nat) = fun _ => 0 := funext fun a => by fin_cases a <;> rfl

/-! ## The stored block -/

/-- The result buffer after the body, given the 5 input buffers' contents: the body's single store,
    which goes through the whole tile, with the payload evaluated at the 5 whole-buffer loads. -/
def out10 (x : Vec F S512x1024 .f32) (ctx : Vec F S512x1024 .bf16) (wx : Vec F S1024x1024 .bf16) (wc : Vec F S1024x1024 .bf16) (bias : Vec F S1x1024 .f32) : Vec F S512x1024 .f32 :=
  View.canon [⟨tileAll10, k10_pay1 (View.ld x tileAll10) (View.ld ctx tileAll10) (View.ld wx weightAll10) (View.ld wc weightAll10) (View.ld bias biasAll10)⟩]

/-- Since the store and the loads are through whole buffers, the stored block is the payload of the
    input blocks themselves. -/
theorem out10_eq_pay (x : Vec F S512x1024 .f32) (ctx : Vec F S512x1024 .bf16) (wx : Vec F S1024x1024 .bf16) (wc : Vec F S1024x1024 .bf16) (bias : Vec F S1x1024 .f32) :
    out10 x ctx wx wc bias = k10_pay1 x ctx wx wc bias := by
  unfold out10
  rw [View.canon_unit_zero (S := S512x1024) zeroOffsets10 inb_S512x1024_S512x1024_0_0]
  rw [View.ld_unit_zero (S := S512x1024) zeroOffsets10 inb_S512x1024_S512x1024_0_0 x]
  rw [View.ld_unit_zero (S := S512x1024) zeroOffsets10 inb_S512x1024_S512x1024_0_0 ctx]
  rw [View.ld_unit_zero (S := S1024x1024) zeroOffsets10 inb_S1024x1024_S1024x1024_0_0 wx]
  rw [View.ld_unit_zero (S := S1024x1024) zeroOffsets10 inb_S1024x1024_S1024x1024_0_0 wc]
  rw [View.ld_unit_zero (S := S1x1024) zeroOffsets10 inb_S1x1024_S1x1024_0_0 bias]

/-- The single store reaches every index of the tile. -/
theorem storeCovers10 (p : Vec F S512x1024 .f32) (y : S512x1024.Idx) :
    ∃ pc ∈ ([⟨tileAll10, p⟩] : List (View.Piece (Elt F) S512x1024 .f32)), y ∈ pc.1.set :=
  ⟨_, List.mem_singleton_self _, View.mem_set_unit_zero (S := S512x1024) zeroOffsets10 inb_S512x1024_S512x1024_0_0 y⟩

/-! ## Proof data of the pipeline -/

/-- On core `c`: every window's array is what the entry valuation says; after the body at point `t` the 5
    input buffers still hold their blocks and the result buffer holds `out10` of them; the invariant is the
    untouched rest (scoped buffers and the generator register); no debts, full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) :
    (dat10 V c).after 5 t = out10 (iblk10 V c 0 t) (iblk10 V c 1 t) (iblk10 V c 2 t) (iblk10 V c 3 t) (iblk10 V c 4 t) := by dsimp only [dat10]

/-- The same, with the stored block spelt as the payload of the input blocks. -/
theorem after10_5_pay (c : Dev nD) (t : Fin cfg10.N) :
    (dat10 V c).after 5 t = k10_pay1 (iblk10 V c 0 t) (iblk10 V c 1 t) (iblk10 V c 2 t) (iblk10 V c 3 t) (iblk10 V c 4 t) := by
  rw [after10_5, out10_eq_pay]

/-! ## What an input's staging buffer holds when the body starts

A tile's buffer is fetched at every point; a weight matrix and the bias row are fetched once and their index
never moves. Either way the buffer holds the window's block of the entry array. -/

/-- the activation tile -/
theorem before10_0 (c : Dev nD) (t : Fin cfg10.N) (d) : (dat10 V c).before 0 t d = iblk10 V c 0 t :=
  ((dat10 V c).before_in_eq_fetched 0 rfl (fun _ => rfl) (fun _ _ _ => rfl)
      (fun t => by rw [after10_0]; unfold Dat.blockOf iblk10; rw [A_eq10]; try rfl) t d).trans
    (by unfold Dat.fetched Dat.blockOf iblk10; rw [A_eq10]; try rfl)

/-- the attention-context tile -/
theorem before10_1 (c : Dev nD) (t : Fin cfg10.N) (d) : (dat10 V c).before 1 t d = iblk10 V c 1 t :=
  ((dat10 V c).before_in_eq_fetched 1 rfl (fun _ => rfl) (fun _ _ _ => rfl)
      (fun t => by rw [after10_1]; unfold Dat.blockOf iblk10; rw [A_eq10]; try rfl) t d).trans
    (by unfold Dat.fetched Dat.blockOf iblk10; rw [A_eq10]; try rfl)

/-- the weight matrix of the activation -/
theorem before10_2 (c : Dev nD) (t : Fin cfg10.N) (d) : (dat10 V c).before 2 t d = iblk10 V c 2 t :=
  ((dat10 V c).before_in_eq_fetched 2 rfl (fun _ => rfl) (fun _ _ _ => rfl)
      (fun t => by rw [after10_2]; unfold Dat.blockOf iblk10; rw [A_eq10]; try rfl) t d).trans
    (by unfold Dat.fetched Dat.blockOf iblk10; rw [A_eq10]; try rfl)

/-- the weight matrix of the context -/
theorem before10_3 (c : Dev nD) (t : Fin cfg10.N) (d) : (dat10 V c).before 3 t d = iblk10 V c 3 t :=
  ((dat10 V c).before_in_eq_fetched 3 rfl (fun _ => rfl) (fun _ _ _ => rfl)
      (fun t => by rw [after10_3]; unfold Dat.blockOf iblk10; rw [A_eq10]; try rfl) t d).trans
    (by unfold Dat.fetched Dat.blockOf iblk10; rw [A_eq10]; try rfl)

/-- the bias row -/
theorem before10_4 (c : Dev nD) (t : Fin cfg10.N) (d) : (dat10 V c).before 4 t d = iblk10 V c 4 t :=
  ((dat10 V c).before_in_eq_fetched 4 rfl (fun _ => rfl) (fun _ _ _ => rfl)
      (fun t => by rw [after10_4]; unfold Dat.blockOf iblk10; rw [A_eq10]; try rfl) t d).trans
    (by unfold Dat.fetched Dat.blockOf iblk10; rw [A_eq10]; try rfl)

end Cert.KernelIdeal.Hand
-- ==== Proof.LinBody10.lean ====
/- Region 10 (an output projection: the activation tile times one weight matrix plus the attention-context tile times another, plus the bias row, kept in f32): the kernel body run on whole
   staging buffers, and from it the obligation the pipeline asks of the body at every grid point. -/
import proofs.«117683_j11484742549629_2_alg».proof.Proof.LinDat10
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the six windows, written out. -/
theorem sixWindows10 {M : Type} [URA M] (P : Fin 6 → sProp M) :
    bigSep Finset.univ P = iprop(P 0 ∗ P 1 ∗ P 2 ∗ P 3 ∗ P 4 ∗ P 5) :=
  bigSep_univ_eq_bigSepL [(0 : Fin 6), 1, 2, 3, 4, 5] (by decide) (by decide) P

variable (V : (c : Dev nD) → (b : Ref sig .tc) → Buf (Elt F) ((c : Thread nD τ).loc b))

/-! ## The body on whole buffers -/

set_option maxHeartbeats 1000000 in
/-- Given the 5 inputs in whole buffers, and one more whole buffer holding anything, the body ends with the
    inputs unchanged and the last buffer holding `out10` of them. It loads every buffer whole and stores once,
    through the whole tile. -/
theorem sound_kernel10 (c : Dev nD) (E : Set ℕ) (i : grid10.Coords)
    (m_x : Memref sig .tc .vmem S512x1024 .f32) (h_x : m_x.IsWhole)
    (m_ctx : Memref sig .tc .vmem S512x1024 .bf16) (h_ctx : m_ctx.IsWhole)
    (m_wx : Memref sig .tc .vmem S1024x1024 .bf16) (h_wx : m_wx.IsWhole)
    (m_wc : Memref sig .tc .vmem S1024x1024 .bf16) (h_wc : m_wc.IsWhole)
    (m_bias : Memref sig .tc .vmem S1x1024 .f32) (h_bias : m_bias.IsWhole)
    (m_res : Memref sig .tc .vmem S512x1024 .f32) (h_res : m_res.IsWhole)
    (x : Vec F S512x1024 .f32) (ctx : Vec F S512x1024 .bf16) (wx : Vec F S1024x1024 .bf16) (wc : Vec F S1024x1024 .bf16) (bias : Vec F S1x1024 .f32) (K : PUnit → sProp 𝕄) :
    iprop(owns (c : Thread nD τ) m_x fullShare x
        ∗ owns (c : Thread nD τ) m_ctx fullShare ctx
        ∗ owns (c : Thread nD τ) m_wx fullShare wx
        ∗ owns (c : Thread nD τ) m_wc fullShare wc
        ∗ owns (c : Thread nD τ) m_bias fullShare bias
        ∗ (∃ d, owns (c : Thread nD τ) m_res fullShare d)
        ∗ (iprop(owns (c : Thread nD τ) m_x fullShare x
            ∗ owns (c : Thread nD τ) m_ctx fullShare ctx
            ∗ owns (c : Thread nD τ) m_wx fullShare wx
            ∗ owns (c : Thread nD τ) m_wc fullShare wc
            ∗ owns (c : Thread nD τ) m_bias fullShare bias
            ∗ owns (c : Thread nD τ) m_res fullShare (out10 x ctx wx wc bias)) -∗ K ⟨⟩))
      ⊢ wp frame (wpE (defs₀ (F := F)) Variants.none c none) E (cc10__oproj_kernel i m_x h_x m_ctx h_ctx m_wx h_wx m_wc h_wc m_bias h_bias m_res h_res) K := by
  rw [cc10__oproj_kernel_eq_skeleton]; unfold cc10__oproj_kernel_skel
  unfold owns
  iintro ⟨⟨%f_x, %e_x, P_x⟩, ⟨%f_ctx, %e_ctx, P_ctx⟩, ⟨%f_wx, %e_wx, P_wx⟩, ⟨%f_wc, %e_wc, P_wc⟩, ⟨%f_bias, %e_bias, P_bias⟩, ⟨%d, %f_res, -, P_res⟩, Hcont⟩
  subst e_x; subst e_ctx; subst e_wx; subst e_wc; subst e_bias
  sl_exec
  sl_step
  iapply Hcont
  isplitl [P_x]
  · iexists f_x; isplitr
    · ipureintro; rfl
    · iexact P_x
  isplitl [P_ctx]
  · iexists f_ctx; isplitr
    · ipureintro; rfl
    · iexact P_ctx
  isplitl [P_wx]
  · iexists f_wx; isplitr
    · ipureintro; rfl
    · iexact P_wx
  isplitl [P_wc]
  · iexists f_wc; isplitr
    · ipureintro; rfl
    · iexact P_wc
  isplitl [P_bias]
  · iexists f_bias; isplitr
    · ipureintro; rfl
    · iexact P_bias
  iexists _; isplitr
  swap
  · iexact P_res
  ipureintro
  exact View.read_writes_eq_canon _ _ _ (storeCovers10 _)

/-! ## The obligation at a grid point -/

/-- What the pipeline hands the body at point `t`: the invariant, the core's debts, and the six staging buffers. -/
def bodyGiven10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- What it must hand back. -/
def bodyOwed10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- At every point the input buffers hold their blocks, so the run on whole buffers applies; the invariant and
    the debts are not touched by the body. -/
theorem sound_body10 (c : Dev nD) (t : Fin cfg10.N) :
    bodyGiven10 V c t ⊢ wp frame (wpE (defs₀ (F := F)) Variants.none c none) Set.univ (bodyAt10 t) (fun _ => bodyOwed10 V c t) := by
  unfold bodyGiven10 bodyOwed10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨Hinv, Hdebt, ⟨%d0, B0⟩, ⟨%d1, B1⟩, ⟨%d2, B2⟩, ⟨%d3, B3⟩, ⟨%d4, B4⟩, ⟨%d5, B5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [B0]; · iexact B0
  isplitl [B1]; · iexact B1
  isplitl [B2]; · iexact B2
  isplitl [B3]; · iexact B3
  isplitl [B4]; · iexact B4
  isplitl [B5]; · iexists _; iexact B5
  iintro ⟨B0, B1, B2, B3, B4, B5⟩
  isplitl [Hinv]; · iexact Hinv
  isplitl [Hdebt]; · iexact Hdebt
  isplitl [B0]; · iexact B0
  isplitl [B1]; · iexact B1
  isplitl [B2]; · iexact B2
  isplitl [B3]; · iexact B3
  isplitl [B4]; · iexact B4
  iexact B5

/-- The pipeline's obligation on the body, at every grid point. -/
theorem body_obligation10 (c : Dev nD) :
    BodyObligation (dat10 (F := F) V c) (defs₀ (F := F)) Variants.none () Set.univ := fun t => by
  rw [sixWindows10, sixWindows10]
  exact sound_body10 V c t

end Cert.KernelIdeal.Hand
-- ==== Proof.RunSeg10.lean ====
/-
  Region 10 of the kernel program's @main as a segment of the run. The region reads its input windows' arrays and writes one
  array, main_v60: so the contents after it are the contents before it with that buffer replaced by the fold of the grid
  points' write-backs, every input window's array being what it was (a window that is never written back keeps its array).
-/
import proofs.«117683_j11484742549629_2_alg».proof.Proof.RunBase
import proofs.«117683_j11484742549629_2_alg».proof.Proof.LinBody10

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What region 10 leaves in main_v60, from entry contents Wi. -/
def outArr10 (Wi : Dev nD → Valuation τ sig (Elt F)) (c : Dev nD) : Buf (Elt F) ((c : Thread nD τ).loc main_v60) :=
  (dat10 (atTc Wi) c).arrAt 5 cfg10.N
/-- The contents after region 10. -/
abbrev after10 (Wi : Dev nD → Valuation τ sig (Elt F)) (c : Dev nD) : Valuation τ sig (Elt F) :=
  Function.update (Wi c) main_v60 (outArr10 Wi c)

/-- Each window's array after the last grid point is the exit contents at that window's buffer. -/
theorem exitArr10 (Wi : Dev nD → Valuation τ sig (Elt F)) (c : Dev nD) (w : Fin cfg10.W) :
    (dat10 (atTc Wi) c).arrAt w cfg10.N = atTc (after10 Wi) c (Pipeline.arrRef spec10 w) := by
  match w with
  | ⟨0, _⟩ => exact ((dat10 (atTc Wi) c).arrAt_in ⟨0, by decide⟩ rfl _).trans (Function.update_of_ne (StableHlo.devRef_ne_of_ne (by decide)) _ _).symm
  | ⟨1, _⟩ => exact ((dat10 (atTc Wi) c).arrAt_in ⟨1, by decide⟩ rfl _).trans (Function.update_of_ne (StableHlo.devRef_ne_of_ne (by decide)) _ _).symm
  | ⟨2, _⟩ => exact ((dat10 (atTc Wi) c).arrAt_in ⟨2, by decide⟩ rfl _).trans (Function.update_of_ne (StableHlo.devRef_ne_of_ne (by decide)) _ _).symm
  | ⟨3, _⟩ => exact ((dat10 (atTc Wi) c).arrAt_in ⟨3, by decide⟩ rfl _).trans (Function.update_of_ne (StableHlo.devRef_ne_of_ne (by decide)) _ _).symm
  | ⟨4, _⟩ => exact ((dat10 (atTc Wi) c).arrAt_in ⟨4, by decide⟩ rfl _).trans (Function.update_of_ne (StableHlo.devRef_ne_of_ne (by decide)) _ _).symm
  | ⟨5, _⟩ => exact (Function.update_self (Proc.devRef .tc main_v60 : DevRef τ sig) (outArr10 Wi c) (Wi c)).symm

/-- Every buffer that is no window's array is as at entry. -/
theorem exitKeep10 (Wi : Dev nD → Valuation τ sig (Elt F)) (c : Dev nD) :
    ∀ b, b ∉ Finset.univ.image (Pipeline.arrRef spec10) → atTc (after10 Wi) c b = atTc Wi c b := by
  intro b hb
  have hne : b ≠ main_v60 := fun e => hb (Finset.mem_image.mpr ⟨5, Finset.mem_univ _, e.symm ▸ rfl⟩)
  exact Function.update_of_ne (StableHlo.devRef_ne_of_ne hne) _ _

set_option backward.isDefEq.respectTransparency.types false in
/-- Region 10 as a segment between two valuations Wi (entry) and Wo (exit) of the unscoped buffers, for any family of proof
    data whose entry at region 10 is this region's. The region's arrays are split out of the unscoped buffers at entry and put
    back at exit, where each window's array is Wo at that window's buffer (hArr) and every other buffer is as at entry (hKeep);
    the generator register goes into the class invariant and comes back; the kernel has no semaphore of its own and owes nothing. -/
def linSeg10 (pdats : (p : Fin 13) → (c : Dev nD) → Dat τ (Elt F) Unit ℕ (UR sig nD τ) ℕ (cfgs p) c)
    (Wi Wo : Dev nD → Valuation τ sig (Elt F))
    (hp : ∀ c, pdats 10 c = dat10 (atTc Wi) c)
    (hArr : ∀ c (w : Fin cfg10.W), (dat10 (atTc Wi) c).arrAt w cfg10.N = atTc Wo c (Pipeline.arrRef spec10 w))
    (hKeep : ∀ c, ∀ b, b ∉ Finset.univ.image (Pipeline.arrRef spec10) → atTc Wo c b = atTc Wi c b) :
    RegionSeg (pcfgs (F := F)) adm pdats () defs₀ Variants.none noLevels levelZero 10 where
  win := launch10.win.to₀
  block_pos := launch10.block_pos
  stage_whole := launch10.stage_whole
  K := PEmpty
  osem k := k.elim
  ho := Pipeline.OwnSemFacts.none _
  hbody c := by rw [hp c]; exact (body_obligation10 (atTc Wi) c).loose
  hwaits := Pipeline.hwaits_of_owed_zero _ _ _ _ noLevels levelZero 10 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec10 c (atTc Wi c)
  hentry c := by
    rw [Pipeline.ownSems0_none]
    have hsplit := Pipeline.arrays_of_unscopedBufs (p := 10) (pcfgs (F := F)) adm pdats launch10.win launch10.arr_whole c
      ((pdats 10 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec10 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec10 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 10) (pcfgs (F := F)) adm (Ix := Unit) (Name := ℕ) (U := UR sig nD τ) (Lvl := ℕ)
      launch10.win launch10.arr_whole c pdats ((pdats 10 c).share_full fun _ => by rw [hp c]; rfl)
      (atTc Wi c) (atTc Wo c) ((pdats 10 c).arrAt · cfg10.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.LinDat11.lean ====
/- Region 11 (an output projection: the activation tile times one weight matrix plus the attention-context tile times another, plus the bias row, kept in f32): the blocks its 6 windows
   hold at a grid point, the block its body stores as a function of the 5 input blocks, and the pipeline's
   proof data at an arbitrary entry valuation. -/
import proofs.«117683_j11484742549629_2_alg».proof.Proof.Gen.KernelIdeal.Skeleton
import proofs.«117683_j11484742549629_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-! ## The rectangles the body reads and writes: each is a whole staging buffer -/

/-- all of a 512x1024 tile (an input tile, and the result tile) -/
abbrev tileAll11 : Rect S512x1024 := Rect.unit (s := S512x1024) ![0, 0] S512x1024.size inb_S512x1024_S512x1024_0_0
/-- all of a 1024x1024 weight matrix -/
abbrev weightAll11 : Rect S1024x1024 := Rect.unit (s := S1024x1024) ![0, 0] S1024x1024.size inb_S1024x1024_S1024x1024_0_0
/-- all of the 1x1024 bias row -/
abbrev biasAll11 : Rect S1x1024 := Rect.unit (s := S1x1024) ![0, 0] S1x1024.size inb_S1x1024_S1x1024_0_0

/-- A pair of zero offsets is the constant-zero offset. -/
theorem zeroOffsets11 : (![0, 0] : Fin 2 → Nat) = fun _ => 0 := funext fun a => by fin_cases a <;> rfl

/-! ## The stored block -/

/-- The result buffer after the body, given the 5 input buffers' contents: the body's single store,
    which goes through the whole tile, with the payload evaluated at the 5 whole-buffer loads. -/
def out11 (x : Vec F S512x1024 .f32) (ctx : Vec F S512x1024 .bf16) (wx : Vec F S1024x1024 .bf16) (wc : Vec F S1024x1024 .bf16) (bias : Vec F S1x1024 .f32) : Vec F S512x1024 .f32 :=
  View.canon [⟨tileAll11, k11_pay1 (View.ld x tileAll11) (View.ld ctx tileAll11) (View.ld wx weightAll11) (View.ld wc weightAll11) (View.ld bias biasAll11)⟩]

/-- Since the store and the loads are through whole buffers, the stored block is the payload of the
    input blocks themselves. -/
theorem out11_eq_pay (x : Vec F S512x1024 .f32) (ctx : Vec F S512x1024 .bf16) (wx : Vec F S1024x1024 .bf16) (wc : Vec F S1024x1024 .bf16) (bias : Vec F S1x1024 .f32) :
    out11 x ctx wx wc bias = k11_pay1 x ctx wx wc bias := by
  unfold out11
  rw [View.canon_unit_zero (S := S512x1024) zeroOffsets11 inb_S512x1024_S512x1024_0_0]
  rw [View.ld_unit_zero (S := S512x1024) zeroOffsets11 inb_S512x1024_S512x1024_0_0 x]
  rw [View.ld_unit_zero (S := S512x1024) zeroOffsets11 inb_S512x1024_S512x1024_0_0 ctx]
  rw [View.ld_unit_zero (S := S1024x1024) zeroOffsets11 inb_S1024x1024_S1024x1024_0_0 wx]
  rw [View.ld_unit_zero (S := S1024x1024) zeroOffsets11 inb_S1024x1024_S1024x1024_0_0 wc]
  rw [View.ld_unit_zero (S := S1x1024) zeroOffsets11 inb_S1x1024_S1x1024_0_0 bias]

/-- The single store reaches every index of the tile. -/
theorem storeCovers11 (p : Vec F S512x1024 .f32) (y : S512x1024.Idx) :
    ∃ pc ∈ ([⟨tileAll11, p⟩] : List (View.Piece (Elt F) S512x1024 .f32)), y ∈ pc.1.set :=
  ⟨_, List.mem_singleton_self _, View.mem_set_unit_zero (S := S512x1024) zeroOffsets11 inb_S512x1024_S512x1024_0_0 y⟩

/-! ## Proof data of the pipeline -/

/-- On core `c`: every window's array is what the entry valuation says; after the body at point `t` the 5
    input buffers still hold their blocks and the result buffer holds `out11` of them; the invariant is the
    untouched rest (scoped buffers and the generator register); no debts, full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) :
    (dat11 V c).after 5 t = out11 (iblk11 V c 0 t) (iblk11 V c 1 t) (iblk11 V c 2 t) (iblk11 V c 3 t) (iblk11 V c 4 t) := by dsimp only [dat11]

/-- The same, with the stored block spelt as the payload of the input blocks. -/
theorem after11_5_pay (c : Dev nD) (t : Fin cfg11.N) :
    (dat11 V c).after 5 t = k11_pay1 (iblk11 V c 0 t) (iblk11 V c 1 t) (iblk11 V c 2 t) (iblk11 V c 3 t) (iblk11 V c 4 t) := by
  rw [after11_5, out11_eq_pay]

/-! ## What an input's staging buffer holds when the body starts

A tile's buffer is fetched at every point; a weight matrix and the bias row are fetched once and their index
never moves. Either way the buffer holds the window's block of the entry array. -/

/-- the activation tile -/
theorem before11_0 (c : Dev nD) (t : Fin cfg11.N) (d) : (dat11 V c).before 0 t d = iblk11 V c 0 t :=
  ((dat11 V c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)

/-- the attention-context tile -/
theorem before11_1 (c : Dev nD) (t : Fin cfg11.N) (d) : (dat11 V c).before 1 t d = iblk11 V c 1 t :=
  ((dat11 V c).before_in_eq_fetched 1 rfl (fun _ => rfl) (fun _ _ _ => rfl)
      (fun t => by rw [after11_1]; unfold Dat.blockOf iblk11; rw [A_eq11]; try rfl) t d).trans
    (by unfold Dat.fetched Dat.blockOf iblk11; rw [A_eq11]; try rfl)

/-- the weight matrix of the activation -/
theorem before11_2 (c : Dev nD) (t : Fin cfg11.N) (d) : (dat11 V c).before 2 t d = iblk11 V c 2 t :=
  ((dat11 V c).before_in_eq_fetched 2 rfl (fun _ => rfl) (fun _ _ _ => rfl)
      (fun t => by rw [after11_2]; unfold Dat.blockOf iblk11; rw [A_eq11]; try rfl) t d).trans
    (by unfold Dat.fetched Dat.blockOf iblk11; rw [A_eq11]; try rfl)

/-- the weight matrix of the context -/
theorem before11_3 (c : Dev nD) (t : Fin cfg11.N) (d) : (dat11 V c).before 3 t d = iblk11 V c 3 t :=
  ((dat11 V c).before_in_eq_fetched 3 rfl (fun _ => rfl) (fun _ _ _ => rfl)
      (fun t => by rw [after11_3]; unfold Dat.blockOf iblk11; rw [A_eq11]; try rfl) t d).trans
    (by unfold Dat.fetched Dat.blockOf iblk11; rw [A_eq11]; try rfl)

/-- the bias row -/
theorem before11_4 (c : Dev nD) (t : Fin cfg11.N) (d) : (dat11 V c).before 4 t d = iblk11 V c 4 t :=
  ((dat11 V c).before_in_eq_fetched 4 rfl (fun _ => rfl) (fun _ _ _ => rfl)
      (fun t => by rw [after11_4]; unfold Dat.blockOf iblk11; rw [A_eq11]; try rfl) t d).trans
    (by unfold Dat.fetched Dat.blockOf iblk11; rw [A_eq11]; try rfl)

end Cert.KernelIdeal.Hand
-- ==== Proof.LinBody11.lean ====
/- Region 11 (an output projection: the activation tile times one weight matrix plus the attention-context tile times another, plus the bias row, kept in f32): the kernel body run on whole
   staging buffers, and from it the obligation the pipeline asks of the body at every grid point. -/
import proofs.«117683_j11484742549629_2_alg».proof.Proof.LinDat11
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the six windows, written out. -/
theorem sixWindows11 {M : Type} [URA M] (P : Fin 6 → sProp M) :
    bigSep Finset.univ P = iprop(P 0 ∗ P 1 ∗ P 2 ∗ P 3 ∗ P 4 ∗ P 5) :=
  bigSep_univ_eq_bigSepL [(0 : Fin 6), 1, 2, 3, 4, 5] (by decide) (by decide) P

variable (V : (c : Dev nD) → (b : Ref sig .tc) → Buf (Elt F) ((c : Thread nD τ).loc b))

/-! ## The body on whole buffers -/

set_option maxHeartbeats 1000000 in
/-- Given the 5 inputs in whole buffers, and one more whole buffer holding anything, the body ends with the
    inputs unchanged and the last buffer holding `out11` of them. It loads every buffer whole and stores once,
    through the whole tile. -/
theorem sound_kernel11 (c : Dev nD) (E : Set ℕ) (i : grid11.Coords)
    (m_x : Memref sig .tc .vmem S512x1024 .f32) (h_x : m_x.IsWhole)
    (m_ctx : Memref sig .tc .vmem S512x1024 .bf16) (h_ctx : m_ctx.IsWhole)
    (m_wx : Memref sig .tc .vmem S1024x1024 .bf16) (h_wx : m_wx.IsWhole)
    (m_wc : Memref sig .tc .vmem S1024x1024 .bf16) (h_wc : m_wc.IsWhole)
    (m_bias : Memref sig .tc .vmem S1x1024 .f32) (h_bias : m_bias.IsWhole)
    (m_res : Memref sig .tc .vmem S512x1024 .f32) (h_res : m_res.IsWhole)
    (x : Vec F S512x1024 .f32) (ctx : Vec F S512x1024 .bf16) (wx : Vec F S1024x1024 .bf16) (wc : Vec F S1024x1024 .bf16) (bias : Vec F S1x1024 .f32) (K : PUnit → sProp 𝕄) :
    iprop(owns (c : Thread nD τ) m_x fullShare x
        ∗ owns (c : Thread nD τ) m_ctx fullShare ctx
        ∗ owns (c : Thread nD τ) m_wx fullShare wx
        ∗ owns (c : Thread nD τ) m_wc fullShare wc
        ∗ owns (c : Thread nD τ) m_bias fullShare bias
        ∗ (∃ d, owns (c : Thread nD τ) m_res fullShare d)
        ∗ (iprop(owns (c : Thread nD τ) m_x fullShare x
            ∗ owns (c : Thread nD τ) m_ctx fullShare ctx
            ∗ owns (c : Thread nD τ) m_wx fullShare wx
            ∗ owns (c : Thread nD τ) m_wc fullShare wc
            ∗ owns (c : Thread nD τ) m_bias fullShare bias
            ∗ owns (c : Thread nD τ) m_res fullShare (out11 x ctx wx wc bias)) -∗ K ⟨⟩))
      ⊢ wp frame (wpE (defs₀ (F := F)) Variants.none c none) E (cc11__oproj_kernel i m_x h_x m_ctx h_ctx m_wx h_wx m_wc h_wc m_bias h_bias m_res h_res) K := by
  rw [cc11__oproj_kernel_eq_skeleton]; unfold cc11__oproj_kernel_skel
  unfold owns
  iintro ⟨⟨%f_x, %e_x, P_x⟩, ⟨%f_ctx, %e_ctx, P_ctx⟩, ⟨%f_wx, %e_wx, P_wx⟩, ⟨%f_wc, %e_wc, P_wc⟩, ⟨%f_bias, %e_bias, P_bias⟩, ⟨%d, %f_res, -, P_res⟩, Hcont⟩
  subst e_x; subst e_ctx; subst e_wx; subst e_wc; subst e_bias
  sl_exec
  sl_step
  iapply Hcont
  isplitl [P_x]
  · iexists f_x; isplitr
    · ipureintro; rfl
    · iexact P_x
  isplitl [P_ctx]
  · iexists f_ctx; isplitr
    · ipureintro; rfl
    · iexact P_ctx
  isplitl [P_wx]
  · iexists f_wx; isplitr
    · ipureintro; rfl
    · iexact P_wx
  isplitl [P_wc]
  · iexists f_wc; isplitr
    · ipureintro; rfl
    · iexact P_wc
  isplitl [P_bias]
  · iexists f_bias; isplitr
    · ipureintro; rfl
    · iexact P_bias
  iexists _; isplitr
  swap
  · iexact P_res
  ipureintro
  exact View.read_writes_eq_canon _ _ _ (storeCovers11 _)

/-! ## The obligation at a grid point -/

/-- What the pipeline hands the body at point `t`: the invariant, the core's debts, and the six staging buffers. -/
def bodyGiven11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- What it must hand back. -/
def bodyOwed11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- At every point the input buffers hold their blocks, so the run on whole buffers applies; the invariant and
    the debts are not touched by the body. -/
theorem sound_body11 (c : Dev nD) (t : Fin cfg11.N) :
    bodyGiven11 V c t ⊢ wp frame (wpE (defs₀ (F := F)) Variants.none c none) Set.univ (bodyAt11 t) (fun _ => bodyOwed11 V c t) := by
  unfold bodyGiven11 bodyOwed11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨Hinv, Hdebt, ⟨%d0, B0⟩, ⟨%d1, B1⟩, ⟨%d2, B2⟩, ⟨%d3, B3⟩, ⟨%d4, B4⟩, ⟨%d5, B5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [B0]; · iexact B0
  isplitl [B1]; · iexact B1
  isplitl [B2]; · iexact B2
  isplitl [B3]; · iexact B3
  isplitl [B4]; · iexact B4
  isplitl [B5]; · iexists _; iexact B5
  iintro ⟨B0, B1, B2, B3, B4, B5⟩
  isplitl [Hinv]; · iexact Hinv
  isplitl [Hdebt]; · iexact Hdebt
  isplitl [B0]; · iexact B0
  isplitl [B1]; · iexact B1
  isplitl [B2]; · iexact B2
  isplitl [B3]; · iexact B3
  isplitl [B4]; · iexact B4
  iexact B5

/-- The pipeline's obligation on the body, at every grid point. -/
theorem body_obligation11 (c : Dev nD) :
    BodyObligation (dat11 (F := F) V c) (defs₀ (F := F)) Variants.none () Set.univ := fun t => by
  rw [sixWindows11, sixWindows11]
  exact sound_body11 V c t

end Cert.KernelIdeal.Hand
-- ==== Proof.RunSeg11.lean ====
/-
  Region 11 of the kernel program's @main as a segment of the run. The region reads its input windows' arrays and writes one
  array, main_v65: so the contents after it are the contents before it with that buffer replaced by the fold of the grid
  points' write-backs, every input window's array being what it was (a window that is never written back keeps its array).
-/
import proofs.«117683_j11484742549629_2_alg».proof.Proof.RunBase
import proofs.«117683_j11484742549629_2_alg».proof.Proof.LinBody11

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What region 11 leaves in main_v65, from entry contents Wi. -/
def outArr11 (Wi : Dev nD → Valuation τ sig (Elt F)) (c : Dev nD) : Buf (Elt F) ((c : Thread nD τ).loc main_v65) :=
  (dat11 (atTc Wi) c).arrAt 5 cfg11.N
/-- The contents after region 11. -/
abbrev after11 (Wi : Dev nD → Valuation τ sig (Elt F)) (c : Dev nD) : Valuation τ sig (Elt F) :=
  Function.update (Wi c) main_v65 (outArr11 Wi c)

/-- Each window's array after the last grid point is the exit contents at that window's buffer. -/
theorem exitArr11 (Wi : Dev nD → Valuation τ sig (Elt F)) (c : Dev nD) (w : Fin cfg11.W) :
    (dat11 (atTc Wi) c).arrAt w cfg11.N = atTc (after11 Wi) c (Pipeline.arrRef spec11 w) := by
  match w with
  | ⟨0, _⟩ => exact ((dat11 (atTc Wi) c).arrAt_in ⟨0, by decide⟩ rfl _).trans (Function.update_of_ne (StableHlo.devRef_ne_of_ne (by decide)) _ _).symm
  | ⟨1, _⟩ => exact ((dat11 (atTc Wi) c).arrAt_in ⟨1, by decide⟩ rfl _).trans (Function.update_of_ne (StableHlo.devRef_ne_of_ne (by decide)) _ _).symm
  | ⟨2, _⟩ => exact ((dat11 (atTc Wi) c).arrAt_in ⟨2, by decide⟩ rfl _).trans (Function.update_of_ne (StableHlo.devRef_ne_of_ne (by decide)) _ _).symm
  | ⟨3, _⟩ => exact ((dat11 (atTc Wi) c).arrAt_in ⟨3, by decide⟩ rfl _).trans (Function.update_of_ne (StableHlo.devRef_ne_of_ne (by decide)) _ _).symm
  | ⟨4, _⟩ => exact ((dat11 (atTc Wi) c).arrAt_in ⟨4, by decide⟩ rfl _).trans (Function.update_of_ne (StableHlo.devRef_ne_of_ne (by decide)) _ _).symm
  | ⟨5, _⟩ => exact (Function.update_self (Proc.devRef .tc main_v65 : DevRef τ sig) (outArr11 Wi c) (Wi c)).symm

/-- Every buffer that is no window's array is as at entry. -/
theorem exitKeep11 (Wi : Dev nD → Valuation τ sig (Elt F)) (c : Dev nD) :
    ∀ b, b ∉ Finset.univ.image (Pipeline.arrRef spec11) → atTc (after11 Wi) c b = atTc Wi c b := by
  intro b hb
  have hne : b ≠ main_v65 := fun e => hb (Finset.mem_image.mpr ⟨5, Finset.mem_univ _, e.symm ▸ rfl⟩)
  exact Function.update_of_ne (StableHlo.devRef_ne_of_ne hne) _ _

set_option backward.isDefEq.respectTransparency.types false in
/-- Region 11 as a segment between two valuations Wi (entry) and Wo (exit) of the unscoped buffers, for any family of proof
    data whose entry at region 11 is this region's. The region's arrays are split out of the unscoped buffers at entry and put
    back at exit, where each window's array is Wo at that window's buffer (hArr) and every other buffer is as at entry (hKeep);
    the generator register goes into the class invariant and comes back; the kernel has no semaphore of its own and owes nothing. -/
def linSeg11 (pdats : (p : Fin 13) → (c : Dev nD) → Dat τ (Elt F) Unit ℕ (UR sig nD τ) ℕ (cfgs p) c)
    (Wi Wo : Dev nD → Valuation τ sig (Elt F))
    (hp : ∀ c, pdats 11 c = dat11 (atTc Wi) c)
    (hArr : ∀ c (w : Fin cfg11.W), (dat11 (atTc Wi) c).arrAt w cfg11.N = atTc Wo c (Pipeline.arrRef spec11 w))
    (hKeep : ∀ c, ∀ b, b ∉ Finset.univ.image (Pipeline.arrRef spec11) → atTc Wo c b = atTc Wi c b) :
    RegionSeg (pcfgs (F := F)) adm pdats () defs₀ Variants.none noLevels levelZero 11 where
  win := launch11.win.to₀
  block_pos := launch11.block_pos
  stage_whole := launch11.stage_whole
  K := PEmpty
  osem k := k.elim
  ho := Pipeline.OwnSemFacts.none _
  hbody c := by rw [hp c]; exact (body_obligation11 (atTc Wi) c).loose
  hwaits := Pipeline.hwaits_of_owed_zero _ _ _ _ noLevels levelZero 11 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec11 c (atTc Wi c)
  hentry c := by
    rw [Pipeline.ownSems0_none]
    have hsplit := Pipeline.arrays_of_unscopedBufs (p := 11) (pcfgs (F := F)) adm pdats launch11.win launch11.arr_whole c
      ((pdats 11 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec11 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec11 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 11) (pcfgs (F := F)) adm (Ix := Unit) (Name := ℕ) (U := UR sig nD τ) (Lvl := ℕ)
      launch11.win launch11.arr_whole c pdats ((pdats 11 c).share_full fun _ => by rw [hp c]; rfl)
      (atTc Wi c) (atTc Wo c) ((pdats 11 c).arrAt · cfg11.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.LinDat12.lean ====
/- Region 12 (an output projection: the activation tile times one weight matrix plus the attention-context tile times another, plus the bias row, kept in f32): the blocks its 6 windows
   hold at a grid point, the block its body stores as a function of the 5 input blocks, and the pipeline's
   proof data at an arbitrary entry valuation. -/
import proofs.«117683_j11484742549629_2_alg».proof.Proof.Gen.KernelIdeal.Skeleton
import proofs.«117683_j11484742549629_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk12 (c : Dev nD) (w : Fin cfg12.W) (t : Fin cfg12.N) :
    ((cfg12.win w).xblock (cfg12.grid.coords t)).Idx → Elt F (cfg12.win w).elt :=
  ((cfg12.win w).blk t).view.read (Elt F) (V c (Pipeline.arrRef spec12 w))

/-! ## The rectangles the body reads and writes: each is a whole staging buffer -/

/-- all of a 512x1024 tile (an input tile, and the result tile) -/
abbrev tileAll12 : Rect S512x1024 := Rect.unit (s := S512x1024) ![0, 0] S512x1024.size inb_S512x1024_S512x1024_0_0
/-- all of a 1024x1024 weight matrix -/
abbrev weightAll12 : Rect S1024x1024 := Rect.unit (s := S1024x1024) ![0, 0] S1024x1024.size inb_S1024x1024_S1024x1024_0_0
/-- all of the 1x1024 bias row -/
abbrev biasAll12 : Rect S1x1024 := Rect.unit (s := S1x1024) ![0, 0] S1x1024.size inb_S1x1024_S1x1024_0_0

/-- A pair of zero offsets is the constant-zero offset. -/
theorem zeroOffsets12 : (![0, 0] : Fin 2 → Nat) = fun _ => 0 := funext fun a => by fin_cases a <;> rfl

/-! ## The stored block -/

/-- The result buffer after the body, given the 5 input buffers' contents: the body's single store,
    which goes through the whole tile, with the payload evaluated at the 5 whole-buffer loads. -/
def out12 (x : Vec F S512x1024 .f32) (ctx : Vec F S512x1024 .bf16) (wx : Vec F S1024x1024 .bf16) (wc : Vec F S1024x1024 .bf16) (bias : Vec F S1x1024 .f32) : Vec F S512x1024 .f32 :=
  View.canon [⟨tileAll12, k12_pay1 (View.ld x tileAll12) (View.ld ctx tileAll12) (View.ld wx weightAll12) (View.ld wc weightAll12) (View.ld bias biasAll12)⟩]

/-- Since the store and the loads are through whole buffers, the stored block is the payload of the
    input blocks themselves. -/
theorem out12_eq_pay (x : Vec F S512x1024 .f32) (ctx : Vec F S512x1024 .bf16) (wx : Vec F S1024x1024 .bf16) (wc : Vec F S1024x1024 .bf16) (bias : Vec F S1x1024 .f32) :
    out12 x ctx wx wc bias = k12_pay1 x ctx wx wc bias := by
  unfold out12
  rw [View.canon_unit_zero (S := S512x1024) zeroOffsets12 inb_S512x1024_S512x1024_0_0]
  rw [View.ld_unit_zero (S := S512x1024) zeroOffsets12 inb_S512x1024_S512x1024_0_0 x]
  rw [View.ld_unit_zero (S := S512x1024) zeroOffsets12 inb_S512x1024_S512x1024_0_0 ctx]
  rw [View.ld_unit_zero (S := S1024x1024) zeroOffsets12 inb_S1024x1024_S1024x1024_0_0 wx]
  rw [View.ld_unit_zero (S := S1024x1024) zeroOffsets12 inb_S1024x1024_S1024x1024_0_0 wc]
  rw [View.ld_unit_zero (S := S1x1024) zeroOffsets12 inb_S1x1024_S1x1024_0_0 bias]

/-- The single store reaches every index of the tile. -/
theorem storeCovers12 (p : Vec F S512x1024 .f32) (y : S512x1024.Idx) :
    ∃ pc ∈ ([⟨tileAll12, p⟩] : List (View.Piece (Elt F) S512x1024 .f32)), y ∈ pc.1.set :=
  ⟨_, List.mem_singleton_self _, View.mem_set_unit_zero (S := S512x1024) zeroOffsets12 inb_S512x1024_S512x1024_0_0 y⟩

/-! ## Proof data of the pipeline -/

/-- On core `c`: every window's array is what the entry valuation says; after the body at point `t` the 5
    input buffers still hold their blocks and the result buffer holds `out12` of them; the invariant is the
    untouched rest (scoped buffers and the generator register); no debts, full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12 (iblk12 V c 0 t) (iblk12 V c 1 t) (iblk12 V c 2 t) (iblk12 V c 3 t) (iblk12 V c 4 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t = out12 (iblk12 V c 0 t) (iblk12 V c 1 t) (iblk12 V c 2 t) (iblk12 V c 3 t) (iblk12 V c 4 t) := by dsimp only [dat12]

/-- The same, with the stored block spelt as the payload of the input blocks. -/
theorem after12_5_pay (c : Dev nD) (t : Fin cfg12.N) :
    (dat12 V c).after 5 t = k12_pay1 (iblk12 V c 0 t) (iblk12 V c 1 t) (iblk12 V c 2 t) (iblk12 V c 3 t) (iblk12 V c 4 t) := by
  rw [after12_5, out12_eq_pay]

/-! ## What an input's staging buffer holds when the body starts

A tile's buffer is fetched at every point; a weight matrix and the bias row are fetched once and their index
never moves. Either way the buffer holds the window's block of the entry array. -/

/-- the activation tile -/
theorem before12_0 (c : Dev nD) (t : Fin cfg12.N) (d) : (dat12 V c).before 0 t d = iblk12 V c 0 t :=
  ((dat12 V c).before_in_eq_fetched 0 rfl (fun _ => rfl) (fun _ _ _ => rfl)
      (fun t => by rw [after12_0]; unfold Dat.blockOf iblk12; rw [A_eq12]; try rfl) t d).trans
    (by unfold Dat.fetched Dat.blockOf iblk12; rw [A_eq12]; try rfl)

/-- the attention-context tile -/
theorem before12_1 (c : Dev nD) (t : Fin cfg12.N) (d) : (dat12 V c).before 1 t d = iblk12 V c 1 t :=
  ((dat12 V c).before_in_eq_fetched 1 rfl (fun _ => rfl) (fun _ _ _ => rfl)
      (fun t => by rw [after12_1]; unfold Dat.blockOf iblk12; rw [A_eq12]; try rfl) t d).trans
    (by unfold Dat.fetched Dat.blockOf iblk12; rw [A_eq12]; try rfl)

/-- the weight matrix of the activation -/
theorem before12_2 (c : Dev nD) (t : Fin cfg12.N) (d) : (dat12 V c).before 2 t d = iblk12 V c 2 t :=
  ((dat12 V c).before_in_eq_fetched 2 rfl (fun _ => rfl) (fun _ _ _ => rfl)
      (fun t => by rw [after12_2]; unfold Dat.blockOf iblk12; rw [A_eq12]; try rfl) t d).trans
    (by unfold Dat.fetched Dat.blockOf iblk12; rw [A_eq12]; try rfl)

/-- the weight matrix of the context -/
theorem before12_3 (c : Dev nD) (t : Fin cfg12.N) (d) : (dat12 V c).before 3 t d = iblk12 V c 3 t :=
  ((dat12 V c).before_in_eq_fetched 3 rfl (fun _ => rfl) (fun _ _ _ => rfl)
      (fun t => by rw [after12_3]; unfold Dat.blockOf iblk12; rw [A_eq12]; try rfl) t d).trans
    (by unfold Dat.fetched Dat.blockOf iblk12; rw [A_eq12]; try rfl)

/-- the bias row -/
theorem before12_4 (c : Dev nD) (t : Fin cfg12.N) (d) : (dat12 V c).before 4 t d = iblk12 V c 4 t :=
  ((dat12 V c).before_in_eq_fetched 4 rfl (fun _ => rfl) (fun _ _ _ => rfl)
      (fun t => by rw [after12_4]; unfold Dat.blockOf iblk12; rw [A_eq12]; try rfl) t d).trans
    (by unfold Dat.fetched Dat.blockOf iblk12; rw [A_eq12]; try rfl)

end Cert.KernelIdeal.Hand
-- ==== Proof.LinBody12.lean ====
/- Region 12 (an output projection: the activation tile times one weight matrix plus the attention-context tile times another, plus the bias row, kept in f32): the kernel body run on whole
   staging buffers, and from it the obligation the pipeline asks of the body at every grid point. -/
import proofs.«117683_j11484742549629_2_alg».proof.Proof.LinDat12
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the six windows, written out. -/
theorem sixWindows12 {M : Type} [URA M] (P : Fin 6 → sProp M) :
    bigSep Finset.univ P = iprop(P 0 ∗ P 1 ∗ P 2 ∗ P 3 ∗ P 4 ∗ P 5) :=
  bigSep_univ_eq_bigSepL [(0 : Fin 6), 1, 2, 3, 4, 5] (by decide) (by decide) P

variable (V : (c : Dev nD) → (b : Ref sig .tc) → Buf (Elt F) ((c : Thread nD τ).loc b))

/-! ## The body on whole buffers -/

set_option maxHeartbeats 1000000 in
/-- Given the 5 inputs in whole buffers, and one more whole buffer holding anything, the body ends with the
    inputs unchanged and the last buffer holding `out12` of them. It loads every buffer whole and stores once,
    through the whole tile. -/
theorem sound_kernel12 (c : Dev nD) (E : Set ℕ) (i : grid12.Coords)
    (m_x : Memref sig .tc .vmem S512x1024 .f32) (h_x : m_x.IsWhole)
    (m_ctx : Memref sig .tc .vmem S512x1024 .bf16) (h_ctx : m_ctx.IsWhole)
    (m_wx : Memref sig .tc .vmem S1024x1024 .bf16) (h_wx : m_wx.IsWhole)
    (m_wc : Memref sig .tc .vmem S1024x1024 .bf16) (h_wc : m_wc.IsWhole)
    (m_bias : Memref sig .tc .vmem S1x1024 .f32) (h_bias : m_bias.IsWhole)
    (m_res : Memref sig .tc .vmem S512x1024 .f32) (h_res : m_res.IsWhole)
    (x : Vec F S512x1024 .f32) (ctx : Vec F S512x1024 .bf16) (wx : Vec F S1024x1024 .bf16) (wc : Vec F S1024x1024 .bf16) (bias : Vec F S1x1024 .f32) (K : PUnit → sProp 𝕄) :
    iprop(owns (c : Thread nD τ) m_x fullShare x
        ∗ owns (c : Thread nD τ) m_ctx fullShare ctx
        ∗ owns (c : Thread nD τ) m_wx fullShare wx
        ∗ owns (c : Thread nD τ) m_wc fullShare wc
        ∗ owns (c : Thread nD τ) m_bias fullShare bias
        ∗ (∃ d, owns (c : Thread nD τ) m_res fullShare d)
        ∗ (iprop(owns (c : Thread nD τ) m_x fullShare x
            ∗ owns (c : Thread nD τ) m_ctx fullShare ctx
            ∗ owns (c : Thread nD τ) m_wx fullShare wx
            ∗ owns (c : Thread nD τ) m_wc fullShare wc
            ∗ owns (c : Thread nD τ) m_bias fullShare bias
            ∗ owns (c : Thread nD τ) m_res fullShare (out12 x ctx wx wc bias)) -∗ K ⟨⟩))
      ⊢ wp frame (wpE (defs₀ (F := F)) Variants.none c none) E (cc12__oproj_kernel i m_x h_x m_ctx h_ctx m_wx h_wx m_wc h_wc m_bias h_bias m_res h_res) K := by
  rw [cc12__oproj_kernel_eq_skeleton]; unfold cc12__oproj_kernel_skel
  unfold owns
  iintro ⟨⟨%f_x, %e_x, P_x⟩, ⟨%f_ctx, %e_ctx, P_ctx⟩, ⟨%f_wx, %e_wx, P_wx⟩, ⟨%f_wc, %e_wc, P_wc⟩, ⟨%f_bias, %e_bias, P_bias⟩, ⟨%d, %f_res, -, P_res⟩, Hcont⟩
  subst e_x; subst e_ctx; subst e_wx; subst e_wc; subst e_bias
  sl_exec
  sl_step
  iapply Hcont
  isplitl [P_x]
  · iexists f_x; isplitr
    · ipureintro; rfl
    · iexact P_x
  isplitl [P_ctx]
  · iexists f_ctx; isplitr
    · ipureintro; rfl
    · iexact P_ctx
  isplitl [P_wx]
  · iexists f_wx; isplitr
    · ipureintro; rfl
    · iexact P_wx
  isplitl [P_wc]
  · iexists f_wc; isplitr
    · ipureintro; rfl
    · iexact P_wc
  isplitl [P_bias]
  · iexists f_bias; isplitr
    · ipureintro; rfl
    · iexact P_bias
  iexists _; isplitr
  swap
  · iexact P_res
  ipureintro
  exact View.read_writes_eq_canon _ _ _ (storeCovers12 _)

/-! ## The obligation at a grid point -/

/-- What the pipeline hands the body at point `t`: the invariant, the core's debts, and the six staging buffers. -/
def bodyGiven12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- What it must hand back. -/
def bodyOwed12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- At every point the input buffers hold their blocks, so the run on whole buffers applies; the invariant and
    the debts are not touched by the body. -/
theorem sound_body12 (c : Dev nD) (t : Fin cfg12.N) :
    bodyGiven12 V c t ⊢ wp frame (wpE (defs₀ (F := F)) Variants.none c none) Set.univ (bodyAt12 t) (fun _ => bodyOwed12 V c t) := by
  unfold bodyGiven12 bodyOwed12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨Hinv, Hdebt, ⟨%d0, B0⟩, ⟨%d1, B1⟩, ⟨%d2, B2⟩, ⟨%d3, B3⟩, ⟨%d4, B4⟩, ⟨%d5, B5⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [B0]; · iexact B0
  isplitl [B1]; · iexact B1
  isplitl [B2]; · iexact B2
  isplitl [B3]; · iexact B3
  isplitl [B4]; · iexact B4
  isplitl [B5]; · iexists _; iexact B5
  iintro ⟨B0, B1, B2, B3, B4, B5⟩
  isplitl [Hinv]; · iexact Hinv
  isplitl [Hdebt]; · iexact Hdebt
  isplitl [B0]; · iexact B0
  isplitl [B1]; · iexact B1
  isplitl [B2]; · iexact B2
  isplitl [B3]; · iexact B3
  isplitl [B4]; · iexact B4
  iexact B5

/-- The pipeline's obligation on the body, at every grid point. -/
theorem body_obligation12 (c : Dev nD) :
    BodyObligation (dat12 (F := F) V c) (defs₀ (F := F)) Variants.none () Set.univ := fun t => by
  rw [sixWindows12, sixWindows12]
  exact sound_body12 V c t

end Cert.KernelIdeal.Hand
-- ==== Proof.RunSeg12.lean ====
/-
  Region 12 of the kernel program's @main as a segment of the run. The region reads its input windows' arrays and writes one
  array, main_v70: so the contents after it are the contents before it with that buffer replaced by the fold of the grid
  points' write-backs, every input window's array being what it was (a window that is never written back keeps its array).
-/
import proofs.«117683_j11484742549629_2_alg».proof.Proof.RunBase
import proofs.«117683_j11484742549629_2_alg».proof.Proof.LinBody12

set_option maxRecDepth 4096
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
variable {F : FTy → Type} [FloatOps F]

local notation "𝕄" => MT nD τ sig Unit (Elt F) ℕ (UR sig nD τ) ℕ

/-- What region 12 leaves in main_v70, from entry contents Wi. -/
def outArr12 (Wi : Dev nD → Valuation τ sig (Elt F)) (c : Dev nD) : Buf (Elt F) ((c : Thread nD τ).loc main_v70) :=
  (dat12 (atTc Wi) c).arrAt 5 cfg12.N
/-- The contents after region 12. -/
abbrev after12 (Wi : Dev nD → Valuation τ sig (Elt F)) (c : Dev nD) : Valuation τ sig (Elt F) :=
  Function.update (Wi c) main_v70 (outArr12 Wi c)

/-- Each window's array after the last grid point is the exit contents at that window's buffer. -/
theorem exitArr12 (Wi : Dev nD → Valuation τ sig (Elt F)) (c : Dev nD) (w : Fin cfg12.W) :
    (dat12 (atTc Wi) c).arrAt w cfg12.N = atTc (after12 Wi) c (Pipeline.arrRef spec12 w) := by
  match w with
  | ⟨0, _⟩ => exact ((dat12 (atTc Wi) c).arrAt_in ⟨0, by decide⟩ rfl _).trans (Function.update_of_ne (StableHlo.devRef_ne_of_ne (by decide)) _ _).symm
  | ⟨1, _⟩ => exact ((dat12 (atTc Wi) c).arrAt_in ⟨1, by decide⟩ rfl _).trans (Function.update_of_ne (StableHlo.devRef_ne_of_ne (by decide)) _ _).symm
  | ⟨2, _⟩ => exact ((dat12 (atTc Wi) c).arrAt_in ⟨2, by decide⟩ rfl _).trans (Function.update_of_ne (StableHlo.devRef_ne_of_ne (by decide)) _ _).symm
  | ⟨3, _⟩ => exact ((dat12 (atTc Wi) c).arrAt_in ⟨3, by decide⟩ rfl _).trans (Function.update_of_ne (StableHlo.devRef_ne_of_ne (by decide)) _ _).symm
  | ⟨4, _⟩ => exact ((dat12 (atTc Wi) c).arrAt_in ⟨4, by decide⟩ rfl _).trans (Function.update_of_ne (StableHlo.devRef_ne_of_ne (by decide)) _ _).symm
  | ⟨5, _⟩ => exact (Function.update_self (Proc.devRef .tc main_v70 : DevRef τ sig) (outArr12 Wi c) (Wi c)).symm

/-- Every buffer that is no window's array is as at entry. -/
theorem exitKeep12 (Wi : Dev nD → Valuation τ sig (Elt F)) (c : Dev nD) :
    ∀ b, b ∉ Finset.univ.image (Pipeline.arrRef spec12) → atTc (after12 Wi) c b = atTc Wi c b := by
  intro b hb
  have hne : b ≠ main_v70 := fun e => hb (Finset.mem_image.mpr ⟨5, Finset.mem_univ _, e.symm ▸ rfl⟩)
  exact Function.update_of_ne (StableHlo.devRef_ne_of_ne hne) _ _

set_option backward.isDefEq.respectTransparency.types false in
/-- Region 12 as a segment between two valuations Wi (entry) and Wo (exit) of the unscoped buffers, for any family of proof
    data whose entry at region 12 is this region's. The region's arrays are split out of the unscoped buffers at entry and put
    back at exit, where each window's array is Wo at that window's buffer (hArr) and every other buffer is as at entry (hKeep);
    the generator register goes into the class invariant and comes back; the kernel has no semaphore of its own and owes nothing. -/
def linSeg12 (pdats : (p : Fin 13) → (c : Dev nD) → Dat τ (Elt F) Unit ℕ (UR sig nD τ) ℕ (cfgs p) c)
    (Wi Wo : Dev nD → Valuation τ sig (Elt F))
    (hp : ∀ c, pdats 12 c = dat12 (atTc Wi) c)
    (hArr : ∀ c (w : Fin cfg12.W), (dat12 (atTc Wi) c).arrAt w cfg12.N = atTc Wo c (Pipeline.arrRef spec12 w))
    (hKeep : ∀ c, ∀ b, b ∉ Finset.univ.image (Pipeline.arrRef spec12) → atTc Wo c b = atTc Wi c b) :
    RegionSeg (pcfgs (F := F)) adm pdats () defs₀ Variants.none noLevels levelZero 12 where
  win := launch12.win.to₀
  block_pos := launch12.block_pos
  stage_whole := launch12.stage_whole
  K := PEmpty
  osem k := k.elim
  ho := Pipeline.OwnSemFacts.none _
  hbody c := by rw [hp c]; exact (body_obligation12 (atTc Wi) c).loose
  hwaits := Pipeline.hwaits_of_owed_zero _ _ _ _ noLevels levelZero 12 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec12 c (atTc Wi c)
  hentry c := by
    rw [Pipeline.ownSems0_none]
    have hsplit := Pipeline.arrays_of_unscopedBufs (p := 12) (pcfgs (F := F)) adm pdats launch12.win launch12.arr_whole c
      ((pdats 12 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec12 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec12 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 12) (pcfgs (F := F)) adm (Ix := Unit) (Name := ℕ) (U := UR sig nD τ) (Lvl := ℕ)
      launch12.win launch12.arr_whole c pdats ((pdats 12 c).share_full fun _ => by rw [hp c]; rfl)
      (atTc Wi c) (atTc Wo c) ((pdats 12 c).arrAt · cfg12.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand
end
-- ==== Proof.RunVals.lean ====
/-
  The contents of the unscoped buffers between the items of the kernel program's @main, written out stage by stage.
  U1 is the launch contents after the first stretch of host operations. A region changes exactly one buffer, its output
  array, which it leaves at the fold of the write-backs of its grid points; a stretch of host operations applies those
  operations. So U(2K+2) is U(2K+1) with region K's output buffer replaced, and U(2K+3) is U(2K+2) after the next stretch.
  The family outs hands these output arrays to the valuations V1 … V27, which are stated over unknown region outputs; with
  it, VJ = UJ for every J.
-/
import proofs.«117683_j11484742549629_2_alg».proof.Proof.RunSeg0
import proofs.«117683_j11484742549629_2_alg».proof.Proof.RunSeg1
import proofs.«117683_j11484742549629_2_alg».proof.Proof.RunSeg2
import proofs.«117683_j11484742549629_2_alg».proof.Proof.AttnSeg
import proofs.«117683_j11484742549629_2_alg».proof.Proof.RunSeg4
import proofs.«117683_j11484742549629_2_alg».proof.Proof.RunSeg5
import proofs.«117683_j11484742549629_2_alg».proof.Proof.AttnSeg6
import proofs.«117683_j11484742549629_2_alg».proof.Proof.RunSeg7
import proofs.«117683_j11484742549629_2_alg».proof.Proof.RunSeg8
import proofs.«117683_j11484742549629_2_alg».proof.Proof.AttnSeg9
import proofs.«117683_j11484742549629_2_alg».proof.Proof.RunSeg10
import proofs.«117683_j11484742549629_2_alg».proof.Proof.RunSeg11
import proofs.«117683_j11484742549629_2_alg».proof.Proof.RunSeg12

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

/-- Before region 0: the launch contents after the first host stretch. -/
abbrev U1 (c : Dev nD) : Valuation τ sig (Elt F) := V1 m c
/-- After region 0: its output array main_v10 replaced. -/
abbrev U2 (c : Dev nD) : Valuation τ sig (Elt F) := after0 (U1 m) c
/-- After the host stretch that follows region 0. -/
abbrev U3 (c : Dev nD) : Valuation τ sig (Elt F) := StableHlo.after hostOps1 (U2 m c)
/-- After region 1: its output array main_v15 replaced. -/
abbrev U4 (c : Dev nD) : Valuation τ sig (Elt F) := after1 (U3 m) c
/-- After the host stretch that follows region 1. -/
abbrev U5 (c : Dev nD) : Valuation τ sig (Elt F) := StableHlo.after hostOps2 (U4 m c)
/-- After region 2: its output array main_v20 replaced. -/
abbrev U6 (c : Dev nD) : Valuation τ sig (Elt F) := after2 (U5 m) c
/-- After the host stretch that follows region 2. -/
abbrev U7 (c : Dev nD) : Valuation τ sig (Elt F) := StableHlo.after hostOps3 (U6 m c)
/-- After region 3: its output array main_v22 replaced. -/
abbrev U8 (c : Dev nD) : Valuation τ sig (Elt F) := attnAfter3 (U7 m) c
/-- After the host stretch that follows region 3. -/
abbrev U9 (c : Dev nD) : Valuation τ sig (Elt F) := StableHlo.after hostOps4 (U8 m c)
/-- After region 4: its output array main_v26 replaced. -/
abbrev U10 (c : Dev nD) : Valuation τ sig (Elt F) := after4 (U9 m) c
/-- After the host stretch that follows region 4. -/
abbrev U11 (c : Dev nD) : Valuation τ sig (Elt F) := StableHlo.after hostOps5 (U10 m c)
/-- After region 5: its output array main_v31 replaced. -/
abbrev U12 (c : Dev nD) : Valuation τ sig (Elt F) := after5 (U11 m) c
/-- After the host stretch that follows region 5. -/
abbrev U13 (c : Dev nD) : Valuation τ sig (Elt F) := StableHlo.after hostOps6 (U12 m c)
/-- After region 6: its output array main_v33 replaced. -/
abbrev U14 (c : Dev nD) : Valuation τ sig (Elt F) := attnAfter6 (U13 m) c
/-- After the host stretch that follows region 6. -/
abbrev U15 (c : Dev nD) : Valuation τ sig (Elt F) := StableHlo.after hostOps7 (U14 m c)
/-- After region 7: its output array main_v37 replaced. -/
abbrev U16 (c : Dev nD) : Valuation τ sig (Elt F) := after7 (U15 m) c
/-- After the host stretch that follows region 7. -/
abbrev U17 (c : Dev nD) : Valuation τ sig (Elt F) := StableHlo.after hostOps8 (U16 m c)
/-- After region 8: its output array main_v42 replaced. -/
abbrev U18 (c : Dev nD) : Valuation τ sig (Elt F) := after8 (U17 m) c
/-- After the host stretch that follows region 8. -/
abbrev U19 (c : Dev nD) : Valuation τ sig (Elt F) := StableHlo.after hostOps9 (U18 m c)
/-- After region 9: its output array main_v44 replaced. -/
abbrev U20 (c : Dev nD) : Valuation τ sig (Elt F) := attnAfter9 (U19 m) c
/-- After the host stretch that follows region 9. -/
abbrev U21 (c : Dev nD) : Valuation τ sig (Elt F) := StableHlo.after hostOps10 (U20 m c)
/-- After region 10: its output array main_v60 replaced. -/
abbrev U22 (c : Dev nD) : Valuation τ sig (Elt F) := after10 (U21 m) c
/-- After the host stretch that follows region 10. -/
abbrev U23 (c : Dev nD) : Valuation τ sig (Elt F) := StableHlo.after hostOps11 (U22 m c)
/-- After region 11: its output array main_v65 replaced. -/
abbrev U24 (c : Dev nD) : Valuation τ sig (Elt F) := after11 (U23 m) c
/-- After the host stretch that follows region 11. -/
abbrev U25 (c : Dev nD) : Valuation τ sig (Elt F) := StableHlo.after hostOps12 (U24 m c)
/-- After region 12: its output array main_v70 replaced. -/
abbrev U26 (c : Dev nD) : Valuation τ sig (Elt F) := after12 (U25 m) c
/-- After the host stretch that follows region 12. -/
abbrev U27 (c : Dev nD) : Valuation τ sig (Elt F) := StableHlo.after hostOps13 (U26 m c)

/-- The regions' outputs as the family the valuations V are stated over: item 2K+2's entry for region K's output
    buffer is that region's output array; every other entry is never read and is set to the launch contents. -/
def outs : Outs (F := F) := fun n r c =>
  if h2 : n = 2 ∧ r = main_v10 then h2.2 ▸ outArr0 (U1 m) c else
  if h4 : n = 4 ∧ r = main_v15 then h4.2 ▸ outArr1 (U3 m) c else
  if h6 : n = 6 ∧ r = main_v20 then h6.2 ▸ outArr2 (U5 m) c else
  if h8 : n = 8 ∧ r = main_v22 then h8.2 ▸ attnArr3 (U7 m) c else
  if h10 : n = 10 ∧ r = main_v26 then h10.2 ▸ outArr4 (U9 m) c else
  if h12 : n = 12 ∧ r = main_v31 then h12.2 ▸ outArr5 (U11 m) c else
  if h14 : n = 14 ∧ r = main_v33 then h14.2 ▸ attnArr6 (U13 m) c else
  if h16 : n = 16 ∧ r = main_v37 then h16.2 ▸ outArr7 (U15 m) c else
  if h18 : n = 18 ∧ r = main_v42 then h18.2 ▸ outArr8 (U17 m) c else
  if h20 : n = 20 ∧ r = main_v44 then h20.2 ▸ attnArr9 (U19 m) c else
  if h22 : n = 22 ∧ r = main_v60 then h22.2 ▸ outArr10 (U21 m) c else
  if h24 : n = 24 ∧ r = main_v65 then h24.2 ▸ outArr11 (U23 m) c else
  if h26 : n = 26 ∧ r = main_v70 then h26.2 ▸ outArr12 (U25 m) c else
  m ((c : Thread nD τ).loc r)

theorem outs_2 (c : Dev nD) : outs m 2 main_v10 c = outArr0 (U1 m) c := by
  unfold outs; simp
theorem outs_4 (c : Dev nD) : outs m 4 main_v15 c = outArr1 (U3 m) c := by
  unfold outs; simp
theorem outs_6 (c : Dev nD) : outs m 6 main_v20 c = outArr2 (U5 m) c := by
  unfold outs; simp
theorem outs_8 (c : Dev nD) : outs m 8 main_v22 c = attnArr3 (U7 m) c := by
  unfold outs; simp
theorem outs_10 (c : Dev nD) : outs m 10 main_v26 c = outArr4 (U9 m) c := by
  unfold outs; simp
theorem outs_12 (c : Dev nD) : outs m 12 main_v31 c = outArr5 (U11 m) c := by
  unfold outs; simp
theorem outs_14 (c : Dev nD) : outs m 14 main_v33 c = attnArr6 (U13 m) c := by
  unfold outs; simp
theorem outs_16 (c : Dev nD) : outs m 16 main_v37 c = outArr7 (U15 m) c := by
  unfold outs; simp
theorem outs_18 (c : Dev nD) : outs m 18 main_v42 c = outArr8 (U17 m) c := by
  unfold outs; simp
theorem outs_20 (c : Dev nD) : outs m 20 main_v44 c = attnArr9 (U19 m) c := by
  unfold outs; simp
theorem outs_22 (c : Dev nD) : outs m 22 main_v60 c = outArr10 (U21 m) c := by
  unfold outs; simp
theorem outs_24 (c : Dev nD) : outs m 24 main_v65 c = outArr11 (U23 m) c := by
  unfold outs; simp
theorem outs_26 (c : Dev nD) : outs m 26 main_v70 c = outArr12 (U25 m) c := by
  unfold outs; simp

/-! The valuations V at outs are the stage-by-stage ones. -/
theorem V1_eq (c : Dev nD) : V1 m c = U1 m c := rfl
theorem V2_eq (c : Dev nD) : V2 m (outs m) c = U2 m c := by
  show Function.update (V1 m c) main_v10 (outs m 2 main_v10 c) = _
  rw [outs_2, V1_eq]
theorem V3_eq (c : Dev nD) : V3 m (outs m) c = U3 m c := by
  show StableHlo.after hostOps1 (V2 m (outs m) c) = _
  rw [V2_eq]
theorem V4_eq (c : Dev nD) : V4 m (outs m) c = U4 m c := by
  show Function.update (V3 m (outs m) c) main_v15 (outs m 4 main_v15 c) = _
  rw [outs_4, V3_eq]
theorem V5_eq (c : Dev nD) : V5 m (outs m) c = U5 m c := by
  show StableHlo.after hostOps2 (V4 m (outs m) c) = _
  rw [V4_eq]
theorem V6_eq (c : Dev nD) : V6 m (outs m) c = U6 m c := by
  show Function.update (V5 m (outs m) c) main_v20 (outs m 6 main_v20 c) = _
  rw [outs_6, V5_eq]
theorem V7_eq (c : Dev nD) : V7 m (outs m) c = U7 m c := by
  show StableHlo.after hostOps3 (V6 m (outs m) c) = _
  rw [V6_eq]
theorem V8_eq (c : Dev nD) : V8 m (outs m) c = U8 m c := by
  show Function.update (V7 m (outs m) c) main_v22 (outs m 8 main_v22 c) = _
  rw [outs_8, V7_eq]
theorem V9_eq (c : Dev nD) : V9 m (outs m) c = U9 m c := by
  show StableHlo.after hostOps4 (V8 m (outs m) c) = _
  rw [V8_eq]
theorem V10_eq (c : Dev nD) : V10 m (outs m) c = U10 m c := by
  show Function.update (V9 m (outs m) c) main_v26 (outs m 10 main_v26 c) = _
  rw [outs_10, V9_eq]
theorem V11_eq (c : Dev nD) : V11 m (outs m) c = U11 m c := by
  show StableHlo.after hostOps5 (V10 m (outs m) c) = _
  rw [V10_eq]
theorem V12_eq (c : Dev nD) : V12 m (outs m) c = U12 m c := by
  show Function.update (V11 m (outs m) c) main_v31 (outs m 12 main_v31 c) = _
  rw [outs_12, V11_eq]
theorem V13_eq (c : Dev nD) : V13 m (outs m) c = U13 m c := by
  show StableHlo.after hostOps6 (V12 m (outs m) c) = _
  rw [V12_eq]
theorem V14_eq (c : Dev nD) : V14 m (outs m) c = U14 m c := by
  show Function.update (V13 m (outs m) c) main_v33 (outs m 14 main_v33 c) = _
  rw [outs_14, V13_eq]
theorem V15_eq (c : Dev nD) : V15 m (outs m) c = U15 m c := by
  show StableHlo.after hostOps7 (V14 m (outs m) c) = _
  rw [V14_eq]
theorem V16_eq (c : Dev nD) : V16 m (outs m) c = U16 m c := by
  show Function.update (V15 m (outs m) c) main_v37 (outs m 16 main_v37 c) = _
  rw [outs_16, V15_eq]
theorem V17_eq (c : Dev nD) : V17 m (outs m) c = U17 m c := by
  show StableHlo.after hostOps8 (V16 m (outs m) c) = _
  rw [V16_eq]
theorem V18_eq (c : Dev nD) : V18 m (outs m) c = U18 m c := by
  show Function.update (V17 m (outs m) c) main_v42 (outs m 18 main_v42 c) = _
  rw [outs_18, V17_eq]
theorem V19_eq (c : Dev nD) : V19 m (outs m) c = U19 m c := by
  show StableHlo.after hostOps9 (V18 m (outs m) c) = _
  rw [V18_eq]
theorem V20_eq (c : Dev nD) : V20 m (outs m) c = U20 m c := by
  show Function.update (V19 m (outs m) c) main_v44 (outs m 20 main_v44 c) = _
  rw [outs_20, V19_eq]
theorem V21_eq (c : Dev nD) : V21 m (outs m) c = U21 m c := by
  show StableHlo.after hostOps10 (V20 m (outs m) c) = _
  rw [V20_eq]
theorem V22_eq (c : Dev nD) : V22 m (outs m) c = U22 m c := by
  show Function.update (V21 m (outs m) c) main_v60 (outs m 22 main_v60 c) = _
  rw [outs_22, V21_eq]
theorem V23_eq (c : Dev nD) : V23 m (outs m) c = U23 m c := by
  show StableHlo.after hostOps11 (V22 m (outs m) c) = _
  rw [V22_eq]
theorem V24_eq (c : Dev nD) : V24 m (outs m) c = U24 m c := by
  show Function.update (V23 m (outs m) c) main_v65 (outs m 24 main_v65 c) = _
  rw [outs_24, V23_eq]
theorem V25_eq (c : Dev nD) : V25 m (outs m) c = U25 m c := by
  show StableHlo.after hostOps12 (V24 m (outs m) c) = _
  rw [V24_eq]
theorem V26_eq (c : Dev nD) : V26 m (outs m) c = U26 m c := by
  show Function.update (V25 m (outs m) c) main_v70 (outs m 26 main_v70 c) = _
  rw [outs_26, V25_eq]
theorem V27_eq (c : Dev nD) : V27 m (outs m) c = U27 m c := by
  show StableHlo.after hostOps13 (V26 m (outs m) c) = _
  rw [V26_eq]

/-! An item leaves every buffer it does not write as it found it. -/
theorem U1_of (c : Dev nD) (r : Ref sig .tc) (h : r ∉ hostOps0_W) : U1 m c r = V0 m c r := V1_of m c r h
theorem U2_of (c : Dev nD) (r : Ref sig .tc) (h : r ∉ ([main_v10] : List (Ref sig .tc))) : U2 m c r = U1 m c r := by
  have e := V2_of m (outs m) c r h
  rwa [V2_eq, V1_eq] at e
theorem U3_of (c : Dev nD) (r : Ref sig .tc) (h : r ∉ hostOps1_W) : U3 m c r = U2 m c r := by
  have e := V3_of m (outs m) c r h
  rwa [V3_eq, V2_eq] at e
theorem U4_of (c : Dev nD) (r : Ref sig .tc) (h : r ∉ ([main_v15] : List (Ref sig .tc))) : U4 m c r = U3 m c r := by
  have e := V4_of m (outs m) c r h
  rwa [V4_eq, V3_eq] at e
theorem U5_of (c : Dev nD) (r : Ref sig .tc) (h : r ∉ hostOps2_W) : U5 m c r = U4 m c r := by
  have e := V5_of m (outs m) c r h
  rwa [V5_eq, V4_eq] at e
theorem U6_of (c : Dev nD) (r : Ref sig .tc) (h : r ∉ ([main_v20] : List (Ref sig .tc))) : U6 m c r = U5 m c r := by
  have e := V6_of m (outs m) c r h
  rwa [V6_eq, V5_eq] at e
theorem U7_of (c : Dev nD) (r : Ref sig .tc) (h : r ∉ hostOps3_W) : U7 m c r = U6 m c r := by
  have e := V7_of m (outs m) c r h
  rwa [V7_eq, V6_eq] at e
theorem U8_of (c : Dev nD) (r : Ref sig .tc) (h : r ∉ ([main_v22] : List (Ref sig .tc))) : U8 m c r = U7 m c r := by
  have e := V8_of m (outs m) c r h
  rwa [V8_eq, V7_eq] at e
theorem U9_of (c : Dev nD) (r : Ref sig .tc) (h : r ∉ hostOps4_W) : U9 m c r = U8 m c r := by
  have e := V9_of m (outs m) c r h
  rwa [V9_eq, V8_eq] at e
theorem U10_of (c : Dev nD) (r : Ref sig .tc) (h : r ∉ ([main_v26] : List (Ref sig .tc))) : U10 m c r = U9 m c r := by
  have e := V10_of m (outs m) c r h
  rwa [V10_eq, V9_eq] at e
theorem U11_of (c : Dev nD) (r : Ref sig .tc) (h : r ∉ hostOps5_W) : U11 m c r = U10 m c r := by
  have e := V11_of m (outs m) c r h
  rwa [V11_eq, V10_eq] at e
theorem U12_of (c : Dev nD) (r : Ref sig .tc) (h : r ∉ ([main_v31] : List (Ref sig .tc))) : U12 m c r = U11 m c r := by
  have e := V12_of m (outs m) c r h
  rwa [V12_eq, V11_eq] at e
theorem U13_of (c : Dev nD) (r : Ref sig .tc) (h : r ∉ hostOps6_W) : U13 m c r = U12 m c r := by
  have e := V13_of m (outs m) c r h
  rwa [V13_eq, V12_eq] at e
theorem U14_of (c : Dev nD) (r : Ref sig .tc) (h : r ∉ ([main_v33] : List (Ref sig .tc))) : U14 m c r = U13 m c r := by
  have e := V14_of m (outs m) c r h
  rwa [V14_eq, V13_eq] at e
theorem U15_of (c : Dev nD) (r : Ref sig .tc) (h : r ∉ hostOps7_W) : U15 m c r = U14 m c r := by
  have e := V15_of m (outs m) c r h
  rwa [V15_eq, V14_eq] at e
theorem U16_of (c : Dev nD) (r : Ref sig .tc) (h : r ∉ ([main_v37] : List (Ref sig .tc))) : U16 m c r = U15 m c r := by
  have e := V16_of m (outs m) c r h
  rwa [V16_eq, V15_eq] at e
theorem U17_of (c : Dev nD) (r : Ref sig .tc) (h : r ∉ hostOps8_W) : U17 m c r = U16 m c r := by
  have e := V17_of m (outs m) c r h
  rwa [V17_eq, V16_eq] at e
theorem U18_of (c : Dev nD) (r : Ref sig .tc) (h : r ∉ ([main_v42] : List (Ref sig .tc))) : U18 m c r = U17 m c r := by
  have e := V18_of m (outs m) c r h
  rwa [V18_eq, V17_eq] at e
theorem U19_of (c : Dev nD) (r : Ref sig .tc) (h : r ∉ hostOps9_W) : U19 m c r = U18 m c r := by
  have e := V19_of m (outs m) c r h
  rwa [V19_eq, V18_eq] at e
theorem U20_of (c : Dev nD) (r : Ref sig .tc) (h : r ∉ ([main_v44] : List (Ref sig .tc))) : U20 m c r = U19 m c r := by
  have e := V20_of m (outs m) c r h
  rwa [V20_eq, V19_eq] at e
theorem U21_of (c : Dev nD) (r : Ref sig .tc) (h : r ∉ hostOps10_W) : U21 m c r = U20 m c r := by
  have e := V21_of m (outs m) c r h
  rwa [V21_eq, V20_eq] at e
theorem U22_of (c : Dev nD) (r : Ref sig .tc) (h : r ∉ ([main_v60] : List (Ref sig .tc))) : U22 m c r = U21 m c r := by
  have e := V22_of m (outs m) c r h
  rwa [V22_eq, V21_eq] at e
theorem U23_of (c : Dev nD) (r : Ref sig .tc) (h : r ∉ hostOps11_W) : U23 m c r = U22 m c r := by
  have e := V23_of m (outs m) c r h
  rwa [V23_eq, V22_eq] at e
theorem U24_of (c : Dev nD) (r : Ref sig .tc) (h : r ∉ ([main_v65] : List (Ref sig .tc))) : U24 m c r = U23 m c r := by
  have e := V24_of m (outs m) c r h
  rwa [V24_eq, V23_eq] at e
theorem U25_of (c : Dev nD) (r : Ref sig .tc) (h : r ∉ hostOps12_W) : U25 m c r = U24 m c r := by
  have e := V25_of m (outs m) c r h
  rwa [V25_eq, V24_eq] at e
theorem U26_of (c : Dev nD) (r : Ref sig .tc) (h : r ∉ ([main_v70] : List (Ref sig .tc))) : U26 m c r = U25 m c r := by
  have e := V26_of m (outs m) c r h
  rwa [V26_eq, V25_eq] at e
theorem U27_of (c : Dev nD) (r : Ref sig .tc) (h : r ∉ hostOps13_W) : U27 m c r = U26 m c r := by
  have e := V27_of m (outs m) c r h
  rwa [V27_eq, V26_eq] at e

end Cert.KernelIdeal.Hand

end
-- ==== Proof.RunCond.lean ====
/-
  The run of the idealized kernel program's @main with the final contents of EVERY unscoped buffer named.
  The program is thirteen kernel regions separated by stretches of host operations. Between two items core c holds each
  unscoped buffer whole at a valuation V1 … V27: the launch contents, then the host operations' results, then what each
  region leaves in its output array. Given one segment record per region, entered from the valuation before it and left
  at the one after it, the launch theorem for a list of segments gives: every weakly fair execution terminates without a
  fault, and the final memory agrees with the last valuation V27 on every unscoped buffer. The frame claim reads the
  argument arrays off that fact (no item writes an argument); the value claim reads the four results off it.
-/
import proofs.«117683_j11484742549629_2_alg».proof.Proof.RegionsKI

set_option maxRecDepth 1356

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ) (outs : Outs (F := F))

set_option backward.isDefEq.respectTransparency.types false in
/-- The run of @main with every unscoped buffer NAMED at the end. Under the same hypotheses as the conditional frame
    (one segment record per region, entered from and left at the thread states `V1 … V26`), every weakly fair execution of
    @main from memory `m` with zero counters terminates, and in every final memory each unscoped buffer `b` of core `c`
    holds `V27 m outs c b`: the arguments (which no item writes) and the results alike. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 13) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 14 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE13 : ∀ c : Dev nD, E 13 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c)) :
    θ_run defs (onTc (τ := τ) (main (F := F))) ⟨m, fun _ => 0, ρ⟩ (fun r => ∀ c : Dev nD,
      ∀ b ∈ Pipeline.ucRefs τ sig, r.2.mem ((c : Thread nD τ).1, b) = V27 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12)
    (fun c Q => by
      rewrite [main_chain c, Seg.run_eq_chain,
        show (segs m outs 𝒱₀ L lv E ι pdats R0 R1 R2 R3 R4 R5 R6 R7 R8 R9 R10 R11 R12 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V27 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, sep_mono .rfl (hE13 c)⟩)
    (hinit := ?_) (QY := fun c s => ∀ b ∈ Pipeline.ucRefs τ sig, s.mem ((c : Thread nD τ).1, b) = V27 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V27 m outs c) s') $$ [Hh HSI]
    · isplitl [Hh] <;> iassumption
    icases Hr with ⟨%h, HSI⟩
    imodintro
    isplitr
    · ipureintro
      exact h
    · iexact HSI

end Cert.KernelIdeal.Hand

end
-- ==== Proof.RunMain.lean ====
/-
  The run of the kernel program's @main. The proof data of the thirteen regions form one family, each member at its region's
  entry contents; each region is a segment from the contents before it to the contents after it; the host stretches between
  them are segments by themselves. The launch theorem for a list of segments then gives: every weakly fair execution of
  @main terminates without a fault, and the final memory holds every unscoped buffer at U27 — the launch contents carried
  through all twenty-seven items. Reading the argument buffers off U27 (no item writes an argument) is the frame.
-/
import proofs.«117683_j11484742549629_2_alg».proof.Proof.RunVals
import proofs.«117683_j11484742549629_2_alg».proof.Proof.RunCond

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-- Every region's proof data, each at the contents its region is entered from: a literal case split, so that the family
    at a numeral reduces to that region's data. -/
def pdats : (p : Fin 13) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U5 m)) c
  | ⟨3, _⟩ => fun c => dat3 (atTc (U7 m)) c
  | ⟨4, _⟩ => fun c => dat4 (atTc (U9 m)) c
  | ⟨5, _⟩ => fun c => dat5 (atTc (U11 m)) c
  | ⟨6, _⟩ => fun c => dat6 (atTc (U13 m)) c
  | ⟨7, _⟩ => fun c => dat7 (atTc (U15 m)) c
  | ⟨8, _⟩ => fun c => dat8 (atTc (U17 m)) c
  | ⟨9, _⟩ => fun c => dat9 (atTc (U19 m)) c
  | ⟨10, _⟩ => fun c => dat10 (atTc (U21 m)) c
  | ⟨11, _⟩ => fun c => dat11 (atTc (U23 m)) c
  | ⟨12, _⟩ => fun c => dat12 (atTc (U25 m)) c

/-- Region 0 between U1 and U2. -/
def reg0 : RegionSeg (pcfgs (F := F)) adm (pdats m) () defs₀ Variants.none noLevels levelZero 0 :=
  linSeg0 (pdats m) (U1 m) (U2 m) (fun _ => rfl) (exitArr0 (U1 m)) (exitKeep0 (U1 m))
/-- Region 1 between U3 and U4. -/
def reg1 : RegionSeg (pcfgs (F := F)) adm (pdats m) () defs₀ Variants.none noLevels levelZero 1 :=
  linSeg1 (pdats m) (U3 m) (U4 m) (fun _ => rfl) (exitArr1 (U3 m)) (exitKeep1 (U3 m))
/-- Region 2 between U5 and U6. -/
def reg2 : RegionSeg (pcfgs (F := F)) adm (pdats m) () defs₀ Variants.none noLevels levelZero 2 :=
  linSeg2 (pdats m) (U5 m) (U6 m) (fun _ => rfl) (exitArr2 (U5 m)) (exitKeep2 (U5 m))
/-- Region 3 between U7 and U8. -/
def reg3 : RegionSeg (pcfgs (F := F)) adm (pdats m) () defs₀ Variants.none noLevels levelZero 3 :=
  attnSeg3 (pdats m) (U7 m) (U8 m) (fun _ => rfl) (attnExitArr3 (U7 m)) (attnExitKeep3 (U7 m))
/-- Region 4 between U9 and U10. -/
def reg4 : RegionSeg (pcfgs (F := F)) adm (pdats m) () defs₀ Variants.none noLevels levelZero 4 :=
  linSeg4 (pdats m) (U9 m) (U10 m) (fun _ => rfl) (exitArr4 (U9 m)) (exitKeep4 (U9 m))
/-- Region 5 between U11 and U12. -/
def reg5 : RegionSeg (pcfgs (F := F)) adm (pdats m) () defs₀ Variants.none noLevels levelZero 5 :=
  linSeg5 (pdats m) (U11 m) (U12 m) (fun _ => rfl) (exitArr5 (U11 m)) (exitKeep5 (U11 m))
/-- Region 6 between U13 and U14. -/
def reg6 : RegionSeg (pcfgs (F := F)) adm (pdats m) () defs₀ Variants.none noLevels levelZero 6 :=
  attnSeg6 (pdats m) (U13 m) (U14 m) (fun _ => rfl) (attnExitArr6 (U13 m)) (attnExitKeep6 (U13 m))
/-- Region 7 between U15 and U16. -/
def reg7 : RegionSeg (pcfgs (F := F)) adm (pdats m) () defs₀ Variants.none noLevels levelZero 7 :=
  linSeg7 (pdats m) (U15 m) (U16 m) (fun _ => rfl) (exitArr7 (U15 m)) (exitKeep7 (U15 m))
/-- Region 8 between U17 and U18. -/
def reg8 : RegionSeg (pcfgs (F := F)) adm (pdats m) () defs₀ Variants.none noLevels levelZero 8 :=
  linSeg8 (pdats m) (U17 m) (U18 m) (fun _ => rfl) (exitArr8 (U17 m)) (exitKeep8 (U17 m))
/-- Region 9 between U19 and U20. -/
def reg9 : RegionSeg (pcfgs (F := F)) adm (pdats m) () defs₀ Variants.none noLevels levelZero 9 :=
  attnSeg9 (pdats m) (U19 m) (U20 m) (fun _ => rfl) (attnExitArr9 (U19 m)) (attnExitKeep9 (U19 m))
/-- Region 10 between U21 and U22. -/
def reg10 : RegionSeg (pcfgs (F := F)) adm (pdats m) () defs₀ Variants.none noLevels levelZero 10 :=
  linSeg10 (pdats m) (U21 m) (U22 m) (fun _ => rfl) (exitArr10 (U21 m)) (exitKeep10 (U21 m))
/-- Region 11 between U23 and U24. -/
def reg11 : RegionSeg (pcfgs (F := F)) adm (pdats m) () defs₀ Variants.none noLevels levelZero 11 :=
  linSeg11 (pdats m) (U23 m) (U24 m) (fun _ => rfl) (exitArr11 (U23 m)) (exitKeep11 (U23 m))
/-- Region 12 between U25 and U26. -/
def reg12 : RegionSeg (pcfgs (F := F)) adm (pdats m) () defs₀ Variants.none noLevels levelZero 12 :=
  linSeg12 (pdats m) (U25 m) (U26 m) (fun _ => rfl) (exitArr12 (U25 m)) (exitKeep12 (U25 m))

set_option backward.isDefEq.respectTransparency.types false in
/-- THE RUN, at any float instance: from any memory with zero counters every weakly fair execution of @main terminates,
    nothing faulting, and the final memory agrees with U27 on every unscoped buffer of every core. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U27 m c b) := by
  have h := run_cond (F := F) m (Ix := Unit) (U := UR sig nD τ) (Lvl := ℕ) (EP := emb₁) (ι := ()) (𝒱₀ := Variants.none)
    (L := noLevels) (lv := levelZero) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => beside c)
    (hE0 := by
      have hcore : ∀ c : Dev nD, (iprop(unscopedSems0 c ∗ owes (c : Thread nD τ) ((0 : Dev nD → CellTallies nD τ sig Unit) c) ∅
          ∗ Pipeline.launchCred (0 : Dev nD → CellTallies nD τ sig Unit) c ∗ prngReg c (ρ c) ∗ emp) : sProp 𝕄) ⊢ beside c := fun c => by
        iintro ⟨-, Howes, -, Hreg, -⟩
        isplitl [Hreg]; · iexists _; iexact Hreg
        iexists ∅; iexact Howes
      have hall : (bigSep Finset.univ (fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ emp)) : sProp 𝕄)
          ⊢ bigSep Finset.univ (fun c : Dev nD => (beside c : sProp 𝕄)) := bigSep_mono fun c _ => hcore c
      iintro ⟨H, -⟩
      imodintro
      iapply hall
      iexact H)
    (hE13 := fun c => by iintro ⟨-, Howes⟩; iexact Howes)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)
    (R7 := reg7 m) (hpre7 := fun c => by rw [V15_eq]; exact .rfl) (hpost7 := fun c => by rw [V16_eq]; exact .rfl)
    (R8 := reg8 m) (hpre8 := fun c => by rw [V17_eq]; exact .rfl) (hpost8 := fun c => by rw [V18_eq]; exact .rfl)
    (R9 := reg9 m) (hpre9 := fun c => by rw [V19_eq]; exact .rfl) (hpost9 := fun c => by rw [V20_eq]; exact .rfl)
    (R10 := reg10 m) (hpre10 := fun c => by rw [V21_eq]; exact .rfl) (hpost10 := fun c => by rw [V22_eq]; exact .rfl)
    (R11 := reg11 m) (hpre11 := fun c => by rw [V23_eq]; exact .rfl) (hpost11 := fun c => by rw [V24_eq]; exact .rfl)
    (R12 := reg12 m) (hpre12 := fun c => by rw [V25_eq]; exact .rfl) (hpost12 := fun c => by rw [V26_eq]; exact .rfl)
  exact (θ_run defs _ _).mono (fun r h c b hb => (h c b hb).trans (congrFun (V27_eq m c) b)) h

/-- An unscoped buffer of the TensorCore is among the buffers the run accounts for. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem U27_arg0 (c : Dev nD) : U27 m c main_arg0 = m ((c : Thread nD τ).loc main_arg0) :=
  (congrFun (V27_eq m c) _).symm.trans (V27_main_arg0 m (outs m) c)
theorem U27_arg1 (c : Dev nD) : U27 m c main_arg1 = m ((c : Thread nD τ).loc main_arg1) :=
  (congrFun (V27_eq m c) _).symm.trans (V27_main_arg1 m (outs m) c)
theorem U27_arg2 (c : Dev nD) : U27 m c main_arg2 = m ((c : Thread nD τ).loc main_arg2) :=
  (congrFun (V27_eq m c) _).symm.trans (V27_main_arg2 m (outs m) c)
theorem U27_arg3 (c : Dev nD) : U27 m c main_arg3 = m ((c : Thread nD τ).loc main_arg3) :=
  (congrFun (V27_eq m c) _).symm.trans (V27_main_arg3 m (outs m) c)
theorem U27_arg4 (c : Dev nD) : U27 m c main_arg4 = m ((c : Thread nD τ).loc main_arg4) :=
  (congrFun (V27_eq m c) _).symm.trans (V27_main_arg4 m (outs m) c)
theorem U27_arg5 (c : Dev nD) : U27 m c main_arg5 = m ((c : Thread nD τ).loc main_arg5) :=
  (congrFun (V27_eq m c) _).symm.trans (V27_main_arg5 m (outs m) c)
theorem U27_arg6 (c : Dev nD) : U27 m c main_arg6 = m ((c : Thread nD τ).loc main_arg6) :=
  (congrFun (V27_eq m c) _).symm.trans (V27_main_arg6 m (outs m) c)
theorem U27_arg7 (c : Dev nD) : U27 m c main_arg7 = m ((c : Thread nD τ).loc main_arg7) :=
  (congrFun (V27_eq m c) _).symm.trans (V27_main_arg7 m (outs m) c)
theorem U27_arg8 (c : Dev nD) : U27 m c main_arg8 = m ((c : Thread nD τ).loc main_arg8) :=
  (congrFun (V27_eq m c) _).symm.trans (V27_main_arg8 m (outs m) c)
theorem U27_arg9 (c : Dev nD) : U27 m c main_arg9 = m ((c : Thread nD τ).loc main_arg9) :=
  (congrFun (V27_eq m c) _).symm.trans (V27_main_arg9 m (outs m) c)
theorem U27_arg10 (c : Dev nD) : U27 m c main_arg10 = m ((c : Thread nD τ).loc main_arg10) :=
  (congrFun (V27_eq m c) _).symm.trans (V27_main_arg10 m (outs m) c)
theorem U27_arg11 (c : Dev nD) : U27 m c main_arg11 = m ((c : Thread nD τ).loc main_arg11) :=
  (congrFun (V27_eq m c) _).symm.trans (V27_main_arg11 m (outs m) c)
theorem U27_arg12 (c : Dev nD) : U27 m c main_arg12 = m ((c : Thread nD τ).loc main_arg12) :=
  (congrFun (V27_eq m c) _).symm.trans (V27_main_arg12 m (outs m) c)
theorem U27_arg13 (c : Dev nD) : U27 m c main_arg13 = m ((c : Thread nD τ).loc main_arg13) :=
  (congrFun (V27_eq m c) _).symm.trans (V27_main_arg13 m (outs m) c)
theorem U27_arg14 (c : Dev nD) : U27 m c main_arg14 = m ((c : Thread nD τ).loc main_arg14) :=
  (congrFun (V27_eq m c) _).symm.trans (V27_main_arg14 m (outs m) c)
theorem U27_arg15 (c : Dev nD) : U27 m c main_arg15 = m ((c : Thread nD τ).loc main_arg15) :=
  (congrFun (V27_eq m c) _).symm.trans (V27_main_arg15 m (outs m) c)
theorem U27_arg16 (c : Dev nD) : U27 m c main_arg16 = m ((c : Thread nD τ).loc main_arg16) :=
  (congrFun (V27_eq m c) _).symm.trans (V27_main_arg16 m (outs m) c)
theorem U27_arg17 (c : Dev nD) : U27 m c main_arg17 = m ((c : Thread nD τ).loc main_arg17) :=
  (congrFun (V27_eq m c) _).symm.trans (V27_main_arg17 m (outs m) c)
theorem U27_arg18 (c : Dev nD) : U27 m c main_arg18 = m ((c : Thread nD τ).loc main_arg18) :=
  (congrFun (V27_eq m c) _).symm.trans (V27_main_arg18 m (outs m) c)
theorem U27_arg19 (c : Dev nD) : U27 m c main_arg19 = m ((c : Thread nD τ).loc main_arg19) :=
  (congrFun (V27_eq m c) _).symm.trans (V27_main_arg19 m (outs m) c)
theorem U27_arg20 (c : Dev nD) : U27 m c main_arg20 = m ((c : Thread nD τ).loc main_arg20) :=
  (congrFun (V27_eq m c) _).symm.trans (V27_main_arg20 m (outs m) c)
theorem U27_arg21 (c : Dev nD) : U27 m c main_arg21 = m ((c : Thread nD τ).loc main_arg21) :=
  (congrFun (V27_eq m c) _).symm.trans (V27_main_arg21 m (outs m) c)
theorem U27_arg22 (c : Dev nD) : U27 m c main_arg22 = m ((c : Thread nD τ).loc main_arg22) :=
  (congrFun (V27_eq m c) _).symm.trans (V27_main_arg22 m (outs m) c)

/-- THE FRAME, at any float instance: @main runs to the end, nothing faulting, and every argument array ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_unscoped main_arg0 (by decide))).trans (U27_arg0 m c),
     (h c _ (mem_unscoped main_arg1 (by decide))).trans (U27_arg1 m c),
     (h c _ (mem_unscoped main_arg2 (by decide))).trans (U27_arg2 m c),
     (h c _ (mem_unscoped main_arg3 (by decide))).trans (U27_arg3 m c),
     (h c _ (mem_unscoped main_arg4 (by decide))).trans (U27_arg4 m c),
     (h c _ (mem_unscoped main_arg5 (by decide))).trans (U27_arg5 m c),
     (h c _ (mem_unscoped main_arg6 (by decide))).trans (U27_arg6 m c),
     (h c _ (mem_unscoped main_arg7 (by decide))).trans (U27_arg7 m c),
     (h c _ (mem_unscoped main_arg8 (by decide))).trans (U27_arg8 m c),
     (h c _ (mem_unscoped main_arg9 (by decide))).trans (U27_arg9 m c),
     (h c _ (mem_unscoped main_arg10 (by decide))).trans (U27_arg10 m c),
     (h c _ (mem_unscoped main_arg11 (by decide))).trans (U27_arg11 m c),
     (h c _ (mem_unscoped main_arg12 (by decide))).trans (U27_arg12 m c),
     (h c _ (mem_unscoped main_arg13 (by decide))).trans (U27_arg13 m c),
     (h c _ (mem_unscoped main_arg14 (by decide))).trans (U27_arg14 m c),
     (h c _ (mem_unscoped main_arg15 (by decide))).trans (U27_arg15 m c),
     (h c _ (mem_unscoped main_arg16 (by decide))).trans (U27_arg16 m c),
     (h c _ (mem_unscoped main_arg17 (by decide))).trans (U27_arg17 m c),
     (h c _ (mem_unscoped main_arg18 (by decide))).trans (U27_arg18 m c),
     (h c _ (mem_unscoped main_arg19 (by decide))).trans (U27_arg19 m c),
     (h c _ (mem_unscoped main_arg20 (by decide))).trans (U27_arg20 m c),
     (h c _ (mem_unscoped main_arg21 (by decide))).trans (U27_arg21 m c),
     (h c _ (mem_unscoped main_arg22 (by decide))).trans (U27_arg22 m c)⟩) (run_all m ρ)

end Cert.KernelIdeal.Hand

end
-- ==== Proof.BRunBase.lean ====
/-
  Small shared definitions for the run of the kernel program's @main: a valuation read at the TensorCore's references, what
  every segment carries beside the unscoped buffers, and the trivial level assignment (no core waits on another).
-/
import proofs.«117683_j11484742549629_2_alg».proof.Proof.RegionsK
import Idealize.ShloMosaic.Lib.Pipeline.RegionsLoop

noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
variable {F : FTy → Type} [FloatOps F]

/-- A valuation read at the TensorCore's references: the form a region's proof data take their entry contents in. -/
abbrev atTc (W : Dev nD → Valuation τ sig (Elt F)) : (c : Dev nD) → (b : Ref sig .tc) → Buf (Elt F) ((c : Thread nD τ).loc b) :=
  fun c b => W c b

/-- What every segment carries beside the unscoped buffers: the core's generator register at some state, and the core
    owing nothing. -/
abbrev beside (c : Dev nD) : sProp (MT nD τ sig Unit (Elt F) ℕ (UR sig nD τ) ℕ) :=
  iprop((∃ r, prngReg c r) ∗ ∃ W, owes (c : Thread nD τ) (0 : CellTallies nD τ sig Unit) W)

/-- No core waits on another: no level is assigned anywhere. -/
abbrev noLevels : GSem nD τ sig → Finset Unit := fun _ => ∅
abbrev levelZero : GSem nD τ sig → Unit → ℕ := fun _ _ => 0

end Cert.Kernel.Hand
end
-- ==== Proof.BLinDat0.lean ====
/- Region 0 (the query projection: three activation tiles, each times its weight matrix, summed, plus the bias row, rounded to bf16): the blocks its 8 windows
   hold at a grid point, the block its body stores as a function of the 7 input blocks, and the pipeline's
   proof data at an arbitrary entry valuation. -/
import proofs.«117683_j11484742549629_2_alg».proof.Proof.Gen.Kernel.Skeleton
import proofs.«117683_j11484742549629_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The rectangles the body reads and writes: each is a whole staging buffer -/

/-- all of a 512x1024 tile (an input tile, and the result tile) -/
abbrev tileAll0 : Rect S512x1024 := Rect.unit (s := S512x1024) ![0, 0] S512x1024.size inb_S512x1024_S512x1024_0_0
/-- all of a 1024x1024 weight matrix -/
abbrev weightAll0 : Rect S1024x1024 := Rect.unit (s := S1024x1024) ![0, 0] S1024x1024.size inb_S1024x1024_S1024x1024_0_0
/-- all of the 1x1024 bias row -/
abbrev biasAll0 : Rect S1x1024 := Rect.unit (s := S1x1024) ![0, 0] S1x1024.size inb_S1x1024_S1x1024_0_0

/-- A pair of zero offsets is the constant-zero offset. -/
theorem zeroOffsets0 : (![0, 0] : Fin 2 → Nat) = fun _ => 0 := funext fun a => by fin_cases a <;> rfl

/-! ## The stored block -/

/-- The result buffer after the body, given the 7 input buffers' contents: the body's single store,
    which goes through the whole tile, with the payload evaluated at the 7 whole-buffer loads. -/
def out0 (x1 : Vec F S512x1024 .f32) (x2 : Vec F S512x1024 .f32) (x3 : Vec F S512x1024 .f32) (w1 : Vec F S1024x1024 .bf16) (w2 : Vec F S1024x1024 .bf16) (w3 : Vec F S1024x1024 .bf16) (bias : Vec F S1x1024 .f32) : Vec F S512x1024 .bf16 :=
  View.canon [⟨tileAll0, k0_pay1 (View.ld x1 tileAll0) (View.ld x2 tileAll0) (View.ld x3 tileAll0) (View.ld w1 weightAll0) (View.ld w2 weightAll0) (View.ld w3 weightAll0) (View.ld bias biasAll0)⟩]

/-- Since the store and the loads are through whole buffers, the stored block is the payload of the
    input blocks themselves. -/
theorem out0_eq_pay (x1 : Vec F S512x1024 .f32) (x2 : Vec F S512x1024 .f32) (x3 : Vec F S512x1024 .f32) (w1 : Vec F S1024x1024 .bf16) (w2 : Vec F S1024x1024 .bf16) (w3 : Vec F S1024x1024 .bf16) (bias : Vec F S1x1024 .f32) :
    out0 x1 x2 x3 w1 w2 w3 bias = k0_pay1 x1 x2 x3 w1 w2 w3 bias := by
  unfold out0
  rw [View.canon_unit_zero (S := S512x1024) zeroOffsets0 inb_S512x1024_S512x1024_0_0]
  rw [View.ld_unit_zero (S := S512x1024) zeroOffsets0 inb_S512x1024_S512x1024_0_0 x1]
  rw [View.ld_unit_zero (S := S512x1024) zeroOffsets0 inb_S512x1024_S512x1024_0_0 x2]
  rw [View.ld_unit_zero (S := S512x1024) zeroOffsets0 inb_S512x1024_S512x1024_0_0 x3]
  rw [View.ld_unit_zero (S := S1024x1024) zeroOffsets0 inb_S1024x1024_S1024x1024_0_0 w1]
  rw [View.ld_unit_zero (S := S1024x1024) zeroOffsets0 inb_S1024x1024_S1024x1024_0_0 w2]
  rw [View.ld_unit_zero (S := S1024x1024) zeroOffsets0 inb_S1024x1024_S1024x1024_0_0 w3]
  rw [View.ld_unit_zero (S := S1x1024) zeroOffsets0 inb_S1x1024_S1x1024_0_0 bias]

/-- The single store reaches every index of the tile. -/
theorem storeCovers0 (p : Vec F S512x1024 .bf16) (y : S512x1024.Idx) :
    ∃ pc ∈ ([⟨tileAll0, p⟩] : List (View.Piece (Elt F) S512x1024 .bf16)), y ∈ pc.1.set :=
  ⟨_, List.mem_singleton_self _, View.mem_set_unit_zero (S := S512x1024) zeroOffsets0 inb_S512x1024_S512x1024_0_0 y⟩

/-! ## Proof data of the pipeline -/

/-- On core `c`: every window's array is what the entry valuation says; after the body at point `t` the 7
    input buffers still hold their blocks and the result buffer holds `out0` of them; the invariant is the
    untouched rest (scoped buffers and the generator register); no debts, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0 (iblk0 V c 0 t) (iblk0 V c 1 t) (iblk0 V c 2 t) (iblk0 V c 3 t) (iblk0 V c 4 t) (iblk0 V c 5 t) (iblk0 V c 6 t) := by dsimp only [dat0]

/-- The same, with the stored block spelt as the payload of the input blocks. -/
theorem after0_7_pay (c : Dev nD) (t : Fin cfg0.N) :
    (dat0 V c).after 7 t = k0_pay1 (iblk0 V c 0 t) (iblk0 V c 1 t) (iblk0 V c 2 t) (iblk0 V c 3 t) (iblk0 V c 4 t) (iblk0 V c 5 t) (iblk0 V c 6 t) := by
  rw [after0_7, out0_eq_pay]

/-! ## What an input's staging buffer holds when the body starts

A tile's buffer is fetched at every point; a weight matrix and the bias row are fetched once and their index
never moves. Either way the buffer holds the window's block of the entry array. -/

/-- the first activation tile -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- the second activation tile -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- the third activation tile -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- the first weight matrix -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- the second weight matrix -/
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-- the third weight matrix -/
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-- the bias row -/
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

end Cert.Kernel.Hand
-- ==== Proof.BLinBody0.lean ====
/- Region 0 (the query projection: three activation tiles, each times its weight matrix, summed, plus the bias row, rounded to bf16): the kernel body run on whole
   staging buffers, and from it the obligation the pipeline asks of the body at every grid point. -/
import proofs.«117683_j11484742549629_2_alg».proof.Proof.BLinDat0
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the eight windows, written out. -/
theorem eightWindows0 {M : Type} [URA M] (P : Fin 8 → sProp M) :
    bigSep Finset.univ P = iprop(P 0 ∗ P 1 ∗ P 2 ∗ P 3 ∗ P 4 ∗ P 5 ∗ P 6 ∗ P 7) :=
  bigSep_univ_eq_bigSepL [(0 : Fin 8), 1, 2, 3, 4, 5, 6, 7] (by decide) (by decide) P

variable (V : (c : Dev nD) → (b : Ref sig .tc) → Buf (Elt F) ((c : Thread nD τ).loc b))

/-! ## The body on whole buffers -/

set_option maxHeartbeats 1000000 in
/-- Given the 7 inputs in whole buffers, and one more whole buffer holding anything, the body ends with the
    inputs unchanged and the last buffer holding `out0` of them. It loads every buffer whole and stores once,
    through the whole tile. -/
theorem sound_kernel0 (c : Dev nD) (E : Set ℕ) (i : grid0.Coords)
    (m_x1 : Memref sig .tc .vmem S512x1024 .f32) (h_x1 : m_x1.IsWhole)
    (m_x2 : Memref sig .tc .vmem S512x1024 .f32) (h_x2 : m_x2.IsWhole)
    (m_x3 : Memref sig .tc .vmem S512x1024 .f32) (h_x3 : m_x3.IsWhole)
    (m_w1 : Memref sig .tc .vmem S1024x1024 .bf16) (h_w1 : m_w1.IsWhole)
    (m_w2 : Memref sig .tc .vmem S1024x1024 .bf16) (h_w2 : m_w2.IsWhole)
    (m_w3 : Memref sig .tc .vmem S1024x1024 .bf16) (h_w3 : m_w3.IsWhole)
    (m_bias : Memref sig .tc .vmem S1x1024 .f32) (h_bias : m_bias.IsWhole)
    (m_res : Memref sig .tc .vmem S512x1024 .bf16) (h_res : m_res.IsWhole)
    (x1 : Vec F S512x1024 .f32) (x2 : Vec F S512x1024 .f32) (x3 : Vec F S512x1024 .f32) (w1 : Vec F S1024x1024 .bf16) (w2 : Vec F S1024x1024 .bf16) (w3 : Vec F S1024x1024 .bf16) (bias : Vec F S1x1024 .f32) (K : PUnit → sProp 𝕄) :
    iprop(owns (c : Thread nD τ) m_x1 fullShare x1
        ∗ owns (c : Thread nD τ) m_x2 fullShare x2
        ∗ owns (c : Thread nD τ) m_x3 fullShare x3
        ∗ owns (c : Thread nD τ) m_w1 fullShare w1
        ∗ owns (c : Thread nD τ) m_w2 fullShare w2
        ∗ owns (c : Thread nD τ) m_w3 fullShare w3
        ∗ owns (c : Thread nD τ) m_bias fullShare bias
        ∗ (∃ d, owns (c : Thread nD τ) m_res fullShare d)
        ∗ (iprop(owns (c : Thread nD τ) m_x1 fullShare x1
            ∗ owns (c : Thread nD τ) m_x2 fullShare x2
            ∗ owns (c : Thread nD τ) m_x3 fullShare x3
            ∗ owns (c : Thread nD τ) m_w1 fullShare w1
            ∗ owns (c : Thread nD τ) m_w2 fullShare w2
            ∗ owns (c : Thread nD τ) m_w3 fullShare w3
            ∗ owns (c : Thread nD τ) m_bias fullShare bias
            ∗ owns (c : Thread nD τ) m_res fullShare (out0 x1 x2 x3 w1 w2 w3 bias)) -∗ K ⟨⟩))
      ⊢ wp frame (wpE (defs₀ (F := F)) Variants.none c none) E (cc0__qproj_kernel i m_x1 h_x1 m_x2 h_x2 m_x3 h_x3 m_w1 h_w1 m_w2 h_w2 m_w3 h_w3 m_bias h_bias m_res h_res) K := by
  rw [cc0__qproj_kernel_eq_skeleton]; unfold cc0__qproj_kernel_skel
  unfold owns
  iintro ⟨⟨%f_x1, %e_x1, P_x1⟩, ⟨%f_x2, %e_x2, P_x2⟩, ⟨%f_x3, %e_x3, P_x3⟩, ⟨%f_w1, %e_w1, P_w1⟩, ⟨%f_w2, %e_w2, P_w2⟩, ⟨%f_w3, %e_w3, P_w3⟩, ⟨%f_bias, %e_bias, P_bias⟩, ⟨%d, %f_res, -, P_res⟩, Hcont⟩
  subst e_x1; subst e_x2; subst e_x3; subst e_w1; subst e_w2; subst e_w3; subst e_bias
  sl_exec
  sl_step
  iapply Hcont
  isplitl [P_x1]
  · iexists f_x1; isplitr
    · ipureintro; rfl
    · iexact P_x1
  isplitl [P_x2]
  · iexists f_x2; isplitr
    · ipureintro; rfl
    · iexact P_x2
  isplitl [P_x3]
  · iexists f_x3; isplitr
    · ipureintro; rfl
    · iexact P_x3
  isplitl [P_w1]
  · iexists f_w1; isplitr
    · ipureintro; rfl
    · iexact P_w1
  isplitl [P_w2]
  · iexists f_w2; isplitr
    · ipureintro; rfl
    · iexact P_w2
  isplitl [P_w3]
  · iexists f_w3; isplitr
    · ipureintro; rfl
    · iexact P_w3
  isplitl [P_bias]
  · iexists f_bias; isplitr
    · ipureintro; rfl
    · iexact P_bias
  iexists _; isplitr
  swap
  · iexact P_res
  ipureintro
  exact View.read_writes_eq_canon _ _ _ (storeCovers0 _)

/-! ## The obligation at a grid point -/

/-- What the pipeline hands the body at point `t`: the invariant, the core's debts, and the eight staging buffers. -/
def bodyGiven0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it must hand back. -/
def bodyOwed0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- At every point the input buffers hold their blocks, so the run on whole buffers applies; the invariant and
    the debts are not touched by the body. -/
theorem sound_body0 (c : Dev nD) (t : Fin cfg0.N) :
    bodyGiven0 V c t ⊢ wp frame (wpE (defs₀ (F := F)) Variants.none c none) Set.univ (bodyAt0 t) (fun _ => bodyOwed0 V c t) := by
  unfold bodyGiven0 bodyOwed0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨Hinv, Hdebt, ⟨%d0, B0⟩, ⟨%d1, B1⟩, ⟨%d2, B2⟩, ⟨%d3, B3⟩, ⟨%d4, B4⟩, ⟨%d5, B5⟩, ⟨%d6, B6⟩, ⟨%d7, B7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexists _; iexact B7
  iintro ⟨B0, B1, B2, B3, B4, B5, B6, B7⟩
  isplitl [Hinv]; · iexact Hinv
  isplitl [Hdebt]; · iexact Hdebt
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

/-- The pipeline's obligation on the body, at every grid point. -/
theorem body_obligation0 (c : Dev nD) :
    BodyObligation (dat0 (F := F) V c) (defs₀ (F := F)) Variants.none () Set.univ := fun t => by
  rw [eightWindows0, eightWindows0]
  exact sound_body0 V c t

end Cert.Kernel.Hand
-- ==== Proof.BRunSeg0.lean ====
/-
  Region 0 of the kernel program's @main as a segment of the run. The region reads its input windows' arrays and writes one
  array, main_v10: so the contents after it are the contents before it with that buffer replaced by the fold of the grid
  points' write-backs, every input window's array being what it was (a window that is never written back keeps its array).
-/
import proofs.«117683_j11484742549629_2_alg».proof.Proof.BRunBase
import proofs.«117683_j11484742549629_2_alg».proof.Proof.BLinBody0

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What region 0 leaves in main_v10, from entry contents Wi. -/
def outArr0 (Wi : Dev nD → Valuation τ sig (Elt F)) (c : Dev nD) : Buf (Elt F) ((c : Thread nD τ).loc main_v10) :=
  (dat0 (atTc Wi) c).arrAt 7 cfg0.N
/-- The contents after region 0. -/
abbrev after0 (Wi : Dev nD → Valuation τ sig (Elt F)) (c : Dev nD) : Valuation τ sig (Elt F) :=
  Function.update (Wi c) main_v10 (outArr0 Wi c)

/-- Each window's array after the last grid point is the exit contents at that window's buffer. -/
theorem exitArr0 (Wi : Dev nD → Valuation τ sig (Elt F)) (c : Dev nD) (w : Fin cfg0.W) :
    (dat0 (atTc Wi) c).arrAt w cfg0.N = atTc (after0 Wi) c (Pipeline.arrRef spec0 w) := by
  match w with
  | ⟨0, _⟩ => exact ((dat0 (atTc Wi) c).arrAt_in ⟨0, by decide⟩ rfl _).trans (Function.update_of_ne (StableHlo.devRef_ne_of_ne (by decide)) _ _).symm
  | ⟨1, _⟩ => exact ((dat0 (atTc Wi) c).arrAt_in ⟨1, by decide⟩ rfl _).trans (Function.update_of_ne (StableHlo.devRef_ne_of_ne (by decide)) _ _).symm
  | ⟨2, _⟩ => exact ((dat0 (atTc Wi) c).arrAt_in ⟨2, by decide⟩ rfl _).trans (Function.update_of_ne (StableHlo.devRef_ne_of_ne (by decide)) _ _).symm
  | ⟨3, _⟩ => exact ((dat0 (atTc Wi) c).arrAt_in ⟨3, by decide⟩ rfl _).trans (Function.update_of_ne (StableHlo.devRef_ne_of_ne (by decide)) _ _).symm
  | ⟨4, _⟩ => exact ((dat0 (atTc Wi) c).arrAt_in ⟨4, by decide⟩ rfl _).trans (Function.update_of_ne (StableHlo.devRef_ne_of_ne (by decide)) _ _).symm
  | ⟨5, _⟩ => exact ((dat0 (atTc Wi) c).arrAt_in ⟨5, by decide⟩ rfl _).trans (Function.update_of_ne (StableHlo.devRef_ne_of_ne (by decide)) _ _).symm
  | ⟨6, _⟩ => exact ((dat0 (atTc Wi) c).arrAt_in ⟨6, by decide⟩ rfl _).trans (Function.update_of_ne (StableHlo.devRef_ne_of_ne (by decide)) _ _).symm
  | ⟨7, _⟩ => exact (Function.update_self (Proc.devRef .tc main_v10 : DevRef τ sig) (outArr0 Wi c) (Wi c)).symm

/-- Every buffer that is no window's array is as at entry. -/
theorem exitKeep0 (Wi : Dev nD → Valuation τ sig (Elt F)) (c : Dev nD) :
    ∀ b, b ∉ Finset.univ.image (Pipeline.arrRef spec0) → atTc (after0 Wi) c b = atTc Wi c b := by
  intro b hb
  have hne : b ≠ main_v10 := fun e => hb (Finset.mem_image.mpr ⟨7, Finset.mem_univ _, e.symm ▸ rfl⟩)
  exact Function.update_of_ne (StableHlo.devRef_ne_of_ne hne) _ _

set_option backward.isDefEq.respectTransparency.types false in
/-- Region 0 as a segment between two valuations Wi (entry) and Wo (exit) of the unscoped buffers, for any family of proof
    data whose entry at region 0 is this region's. The region's arrays are split out of the unscoped buffers at entry and put
    back at exit, where each window's array is Wo at that window's buffer (hArr) and every other buffer is as at entry (hKeep);
    the generator register goes into the class invariant and comes back; the kernel has no semaphore of its own and owes nothing. -/
def linSeg0 (pdats : (p : Fin 13) → (c : Dev nD) → Dat τ (Elt F) Unit ℕ (UR sig nD τ) ℕ (cfgs p) c)
    (Wi Wo : Dev nD → Valuation τ sig (Elt F))
    (hp : ∀ c, pdats 0 c = dat0 (atTc Wi) c)
    (hArr : ∀ c (w : Fin cfg0.W), (dat0 (atTc Wi) c).arrAt w cfg0.N = atTc Wo c (Pipeline.arrRef spec0 w))
    (hKeep : ∀ c, ∀ b, b ∉ Finset.univ.image (Pipeline.arrRef spec0) → atTc Wo c b = atTc Wi c b) :
    RegionSeg (pcfgs (F := F)) adm pdats () defs₀ Variants.none noLevels levelZero 0 where
  win := launch0.win.to₀
  block_pos := launch0.block_pos
  stage_whole := launch0.stage_whole
  K := PEmpty
  osem k := k.elim
  ho := Pipeline.OwnSemFacts.none _
  hbody c := by rw [hp c]; exact (body_obligation0 (atTc Wi) c).loose
  hwaits := Pipeline.hwaits_of_owed_zero _ _ _ _ noLevels levelZero 0 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec0 c (atTc Wi c)
  hentry c := by
    rw [Pipeline.ownSems0_none]
    have hsplit := Pipeline.arrays_of_unscopedBufs (p := 0) (pcfgs (F := F)) adm pdats launch0.win launch0.arr_whole c
      ((pdats 0 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec0 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec0 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full fun _ => by rw [hp c]; rfl)
      (atTc Wi c) (atTc Wo c) ((pdats 0 c).arrAt · cfg0.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BLinDat1.lean ====
/- Region 1 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.Kernel.Skeleton
import proofs.«117683_j11484742549629_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The rectangles the body reads and writes: each is a whole staging buffer -/

/-- all of a 512x1024 tile (the activation tile, and the result tile) -/
abbrev tileAll1 : Rect S512x1024 := Rect.unit (s := S512x1024) ![0, 0] S512x1024.size inb_S512x1024_S512x1024_0_0
/-- all of the 1024x1024 weight matrix -/
abbrev weightAll1 : Rect S1024x1024 := Rect.unit (s := S1024x1024) ![0, 0] S1024x1024.size inb_S1024x1024_S1024x1024_0_0
/-- all of the 1x1024 bias row -/
abbrev biasAll1 : Rect S1x1024 := Rect.unit (s := S1x1024) ![0, 0] S1x1024.size inb_S1x1024_S1x1024_0_0

/-- A pair of zero offsets is the constant-zero offset. -/
theorem zeroOffsets1 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out1 (x : Vec F S512x1024 .f32) (wt : Vec F S1024x1024 .bf16) (bias : Vec F S1x1024 .f32) : Vec F S512x1024 .bf16 :=
  View.canon [⟨tileAll1, k1_pay1 (View.ld x tileAll1) (View.ld wt weightAll1) (View.ld bias biasAll1)⟩]

/-- Since the store and the loads are through whole buffers, the stored block is the payload of the
    input blocks themselves. -/
theorem out1_eq_pay (x : Vec F S512x1024 .f32) (wt : Vec F S1024x1024 .bf16) (bias : Vec F S1x1024 .f32) :
    out1 x wt bias = k1_pay1 x wt bias := by
  unfold out1
  rw [View.canon_unit_zero (S := S512x1024) zeroOffsets1 inb_S512x1024_S512x1024_0_0,
    View.ld_unit_zero (S := S512x1024) zeroOffsets1 inb_S512x1024_S512x1024_0_0,
    View.ld_unit_zero (S := S1024x1024) zeroOffsets1 inb_S1024x1024_S1024x1024_0_0,
    View.ld_unit_zero (S := S1x1024) zeroOffsets1 inb_S1x1024_S1x1024_0_0]

/-- The single store reaches every index of the tile. -/
theorem storeCovers1 (p : Vec F S512x1024 .bf16) (y : S512x1024.Idx) :
    ∃ pc ∈ ([⟨tileAll1, p⟩] : List (View.Piece (Elt F) S512x1024 .bf16)), y ∈ pc.1.set :=
  ⟨_, List.mem_singleton_self _, View.mem_set_unit_zero (S := S512x1024) zeroOffsets1 inb_S512x1024_S512x1024_0_0 y⟩

/-! ## Proof data of the pipeline -/

/-- On core `c`: every window's array is what the entry valuation says; after the body at point `t` the three
    input buffers still hold their blocks and the result buffer holds `out1` of them; the invariant is the
    untouched rest (scoped buffers and the generator register); no debts, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

/-- The same, with the stored block spelt as the payload of the input blocks. -/
theorem after1_3_pay (c : Dev nD) (t : Fin cfg1.N) :
    (dat1 V c).after 3 t = k1_pay1 (iblk1 V c 0 t) (iblk1 V c 1 t) (iblk1 V c 2 t) := by
  rw [after1_3, out1_eq_pay]

/-! ## What an input's staging buffer holds when the body starts -/

/-- The activation tile's buffer holds the tile's block at every point (it is fetched at every point). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The weight matrix's buffer holds the matrix at every point: fetched once, and its index never moves. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Likewise the bias row's buffer. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

end Cert.Kernel.Hand
-- ==== Proof.BLinBody1.lean ====
/- Region 1 (a key/value projection): the kernel body run on whole staging buffers, and from it the
   obligation the pipeline asks of the body at every grid point. -/
import proofs.«117683_j11484742549629_2_alg».proof.Proof.BLinDat1
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows1 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out1` of them. It loads the four buffers whole and stores once, through the whole tile. -/
theorem sound_kernel1 (c : Dev nD) (E : Set ℕ) (i : grid1.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out1 x wt bias)) -∗ K ⟨⟩))
      ⊢ wp frame (wpE (defs₀ (F := F)) Variants.none c none) E (cc1__kv_kernel i mx hmx mw hmw mb hmb mo hmo) K := by
  rw [cc1__kv_kernel_eq_skeleton]; unfold cc1__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers1 _)

/-! ## The obligation at a grid point -/

/-- What the pipeline hands the body at point `t`: the invariant, the core's debts, and the four staging buffers. -/
def bodyGiven1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it must hand back. -/
def bodyOwed1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At every point the three input buffers hold their blocks, so the run on whole buffers applies; the
    invariant and the debts are not touched by the body. -/
theorem sound_body1 (c : Dev nD) (t : Fin cfg1.N) :
    bodyGiven1 V c t ⊢ wp frame (wpE (defs₀ (F := F)) Variants.none c none) Set.univ (bodyAt1 t) (fun _ => bodyOwed1 V c t) := by
  unfold bodyGiven1 bodyOwed1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨Hinv, Hdebt, ⟨%d0, B0⟩, ⟨%d1, B1⟩, ⟨%d2, B2⟩, ⟨%d3, B3⟩⟩
  iapply (sound_kernel1 c Set.univ _ _ _ _ _ _ _ _ _ (iblk1 V c 0 t) (iblk1 V c 1 t) (iblk1 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation1 (c : Dev nD) :
    BodyObligation (dat1 (F := F) V c) (defs₀ (F := F)) Variants.none () Set.univ := fun t => by
  rw [fourWindows1, fourWindows1]
  exact sound_body1 V c t

end Cert.Kernel.Hand
-- ==== Proof.BRunSeg1.lean ====
/-
  Region 1 of the kernel program's @main as a segment of the run. The region reads its input windows' arrays and writes one
  array, main_v15: so the contents after it are the contents before it with that buffer replaced by the fold of the grid
  points' write-backs, every input window's array being what it was (a window that is never written back keeps its array).
-/
import proofs.«117683_j11484742549629_2_alg».proof.Proof.BRunBase
import proofs.«117683_j11484742549629_2_alg».proof.Proof.BLinBody1

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What region 1 leaves in main_v15, from entry contents Wi. -/
def outArr1 (Wi : Dev nD → Valuation τ sig (Elt F)) (c : Dev nD) : Buf (Elt F) ((c : Thread nD τ).loc main_v15) :=
  (dat1 (atTc Wi) c).arrAt 3 cfg1.N
/-- The contents after region 1. -/
abbrev after1 (Wi : Dev nD → Valuation τ sig (Elt F)) (c : Dev nD) : Valuation τ sig (Elt F) :=
  Function.update (Wi c) main_v15 (outArr1 Wi c)

/-- Each window's array after the last grid point is the exit contents at that window's buffer. -/
theorem exitArr1 (Wi : Dev nD → Valuation τ sig (Elt F)) (c : Dev nD) (w : Fin cfg1.W) :
    (dat1 (atTc Wi) c).arrAt w cfg1.N = atTc (after1 Wi) c (Pipeline.arrRef spec1 w) := by
  match w with
  | ⟨0, _⟩ => exact ((dat1 (atTc Wi) c).arrAt_in ⟨0, by decide⟩ rfl _).trans (Function.update_of_ne (StableHlo.devRef_ne_of_ne (by decide)) _ _).symm
  | ⟨1, _⟩ => exact ((dat1 (atTc Wi) c).arrAt_in ⟨1, by decide⟩ rfl _).trans (Function.update_of_ne (StableHlo.devRef_ne_of_ne (by decide)) _ _).symm
  | ⟨2, _⟩ => exact ((dat1 (atTc Wi) c).arrAt_in ⟨2, by decide⟩ rfl _).trans (Function.update_of_ne (StableHlo.devRef_ne_of_ne (by decide)) _ _).symm
  | ⟨3, _⟩ => exact (Function.update_self (Proc.devRef .tc main_v15 : DevRef τ sig) (outArr1 Wi c) (Wi c)).symm

/-- Every buffer that is no window's array is as at entry. -/
theorem exitKeep1 (Wi : Dev nD → Valuation τ sig (Elt F)) (c : Dev nD) :
    ∀ b, b ∉ Finset.univ.image (Pipeline.arrRef spec1) → atTc (after1 Wi) c b = atTc Wi c b := by
  intro b hb
  have hne : b ≠ main_v15 := fun e => hb (Finset.mem_image.mpr ⟨3, Finset.mem_univ _, e.symm ▸ rfl⟩)
  exact Function.update_of_ne (StableHlo.devRef_ne_of_ne hne) _ _

set_option backward.isDefEq.respectTransparency.types false in
/-- Region 1 as a segment between two valuations Wi (entry) and Wo (exit) of the unscoped buffers, for any family of proof
    data whose entry at region 1 is this region's. The region's arrays are split out of the unscoped buffers at entry and put
    back at exit, where each window's array is Wo at that window's buffer (hArr) and every other buffer is as at entry (hKeep);
    the generator register goes into the class invariant and comes back; the kernel has no semaphore of its own and owes nothing. -/
def linSeg1 (pdats : (p : Fin 13) → (c : Dev nD) → Dat τ (Elt F) Unit ℕ (UR sig nD τ) ℕ (cfgs p) c)
    (Wi Wo : Dev nD → Valuation τ sig (Elt F))
    (hp : ∀ c, pdats 1 c = dat1 (atTc Wi) c)
    (hArr : ∀ c (w : Fin cfg1.W), (dat1 (atTc Wi) c).arrAt w cfg1.N = atTc Wo c (Pipeline.arrRef spec1 w))
    (hKeep : ∀ c, ∀ b, b ∉ Finset.univ.image (Pipeline.arrRef spec1) → atTc Wo c b = atTc Wi c b) :
    RegionSeg (pcfgs (F := F)) adm pdats () defs₀ Variants.none noLevels levelZero 1 where
  win := launch1.win.to₀
  block_pos := launch1.block_pos
  stage_whole := launch1.stage_whole
  K := PEmpty
  osem k := k.elim
  ho := Pipeline.OwnSemFacts.none _
  hbody c := by rw [hp c]; exact (body_obligation1 (atTc Wi) c).loose
  hwaits := Pipeline.hwaits_of_owed_zero _ _ _ _ noLevels levelZero 1 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec1 c (atTc Wi c)
  hentry c := by
    rw [Pipeline.ownSems0_none]
    have hsplit := Pipeline.arrays_of_unscopedBufs (p := 1) (pcfgs (F := F)) adm pdats launch1.win launch1.arr_whole c
      ((pdats 1 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec1 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec1 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full fun _ => by rw [hp c]; rfl)
      (atTc Wi c) (atTc Wo c) ((pdats 1 c).arrAt · cfg1.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BLinDat2.lean ====
/- Region 2 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.Kernel.Skeleton
import proofs.«117683_j11484742549629_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## The rectangles the body reads and writes: each is a whole staging buffer -/

/-- all of a 512x1024 tile (the activation tile, and the result tile) -/
abbrev tileAll2 : Rect S512x1024 := Rect.unit (s := S512x1024) ![0, 0] S512x1024.size inb_S512x1024_S512x1024_0_0
/-- all of the 1024x1024 weight matrix -/
abbrev weightAll2 : Rect S1024x1024 := Rect.unit (s := S1024x1024) ![0, 0] S1024x1024.size inb_S1024x1024_S1024x1024_0_0
/-- all of the 1x1024 bias row -/
abbrev biasAll2 : Rect S1x1024 := Rect.unit (s := S1x1024) ![0, 0] S1x1024.size inb_S1x1024_S1x1024_0_0

/-- A pair of zero offsets is the constant-zero offset. -/
theorem zeroOffsets2 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out2 (x : Vec F S512x1024 .f32) (wt : Vec F S1024x1024 .bf16) (bias : Vec F S1x1024 .f32) : Vec F S512x1024 .bf16 :=
  View.canon [⟨tileAll2, k2_pay1 (View.ld x tileAll2) (View.ld wt weightAll2) (View.ld bias biasAll2)⟩]

/-- Since the store and the loads are through whole buffers, the stored block is the payload of the
    input blocks themselves. -/
theorem out2_eq_pay (x : Vec F S512x1024 .f32) (wt : Vec F S1024x1024 .bf16) (bias : Vec F S1x1024 .f32) :
    out2 x wt bias = k2_pay1 x wt bias := by
  unfold out2
  rw [View.canon_unit_zero (S := S512x1024) zeroOffsets2 inb_S512x1024_S512x1024_0_0,
    View.ld_unit_zero (S := S512x1024) zeroOffsets2 inb_S512x1024_S512x1024_0_0,
    View.ld_unit_zero (S := S1024x1024) zeroOffsets2 inb_S1024x1024_S1024x1024_0_0,
    View.ld_unit_zero (S := S1x1024) zeroOffsets2 inb_S1x1024_S1x1024_0_0]

/-- The single store reaches every index of the tile. -/
theorem storeCovers2 (p : Vec F S512x1024 .bf16) (y : S512x1024.Idx) :
    ∃ pc ∈ ([⟨tileAll2, p⟩] : List (View.Piece (Elt F) S512x1024 .bf16)), y ∈ pc.1.set :=
  ⟨_, List.mem_singleton_self _, View.mem_set_unit_zero (S := S512x1024) zeroOffsets2 inb_S512x1024_S512x1024_0_0 y⟩

/-! ## Proof data of the pipeline -/

/-- On core `c`: every window's array is what the entry valuation says; after the body at point `t` the three
    input buffers still hold their blocks and the result buffer holds `out2` of them; the invariant is the
    untouched rest (scoped buffers and the generator register); no debts, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

/-- The same, with the stored block spelt as the payload of the input blocks. -/
theorem after2_3_pay (c : Dev nD) (t : Fin cfg2.N) :
    (dat2 V c).after 3 t = k2_pay1 (iblk2 V c 0 t) (iblk2 V c 1 t) (iblk2 V c 2 t) := by
  rw [after2_3, out2_eq_pay]

/-! ## What an input's staging buffer holds when the body starts -/

/-- The activation tile's buffer holds the tile's block at every point (it is fetched at every point). -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The weight matrix's buffer holds the matrix at every point: fetched once, and its index never moves. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Likewise the bias row's buffer. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

end Cert.Kernel.Hand
-- ==== Proof.BLinBody2.lean ====
/- Region 2 (a key/value projection): the kernel body run on whole staging buffers, and from it the
   obligation the pipeline asks of the body at every grid point. -/
import proofs.«117683_j11484742549629_2_alg».proof.Proof.BLinDat2
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows2 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out2` of them. It loads the four buffers whole and stores once, through the whole tile. -/
theorem sound_kernel2 (c : Dev nD) (E : Set ℕ) (i : grid2.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out2 x wt bias)) -∗ K ⟨⟩))
      ⊢ wp frame (wpE (defs₀ (F := F)) Variants.none c none) E (cc2__kv_kernel i mx hmx mw hmw mb hmb mo hmo) K := by
  rw [cc2__kv_kernel_eq_skeleton]; unfold cc2__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers2 _)

/-! ## The obligation at a grid point -/

/-- What the pipeline hands the body at point `t`: the invariant, the core's debts, and the four staging buffers. -/
def bodyGiven2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it must hand back. -/
def bodyOwed2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At every point the three input buffers hold their blocks, so the run on whole buffers applies; the
    invariant and the debts are not touched by the body. -/
theorem sound_body2 (c : Dev nD) (t : Fin cfg2.N) :
    bodyGiven2 V c t ⊢ wp frame (wpE (defs₀ (F := F)) Variants.none c none) Set.univ (bodyAt2 t) (fun _ => bodyOwed2 V c t) := by
  unfold bodyGiven2 bodyOwed2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨Hinv, Hdebt, ⟨%d0, B0⟩, ⟨%d1, B1⟩, ⟨%d2, B2⟩, ⟨%d3, B3⟩⟩
  iapply (sound_kernel2 c Set.univ _ _ _ _ _ _ _ _ _ (iblk2 V c 0 t) (iblk2 V c 1 t) (iblk2 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation2 (c : Dev nD) :
    BodyObligation (dat2 (F := F) V c) (defs₀ (F := F)) Variants.none () Set.univ := fun t => by
  rw [fourWindows2, fourWindows2]
  exact sound_body2 V c t

end Cert.Kernel.Hand
-- ==== Proof.BRunSeg2.lean ====
/-
  Region 2 of the kernel program's @main as a segment of the run. The region reads its input windows' arrays and writes one
  array, main_v20: so the contents after it are the contents before it with that buffer replaced by the fold of the grid
  points' write-backs, every input window's array being what it was (a window that is never written back keeps its array).
-/
import proofs.«117683_j11484742549629_2_alg».proof.Proof.BRunBase
import proofs.«117683_j11484742549629_2_alg».proof.Proof.BLinBody2

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What region 2 leaves in main_v20, from entry contents Wi. -/
def outArr2 (Wi : Dev nD → Valuation τ sig (Elt F)) (c : Dev nD) : Buf (Elt F) ((c : Thread nD τ).loc main_v20) :=
  (dat2 (atTc Wi) c).arrAt 3 cfg2.N
/-- The contents after region 2. -/
abbrev after2 (Wi : Dev nD → Valuation τ sig (Elt F)) (c : Dev nD) : Valuation τ sig (Elt F) :=
  Function.update (Wi c) main_v20 (outArr2 Wi c)

/-- Each window's array after the last grid point is the exit contents at that window's buffer. -/
theorem exitArr2 (Wi : Dev nD → Valuation τ sig (Elt F)) (c : Dev nD) (w : Fin cfg2.W) :
    (dat2 (atTc Wi) c).arrAt w cfg2.N = atTc (after2 Wi) c (Pipeline.arrRef spec2 w) := by
  match w with
  | ⟨0, _⟩ => exact ((dat2 (atTc Wi) c).arrAt_in ⟨0, by decide⟩ rfl _).trans (Function.update_of_ne (StableHlo.devRef_ne_of_ne (by decide)) _ _).symm
  | ⟨1, _⟩ => exact ((dat2 (atTc Wi) c).arrAt_in ⟨1, by decide⟩ rfl _).trans (Function.update_of_ne (StableHlo.devRef_ne_of_ne (by decide)) _ _).symm
  | ⟨2, _⟩ => exact ((dat2 (atTc Wi) c).arrAt_in ⟨2, by decide⟩ rfl _).trans (Function.update_of_ne (StableHlo.devRef_ne_of_ne (by decide)) _ _).symm
  | ⟨3, _⟩ => exact (Function.update_self (Proc.devRef .tc main_v20 : DevRef τ sig) (outArr2 Wi c) (Wi c)).symm

/-- Every buffer that is no window's array is as at entry. -/
theorem exitKeep2 (Wi : Dev nD → Valuation τ sig (Elt F)) (c : Dev nD) :
    ∀ b, b ∉ Finset.univ.image (Pipeline.arrRef spec2) → atTc (after2 Wi) c b = atTc Wi c b := by
  intro b hb
  have hne : b ≠ main_v20 := fun e => hb (Finset.mem_image.mpr ⟨3, Finset.mem_univ _, e.symm ▸ rfl⟩)
  exact Function.update_of_ne (StableHlo.devRef_ne_of_ne hne) _ _

set_option backward.isDefEq.respectTransparency.types false in
/-- Region 2 as a segment between two valuations Wi (entry) and Wo (exit) of the unscoped buffers, for any family of proof
    data whose entry at region 2 is this region's. The region's arrays are split out of the unscoped buffers at entry and put
    back at exit, where each window's array is Wo at that window's buffer (hArr) and every other buffer is as at entry (hKeep);
    the generator register goes into the class invariant and comes back; the kernel has no semaphore of its own and owes nothing. -/
def linSeg2 (pdats : (p : Fin 13) → (c : Dev nD) → Dat τ (Elt F) Unit ℕ (UR sig nD τ) ℕ (cfgs p) c)
    (Wi Wo : Dev nD → Valuation τ sig (Elt F))
    (hp : ∀ c, pdats 2 c = dat2 (atTc Wi) c)
    (hArr : ∀ c (w : Fin cfg2.W), (dat2 (atTc Wi) c).arrAt w cfg2.N = atTc Wo c (Pipeline.arrRef spec2 w))
    (hKeep : ∀ c, ∀ b, b ∉ Finset.univ.image (Pipeline.arrRef spec2) → atTc Wo c b = atTc Wi c b) :
    RegionSeg (pcfgs (F := F)) adm pdats () defs₀ Variants.none noLevels levelZero 2 where
  win := launch2.win.to₀
  block_pos := launch2.block_pos
  stage_whole := launch2.stage_whole
  K := PEmpty
  osem k := k.elim
  ho := Pipeline.OwnSemFacts.none _
  hbody c := by rw [hp c]; exact (body_obligation2 (atTc Wi) c).loose
  hwaits := Pipeline.hwaits_of_owed_zero _ _ _ _ noLevels levelZero 2 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec2 c (atTc Wi c)
  hentry c := by
    rw [Pipeline.ownSems0_none]
    have hsplit := Pipeline.arrays_of_unscopedBufs (p := 2) (pcfgs (F := F)) adm pdats launch2.win launch2.arr_whole c
      ((pdats 2 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec2 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec2 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full fun _ => by rw [hp c]; rfl)
      (atTc Wi c) (atTc Wo c) ((pdats 2 c).arrAt · cfg2.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BAttnDat.lean ====
/-
  The attention launch of branch 1 (the fourth pallas_call: grid batch x query tile x key tile = 4 x 4 x 4, the key
  tile innermost): what its four carried buffers — running maximum, running denominator, running numerator, scaled
  queries — hold after every grid point, by recursion on the point, in terms of the body's store payloads; what the
  output block holds where it is stored; and the proof data of the launch built from them.

  At a point whose key tile is the first the body resets the four buffers (maximum to a large negative constant,
  denominator and numerator to zero, scaled queries to the query block times 1/32) before the update; at every point
  it folds the key and value blocks into maximum, denominator and numerator; at a point whose key tile is the last it
  stores numerator / denominator into the output block.
-/
import proofs.«117683_j11484742549629_2_alg».proof.Proof.Gen.Kernel.Skeleton
import proofs.«117683_j11484742549629_2_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The carried state and one step of the online softmax -/

/-- The four buffers the attention body carries from one key tile to the next: the running row maximum `m`, the
    running row denominator `l`, the running numerator `acc` and the scaled query tile `qs`. -/
structure AttnScr (F : FTy → Type) where
  m : Vec F S512x1 .f32
  l : Vec F S512x1 .f32
  acc : Vec F S512x1024 .f32
  qs : Vec F S512x1024 .bf16

/-- The state a first key tile starts from, given the query block: maximum at the body's negative constant,
    denominator and numerator at zero, the queries scaled by 1/32. -/
def attnReset (q : Vec F S1x512x1024 .bf16) : AttnScr F where
  m := k3_pay4 (F := F)
  l := k3_pay5 (F := F)
  acc := k3_pay6 (F := F)
  qs := k3_pay7 q

/-- One key tile folded in: from the state `s` and the key and value blocks, the new maximum
    `max m (rowmax (qs kᵀ))`, the new denominator `exp (m - m') * l + rowsum (exp (qs kᵀ - m'))`, the new numerator
    `exp (m - m') * acc + exp (qs kᵀ - m') v`; the scaled queries stay. -/
def attnStep (k v : Vec F S1x512x1024 .bf16) (s : AttnScr F) : AttnScr F where
  m := k3_pay2 (k3_pay10 s.qs k s.m)
  l := k3_pay13 s.qs k s.m s.m s.l
  acc := k3_pay1 (k3_pay8 v) (k3_pay14 s.qs k s.m s.m s.acc) (k3_pay15 s.qs k s.m)
  qs := s.qs

/-- What a last key tile stores into the output block: numerator times the reciprocal of the denominator. -/
def attnOut (s : AttnScr F) : Vec F S1x512x1024 .bf16 := k3_pay3 s.acc s.l

/-! ## Branch 1 (pallas_call 3) at the contents `V` its region is entered with -/

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query, key and value blocks at point `t`. -/
def qBlk3 (c : Dev nD) (t : Fin cfg3.N) : Vec F S1x512x1024 .bf16 := iblk3 V c 0 t
def kBlk3 (c : Dev nD) (t : Fin cfg3.N) : Vec F S1x512x1024 .bf16 := iblk3 V c 1 t
def vBlk3 (c : Dev nD) (t : Fin cfg3.N) : Vec F S1x512x1024 .bf16 := iblk3 V c 2 t

/-- THE RECURRENCE. What the four carried buffers hold after the body at position `n` of the grid (the key tile is
    `n % 4`): at a first key tile the reset state with this point's keys and values folded in, elsewhere the state the
    point before left with them folded in. -/
def scrAt3 (c : Dev nD) : (n : ℕ) → n < cfg3.N → AttnScr F
  | 0, h => attnStep (kBlk3 V c ⟨0, h⟩) (vBlk3 V c ⟨0, h⟩) (attnReset (qBlk3 V c ⟨0, h⟩))
  | n + 1, h =>
    attnStep (kBlk3 V c ⟨n + 1, h⟩) (vBlk3 V c ⟨n + 1, h⟩)
      (if (n + 1) % 4 = 0 then attnReset (qBlk3 V c ⟨n + 1, h⟩) else scrAt3 c n (Nat.lt_of_succ_lt h))

/-- The state point `t` leaves, and its components by name. -/
def scr3 (c : Dev nD) (t : Fin cfg3.N) : AttnScr F := scrAt3 V c t.val t.isLt
def scrM3 (c : Dev nD) (t : Fin cfg3.N) : Vec F S512x1 .f32 := (scr3 V c t).m
def scrL3 (c : Dev nD) (t : Fin cfg3.N) : Vec F S512x1 .f32 := (scr3 V c t).l
def scrAcc3 (c : Dev nD) (t : Fin cfg3.N) : Vec F S512x1024 .f32 := (scr3 V c t).acc
def scrQs3 (c : Dev nD) (t : Fin cfg3.N) : Vec F S512x1024 .bf16 := (scr3 V c t).qs

/-- What the output block's staging buffer holds after point `t` (stored at the last key tile). -/
def outBlk3 (c : Dev nD) (t : Fin cfg3.N) : Vec F S1x512x1024 .bf16 := attnOut (scr3 V c t)

/-- At a first key tile: the reset state, this point's keys and values folded in. -/
theorem scr3_first (c : Dev nD) (t : Fin cfg3.N) (h0 : t.val % 4 = 0) :
    scr3 V c t = attnStep (kBlk3 V c t) (vBlk3 V c t) (attnReset (qBlk3 V c t)) := by
  obtain ⟨n, hn⟩ := t
  cases n with
  | zero => rfl
  | succ n => exact congrArg (attnStep _ _) (if_pos h0)

/-- Elsewhere: what the point before left, this point's keys and values folded in. -/
theorem scr3_next (c : Dev nD) (t : Fin cfg3.N) (h0 : ¬ t.val % 4 = 0) :
    scr3 V c t = attnStep (kBlk3 V c t) (vBlk3 V c t)
      (scr3 V c ⟨t.val - 1, Nat.lt_of_le_of_lt (Nat.sub_le _ _) t.isLt⟩) := by
  obtain ⟨n, hn⟩ := t
  cases n with
  | zero => exact absurd (Nat.zero_mod _) h0
  | succ n => exact congrArg (attnStep _ _) (if_neg h0)

/-! ## The invariant: the four scratch buffers at the recurrence's contents -/

/-- The call's four scratch buffers, whole, at the state `s`. -/
def scrHeld3 (c : Dev nD) (s : AttnScr F) : sProp 𝕄 :=
  iprop(owns (c : Thread nD τ) (Memref.whole cc3_scratch0) fullShare s.m
    ∗ owns (c : Thread nD τ) (Memref.whole cc3_scratch1) fullShare s.l
    ∗ owns (c : Thread nD τ) (Memref.whole cc3_scratch2) fullShare s.acc
    ∗ owns (c : Thread nD τ) (Memref.whole cc3_scratch3) fullShare s.qs)

/-- The core's other scoped buffers that are no staging buffer of this call, each at some contents. -/
abbrev scrRest3 (c : Dev nD) : sProp 𝕄 :=
  Pipeline.scopedRestBut (Ix := Unit) (Name := ℕ) (U := UR sig nD τ) (Lvl := ℕ) (Val := Elt F) spec3 c
    [cc3_scratch0, cc3_scratch1, cc3_scratch2, cc3_scratch3]

/-- Before position `n`: at the launch's start every scoped non-staging buffer at some contents and the generator
    register at some state; afterwards the four scratch buffers at what the point before left, the other scoped
    buffers at some contents, the generator register at some state. -/
def Phi3 (c : Dev nD) : (n : ℕ) → n ≤ cfg3.N → sProp 𝕄
  | 0, _ => Pipeline.ΦA spec3 c
  | n + 1, hn => iprop(scrHeld3 c (scrAt3 V c n hn) ∗ scrRest3 (F := F) c ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(scrHeld3 c (scr3 V c ⟨n, hn⟩) ∗ scrRest3 (F := F) c ∗ (∃ r, prngReg c r)) := rfl

theorem Phi3_pos (c : Dev nD) (n : ℕ) (h : n ≤ cfg3.N) (hz : n ≠ 0) :
    Phi3 V c n h = iprop(scrHeld3 c (scr3 V c ⟨n - 1, by omega⟩) ∗ scrRest3 (F := F) c ∗ (∃ r, prngReg c r)) := by
  cases n with
  | zero => exact absurd rfl hz
  | succ n => rfl

/-! ## The proof data -/

/-- The proof data of the launch on core `c`: the arrays as the region finds them; after the body each input's
    buffer at its block and the output's at the quotient the state gives; the invariant `Phi3`; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outBlk3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outBlk3 V c t := by dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem Phi3_at_succ (c : Dev nD) (t : Fin cfg3.N) :
    (dat3 V c).Φ t.succ = iprop(scrHeld3 c (scr3 V c t) ∗ scrRest3 (F := F) c ∗ (∃ r, prngReg c r)) := rfl

end Region3

end Cert.Kernel.Hand

end
-- ==== Proof.BAttnRun.lean ====
/-
  The attention body's triple. On whole memrefs — the query, key and value blocks, the output block and the four carried
  buffers — the body run at a grid point leaves the three input blocks as it found them, takes the carried buffers from a
  state to that state with the key and value blocks folded in (from the reset state at a first key tile, whatever the
  buffers held), and leaves the output block as found except at a last key tile, where it stores the quotient. One
  theorem per case of the two tests on the key-tile coordinate; with four key tiles no point is both first and last.
-/
import proofs.«117683_j11484742549629_2_alg».proof.Proof.BAttnDat
import proofs.«117683_j11484742549629_2_alg».proof.Proof.LaunchK
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the attention body goes through the rectangle at zero offsets of the buffer's own sizes: a load
reads the buffer's contents, a store leaves its payload whatever was there before. -/

theorem zeroOff2 : (![0, 0] : Fin 2 → Nat) = fun _ => 0 := funext fun a => by fin_cases a <;> rfl
theorem zeroOff3 : (![0, 0, 0] : Fin 3 → Nat) = fun _ => 0 := funext fun a => by fin_cases a <;> rfl

section Whole

variable {sg : RefSig} {κ : Kind} {sp : Space} {S : Shape} {e : EltTy} {Val : EltTy → Type} [∀ e, Nonempty (Val e)]

/-- A load through the whole-shape rectangle reads what the view reads. -/
theorem readAt_wholeRect (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- After a last store through the whole-shape rectangle the view reads that store's payload. -/
theorem read_writes_wholeRect (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self .., View.mem_set_unit_zero h inb y⟩).trans
    (View.canon_cons_unit_zero h inb w L)

end Whole

/-! ## The body's two tests on the key-tile coordinate -/

/-- The first-key-tile test, as the body computes it from the grid coordinates. -/
abbrev kvFirst3 (i : grid3.Coords) : Prop :=
  Scalar.cmpi .ne (Scalar.extui (Scalar.cmpi .eq (BitVec.ofNat 32 (i 2).val) 0#32)) 0#32 = 1#1

/-- The last-key-tile test. -/
abbrev kvLast3 (i : grid3.Coords) : Prop := k3_cond2 i = 1#1

/-- On the grid the first test holds exactly at the positions ≡ 0 (mod 4), -/
theorem kvFirst3_iff : ∀ t : Fin cfg3.N, kvFirst3 (grid3.coords t) ↔ t.val % 4 = 0 :=
  (by decide +kernel : ∀ t : Fin grid3.N, kvFirst3 (grid3.coords t) ↔ t.val % 4 = 0)

/-- and the last exactly at the positions ≡ 3 (mod 4). -/
theorem kvLast3_iff : ∀ t : Fin cfg3.N, kvLast3 (grid3.coords t) ↔ t.val % 4 = 3 :=
  (by decide +kernel : ∀ t : Fin grid3.N, kvLast3 (grid3.coords t) ↔ t.val % 4 = 3)

/-! ## The body's triple, per case of the two tests

On whole memrefs: the three input blocks are left as found; the four carried buffers go from a state to that state with
the key and value blocks folded in (`attnStep`), starting from the reset state at a first key tile whatever they
held; the output block is left as found except at a last key tile, where it ends at the quotient (`attnOut`). -/

set_option maxHeartbeats 4000000 in
/-- A first key tile that is not the last. -/
theorem attn_run_first3 (c : Dev nD) (E : Set ℕ) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : kvFirst3 i) (hlast : ¬ kvLast3 i)
    (q k v o : Vec F S1x512x1024 .bf16) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v (attnReset q)).m ∗ owns (c : Thread nD τ) arg8 fullShare (attnStep k v (attnReset q)).l
        ∗ owns (c : Thread nD τ) arg9 fullShare (attnStep k v (attnReset q)).acc ∗ owns (c : Thread nD τ) arg10 fullShare (attnStep k v (attnReset q)).qs) -∗ K ⟨⟩))
      ⊢ wp frame (wpE (defs₀ (F := F)) Variants.none c none) E (cc3__attn_kernel i arg3 harg3 arg4 harg4 arg5 harg5 arg6 harg6 arg7 harg7 arg8 harg8 arg9 harg9 arg10 harg10) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  iexists _; isplitr
  swap; · iexact H10
  ipureintro
  sl_unfold_run_names
  rw [read_writes_wholeRect (S := S512x1024) _ _ zeroOff2]
  simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
  rfl

set_option maxHeartbeats 4000000 in
/-- A key tile that is neither first nor last. -/
theorem attn_run_mid3 (c : Dev nD) (E : Set ℕ) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst3 i) (hlast : ¬ kvLast3 i)
    (q k v o : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc3__attn_kernel i arg3 harg3 arg4 harg4 arg5 harg5 arg6 harg6 arg7 harg7 arg8 harg8 arg9 harg9 arg10 harg10) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

set_option maxHeartbeats 4000000 in
/-- A last key tile that is not the first. -/
theorem attn_run_last3 (c : Dev nD) (E : Set ℕ) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst3 i) (hlast : kvLast3 i)
    (q k v : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare (attnOut (attnStep k v s))
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc3__attn_kernel i arg3 harg3 arg4 harg4 arg5 harg5 arg6 harg6 arg7 harg7 arg8 harg8 arg9 harg9 arg10 harg10) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists _; isplitr
    swap; · iexact H6
    ipureintro
    sl_unfold_run_names
    rw [read_writes_wholeRect (S := S1x512x1024) _ _ zeroOff3]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

end Cert.Kernel.Hand

end
-- ==== Proof.BAttnBody.lean ====
/-
  The attention launch of branch 1: the body obligation of its proof data. At every grid point the body, called on the
  windows' current staging buffers and the four scratch buffers, takes the invariant before the point to the invariant
  after it: at a first key tile the scratch is handed over at whatever it holds and returned at the reset state with the
  tile folded in; elsewhere it is handed over at what the point before left and returned with the tile folded in; the
  output block's buffer is returned untouched except at a last key tile, where it holds the quotient.
-/
import proofs.«117683_j11484742549629_2_alg».proof.Proof.BAttnRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## Where the windows are live, and where the output block is written back -/

/-- The three input windows are live at every point. -/
theorem live3_0 : ∀ t : Fin cfg3.N, cfg3.idle 0 (grid3.coords t) = false := fun _ => rfl
theorem live3_1 : ∀ t : Fin cfg3.N, cfg3.idle 1 (grid3.coords t) = false := fun _ => rfl
theorem live3_2 : ∀ t : Fin cfg3.N, cfg3.idle 2 (grid3.coords t) = false := fun _ => rfl
/-- The output window is idle away from the last key tile, live at it. -/
theorem idle3_3 : ∀ t : Fin cfg3.N, ¬ t.val % 4 = 3 → cfg3.idle 3 (grid3.coords t) = true := by decide +kernel
theorem live3_3 : ∀ t : Fin cfg3.N, t.val % 4 = 3 → cfg3.idle 3 (grid3.coords t) = false := by decide +kernel
/-- Away from the last key tile the output block is not written back. -/
theorem noFlush3_3 (t : Fin cfg3.N) (h : ¬ t.val % 4 = 3) : (cfg3.win 3).flush t = false :=
  Bool.eq_false_iff.mpr fun hf => h ((flush3_3 t).mp hf)

/-! ## Each input's staging buffer holds its block at every point -/

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-! ## The invariant with the scratch buffers' names forgotten -/

/-- The four scratch buffers, each at some contents. -/
def scrAny3 (c : Dev nD) : sProp 𝕄 :=
  iprop((∃ d, owns (c : Thread nD τ) (Memref.whole cc3_scratch0) fullShare d)
    ∗ (∃ d, owns (c : Thread nD τ) (Memref.whole cc3_scratch1) fullShare d)
    ∗ (∃ d, owns (c : Thread nD τ) (Memref.whole cc3_scratch2) fullShare d)
    ∗ (∃ d, owns (c : Thread nD τ) (Memref.whole cc3_scratch3) fullShare d))

/-- The launch's starting invariant, the call's scratch buffers split out of the scoped rest. -/
theorem PhiA3_eq (c : Dev nD) :
    (Pipeline.ΦA spec3 c : sProp 𝕄) = iprop(iprop(scrAny3 (F := F) c ∗ scrRest3 (F := F) c) ∗ (∃ r, prngReg c r)) := by
  unfold Pipeline.ΦA scrAny3; rw [scopedRest3_split]; simp only [owns_whole]; try rfl

/-- Before any point the invariant holds the scratch buffers at SOME contents. -/
theorem Phi3_forget (c : Dev nD) (n : ℕ) (h : n ≤ cfg3.N) :
    Phi3 V c n h ⊢ iprop(iprop(scrAny3 (F := F) c ∗ scrRest3 (F := F) c) ∗ (∃ r, prngReg c r)) := by
  cases n with
  | zero => rw [Phi3_zero V c 0 h rfl, PhiA3_eq]
  | succ n =>
    rw [Phi3_succ]; unfold scrHeld3 scrAny3
    iintro ⟨⟨H0, H1, H2, H3⟩, Hr, Hg⟩
    isplitl [H0 H1 H2 H3 Hr]
    · isplitl [H0 H1 H2 H3]
      · isplitl [H0]; · iexists _; iexact H0
        isplitl [H1]; · iexists _; iexact H1
        isplitl [H2]; · iexists _; iexact H2
        iexists _; iexact H3
      iexact Hr
    iexact Hg

/-- So the invariant at any point gives the launch's starting invariant back. -/
theorem Phi3_to_start (c : Dev nD) (n : ℕ) (h : n ≤ cfg3.N) : Phi3 V c n h ⊢ Pipeline.ΦA spec3 c := by
  rw [PhiA3_eq]; exact Phi3_forget V c n h

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point, by the case of its key tile. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [Phi3_at_succ V c t, Phi3_castSucc V c t]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  rw [show (dat3 V c).leavesExact 2 t = owns (c : Thread nD τ) (st3_2 t) fullShare ((dat3 V c).after 2 t) from by
    unfold Dat.leavesExact; rw [live3_2 t], after3_2]
  have hN : t.val < 64 := lt_of_lt_of_eq t.isLt (show cfg3.N = 64 from N_3)
  by_cases h0 : t.val % 4 = 0
  · have h3 : ¬ t.val % 4 = 3 := by omega
    rw [Dat.leavesExact_idle (dat3 V c) 3 t (idle3_3 t h3) (noFlush3_3 t h3)]
    rw [scr3_first V c t h0]; unfold qBlk3 kBlk3 vBlk3 scrHeld3
    iintro ⟨HΦ, Ho, ⟨%d0, H0⟩, ⟨%d1, H1⟩, ⟨%d2, H2⟩, ⟨%d3, H3⟩⟩
    ihave HΦ' := (Phi3_forget V c _ _) $$ HΦ
    unfold scrAny3
    icases HΦ' with ⟨⟨⟨HS0, HS1, HS2, HS3⟩, Hr⟩, Hg⟩
    iapply (attn_run_first3 c Set.univ (grid3.coords t) _ _ _ _ _ _ _ _ _ _ _ _ _ _ _ _ ((kvFirst3_iff t).mpr h0)
      (fun h => h3 ((kvLast3_iff t).mp h)) (iblk3 V c 0 t) (iblk3 V c 1 t) (iblk3 V c 2 t) _ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hr Hg]
    · isplitl [HS0 HS1 HS2 HS3]
      · isplitl [HS0]; · iexact HS0
        isplitl [HS1]; · iexact HS1
        isplitl [HS2]; · iexact HS2
        iexact HS3
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [Phi3_pos V c _ _ hz]
    by_cases h3 : t.val % 4 = 3
    · rw [show (dat3 V c).leavesExact 3 t = owns (c : Thread nD τ) (st3_3 t) fullShare ((dat3 V c).after 3 t) from by
        unfold Dat.leavesExact; rw [live3_3 t h3], after3_3]
      unfold outBlk3
      rw [scr3_next V c t h0]; unfold kBlk3 vBlk3 scrHeld3
      iintro ⟨⟨⟨HS0, HS1, HS2, HS3⟩, Hr, Hg⟩, Ho, ⟨%d0, H0⟩, ⟨%d1, H1⟩, ⟨%d2, H2⟩, ⟨%d3, H3⟩⟩
      iapply (attn_run_last3 c Set.univ (grid3.coords t) _ _ _ _ _ _ _ _ _ _ _ _ _ _ _ _ (fun h => h0 ((kvFirst3_iff t).mp h))
        ((kvLast3_iff t).mpr h3) (iblk3 V c 0 t) (iblk3 V c 1 t) (iblk3 V c 2 t) (scr3 V c ⟨t.val - 1, by omega⟩) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat3 V c) 3 t (idle3_3 t h3) (noFlush3_3 t h3)]
      rw [scr3_next V c t h0]; unfold kBlk3 vBlk3 scrHeld3
      iintro ⟨⟨⟨HS0, HS1, HS2, HS3⟩, Hr, Hg⟩, Ho, ⟨%d0, H0⟩, ⟨%d1, H1⟩, ⟨%d2, H2⟩, ⟨%d3, H3⟩⟩
      iapply (attn_run_mid3 c Set.univ (grid3.coords t) _ _ _ _ _ _ _ _ _ _ _ _ _ _ _ _ (fun h => h0 ((kvFirst3_iff t).mp h))
        (fun h => h3 ((kvLast3_iff t).mp h)) (iblk3 V c 0 t) (iblk3 V c 1 t) (iblk3 V c 2 t) _ (scr3 V c ⟨t.val - 1, by omega⟩) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) :
    BodyObligation (dat3 (F := F) V c) (defs₀ (F := F)) Variants.none () Set.univ := fun t => by
  rw [bigSep_W3, bigSep_W3]
  exact sound_body3 V c t

/-! ## The invariant at the launch's two ends -/

/-- Before the first point the invariant is the launch's starting one. -/
theorem Phi3_first (c : Dev nD) : (dat3 V c).Φ 0 = Pipeline.ΦA spec3 c := rfl

/-- After the last point it gives that back. -/
theorem Phi3_last (c : Dev nD) : (dat3 V c).Φ (Fin.last cfg3.N) ⊢ Pipeline.ΦA spec3 c :=
  Phi3_to_start V c (Fin.last cfg3.N).val (Nat.le_of_lt_succ (Fin.last cfg3.N).isLt)

end Region3

end Cert.Kernel.Hand

end
-- ==== Proof.BAttnSeg.lean ====
/-
  The attention launch of branch 1 as a segment of the kernel program's run. The launch reads the query, key and value
  arrays and writes one array, main_v22: after it every unscoped buffer is as before it except that one, which holds the
  fold of the write-backs at the last key tiles. Inside, the launch's four scratch buffers enter the invariant out of
  the scoped buffers at whatever they hold, carry the online softmax's state from point to point, and are given back
  with their contents forgotten.
-/
import proofs.«117683_j11484742549629_2_alg».proof.Proof.BRunBase
import proofs.«117683_j11484742549629_2_alg».proof.Proof.BAttnBody

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What the launch leaves in main_v22, from the contents `Wi` it is entered with: its output window's array after
    the last grid point. -/
def attnArr3 (Wi : Dev nD → Valuation τ sig (Elt F)) (c : Dev nD) : Buf (Elt F) ((c : Thread nD τ).loc main_v22) :=
  (dat3 (atTc Wi) c).arrAt 3 cfg3.N

/-- The unscoped buffers after the launch: as before it, main_v22 replaced. -/
abbrev attnAfter3 (Wi : Dev nD → Valuation τ sig (Elt F)) (c : Dev nD) : Valuation τ sig (Elt F) :=
  Function.update (Wi c) main_v22 (attnArr3 Wi c)

/-- After the last point each window's array is the exit contents at its buffer: an input's array is never written,
    the output's is the replaced buffer. -/
theorem attnExitArr3 (Wi : Dev nD → Valuation τ sig (Elt F)) (c : Dev nD) (w : Fin cfg3.W) :
    (dat3 (atTc Wi) c).arrAt w cfg3.N = atTc (attnAfter3 Wi) c (Pipeline.arrRef spec3 w) := by
  match w with
  | ⟨0, _⟩ => exact ((dat3 (atTc Wi) c).arrAt_in ⟨0, by decide⟩ rfl _).trans (Function.update_of_ne (StableHlo.devRef_ne_of_ne (by decide)) _ _).symm
  | ⟨1, _⟩ => exact ((dat3 (atTc Wi) c).arrAt_in ⟨1, by decide⟩ rfl _).trans (Function.update_of_ne (StableHlo.devRef_ne_of_ne (by decide)) _ _).symm
  | ⟨2, _⟩ => exact ((dat3 (atTc Wi) c).arrAt_in ⟨2, by decide⟩ rfl _).trans (Function.update_of_ne (StableHlo.devRef_ne_of_ne (by decide)) _ _).symm
  | ⟨3, _⟩ => exact (Function.update_self (Proc.devRef .tc main_v22 : DevRef τ sig) (attnArr3 Wi c) (Wi c)).symm

/-- Every buffer that is no window's array is as at entry. -/
theorem attnExitKeep3 (Wi : Dev nD → Valuation τ sig (Elt F)) (c : Dev nD) :
    ∀ b, b ∉ Finset.univ.image (Pipeline.arrRef spec3) → atTc (attnAfter3 Wi) c b = atTc Wi c b := by
  intro b hb
  have hne : b ≠ main_v22 := fun e => hb (Finset.mem_image.mpr ⟨3, Finset.mem_univ _, e.symm ▸ rfl⟩)
  exact Function.update_of_ne (StableHlo.devRef_ne_of_ne hne) _ _

set_option backward.isDefEq.respectTransparency.types false in
/-- The launch as a segment between the unscoped buffers' contents `Wi` at entry and `Wo` at exit, for any family of
    proof data whose member at this launch is `dat3` at `Wi`. At entry the windows' arrays are split out of the unscoped
    buffers and the generator register goes into the invariant, which at the first point is the launch's starting one
    (every scoped buffer that is no staging buffer at some contents: the four scratch buffers among them). At exit the
    invariant after the last point, which holds the scratch at the last state, gives the starting one back; the arrays
    are put back, each at `Wo` (`hArr`), every other buffer as at entry (`hKeep`). The kernel has no semaphore of its
    own and the core owes nothing. -/
def attnSeg3 (pdats : (p : Fin 13) → (c : Dev nD) → Dat τ (Elt F) Unit ℕ (UR sig nD τ) ℕ (cfgs p) c)
    (Wi Wo : Dev nD → Valuation τ sig (Elt F))
    (hp : ∀ c, pdats 3 c = dat3 (atTc Wi) c)
    (hArr : ∀ c (w : Fin cfg3.W), (dat3 (atTc Wi) c).arrAt w cfg3.N = atTc Wo c (Pipeline.arrRef spec3 w))
    (hKeep : ∀ c, ∀ b, b ∉ Finset.univ.image (Pipeline.arrRef spec3) → atTc Wo c b = atTc Wi c b) :
    RegionSeg (pcfgs (F := F)) adm pdats () defs₀ Variants.none noLevels levelZero 3 where
  win := launch3.win.to₀
  block_pos := launch3.block_pos
  stage_whole := launch3.stage_whole
  K := PEmpty
  osem k := k.elim
  ho := Pipeline.OwnSemFacts.none _
  hbody c := by rw [hp c]; exact (body_obligation3 (atTc Wi) c).loose
  hwaits := Pipeline.hwaits_of_owed_zero _ _ _ _ noLevels levelZero 3 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec3 c (atTc Wi c)
  hentry c := by
    rw [Pipeline.ownSems0_none]
    have hsplit := Pipeline.arrays_of_unscopedBufs (p := 3) (pcfgs (F := F)) adm pdats launch3.win launch3.arr_whole c
      ((pdats 3 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec3 c : sProp 𝕄)
    unfold Pipeline.ΦA
    iintro ⟨Hreg, -, Hscoped⟩
    isplitl [Hscoped]; · iexact Hscoped
    iexact Hreg
  hout c := by
    rw [Pipeline.ownSems0_none, hp c]
    refine (Phi3_last (atTc Wi) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c pdats ((pdats 3 c).share_full fun _ => by rw [hp c]; rfl)
      (atTc Wi c) (atTc Wo c) ((pdats 3 c).arrAt · cfg3.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BLinDat4.lean ====
/- Region 4 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.Kernel.Skeleton
import proofs.«117683_j11484742549629_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-! ## The rectangles the body reads and writes: each is a whole staging buffer -/

/-- all of a 512x1024 tile (the activation tile, and the result tile) -/
abbrev tileAll4 : Rect S512x1024 := Rect.unit (s := S512x1024) ![0, 0] S512x1024.size inb_S512x1024_S512x1024_0_0
/-- all of the 1024x1024 weight matrix -/
abbrev weightAll4 : Rect S1024x1024 := Rect.unit (s := S1024x1024) ![0, 0] S1024x1024.size inb_S1024x1024_S1024x1024_0_0
/-- all of the 1x1024 bias row -/
abbrev biasAll4 : Rect S1x1024 := Rect.unit (s := S1x1024) ![0, 0] S1x1024.size inb_S1x1024_S1x1024_0_0

/-- A pair of zero offsets is the constant-zero offset. -/
theorem zeroOffsets4 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out4 (x : Vec F S512x1024 .f32) (wt : Vec F S1024x1024 .bf16) (bias : Vec F S1x1024 .f32) : Vec F S512x1024 .bf16 :=
  View.canon [⟨tileAll4, k4_pay1 (View.ld x tileAll4) (View.ld wt weightAll4) (View.ld bias biasAll4)⟩]

/-- Since the store and the loads are through whole buffers, the stored block is the payload of the
    input blocks themselves. -/
theorem out4_eq_pay (x : Vec F S512x1024 .f32) (wt : Vec F S1024x1024 .bf16) (bias : Vec F S1x1024 .f32) :
    out4 x wt bias = k4_pay1 x wt bias := by
  unfold out4
  rw [View.canon_unit_zero (S := S512x1024) zeroOffsets4 inb_S512x1024_S512x1024_0_0,
    View.ld_unit_zero (S := S512x1024) zeroOffsets4 inb_S512x1024_S512x1024_0_0,
    View.ld_unit_zero (S := S1024x1024) zeroOffsets4 inb_S1024x1024_S1024x1024_0_0,
    View.ld_unit_zero (S := S1x1024) zeroOffsets4 inb_S1x1024_S1x1024_0_0]

/-- The single store reaches every index of the tile. -/
theorem storeCovers4 (p : Vec F S512x1024 .bf16) (y : S512x1024.Idx) :
    ∃ pc ∈ ([⟨tileAll4, p⟩] : List (View.Piece (Elt F) S512x1024 .bf16)), y ∈ pc.1.set :=
  ⟨_, List.mem_singleton_self _, View.mem_set_unit_zero (S := S512x1024) zeroOffsets4 inb_S512x1024_S512x1024_0_0 y⟩

/-! ## Proof data of the pipeline -/

/-- On core `c`: every window's array is what the entry valuation says; after the body at point `t` the three
    input buffers still hold their blocks and the result buffer holds `out4` of them; the invariant is the
    untouched rest (scoped buffers and the generator register); no debts, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4 (iblk4 V c 0 t) (iblk4 V c 1 t) (iblk4 V c 2 t) := by dsimp only [dat4]

/-- The same, with the stored block spelt as the payload of the input blocks. -/
theorem after4_3_pay (c : Dev nD) (t : Fin cfg4.N) :
    (dat4 V c).after 3 t = k4_pay1 (iblk4 V c 0 t) (iblk4 V c 1 t) (iblk4 V c 2 t) := by
  rw [after4_3, out4_eq_pay]

/-! ## What an input's staging buffer holds when the body starts -/

/-- The activation tile's buffer holds the tile's block at every point (it is fetched at every point). -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- The weight matrix's buffer holds the matrix at every point: fetched once, and its index never moves. -/
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-- Likewise the bias row's buffer. -/
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

end Cert.Kernel.Hand
-- ==== Proof.BLinBody4.lean ====
/- Region 4 (a key/value projection): the kernel body run on whole staging buffers, and from it the
   obligation the pipeline asks of the body at every grid point. -/
import proofs.«117683_j11484742549629_2_alg».proof.Proof.BLinDat4
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows4 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out4` of them. It loads the four buffers whole and stores once, through the whole tile. -/
theorem sound_kernel4 (c : Dev nD) (E : Set ℕ) (i : grid4.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out4 x wt bias)) -∗ K ⟨⟩))
      ⊢ wp frame (wpE (defs₀ (F := F)) Variants.none c none) E (cc4__kv_kernel i mx hmx mw hmw mb hmb mo hmo) K := by
  rw [cc4__kv_kernel_eq_skeleton]; unfold cc4__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers4 _)

/-! ## The obligation at a grid point -/

/-- What the pipeline hands the body at point `t`: the invariant, the core's debts, and the four staging buffers. -/
def bodyGiven4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- What it must hand back. -/
def bodyOwed4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At every point the three input buffers hold their blocks, so the run on whole buffers applies; the
    invariant and the debts are not touched by the body. -/
theorem sound_body4 (c : Dev nD) (t : Fin cfg4.N) :
    bodyGiven4 V c t ⊢ wp frame (wpE (defs₀ (F := F)) Variants.none c none) Set.univ (bodyAt4 t) (fun _ => bodyOwed4 V c t) := by
  unfold bodyGiven4 bodyOwed4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨Hinv, Hdebt, ⟨%d0, B0⟩, ⟨%d1, B1⟩, ⟨%d2, B2⟩, ⟨%d3, B3⟩⟩
  iapply (sound_kernel4 c Set.univ _ _ _ _ _ _ _ _ _ (iblk4 V c 0 t) (iblk4 V c 1 t) (iblk4 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation4 (c : Dev nD) :
    BodyObligation (dat4 (F := F) V c) (defs₀ (F := F)) Variants.none () Set.univ := fun t => by
  rw [fourWindows4, fourWindows4]
  exact sound_body4 V c t

end Cert.Kernel.Hand
-- ==== Proof.BRunSeg4.lean ====
/-
  Region 4 of the kernel program's @main as a segment of the run. The region reads its input windows' arrays and writes one
  array, main_v26: so the contents after it are the contents before it with that buffer replaced by the fold of the grid
  points' write-backs, every input window's array being what it was (a window that is never written back keeps its array).
-/
import proofs.«117683_j11484742549629_2_alg».proof.Proof.BRunBase
import proofs.«117683_j11484742549629_2_alg».proof.Proof.BLinBody4

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What region 4 leaves in main_v26, from entry contents Wi. -/
def outArr4 (Wi : Dev nD → Valuation τ sig (Elt F)) (c : Dev nD) : Buf (Elt F) ((c : Thread nD τ).loc main_v26) :=
  (dat4 (atTc Wi) c).arrAt 3 cfg4.N
/-- The contents after region 4. -/
abbrev after4 (Wi : Dev nD → Valuation τ sig (Elt F)) (c : Dev nD) : Valuation τ sig (Elt F) :=
  Function.update (Wi c) main_v26 (outArr4 Wi c)

/-- Each window's array after the last grid point is the exit contents at that window's buffer. -/
theorem exitArr4 (Wi : Dev nD → Valuation τ sig (Elt F)) (c : Dev nD) (w : Fin cfg4.W) :
    (dat4 (atTc Wi) c).arrAt w cfg4.N = atTc (after4 Wi) c (Pipeline.arrRef spec4 w) := by
  match w with
  | ⟨0, _⟩ => exact ((dat4 (atTc Wi) c).arrAt_in ⟨0, by decide⟩ rfl _).trans (Function.update_of_ne (StableHlo.devRef_ne_of_ne (by decide)) _ _).symm
  | ⟨1, _⟩ => exact ((dat4 (atTc Wi) c).arrAt_in ⟨1, by decide⟩ rfl _).trans (Function.update_of_ne (StableHlo.devRef_ne_of_ne (by decide)) _ _).symm
  | ⟨2, _⟩ => exact ((dat4 (atTc Wi) c).arrAt_in ⟨2, by decide⟩ rfl _).trans (Function.update_of_ne (StableHlo.devRef_ne_of_ne (by decide)) _ _).symm
  | ⟨3, _⟩ => exact (Function.update_self (Proc.devRef .tc main_v26 : DevRef τ sig) (outArr4 Wi c) (Wi c)).symm

/-- Every buffer that is no window's array is as at entry. -/
theorem exitKeep4 (Wi : Dev nD → Valuation τ sig (Elt F)) (c : Dev nD) :
    ∀ b, b ∉ Finset.univ.image (Pipeline.arrRef spec4) → atTc (after4 Wi) c b = atTc Wi c b := by
  intro b hb
  have hne : b ≠ main_v26 := fun e => hb (Finset.mem_image.mpr ⟨3, Finset.mem_univ _, e.symm ▸ rfl⟩)
  exact Function.update_of_ne (StableHlo.devRef_ne_of_ne hne) _ _

set_option backward.isDefEq.respectTransparency.types false in
/-- Region 4 as a segment between two valuations Wi (entry) and Wo (exit) of the unscoped buffers, for any family of proof
    data whose entry at region 4 is this region's. The region's arrays are split out of the unscoped buffers at entry and put
    back at exit, where each window's array is Wo at that window's buffer (hArr) and every other buffer is as at entry (hKeep);
    the generator register goes into the class invariant and comes back; the kernel has no semaphore of its own and owes nothing. -/
def linSeg4 (pdats : (p : Fin 13) → (c : Dev nD) → Dat τ (Elt F) Unit ℕ (UR sig nD τ) ℕ (cfgs p) c)
    (Wi Wo : Dev nD → Valuation τ sig (Elt F))
    (hp : ∀ c, pdats 4 c = dat4 (atTc Wi) c)
    (hArr : ∀ c (w : Fin cfg4.W), (dat4 (atTc Wi) c).arrAt w cfg4.N = atTc Wo c (Pipeline.arrRef spec4 w))
    (hKeep : ∀ c, ∀ b, b ∉ Finset.univ.image (Pipeline.arrRef spec4) → atTc Wo c b = atTc Wi c b) :
    RegionSeg (pcfgs (F := F)) adm pdats () defs₀ Variants.none noLevels levelZero 4 where
  win := launch4.win.to₀
  block_pos := launch4.block_pos
  stage_whole := launch4.stage_whole
  K := PEmpty
  osem k := k.elim
  ho := Pipeline.OwnSemFacts.none _
  hbody c := by rw [hp c]; exact (body_obligation4 (atTc Wi) c).loose
  hwaits := Pipeline.hwaits_of_owed_zero _ _ _ _ noLevels levelZero 4 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec4 c (atTc Wi c)
  hentry c := by
    rw [Pipeline.ownSems0_none]
    have hsplit := Pipeline.arrays_of_unscopedBufs (p := 4) (pcfgs (F := F)) adm pdats launch4.win launch4.arr_whole c
      ((pdats 4 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec4 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec4 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 4) (pcfgs (F := F)) adm (Ix := Unit) (Name := ℕ) (U := UR sig nD τ) (Lvl := ℕ)
      launch4.win launch4.arr_whole c pdats ((pdats 4 c).share_full fun _ => by rw [hp c]; rfl)
      (atTc Wi c) (atTc Wo c) ((pdats 4 c).arrAt · cfg4.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BLinDat5.lean ====
/- Region 5 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.Kernel.Skeleton
import proofs.«117683_j11484742549629_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## The rectangles the body reads and writes: each is a whole staging buffer -/

/-- all of a 512x1024 tile (the activation tile, and the result tile) -/
abbrev tileAll5 : Rect S512x1024 := Rect.unit (s := S512x1024) ![0, 0] S512x1024.size inb_S512x1024_S512x1024_0_0
/-- all of the 1024x1024 weight matrix -/
abbrev weightAll5 : Rect S1024x1024 := Rect.unit (s := S1024x1024) ![0, 0] S1024x1024.size inb_S1024x1024_S1024x1024_0_0
/-- all of the 1x1024 bias row -/
abbrev biasAll5 : Rect S1x1024 := Rect.unit (s := S1x1024) ![0, 0] S1x1024.size inb_S1x1024_S1x1024_0_0

/-- A pair of zero offsets is the constant-zero offset. -/
theorem zeroOffsets5 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out5 (x : Vec F S512x1024 .f32) (wt : Vec F S1024x1024 .bf16) (bias : Vec F S1x1024 .f32) : Vec F S512x1024 .bf16 :=
  View.canon [⟨tileAll5, k5_pay1 (View.ld x tileAll5) (View.ld wt weightAll5) (View.ld bias biasAll5)⟩]

/-- Since the store and the loads are through whole buffers, the stored block is the payload of the
    input blocks themselves. -/
theorem out5_eq_pay (x : Vec F S512x1024 .f32) (wt : Vec F S1024x1024 .bf16) (bias : Vec F S1x1024 .f32) :
    out5 x wt bias = k5_pay1 x wt bias := by
  unfold out5
  rw [View.canon_unit_zero (S := S512x1024) zeroOffsets5 inb_S512x1024_S512x1024_0_0,
    View.ld_unit_zero (S := S512x1024) zeroOffsets5 inb_S512x1024_S512x1024_0_0,
    View.ld_unit_zero (S := S1024x1024) zeroOffsets5 inb_S1024x1024_S1024x1024_0_0,
    View.ld_unit_zero (S := S1x1024) zeroOffsets5 inb_S1x1024_S1x1024_0_0]

/-- The single store reaches every index of the tile. -/
theorem storeCovers5 (p : Vec F S512x1024 .bf16) (y : S512x1024.Idx) :
    ∃ pc ∈ ([⟨tileAll5, p⟩] : List (View.Piece (Elt F) S512x1024 .bf16)), y ∈ pc.1.set :=
  ⟨_, List.mem_singleton_self _, View.mem_set_unit_zero (S := S512x1024) zeroOffsets5 inb_S512x1024_S512x1024_0_0 y⟩

/-! ## Proof data of the pipeline -/

/-- On core `c`: every window's array is what the entry valuation says; after the body at point `t` the three
    input buffers still hold their blocks and the result buffer holds `out5` of them; the invariant is the
    untouched rest (scoped buffers and the generator register); no debts, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5 (iblk5 V c 0 t) (iblk5 V c 1 t) (iblk5 V c 2 t) := by dsimp only [dat5]

/-- The same, with the stored block spelt as the payload of the input blocks. -/
theorem after5_3_pay (c : Dev nD) (t : Fin cfg5.N) :
    (dat5 V c).after 3 t = k5_pay1 (iblk5 V c 0 t) (iblk5 V c 1 t) (iblk5 V c 2 t) := by
  rw [after5_3, out5_eq_pay]

/-! ## What an input's staging buffer holds when the body starts -/

/-- The activation tile's buffer holds the tile's block at every point (it is fetched at every point). -/
theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)

/-- The weight matrix's buffer holds the matrix at every point: fetched once, and its index never moves. -/
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

/-- Likewise the bias row's buffer. -/
theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

end Cert.Kernel.Hand
-- ==== Proof.BLinBody5.lean ====
/- Region 5 (a key/value projection): the kernel body run on whole staging buffers, and from it the
   obligation the pipeline asks of the body at every grid point. -/
import proofs.«117683_j11484742549629_2_alg».proof.Proof.BLinDat5
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows5 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out5` of them. It loads the four buffers whole and stores once, through the whole tile. -/
theorem sound_kernel5 (c : Dev nD) (E : Set ℕ) (i : grid5.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out5 x wt bias)) -∗ K ⟨⟩))
      ⊢ wp frame (wpE (defs₀ (F := F)) Variants.none c none) E (cc5__kv_kernel i mx hmx mw hmw mb hmb mo hmo) K := by
  rw [cc5__kv_kernel_eq_skeleton]; unfold cc5__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers5 _)

/-! ## The obligation at a grid point -/

/-- What the pipeline hands the body at point `t`: the invariant, the core's debts, and the four staging buffers. -/
def bodyGiven5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- What it must hand back. -/
def bodyOwed5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- At every point the three input buffers hold their blocks, so the run on whole buffers applies; the
    invariant and the debts are not touched by the body. -/
theorem sound_body5 (c : Dev nD) (t : Fin cfg5.N) :
    bodyGiven5 V c t ⊢ wp frame (wpE (defs₀ (F := F)) Variants.none c none) Set.univ (bodyAt5 t) (fun _ => bodyOwed5 V c t) := by
  unfold bodyGiven5 bodyOwed5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨Hinv, Hdebt, ⟨%d0, B0⟩, ⟨%d1, B1⟩, ⟨%d2, B2⟩, ⟨%d3, B3⟩⟩
  iapply (sound_kernel5 c Set.univ _ _ _ _ _ _ _ _ _ (iblk5 V c 0 t) (iblk5 V c 1 t) (iblk5 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation5 (c : Dev nD) :
    BodyObligation (dat5 (F := F) V c) (defs₀ (F := F)) Variants.none () Set.univ := fun t => by
  rw [fourWindows5, fourWindows5]
  exact sound_body5 V c t

end Cert.Kernel.Hand
-- ==== Proof.BRunSeg5.lean ====
/-
  Region 5 of the kernel program's @main as a segment of the run. The region reads its input windows' arrays and writes one
  array, main_v31: so the contents after it are the contents before it with that buffer replaced by the fold of the grid
  points' write-backs, every input window's array being what it was (a window that is never written back keeps its array).
-/
import proofs.«117683_j11484742549629_2_alg».proof.Proof.BRunBase
import proofs.«117683_j11484742549629_2_alg».proof.Proof.BLinBody5

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What region 5 leaves in main_v31, from entry contents Wi. -/
def outArr5 (Wi : Dev nD → Valuation τ sig (Elt F)) (c : Dev nD) : Buf (Elt F) ((c : Thread nD τ).loc main_v31) :=
  (dat5 (atTc Wi) c).arrAt 3 cfg5.N
/-- The contents after region 5. -/
abbrev after5 (Wi : Dev nD → Valuation τ sig (Elt F)) (c : Dev nD) : Valuation τ sig (Elt F) :=
  Function.update (Wi c) main_v31 (outArr5 Wi c)

/-- Each window's array after the last grid point is the exit contents at that window's buffer. -/
theorem exitArr5 (Wi : Dev nD → Valuation τ sig (Elt F)) (c : Dev nD) (w : Fin cfg5.W) :
    (dat5 (atTc Wi) c).arrAt w cfg5.N = atTc (after5 Wi) c (Pipeline.arrRef spec5 w) := by
  match w with
  | ⟨0, _⟩ => exact ((dat5 (atTc Wi) c).arrAt_in ⟨0, by decide⟩ rfl _).trans (Function.update_of_ne (StableHlo.devRef_ne_of_ne (by decide)) _ _).symm
  | ⟨1, _⟩ => exact ((dat5 (atTc Wi) c).arrAt_in ⟨1, by decide⟩ rfl _).trans (Function.update_of_ne (StableHlo.devRef_ne_of_ne (by decide)) _ _).symm
  | ⟨2, _⟩ => exact ((dat5 (atTc Wi) c).arrAt_in ⟨2, by decide⟩ rfl _).trans (Function.update_of_ne (StableHlo.devRef_ne_of_ne (by decide)) _ _).symm
  | ⟨3, _⟩ => exact (Function.update_self (Proc.devRef .tc main_v31 : DevRef τ sig) (outArr5 Wi c) (Wi c)).symm

/-- Every buffer that is no window's array is as at entry. -/
theorem exitKeep5 (Wi : Dev nD → Valuation τ sig (Elt F)) (c : Dev nD) :
    ∀ b, b ∉ Finset.univ.image (Pipeline.arrRef spec5) → atTc (after5 Wi) c b = atTc Wi c b := by
  intro b hb
  have hne : b ≠ main_v31 := fun e => hb (Finset.mem_image.mpr ⟨3, Finset.mem_univ _, e.symm ▸ rfl⟩)
  exact Function.update_of_ne (StableHlo.devRef_ne_of_ne hne) _ _

set_option backward.isDefEq.respectTransparency.types false in
/-- Region 5 as a segment between two valuations Wi (entry) and Wo (exit) of the unscoped buffers, for any family of proof
    data whose entry at region 5 is this region's. The region's arrays are split out of the unscoped buffers at entry and put
    back at exit, where each window's array is Wo at that window's buffer (hArr) and every other buffer is as at entry (hKeep);
    the generator register goes into the class invariant and comes back; the kernel has no semaphore of its own and owes nothing. -/
def linSeg5 (pdats : (p : Fin 13) → (c : Dev nD) → Dat τ (Elt F) Unit ℕ (UR sig nD τ) ℕ (cfgs p) c)
    (Wi Wo : Dev nD → Valuation τ sig (Elt F))
    (hp : ∀ c, pdats 5 c = dat5 (atTc Wi) c)
    (hArr : ∀ c (w : Fin cfg5.W), (dat5 (atTc Wi) c).arrAt w cfg5.N = atTc Wo c (Pipeline.arrRef spec5 w))
    (hKeep : ∀ c, ∀ b, b ∉ Finset.univ.image (Pipeline.arrRef spec5) → atTc Wo c b = atTc Wi c b) :
    RegionSeg (pcfgs (F := F)) adm pdats () defs₀ Variants.none noLevels levelZero 5 where
  win := launch5.win.to₀
  block_pos := launch5.block_pos
  stage_whole := launch5.stage_whole
  K := PEmpty
  osem k := k.elim
  ho := Pipeline.OwnSemFacts.none _
  hbody c := by rw [hp c]; exact (body_obligation5 (atTc Wi) c).loose
  hwaits := Pipeline.hwaits_of_owed_zero _ _ _ _ noLevels levelZero 5 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec5 c (atTc Wi c)
  hentry c := by
    rw [Pipeline.ownSems0_none]
    have hsplit := Pipeline.arrays_of_unscopedBufs (p := 5) (pcfgs (F := F)) adm pdats launch5.win launch5.arr_whole c
      ((pdats 5 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec5 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec5 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 5) (pcfgs (F := F)) adm (Ix := Unit) (Name := ℕ) (U := UR sig nD τ) (Lvl := ℕ)
      launch5.win launch5.arr_whole c pdats ((pdats 5 c).share_full fun _ => by rw [hp c]; rfl)
      (atTc Wi c) (atTc Wo c) ((pdats 5 c).arrAt · cfg5.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BAttnDat6.lean ====
/-
  The attention launch of branch 2 (the seventh pallas_call: grid batch x query tile x key tile = 4 x 4 x 4, the key
  tile innermost): what its four carried buffers — running maximum, running denominator, running numerator, scaled
  queries — hold after every grid point, by recursion on the point, in terms of the body's store payloads; what the
  output block holds where it is stored; and the proof data of the launch built from them.

  At a point whose key tile is the first the body resets the four buffers (maximum to a large negative constant,
  denominator and numerator to zero, scaled queries to the query block times 1/32) before the update; at every point
  it folds the key and value blocks into maximum, denominator and numerator; at a point whose key tile is the last it
  stores numerator / denominator into the output block.
-/
import proofs.«117683_j11484742549629_2_alg».proof.Proof.BAttnDat
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Branch 2 (pallas_call 6) at the contents `V` its region is entered with -/

section Region6

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The query, key and value blocks at point `t`. -/
def qBlk6 (c : Dev nD) (t : Fin cfg6.N) : Vec F S1x512x1024 .bf16 := iblk6 V c 0 t
def kBlk6 (c : Dev nD) (t : Fin cfg6.N) : Vec F S1x512x1024 .bf16 := iblk6 V c 1 t
def vBlk6 (c : Dev nD) (t : Fin cfg6.N) : Vec F S1x512x1024 .bf16 := iblk6 V c 2 t

/-- THE RECURRENCE. What the four carried buffers hold after the body at position `n` of the grid (the key tile is
    `n % 4`): at a first key tile the reset state with this point's keys and values folded in, elsewhere the state the
    point before left with them folded in. -/
def scrAt6 (c : Dev nD) : (n : ℕ) → n < cfg6.N → AttnScr F
  | 0, h => attnStep (kBlk6 V c ⟨0, h⟩) (vBlk6 V c ⟨0, h⟩) (attnReset (qBlk6 V c ⟨0, h⟩))
  | n + 1, h =>
    attnStep (kBlk6 V c ⟨n + 1, h⟩) (vBlk6 V c ⟨n + 1, h⟩)
      (if (n + 1) % 4 = 0 then attnReset (qBlk6 V c ⟨n + 1, h⟩) else scrAt6 c n (Nat.lt_of_succ_lt h))

/-- The state point `t` leaves, and its components by name. -/
def scr6 (c : Dev nD) (t : Fin cfg6.N) : AttnScr F := scrAt6 V c t.val t.isLt
def scrM6 (c : Dev nD) (t : Fin cfg6.N) : Vec F S512x1 .f32 := (scr6 V c t).m
def scrL6 (c : Dev nD) (t : Fin cfg6.N) : Vec F S512x1 .f32 := (scr6 V c t).l
def scrAcc6 (c : Dev nD) (t : Fin cfg6.N) : Vec F S512x1024 .f32 := (scr6 V c t).acc
def scrQs6 (c : Dev nD) (t : Fin cfg6.N) : Vec F S512x1024 .bf16 := (scr6 V c t).qs

/-- What the output block's staging buffer holds after point `t` (stored at the last key tile). -/
def outBlk6 (c : Dev nD) (t : Fin cfg6.N) : Vec F S1x512x1024 .bf16 := attnOut (scr6 V c t)

/-- At a first key tile: the reset state, this point's keys and values folded in. -/
theorem scr6_first (c : Dev nD) (t : Fin cfg6.N) (h0 : t.val % 4 = 0) :
    scr6 V c t = attnStep (kBlk6 V c t) (vBlk6 V c t) (attnReset (qBlk6 V c t)) := by
  obtain ⟨n, hn⟩ := t
  cases n with
  | zero => rfl
  | succ n => exact congrArg (attnStep _ _) (if_pos h0)

/-- Elsewhere: what the point before left, this point's keys and values folded in. -/
theorem scr6_next (c : Dev nD) (t : Fin cfg6.N) (h0 : ¬ t.val % 4 = 0) :
    scr6 V c t = attnStep (kBlk6 V c t) (vBlk6 V c t)
      (scr6 V c ⟨t.val - 1, Nat.lt_of_le_of_lt (Nat.sub_le _ _) t.isLt⟩) := by
  obtain ⟨n, hn⟩ := t
  cases n with
  | zero => exact absurd (Nat.zero_mod _) h0
  | succ n => exact congrArg (attnStep _ _) (if_neg h0)

/-! ## The invariant: the four scratch buffers at the recurrence's contents -/

/-- The call's four scratch buffers, whole, at the state `s`. -/
def scrHeld6 (c : Dev nD) (s : AttnScr F) : sProp 𝕄 :=
  iprop(owns (c : Thread nD τ) (Memref.whole cc6_scratch0) fullShare s.m
    ∗ owns (c : Thread nD τ) (Memref.whole cc6_scratch1) fullShare s.l
    ∗ owns (c : Thread nD τ) (Memref.whole cc6_scratch2) fullShare s.acc
    ∗ owns (c : Thread nD τ) (Memref.whole cc6_scratch3) fullShare s.qs)

/-- The core's other scoped buffers that are no staging buffer of this call, each at some contents. -/
abbrev scrRest6 (c : Dev nD) : sProp 𝕄 :=
  Pipeline.scopedRestBut (Ix := Unit) (Name := ℕ) (U := UR sig nD τ) (Lvl := ℕ) (Val := Elt F) spec6 c
    [cc6_scratch0, cc6_scratch1, cc6_scratch2, cc6_scratch3]

/-- Before position `n`: at the launch's start every scoped non-staging buffer at some contents and the generator
    register at some state; afterwards the four scratch buffers at what the point before left, the other scoped
    buffers at some contents, the generator register at some state. -/
def Phi6 (c : Dev nD) : (n : ℕ) → n ≤ cfg6.N → sProp 𝕄
  | 0, _ => Pipeline.ΦA spec6 c
  | n + 1, hn => iprop(scrHeld6 c (scrAt6 V c n hn) ∗ scrRest6 (F := F) c ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(scrHeld6 c (scr6 V c ⟨n, hn⟩) ∗ scrRest6 (F := F) c ∗ (∃ r, prngReg c r)) := rfl

theorem Phi6_pos (c : Dev nD) (n : ℕ) (h : n ≤ cfg6.N) (hz : n ≠ 0) :
    Phi6 V c n h = iprop(scrHeld6 c (scr6 V c ⟨n - 1, by omega⟩) ∗ scrRest6 (F := F) c ∗ (∃ r, prngReg c r)) := by
  cases n with
  | zero => exact absurd rfl hz
  | succ n => rfl

/-! ## The proof data -/

/-- The proof data of the launch on core `c`: the arrays as the region finds them; after the body each input's
    buffer at its block and the output's at the quotient the state gives; the invariant `Phi6`; nothing owed; full
    shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => outBlk6 V c t
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = outBlk6 V c t := by dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem Phi6_at_succ (c : Dev nD) (t : Fin cfg6.N) :
    (dat6 V c).Φ t.succ = iprop(scrHeld6 c (scr6 V c t) ∗ scrRest6 (F := F) c ∗ (∃ r, prngReg c r)) := rfl

end Region6

end Cert.Kernel.Hand

end
-- ==== Proof.BAttnRun6.lean ====
/-
  The attention body's triple. On whole memrefs — the query, key and value blocks, the output block and the four carried
  buffers — the body run at a grid point leaves the three input blocks as it found them, takes the carried buffers from a
  state to that state with the key and value blocks folded in (from the reset state at a first key tile, whatever the
  buffers held), and leaves the output block as found except at a last key tile, where it stores the quotient. One
  theorem per case of the two tests on the key-tile coordinate; with four key tiles no point is both first and last.
-/
import proofs.«117683_j11484742549629_2_alg».proof.Proof.BAttnDat6
import proofs.«117683_j11484742549629_2_alg».proof.Proof.BAttnRun
import proofs.«117683_j11484742549629_2_alg».proof.Proof.LaunchK
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two tests on the key-tile coordinate -/

/-- The first-key-tile test, as the body computes it from the grid coordinates. -/
abbrev kvFirst6 (i : grid6.Coords) : Prop :=
  Scalar.cmpi .ne (Scalar.extui (Scalar.cmpi .eq (BitVec.ofNat 32 (i 2).val) 0#32)) 0#32 = 1#1

/-- The last-key-tile test. -/
abbrev kvLast6 (i : grid6.Coords) : Prop := k6_cond2 i = 1#1

/-- On the grid the first test holds exactly at the positions ≡ 0 (mod 4), -/
theorem kvFirst6_iff : ∀ t : Fin cfg6.N, kvFirst6 (grid6.coords t) ↔ t.val % 4 = 0 :=
  (by decide +kernel : ∀ t : Fin grid6.N, kvFirst6 (grid6.coords t) ↔ t.val % 4 = 0)

/-- and the last exactly at the positions ≡ 3 (mod 4). -/
theorem kvLast6_iff : ∀ t : Fin cfg6.N, kvLast6 (grid6.coords t) ↔ t.val % 4 = 3 :=
  (by decide +kernel : ∀ t : Fin grid6.N, kvLast6 (grid6.coords t) ↔ t.val % 4 = 3)

/-! ## The body's triple, per case of the two tests

On whole memrefs: the three input blocks are left as found; the four carried buffers go from a state to that state with
the key and value blocks folded in (`attnStep`), starting from the reset state at a first key tile whatever they
held; the output block is left as found except at a last key tile, where it ends at the quotient (`attnOut`). -/

set_option maxHeartbeats 4000000 in
/-- A first key tile that is not the last. -/
theorem attn_run_first6 (c : Dev nD) (E : Set ℕ) (i : grid6.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : kvFirst6 i) (hlast : ¬ kvLast6 i)
    (q k v o : Vec F S1x512x1024 .bf16) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v (attnReset q)).m ∗ owns (c : Thread nD τ) arg8 fullShare (attnStep k v (attnReset q)).l
        ∗ owns (c : Thread nD τ) arg9 fullShare (attnStep k v (attnReset q)).acc ∗ owns (c : Thread nD τ) arg10 fullShare (attnStep k v (attnReset q)).qs) -∗ K ⟨⟩))
      ⊢ wp frame (wpE (defs₀ (F := F)) Variants.none c none) E (cc6__attn_kernel i arg3 harg3 arg4 harg4 arg5 harg5 arg6 harg6 arg7 harg7 arg8 harg8 arg9 harg9 arg10 harg10) K := by
  simp only [cc6__attn_kernel_eq_skeleton]; unfold cc6__attn_kernel_skel
  simp only [k6_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  iexists _; isplitr
  swap; · iexact H10
  ipureintro
  sl_unfold_run_names
  rw [read_writes_wholeRect (S := S512x1024) _ _ zeroOff2]
  simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
  rfl

set_option maxHeartbeats 4000000 in
/-- A key tile that is neither first nor last. -/
theorem attn_run_mid6 (c : Dev nD) (E : Set ℕ) (i : grid6.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst6 i) (hlast : ¬ kvLast6 i)
    (q k v o : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc6__attn_kernel i arg3 harg3 arg4 harg4 arg5 harg5 arg6 harg6 arg7 harg7 arg8 harg8 arg9 harg9 arg10 harg10) K := by
  simp only [cc6__attn_kernel_eq_skeleton]; unfold cc6__attn_kernel_skel
  simp only [k6_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

set_option maxHeartbeats 4000000 in
/-- A last key tile that is not the first. -/
theorem attn_run_last6 (c : Dev nD) (E : Set ℕ) (i : grid6.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst6 i) (hlast : kvLast6 i)
    (q k v : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare (attnOut (attnStep k v s))
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc6__attn_kernel i arg3 harg3 arg4 harg4 arg5 harg5 arg6 harg6 arg7 harg7 arg8 harg8 arg9 harg9 arg10 harg10) K := by
  simp only [cc6__attn_kernel_eq_skeleton]; unfold cc6__attn_kernel_skel
  simp only [k6_part1_eq_skeleton]
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists _; isplitr
    swap; · iexact H6
    ipureintro
    sl_unfold_run_names
    rw [read_writes_wholeRect (S := S1x512x1024) _ _ zeroOff3]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

end Cert.Kernel.Hand

end
-- ==== Proof.BAttnBody6.lean ====
/-
  The attention launch of branch 2: the body obligation of its proof data. At every grid point the body, called on the
  windows' current staging buffers and the four scratch buffers, takes the invariant before the point to the invariant
  after it: at a first key tile the scratch is handed over at whatever it holds and returned at the reset state with the
  tile folded in; elsewhere it is handed over at what the point before left and returned with the tile folded in; the
  output block's buffer is returned untouched except at a last key tile, where it holds the quotient.
-/
import proofs.«117683_j11484742549629_2_alg».proof.Proof.BAttnRun6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

/-! ## Where the windows are live, and where the output block is written back -/

/-- The three input windows are live at every point. -/
theorem live6_0 : ∀ t : Fin cfg6.N, cfg6.idle 0 (grid6.coords t) = false := fun _ => rfl
theorem live6_1 : ∀ t : Fin cfg6.N, cfg6.idle 1 (grid6.coords t) = false := fun _ => rfl
theorem live6_2 : ∀ t : Fin cfg6.N, cfg6.idle 2 (grid6.coords t) = false := fun _ => rfl
/-- The output window is idle away from the last key tile, live at it. -/
theorem idle6_3 : ∀ t : Fin cfg6.N, ¬ t.val % 4 = 3 → cfg6.idle 3 (grid6.coords t) = true := by decide +kernel
theorem live6_3 : ∀ t : Fin cfg6.N, t.val % 4 = 3 → cfg6.idle 3 (grid6.coords t) = false := by decide +kernel
/-- Away from the last key tile the output block is not written back. -/
theorem noFlush6_3 (t : Fin cfg6.N) (h : ¬ t.val % 4 = 3) : (cfg6.win 3).flush t = false :=
  Bool.eq_false_iff.mpr fun hf => h ((flush6_3 t).mp hf)

/-! ## Each input's staging buffer holds its block at every point -/

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)

theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)

theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)

/-! ## The invariant with the scratch buffers' names forgotten -/

/-- The four scratch buffers, each at some contents. -/
def scrAny6 (c : Dev nD) : sProp 𝕄 :=
  iprop((∃ d, owns (c : Thread nD τ) (Memref.whole cc6_scratch0) fullShare d)
    ∗ (∃ d, owns (c : Thread nD τ) (Memref.whole cc6_scratch1) fullShare d)
    ∗ (∃ d, owns (c : Thread nD τ) (Memref.whole cc6_scratch2) fullShare d)
    ∗ (∃ d, owns (c : Thread nD τ) (Memref.whole cc6_scratch3) fullShare d))

/-- The launch's starting invariant, the call's scratch buffers split out of the scoped rest. -/
theorem PhiA6_eq (c : Dev nD) :
    (Pipeline.ΦA spec6 c : sProp 𝕄) = iprop(iprop(scrAny6 (F := F) c ∗ scrRest6 (F := F) c) ∗ (∃ r, prngReg c r)) := by
  unfold Pipeline.ΦA scrAny6; rw [scopedRest6_split]; simp only [owns_whole]; try rfl

/-- Before any point the invariant holds the scratch buffers at SOME contents. -/
theorem Phi6_forget (c : Dev nD) (n : ℕ) (h : n ≤ cfg6.N) :
    Phi6 V c n h ⊢ iprop(iprop(scrAny6 (F := F) c ∗ scrRest6 (F := F) c) ∗ (∃ r, prngReg c r)) := by
  cases n with
  | zero => rw [Phi6_zero V c 0 h rfl, PhiA6_eq]
  | succ n =>
    rw [Phi6_succ]; unfold scrHeld6 scrAny6
    iintro ⟨⟨H0, H1, H2, H3⟩, Hr, Hg⟩
    isplitl [H0 H1 H2 H3 Hr]
    · isplitl [H0 H1 H2 H3]
      · isplitl [H0]; · iexists _; iexact H0
        isplitl [H1]; · iexists _; iexact H1
        isplitl [H2]; · iexists _; iexact H2
        iexists _; iexact H3
      iexact Hr
    iexact Hg

/-- So the invariant at any point gives the launch's starting invariant back. -/
theorem Phi6_to_start (c : Dev nD) (n : ℕ) (h : n ≤ cfg6.N) : Phi6 V c n h ⊢ Pipeline.ΦA spec6 c := by
  rw [PhiA6_eq]; exact Phi6_forget V c n h

/-! ## The body obligation -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4000000 in
/-- The body at any point, by the case of its key tile. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [Phi6_at_succ V c t, Phi6_castSucc V c t]
  rw [show (dat6 V c).leavesExact 0 t = owns (c : Thread nD τ) (st6_0 t) fullShare ((dat6 V c).after 0 t) from by
    unfold Dat.leavesExact; rw [live6_0 t], after6_0]
  rw [show (dat6 V c).leavesExact 1 t = owns (c : Thread nD τ) (st6_1 t) fullShare ((dat6 V c).after 1 t) from by
    unfold Dat.leavesExact; rw [live6_1 t], after6_1]
  rw [show (dat6 V c).leavesExact 2 t = owns (c : Thread nD τ) (st6_2 t) fullShare ((dat6 V c).after 2 t) from by
    unfold Dat.leavesExact; rw [live6_2 t], after6_2]
  have hN : t.val < 64 := lt_of_lt_of_eq t.isLt (show cfg6.N = 64 from N_6)
  by_cases h0 : t.val % 4 = 0
  · have h3 : ¬ t.val % 4 = 3 := by omega
    rw [Dat.leavesExact_idle (dat6 V c) 3 t (idle6_3 t h3) (noFlush6_3 t h3)]
    rw [scr6_first V c t h0]; unfold qBlk6 kBlk6 vBlk6 scrHeld6
    iintro ⟨HΦ, Ho, ⟨%d0, H0⟩, ⟨%d1, H1⟩, ⟨%d2, H2⟩, ⟨%d3, H3⟩⟩
    ihave HΦ' := (Phi6_forget V c _ _) $$ HΦ
    unfold scrAny6
    icases HΦ' with ⟨⟨⟨HS0, HS1, HS2, HS3⟩, Hr⟩, Hg⟩
    iapply (attn_run_first6 c Set.univ (grid6.coords t) _ _ _ _ _ _ _ _ _ _ _ _ _ _ _ _ ((kvFirst6_iff t).mpr h0)
      (fun h => h3 ((kvLast6_iff t).mp h)) (iblk6 V c 0 t) (iblk6 V c 1 t) (iblk6 V c 2 t) _ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hr Hg]
    · isplitl [HS0 HS1 HS2 HS3]
      · isplitl [HS0]; · iexact HS0
        isplitl [HS1]; · iexact HS1
        isplitl [HS2]; · iexact HS2
        iexact HS3
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [Phi6_pos V c _ _ hz]
    by_cases h3 : t.val % 4 = 3
    · rw [show (dat6 V c).leavesExact 3 t = owns (c : Thread nD τ) (st6_3 t) fullShare ((dat6 V c).after 3 t) from by
        unfold Dat.leavesExact; rw [live6_3 t h3], after6_3]
      unfold outBlk6
      rw [scr6_next V c t h0]; unfold kBlk6 vBlk6 scrHeld6
      iintro ⟨⟨⟨HS0, HS1, HS2, HS3⟩, Hr, Hg⟩, Ho, ⟨%d0, H0⟩, ⟨%d1, H1⟩, ⟨%d2, H2⟩, ⟨%d3, H3⟩⟩
      iapply (attn_run_last6 c Set.univ (grid6.coords t) _ _ _ _ _ _ _ _ _ _ _ _ _ _ _ _ (fun h => h0 ((kvFirst6_iff t).mp h))
        ((kvLast6_iff t).mpr h3) (iblk6 V c 0 t) (iblk6 V c 1 t) (iblk6 V c 2 t) (scr6 V c ⟨t.val - 1, by omega⟩) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat6 V c) 3 t (idle6_3 t h3) (noFlush6_3 t h3)]
      rw [scr6_next V c t h0]; unfold kBlk6 vBlk6 scrHeld6
      iintro ⟨⟨⟨HS0, HS1, HS2, HS3⟩, Hr, Hg⟩, Ho, ⟨%d0, H0⟩, ⟨%d1, H1⟩, ⟨%d2, H2⟩, ⟨%d3, H3⟩⟩
      iapply (attn_run_mid6 c Set.univ (grid6.coords t) _ _ _ _ _ _ _ _ _ _ _ _ _ _ _ _ (fun h => h0 ((kvFirst6_iff t).mp h))
        (fun h => h3 ((kvLast6_iff t).mp h)) (iblk6 V c 0 t) (iblk6 V c 1 t) (iblk6 V c 2 t) _ (scr6 V c ⟨t.val - 1, by omega⟩) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation6 (c : Dev nD) :
    BodyObligation (dat6 (F := F) V c) (defs₀ (F := F)) Variants.none () Set.univ := fun t => by
  rw [bigSep_W6, bigSep_W6]
  exact sound_body6 V c t

/-! ## The invariant at the launch's two ends -/

/-- Before the first point the invariant is the launch's starting one. -/
theorem Phi6_first (c : Dev nD) : (dat6 V c).Φ 0 = Pipeline.ΦA spec6 c := rfl

/-- After the last point it gives that back. -/
theorem Phi6_last (c : Dev nD) : (dat6 V c).Φ (Fin.last cfg6.N) ⊢ Pipeline.ΦA spec6 c :=
  Phi6_to_start V c (Fin.last cfg6.N).val (Nat.le_of_lt_succ (Fin.last cfg6.N).isLt)

end Region6

end Cert.Kernel.Hand

end
-- ==== Proof.BAttnSeg6.lean ====
/-
  The attention launch of branch 2 as a segment of the kernel program's run. The launch reads the query, key and value
  arrays and writes one array, main_v33: after it every unscoped buffer is as before it except that one, which holds the
  fold of the write-backs at the last key tiles. Inside, the launch's four scratch buffers enter the invariant out of
  the scoped buffers at whatever they hold, carry the online softmax's state from point to point, and are given back
  with their contents forgotten.
-/
import proofs.«117683_j11484742549629_2_alg».proof.Proof.BRunBase
import proofs.«117683_j11484742549629_2_alg».proof.Proof.BAttnBody6

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What the launch leaves in main_v33, from the contents `Wi` it is entered with: its output window's array after
    the last grid point. -/
def attnArr6 (Wi : Dev nD → Valuation τ sig (Elt F)) (c : Dev nD) : Buf (Elt F) ((c : Thread nD τ).loc main_v33) :=
  (dat6 (atTc Wi) c).arrAt 3 cfg6.N

/-- The unscoped buffers after the launch: as before it, main_v33 replaced. -/
abbrev attnAfter6 (Wi : Dev nD → Valuation τ sig (Elt F)) (c : Dev nD) : Valuation τ sig (Elt F) :=
  Function.update (Wi c) main_v33 (attnArr6 Wi c)

/-- After the last point each window's array is the exit contents at its buffer: an input's array is never written,
    the output's is the replaced buffer. -/
theorem attnExitArr6 (Wi : Dev nD → Valuation τ sig (Elt F)) (c : Dev nD) (w : Fin cfg6.W) :
    (dat6 (atTc Wi) c).arrAt w cfg6.N = atTc (attnAfter6 Wi) c (Pipeline.arrRef spec6 w) := by
  match w with
  | ⟨0, _⟩ => exact ((dat6 (atTc Wi) c).arrAt_in ⟨0, by decide⟩ rfl _).trans (Function.update_of_ne (StableHlo.devRef_ne_of_ne (by decide)) _ _).symm
  | ⟨1, _⟩ => exact ((dat6 (atTc Wi) c).arrAt_in ⟨1, by decide⟩ rfl _).trans (Function.update_of_ne (StableHlo.devRef_ne_of_ne (by decide)) _ _).symm
  | ⟨2, _⟩ => exact ((dat6 (atTc Wi) c).arrAt_in ⟨2, by decide⟩ rfl _).trans (Function.update_of_ne (StableHlo.devRef_ne_of_ne (by decide)) _ _).symm
  | ⟨3, _⟩ => exact (Function.update_self (Proc.devRef .tc main_v33 : DevRef τ sig) (attnArr6 Wi c) (Wi c)).symm

/-- Every buffer that is no window's array is as at entry. -/
theorem attnExitKeep6 (Wi : Dev nD → Valuation τ sig (Elt F)) (c : Dev nD) :
    ∀ b, b ∉ Finset.univ.image (Pipeline.arrRef spec6) → atTc (attnAfter6 Wi) c b = atTc Wi c b := by
  intro b hb
  have hne : b ≠ main_v33 := fun e => hb (Finset.mem_image.mpr ⟨3, Finset.mem_univ _, e.symm ▸ rfl⟩)
  exact Function.update_of_ne (StableHlo.devRef_ne_of_ne hne) _ _

set_option backward.isDefEq.respectTransparency.types false in
/-- The launch as a segment between the unscoped buffers' contents `Wi` at entry and `Wo` at exit, for any family of
    proof data whose member at this launch is `dat6` at `Wi`. At entry the windows' arrays are split out of the unscoped
    buffers and the generator register goes into the invariant, which at the first point is the launch's starting one
    (every scoped buffer that is no staging buffer at some contents: the four scratch buffers among them). At exit the
    invariant after the last point, which holds the scratch at the last state, gives the starting one back; the arrays
    are put back, each at `Wo` (`hArr`), every other buffer as at entry (`hKeep`). The kernel has no semaphore of its
    own and the core owes nothing. -/
def attnSeg6 (pdats : (p : Fin 13) → (c : Dev nD) → Dat τ (Elt F) Unit ℕ (UR sig nD τ) ℕ (cfgs p) c)
    (Wi Wo : Dev nD → Valuation τ sig (Elt F))
    (hp : ∀ c, pdats 6 c = dat6 (atTc Wi) c)
    (hArr : ∀ c (w : Fin cfg6.W), (dat6 (atTc Wi) c).arrAt w cfg6.N = atTc Wo c (Pipeline.arrRef spec6 w))
    (hKeep : ∀ c, ∀ b, b ∉ Finset.univ.image (Pipeline.arrRef spec6) → atTc Wo c b = atTc Wi c b) :
    RegionSeg (pcfgs (F := F)) adm pdats () defs₀ Variants.none noLevels levelZero 6 where
  win := launch6.win.to₀
  block_pos := launch6.block_pos
  stage_whole := launch6.stage_whole
  K := PEmpty
  osem k := k.elim
  ho := Pipeline.OwnSemFacts.none _
  hbody c := by rw [hp c]; exact (body_obligation6 (atTc Wi) c).loose
  hwaits := Pipeline.hwaits_of_owed_zero _ _ _ _ noLevels levelZero 6 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec6 c (atTc Wi c)
  hentry c := by
    rw [Pipeline.ownSems0_none]
    have hsplit := Pipeline.arrays_of_unscopedBufs (p := 6) (pcfgs (F := F)) adm pdats launch6.win launch6.arr_whole c
      ((pdats 6 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec6 c : sProp 𝕄)
    unfold Pipeline.ΦA
    iintro ⟨Hreg, -, Hscoped⟩
    isplitl [Hscoped]; · iexact Hscoped
    iexact Hreg
  hout c := by
    rw [Pipeline.ownSems0_none, hp c]
    refine (Phi6_last (atTc Wi) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 6) (pcfgs (F := F)) adm (Ix := Unit) (Name := ℕ) (U := UR sig nD τ) (Lvl := ℕ)
      launch6.win launch6.arr_whole c pdats ((pdats 6 c).share_full fun _ => by rw [hp c]; rfl)
      (atTc Wi c) (atTc Wo c) ((pdats 6 c).arrAt · cfg6.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BLinDat7.lean ====
/- Region 7 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.Kernel.Skeleton
import proofs.«117683_j11484742549629_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-! ## The rectangles the body reads and writes: each is a whole staging buffer -/

/-- all of a 512x1024 tile (the activation tile, and the result tile) -/
abbrev tileAll7 : Rect S512x1024 := Rect.unit (s := S512x1024) ![0, 0] S512x1024.size inb_S512x1024_S512x1024_0_0
/-- all of the 1024x1024 weight matrix -/
abbrev weightAll7 : Rect S1024x1024 := Rect.unit (s := S1024x1024) ![0, 0] S1024x1024.size inb_S1024x1024_S1024x1024_0_0
/-- all of the 1x1024 bias row -/
abbrev biasAll7 : Rect S1x1024 := Rect.unit (s := S1x1024) ![0, 0] S1x1024.size inb_S1x1024_S1x1024_0_0

/-- A pair of zero offsets is the constant-zero offset. -/
theorem zeroOffsets7 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out7 (x : Vec F S512x1024 .f32) (wt : Vec F S1024x1024 .bf16) (bias : Vec F S1x1024 .f32) : Vec F S512x1024 .bf16 :=
  View.canon [⟨tileAll7, k7_pay1 (View.ld x tileAll7) (View.ld wt weightAll7) (View.ld bias biasAll7)⟩]

/-- Since the store and the loads are through whole buffers, the stored block is the payload of the
    input blocks themselves. -/
theorem out7_eq_pay (x : Vec F S512x1024 .f32) (wt : Vec F S1024x1024 .bf16) (bias : Vec F S1x1024 .f32) :
    out7 x wt bias = k7_pay1 x wt bias := by
  unfold out7
  rw [View.canon_unit_zero (S := S512x1024) zeroOffsets7 inb_S512x1024_S512x1024_0_0,
    View.ld_unit_zero (S := S512x1024) zeroOffsets7 inb_S512x1024_S512x1024_0_0,
    View.ld_unit_zero (S := S1024x1024) zeroOffsets7 inb_S1024x1024_S1024x1024_0_0,
    View.ld_unit_zero (S := S1x1024) zeroOffsets7 inb_S1x1024_S1x1024_0_0]

/-- The single store reaches every index of the tile. -/
theorem storeCovers7 (p : Vec F S512x1024 .bf16) (y : S512x1024.Idx) :
    ∃ pc ∈ ([⟨tileAll7, p⟩] : List (View.Piece (Elt F) S512x1024 .bf16)), y ∈ pc.1.set :=
  ⟨_, List.mem_singleton_self _, View.mem_set_unit_zero (S := S512x1024) zeroOffsets7 inb_S512x1024_S512x1024_0_0 y⟩

/-! ## Proof data of the pipeline -/

/-- On core `c`: every window's array is what the entry valuation says; after the body at point `t` the three
    input buffers still hold their blocks and the result buffer holds `out7` of them; the invariant is the
    untouched rest (scoped buffers and the generator register); no debts, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7 (iblk7 V c 0 t) (iblk7 V c 1 t) (iblk7 V c 2 t) := by dsimp only [dat7]

/-- The same, with the stored block spelt as the payload of the input blocks. -/
theorem after7_3_pay (c : Dev nD) (t : Fin cfg7.N) :
    (dat7 V c).after 3 t = k7_pay1 (iblk7 V c 0 t) (iblk7 V c 1 t) (iblk7 V c 2 t) := by
  rw [after7_3, out7_eq_pay]

/-! ## What an input's staging buffer holds when the body starts -/

/-- The activation tile's buffer holds the tile's block at every point (it is fetched at every point). -/
theorem before7_0 (c : Dev nD) (t : Fin cfg7.N) (d) : (dat7 V c).before 0 t d = iblk7 V c 0 t :=
  ((dat7 V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

/-- The weight matrix's buffer holds the matrix at every point: fetched once, and its index never moves. -/
theorem before7_1 (c : Dev nD) (t : Fin cfg7.N) (d) : (dat7 V c).before 1 t d = iblk7 V c 1 t :=
  ((dat7 V c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)

/-- Likewise the bias row's buffer. -/
theorem before7_2 (c : Dev nD) (t : Fin cfg7.N) (d) : (dat7 V c).before 2 t d = iblk7 V c 2 t :=
  ((dat7 V c).before_in_eq_fetched 2 rfl (fun _ => rfl) (fun _ _ _ => rfl)
      (fun t => by rw [after7_2]; unfold Dat.blockOf iblk7; rw [A_eq7]; try rfl) t d).trans
    (by unfold Dat.fetched Dat.blockOf iblk7; rw [A_eq7]; try rfl)

end Cert.Kernel.Hand
-- ==== Proof.BLinBody7.lean ====
/- Region 7 (a key/value projection): the kernel body run on whole staging buffers, and from it the
   obligation the pipeline asks of the body at every grid point. -/
import proofs.«117683_j11484742549629_2_alg».proof.Proof.BLinDat7
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows7 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out7` of them. It loads the four buffers whole and stores once, through the whole tile. -/
theorem sound_kernel7 (c : Dev nD) (E : Set ℕ) (i : grid7.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out7 x wt bias)) -∗ K ⟨⟩))
      ⊢ wp frame (wpE (defs₀ (F := F)) Variants.none c none) E (cc7__kv_kernel i mx hmx mw hmw mb hmb mo hmo) K := by
  rw [cc7__kv_kernel_eq_skeleton]; unfold cc7__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers7 _)

/-! ## The obligation at a grid point -/

/-- What the pipeline hands the body at point `t`: the invariant, the core's debts, and the four staging buffers. -/
def bodyGiven7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- What it must hand back. -/
def bodyOwed7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- At every point the three input buffers hold their blocks, so the run on whole buffers applies; the
    invariant and the debts are not touched by the body. -/
theorem sound_body7 (c : Dev nD) (t : Fin cfg7.N) :
    bodyGiven7 V c t ⊢ wp frame (wpE (defs₀ (F := F)) Variants.none c none) Set.univ (bodyAt7 t) (fun _ => bodyOwed7 V c t) := by
  unfold bodyGiven7 bodyOwed7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨Hinv, Hdebt, ⟨%d0, B0⟩, ⟨%d1, B1⟩, ⟨%d2, B2⟩, ⟨%d3, B3⟩⟩
  iapply (sound_kernel7 c Set.univ _ _ _ _ _ _ _ _ _ (iblk7 V c 0 t) (iblk7 V c 1 t) (iblk7 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation7 (c : Dev nD) :
    BodyObligation (dat7 (F := F) V c) (defs₀ (F := F)) Variants.none () Set.univ := fun t => by
  rw [fourWindows7, fourWindows7]
  exact sound_body7 V c t

end Cert.Kernel.Hand
-- ==== Proof.BRunSeg7.lean ====
/-
  Region 7 of the kernel program's @main as a segment of the run. The region reads its input windows' arrays and writes one
  array, main_v37: so the contents after it are the contents before it with that buffer replaced by the fold of the grid
  points' write-backs, every input window's array being what it was (a window that is never written back keeps its array).
-/
import proofs.«117683_j11484742549629_2_alg».proof.Proof.BRunBase
import proofs.«117683_j11484742549629_2_alg».proof.Proof.BLinBody7

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What region 7 leaves in main_v37, from entry contents Wi. -/
def outArr7 (Wi : Dev nD → Valuation τ sig (Elt F)) (c : Dev nD) : Buf (Elt F) ((c : Thread nD τ).loc main_v37) :=
  (dat7 (atTc Wi) c).arrAt 3 cfg7.N
/-- The contents after region 7. -/
abbrev after7 (Wi : Dev nD → Valuation τ sig (Elt F)) (c : Dev nD) : Valuation τ sig (Elt F) :=
  Function.update (Wi c) main_v37 (outArr7 Wi c)

/-- Each window's array after the last grid point is the exit contents at that window's buffer. -/
theorem exitArr7 (Wi : Dev nD → Valuation τ sig (Elt F)) (c : Dev nD) (w : Fin cfg7.W) :
    (dat7 (atTc Wi) c).arrAt w cfg7.N = atTc (after7 Wi) c (Pipeline.arrRef spec7 w) := by
  match w with
  | ⟨0, _⟩ => exact ((dat7 (atTc Wi) c).arrAt_in ⟨0, by decide⟩ rfl _).trans (Function.update_of_ne (StableHlo.devRef_ne_of_ne (by decide)) _ _).symm
  | ⟨1, _⟩ => exact ((dat7 (atTc Wi) c).arrAt_in ⟨1, by decide⟩ rfl _).trans (Function.update_of_ne (StableHlo.devRef_ne_of_ne (by decide)) _ _).symm
  | ⟨2, _⟩ => exact ((dat7 (atTc Wi) c).arrAt_in ⟨2, by decide⟩ rfl _).trans (Function.update_of_ne (StableHlo.devRef_ne_of_ne (by decide)) _ _).symm
  | ⟨3, _⟩ => exact (Function.update_self (Proc.devRef .tc main_v37 : DevRef τ sig) (outArr7 Wi c) (Wi c)).symm

/-- Every buffer that is no window's array is as at entry. -/
theorem exitKeep7 (Wi : Dev nD → Valuation τ sig (Elt F)) (c : Dev nD) :
    ∀ b, b ∉ Finset.univ.image (Pipeline.arrRef spec7) → atTc (after7 Wi) c b = atTc Wi c b := by
  intro b hb
  have hne : b ≠ main_v37 := fun e => hb (Finset.mem_image.mpr ⟨3, Finset.mem_univ _, e.symm ▸ rfl⟩)
  exact Function.update_of_ne (StableHlo.devRef_ne_of_ne hne) _ _

set_option backward.isDefEq.respectTransparency.types false in
/-- Region 7 as a segment between two valuations Wi (entry) and Wo (exit) of the unscoped buffers, for any family of proof
    data whose entry at region 7 is this region's. The region's arrays are split out of the unscoped buffers at entry and put
    back at exit, where each window's array is Wo at that window's buffer (hArr) and every other buffer is as at entry (hKeep);
    the generator register goes into the class invariant and comes back; the kernel has no semaphore of its own and owes nothing. -/
def linSeg7 (pdats : (p : Fin 13) → (c : Dev nD) → Dat τ (Elt F) Unit ℕ (UR sig nD τ) ℕ (cfgs p) c)
    (Wi Wo : Dev nD → Valuation τ sig (Elt F))
    (hp : ∀ c, pdats 7 c = dat7 (atTc Wi) c)
    (hArr : ∀ c (w : Fin cfg7.W), (dat7 (atTc Wi) c).arrAt w cfg7.N = atTc Wo c (Pipeline.arrRef spec7 w))
    (hKeep : ∀ c, ∀ b, b ∉ Finset.univ.image (Pipeline.arrRef spec7) → atTc Wo c b = atTc Wi c b) :
    RegionSeg (pcfgs (F := F)) adm pdats () defs₀ Variants.none noLevels levelZero 7 where
  win := launch7.win.to₀
  block_pos := launch7.block_pos
  stage_whole := launch7.stage_whole
  K := PEmpty
  osem k := k.elim
  ho := Pipeline.OwnSemFacts.none _
  hbody c := by rw [hp c]; exact (body_obligation7 (atTc Wi) c).loose
  hwaits := Pipeline.hwaits_of_owed_zero _ _ _ _ noLevels levelZero 7 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec7 c (atTc Wi c)
  hentry c := by
    rw [Pipeline.ownSems0_none]
    have hsplit := Pipeline.arrays_of_unscopedBufs (p := 7) (pcfgs (F := F)) adm pdats launch7.win launch7.arr_whole c
      ((pdats 7 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec7 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec7 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 7) (pcfgs (F := F)) adm (Ix := Unit) (Name := ℕ) (U := UR sig nD τ) (Lvl := ℕ)
      launch7.win launch7.arr_whole c pdats ((pdats 7 c).share_full fun _ => by rw [hp c]; rfl)
      (atTc Wi c) (atTc Wo c) ((pdats 7 c).arrAt · cfg7.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BLinDat8.lean ====
/- Region 8 (a key/value projection: one activation tile times the weight matrix, plus the bias row,
   rounded to bf16): the blocks its four windows hold at a grid point, the block its body stores as a
   function of the three input blocks, and the pipeline's proof data at an arbitrary entry valuation. -/
import proofs.«117683_j11484742549629_2_alg».proof.Proof.Gen.Kernel.Skeleton
import proofs.«117683_j11484742549629_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-! ## The rectangles the body reads and writes: each is a whole staging buffer -/

/-- all of a 512x1024 tile (the activation tile, and the result tile) -/
abbrev tileAll8 : Rect S512x1024 := Rect.unit (s := S512x1024) ![0, 0] S512x1024.size inb_S512x1024_S512x1024_0_0
/-- all of the 1024x1024 weight matrix -/
abbrev weightAll8 : Rect S1024x1024 := Rect.unit (s := S1024x1024) ![0, 0] S1024x1024.size inb_S1024x1024_S1024x1024_0_0
/-- all of the 1x1024 bias row -/
abbrev biasAll8 : Rect S1x1024 := Rect.unit (s := S1x1024) ![0, 0] S1x1024.size inb_S1x1024_S1x1024_0_0

/-- A pair of zero offsets is the constant-zero offset. -/
theorem zeroOffsets8 : (![0, 0] : Fin 2 → Nat) = fun _ => 0 := funext fun a => by fin_cases a <;> rfl

/-! ## The stored block -/

/-- The result buffer after the body, given the three input buffers' contents: the body's single store,
    which goes through the whole tile, with the payload evaluated at the three whole-buffer loads. -/
def out8 (x : Vec F S512x1024 .f32) (wt : Vec F S1024x1024 .bf16) (bias : Vec F S1x1024 .f32) : Vec F S512x1024 .bf16 :=
  View.canon [⟨tileAll8, k8_pay1 (View.ld x tileAll8) (View.ld wt weightAll8) (View.ld bias biasAll8)⟩]

/-- Since the store and the loads are through whole buffers, the stored block is the payload of the
    input blocks themselves. -/
theorem out8_eq_pay (x : Vec F S512x1024 .f32) (wt : Vec F S1024x1024 .bf16) (bias : Vec F S1x1024 .f32) :
    out8 x wt bias = k8_pay1 x wt bias := by
  unfold out8
  rw [View.canon_unit_zero (S := S512x1024) zeroOffsets8 inb_S512x1024_S512x1024_0_0,
    View.ld_unit_zero (S := S512x1024) zeroOffsets8 inb_S512x1024_S512x1024_0_0,
    View.ld_unit_zero (S := S1024x1024) zeroOffsets8 inb_S1024x1024_S1024x1024_0_0,
    View.ld_unit_zero (S := S1x1024) zeroOffsets8 inb_S1x1024_S1x1024_0_0]

/-- The single store reaches every index of the tile. -/
theorem storeCovers8 (p : Vec F S512x1024 .bf16) (y : S512x1024.Idx) :
    ∃ pc ∈ ([⟨tileAll8, p⟩] : List (View.Piece (Elt F) S512x1024 .bf16)), y ∈ pc.1.set :=
  ⟨_, List.mem_singleton_self _, View.mem_set_unit_zero (S := S512x1024) zeroOffsets8 inb_S512x1024_S512x1024_0_0 y⟩

/-! ## Proof data of the pipeline -/

/-- On core `c`: every window's array is what the entry valuation says; after the body at point `t` the three
    input buffers still hold their blocks and the result buffer holds `out8` of them; the invariant is the
    untouched rest (scoped buffers and the generator register); no debts, full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8 (iblk8 V c 0 t) (iblk8 V c 1 t) (iblk8 V c 2 t) := by dsimp only [dat8]

/-- The same, with the stored block spelt as the payload of the input blocks. -/
theorem after8_3_pay (c : Dev nD) (t : Fin cfg8.N) :
    (dat8 V c).after 3 t = k8_pay1 (iblk8 V c 0 t) (iblk8 V c 1 t) (iblk8 V c 2 t) := by
  rw [after8_3, out8_eq_pay]

/-! ## What an input's staging buffer holds when the body starts -/

/-- The activation tile's buffer holds the tile's block at every point (it is fetched at every point). -/
theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)

/-- The weight matrix's buffer holds the matrix at every point: fetched once, and its index never moves. -/
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

/-- Likewise the bias row's buffer. -/
theorem before8_2 (c : Dev nD) (t : Fin cfg8.N) (d) : (dat8 V c).before 2 t d = iblk8 V c 2 t :=
  ((dat8 V c).before_in_eq_fetched 2 rfl (fun _ => rfl) (fun _ _ _ => rfl)
      (fun t => by rw [after8_2]; unfold Dat.blockOf iblk8; rw [A_eq8]; try rfl) t d).trans
    (by unfold Dat.fetched Dat.blockOf iblk8; rw [A_eq8]; try rfl)

end Cert.Kernel.Hand
-- ==== Proof.BLinBody8.lean ====
/- Region 8 (a key/value projection): the kernel body run on whole staging buffers, and from it the
   obligation the pipeline asks of the body at every grid point. -/
import proofs.«117683_j11484742549629_2_alg».proof.Proof.BLinDat8
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the four windows, written out. -/
theorem fourWindows8 {M : Type} [URA M] (P : Fin 4 → sProp M) :
    bigSep Finset.univ P = iprop(P 0 ∗ P 1 ∗ P 2 ∗ P 3) :=
  bigSep_univ_eq_bigSepL [(0 : Fin 4), 1, 2, 3] (by decide) (by decide) P

variable (V : (c : Dev nD) → (b : Ref sig .tc) → Buf (Elt F) ((c : Thread nD τ).loc b))

/-! ## The body on whole buffers -/

set_option maxHeartbeats 1000000 in
/-- Given the activation tile, the weight matrix and the bias row in three whole buffers, and a fourth whole
    buffer holding anything, the body ends with the first three unchanged and the fourth holding
    `out8` of them. It loads the four buffers whole and stores once, through the whole tile. -/
theorem sound_kernel8 (c : Dev nD) (E : Set ℕ) (i : grid8.Coords)
    (mx : Memref sig .tc .vmem S512x1024 .f32) (hmx : mx.IsWhole)
    (mw : Memref sig .tc .vmem S1024x1024 .bf16) (hmw : mw.IsWhole)
    (mb : Memref sig .tc .vmem S1x1024 .f32) (hmb : mb.IsWhole)
    (mo : Memref sig .tc .vmem S512x1024 .bf16) (hmo : mo.IsWhole)
    (x : Vec F S512x1024 .f32) (wt : Vec F S1024x1024 .bf16) (bias : Vec F S1x1024 .f32) (K : PUnit → sProp 𝕄) :
    iprop(owns (c : Thread nD τ) mx fullShare x ∗ owns (c : Thread nD τ) mw fullShare wt
        ∗ owns (c : Thread nD τ) mb fullShare bias ∗ (∃ d, owns (c : Thread nD τ) mo fullShare d)
        ∗ (iprop(owns (c : Thread nD τ) mx fullShare x ∗ owns (c : Thread nD τ) mw fullShare wt
            ∗ owns (c : Thread nD τ) mb fullShare bias ∗ owns (c : Thread nD τ) mo fullShare (out8 x wt bias)) -∗ K ⟨⟩))
      ⊢ wp frame (wpE (defs₀ (F := F)) Variants.none c none) E (cc8__kv_kernel i mx hmx mw hmw mb hmb mo hmo) K := by
  rw [cc8__kv_kernel_eq_skeleton]; unfold cc8__kv_kernel_skel
  unfold owns
  iintro ⟨⟨%fx, %ex, Px⟩, ⟨%fw, %ew, Pw⟩, ⟨%fb, %eb, Pb⟩, ⟨%d, %fo, -, Po⟩, Hcont⟩
  subst ex; subst ew; subst eb
  sl_exec
  sl_step
  iapply Hcont
  isplitl [Px]
  · iexists fx; isplitr
    · ipureintro; rfl
    · iexact Px
  isplitl [Pw]
  · iexists fw; isplitr
    · ipureintro; rfl
    · iexact Pw
  isplitl [Pb]
  · iexists fb; isplitr
    · ipureintro; rfl
    · iexact Pb
  iexists _; isplitr
  swap
  · iexact Po
  ipureintro
  exact View.read_writes_eq_canon _ _ _ (storeCovers8 _)

/-! ## The obligation at a grid point -/

/-- What the pipeline hands the body at point `t`: the invariant, the core's debts, and the four staging buffers. -/
def bodyGiven8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- What it must hand back. -/
def bodyOwed8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- At every point the three input buffers hold their blocks, so the run on whole buffers applies; the
    invariant and the debts are not touched by the body. -/
theorem sound_body8 (c : Dev nD) (t : Fin cfg8.N) :
    bodyGiven8 V c t ⊢ wp frame (wpE (defs₀ (F := F)) Variants.none c none) Set.univ (bodyAt8 t) (fun _ => bodyOwed8 V c t) := by
  unfold bodyGiven8 bodyOwed8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨Hinv, Hdebt, ⟨%d0, B0⟩, ⟨%d1, B1⟩, ⟨%d2, B2⟩, ⟨%d3, B3⟩⟩
  iapply (sound_kernel8 c Set.univ _ _ _ _ _ _ _ _ _ (iblk8 V c 0 t) (iblk8 V c 1 t) (iblk8 V c 2 t) _)
  isplitl [B0]; · iexact B0
  isplitl [B1]; · iexact B1
  isplitl [B2]; · iexact B2
  isplitl [B3]; · iexists _; iexact B3
  iintro ⟨B0, B1, B2, B3⟩
  isplitl [Hinv]; · iexact Hinv
  isplitl [Hdebt]; · iexact Hdebt
  isplitl [B0]; · iexact B0
  isplitl [B1]; · iexact B1
  isplitl [B2]; · iexact B2
  iexact B3

/-- The pipeline's obligation on the body, at every grid point. -/
theorem body_obligation8 (c : Dev nD) :
    BodyObligation (dat8 (F := F) V c) (defs₀ (F := F)) Variants.none () Set.univ := fun t => by
  rw [fourWindows8, fourWindows8]
  exact sound_body8 V c t

end Cert.Kernel.Hand
-- ==== Proof.BRunSeg8.lean ====
/-
  Region 8 of the kernel program's @main as a segment of the run. The region reads its input windows' arrays and writes one
  array, main_v42: so the contents after it are the contents before it with that buffer replaced by the fold of the grid
  points' write-backs, every input window's array being what it was (a window that is never written back keeps its array).
-/
import proofs.«117683_j11484742549629_2_alg».proof.Proof.BRunBase
import proofs.«117683_j11484742549629_2_alg».proof.Proof.BLinBody8

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What region 8 leaves in main_v42, from entry contents Wi. -/
def outArr8 (Wi : Dev nD → Valuation τ sig (Elt F)) (c : Dev nD) : Buf (Elt F) ((c : Thread nD τ).loc main_v42) :=
  (dat8 (atTc Wi) c).arrAt 3 cfg8.N
/-- The contents after region 8. -/
abbrev after8 (Wi : Dev nD → Valuation τ sig (Elt F)) (c : Dev nD) : Valuation τ sig (Elt F) :=
  Function.update (Wi c) main_v42 (outArr8 Wi c)

/-- Each window's array after the last grid point is the exit contents at that window's buffer. -/
theorem exitArr8 (Wi : Dev nD → Valuation τ sig (Elt F)) (c : Dev nD) (w : Fin cfg8.W) :
    (dat8 (atTc Wi) c).arrAt w cfg8.N = atTc (after8 Wi) c (Pipeline.arrRef spec8 w) := by
  match w with
  | ⟨0, _⟩ => exact ((dat8 (atTc Wi) c).arrAt_in ⟨0, by decide⟩ rfl _).trans (Function.update_of_ne (StableHlo.devRef_ne_of_ne (by decide)) _ _).symm
  | ⟨1, _⟩ => exact ((dat8 (atTc Wi) c).arrAt_in ⟨1, by decide⟩ rfl _).trans (Function.update_of_ne (StableHlo.devRef_ne_of_ne (by decide)) _ _).symm
  | ⟨2, _⟩ => exact ((dat8 (atTc Wi) c).arrAt_in ⟨2, by decide⟩ rfl _).trans (Function.update_of_ne (StableHlo.devRef_ne_of_ne (by decide)) _ _).symm
  | ⟨3, _⟩ => exact (Function.update_self (Proc.devRef .tc main_v42 : DevRef τ sig) (outArr8 Wi c) (Wi c)).symm

/-- Every buffer that is no window's array is as at entry. -/
theorem exitKeep8 (Wi : Dev nD → Valuation τ sig (Elt F)) (c : Dev nD) :
    ∀ b, b ∉ Finset.univ.image (Pipeline.arrRef spec8) → atTc (after8 Wi) c b = atTc Wi c b := by
  intro b hb
  have hne : b ≠ main_v42 := fun e => hb (Finset.mem_image.mpr ⟨3, Finset.mem_univ _, e.symm ▸ rfl⟩)
  exact Function.update_of_ne (StableHlo.devRef_ne_of_ne hne) _ _

set_option backward.isDefEq.respectTransparency.types false in
/-- Region 8 as a segment between two valuations Wi (entry) and Wo (exit) of the unscoped buffers, for any family of proof
    data whose entry at region 8 is this region's. The region's arrays are split out of the unscoped buffers at entry and put
    back at exit, where each window's array is Wo at that window's buffer (hArr) and every other buffer is as at entry (hKeep);
    the generator register goes into the class invariant and comes back; the kernel has no semaphore of its own and owes nothing. -/
def linSeg8 (pdats : (p : Fin 13) → (c : Dev nD) → Dat τ (Elt F) Unit ℕ (UR sig nD τ) ℕ (cfgs p) c)
    (Wi Wo : Dev nD → Valuation τ sig (Elt F))
    (hp : ∀ c, pdats 8 c = dat8 (atTc Wi) c)
    (hArr : ∀ c (w : Fin cfg8.W), (dat8 (atTc Wi) c).arrAt w cfg8.N = atTc Wo c (Pipeline.arrRef spec8 w))
    (hKeep : ∀ c, ∀ b, b ∉ Finset.univ.image (Pipeline.arrRef spec8) → atTc Wo c b = atTc Wi c b) :
    RegionSeg (pcfgs (F := F)) adm pdats () defs₀ Variants.none noLevels levelZero 8 where
  win := launch8.win.to₀
  block_pos := launch8.block_pos
  stage_whole := launch8.stage_whole
  K := PEmpty
  osem k := k.elim
  ho := Pipeline.OwnSemFacts.none _
  hbody c := by rw [hp c]; exact (body_obligation8 (atTc Wi) c).loose
  hwaits := Pipeline.hwaits_of_owed_zero _ _ _ _ noLevels levelZero 8 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec8 c (atTc Wi c)
  hentry c := by
    rw [Pipeline.ownSems0_none]
    have hsplit := Pipeline.arrays_of_unscopedBufs (p := 8) (pcfgs (F := F)) adm pdats launch8.win launch8.arr_whole c
      ((pdats 8 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec8 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec8 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 8) (pcfgs (F := F)) adm (Ix := Unit) (Name := ℕ) (U := UR sig nD τ) (Lvl := ℕ)
      launch8.win launch8.arr_whole c pdats ((pdats 8 c).share_full fun _ => by rw [hp c]; rfl)
      (atTc Wi c) (atTc Wo c) ((pdats 8 c).arrAt · cfg8.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BAttnDat9.lean ====
/-
  The attention launch of branch 3 (the tenth pallas_call: grid batch x query tile x key tile = 4 x 4 x 4, the key
  tile innermost): what its four carried buffers — running maximum, running denominator, running numerator, scaled
  queries — hold after every grid point, by recursion on the point, in terms of the body's store payloads; what the
  output block holds where it is stored; and the proof data of the launch built from them.

  At a point whose key tile is the first the body resets the four buffers (maximum to a large negative constant,
  denominator and numerator to zero, scaled queries to the query block times 1/32) before the update; at every point
  it folds the key and value blocks into maximum, denominator and numerator; at a point whose key tile is the last it
  stores numerator / denominator into the output block.
-/
import proofs.«117683_j11484742549629_2_alg».proof.Proof.BAttnDat
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Branch 3 (pallas_call 9) at the contents `V` its region is entered with -/

section Region9

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The query, key and value blocks at point `t`. -/
def qBlk9 (c : Dev nD) (t : Fin cfg9.N) : Vec F S1x512x1024 .bf16 := iblk9 V c 0 t
def kBlk9 (c : Dev nD) (t : Fin cfg9.N) : Vec F S1x512x1024 .bf16 := iblk9 V c 1 t
def vBlk9 (c : Dev nD) (t : Fin cfg9.N) : Vec F S1x512x1024 .bf16 := iblk9 V c 2 t

/-- THE RECURRENCE. What the four carried buffers hold after the body at position `n` of the grid (the key tile is
    `n % 4`): at a first key tile the reset state with this point's keys and values folded in, elsewhere the state the
    point before left with them folded in. -/
def scrAt9 (c : Dev nD) : (n : ℕ) → n < cfg9.N → AttnScr F
  | 0, h => attnStep (kBlk9 V c ⟨0, h⟩) (vBlk9 V c ⟨0, h⟩) (attnReset (qBlk9 V c ⟨0, h⟩))
  | n + 1, h =>
    attnStep (kBlk9 V c ⟨n + 1, h⟩) (vBlk9 V c ⟨n + 1, h⟩)
      (if (n + 1) % 4 = 0 then attnReset (qBlk9 V c ⟨n + 1, h⟩) else scrAt9 c n (Nat.lt_of_succ_lt h))

/-- The state point `t` leaves, and its components by name. -/
def scr9 (c : Dev nD) (t : Fin cfg9.N) : AttnScr F := scrAt9 V c t.val t.isLt
def scrM9 (c : Dev nD) (t : Fin cfg9.N) : Vec F S512x1 .f32 := (scr9 V c t).m
def scrL9 (c : Dev nD) (t : Fin cfg9.N) : Vec F S512x1 .f32 := (scr9 V c t).l
def scrAcc9 (c : Dev nD) (t : Fin cfg9.N) : Vec F S512x1024 .f32 := (scr9 V c t).acc
def scrQs9 (c : Dev nD) (t : Fin cfg9.N) : Vec F S512x1024 .bf16 := (scr9 V c t).qs

/-- What the output block's staging buffer holds after point `t` (stored at the last key tile). -/
def outBlk9 (c : Dev nD) (t : Fin cfg9.N) : Vec F S1x512x1024 .bf16 := attnOut (scr9 V c t)

/-- At a first key tile: the reset state, this point's keys and values folded in. -/
theorem scr9_first (c : Dev nD) (t : Fin cfg9.N) (h0 : t.val % 4 = 0) :
    scr9 V c t = attnStep (kBlk9 V c t) (vBlk9 V c t) (attnReset (qBlk9 V c t)) := by
  obtain ⟨n, hn⟩ := t
  cases n with
  | zero => rfl
  | succ n => exact congrArg (attnStep _ _) (if_pos h0)

/-- Elsewhere: what the point before left, this point's keys and values folded in. -/
theorem scr9_next (c : Dev nD) (t : Fin cfg9.N) (h0 : ¬ t.val % 4 = 0) :
    scr9 V c t = attnStep (kBlk9 V c t) (vBlk9 V c t)
      (scr9 V c ⟨t.val - 1, Nat.lt_of_le_of_lt (Nat.sub_le _ _) t.isLt⟩) := by
  obtain ⟨n, hn⟩ := t
  cases n with
  | zero => exact absurd (Nat.zero_mod _) h0
  | succ n => exact congrArg (attnStep _ _) (if_neg h0)

/-! ## The invariant: the four scratch buffers at the recurrence's contents -/

/-- The call's four scratch buffers, whole, at the state `s`. -/
def scrHeld9 (c : Dev nD) (s : AttnScr F) : sProp 𝕄 :=
  iprop(owns (c : Thread nD τ) (Memref.whole cc9_scratch0) fullShare s.m
    ∗ owns (c : Thread nD τ) (Memref.whole cc9_scratch1) fullShare s.l
    ∗ owns (c : Thread nD τ) (Memref.whole cc9_scratch2) fullShare s.acc
    ∗ owns (c : Thread nD τ) (Memref.whole cc9_scratch3) fullShare s.qs)

/-- The core's other scoped buffers that are no staging buffer of this call, each at some contents. -/
abbrev scrRest9 (c : Dev nD) : sProp 𝕄 :=
  Pipeline.scopedRestBut (Ix := Unit) (Name := ℕ) (U := UR sig nD τ) (Lvl := ℕ) (Val := Elt F) spec9 c
    [cc9_scratch0, cc9_scratch1, cc9_scratch2, cc9_scratch3]

/-- Before position `n`: at the launch's start every scoped non-staging buffer at some contents and the generator
    register at some state; afterwards the four scratch buffers at what the point before left, the other scoped
    buffers at some contents, the generator register at some state. -/
def Phi9 (c : Dev nD) : (n : ℕ) → n ≤ cfg9.N → sProp 𝕄
  | 0, _ => Pipeline.ΦA spec9 c
  | n + 1, hn => iprop(scrHeld9 c (scrAt9 V c n hn) ∗ scrRest9 (F := F) c ∗ (∃ r, prngReg c r))

theorem Phi9_zero (c : Dev nD) (n : ℕ) (h : n ≤ cfg9.N) (hz : n = 0) : Phi9 V c n h = Pipeline.ΦA spec9 c := by
  subst hz; rfl

theorem Phi9_succ (c : Dev nD) (n : ℕ) (hn : n < cfg9.N) :
    Phi9 V c (n + 1) hn = iprop(scrHeld9 c (scr9 V c ⟨n, hn⟩) ∗ scrRest9 (F := F) c ∗ (∃ r, prngReg c r)) := rfl

theorem Phi9_pos (c : Dev nD) (n : ℕ) (h : n ≤ cfg9.N) (hz : n ≠ 0) :
    Phi9 V c n h = iprop(scrHeld9 c (scr9 V c ⟨n - 1, by omega⟩) ∗ scrRest9 (F := F) c ∗ (∃ r, prngReg c r)) := by
  cases n with
  | zero => exact absurd rfl hz
  | succ n => rfl

/-! ## The proof data -/

/-- The proof data of the launch on core `c`: the arrays as the region finds them; after the body each input's
    buffer at its block and the output's at the quotient the state gives; the invariant `Phi9`; nothing owed; full
    shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => outBlk9 V c t
  Φ t := Phi9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = outBlk9 V c t := by dsimp only [dat9]

theorem Phi9_castSucc (c : Dev nD) (t : Fin cfg9.N) :
    (dat9 V c).Φ t.castSucc = Phi9 V c t.val (Nat.le_of_lt t.isLt) := by
  dsimp only [dat9]; simp only [Fin.coe_castSucc]

theorem Phi9_at_succ (c : Dev nD) (t : Fin cfg9.N) :
    (dat9 V c).Φ t.succ = iprop(scrHeld9 c (scr9 V c t) ∗ scrRest9 (F := F) c ∗ (∃ r, prngReg c r)) := rfl

end Region9

end Cert.Kernel.Hand

end
-- ==== Proof.BAttnRun9.lean ====
/-
  The attention body's triple. On whole memrefs — the query, key and value blocks, the output block and the four carried
  buffers — the body run at a grid point leaves the three input blocks as it found them, takes the carried buffers from a
  state to that state with the key and value blocks folded in (from the reset state at a first key tile, whatever the
  buffers held), and leaves the output block as found except at a last key tile, where it stores the quotient. One
  theorem per case of the two tests on the key-tile coordinate; with four key tiles no point is both first and last.
-/
import proofs.«117683_j11484742549629_2_alg».proof.Proof.BAttnDat9
import proofs.«117683_j11484742549629_2_alg».proof.Proof.BAttnRun
import proofs.«117683_j11484742549629_2_alg».proof.Proof.LaunchK
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two tests on the key-tile coordinate -/

/-- The first-key-tile test, as the body computes it from the grid coordinates. -/
abbrev kvFirst9 (i : grid9.Coords) : Prop :=
  Scalar.cmpi .ne (Scalar.extui (Scalar.cmpi .eq (BitVec.ofNat 32 (i 2).val) 0#32)) 0#32 = 1#1

/-- The last-key-tile test. -/
abbrev kvLast9 (i : grid9.Coords) : Prop := k9_cond2 i = 1#1

/-- On the grid the first test holds exactly at the positions ≡ 0 (mod 4), -/
theorem kvFirst9_iff : ∀ t : Fin cfg9.N, kvFirst9 (grid9.coords t) ↔ t.val % 4 = 0 :=
  (by decide +kernel : ∀ t : Fin grid9.N, kvFirst9 (grid9.coords t) ↔ t.val % 4 = 0)

/-- and the last exactly at the positions ≡ 3 (mod 4). -/
theorem kvLast9_iff : ∀ t : Fin cfg9.N, kvLast9 (grid9.coords t) ↔ t.val % 4 = 3 :=
  (by decide +kernel : ∀ t : Fin grid9.N, kvLast9 (grid9.coords t) ↔ t.val % 4 = 3)

/-! ## The body's triple, per case of the two tests

On whole memrefs: the three input blocks are left as found; the four carried buffers go from a state to that state with
the key and value blocks folded in (`attnStep`), starting from the reset state at a first key tile whatever they
held; the output block is left as found except at a last key tile, where it ends at the quotient (`attnOut`). -/

set_option maxHeartbeats 4000000 in
/-- A first key tile that is not the last. -/
theorem attn_run_first9 (c : Dev nD) (E : Set ℕ) (i : grid9.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : kvFirst9 i) (hlast : ¬ kvLast9 i)
    (q k v o : Vec F S1x512x1024 .bf16) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v (attnReset q)).m ∗ owns (c : Thread nD τ) arg8 fullShare (attnStep k v (attnReset q)).l
        ∗ owns (c : Thread nD τ) arg9 fullShare (attnStep k v (attnReset q)).acc ∗ owns (c : Thread nD τ) arg10 fullShare (attnStep k v (attnReset q)).qs) -∗ K ⟨⟩))
      ⊢ wp frame (wpE (defs₀ (F := F)) Variants.none c none) E (cc9__attn_kernel i arg3 harg3 arg4 harg4 arg5 harg5 arg6 harg6 arg7 harg7 arg8 harg8 arg9 harg9 arg10 harg10) K := by
  simp only [cc9__attn_kernel_eq_skeleton]; unfold cc9__attn_kernel_skel
  simp only [k9_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
    rfl
  iexists _; isplitr
  swap; · iexact H10
  ipureintro
  sl_unfold_run_names
  rw [read_writes_wholeRect (S := S512x1024) _ _ zeroOff2]
  simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5]
  rfl

set_option maxHeartbeats 4000000 in
/-- A key tile that is neither first nor last. -/
theorem attn_run_mid9 (c : Dev nD) (E : Set ℕ) (i : grid9.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst9 i) (hlast : ¬ kvLast9 i)
    (q k v o : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc9__attn_kernel i arg3 harg3 arg4 harg4 arg5 harg5 arg6 harg6 arg7 harg7 arg8 harg8 arg9 harg9 arg10 harg10) K := by
  simp only [cc9__attn_kernel_eq_skeleton]; unfold cc9__attn_kernel_skel
  simp only [k9_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

set_option maxHeartbeats 4000000 in
/-- A last key tile that is not the first. -/
theorem attn_run_last9 (c : Dev nD) (E : Set ℕ) (i : grid9.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .bf16) (harg10 : arg10.IsWhole)
    (hfirst : ¬ kvFirst9 i) (hlast : kvLast9 i)
    (q k v : Vec F S1x512x1024 .bf16) (s : AttnScr F) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ owns (c : Thread nD τ) arg7 fullShare (s).m ∗ owns (c : Thread nD τ) arg8 fullShare (s).l
        ∗ owns (c : Thread nD τ) arg9 fullShare (s).acc ∗ owns (c : Thread nD τ) arg10 fullShare (s).qs
        ∗ (iprop(owns (c : Thread nD τ) arg3 fullShare q ∗ owns (c : Thread nD τ) arg4 fullShare k ∗ owns (c : Thread nD τ) arg5 fullShare v
        ∗ owns (c : Thread nD τ) arg6 fullShare (attnOut (attnStep k v s))
        ∗ owns (c : Thread nD τ) arg7 fullShare (attnStep k v s).m ∗ owns (c : Thread nD τ) arg8 fullShare (attnStep k v s).l
        ∗ owns (c : Thread nD τ) arg9 fullShare (attnStep k v s).acc ∗ owns (c : Thread nD τ) arg10 fullShare (attnStep k v s).qs) -∗ K ⟨⟩))
      ⊢ wp frame (wpE (defs₀ (F := F)) Variants.none c none) E (cc9__attn_kernel i arg3 harg3 arg4 harg4 arg5 harg5 arg6 harg6 arg7 harg7 arg8 harg8 arg9 harg9 arg10 harg10) K := by
  simp only [cc9__attn_kernel_eq_skeleton]; unfold cc9__attn_kernel_skel
  simp only [k9_part1_eq_skeleton]
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  sl_exec (disch := first | exact hfirst | exact hlast)
  sl_step
  iapply Hk
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists _; isplitr
    swap; · iexact H6
    ipureintro
    sl_unfold_run_names
    rw [read_writes_wholeRect (S := S1x512x1024) _ _ zeroOff3]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H7]
  · iexists _; isplitr
    swap; · iexact H7
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H8]
  · iexists _; isplitr
    swap; · iexact H8
    ipureintro
    sl_unfold_run_names
    rw [read_writes_wholeRect (S := S512x1) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  isplitl [H9]
  · iexists _; isplitr
    swap; · iexact H9
    ipureintro
    sl_unfold_run_names
    rw [read_writes_wholeRect (S := S512x1024) _ _ zeroOff2]
    simp only [readAt_wholeRect (S := S512x1) _ _ zeroOff2, readAt_wholeRect (S := S512x1024) _ _ zeroOff2,
      readAt_wholeRect (S := S1x512x1024) _ _ zeroOff3, View.readCov_unit_zero (S := S512x1) _ zeroOff2,
      View.readCov_unit_zero (S := S512x1024) _ zeroOff2, hf3, hf4, hf5, hf7, hf8, hf9, hf10]
    rfl
  iexists f10; isplitr
  · ipureintro; exact hf10
  iexact H10

end Cert.Kernel.Hand

end
-- ==== Proof.BAttnBody9.lean ====
/-
  The attention launch of branch 3: the body obligation of its proof data. At every grid point the body, called on the
  windows' current staging buffers and the four scratch buffers, takes the invariant before the point to the invariant
  after it: at a first key tile the scratch is handed over at whatever it holds and returned at the reset state with the
  tile folded in; elsewhere it is handed over at what the point before left and returned with the tile folded in; the
  output block's buffer is returned untouched except at a last key tile, where it holds the quotient.
-/
import proofs.«117683_j11484742549629_2_alg».proof.Proof.BAttnRun9

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9

variable (V : (c : Dev nD) → (b : Ref sig .tc) → Buf (Elt F) ((c : Thread nD τ).loc b))

/-! ## Where the windows are live, and where the output block is written back -/

/-- The three input windows are live at every point. -/
theorem live9_0 : ∀ t : Fin cfg9.N, cfg9.idle 0 (grid9.coords t) = false := fun _ => rfl
theorem live9_1 : ∀ t : Fin cfg9.N, cfg9.idle 1 (grid9.coords t) = false := fun _ => rfl
theorem live9_2 : ∀ t : Fin cfg9.N, cfg9.idle 2 (grid9.coords t) = false := fun _ => rfl
/-- The output window is idle away from the last key tile, live at it. -/
theorem idle9_3 : ∀ t : Fin cfg9.N, ¬ t.val % 4 = 3 → cfg9.idle 3 (grid9.coords t) = true := by decide +kernel
theorem live9_3 : ∀ t : Fin cfg9.N, t.val % 4 = 3 → cfg9.idle 3 (grid9.coords t) = false := by decide +kernel
/-- Away from the last key tile the output block is not written back. -/
theorem noFlush9_3 (t : Fin cfg9.N) (h : ¬ t.val % 4 = 3) : (cfg9.win 3).flush t = false :=
  Bool.eq_false_iff.mpr fun hf => h ((flush9_3 t).mp hf)

/-! ## Each input's staging buffer holds its block at every point -/

theorem before9_0 (c : Dev nD) (t : Fin cfg9.N) (d) : (dat9 V c).before 0 t d = iblk9 V c 0 t :=
  ((dat9 V c).before_in_eq_fetched 0 rfl (fun _ => rfl) (fun _ _ _ => rfl)
    (fun t => by rw [after9_0]; unfold Dat.blockOf iblk9; rw [A_eq9]; try rfl) t d).trans
    (by unfold Dat.fetched Dat.blockOf iblk9; rw [A_eq9]; try rfl)

theorem before9_1 (c : Dev nD) (t : Fin cfg9.N) (d) : (dat9 V c).before 1 t d = iblk9 V c 1 t :=
  ((dat9 V c).before_in_eq_fetched 1 rfl (fun _ => rfl) (fun _ _ _ => rfl)
    (fun t => by rw [after9_1]; unfold Dat.blockOf iblk9; rw [A_eq9]; try rfl) t d).trans
    (by unfold Dat.fetched Dat.blockOf iblk9; rw [A_eq9]; try rfl)

theorem before9_2 (c : Dev nD) (t : Fin cfg9.N) (d) : (dat9 V c).before 2 t d = iblk9 V c 2 t :=
  ((dat9 V c).before_in_eq_fetched 2 rfl (fun _ => rfl) (fun _ _ _ => rfl)
    (fun t => by rw [after9_2]; unfold Dat.blockOf iblk9; rw [A_eq9]; try rfl) t d).trans
    (by unfold Dat.fetched Dat.blockOf iblk9; rw [A_eq9]; try rfl)

/-! ## The invariant with the scratch buffers' names forgotten -/

/-- The four scratch buffers, each at some contents. -/
def scrAny9 (c : Dev nD) : sProp 𝕄 :=
  iprop((∃ d, owns (c : Thread nD τ) (Memref.whole cc9_scratch0) fullShare d)
    ∗ (∃ d, owns (c : Thread nD τ) (Memref.whole cc9_scratch1) fullShare d)
    ∗ (∃ d, owns (c : Thread nD τ) (Memref.whole cc9_scratch2) fullShare d)
    ∗ (∃ d, owns (c : Thread nD τ) (Memref.whole cc9_scratch3) fullShare d))

/-- The launch's starting invariant, the call's scratch buffers split out of the scoped rest. -/
theorem PhiA9_eq (c : Dev nD) :
    (Pipeline.ΦA spec9 c : sProp 𝕄) = iprop(iprop(scrAny9 (F := F) c ∗ scrRest9 (F := F) c) ∗ (∃ r, prngReg c r)) := by
  unfold Pipeline.ΦA scrAny9; rw [scopedRest9_split]; simp only [owns_whole]; try rfl

/-- Before any point the invariant holds the scratch buffers at SOME contents. -/
theorem Phi9_forget (c : Dev nD) (n : ℕ) (h : n ≤ cfg9.N) :
    Phi9 V c n h ⊢ iprop(iprop(scrAny9 (F := F) c ∗ scrRest9 (F := F) c) ∗ (∃ r, prngReg c r)) := by
  cases n with
  | zero => rw [Phi9_zero V c 0 h rfl, PhiA9_eq]
  | succ n =>
    rw [Phi9_succ]; unfold scrHeld9 scrAny9
    iintro ⟨⟨H0, H1, H2, H3⟩, Hr, Hg⟩
    isplitl [H0 H1 H2 H3 Hr]
    · isplitl [H0 H1 H2 H3]
      · isplitl [H0]; · iexists _; iexact H0
        isplitl [H1]; · iexists _; iexact H1
        isplitl [H2]; · iexists _; iexact H2
        iexists _; iexact H3
      iexact Hr
    iexact Hg

/-- So the invariant at any point gives the launch's starting invariant back. -/
theorem Phi9_to_start (c : Dev nD) (n : ℕ) (h : n ≤ cfg9.N) : Phi9 V c n h ⊢ Pipeline.ΦA spec9 c := by
  rw [PhiA9_eq]; exact Phi9_forget V c n h

/-! ## The body obligation -/

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4000000 in
/-- The body at any point, by the case of its key tile. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [Phi9_at_succ V c t, Phi9_castSucc V c t]
  rw [show (dat9 V c).leavesExact 0 t = owns (c : Thread nD τ) (st9_0 t) fullShare ((dat9 V c).after 0 t) from by
    unfold Dat.leavesExact; rw [live9_0 t], after9_0]
  rw [show (dat9 V c).leavesExact 1 t = owns (c : Thread nD τ) (st9_1 t) fullShare ((dat9 V c).after 1 t) from by
    unfold Dat.leavesExact; rw [live9_1 t], after9_1]
  rw [show (dat9 V c).leavesExact 2 t = owns (c : Thread nD τ) (st9_2 t) fullShare ((dat9 V c).after 2 t) from by
    unfold Dat.leavesExact; rw [live9_2 t], after9_2]
  have hN : t.val < 64 := lt_of_lt_of_eq t.isLt (show cfg9.N = 64 from N_9)
  by_cases h0 : t.val % 4 = 0
  · have h3 : ¬ t.val % 4 = 3 := by omega
    rw [Dat.leavesExact_idle (dat9 V c) 3 t (idle9_3 t h3) (noFlush9_3 t h3)]
    rw [scr9_first V c t h0]; unfold qBlk9 kBlk9 vBlk9 scrHeld9
    iintro ⟨HΦ, Ho, ⟨%d0, H0⟩, ⟨%d1, H1⟩, ⟨%d2, H2⟩, ⟨%d3, H3⟩⟩
    ihave HΦ' := (Phi9_forget V c _ _) $$ HΦ
    unfold scrAny9
    icases HΦ' with ⟨⟨⟨HS0, HS1, HS2, HS3⟩, Hr⟩, Hg⟩
    iapply (attn_run_first9 c Set.univ (grid9.coords t) _ _ _ _ _ _ _ _ _ _ _ _ _ _ _ _ ((kvFirst9_iff t).mpr h0)
      (fun h => h3 ((kvLast9_iff t).mp h)) (iblk9 V c 0 t) (iblk9 V c 1 t) (iblk9 V c 2 t) _ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hr Hg]
    · isplitl [HS0 HS1 HS2 HS3]
      · isplitl [HS0]; · iexact HS0
        isplitl [HS1]; · iexact HS1
        isplitl [HS2]; · iexact HS2
        iexact HS3
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [Phi9_pos V c _ _ hz]
    by_cases h3 : t.val % 4 = 3
    · rw [show (dat9 V c).leavesExact 3 t = owns (c : Thread nD τ) (st9_3 t) fullShare ((dat9 V c).after 3 t) from by
        unfold Dat.leavesExact; rw [live9_3 t h3], after9_3]
      unfold outBlk9
      rw [scr9_next V c t h0]; unfold kBlk9 vBlk9 scrHeld9
      iintro ⟨⟨⟨HS0, HS1, HS2, HS3⟩, Hr, Hg⟩, Ho, ⟨%d0, H0⟩, ⟨%d1, H1⟩, ⟨%d2, H2⟩, ⟨%d3, H3⟩⟩
      iapply (attn_run_last9 c Set.univ (grid9.coords t) _ _ _ _ _ _ _ _ _ _ _ _ _ _ _ _ (fun h => h0 ((kvFirst9_iff t).mp h))
        ((kvLast9_iff t).mpr h3) (iblk9 V c 0 t) (iblk9 V c 1 t) (iblk9 V c 2 t) (scr9 V c ⟨t.val - 1, by omega⟩) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat9 V c) 3 t (idle9_3 t h3) (noFlush9_3 t h3)]
      rw [scr9_next V c t h0]; unfold kBlk9 vBlk9 scrHeld9
      iintro ⟨⟨⟨HS0, HS1, HS2, HS3⟩, Hr, Hg⟩, Ho, ⟨%d0, H0⟩, ⟨%d1, H1⟩, ⟨%d2, H2⟩, ⟨%d3, H3⟩⟩
      iapply (attn_run_mid9 c Set.univ (grid9.coords t) _ _ _ _ _ _ _ _ _ _ _ _ _ _ _ _ (fun h => h0 ((kvFirst9_iff t).mp h))
        (fun h => h3 ((kvLast9_iff t).mp h)) (iblk9 V c 0 t) (iblk9 V c 1 t) (iblk9 V c 2 t) _ (scr9 V c ⟨t.val - 1, by omega⟩) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation9 (c : Dev nD) :
    BodyObligation (dat9 (F := F) V c) (defs₀ (F := F)) Variants.none () Set.univ := fun t => by
  rw [bigSep_W9, bigSep_W9]
  exact sound_body9 V c t

/-! ## The invariant at the launch's two ends -/

/-- Before the first point the invariant is the launch's starting one. -/
theorem Phi9_first (c : Dev nD) : (dat9 V c).Φ 0 = Pipeline.ΦA spec9 c := rfl

/-- After the last point it gives that back. -/
theorem Phi9_last (c : Dev nD) : (dat9 V c).Φ (Fin.last cfg9.N) ⊢ Pipeline.ΦA spec9 c :=
  Phi9_to_start V c (Fin.last cfg9.N).val (Nat.le_of_lt_succ (Fin.last cfg9.N).isLt)

end Region9

end Cert.Kernel.Hand

end
-- ==== Proof.BAttnSeg9.lean ====
/-
  The attention launch of branch 3 as a segment of the kernel program's run. The launch reads the query, key and value
  arrays and writes one array, main_v44: after it every unscoped buffer is as before it except that one, which holds the
  fold of the write-backs at the last key tiles. Inside, the launch's four scratch buffers enter the invariant out of
  the scoped buffers at whatever they hold, carry the online softmax's state from point to point, and are given back
  with their contents forgotten.
-/
import proofs.«117683_j11484742549629_2_alg».proof.Proof.BRunBase
import proofs.«117683_j11484742549629_2_alg».proof.Proof.BAttnBody9

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What the launch leaves in main_v44, from the contents `Wi` it is entered with: its output window's array after
    the last grid point. -/
def attnArr9 (Wi : Dev nD → Valuation τ sig (Elt F)) (c : Dev nD) : Buf (Elt F) ((c : Thread nD τ).loc main_v44) :=
  (dat9 (atTc Wi) c).arrAt 3 cfg9.N

/-- The unscoped buffers after the launch: as before it, main_v44 replaced. -/
abbrev attnAfter9 (Wi : Dev nD → Valuation τ sig (Elt F)) (c : Dev nD) : Valuation τ sig (Elt F) :=
  Function.update (Wi c) main_v44 (attnArr9 Wi c)

/-- After the last point each window's array is the exit contents at its buffer: an input's array is never written,
    the output's is the replaced buffer. -/
theorem attnExitArr9 (Wi : Dev nD → Valuation τ sig (Elt F)) (c : Dev nD) (w : Fin cfg9.W) :
    (dat9 (atTc Wi) c).arrAt w cfg9.N = atTc (attnAfter9 Wi) c (Pipeline.arrRef spec9 w) := by
  match w with
  | ⟨0, _⟩ => exact ((dat9 (atTc Wi) c).arrAt_in ⟨0, by decide⟩ rfl _).trans (Function.update_of_ne (StableHlo.devRef_ne_of_ne (by decide)) _ _).symm
  | ⟨1, _⟩ => exact ((dat9 (atTc Wi) c).arrAt_in ⟨1, by decide⟩ rfl _).trans (Function.update_of_ne (StableHlo.devRef_ne_of_ne (by decide)) _ _).symm
  | ⟨2, _⟩ => exact ((dat9 (atTc Wi) c).arrAt_in ⟨2, by decide⟩ rfl _).trans (Function.update_of_ne (StableHlo.devRef_ne_of_ne (by decide)) _ _).symm
  | ⟨3, _⟩ => exact (Function.update_self (Proc.devRef .tc main_v44 : DevRef τ sig) (attnArr9 Wi c) (Wi c)).symm

/-- Every buffer that is no window's array is as at entry. -/
theorem attnExitKeep9 (Wi : Dev nD → Valuation τ sig (Elt F)) (c : Dev nD) :
    ∀ b, b ∉ Finset.univ.image (Pipeline.arrRef spec9) → atTc (attnAfter9 Wi) c b = atTc Wi c b := by
  intro b hb
  have hne : b ≠ main_v44 := fun e => hb (Finset.mem_image.mpr ⟨3, Finset.mem_univ _, e.symm ▸ rfl⟩)
  exact Function.update_of_ne (StableHlo.devRef_ne_of_ne hne) _ _

set_option backward.isDefEq.respectTransparency.types false in
/-- The launch as a segment between the unscoped buffers' contents `Wi` at entry and `Wo` at exit, for any family of
    proof data whose member at this launch is `dat9` at `Wi`. At entry the windows' arrays are split out of the unscoped
    buffers and the generator register goes into the invariant, which at the first point is the launch's starting one
    (every scoped buffer that is no staging buffer at some contents: the four scratch buffers among them). At exit the
    invariant after the last point, which holds the scratch at the last state, gives the starting one back; the arrays
    are put back, each at `Wo` (`hArr`), every other buffer as at entry (`hKeep`). The kernel has no semaphore of its
    own and the core owes nothing. -/
def attnSeg9 (pdats : (p : Fin 13) → (c : Dev nD) → Dat τ (Elt F) Unit ℕ (UR sig nD τ) ℕ (cfgs p) c)
    (Wi Wo : Dev nD → Valuation τ sig (Elt F))
    (hp : ∀ c, pdats 9 c = dat9 (atTc Wi) c)
    (hArr : ∀ c (w : Fin cfg9.W), (dat9 (atTc Wi) c).arrAt w cfg9.N = atTc Wo c (Pipeline.arrRef spec9 w))
    (hKeep : ∀ c, ∀ b, b ∉ Finset.univ.image (Pipeline.arrRef spec9) → atTc Wo c b = atTc Wi c b) :
    RegionSeg (pcfgs (F := F)) adm pdats () defs₀ Variants.none noLevels levelZero 9 where
  win := launch9.win.to₀
  block_pos := launch9.block_pos
  stage_whole := launch9.stage_whole
  K := PEmpty
  osem k := k.elim
  ho := Pipeline.OwnSemFacts.none _
  hbody c := by rw [hp c]; exact (body_obligation9 (atTc Wi) c).loose
  hwaits := Pipeline.hwaits_of_owed_zero _ _ _ _ noLevels levelZero 9 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec9 c (atTc Wi c)
  hentry c := by
    rw [Pipeline.ownSems0_none]
    have hsplit := Pipeline.arrays_of_unscopedBufs (p := 9) (pcfgs (F := F)) adm pdats launch9.win launch9.arr_whole c
      ((pdats 9 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec9 c : sProp 𝕄)
    unfold Pipeline.ΦA
    iintro ⟨Hreg, -, Hscoped⟩
    isplitl [Hscoped]; · iexact Hscoped
    iexact Hreg
  hout c := by
    rw [Pipeline.ownSems0_none, hp c]
    refine (Phi9_last (atTc Wi) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 9) (pcfgs (F := F)) adm (Ix := Unit) (Name := ℕ) (U := UR sig nD τ) (Lvl := ℕ)
      launch9.win launch9.arr_whole c pdats ((pdats 9 c).share_full fun _ => by rw [hp c]; rfl)
      (atTc Wi c) (atTc Wo c) ((pdats 9 c).arrAt · cfg9.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BLinDat10.lean ====
/- Region 10 (an output projection: the activation tile times one weight matrix plus the attention-context tile times another, plus the bias row, kept in f32): the blocks its 6 windows
   hold at a grid point, the block its body stores as a function of the 5 input blocks, and the pipeline's
   proof data at an arbitrary entry valuation. -/
import proofs.«117683_j11484742549629_2_alg».proof.Proof.Gen.Kernel.Skeleton
import proofs.«117683_j11484742549629_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk10 (c : Dev nD) (w : Fin cfg10.W) (t : Fin cfg10.N) :
    ((cfg10.win w).xblock (cfg10.grid.coords t)).Idx → Elt F (cfg10.win w).elt :=
  ((cfg10.win w).blk t).view.read (Elt F) (V c (Pipeline.arrRef spec10 w))

/-! ## The rectangles the body reads and writes: each is a whole staging buffer -/

/-- all of a 512x1024 tile (an input tile, and the result tile) -/
abbrev tileAll10 : Rect S512x1024 := Rect.unit (s := S512x1024) ![0, 0] S512x1024.size inb_S512x1024_S512x1024_0_0
/-- all of a 1024x1024 weight matrix -/
abbrev weightAll10 : Rect S1024x1024 := Rect.unit (s := S1024x1024) ![0, 0] S1024x1024.size inb_S1024x1024_S1024x1024_0_0
/-- all of the 1x1024 bias row -/
abbrev biasAll10 : Rect S1x1024 := Rect.unit (s := S1x1024) ![0, 0] S1x1024.size inb_S1x1024_S1x1024_0_0

/-- A pair of zero offsets is the constant-zero offset. -/
theorem zeroOffsets10 : (![0, 0] : Fin 2 → Nat) = fun _ => 0 := funext fun a => by fin_cases a <;> rfl

/-! ## The stored block -/

/-- The result buffer after the body, given the 5 input buffers' contents: the body's single store,
    which goes through the whole tile, with the payload evaluated at the 5 whole-buffer loads. -/
def out10 (x : Vec F S512x1024 .f32) (ctx : Vec F S512x1024 .bf16) (wx : Vec F S1024x1024 .bf16) (wc : Vec F S1024x1024 .bf16) (bias : Vec F S1x1024 .f32) : Vec F S512x1024 .f32 :=
  View.canon [⟨tileAll10, k10_pay1 (View.ld x tileAll10) (View.ld ctx tileAll10) (View.ld wx weightAll10) (View.ld wc weightAll10) (View.ld bias biasAll10)⟩]

/-- Since the store and the loads are through whole buffers, the stored block is the payload of the
    input blocks themselves. -/
theorem out10_eq_pay (x : Vec F S512x1024 .f32) (ctx : Vec F S512x1024 .bf16) (wx : Vec F S1024x1024 .bf16) (wc : Vec F S1024x1024 .bf16) (bias : Vec F S1x1024 .f32) :
    out10 x ctx wx wc bias = k10_pay1 x ctx wx wc bias := by
  unfold out10
  rw [View.canon_unit_zero (S := S512x1024) zeroOffsets10 inb_S512x1024_S512x1024_0_0]
  rw [View.ld_unit_zero (S := S512x1024) zeroOffsets10 inb_S512x1024_S512x1024_0_0 x]
  rw [View.ld_unit_zero (S := S512x1024) zeroOffsets10 inb_S512x1024_S512x1024_0_0 ctx]
  rw [View.ld_unit_zero (S := S1024x1024) zeroOffsets10 inb_S1024x1024_S1024x1024_0_0 wx]
  rw [View.ld_unit_zero (S := S1024x1024) zeroOffsets10 inb_S1024x1024_S1024x1024_0_0 wc]
  rw [View.ld_unit_zero (S := S1x1024) zeroOffsets10 inb_S1x1024_S1x1024_0_0 bias]

/-- The single store reaches every index of the tile. -/
theorem storeCovers10 (p : Vec F S512x1024 .f32) (y : S512x1024.Idx) :
    ∃ pc ∈ ([⟨tileAll10, p⟩] : List (View.Piece (Elt F) S512x1024 .f32)), y ∈ pc.1.set :=
  ⟨_, List.mem_singleton_self _, View.mem_set_unit_zero (S := S512x1024) zeroOffsets10 inb_S512x1024_S512x1024_0_0 y⟩

/-! ## Proof data of the pipeline -/

/-- On core `c`: every window's array is what the entry valuation says; after the body at point `t` the 5
    input buffers still hold their blocks and the result buffer holds `out10` of them; the invariant is the
    untouched rest (scoped buffers and the generator register); no debts, full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) :
    (dat10 V c).after 5 t = out10 (iblk10 V c 0 t) (iblk10 V c 1 t) (iblk10 V c 2 t) (iblk10 V c 3 t) (iblk10 V c 4 t) := by dsimp only [dat10]

/-- The same, with the stored block spelt as the payload of the input blocks. -/
theorem after10_5_pay (c : Dev nD) (t : Fin cfg10.N) :
    (dat10 V c).after 5 t = k10_pay1 (iblk10 V c 0 t) (iblk10 V c 1 t) (iblk10 V c 2 t) (iblk10 V c 3 t) (iblk10 V c 4 t) := by
  rw [after10_5, out10_eq_pay]

/-! ## What an input's staging buffer holds when the body starts

A tile's buffer is fetched at every point; a weight matrix and the bias row are fetched once and their index
never moves. Either way the buffer holds the window's block of the entry array. -/

/-- the activation tile -/
theorem before10_0 (c : Dev nD) (t : Fin cfg10.N) (d) : (dat10 V c).before 0 t d = iblk10 V c 0 t :=
  ((dat10 V c).before_in_eq_fetched 0 rfl (fun _ => rfl) (fun _ _ _ => rfl)
      (fun t => by rw [after10_0]; unfold Dat.blockOf iblk10; rw [A_eq10]; try rfl) t d).trans
    (by unfold Dat.fetched Dat.blockOf iblk10; rw [A_eq10]; try rfl)

/-- the attention-context tile -/
theorem before10_1 (c : Dev nD) (t : Fin cfg10.N) (d) : (dat10 V c).before 1 t d = iblk10 V c 1 t :=
  ((dat10 V c).before_in_eq_fetched 1 rfl (fun _ => rfl) (fun _ _ _ => rfl)
      (fun t => by rw [after10_1]; unfold Dat.blockOf iblk10; rw [A_eq10]; try rfl) t d).trans
    (by unfold Dat.fetched Dat.blockOf iblk10; rw [A_eq10]; try rfl)

/-- the weight matrix of the activation -/
theorem before10_2 (c : Dev nD) (t : Fin cfg10.N) (d) : (dat10 V c).before 2 t d = iblk10 V c 2 t :=
  ((dat10 V c).before_in_eq_fetched 2 rfl (fun _ => rfl) (fun _ _ _ => rfl)
      (fun t => by rw [after10_2]; unfold Dat.blockOf iblk10; rw [A_eq10]; try rfl) t d).trans
    (by unfold Dat.fetched Dat.blockOf iblk10; rw [A_eq10]; try rfl)

/-- the weight matrix of the context -/
theorem before10_3 (c : Dev nD) (t : Fin cfg10.N) (d) : (dat10 V c).before 3 t d = iblk10 V c 3 t :=
  ((dat10 V c).before_in_eq_fetched 3 rfl (fun _ => rfl) (fun _ _ _ => rfl)
      (fun t => by rw [after10_3]; unfold Dat.blockOf iblk10; rw [A_eq10]; try rfl) t d).trans
    (by unfold Dat.fetched Dat.blockOf iblk10; rw [A_eq10]; try rfl)

/-- the bias row -/
theorem before10_4 (c : Dev nD) (t : Fin cfg10.N) (d) : (dat10 V c).before 4 t d = iblk10 V c 4 t :=
  ((dat10 V c).before_in_eq_fetched 4 rfl (fun _ => rfl) (fun _ _ _ => rfl)
      (fun t => by rw [after10_4]; unfold Dat.blockOf iblk10; rw [A_eq10]; try rfl) t d).trans
    (by unfold Dat.fetched Dat.blockOf iblk10; rw [A_eq10]; try rfl)

end Cert.Kernel.Hand
-- ==== Proof.BLinBody10.lean ====
/- Region 10 (an output projection: the activation tile times one weight matrix plus the attention-context tile times another, plus the bias row, kept in f32): the kernel body run on whole
   staging buffers, and from it the obligation the pipeline asks of the body at every grid point. -/
import proofs.«117683_j11484742549629_2_alg».proof.Proof.BLinDat10
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the six windows, written out. -/
theorem sixWindows10 {M : Type} [URA M] (P : Fin 6 → sProp M) :
    bigSep Finset.univ P = iprop(P 0 ∗ P 1 ∗ P 2 ∗ P 3 ∗ P 4 ∗ P 5) :=
  bigSep_univ_eq_bigSepL [(0 : Fin 6), 1, 2, 3, 4, 5] (by decide) (by decide) P

variable (V : (c : Dev nD) → (b : Ref sig .tc) → Buf (Elt F) ((c : Thread nD τ).loc b))

/-! ## The body on whole buffers -/

set_option maxHeartbeats 1000000 in
/-- Given the 5 inputs in whole buffers, and one more whole buffer holding anything, the body ends with the
    inputs unchanged and the last buffer holding `out10` of them. It loads every buffer whole and stores once,
    through the whole tile. -/
theorem sound_kernel10 (c : Dev nD) (E : Set ℕ) (i : grid10.Coords)
    (m_x : Memref sig .tc .vmem S512x1024 .f32) (h_x : m_x.IsWhole)
    (m_ctx : Memref sig .tc .vmem S512x1024 .bf16) (h_ctx : m_ctx.IsWhole)
    (m_wx : Memref sig .tc .vmem S1024x1024 .bf16) (h_wx : m_wx.IsWhole)
    (m_wc : Memref sig .tc .vmem S1024x1024 .bf16) (h_wc : m_wc.IsWhole)
    (m_bias : Memref sig .tc .vmem S1x1024 .f32) (h_bias : m_bias.IsWhole)
    (m_res : Memref sig .tc .vmem S512x1024 .f32) (h_res : m_res.IsWhole)
    (x : Vec F S512x1024 .f32) (ctx : Vec F S512x1024 .bf16) (wx : Vec F S1024x1024 .bf16) (wc : Vec F S1024x1024 .bf16) (bias : Vec F S1x1024 .f32) (K : PUnit → sProp 𝕄) :
    iprop(owns (c : Thread nD τ) m_x fullShare x
        ∗ owns (c : Thread nD τ) m_ctx fullShare ctx
        ∗ owns (c : Thread nD τ) m_wx fullShare wx
        ∗ owns (c : Thread nD τ) m_wc fullShare wc
        ∗ owns (c : Thread nD τ) m_bias fullShare bias
        ∗ (∃ d, owns (c : Thread nD τ) m_res fullShare d)
        ∗ (iprop(owns (c : Thread nD τ) m_x fullShare x
            ∗ owns (c : Thread nD τ) m_ctx fullShare ctx
            ∗ owns (c : Thread nD τ) m_wx fullShare wx
            ∗ owns (c : Thread nD τ) m_wc fullShare wc
            ∗ owns (c : Thread nD τ) m_bias fullShare bias
            ∗ owns (c : Thread nD τ) m_res fullShare (out10 x ctx wx wc bias)) -∗ K ⟨⟩))
      ⊢ wp frame (wpE (defs₀ (F := F)) Variants.none c none) E (cc10__oproj_kernel i m_x h_x m_ctx h_ctx m_wx h_wx m_wc h_wc m_bias h_bias m_res h_res) K := by
  rw [cc10__oproj_kernel_eq_skeleton]; unfold cc10__oproj_kernel_skel
  unfold owns
  iintro ⟨⟨%f_x, %e_x, P_x⟩, ⟨%f_ctx, %e_ctx, P_ctx⟩, ⟨%f_wx, %e_wx, P_wx⟩, ⟨%f_wc, %e_wc, P_wc⟩, ⟨%f_bias, %e_bias, P_bias⟩, ⟨%d, %f_res, -, P_res⟩, Hcont⟩
  subst e_x; subst e_ctx; subst e_wx; subst e_wc; subst e_bias
  sl_exec
  sl_step
  iapply Hcont
  isplitl [P_x]
  · iexists f_x; isplitr
    · ipureintro; rfl
    · iexact P_x
  isplitl [P_ctx]
  · iexists f_ctx; isplitr
    · ipureintro; rfl
    · iexact P_ctx
  isplitl [P_wx]
  · iexists f_wx; isplitr
    · ipureintro; rfl
    · iexact P_wx
  isplitl [P_wc]
  · iexists f_wc; isplitr
    · ipureintro; rfl
    · iexact P_wc
  isplitl [P_bias]
  · iexists f_bias; isplitr
    · ipureintro; rfl
    · iexact P_bias
  iexists _; isplitr
  swap
  · iexact P_res
  ipureintro
  exact View.read_writes_eq_canon _ _ _ (storeCovers10 _)

/-! ## The obligation at a grid point -/

/-- What the pipeline hands the body at point `t`: the invariant, the core's debts, and the six staging buffers. -/
def bodyGiven10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- What it must hand back. -/
def bodyOwed10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- At every point the input buffers hold their blocks, so the run on whole buffers applies; the invariant and
    the debts are not touched by the body. -/
theorem sound_body10 (c : Dev nD) (t : Fin cfg10.N) :
    bodyGiven10 V c t ⊢ wp frame (wpE (defs₀ (F := F)) Variants.none c none) Set.univ (bodyAt10 t) (fun _ => bodyOwed10 V c t) := by
  unfold bodyGiven10 bodyOwed10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨Hinv, Hdebt, ⟨%d0, B0⟩, ⟨%d1, B1⟩, ⟨%d2, B2⟩, ⟨%d3, B3⟩, ⟨%d4, B4⟩, ⟨%d5, B5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [B0]; · iexact B0
  isplitl [B1]; · iexact B1
  isplitl [B2]; · iexact B2
  isplitl [B3]; · iexact B3
  isplitl [B4]; · iexact B4
  isplitl [B5]; · iexists _; iexact B5
  iintro ⟨B0, B1, B2, B3, B4, B5⟩
  isplitl [Hinv]; · iexact Hinv
  isplitl [Hdebt]; · iexact Hdebt
  isplitl [B0]; · iexact B0
  isplitl [B1]; · iexact B1
  isplitl [B2]; · iexact B2
  isplitl [B3]; · iexact B3
  isplitl [B4]; · iexact B4
  iexact B5

/-- The pipeline's obligation on the body, at every grid point. -/
theorem body_obligation10 (c : Dev nD) :
    BodyObligation (dat10 (F := F) V c) (defs₀ (F := F)) Variants.none () Set.univ := fun t => by
  rw [sixWindows10, sixWindows10]
  exact sound_body10 V c t

end Cert.Kernel.Hand
-- ==== Proof.BRunSeg10.lean ====
/-
  Region 10 of the kernel program's @main as a segment of the run. The region reads its input windows' arrays and writes one
  array, main_v60: so the contents after it are the contents before it with that buffer replaced by the fold of the grid
  points' write-backs, every input window's array being what it was (a window that is never written back keeps its array).
-/
import proofs.«117683_j11484742549629_2_alg».proof.Proof.BRunBase
import proofs.«117683_j11484742549629_2_alg».proof.Proof.BLinBody10

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What region 10 leaves in main_v60, from entry contents Wi. -/
def outArr10 (Wi : Dev nD → Valuation τ sig (Elt F)) (c : Dev nD) : Buf (Elt F) ((c : Thread nD τ).loc main_v60) :=
  (dat10 (atTc Wi) c).arrAt 5 cfg10.N
/-- The contents after region 10. -/
abbrev after10 (Wi : Dev nD → Valuation τ sig (Elt F)) (c : Dev nD) : Valuation τ sig (Elt F) :=
  Function.update (Wi c) main_v60 (outArr10 Wi c)

/-- Each window's array after the last grid point is the exit contents at that window's buffer. -/
theorem exitArr10 (Wi : Dev nD → Valuation τ sig (Elt F)) (c : Dev nD) (w : Fin cfg10.W) :
    (dat10 (atTc Wi) c).arrAt w cfg10.N = atTc (after10 Wi) c (Pipeline.arrRef spec10 w) := by
  match w with
  | ⟨0, _⟩ => exact ((dat10 (atTc Wi) c).arrAt_in ⟨0, by decide⟩ rfl _).trans (Function.update_of_ne (StableHlo.devRef_ne_of_ne (by decide)) _ _).symm
  | ⟨1, _⟩ => exact ((dat10 (atTc Wi) c).arrAt_in ⟨1, by decide⟩ rfl _).trans (Function.update_of_ne (StableHlo.devRef_ne_of_ne (by decide)) _ _).symm
  | ⟨2, _⟩ => exact ((dat10 (atTc Wi) c).arrAt_in ⟨2, by decide⟩ rfl _).trans (Function.update_of_ne (StableHlo.devRef_ne_of_ne (by decide)) _ _).symm
  | ⟨3, _⟩ => exact ((dat10 (atTc Wi) c).arrAt_in ⟨3, by decide⟩ rfl _).trans (Function.update_of_ne (StableHlo.devRef_ne_of_ne (by decide)) _ _).symm
  | ⟨4, _⟩ => exact ((dat10 (atTc Wi) c).arrAt_in ⟨4, by decide⟩ rfl _).trans (Function.update_of_ne (StableHlo.devRef_ne_of_ne (by decide)) _ _).symm
  | ⟨5, _⟩ => exact (Function.update_self (Proc.devRef .tc main_v60 : DevRef τ sig) (outArr10 Wi c) (Wi c)).symm

/-- Every buffer that is no window's array is as at entry. -/
theorem exitKeep10 (Wi : Dev nD → Valuation τ sig (Elt F)) (c : Dev nD) :
    ∀ b, b ∉ Finset.univ.image (Pipeline.arrRef spec10) → atTc (after10 Wi) c b = atTc Wi c b := by
  intro b hb
  have hne : b ≠ main_v60 := fun e => hb (Finset.mem_image.mpr ⟨5, Finset.mem_univ _, e.symm ▸ rfl⟩)
  exact Function.update_of_ne (StableHlo.devRef_ne_of_ne hne) _ _

set_option backward.isDefEq.respectTransparency.types false in
/-- Region 10 as a segment between two valuations Wi (entry) and Wo (exit) of the unscoped buffers, for any family of proof
    data whose entry at region 10 is this region's. The region's arrays are split out of the unscoped buffers at entry and put
    back at exit, where each window's array is Wo at that window's buffer (hArr) and every other buffer is as at entry (hKeep);
    the generator register goes into the class invariant and comes back; the kernel has no semaphore of its own and owes nothing. -/
def linSeg10 (pdats : (p : Fin 13) → (c : Dev nD) → Dat τ (Elt F) Unit ℕ (UR sig nD τ) ℕ (cfgs p) c)
    (Wi Wo : Dev nD → Valuation τ sig (Elt F))
    (hp : ∀ c, pdats 10 c = dat10 (atTc Wi) c)
    (hArr : ∀ c (w : Fin cfg10.W), (dat10 (atTc Wi) c).arrAt w cfg10.N = atTc Wo c (Pipeline.arrRef spec10 w))
    (hKeep : ∀ c, ∀ b, b ∉ Finset.univ.image (Pipeline.arrRef spec10) → atTc Wo c b = atTc Wi c b) :
    RegionSeg (pcfgs (F := F)) adm pdats () defs₀ Variants.none noLevels levelZero 10 where
  win := launch10.win.to₀
  block_pos := launch10.block_pos
  stage_whole := launch10.stage_whole
  K := PEmpty
  osem k := k.elim
  ho := Pipeline.OwnSemFacts.none _
  hbody c := by rw [hp c]; exact (body_obligation10 (atTc Wi) c).loose
  hwaits := Pipeline.hwaits_of_owed_zero _ _ _ _ noLevels levelZero 10 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec10 c (atTc Wi c)
  hentry c := by
    rw [Pipeline.ownSems0_none]
    have hsplit := Pipeline.arrays_of_unscopedBufs (p := 10) (pcfgs (F := F)) adm pdats launch10.win launch10.arr_whole c
      ((pdats 10 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec10 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec10 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 10) (pcfgs (F := F)) adm (Ix := Unit) (Name := ℕ) (U := UR sig nD τ) (Lvl := ℕ)
      launch10.win launch10.arr_whole c pdats ((pdats 10 c).share_full fun _ => by rw [hp c]; rfl)
      (atTc Wi c) (atTc Wo c) ((pdats 10 c).arrAt · cfg10.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BLinDat11.lean ====
/- Region 11 (an output projection: the activation tile times one weight matrix plus the attention-context tile times another, plus the bias row, kept in f32): the blocks its 6 windows
   hold at a grid point, the block its body stores as a function of the 5 input blocks, and the pipeline's
   proof data at an arbitrary entry valuation. -/
import proofs.«117683_j11484742549629_2_alg».proof.Proof.Gen.Kernel.Skeleton
import proofs.«117683_j11484742549629_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-! ## The rectangles the body reads and writes: each is a whole staging buffer -/

/-- all of a 512x1024 tile (an input tile, and the result tile) -/
abbrev tileAll11 : Rect S512x1024 := Rect.unit (s := S512x1024) ![0, 0] S512x1024.size inb_S512x1024_S512x1024_0_0
/-- all of a 1024x1024 weight matrix -/
abbrev weightAll11 : Rect S1024x1024 := Rect.unit (s := S1024x1024) ![0, 0] S1024x1024.size inb_S1024x1024_S1024x1024_0_0
/-- all of the 1x1024 bias row -/
abbrev biasAll11 : Rect S1x1024 := Rect.unit (s := S1x1024) ![0, 0] S1x1024.size inb_S1x1024_S1x1024_0_0

/-- A pair of zero offsets is the constant-zero offset. -/
theorem zeroOffsets11 : (![0, 0] : Fin 2 → Nat) = fun _ => 0 := funext fun a => by fin_cases a <;> rfl

/-! ## The stored block -/

/-- The result buffer after the body, given the 5 input buffers' contents: the body's single store,
    which goes through the whole tile, with the payload evaluated at the 5 whole-buffer loads. -/
def out11 (x : Vec F S512x1024 .f32) (ctx : Vec F S512x1024 .bf16) (wx : Vec F S1024x1024 .bf16) (wc : Vec F S1024x1024 .bf16) (bias : Vec F S1x1024 .f32) : Vec F S512x1024 .f32 :=
  View.canon [⟨tileAll11, k11_pay1 (View.ld x tileAll11) (View.ld ctx tileAll11) (View.ld wx weightAll11) (View.ld wc weightAll11) (View.ld bias biasAll11)⟩]

/-- Since the store and the loads are through whole buffers, the stored block is the payload of the
    input blocks themselves. -/
theorem out11_eq_pay (x : Vec F S512x1024 .f32) (ctx : Vec F S512x1024 .bf16) (wx : Vec F S1024x1024 .bf16) (wc : Vec F S1024x1024 .bf16) (bias : Vec F S1x1024 .f32) :
    out11 x ctx wx wc bias = k11_pay1 x ctx wx wc bias := by
  unfold out11
  rw [View.canon_unit_zero (S := S512x1024) zeroOffsets11 inb_S512x1024_S512x1024_0_0]
  rw [View.ld_unit_zero (S := S512x1024) zeroOffsets11 inb_S512x1024_S512x1024_0_0 x]
  rw [View.ld_unit_zero (S := S512x1024) zeroOffsets11 inb_S512x1024_S512x1024_0_0 ctx]
  rw [View.ld_unit_zero (S := S1024x1024) zeroOffsets11 inb_S1024x1024_S1024x1024_0_0 wx]
  rw [View.ld_unit_zero (S := S1024x1024) zeroOffsets11 inb_S1024x1024_S1024x1024_0_0 wc]
  rw [View.ld_unit_zero (S := S1x1024) zeroOffsets11 inb_S1x1024_S1x1024_0_0 bias]

/-- The single store reaches every index of the tile. -/
theorem storeCovers11 (p : Vec F S512x1024 .f32) (y : S512x1024.Idx) :
    ∃ pc ∈ ([⟨tileAll11, p⟩] : List (View.Piece (Elt F) S512x1024 .f32)), y ∈ pc.1.set :=
  ⟨_, List.mem_singleton_self _, View.mem_set_unit_zero (S := S512x1024) zeroOffsets11 inb_S512x1024_S512x1024_0_0 y⟩

/-! ## Proof data of the pipeline -/

/-- On core `c`: every window's array is what the entry valuation says; after the body at point `t` the 5
    input buffers still hold their blocks and the result buffer holds `out11` of them; the invariant is the
    untouched rest (scoped buffers and the generator register); no debts, full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) :
    (dat11 V c).after 5 t = out11 (iblk11 V c 0 t) (iblk11 V c 1 t) (iblk11 V c 2 t) (iblk11 V c 3 t) (iblk11 V c 4 t) := by dsimp only [dat11]

/-- The same, with the stored block spelt as the payload of the input blocks. -/
theorem after11_5_pay (c : Dev nD) (t : Fin cfg11.N) :
    (dat11 V c).after 5 t = k11_pay1 (iblk11 V c 0 t) (iblk11 V c 1 t) (iblk11 V c 2 t) (iblk11 V c 3 t) (iblk11 V c 4 t) := by
  rw [after11_5, out11_eq_pay]

/-! ## What an input's staging buffer holds when the body starts

A tile's buffer is fetched at every point; a weight matrix and the bias row are fetched once and their index
never moves. Either way the buffer holds the window's block of the entry array. -/

/-- the activation tile -/
theorem before11_0 (c : Dev nD) (t : Fin cfg11.N) (d) : (dat11 V c).before 0 t d = iblk11 V c 0 t :=
  ((dat11 V c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)

/-- the attention-context tile -/
theorem before11_1 (c : Dev nD) (t : Fin cfg11.N) (d) : (dat11 V c).before 1 t d = iblk11 V c 1 t :=
  ((dat11 V c).before_in_eq_fetched 1 rfl (fun _ => rfl) (fun _ _ _ => rfl)
      (fun t => by rw [after11_1]; unfold Dat.blockOf iblk11; rw [A_eq11]; try rfl) t d).trans
    (by unfold Dat.fetched Dat.blockOf iblk11; rw [A_eq11]; try rfl)

/-- the weight matrix of the activation -/
theorem before11_2 (c : Dev nD) (t : Fin cfg11.N) (d) : (dat11 V c).before 2 t d = iblk11 V c 2 t :=
  ((dat11 V c).before_in_eq_fetched 2 rfl (fun _ => rfl) (fun _ _ _ => rfl)
      (fun t => by rw [after11_2]; unfold Dat.blockOf iblk11; rw [A_eq11]; try rfl) t d).trans
    (by unfold Dat.fetched Dat.blockOf iblk11; rw [A_eq11]; try rfl)

/-- the weight matrix of the context -/
theorem before11_3 (c : Dev nD) (t : Fin cfg11.N) (d) : (dat11 V c).before 3 t d = iblk11 V c 3 t :=
  ((dat11 V c).before_in_eq_fetched 3 rfl (fun _ => rfl) (fun _ _ _ => rfl)
      (fun t => by rw [after11_3]; unfold Dat.blockOf iblk11; rw [A_eq11]; try rfl) t d).trans
    (by unfold Dat.fetched Dat.blockOf iblk11; rw [A_eq11]; try rfl)

/-- the bias row -/
theorem before11_4 (c : Dev nD) (t : Fin cfg11.N) (d) : (dat11 V c).before 4 t d = iblk11 V c 4 t :=
  ((dat11 V c).before_in_eq_fetched 4 rfl (fun _ => rfl) (fun _ _ _ => rfl)
      (fun t => by rw [after11_4]; unfold Dat.blockOf iblk11; rw [A_eq11]; try rfl) t d).trans
    (by unfold Dat.fetched Dat.blockOf iblk11; rw [A_eq11]; try rfl)

end Cert.Kernel.Hand
-- ==== Proof.BLinBody11.lean ====
/- Region 11 (an output projection: the activation tile times one weight matrix plus the attention-context tile times another, plus the bias row, kept in f32): the kernel body run on whole
   staging buffers, and from it the obligation the pipeline asks of the body at every grid point. -/
import proofs.«117683_j11484742549629_2_alg».proof.Proof.BLinDat11
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the six windows, written out. -/
theorem sixWindows11 {M : Type} [URA M] (P : Fin 6 → sProp M) :
    bigSep Finset.univ P = iprop(P 0 ∗ P 1 ∗ P 2 ∗ P 3 ∗ P 4 ∗ P 5) :=
  bigSep_univ_eq_bigSepL [(0 : Fin 6), 1, 2, 3, 4, 5] (by decide) (by decide) P

variable (V : (c : Dev nD) → (b : Ref sig .tc) → Buf (Elt F) ((c : Thread nD τ).loc b))

/-! ## The body on whole buffers -/

set_option maxHeartbeats 1000000 in
/-- Given the 5 inputs in whole buffers, and one more whole buffer holding anything, the body ends with the
    inputs unchanged and the last buffer holding `out11` of them. It loads every buffer whole and stores once,
    through the whole tile. -/
theorem sound_kernel11 (c : Dev nD) (E : Set ℕ) (i : grid11.Coords)
    (m_x : Memref sig .tc .vmem S512x1024 .f32) (h_x : m_x.IsWhole)
    (m_ctx : Memref sig .tc .vmem S512x1024 .bf16) (h_ctx : m_ctx.IsWhole)
    (m_wx : Memref sig .tc .vmem S1024x1024 .bf16) (h_wx : m_wx.IsWhole)
    (m_wc : Memref sig .tc .vmem S1024x1024 .bf16) (h_wc : m_wc.IsWhole)
    (m_bias : Memref sig .tc .vmem S1x1024 .f32) (h_bias : m_bias.IsWhole)
    (m_res : Memref sig .tc .vmem S512x1024 .f32) (h_res : m_res.IsWhole)
    (x : Vec F S512x1024 .f32) (ctx : Vec F S512x1024 .bf16) (wx : Vec F S1024x1024 .bf16) (wc : Vec F S1024x1024 .bf16) (bias : Vec F S1x1024 .f32) (K : PUnit → sProp 𝕄) :
    iprop(owns (c : Thread nD τ) m_x fullShare x
        ∗ owns (c : Thread nD τ) m_ctx fullShare ctx
        ∗ owns (c : Thread nD τ) m_wx fullShare wx
        ∗ owns (c : Thread nD τ) m_wc fullShare wc
        ∗ owns (c : Thread nD τ) m_bias fullShare bias
        ∗ (∃ d, owns (c : Thread nD τ) m_res fullShare d)
        ∗ (iprop(owns (c : Thread nD τ) m_x fullShare x
            ∗ owns (c : Thread nD τ) m_ctx fullShare ctx
            ∗ owns (c : Thread nD τ) m_wx fullShare wx
            ∗ owns (c : Thread nD τ) m_wc fullShare wc
            ∗ owns (c : Thread nD τ) m_bias fullShare bias
            ∗ owns (c : Thread nD τ) m_res fullShare (out11 x ctx wx wc bias)) -∗ K ⟨⟩))
      ⊢ wp frame (wpE (defs₀ (F := F)) Variants.none c none) E (cc11__oproj_kernel i m_x h_x m_ctx h_ctx m_wx h_wx m_wc h_wc m_bias h_bias m_res h_res) K := by
  rw [cc11__oproj_kernel_eq_skeleton]; unfold cc11__oproj_kernel_skel
  unfold owns
  iintro ⟨⟨%f_x, %e_x, P_x⟩, ⟨%f_ctx, %e_ctx, P_ctx⟩, ⟨%f_wx, %e_wx, P_wx⟩, ⟨%f_wc, %e_wc, P_wc⟩, ⟨%f_bias, %e_bias, P_bias⟩, ⟨%d, %f_res, -, P_res⟩, Hcont⟩
  subst e_x; subst e_ctx; subst e_wx; subst e_wc; subst e_bias
  sl_exec
  sl_step
  iapply Hcont
  isplitl [P_x]
  · iexists f_x; isplitr
    · ipureintro; rfl
    · iexact P_x
  isplitl [P_ctx]
  · iexists f_ctx; isplitr
    · ipureintro; rfl
    · iexact P_ctx
  isplitl [P_wx]
  · iexists f_wx; isplitr
    · ipureintro; rfl
    · iexact P_wx
  isplitl [P_wc]
  · iexists f_wc; isplitr
    · ipureintro; rfl
    · iexact P_wc
  isplitl [P_bias]
  · iexists f_bias; isplitr
    · ipureintro; rfl
    · iexact P_bias
  iexists _; isplitr
  swap
  · iexact P_res
  ipureintro
  exact View.read_writes_eq_canon _ _ _ (storeCovers11 _)

/-! ## The obligation at a grid point -/

/-- What the pipeline hands the body at point `t`: the invariant, the core's debts, and the six staging buffers. -/
def bodyGiven11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- What it must hand back. -/
def bodyOwed11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- At every point the input buffers hold their blocks, so the run on whole buffers applies; the invariant and
    the debts are not touched by the body. -/
theorem sound_body11 (c : Dev nD) (t : Fin cfg11.N) :
    bodyGiven11 V c t ⊢ wp frame (wpE (defs₀ (F := F)) Variants.none c none) Set.univ (bodyAt11 t) (fun _ => bodyOwed11 V c t) := by
  unfold bodyGiven11 bodyOwed11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨Hinv, Hdebt, ⟨%d0, B0⟩, ⟨%d1, B1⟩, ⟨%d2, B2⟩, ⟨%d3, B3⟩, ⟨%d4, B4⟩, ⟨%d5, B5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [B0]; · iexact B0
  isplitl [B1]; · iexact B1
  isplitl [B2]; · iexact B2
  isplitl [B3]; · iexact B3
  isplitl [B4]; · iexact B4
  isplitl [B5]; · iexists _; iexact B5
  iintro ⟨B0, B1, B2, B3, B4, B5⟩
  isplitl [Hinv]; · iexact Hinv
  isplitl [Hdebt]; · iexact Hdebt
  isplitl [B0]; · iexact B0
  isplitl [B1]; · iexact B1
  isplitl [B2]; · iexact B2
  isplitl [B3]; · iexact B3
  isplitl [B4]; · iexact B4
  iexact B5

/-- The pipeline's obligation on the body, at every grid point. -/
theorem body_obligation11 (c : Dev nD) :
    BodyObligation (dat11 (F := F) V c) (defs₀ (F := F)) Variants.none () Set.univ := fun t => by
  rw [sixWindows11, sixWindows11]
  exact sound_body11 V c t

end Cert.Kernel.Hand
-- ==== Proof.BRunSeg11.lean ====
/-
  Region 11 of the kernel program's @main as a segment of the run. The region reads its input windows' arrays and writes one
  array, main_v65: so the contents after it are the contents before it with that buffer replaced by the fold of the grid
  points' write-backs, every input window's array being what it was (a window that is never written back keeps its array).
-/
import proofs.«117683_j11484742549629_2_alg».proof.Proof.BRunBase
import proofs.«117683_j11484742549629_2_alg».proof.Proof.BLinBody11

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What region 11 leaves in main_v65, from entry contents Wi. -/
def outArr11 (Wi : Dev nD → Valuation τ sig (Elt F)) (c : Dev nD) : Buf (Elt F) ((c : Thread nD τ).loc main_v65) :=
  (dat11 (atTc Wi) c).arrAt 5 cfg11.N
/-- The contents after region 11. -/
abbrev after11 (Wi : Dev nD → Valuation τ sig (Elt F)) (c : Dev nD) : Valuation τ sig (Elt F) :=
  Function.update (Wi c) main_v65 (outArr11 Wi c)

/-- Each window's array after the last grid point is the exit contents at that window's buffer. -/
theorem exitArr11 (Wi : Dev nD → Valuation τ sig (Elt F)) (c : Dev nD) (w : Fin cfg11.W) :
    (dat11 (atTc Wi) c).arrAt w cfg11.N = atTc (after11 Wi) c (Pipeline.arrRef spec11 w) := by
  match w with
  | ⟨0, _⟩ => exact ((dat11 (atTc Wi) c).arrAt_in ⟨0, by decide⟩ rfl _).trans (Function.update_of_ne (StableHlo.devRef_ne_of_ne (by decide)) _ _).symm
  | ⟨1, _⟩ => exact ((dat11 (atTc Wi) c).arrAt_in ⟨1, by decide⟩ rfl _).trans (Function.update_of_ne (StableHlo.devRef_ne_of_ne (by decide)) _ _).symm
  | ⟨2, _⟩ => exact ((dat11 (atTc Wi) c).arrAt_in ⟨2, by decide⟩ rfl _).trans (Function.update_of_ne (StableHlo.devRef_ne_of_ne (by decide)) _ _).symm
  | ⟨3, _⟩ => exact ((dat11 (atTc Wi) c).arrAt_in ⟨3, by decide⟩ rfl _).trans (Function.update_of_ne (StableHlo.devRef_ne_of_ne (by decide)) _ _).symm
  | ⟨4, _⟩ => exact ((dat11 (atTc Wi) c).arrAt_in ⟨4, by decide⟩ rfl _).trans (Function.update_of_ne (StableHlo.devRef_ne_of_ne (by decide)) _ _).symm
  | ⟨5, _⟩ => exact (Function.update_self (Proc.devRef .tc main_v65 : DevRef τ sig) (outArr11 Wi c) (Wi c)).symm

/-- Every buffer that is no window's array is as at entry. -/
theorem exitKeep11 (Wi : Dev nD → Valuation τ sig (Elt F)) (c : Dev nD) :
    ∀ b, b ∉ Finset.univ.image (Pipeline.arrRef spec11) → atTc (after11 Wi) c b = atTc Wi c b := by
  intro b hb
  have hne : b ≠ main_v65 := fun e => hb (Finset.mem_image.mpr ⟨5, Finset.mem_univ _, e.symm ▸ rfl⟩)
  exact Function.update_of_ne (StableHlo.devRef_ne_of_ne hne) _ _

set_option backward.isDefEq.respectTransparency.types false in
/-- Region 11 as a segment between two valuations Wi (entry) and Wo (exit) of the unscoped buffers, for any family of proof
    data whose entry at region 11 is this region's. The region's arrays are split out of the unscoped buffers at entry and put
    back at exit, where each window's array is Wo at that window's buffer (hArr) and every other buffer is as at entry (hKeep);
    the generator register goes into the class invariant and comes back; the kernel has no semaphore of its own and owes nothing. -/
def linSeg11 (pdats : (p : Fin 13) → (c : Dev nD) → Dat τ (Elt F) Unit ℕ (UR sig nD τ) ℕ (cfgs p) c)
    (Wi Wo : Dev nD → Valuation τ sig (Elt F))
    (hp : ∀ c, pdats 11 c = dat11 (atTc Wi) c)
    (hArr : ∀ c (w : Fin cfg11.W), (dat11 (atTc Wi) c).arrAt w cfg11.N = atTc Wo c (Pipeline.arrRef spec11 w))
    (hKeep : ∀ c, ∀ b, b ∉ Finset.univ.image (Pipeline.arrRef spec11) → atTc Wo c b = atTc Wi c b) :
    RegionSeg (pcfgs (F := F)) adm pdats () defs₀ Variants.none noLevels levelZero 11 where
  win := launch11.win.to₀
  block_pos := launch11.block_pos
  stage_whole := launch11.stage_whole
  K := PEmpty
  osem k := k.elim
  ho := Pipeline.OwnSemFacts.none _
  hbody c := by rw [hp c]; exact (body_obligation11 (atTc Wi) c).loose
  hwaits := Pipeline.hwaits_of_owed_zero _ _ _ _ noLevels levelZero 11 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec11 c (atTc Wi c)
  hentry c := by
    rw [Pipeline.ownSems0_none]
    have hsplit := Pipeline.arrays_of_unscopedBufs (p := 11) (pcfgs (F := F)) adm pdats launch11.win launch11.arr_whole c
      ((pdats 11 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec11 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec11 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 11) (pcfgs (F := F)) adm (Ix := Unit) (Name := ℕ) (U := UR sig nD τ) (Lvl := ℕ)
      launch11.win launch11.arr_whole c pdats ((pdats 11 c).share_full fun _ => by rw [hp c]; rfl)
      (atTc Wi c) (atTc Wo c) ((pdats 11 c).arrAt · cfg11.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BLinDat12.lean ====
/- Region 12 (an output projection: the activation tile times one weight matrix plus the attention-context tile times another, plus the bias row, kept in f32): the blocks its 6 windows
   hold at a grid point, the block its body stores as a function of the 5 input blocks, and the pipeline's
   proof data at an arbitrary entry valuation. -/
import proofs.«117683_j11484742549629_2_alg».proof.Proof.Gen.Kernel.Skeleton
import proofs.«117683_j11484742549629_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- what the TensorCore's buffers hold when the region starts
variable (V : (c : Dev nD) → (b : Ref sig .tc) → Buf (Elt F) ((c : Thread nD τ).loc b))

/-! ## Blocks of the windows -/

/-- The block of window `w` at grid point `t`, cut from that window's array as it stands at entry. -/
def iblk12 (c : Dev nD) (w : Fin cfg12.W) (t : Fin cfg12.N) :
    ((cfg12.win w).xblock (cfg12.grid.coords t)).Idx → Elt F (cfg12.win w).elt :=
  ((cfg12.win w).blk t).view.read (Elt F) (V c (Pipeline.arrRef spec12 w))

/-! ## The rectangles the body reads and writes: each is a whole staging buffer -/

/-- all of a 512x1024 tile (an input tile, and the result tile) -/
abbrev tileAll12 : Rect S512x1024 := Rect.unit (s := S512x1024) ![0, 0] S512x1024.size inb_S512x1024_S512x1024_0_0
/-- all of a 1024x1024 weight matrix -/
abbrev weightAll12 : Rect S1024x1024 := Rect.unit (s := S1024x1024) ![0, 0] S1024x1024.size inb_S1024x1024_S1024x1024_0_0
/-- all of the 1x1024 bias row -/
abbrev biasAll12 : Rect S1x1024 := Rect.unit (s := S1x1024) ![0, 0] S1x1024.size inb_S1x1024_S1x1024_0_0

/-- A pair of zero offsets is the constant-zero offset. -/
theorem zeroOffsets12 : (![0, 0] : Fin 2 → Nat) = fun _ => 0 := funext fun a => by fin_cases a <;> rfl

/-! ## The stored block -/

/-- The result buffer after the body, given the 5 input buffers' contents: the body's single store,
    which goes through the whole tile, with the payload evaluated at the 5 whole-buffer loads. -/
def out12 (x : Vec F S512x1024 .f32) (ctx : Vec F S512x1024 .bf16) (wx : Vec F S1024x1024 .bf16) (wc : Vec F S1024x1024 .bf16) (bias : Vec F S1x1024 .f32) : Vec F S512x1024 .f32 :=
  View.canon [⟨tileAll12, k12_pay1 (View.ld x tileAll12) (View.ld ctx tileAll12) (View.ld wx weightAll12) (View.ld wc weightAll12) (View.ld bias biasAll12)⟩]

/-- Since the store and the loads are through whole buffers, the stored block is the payload of the
    input blocks themselves. -/
theorem out12_eq_pay (x : Vec F S512x1024 .f32) (ctx : Vec F S512x1024 .bf16) (wx : Vec F S1024x1024 .bf16) (wc : Vec F S1024x1024 .bf16) (bias : Vec F S1x1024 .f32) :
    out12 x ctx wx wc bias = k12_pay1 x ctx wx wc bias := by
  unfold out12
  rw [View.canon_unit_zero (S := S512x1024) zeroOffsets12 inb_S512x1024_S512x1024_0_0]
  rw [View.ld_unit_zero (S := S512x1024) zeroOffsets12 inb_S512x1024_S512x1024_0_0 x]
  rw [View.ld_unit_zero (S := S512x1024) zeroOffsets12 inb_S512x1024_S512x1024_0_0 ctx]
  rw [View.ld_unit_zero (S := S1024x1024) zeroOffsets12 inb_S1024x1024_S1024x1024_0_0 wx]
  rw [View.ld_unit_zero (S := S1024x1024) zeroOffsets12 inb_S1024x1024_S1024x1024_0_0 wc]
  rw [View.ld_unit_zero (S := S1x1024) zeroOffsets12 inb_S1x1024_S1x1024_0_0 bias]

/-- The single store reaches every index of the tile. -/
theorem storeCovers12 (p : Vec F S512x1024 .f32) (y : S512x1024.Idx) :
    ∃ pc ∈ ([⟨tileAll12, p⟩] : List (View.Piece (Elt F) S512x1024 .f32)), y ∈ pc.1.set :=
  ⟨_, List.mem_singleton_self _, View.mem_set_unit_zero (S := S512x1024) zeroOffsets12 inb_S512x1024_S512x1024_0_0 y⟩

/-! ## Proof data of the pipeline -/

/-- On core `c`: every window's array is what the entry valuation says; after the body at point `t` the 5
    input buffers still hold their blocks and the result buffer holds `out12` of them; the invariant is the
    untouched rest (scoped buffers and the generator register); no debts, full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12 (iblk12 V c 0 t) (iblk12 V c 1 t) (iblk12 V c 2 t) (iblk12 V c 3 t) (iblk12 V c 4 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t = out12 (iblk12 V c 0 t) (iblk12 V c 1 t) (iblk12 V c 2 t) (iblk12 V c 3 t) (iblk12 V c 4 t) := by dsimp only [dat12]

/-- The same, with the stored block spelt as the payload of the input blocks. -/
theorem after12_5_pay (c : Dev nD) (t : Fin cfg12.N) :
    (dat12 V c).after 5 t = k12_pay1 (iblk12 V c 0 t) (iblk12 V c 1 t) (iblk12 V c 2 t) (iblk12 V c 3 t) (iblk12 V c 4 t) := by
  rw [after12_5, out12_eq_pay]

/-! ## What an input's staging buffer holds when the body starts

A tile's buffer is fetched at every point; a weight matrix and the bias row are fetched once and their index
never moves. Either way the buffer holds the window's block of the entry array. -/

/-- the activation tile -/
theorem before12_0 (c : Dev nD) (t : Fin cfg12.N) (d) : (dat12 V c).before 0 t d = iblk12 V c 0 t :=
  ((dat12 V c).before_in_eq_fetched 0 rfl (fun _ => rfl) (fun _ _ _ => rfl)
      (fun t => by rw [after12_0]; unfold Dat.blockOf iblk12; rw [A_eq12]; try rfl) t d).trans
    (by unfold Dat.fetched Dat.blockOf iblk12; rw [A_eq12]; try rfl)

/-- the attention-context tile -/
theorem before12_1 (c : Dev nD) (t : Fin cfg12.N) (d) : (dat12 V c).before 1 t d = iblk12 V c 1 t :=
  ((dat12 V c).before_in_eq_fetched 1 rfl (fun _ => rfl) (fun _ _ _ => rfl)
      (fun t => by rw [after12_1]; unfold Dat.blockOf iblk12; rw [A_eq12]; try rfl) t d).trans
    (by unfold Dat.fetched Dat.blockOf iblk12; rw [A_eq12]; try rfl)

/-- the weight matrix of the activation -/
theorem before12_2 (c : Dev nD) (t : Fin cfg12.N) (d) : (dat12 V c).before 2 t d = iblk12 V c 2 t :=
  ((dat12 V c).before_in_eq_fetched 2 rfl (fun _ => rfl) (fun _ _ _ => rfl)
      (fun t => by rw [after12_2]; unfold Dat.blockOf iblk12; rw [A_eq12]; try rfl) t d).trans
    (by unfold Dat.fetched Dat.blockOf iblk12; rw [A_eq12]; try rfl)

/-- the weight matrix of the context -/
theorem before12_3 (c : Dev nD) (t : Fin cfg12.N) (d) : (dat12 V c).before 3 t d = iblk12 V c 3 t :=
  ((dat12 V c).before_in_eq_fetched 3 rfl (fun _ => rfl) (fun _ _ _ => rfl)
      (fun t => by rw [after12_3]; unfold Dat.blockOf iblk12; rw [A_eq12]; try rfl) t d).trans
    (by unfold Dat.fetched Dat.blockOf iblk12; rw [A_eq12]; try rfl)

/-- the bias row -/
theorem before12_4 (c : Dev nD) (t : Fin cfg12.N) (d) : (dat12 V c).before 4 t d = iblk12 V c 4 t :=
  ((dat12 V c).before_in_eq_fetched 4 rfl (fun _ => rfl) (fun _ _ _ => rfl)
      (fun t => by rw [after12_4]; unfold Dat.blockOf iblk12; rw [A_eq12]; try rfl) t d).trans
    (by unfold Dat.fetched Dat.blockOf iblk12; rw [A_eq12]; try rfl)

end Cert.Kernel.Hand
-- ==== Proof.BLinBody12.lean ====
/- Region 12 (an output projection: the activation tile times one weight matrix plus the attention-context tile times another, plus the bias row, kept in f32): the kernel body run on whole
   staging buffers, and from it the obligation the pipeline asks of the body at every grid point. -/
import proofs.«117683_j11484742549629_2_alg».proof.Proof.BLinDat12
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A separating conjunction over the six windows, written out. -/
theorem sixWindows12 {M : Type} [URA M] (P : Fin 6 → sProp M) :
    bigSep Finset.univ P = iprop(P 0 ∗ P 1 ∗ P 2 ∗ P 3 ∗ P 4 ∗ P 5) :=
  bigSep_univ_eq_bigSepL [(0 : Fin 6), 1, 2, 3, 4, 5] (by decide) (by decide) P

variable (V : (c : Dev nD) → (b : Ref sig .tc) → Buf (Elt F) ((c : Thread nD τ).loc b))

/-! ## The body on whole buffers -/

set_option maxHeartbeats 1000000 in
/-- Given the 5 inputs in whole buffers, and one more whole buffer holding anything, the body ends with the
    inputs unchanged and the last buffer holding `out12` of them. It loads every buffer whole and stores once,
    through the whole tile. -/
theorem sound_kernel12 (c : Dev nD) (E : Set ℕ) (i : grid12.Coords)
    (m_x : Memref sig .tc .vmem S512x1024 .f32) (h_x : m_x.IsWhole)
    (m_ctx : Memref sig .tc .vmem S512x1024 .bf16) (h_ctx : m_ctx.IsWhole)
    (m_wx : Memref sig .tc .vmem S1024x1024 .bf16) (h_wx : m_wx.IsWhole)
    (m_wc : Memref sig .tc .vmem S1024x1024 .bf16) (h_wc : m_wc.IsWhole)
    (m_bias : Memref sig .tc .vmem S1x1024 .f32) (h_bias : m_bias.IsWhole)
    (m_res : Memref sig .tc .vmem S512x1024 .f32) (h_res : m_res.IsWhole)
    (x : Vec F S512x1024 .f32) (ctx : Vec F S512x1024 .bf16) (wx : Vec F S1024x1024 .bf16) (wc : Vec F S1024x1024 .bf16) (bias : Vec F S1x1024 .f32) (K : PUnit → sProp 𝕄) :
    iprop(owns (c : Thread nD τ) m_x fullShare x
        ∗ owns (c : Thread nD τ) m_ctx fullShare ctx
        ∗ owns (c : Thread nD τ) m_wx fullShare wx
        ∗ owns (c : Thread nD τ) m_wc fullShare wc
        ∗ owns (c : Thread nD τ) m_bias fullShare bias
        ∗ (∃ d, owns (c : Thread nD τ) m_res fullShare d)
        ∗ (iprop(owns (c : Thread nD τ) m_x fullShare x
            ∗ owns (c : Thread nD τ) m_ctx fullShare ctx
            ∗ owns (c : Thread nD τ) m_wx fullShare wx
            ∗ owns (c : Thread nD τ) m_wc fullShare wc
            ∗ owns (c : Thread nD τ) m_bias fullShare bias
            ∗ owns (c : Thread nD τ) m_res fullShare (out12 x ctx wx wc bias)) -∗ K ⟨⟩))
      ⊢ wp frame (wpE (defs₀ (F := F)) Variants.none c none) E (cc12__oproj_kernel i m_x h_x m_ctx h_ctx m_wx h_wx m_wc h_wc m_bias h_bias m_res h_res) K := by
  rw [cc12__oproj_kernel_eq_skeleton]; unfold cc12__oproj_kernel_skel
  unfold owns
  iintro ⟨⟨%f_x, %e_x, P_x⟩, ⟨%f_ctx, %e_ctx, P_ctx⟩, ⟨%f_wx, %e_wx, P_wx⟩, ⟨%f_wc, %e_wc, P_wc⟩, ⟨%f_bias, %e_bias, P_bias⟩, ⟨%d, %f_res, -, P_res⟩, Hcont⟩
  subst e_x; subst e_ctx; subst e_wx; subst e_wc; subst e_bias
  sl_exec
  sl_step
  iapply Hcont
  isplitl [P_x]
  · iexists f_x; isplitr
    · ipureintro; rfl
    · iexact P_x
  isplitl [P_ctx]
  · iexists f_ctx; isplitr
    · ipureintro; rfl
    · iexact P_ctx
  isplitl [P_wx]
  · iexists f_wx; isplitr
    · ipureintro; rfl
    · iexact P_wx
  isplitl [P_wc]
  · iexists f_wc; isplitr
    · ipureintro; rfl
    · iexact P_wc
  isplitl [P_bias]
  · iexists f_bias; isplitr
    · ipureintro; rfl
    · iexact P_bias
  iexists _; isplitr
  swap
  · iexact P_res
  ipureintro
  exact View.read_writes_eq_canon _ _ _ (storeCovers12 _)

/-! ## The obligation at a grid point -/

/-- What the pipeline hands the body at point `t`: the invariant, the core's debts, and the six staging buffers. -/
def bodyGiven12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- What it must hand back. -/
def bodyOwed12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- At every point the input buffers hold their blocks, so the run on whole buffers applies; the invariant and
    the debts are not touched by the body. -/
theorem sound_body12 (c : Dev nD) (t : Fin cfg12.N) :
    bodyGiven12 V c t ⊢ wp frame (wpE (defs₀ (F := F)) Variants.none c none) Set.univ (bodyAt12 t) (fun _ => bodyOwed12 V c t) := by
  unfold bodyGiven12 bodyOwed12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨Hinv, Hdebt, ⟨%d0, B0⟩, ⟨%d1, B1⟩, ⟨%d2, B2⟩, ⟨%d3, B3⟩, ⟨%d4, B4⟩, ⟨%d5, B5⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [B0]; · iexact B0
  isplitl [B1]; · iexact B1
  isplitl [B2]; · iexact B2
  isplitl [B3]; · iexact B3
  isplitl [B4]; · iexact B4
  isplitl [B5]; · iexists _; iexact B5
  iintro ⟨B0, B1, B2, B3, B4, B5⟩
  isplitl [Hinv]; · iexact Hinv
  isplitl [Hdebt]; · iexact Hdebt
  isplitl [B0]; · iexact B0
  isplitl [B1]; · iexact B1
  isplitl [B2]; · iexact B2
  isplitl [B3]; · iexact B3
  isplitl [B4]; · iexact B4
  iexact B5

/-- The pipeline's obligation on the body, at every grid point. -/
theorem body_obligation12 (c : Dev nD) :
    BodyObligation (dat12 (F := F) V c) (defs₀ (F := F)) Variants.none () Set.univ := fun t => by
  rw [sixWindows12, sixWindows12]
  exact sound_body12 V c t

end Cert.Kernel.Hand
-- ==== Proof.BRunSeg12.lean ====
/-
  Region 12 of the kernel program's @main as a segment of the run. The region reads its input windows' arrays and writes one
  array, main_v70: so the contents after it are the contents before it with that buffer replaced by the fold of the grid
  points' write-backs, every input window's array being what it was (a window that is never written back keeps its array).
-/
import proofs.«117683_j11484742549629_2_alg».proof.Proof.BRunBase
import proofs.«117683_j11484742549629_2_alg».proof.Proof.BLinBody12

set_option maxRecDepth 4096
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen
variable {F : FTy → Type} [FloatOps F]

local notation "𝕄" => MT nD τ sig Unit (Elt F) ℕ (UR sig nD τ) ℕ

/-- What region 12 leaves in main_v70, from entry contents Wi. -/
def outArr12 (Wi : Dev nD → Valuation τ sig (Elt F)) (c : Dev nD) : Buf (Elt F) ((c : Thread nD τ).loc main_v70) :=
  (dat12 (atTc Wi) c).arrAt 5 cfg12.N
/-- The contents after region 12. -/
abbrev after12 (Wi : Dev nD → Valuation τ sig (Elt F)) (c : Dev nD) : Valuation τ sig (Elt F) :=
  Function.update (Wi c) main_v70 (outArr12 Wi c)

/-- Each window's array after the last grid point is the exit contents at that window's buffer. -/
theorem exitArr12 (Wi : Dev nD → Valuation τ sig (Elt F)) (c : Dev nD) (w : Fin cfg12.W) :
    (dat12 (atTc Wi) c).arrAt w cfg12.N = atTc (after12 Wi) c (Pipeline.arrRef spec12 w) := by
  match w with
  | ⟨0, _⟩ => exact ((dat12 (atTc Wi) c).arrAt_in ⟨0, by decide⟩ rfl _).trans (Function.update_of_ne (StableHlo.devRef_ne_of_ne (by decide)) _ _).symm
  | ⟨1, _⟩ => exact ((dat12 (atTc Wi) c).arrAt_in ⟨1, by decide⟩ rfl _).trans (Function.update_of_ne (StableHlo.devRef_ne_of_ne (by decide)) _ _).symm
  | ⟨2, _⟩ => exact ((dat12 (atTc Wi) c).arrAt_in ⟨2, by decide⟩ rfl _).trans (Function.update_of_ne (StableHlo.devRef_ne_of_ne (by decide)) _ _).symm
  | ⟨3, _⟩ => exact ((dat12 (atTc Wi) c).arrAt_in ⟨3, by decide⟩ rfl _).trans (Function.update_of_ne (StableHlo.devRef_ne_of_ne (by decide)) _ _).symm
  | ⟨4, _⟩ => exact ((dat12 (atTc Wi) c).arrAt_in ⟨4, by decide⟩ rfl _).trans (Function.update_of_ne (StableHlo.devRef_ne_of_ne (by decide)) _ _).symm
  | ⟨5, _⟩ => exact (Function.update_self (Proc.devRef .tc main_v70 : DevRef τ sig) (outArr12 Wi c) (Wi c)).symm

/-- Every buffer that is no window's array is as at entry. -/
theorem exitKeep12 (Wi : Dev nD → Valuation τ sig (Elt F)) (c : Dev nD) :
    ∀ b, b ∉ Finset.univ.image (Pipeline.arrRef spec12) → atTc (after12 Wi) c b = atTc Wi c b := by
  intro b hb
  have hne : b ≠ main_v70 := fun e => hb (Finset.mem_image.mpr ⟨5, Finset.mem_univ _, e.symm ▸ rfl⟩)
  exact Function.update_of_ne (StableHlo.devRef_ne_of_ne hne) _ _

set_option backward.isDefEq.respectTransparency.types false in
/-- Region 12 as a segment between two valuations Wi (entry) and Wo (exit) of the unscoped buffers, for any family of proof
    data whose entry at region 12 is this region's. The region's arrays are split out of the unscoped buffers at entry and put
    back at exit, where each window's array is Wo at that window's buffer (hArr) and every other buffer is as at entry (hKeep);
    the generator register goes into the class invariant and comes back; the kernel has no semaphore of its own and owes nothing. -/
def linSeg12 (pdats : (p : Fin 13) → (c : Dev nD) → Dat τ (Elt F) Unit ℕ (UR sig nD τ) ℕ (cfgs p) c)
    (Wi Wo : Dev nD → Valuation τ sig (Elt F))
    (hp : ∀ c, pdats 12 c = dat12 (atTc Wi) c)
    (hArr : ∀ c (w : Fin cfg12.W), (dat12 (atTc Wi) c).arrAt w cfg12.N = atTc Wo c (Pipeline.arrRef spec12 w))
    (hKeep : ∀ c, ∀ b, b ∉ Finset.univ.image (Pipeline.arrRef spec12) → atTc Wo c b = atTc Wi c b) :
    RegionSeg (pcfgs (F := F)) adm pdats () defs₀ Variants.none noLevels levelZero 12 where
  win := launch12.win.to₀
  block_pos := launch12.block_pos
  stage_whole := launch12.stage_whole
  K := PEmpty
  osem k := k.elim
  ho := Pipeline.OwnSemFacts.none _
  hbody c := by rw [hp c]; exact (body_obligation12 (atTc Wi) c).loose
  hwaits := Pipeline.hwaits_of_owed_zero _ _ _ _ noLevels levelZero 12 fun c _ => by rw [hp c]; rfl
  pre c := iprop(StableHlo.held (c : Thread nD τ) (Pipeline.ucRefs τ sig) (Wi c) ∗ beside c)
  post c := iprop(StableHlo.held (c : Thread nD τ) (Pipeline.ucRefs τ sig) (Wo c) ∗ beside c)
  X c := iprop(∃ r, prngReg c r)
  Y c := iprop(∃ r, prngReg c r)
  Z c := Pipeline.unscopedRest (Ix := Unit) (Name := ℕ) (U := UR sig nD τ) (Lvl := ℕ) spec12 c (atTc Wi c)
  hentry c := by
    rw [Pipeline.ownSems0_none]
    have hsplit := Pipeline.arrays_of_unscopedBufs (p := 12) (pcfgs (F := F)) adm pdats launch12.win launch12.arr_whole c
      ((pdats 12 c).share_full fun _ => by rw [hp c]; rfl) (atTc Wi c) fun _ => by rw [hp c]; rfl
    rw [Pipeline.unscopedBufs_held] at hsplit
    rw [hp c] at hsplit ⊢
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [hp c]
    show _ ⊢ (Pipeline.ΦA spec12 c : sProp 𝕄)
    unfold Pipeline.ΦA
    iintro ⟨Hreg, -, Hscoped⟩
    isplitl [Hscoped]; · iexact Hscoped
    iexact Hreg
  hout c := by
    rw [Pipeline.ownSems0_none, hp c]
    show (Pipeline.ΦA spec12 c : sProp 𝕄) ⊢ _
    unfold Pipeline.ΦA
    iintro ⟨Hscoped, Hreg⟩
    isplitl [Hreg]; · iexact Hreg
    isplitr; · iempintro
    iexact Hscoped
  hexit c := by
    have hjoin := Pipeline.unscopedBufs_of_arrays (p := 12) (pcfgs (F := F)) adm (Ix := Unit) (Name := ℕ) (U := UR sig nD τ) (Lvl := ℕ)
      launch12.win launch12.arr_whole c pdats ((pdats 12 c).share_full fun _ => by rw [hp c]; rfl)
      (atTc Wi c) (atTc Wo c) ((pdats 12 c).arrAt · cfg12.N) (fun w => by rw [hp c]; exact hArr c w) (hKeep c)
    rw [Pipeline.unscopedBufs_held] at hjoin
    rw [hp c] at hjoin ⊢
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand
end
-- ==== Proof.BRunVals.lean ====
/-
  The contents of the unscoped buffers between the items of the kernel program's @main, written out stage by stage.
  U1 is the launch contents after the first stretch of host operations. A region changes exactly one buffer, its output
  array, which it leaves at the fold of the write-backs of its grid points; a stretch of host operations applies those
  operations. So U(2K+2) is U(2K+1) with region K's output buffer replaced, and U(2K+3) is U(2K+2) after the next stretch.
  The family outs hands these output arrays to the valuations V1 … V27, which are stated over unknown region outputs; with
  it, VJ = UJ for every J.
-/
import proofs.«117683_j11484742549629_2_alg».proof.Proof.BRunSeg0
import proofs.«117683_j11484742549629_2_alg».proof.Proof.BRunSeg1
import proofs.«117683_j11484742549629_2_alg».proof.Proof.BRunSeg2
import proofs.«117683_j11484742549629_2_alg».proof.Proof.BAttnSeg
import proofs.«117683_j11484742549629_2_alg».proof.Proof.BRunSeg4
import proofs.«117683_j11484742549629_2_alg».proof.Proof.BRunSeg5
import proofs.«117683_j11484742549629_2_alg».proof.Proof.BAttnSeg6
import proofs.«117683_j11484742549629_2_alg».proof.Proof.BRunSeg7
import proofs.«117683_j11484742549629_2_alg».proof.Proof.BRunSeg8
import proofs.«117683_j11484742549629_2_alg».proof.Proof.BAttnSeg9
import proofs.«117683_j11484742549629_2_alg».proof.Proof.BRunSeg10
import proofs.«117683_j11484742549629_2_alg».proof.Proof.BRunSeg11
import proofs.«117683_j11484742549629_2_alg».proof.Proof.BRunSeg12

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

/-- Before region 0: the launch contents after the first host stretch. -/
abbrev U1 (c : Dev nD) : Valuation τ sig (Elt F) := V1 m c
/-- After region 0: its output array main_v10 replaced. -/
abbrev U2 (c : Dev nD) : Valuation τ sig (Elt F) := after0 (U1 m) c
/-- After the host stretch that follows region 0. -/
abbrev U3 (c : Dev nD) : Valuation τ sig (Elt F) := StableHlo.after hostOps1 (U2 m c)
/-- After region 1: its output array main_v15 replaced. -/
abbrev U4 (c : Dev nD) : Valuation τ sig (Elt F) := after1 (U3 m) c
/-- After the host stretch that follows region 1. -/
abbrev U5 (c : Dev nD) : Valuation τ sig (Elt F) := StableHlo.after hostOps2 (U4 m c)
/-- After region 2: its output array main_v20 replaced. -/
abbrev U6 (c : Dev nD) : Valuation τ sig (Elt F) := after2 (U5 m) c
/-- After the host stretch that follows region 2. -/
abbrev U7 (c : Dev nD) : Valuation τ sig (Elt F) := StableHlo.after hostOps3 (U6 m c)
/-- After region 3: its output array main_v22 replaced. -/
abbrev U8 (c : Dev nD) : Valuation τ sig (Elt F) := attnAfter3 (U7 m) c
/-- After the host stretch that follows region 3. -/
abbrev U9 (c : Dev nD) : Valuation τ sig (Elt F) := StableHlo.after hostOps4 (U8 m c)
/-- After region 4: its output array main_v26 replaced. -/
abbrev U10 (c : Dev nD) : Valuation τ sig (Elt F) := after4 (U9 m) c
/-- After the host stretch that follows region 4. -/
abbrev U11 (c : Dev nD) : Valuation τ sig (Elt F) := StableHlo.after hostOps5 (U10 m c)
/-- After region 5: its output array main_v31 replaced. -/
abbrev U12 (c : Dev nD) : Valuation τ sig (Elt F) := after5 (U11 m) c
/-- After the host stretch that follows region 5. -/
abbrev U13 (c : Dev nD) : Valuation τ sig (Elt F) := StableHlo.after hostOps6 (U12 m c)
/-- After region 6: its output array main_v33 replaced. -/
abbrev U14 (c : Dev nD) : Valuation τ sig (Elt F) := attnAfter6 (U13 m) c
/-- After the host stretch that follows region 6. -/
abbrev U15 (c : Dev nD) : Valuation τ sig (Elt F) := StableHlo.after hostOps7 (U14 m c)
/-- After region 7: its output array main_v37 replaced. -/
abbrev U16 (c : Dev nD) : Valuation τ sig (Elt F) := after7 (U15 m) c
/-- After the host stretch that follows region 7. -/
abbrev U17 (c : Dev nD) : Valuation τ sig (Elt F) := StableHlo.after hostOps8 (U16 m c)
/-- After region 8: its output array main_v42 replaced. -/
abbrev U18 (c : Dev nD) : Valuation τ sig (Elt F) := after8 (U17 m) c
/-- After the host stretch that follows region 8. -/
abbrev U19 (c : Dev nD) : Valuation τ sig (Elt F) := StableHlo.after hostOps9 (U18 m c)
/-- After region 9: its output array main_v44 replaced. -/
abbrev U20 (c : Dev nD) : Valuation τ sig (Elt F) := attnAfter9 (U19 m) c
/-- After the host stretch that follows region 9. -/
abbrev U21 (c : Dev nD) : Valuation τ sig (Elt F) := StableHlo.after hostOps10 (U20 m c)
/-- After region 10: its output array main_v60 replaced. -/
abbrev U22 (c : Dev nD) : Valuation τ sig (Elt F) := after10 (U21 m) c
/-- After the host stretch that follows region 10. -/
abbrev U23 (c : Dev nD) : Valuation τ sig (Elt F) := StableHlo.after hostOps11 (U22 m c)
/-- After region 11: its output array main_v65 replaced. -/
abbrev U24 (c : Dev nD) : Valuation τ sig (Elt F) := after11 (U23 m) c
/-- After the host stretch that follows region 11. -/
abbrev U25 (c : Dev nD) : Valuation τ sig (Elt F) := StableHlo.after hostOps12 (U24 m c)
/-- After region 12: its output array main_v70 replaced. -/
abbrev U26 (c : Dev nD) : Valuation τ sig (Elt F) := after12 (U25 m) c
/-- After the host stretch that follows region 12. -/
abbrev U27 (c : Dev nD) : Valuation τ sig (Elt F) := StableHlo.after hostOps13 (U26 m c)

/-- The regions' outputs as the family the valuations V are stated over: item 2K+2's entry for region K's output
    buffer is that region's output array; every other entry is never read and is set to the launch contents. -/
def outs : Outs (F := F) := fun n r c =>
  if h2 : n = 2 ∧ r = main_v10 then h2.2 ▸ outArr0 (U1 m) c else
  if h4 : n = 4 ∧ r = main_v15 then h4.2 ▸ outArr1 (U3 m) c else
  if h6 : n = 6 ∧ r = main_v20 then h6.2 ▸ outArr2 (U5 m) c else
  if h8 : n = 8 ∧ r = main_v22 then h8.2 ▸ attnArr3 (U7 m) c else
  if h10 : n = 10 ∧ r = main_v26 then h10.2 ▸ outArr4 (U9 m) c else
  if h12 : n = 12 ∧ r = main_v31 then h12.2 ▸ outArr5 (U11 m) c else
  if h14 : n = 14 ∧ r = main_v33 then h14.2 ▸ attnArr6 (U13 m) c else
  if h16 : n = 16 ∧ r = main_v37 then h16.2 ▸ outArr7 (U15 m) c else
  if h18 : n = 18 ∧ r = main_v42 then h18.2 ▸ outArr8 (U17 m) c else
  if h20 : n = 20 ∧ r = main_v44 then h20.2 ▸ attnArr9 (U19 m) c else
  if h22 : n = 22 ∧ r = main_v60 then h22.2 ▸ outArr10 (U21 m) c else
  if h24 : n = 24 ∧ r = main_v65 then h24.2 ▸ outArr11 (U23 m) c else
  if h26 : n = 26 ∧ r = main_v70 then h26.2 ▸ outArr12 (U25 m) c else
  m ((c : Thread nD τ).loc r)

theorem outs_2 (c : Dev nD) : outs m 2 main_v10 c = outArr0 (U1 m) c := by
  unfold outs; simp
theorem outs_4 (c : Dev nD) : outs m 4 main_v15 c = outArr1 (U3 m) c := by
  unfold outs; simp
theorem outs_6 (c : Dev nD) : outs m 6 main_v20 c = outArr2 (U5 m) c := by
  unfold outs; simp
theorem outs_8 (c : Dev nD) : outs m 8 main_v22 c = attnArr3 (U7 m) c := by
  unfold outs; simp
theorem outs_10 (c : Dev nD) : outs m 10 main_v26 c = outArr4 (U9 m) c := by
  unfold outs; simp
theorem outs_12 (c : Dev nD) : outs m 12 main_v31 c = outArr5 (U11 m) c := by
  unfold outs; simp
theorem outs_14 (c : Dev nD) : outs m 14 main_v33 c = attnArr6 (U13 m) c := by
  unfold outs; simp
theorem outs_16 (c : Dev nD) : outs m 16 main_v37 c = outArr7 (U15 m) c := by
  unfold outs; simp
theorem outs_18 (c : Dev nD) : outs m 18 main_v42 c = outArr8 (U17 m) c := by
  unfold outs; simp
theorem outs_20 (c : Dev nD) : outs m 20 main_v44 c = attnArr9 (U19 m) c := by
  unfold outs; simp
theorem outs_22 (c : Dev nD) : outs m 22 main_v60 c = outArr10 (U21 m) c := by
  unfold outs; simp
theorem outs_24 (c : Dev nD) : outs m 24 main_v65 c = outArr11 (U23 m) c := by
  unfold outs; simp
theorem outs_26 (c : Dev nD) : outs m 26 main_v70 c = outArr12 (U25 m) c := by
  unfold outs; simp

/-! The valuations V at outs are the stage-by-stage ones. -/
theorem V1_eq (c : Dev nD) : V1 m c = U1 m c := rfl
theorem V2_eq (c : Dev nD) : V2 m (outs m) c = U2 m c := by
  show Function.update (V1 m c) main_v10 (outs m 2 main_v10 c) = _
  rw [outs_2, V1_eq]
theorem V3_eq (c : Dev nD) : V3 m (outs m) c = U3 m c := by
  show StableHlo.after hostOps1 (V2 m (outs m) c) = _
  rw [V2_eq]
theorem V4_eq (c : Dev nD) : V4 m (outs m) c = U4 m c := by
  show Function.update (V3 m (outs m) c) main_v15 (outs m 4 main_v15 c) = _
  rw [outs_4, V3_eq]
theorem V5_eq (c : Dev nD) : V5 m (outs m) c = U5 m c := by
  show StableHlo.after hostOps2 (V4 m (outs m) c) = _
  rw [V4_eq]
theorem V6_eq (c : Dev nD) : V6 m (outs m) c = U6 m c := by
  show Function.update (V5 m (outs m) c) main_v20 (outs m 6 main_v20 c) = _
  rw [outs_6, V5_eq]
theorem V7_eq (c : Dev nD) : V7 m (outs m) c = U7 m c := by
  show StableHlo.after hostOps3 (V6 m (outs m) c) = _
  rw [V6_eq]
theorem V8_eq (c : Dev nD) : V8 m (outs m) c = U8 m c := by
  show Function.update (V7 m (outs m) c) main_v22 (outs m 8 main_v22 c) = _
  rw [outs_8, V7_eq]
theorem V9_eq (c : Dev nD) : V9 m (outs m) c = U9 m c := by
  show StableHlo.after hostOps4 (V8 m (outs m) c) = _
  rw [V8_eq]
theorem V10_eq (c : Dev nD) : V10 m (outs m) c = U10 m c := by
  show Function.update (V9 m (outs m) c) main_v26 (outs m 10 main_v26 c) = _
  rw [outs_10, V9_eq]
theorem V11_eq (c : Dev nD) : V11 m (outs m) c = U11 m c := by
  show StableHlo.after hostOps5 (V10 m (outs m) c) = _
  rw [V10_eq]
theorem V12_eq (c : Dev nD) : V12 m (outs m) c = U12 m c := by
  show Function.update (V11 m (outs m) c) main_v31 (outs m 12 main_v31 c) = _
  rw [outs_12, V11_eq]
theorem V13_eq (c : Dev nD) : V13 m (outs m) c = U13 m c := by
  show StableHlo.after hostOps6 (V12 m (outs m) c) = _
  rw [V12_eq]
theorem V14_eq (c : Dev nD) : V14 m (outs m) c = U14 m c := by
  show Function.update (V13 m (outs m) c) main_v33 (outs m 14 main_v33 c) = _
  rw [outs_14, V13_eq]
theorem V15_eq (c : Dev nD) : V15 m (outs m) c = U15 m c := by
  show StableHlo.after hostOps7 (V14 m (outs m) c) = _
  rw [V14_eq]
theorem V16_eq (c : Dev nD) : V16 m (outs m) c = U16 m c := by
  show Function.update (V15 m (outs m) c) main_v37 (outs m 16 main_v37 c) = _
  rw [outs_16, V15_eq]
theorem V17_eq (c : Dev nD) : V17 m (outs m) c = U17 m c := by
  show StableHlo.after hostOps8 (V16 m (outs m) c) = _
  rw [V16_eq]
theorem V18_eq (c : Dev nD) : V18 m (outs m) c = U18 m c := by
  show Function.update (V17 m (outs m) c) main_v42 (outs m 18 main_v42 c) = _
  rw [outs_18, V17_eq]
theorem V19_eq (c : Dev nD) : V19 m (outs m) c = U19 m c := by
  show StableHlo.after hostOps9 (V18 m (outs m) c) = _
  rw [V18_eq]
theorem V20_eq (c : Dev nD) : V20 m (outs m) c = U20 m c := by
  show Function.update (V19 m (outs m) c) main_v44 (outs m 20 main_v44 c) = _
  rw [outs_20, V19_eq]
theorem V21_eq (c : Dev nD) : V21 m (outs m) c = U21 m c := by
  show StableHlo.after hostOps10 (V20 m (outs m) c) = _
  rw [V20_eq]
theorem V22_eq (c : Dev nD) : V22 m (outs m) c = U22 m c := by
  show Function.update (V21 m (outs m) c) main_v60 (outs m 22 main_v60 c) = _
  rw [outs_22, V21_eq]
theorem V23_eq (c : Dev nD) : V23 m (outs m) c = U23 m c := by
  show StableHlo.after hostOps11 (V22 m (outs m) c) = _
  rw [V22_eq]
theorem V24_eq (c : Dev nD) : V24 m (outs m) c = U24 m c := by
  show Function.update (V23 m (outs m) c) main_v65 (outs m 24 main_v65 c) = _
  rw [outs_24, V23_eq]
theorem V25_eq (c : Dev nD) : V25 m (outs m) c = U25 m c := by
  show StableHlo.after hostOps12 (V24 m (outs m) c) = _
  rw [V24_eq]
theorem V26_eq (c : Dev nD) : V26 m (outs m) c = U26 m c := by
  show Function.update (V25 m (outs m) c) main_v70 (outs m 26 main_v70 c) = _
  rw [outs_26, V25_eq]
theorem V27_eq (c : Dev nD) : V27 m (outs m) c = U27 m c := by
  show StableHlo.after hostOps13 (V26 m (outs m) c) = _
  rw [V26_eq]

/-! An item leaves every buffer it does not write as it found it. -/
theorem U1_of (c : Dev nD) (r : Ref sig .tc) (h : r ∉ hostOps0_W) : U1 m c r = V0 m c r := V1_of m c r h
theorem U2_of (c : Dev nD) (r : Ref sig .tc) (h : r ∉ ([main_v10] : List (Ref sig .tc))) : U2 m c r = U1 m c r := by
  have e := V2_of m (outs m) c r h
  rwa [V2_eq, V1_eq] at e
theorem U3_of (c : Dev nD) (r : Ref sig .tc) (h : r ∉ hostOps1_W) : U3 m c r = U2 m c r := by
  have e := V3_of m (outs m) c r h
  rwa [V3_eq, V2_eq] at e
theorem U4_of (c : Dev nD) (r : Ref sig .tc) (h : r ∉ ([main_v15] : List (Ref sig .tc))) : U4 m c r = U3 m c r := by
  have e := V4_of m (outs m) c r h
  rwa [V4_eq, V3_eq] at e
theorem U5_of (c : Dev nD) (r : Ref sig .tc) (h : r ∉ hostOps2_W) : U5 m c r = U4 m c r := by
  have e := V5_of m (outs m) c r h
  rwa [V5_eq, V4_eq] at e
theorem U6_of (c : Dev nD) (r : Ref sig .tc) (h : r ∉ ([main_v20] : List (Ref sig .tc))) : U6 m c r = U5 m c r := by
  have e := V6_of m (outs m) c r h
  rwa [V6_eq, V5_eq] at e
theorem U7_of (c : Dev nD) (r : Ref sig .tc) (h : r ∉ hostOps3_W) : U7 m c r = U6 m c r := by
  have e := V7_of m (outs m) c r h
  rwa [V7_eq, V6_eq] at e
theorem U8_of (c : Dev nD) (r : Ref sig .tc) (h : r ∉ ([main_v22] : List (Ref sig .tc))) : U8 m c r = U7 m c r := by
  have e := V8_of m (outs m) c r h
  rwa [V8_eq, V7_eq] at e
theorem U9_of (c : Dev nD) (r : Ref sig .tc) (h : r ∉ hostOps4_W) : U9 m c r = U8 m c r := by
  have e := V9_of m (outs m) c r h
  rwa [V9_eq, V8_eq] at e
theorem U10_of (c : Dev nD) (r : Ref sig .tc) (h : r ∉ ([main_v26] : List (Ref sig .tc))) : U10 m c r = U9 m c r := by
  have e := V10_of m (outs m) c r h
  rwa [V10_eq, V9_eq] at e
theorem U11_of (c : Dev nD) (r : Ref sig .tc) (h : r ∉ hostOps5_W) : U11 m c r = U10 m c r := by
  have e := V11_of m (outs m) c r h
  rwa [V11_eq, V10_eq] at e
theorem U12_of (c : Dev nD) (r : Ref sig .tc) (h : r ∉ ([main_v31] : List (Ref sig .tc))) : U12 m c r = U11 m c r := by
  have e := V12_of m (outs m) c r h
  rwa [V12_eq, V11_eq] at e
theorem U13_of (c : Dev nD) (r : Ref sig .tc) (h : r ∉ hostOps6_W) : U13 m c r = U12 m c r := by
  have e := V13_of m (outs m) c r h
  rwa [V13_eq, V12_eq] at e
theorem U14_of (c : Dev nD) (r : Ref sig .tc) (h : r ∉ ([main_v33] : List (Ref sig .tc))) : U14 m c r = U13 m c r := by
  have e := V14_of m (outs m) c r h
  rwa [V14_eq, V13_eq] at e
theorem U15_of (c : Dev nD) (r : Ref sig .tc) (h : r ∉ hostOps7_W) : U15 m c r = U14 m c r := by
  have e := V15_of m (outs m) c r h
  rwa [V15_eq, V14_eq] at e
theorem U16_of (c : Dev nD) (r : Ref sig .tc) (h : r ∉ ([main_v37] : List (Ref sig .tc))) : U16 m c r = U15 m c r := by
  have e := V16_of m (outs m) c r h
  rwa [V16_eq, V15_eq] at e
theorem U17_of (c : Dev nD) (r : Ref sig .tc) (h : r ∉ hostOps8_W) : U17 m c r = U16 m c r := by
  have e := V17_of m (outs m) c r h
  rwa [V17_eq, V16_eq] at e
theorem U18_of (c : Dev nD) (r : Ref sig .tc) (h : r ∉ ([main_v42] : List (Ref sig .tc))) : U18 m c r = U17 m c r := by
  have e := V18_of m (outs m) c r h
  rwa [V18_eq, V17_eq] at e
theorem U19_of (c : Dev nD) (r : Ref sig .tc) (h : r ∉ hostOps9_W) : U19 m c r = U18 m c r := by
  have e := V19_of m (outs m) c r h
  rwa [V19_eq, V18_eq] at e
theorem U20_of (c : Dev nD) (r : Ref sig .tc) (h : r ∉ ([main_v44] : List (Ref sig .tc))) : U20 m c r = U19 m c r := by
  have e := V20_of m (outs m) c r h
  rwa [V20_eq, V19_eq] at e
theorem U21_of (c : Dev nD) (r : Ref sig .tc) (h : r ∉ hostOps10_W) : U21 m c r = U20 m c r := by
  have e := V21_of m (outs m) c r h
  rwa [V21_eq, V20_eq] at e
theorem U22_of (c : Dev nD) (r : Ref sig .tc) (h : r ∉ ([main_v60] : List (Ref sig .tc))) : U22 m c r = U21 m c r := by
  have e := V22_of m (outs m) c r h
  rwa [V22_eq, V21_eq] at e
theorem U23_of (c : Dev nD) (r : Ref sig .tc) (h : r ∉ hostOps11_W) : U23 m c r = U22 m c r := by
  have e := V23_of m (outs m) c r h
  rwa [V23_eq, V22_eq] at e
theorem U24_of (c : Dev nD) (r : Ref sig .tc) (h : r ∉ ([main_v65] : List (Ref sig .tc))) : U24 m c r = U23 m c r := by
  have e := V24_of m (outs m) c r h
  rwa [V24_eq, V23_eq] at e
theorem U25_of (c : Dev nD) (r : Ref sig .tc) (h : r ∉ hostOps12_W) : U25 m c r = U24 m c r := by
  have e := V25_of m (outs m) c r h
  rwa [V25_eq, V24_eq] at e
theorem U26_of (c : Dev nD) (r : Ref sig .tc) (h : r ∉ ([main_v70] : List (Ref sig .tc))) : U26 m c r = U25 m c r := by
  have e := V26_of m (outs m) c r h
  rwa [V26_eq, V25_eq] at e
theorem U27_of (c : Dev nD) (r : Ref sig .tc) (h : r ∉ hostOps13_W) : U27 m c r = U26 m c r := by
  have e := V27_of m (outs m) c r h
  rwa [V27_eq, V26_eq] at e

end Cert.Kernel.Hand

end
-- ==== Proof.BRunCond.lean ====
/-
  The run of the idealized kernel program's @main with the final contents of EVERY unscoped buffer named.
  The program is thirteen kernel regions separated by stretches of host operations. Between two items core c holds each
  unscoped buffer whole at a valuation V1 … V27: the launch contents, then the host operations' results, then what each
  region leaves in its output array. Given one segment record per region, entered from the valuation before it and left
  at the one after it, the launch theorem for a list of segments gives: every weakly fair execution terminates without a
  fault, and the final memory agrees with the last valuation V27 on every unscoped buffer. The frame claim reads the
  argument arrays off that fact (no item writes an argument); the value claim reads the four results off it.
-/
import proofs.«117683_j11484742549629_2_alg».proof.Proof.RegionsK

set_option maxRecDepth 1356

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ) (outs : Outs (F := F))

set_option backward.isDefEq.respectTransparency.types false in
/-- The run of @main with every unscoped buffer NAMED at the end. Under the same hypotheses as the conditional frame
    (one segment record per region, entered from and left at the thread states `V1 … V26`), every weakly fair execution of
    @main from memory `m` with zero counters terminates, and in every final memory each unscoped buffer `b` of core `c`
    holds `V27 m outs c b`: the arguments (which no item writes) and the results alike. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 13) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 14 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE13 : ∀ c : Dev nD, E 13 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c)) :
    θ_run defs (onTc (τ := τ) (main (F := F))) ⟨m, fun _ => 0, ρ⟩ (fun r => ∀ c : Dev nD,
      ∀ b ∈ Pipeline.ucRefs τ sig, r.2.mem ((c : Thread nD τ).1, b) = V27 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12)
    (fun c Q => by
      rewrite [main_chain c, Seg.run_eq_chain,
        show (segs m outs 𝒱₀ L lv E ι pdats R0 R1 R2 R3 R4 R5 R6 R7 R8 R9 R10 R11 R12 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V27 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, sep_mono .rfl (hE13 c)⟩)
    (hinit := ?_) (QY := fun c s => ∀ b ∈ Pipeline.ucRefs τ sig, s.mem ((c : Thread nD τ).1, b) = V27 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V27 m outs c) s') $$ [Hh HSI]
    · isplitl [Hh] <;> iassumption
    icases Hr with ⟨%h, HSI⟩
    imodintro
    isplitr
    · ipureintro
      exact h
    · iexact HSI

end Cert.Kernel.Hand

end
-- ==== Proof.BRunMain.lean ====
/-
  The run of the kernel program's @main. The proof data of the thirteen regions form one family, each member at its region's
  entry contents; each region is a segment from the contents before it to the contents after it; the host stretches between
  them are segments by themselves. The launch theorem for a list of segments then gives: every weakly fair execution of
  @main terminates without a fault, and the final memory holds every unscoped buffer at U27 — the launch contents carried
  through all twenty-seven items. Reading the argument buffers off U27 (no item writes an argument) is the frame.
-/
import proofs.«117683_j11484742549629_2_alg».proof.Proof.BRunVals
import proofs.«117683_j11484742549629_2_alg».proof.Proof.BRunCond

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

/-- Every region's proof data, each at the contents its region is entered from: a literal case split, so that the family
    at a numeral reduces to that region's data. -/
def pdats : (p : Fin 13) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U5 m)) c
  | ⟨3, _⟩ => fun c => dat3 (atTc (U7 m)) c
  | ⟨4, _⟩ => fun c => dat4 (atTc (U9 m)) c
  | ⟨5, _⟩ => fun c => dat5 (atTc (U11 m)) c
  | ⟨6, _⟩ => fun c => dat6 (atTc (U13 m)) c
  | ⟨7, _⟩ => fun c => dat7 (atTc (U15 m)) c
  | ⟨8, _⟩ => fun c => dat8 (atTc (U17 m)) c
  | ⟨9, _⟩ => fun c => dat9 (atTc (U19 m)) c
  | ⟨10, _⟩ => fun c => dat10 (atTc (U21 m)) c
  | ⟨11, _⟩ => fun c => dat11 (atTc (U23 m)) c
  | ⟨12, _⟩ => fun c => dat12 (atTc (U25 m)) c

/-- Region 0 between U1 and U2. -/
def reg0 : RegionSeg (pcfgs (F := F)) adm (pdats m) () defs₀ Variants.none noLevels levelZero 0 :=
  linSeg0 (pdats m) (U1 m) (U2 m) (fun _ => rfl) (exitArr0 (U1 m)) (exitKeep0 (U1 m))
/-- Region 1 between U3 and U4. -/
def reg1 : RegionSeg (pcfgs (F := F)) adm (pdats m) () defs₀ Variants.none noLevels levelZero 1 :=
  linSeg1 (pdats m) (U3 m) (U4 m) (fun _ => rfl) (exitArr1 (U3 m)) (exitKeep1 (U3 m))
/-- Region 2 between U5 and U6. -/
def reg2 : RegionSeg (pcfgs (F := F)) adm (pdats m) () defs₀ Variants.none noLevels levelZero 2 :=
  linSeg2 (pdats m) (U5 m) (U6 m) (fun _ => rfl) (exitArr2 (U5 m)) (exitKeep2 (U5 m))
/-- Region 3 between U7 and U8. -/
def reg3 : RegionSeg (pcfgs (F := F)) adm (pdats m) () defs₀ Variants.none noLevels levelZero 3 :=
  attnSeg3 (pdats m) (U7 m) (U8 m) (fun _ => rfl) (attnExitArr3 (U7 m)) (attnExitKeep3 (U7 m))
/-- Region 4 between U9 and U10. -/
def reg4 : RegionSeg (pcfgs (F := F)) adm (pdats m) () defs₀ Variants.none noLevels levelZero 4 :=
  linSeg4 (pdats m) (U9 m) (U10 m) (fun _ => rfl) (exitArr4 (U9 m)) (exitKeep4 (U9 m))
/-- Region 5 between U11 and U12. -/
def reg5 : RegionSeg (pcfgs (F := F)) adm (pdats m) () defs₀ Variants.none noLevels levelZero 5 :=
  linSeg5 (pdats m) (U11 m) (U12 m) (fun _ => rfl) (exitArr5 (U11 m)) (exitKeep5 (U11 m))
/-- Region 6 between U13 and U14. -/
def reg6 : RegionSeg (pcfgs (F := F)) adm (pdats m) () defs₀ Variants.none noLevels levelZero 6 :=
  attnSeg6 (pdats m) (U13 m) (U14 m) (fun _ => rfl) (attnExitArr6 (U13 m)) (attnExitKeep6 (U13 m))
/-- Region 7 between U15 and U16. -/
def reg7 : RegionSeg (pcfgs (F := F)) adm (pdats m) () defs₀ Variants.none noLevels levelZero 7 :=
  linSeg7 (pdats m) (U15 m) (U16 m) (fun _ => rfl) (exitArr7 (U15 m)) (exitKeep7 (U15 m))
/-- Region 8 between U17 and U18. -/
def reg8 : RegionSeg (pcfgs (F := F)) adm (pdats m) () defs₀ Variants.none noLevels levelZero 8 :=
  linSeg8 (pdats m) (U17 m) (U18 m) (fun _ => rfl) (exitArr8 (U17 m)) (exitKeep8 (U17 m))
/-- Region 9 between U19 and U20. -/
def reg9 : RegionSeg (pcfgs (F := F)) adm (pdats m) () defs₀ Variants.none noLevels levelZero 9 :=
  attnSeg9 (pdats m) (U19 m) (U20 m) (fun _ => rfl) (attnExitArr9 (U19 m)) (attnExitKeep9 (U19 m))
/-- Region 10 between U21 and U22. -/
def reg10 : RegionSeg (pcfgs (F := F)) adm (pdats m) () defs₀ Variants.none noLevels levelZero 10 :=
  linSeg10 (pdats m) (U21 m) (U22 m) (fun _ => rfl) (exitArr10 (U21 m)) (exitKeep10 (U21 m))
/-- Region 11 between U23 and U24. -/
def reg11 : RegionSeg (pcfgs (F := F)) adm (pdats m) () defs₀ Variants.none noLevels levelZero 11 :=
  linSeg11 (pdats m) (U23 m) (U24 m) (fun _ => rfl) (exitArr11 (U23 m)) (exitKeep11 (U23 m))
/-- Region 12 between U25 and U26. -/
def reg12 : RegionSeg (pcfgs (F := F)) adm (pdats m) () defs₀ Variants.none noLevels levelZero 12 :=
  linSeg12 (pdats m) (U25 m) (U26 m) (fun _ => rfl) (exitArr12 (U25 m)) (exitKeep12 (U25 m))

set_option backward.isDefEq.respectTransparency.types false in
/-- THE RUN, at any float instance: from any memory with zero counters every weakly fair execution of @main terminates,
    nothing faulting, and the final memory agrees with U27 on every unscoped buffer of every core. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U27 m c b) := by
  have h := run_cond (F := F) m (Ix := Unit) (U := UR sig nD τ) (Lvl := ℕ) (EP := emb₁) (ι := ()) (𝒱₀ := Variants.none)
    (L := noLevels) (lv := levelZero) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => beside c)
    (hE0 := by
      have hcore : ∀ c : Dev nD, (iprop(unscopedSems0 c ∗ owes (c : Thread nD τ) ((0 : Dev nD → CellTallies nD τ sig Unit) c) ∅
          ∗ Pipeline.launchCred (0 : Dev nD → CellTallies nD τ sig Unit) c ∗ prngReg c (ρ c) ∗ emp) : sProp 𝕄) ⊢ beside c := fun c => by
        iintro ⟨-, Howes, -, Hreg, -⟩
        isplitl [Hreg]; · iexists _; iexact Hreg
        iexists ∅; iexact Howes
      have hall : (bigSep Finset.univ (fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ emp)) : sProp 𝕄)
          ⊢ bigSep Finset.univ (fun c : Dev nD => (beside c : sProp 𝕄)) := bigSep_mono fun c _ => hcore c
      iintro ⟨H, -⟩
      imodintro
      iapply hall
      iexact H)
    (hE13 := fun c => by iintro ⟨-, Howes⟩; iexact Howes)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)
    (R7 := reg7 m) (hpre7 := fun c => by rw [V15_eq]; exact .rfl) (hpost7 := fun c => by rw [V16_eq]; exact .rfl)
    (R8 := reg8 m) (hpre8 := fun c => by rw [V17_eq]; exact .rfl) (hpost8 := fun c => by rw [V18_eq]; exact .rfl)
    (R9 := reg9 m) (hpre9 := fun c => by rw [V19_eq]; exact .rfl) (hpost9 := fun c => by rw [V20_eq]; exact .rfl)
    (R10 := reg10 m) (hpre10 := fun c => by rw [V21_eq]; exact .rfl) (hpost10 := fun c => by rw [V22_eq]; exact .rfl)
    (R11 := reg11 m) (hpre11 := fun c => by rw [V23_eq]; exact .rfl) (hpost11 := fun c => by rw [V24_eq]; exact .rfl)
    (R12 := reg12 m) (hpre12 := fun c => by rw [V25_eq]; exact .rfl) (hpost12 := fun c => by rw [V26_eq]; exact .rfl)
  exact (θ_run defs _ _).mono (fun r h c b hb => (h c b hb).trans (congrFun (V27_eq m c) b)) h

/-- An unscoped buffer of the TensorCore is among the buffers the run accounts for. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem U27_arg0 (c : Dev nD) : U27 m c main_arg0 = m ((c : Thread nD τ).loc main_arg0) :=
  (congrFun (V27_eq m c) _).symm.trans (V27_main_arg0 m (outs m) c)
theorem U27_arg1 (c : Dev nD) : U27 m c main_arg1 = m ((c : Thread nD τ).loc main_arg1) :=
  (congrFun (V27_eq m c) _).symm.trans (V27_main_arg1 m (outs m) c)
theorem U27_arg2 (c : Dev nD) : U27 m c main_arg2 = m ((c : Thread nD τ).loc main_arg2) :=
  (congrFun (V27_eq m c) _).symm.trans (V27_main_arg2 m (outs m) c)
theorem U27_arg3 (c : Dev nD) : U27 m c main_arg3 = m ((c : Thread nD τ).loc main_arg3) :=
  (congrFun (V27_eq m c) _).symm.trans (V27_main_arg3 m (outs m) c)
theorem U27_arg4 (c : Dev nD) : U27 m c main_arg4 = m ((c : Thread nD τ).loc main_arg4) :=
  (congrFun (V27_eq m c) _).symm.trans (V27_main_arg4 m (outs m) c)
theorem U27_arg5 (c : Dev nD) : U27 m c main_arg5 = m ((c : Thread nD τ).loc main_arg5) :=
  (congrFun (V27_eq m c) _).symm.trans (V27_main_arg5 m (outs m) c)
theorem U27_arg6 (c : Dev nD) : U27 m c main_arg6 = m ((c : Thread nD τ).loc main_arg6) :=
  (congrFun (V27_eq m c) _).symm.trans (V27_main_arg6 m (outs m) c)
theorem U27_arg7 (c : Dev nD) : U27 m c main_arg7 = m ((c : Thread nD τ).loc main_arg7) :=
  (congrFun (V27_eq m c) _).symm.trans (V27_main_arg7 m (outs m) c)
theorem U27_arg8 (c : Dev nD) : U27 m c main_arg8 = m ((c : Thread nD τ).loc main_arg8) :=
  (congrFun (V27_eq m c) _).symm.trans (V27_main_arg8 m (outs m) c)
theorem U27_arg9 (c : Dev nD) : U27 m c main_arg9 = m ((c : Thread nD τ).loc main_arg9) :=
  (congrFun (V27_eq m c) _).symm.trans (V27_main_arg9 m (outs m) c)
theorem U27_arg10 (c : Dev nD) : U27 m c main_arg10 = m ((c : Thread nD τ).loc main_arg10) :=
  (congrFun (V27_eq m c) _).symm.trans (V27_main_arg10 m (outs m) c)
theorem U27_arg11 (c : Dev nD) : U27 m c main_arg11 = m ((c : Thread nD τ).loc main_arg11) :=
  (congrFun (V27_eq m c) _).symm.trans (V27_main_arg11 m (outs m) c)
theorem U27_arg12 (c : Dev nD) : U27 m c main_arg12 = m ((c : Thread nD τ).loc main_arg12) :=
  (congrFun (V27_eq m c) _).symm.trans (V27_main_arg12 m (outs m) c)
theorem U27_arg13 (c : Dev nD) : U27 m c main_arg13 = m ((c : Thread nD τ).loc main_arg13) :=
  (congrFun (V27_eq m c) _).symm.trans (V27_main_arg13 m (outs m) c)
theorem U27_arg14 (c : Dev nD) : U27 m c main_arg14 = m ((c : Thread nD τ).loc main_arg14) :=
  (congrFun (V27_eq m c) _).symm.trans (V27_main_arg14 m (outs m) c)
theorem U27_arg15 (c : Dev nD) : U27 m c main_arg15 = m ((c : Thread nD τ).loc main_arg15) :=
  (congrFun (V27_eq m c) _).symm.trans (V27_main_arg15 m (outs m) c)
theorem U27_arg16 (c : Dev nD) : U27 m c main_arg16 = m ((c : Thread nD τ).loc main_arg16) :=
  (congrFun (V27_eq m c) _).symm.trans (V27_main_arg16 m (outs m) c)
theorem U27_arg17 (c : Dev nD) : U27 m c main_arg17 = m ((c : Thread nD τ).loc main_arg17) :=
  (congrFun (V27_eq m c) _).symm.trans (V27_main_arg17 m (outs m) c)
theorem U27_arg18 (c : Dev nD) : U27 m c main_arg18 = m ((c : Thread nD τ).loc main_arg18) :=
  (congrFun (V27_eq m c) _).symm.trans (V27_main_arg18 m (outs m) c)
theorem U27_arg19 (c : Dev nD) : U27 m c main_arg19 = m ((c : Thread nD τ).loc main_arg19) :=
  (congrFun (V27_eq m c) _).symm.trans (V27_main_arg19 m (outs m) c)
theorem U27_arg20 (c : Dev nD) : U27 m c main_arg20 = m ((c : Thread nD τ).loc main_arg20) :=
  (congrFun (V27_eq m c) _).symm.trans (V27_main_arg20 m (outs m) c)
theorem U27_arg21 (c : Dev nD) : U27 m c main_arg21 = m ((c : Thread nD τ).loc main_arg21) :=
  (congrFun (V27_eq m c) _).symm.trans (V27_main_arg21 m (outs m) c)
theorem U27_arg22 (c : Dev nD) : U27 m c main_arg22 = m ((c : Thread nD τ).loc main_arg22) :=
  (congrFun (V27_eq m c) _).symm.trans (V27_main_arg22 m (outs m) c)

/-- THE FRAME, at any float instance: @main runs to the end, nothing faulting, and every argument array ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_unscoped main_arg0 (by decide))).trans (U27_arg0 m c),
     (h c _ (mem_unscoped main_arg1 (by decide))).trans (U27_arg1 m c),
     (h c _ (mem_unscoped main_arg2 (by decide))).trans (U27_arg2 m c),
     (h c _ (mem_unscoped main_arg3 (by decide))).trans (U27_arg3 m c),
     (h c _ (mem_unscoped main_arg4 (by decide))).trans (U27_arg4 m c),
     (h c _ (mem_unscoped main_arg5 (by decide))).trans (U27_arg5 m c),
     (h c _ (mem_unscoped main_arg6 (by decide))).trans (U27_arg6 m c),
     (h c _ (mem_unscoped main_arg7 (by decide))).trans (U27_arg7 m c),
     (h c _ (mem_unscoped main_arg8 (by decide))).trans (U27_arg8 m c),
     (h c _ (mem_unscoped main_arg9 (by decide))).trans (U27_arg9 m c),
     (h c _ (mem_unscoped main_arg10 (by decide))).trans (U27_arg10 m c),
     (h c _ (mem_unscoped main_arg11 (by decide))).trans (U27_arg11 m c),
     (h c _ (mem_unscoped main_arg12 (by decide))).trans (U27_arg12 m c),
     (h c _ (mem_unscoped main_arg13 (by decide))).trans (U27_arg13 m c),
     (h c _ (mem_unscoped main_arg14 (by decide))).trans (U27_arg14 m c),
     (h c _ (mem_unscoped main_arg15 (by decide))).trans (U27_arg15 m c),
     (h c _ (mem_unscoped main_arg16 (by decide))).trans (U27_arg16 m c),
     (h c _ (mem_unscoped main_arg17 (by decide))).trans (U27_arg17 m c),
     (h c _ (mem_unscoped main_arg18 (by decide))).trans (U27_arg18 m c),
     (h c _ (mem_unscoped main_arg19 (by decide))).trans (U27_arg19 m c),
     (h c _ (mem_unscoped main_arg20 (by decide))).trans (U27_arg20 m c),
     (h c _ (mem_unscoped main_arg21 (by decide))).trans (U27_arg21 m c),
     (h c _ (mem_unscoped main_arg22 (by decide))).trans (U27_arg22 m c)⟩) (run_all m ρ)

end Cert.Kernel.Hand

end
-- ==== Proof.RefRunLib.lean ====
/- A straight line of operations in which every operation writes one buffer of its own, and no buffer is
   written twice: the final contents of the buffer an operation writes are that operation's function of the
   FINAL contents of its operands, and a buffer nothing writes keeps its launch contents. Stated once over an
   abstract line; the reference program's line is an instance. -/
import proofs.«117683_j11484742549629_2_alg».proof.Proof.RunRI0
import Idealize.ShloMosaic.Lib.StableHlo.Run

noncomputable section

namespace Cert.ReferenceIdeal.HandRun

open Idealize.ShloMosaic Idealize.ShloMosaic.TcCoe Idealize.SL.Sem Idealize.ShloMosaic.StableHlo

variable {τ : Topo} {sig : RefSig} {Val : EltTy → Type}

/-- Operation by operation, the line writes exactly the listed buffers, one each. -/
def WritesEach : List (HloOp τ sig Val) → List (Ref sig .tc) → Prop
  | [], [] => True
  | op :: ops, d :: ds => op.writes = {Proc.devRef .tc d} ∧ WritesEach ops ds
  | [], _ :: _ => False
  | _ :: _, [] => False

/-- A buffer outside the written ones holds after the line what it held before. -/
theorem after_untouched : ∀ (ops : List (HloOp τ sig Val)) (ds : List (Ref sig .tc)) (V : Valuation τ sig Val) (r : Ref sig .tc),
    WritesEach ops ds → r ∉ ds → after ops V (Proc.devRef .tc r) = V (Proc.devRef .tc r)
  | [], [], V, r, _, _ => rfl
  | op :: ops, d :: ds, V, r, h, hr => by
      have hrd : r ≠ d := fun e => hr (e ▸ List.mem_cons_self)
      have hrds : r ∉ ds := fun e => hr (List.mem_cons_of_mem _ e)
      rw [after_cons, after_untouched ops ds _ r h.2 hrds]
      exact op.result_of_not_mem V (by rw [h.1, Finset.mem_singleton]; exact devRef_ne_of_ne hrd)
  | [], _ :: _, _, _, h, _ => h.elim
  | _ :: _, [], _, _, h, _ => h.elim

/-- The buffer operation `j` writes ends at that operation's result over the contents just before it:
    nothing later writes it again. -/
theorem read_at : ∀ (j : Nat) (ops : List (HloOp τ sig Val)) (ds : List (Ref sig .tc)) (V : Valuation τ sig Val)
    (op : HloOp τ sig Val) (y : Ref sig .tc),
    WritesEach ops ds → ds.Nodup → ops[j]? = some op → ds[j]? = some y →
    after ops V (Proc.devRef .tc y) = op.result (after (ops.take j) V) (Proc.devRef .tc y)
  | 0, o :: ops, d :: ds, V, op, y, hW, hND, hop, hy => by
      simp only [List.getElem?_cons_zero, Option.some.injEq] at hop hy
      subst hop; subst hy
      rw [after_cons, List.take_zero, after_nil]
      exact after_untouched ops ds _ d hW.2 (List.nodup_cons.mp hND).1
  | j + 1, o :: ops, d :: ds, V, op, y, hW, hND, hop, hy => by
      simp only [List.getElem?_cons_succ] at hop hy
      rw [after_cons, List.take_succ_cons, after_cons]
      exact read_at j ops ds _ op y hW.2 (List.nodup_cons.mp hND).2 hop hy
  | _, [], _, _, _, _, _, _, hop, _ => by simp at hop
  | _, _ :: _, [], _, _, _, hW, _, _, _ => hW.elim

/-- A buffer not written from operation `j` on already holds its final contents just before operation `j`. -/
theorem carry_to_end : ∀ (j : Nat) (ops : List (HloOp τ sig Val)) (ds : List (Ref sig .tc)) (V : Valuation τ sig Val) (r : Ref sig .tc),
    WritesEach ops ds → r ∉ ds.drop j → after (ops.take j) V (Proc.devRef .tc r) = after ops V (Proc.devRef .tc r)
  | 0, ops, ds, V, r, hW, hr => by
      rw [List.take_zero, after_nil]
      exact (after_untouched ops ds V r hW (by simpa using hr)).symm
  | j + 1, o :: ops, d :: ds, V, r, hW, hr => by
      rw [List.take_succ_cons, after_cons, after_cons]
      exact carry_to_end j ops ds _ r hW.2 (by simpa using hr)
  | _ + 1, [], _, _, _, _, _ => by simp
  | _ + 1, _ :: _, [], _, _, hW, _ => hW.elim

section Kinds

variable (ops : List (HloOp τ sig Val)) (ds : List (Ref sig .tc)) (V : Valuation τ sig Val)
  (hW : WritesEach ops ds) (hND : ds.Nodup) (j : Nat)
include hW hND

/-- a constant -/
theorem fin_nullary {y : Ref sig .tc} {v : y.ty.Contents Val} {hy}
    (hop : ops[j]? = some (nullary y v hy)) (hd : ds[j]? = some y) :
    after ops V (Proc.devRef .tc y) = v := by
  rw [read_at j ops ds V _ y hW hND hop hd, nullary_result']

/-- an operation of one operand -/
theorem fin_unary {x y : Ref sig .tc} {f : x.ty.Contents Val → y.ty.Contents Val} {hx hy}
    (hop : ops[j]? = some (unary x y f hx hy)) (hd : ds[j]? = some y) (hX : x ∉ ds.drop j) :
    after ops V (Proc.devRef .tc y) = f (after ops V (Proc.devRef .tc x)) := by
  rw [read_at j ops ds V _ y hW hND hop hd, unary_result', carry_to_end j ops ds V x hW hX]

/-- an operation of two operands -/
theorem fin_binary {a b y : Ref sig .tc} {f : a.ty.Contents Val → b.ty.Contents Val → y.ty.Contents Val} {ha hb hy}
    (hop : ops[j]? = some (binary a b y f ha hb hy)) (hd : ds[j]? = some y) (hA : a ∉ ds.drop j) (hB : b ∉ ds.drop j) :
    after ops V (Proc.devRef .tc y) = f (after ops V (Proc.devRef .tc a)) (after ops V (Proc.devRef .tc b)) := by
  rw [read_at j ops ds V _ y hW hND hop hd, binary_result', carry_to_end j ops ds V a hW hA, carry_to_end j ops ds V b hW hB]

/-- a change of shape -/
theorem fin_reshape {x y : Ref sig .tc} {he : x.ty.elt = y.ty.elt} {hn : x.ty.shape.ShapeCasts y.ty.shape} {hx hy}
    (hop : ops[j]? = some (reshape x y he hn hx hy)) (hd : ds[j]? = some y) (hX : x ∉ ds.drop j) :
    after ops V (Proc.devRef .tc y) = fun i => he ▸ shapeCast y.ty.shape (after ops V (Proc.devRef .tc x)) hn i := by
  rw [read_at j ops ds V _ y hW hND hop hd, reshape_result', carry_to_end j ops ds V x hW hX]

/-- an operation of a family of operands none of which the line writes -/
theorem fin_nary_launch {n : Nat} {xs : Fin n → Ref sig .tc} {y : Ref sig .tc}
    {f : ((k : Fin n) → (xs k).ty.Contents Val) → y.ty.Contents Val} {hxs hy}
    (hop : ops[j]? = some (nary xs y f hxs hy)) (hd : ds[j]? = some y) (hX : ∀ k, xs k ∉ ds) :
    after ops V (Proc.devRef .tc y) = f (fun k => V (Proc.devRef .tc (xs k))) := by
  rw [read_at j ops ds V _ y hW hND hop hd, nary_result']
  refine congrArg f (funext fun k => ?_)
  exact (carry_to_end j ops ds V (xs k) hW (fun h => hX k (List.mem_of_mem_drop h))).trans
    (after_untouched ops ds V (xs k) hW (hX k))

end Kinds

end Cert.ReferenceIdeal.HandRun
-- ==== Proof.RefRunBase.lean ====
/- The reference program's line of 107 operations is single-assignment: the buffers it writes, in order; that
   each operation writes exactly its own; that no buffer repeats; and that an argument buffer, which nothing
   writes, ends at its launch contents. -/
import proofs.«117683_j11484742549629_2_alg».proof.Proof.RefRunLib
import proofs.«117683_j11484742549629_2_alg».proof.Proof.ReadRI

set_option maxRecDepth 16384

noncomputable section

namespace Cert.ReferenceIdeal.HandRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- The buffer each of the 107 operations writes, in the order of the line. -/
def dests : List (Ref sig .tc) :=
  [main_cst, main_v0, main_cst_0, main_v1, main_v2, main_v3, main_v4, main_v5, main_v6, main_v7, main_v8, main_v9, main_v10, main_v11, main_v12, main_v13, main_v14, main_v15, main_v16, main_v17, main_cst_1, main_v18, main_cst_2, main_v19, main_v20, main_v21, main_v22, main_v23, main_v24, main_cst_3, main_v25, main_v26, main_v27, main_v28, main_v29, main_v30, main_v31, main_v32, main_v33, main_v34, main_v35, main_v36, main_v37, main_v38, main_v39, main_v40, main_cst_4, main_v41, main_cst_5, main_v42, main_v43, main_v44, main_v45, main_v46, main_v47, main_cst_6, main_v48, main_v49, main_v50, main_v51, main_v52, main_v53, main_v54, main_v55, main_v56, main_v57, main_v58, main_v59, main_v60, main_v61, main_v62, main_v63, main_cst_7, main_v64, main_cst_8, main_v65, main_v66, main_v67, main_v68, main_v69, main_v70, main_cst_9, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95]

theorem dests_nodup : dests.Nodup := by decide

theorem writesEach : WritesEach (ops (F := F)) dests :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer the line never writes (an argument) ends at its launch contents. -/
theorem launch_kept (V : Valuation τ sig (Elt F)) (r : Ref sig .tc) (hr : r ∉ dests) :
    after (ops (F := F)) V (Proc.devRef .tc r) = V (Proc.devRef .tc r) :=
  after_untouched _ _ V r writesEach hr

end Cert.ReferenceIdeal.HandRun
-- ==== Proof.RefRunA.lean ====
/- The stages of the reference line, first part: the softmax scale (1 over the square root of 1024), the
   query projection, and the first branch (keys, values, scaled scores, row maxima, exponentials, row sums,
   weights, context). Each final buffer is the stage function of the argument buffers' launch contents. -/
import proofs.«117683_j11484742549629_2_alg».proof.Proof.RefRunBase

set_option maxRecDepth 16384

noncomputable section

namespace Cert.ReferenceIdeal.HandRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

theorem stage_cst (V : Valuation τ sig (Elt F)) :
    after (ops (F := F)) V (Proc.devRef .tc main_cst) = Read.val_main_cst (F := F) :=
  (fin_nullary _ _ V writesEach dests_nodup 0 rfl rfl).trans rfl

theorem stage_v0 (V : Valuation τ sig (Elt F)) :
    after (ops (F := F)) V (Proc.devRef .tc main_v0) = Read.val_main_v0 (F := F) :=
  (fin_unary _ _ V writesEach dests_nodup 1 rfl rfl (by decide)).trans (by rw [stage_cst V]; rfl)

theorem stage_cst_0 (V : Valuation τ sig (Elt F)) :
    after (ops (F := F)) V (Proc.devRef .tc main_cst_0) = Read.val_main_cst_0 (F := F) :=
  (fin_nullary _ _ V writesEach dests_nodup 2 rfl rfl).trans rfl

theorem stage_v1 (V : Valuation τ sig (Elt F)) :
    after (ops (F := F)) V (Proc.devRef .tc main_v1) = Read.val_main_v1 (F := F) :=
  (fin_binary _ _ V writesEach dests_nodup 3 rfl rfl (by decide) (by decide)).trans (by rw [stage_cst_0 V, stage_v0 V]; rfl)

theorem stage_v2 (V : Valuation τ sig (Elt F)) :
    after (ops (F := F)) V (Proc.devRef .tc main_v2) = Read.val_main_v2 (F := F) (V (Proc.devRef .tc main_arg0)) (V (Proc.devRef .tc main_arg1)) (V (Proc.devRef .tc main_arg2)) :=
  (fin_nary_launch _ _ V writesEach dests_nodup 4 rfl rfl (by decide)).trans rfl

theorem stage_v3 (V : Valuation τ sig (Elt F)) :
    after (ops (F := F)) V (Proc.devRef .tc main_v3) = Read.val_main_v3 (F := F) (V (Proc.devRef .tc main_arg0)) (V (Proc.devRef .tc main_arg1)) (V (Proc.devRef .tc main_arg2)) (V (Proc.devRef .tc main_arg3)) :=
  (fin_binary _ _ V writesEach dests_nodup 5 rfl rfl (by decide) (by decide)).trans (by rw [stage_v2 V, launch_kept V main_arg3 (by decide)]; rfl)

theorem stage_v4 (V : Valuation τ sig (Elt F)) :
    after (ops (F := F)) V (Proc.devRef .tc main_v4) = Read.val_main_v4 (F := F) (V (Proc.devRef .tc main_arg4)) :=
  (fin_unary _ _ V writesEach dests_nodup 6 rfl rfl (by decide)).trans (by rw [launch_kept V main_arg4 (by decide)]; rfl)

theorem stage_v5 (V : Valuation τ sig (Elt F)) :
    after (ops (F := F)) V (Proc.devRef .tc main_v5) = Read.val_main_v5 (F := F) (V (Proc.devRef .tc main_arg4)) :=
  (fin_unary _ _ V writesEach dests_nodup 7 rfl rfl (by decide)).trans (by rw [stage_v4 V]; rfl)

theorem stage_v6 (V : Valuation τ sig (Elt F)) :
    after (ops (F := F)) V (Proc.devRef .tc main_v6) = Read.val_main_v6 (F := F) (V (Proc.devRef .tc main_arg0)) (V (Proc.devRef .tc main_arg1)) (V (Proc.devRef .tc main_arg2)) (V (Proc.devRef .tc main_arg3)) (V (Proc.devRef .tc main_arg4)) :=
  (fin_binary _ _ V writesEach dests_nodup 8 rfl rfl (by decide) (by decide)).trans (by rw [stage_v3 V, stage_v5 V]; rfl)

theorem stage_v7 (V : Valuation τ sig (Elt F)) :
    after (ops (F := F)) V (Proc.devRef .tc main_v7) = Read.val_main_v7 (F := F) (V (Proc.devRef .tc main_arg0)) (V (Proc.devRef .tc main_arg5)) :=
  (fin_binary _ _ V writesEach dests_nodup 9 rfl rfl (by decide) (by decide)).trans (by rw [launch_kept V main_arg0 (by decide), launch_kept V main_arg5 (by decide)]; rfl)

theorem stage_v8 (V : Valuation τ sig (Elt F)) :
    after (ops (F := F)) V (Proc.devRef .tc main_v8) = Read.val_main_v8 (F := F) (V (Proc.devRef .tc main_arg6)) :=
  (fin_unary _ _ V writesEach dests_nodup 10 rfl rfl (by decide)).trans (by rw [launch_kept V main_arg6 (by decide)]; rfl)

theorem stage_v9 (V : Valuation τ sig (Elt F)) :
    after (ops (F := F)) V (Proc.devRef .tc main_v9) = Read.val_main_v9 (F := F) (V (Proc.devRef .tc main_arg6)) :=
  (fin_unary _ _ V writesEach dests_nodup 11 rfl rfl (by decide)).trans (by rw [stage_v8 V]; rfl)

theorem stage_v10 (V : Valuation τ sig (Elt F)) :
    after (ops (F := F)) V (Proc.devRef .tc main_v10) = Read.val_main_v10 (F := F) (V (Proc.devRef .tc main_arg0)) (V (Proc.devRef .tc main_arg5)) (V (Proc.devRef .tc main_arg6)) :=
  (fin_binary _ _ V writesEach dests_nodup 12 rfl rfl (by decide) (by decide)).trans (by rw [stage_v7 V, stage_v9 V]; rfl)

theorem stage_v11 (V : Valuation τ sig (Elt F)) :
    after (ops (F := F)) V (Proc.devRef .tc main_v11) = Read.val_main_v11 (F := F) (V (Proc.devRef .tc main_arg0)) (V (Proc.devRef .tc main_arg7)) :=
  (fin_binary _ _ V writesEach dests_nodup 13 rfl rfl (by decide) (by decide)).trans (by rw [launch_kept V main_arg0 (by decide), launch_kept V main_arg7 (by decide)]; rfl)

theorem stage_v12 (V : Valuation τ sig (Elt F)) :
    after (ops (F := F)) V (Proc.devRef .tc main_v12) = Read.val_main_v12 (F := F) (V (Proc.devRef .tc main_arg8)) :=
  (fin_unary _ _ V writesEach dests_nodup 14 rfl rfl (by decide)).trans (by rw [launch_kept V main_arg8 (by decide)]; rfl)

theorem stage_v13 (V : Valuation τ sig (Elt F)) :
    after (ops (F := F)) V (Proc.devRef .tc main_v13) = Read.val_main_v13 (F := F) (V (Proc.devRef .tc main_arg8)) :=
  (fin_unary _ _ V writesEach dests_nodup 15 rfl rfl (by decide)).trans (by rw [stage_v12 V]; rfl)

theorem stage_v14 (V : Valuation τ sig (Elt F)) :
    after (ops (F := F)) V (Proc.devRef .tc main_v14) = Read.val_main_v14 (F := F) (V (Proc.devRef .tc main_arg0)) (V (Proc.devRef .tc main_arg7)) (V (Proc.devRef .tc main_arg8)) :=
  (fin_binary _ _ V writesEach dests_nodup 16 rfl rfl (by decide) (by decide)).trans (by rw [stage_v11 V, stage_v13 V]; rfl)

theorem stage_v15 (V : Valuation τ sig (Elt F)) :
    after (ops (F := F)) V (Proc.devRef .tc main_v15) = Read.val_main_v15 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_binary _ _ V writesEach dests_nodup 17 rfl rfl (by decide) (by decide)).trans (by rw [stage_v6 V, stage_v10 V]; rfl)

theorem stage_v16 (V : Valuation τ sig (Elt F)) :
    after (ops (F := F)) V (Proc.devRef .tc main_v16) = Read.val_main_v16 (F := F) :=
  (fin_unary _ _ V writesEach dests_nodup 18 rfl rfl (by decide)).trans (by rw [stage_v1 V]; rfl)

theorem stage_v17 (V : Valuation τ sig (Elt F)) :
    after (ops (F := F)) V (Proc.devRef .tc main_v17) = Read.val_main_v17 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_binary _ _ V writesEach dests_nodup 19 rfl rfl (by decide) (by decide)).trans (by rw [stage_v15 V, stage_v16 V]; rfl)

theorem stage_cst_1 (V : Valuation τ sig (Elt F)) :
    after (ops (F := F)) V (Proc.devRef .tc main_cst_1) = Read.val_main_cst_1 (F := F) :=
  (fin_nullary _ _ V writesEach dests_nodup 20 rfl rfl).trans rfl

theorem stage_v18 (V : Valuation τ sig (Elt F)) :
    after (ops (F := F)) V (Proc.devRef .tc main_v18) = Read.val_main_v18 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_binary _ _ V writesEach dests_nodup 21 rfl rfl (by decide) (by decide)).trans (by rw [stage_v17 V, stage_cst_1 V]; rfl)

theorem stage_cst_2 (V : Valuation τ sig (Elt F)) :
    after (ops (F := F)) V (Proc.devRef .tc main_cst_2) = Read.val_main_cst_2 (F := F) :=
  (fin_nullary _ _ V writesEach dests_nodup 22 rfl rfl).trans rfl

theorem stage_v19 (V : Valuation τ sig (Elt F)) :
    after (ops (F := F)) V (Proc.devRef .tc main_v19) = Read.val_main_v19 (F := F) :=
  (fin_unary _ _ V writesEach dests_nodup 23 rfl rfl (by decide)).trans (by rw [stage_cst_2 V]; rfl)

theorem stage_v20 (V : Valuation τ sig (Elt F)) :
    after (ops (F := F)) V (Proc.devRef .tc main_v20) = Read.val_main_v20 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_binary _ _ V writesEach dests_nodup 24 rfl rfl (by decide) (by decide)).trans (by rw [stage_v19 V, stage_v18 V]; rfl)

theorem stage_v21 (V : Valuation τ sig (Elt F)) :
    after (ops (F := F)) V (Proc.devRef .tc main_v21) = Read.val_main_v21 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_unary _ _ V writesEach dests_nodup 25 rfl rfl (by decide)).trans (by rw [stage_v20 V]; rfl)

theorem stage_v22 (V : Valuation τ sig (Elt F)) :
    after (ops (F := F)) V (Proc.devRef .tc main_v22) = Read.val_main_v22 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_unary _ _ V writesEach dests_nodup 26 rfl rfl (by decide)).trans (by rw [stage_v21 V]; rfl)

theorem stage_v23 (V : Valuation τ sig (Elt F)) :
    after (ops (F := F)) V (Proc.devRef .tc main_v23) = Read.val_main_v23 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_binary _ _ V writesEach dests_nodup 27 rfl rfl (by decide) (by decide)).trans (by rw [stage_v17 V, stage_v22 V]; rfl)

theorem stage_v24 (V : Valuation τ sig (Elt F)) :
    after (ops (F := F)) V (Proc.devRef .tc main_v24) = Read.val_main_v24 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_unary _ _ V writesEach dests_nodup 28 rfl rfl (by decide)).trans (by rw [stage_v23 V]; rfl)

theorem stage_cst_3 (V : Valuation τ sig (Elt F)) :
    after (ops (F := F)) V (Proc.devRef .tc main_cst_3) = Read.val_main_cst_3 (F := F) :=
  (fin_nullary _ _ V writesEach dests_nodup 29 rfl rfl).trans rfl

theorem stage_v25 (V : Valuation τ sig (Elt F)) :
    after (ops (F := F)) V (Proc.devRef .tc main_v25) = Read.val_main_v25 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_binary _ _ V writesEach dests_nodup 30 rfl rfl (by decide) (by decide)).trans (by rw [stage_v24 V, stage_cst_3 V]; rfl)

theorem stage_v26 (V : Valuation τ sig (Elt F)) :
    after (ops (F := F)) V (Proc.devRef .tc main_v26) = Read.val_main_v26 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_unary _ _ V writesEach dests_nodup 31 rfl rfl (by decide)).trans (by rw [stage_v25 V]; rfl)

theorem stage_v27 (V : Valuation τ sig (Elt F)) :
    after (ops (F := F)) V (Proc.devRef .tc main_v27) = Read.val_main_v27 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_unary _ _ V writesEach dests_nodup 32 rfl rfl (by decide)).trans (by rw [stage_v26 V]; rfl)

theorem stage_v28 (V : Valuation τ sig (Elt F)) :
    after (ops (F := F)) V (Proc.devRef .tc main_v28) = Read.val_main_v28 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (fin_binary _ _ V writesEach dests_nodup 33 rfl rfl (by decide) (by decide)).trans (by rw [stage_v24 V, stage_v27 V]; rfl)

theorem stage_v29 (V : Valuation τ sig (Elt F)) :
    after (ops (F := F)) V (Proc.devRef .tc main_v29) = Read.val_main_v29 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (fin_binary _ _ V writesEach dests_nodup 34 rfl rfl (by decide) (by decide)).trans (by rw [stage_v28 V, stage_v14 V]; rfl)

end Cert.ReferenceIdeal.HandRun
-- ==== Proof.RefRunB.lean ====
/- The stages of the reference line, second branch: keys, values, scaled scores against the shared queries,
   softmax, context. -/
import proofs.«117683_j11484742549629_2_alg».proof.Proof.RefRunA

set_option maxRecDepth 16384

noncomputable section

namespace Cert.ReferenceIdeal.HandRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

theorem stage_v30 (V : Valuation τ sig (Elt F)) :
    after (ops (F := F)) V (Proc.devRef .tc main_v30) = Read.val_main_v30 (F := F) (V (Proc.devRef .tc main_arg1)) (V (Proc.devRef .tc main_arg9)) :=
  (fin_binary _ _ V writesEach dests_nodup 35 rfl rfl (by decide) (by decide)).trans (by rw [launch_kept V main_arg1 (by decide), launch_kept V main_arg9 (by decide)]; rfl)

theorem stage_v31 (V : Valuation τ sig (Elt F)) :
    after (ops (F := F)) V (Proc.devRef .tc main_v31) = Read.val_main_v31 (F := F) (V (Proc.devRef .tc main_arg10)) :=
  (fin_unary _ _ V writesEach dests_nodup 36 rfl rfl (by decide)).trans (by rw [launch_kept V main_arg10 (by decide)]; rfl)

theorem stage_v32 (V : Valuation τ sig (Elt F)) :
    after (ops (F := F)) V (Proc.devRef .tc main_v32) = Read.val_main_v32 (F := F) (V (Proc.devRef .tc main_arg10)) :=
  (fin_unary _ _ V writesEach dests_nodup 37 rfl rfl (by decide)).trans (by rw [stage_v31 V]; rfl)

theorem stage_v33 (V : Valuation τ sig (Elt F)) :
    after (ops (F := F)) V (Proc.devRef .tc main_v33) = Read.val_main_v33 (F := F) (V (Proc.devRef .tc main_arg1)) (V (Proc.devRef .tc main_arg9)) (V (Proc.devRef .tc main_arg10)) :=
  (fin_binary _ _ V writesEach dests_nodup 38 rfl rfl (by decide) (by decide)).trans (by rw [stage_v30 V, stage_v32 V]; rfl)

theorem stage_v34 (V : Valuation τ sig (Elt F)) :
    after (ops (F := F)) V (Proc.devRef .tc main_v34) = Read.val_main_v34 (F := F) (V (Proc.devRef .tc main_arg1)) (V (Proc.devRef .tc main_arg11)) :=
  (fin_binary _ _ V writesEach dests_nodup 39 rfl rfl (by decide) (by decide)).trans (by rw [launch_kept V main_arg1 (by decide), launch_kept V main_arg11 (by decide)]; rfl)

theorem stage_v35 (V : Valuation τ sig (Elt F)) :
    after (ops (F := F)) V (Proc.devRef .tc main_v35) = Read.val_main_v35 (F := F) (V (Proc.devRef .tc main_arg12)) :=
  (fin_unary _ _ V writesEach dests_nodup 40 rfl rfl (by decide)).trans (by rw [launch_kept V main_arg12 (by decide)]; rfl)

theorem stage_v36 (V : Valuation τ sig (Elt F)) :
    after (ops (F := F)) V (Proc.devRef .tc main_v36) = Read.val_main_v36 (F := F) (V (Proc.devRef .tc main_arg12)) :=
  (fin_unary _ _ V writesEach dests_nodup 41 rfl rfl (by decide)).trans (by rw [stage_v35 V]; rfl)

theorem stage_v37 (V : Valuation τ sig (Elt F)) :
    after (ops (F := F)) V (Proc.devRef .tc main_v37) = Read.val_main_v37 (F := F) (V (Proc.devRef .tc main_arg1)) (V (Proc.devRef .tc main_arg11)) (V (Proc.devRef .tc main_arg12)) :=
  (fin_binary _ _ V writesEach dests_nodup 42 rfl rfl (by decide) (by decide)).trans (by rw [stage_v34 V, stage_v36 V]; rfl)

theorem stage_v38 (V : Valuation τ sig (Elt F)) :
    after (ops (F := F)) V (Proc.devRef .tc main_v38) = Read.val_main_v38 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_binary _ _ V writesEach dests_nodup 43 rfl rfl (by decide) (by decide)).trans (by rw [stage_v6 V, stage_v33 V]; rfl)

theorem stage_v39 (V : Valuation τ sig (Elt F)) :
    after (ops (F := F)) V (Proc.devRef .tc main_v39) = Read.val_main_v39 (F := F) :=
  (fin_unary _ _ V writesEach dests_nodup 44 rfl rfl (by decide)).trans (by rw [stage_v1 V]; rfl)

theorem stage_v40 (V : Valuation τ sig (Elt F)) :
    after (ops (F := F)) V (Proc.devRef .tc main_v40) = Read.val_main_v40 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_binary _ _ V writesEach dests_nodup 45 rfl rfl (by decide) (by decide)).trans (by rw [stage_v38 V, stage_v39 V]; rfl)

theorem stage_cst_4 (V : Valuation τ sig (Elt F)) :
    after (ops (F := F)) V (Proc.devRef .tc main_cst_4) = Read.val_main_cst_4 (F := F) :=
  (fin_nullary _ _ V writesEach dests_nodup 46 rfl rfl).trans rfl

theorem stage_v41 (V : Valuation τ sig (Elt F)) :
    after (ops (F := F)) V (Proc.devRef .tc main_v41) = Read.val_main_v41 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_binary _ _ V writesEach dests_nodup 47 rfl rfl (by decide) (by decide)).trans (by rw [stage_v40 V, stage_cst_4 V]; rfl)

theorem stage_cst_5 (V : Valuation τ sig (Elt F)) :
    after (ops (F := F)) V (Proc.devRef .tc main_cst_5) = Read.val_main_cst_5 (F := F) :=
  (fin_nullary _ _ V writesEach dests_nodup 48 rfl rfl).trans rfl

theorem stage_v42 (V : Valuation τ sig (Elt F)) :
    after (ops (F := F)) V (Proc.devRef .tc main_v42) = Read.val_main_v42 (F := F) :=
  (fin_unary _ _ V writesEach dests_nodup 49 rfl rfl (by decide)).trans (by rw [stage_cst_5 V]; rfl)

theorem stage_v43 (V : Valuation τ sig (Elt F)) :
    after (ops (F := F)) V (Proc.devRef .tc main_v43) = Read.val_main_v43 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_binary _ _ V writesEach dests_nodup 50 rfl rfl (by decide) (by decide)).trans (by rw [stage_v42 V, stage_v41 V]; rfl)

theorem stage_v44 (V : Valuation τ sig (Elt F)) :
    after (ops (F := F)) V (Proc.devRef .tc main_v44) = Read.val_main_v44 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_unary _ _ V writesEach dests_nodup 51 rfl rfl (by decide)).trans (by rw [stage_v43 V]; rfl)

theorem stage_v45 (V : Valuation τ sig (Elt F)) :
    after (ops (F := F)) V (Proc.devRef .tc main_v45) = Read.val_main_v45 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_unary _ _ V writesEach dests_nodup 52 rfl rfl (by decide)).trans (by rw [stage_v44 V]; rfl)

theorem stage_v46 (V : Valuation τ sig (Elt F)) :
    after (ops (F := F)) V (Proc.devRef .tc main_v46) = Read.val_main_v46 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_binary _ _ V writesEach dests_nodup 53 rfl rfl (by decide) (by decide)).trans (by rw [stage_v40 V, stage_v45 V]; rfl)

theorem stage_v47 (V : Valuation τ sig (Elt F)) :
    after (ops (F := F)) V (Proc.devRef .tc main_v47) = Read.val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_unary _ _ V writesEach dests_nodup 54 rfl rfl (by decide)).trans (by rw [stage_v46 V]; rfl)

theorem stage_cst_6 (V : Valuation τ sig (Elt F)) :
    after (ops (F := F)) V (Proc.devRef .tc main_cst_6) = Read.val_main_cst_6 (F := F) :=
  (fin_nullary _ _ V writesEach dests_nodup 55 rfl rfl).trans rfl

theorem stage_v48 (V : Valuation τ sig (Elt F)) :
    after (ops (F := F)) V (Proc.devRef .tc main_v48) = Read.val_main_v48 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_binary _ _ V writesEach dests_nodup 56 rfl rfl (by decide) (by decide)).trans (by rw [stage_v47 V, stage_cst_6 V]; rfl)

theorem stage_v49 (V : Valuation τ sig (Elt F)) :
    after (ops (F := F)) V (Proc.devRef .tc main_v49) = Read.val_main_v49 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_unary _ _ V writesEach dests_nodup 57 rfl rfl (by decide)).trans (by rw [stage_v48 V]; rfl)

theorem stage_v50 (V : Valuation τ sig (Elt F)) :
    after (ops (F := F)) V (Proc.devRef .tc main_v50) = Read.val_main_v50 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_unary _ _ V writesEach dests_nodup 58 rfl rfl (by decide)).trans (by rw [stage_v49 V]; rfl)

theorem stage_v51 (V : Valuation τ sig (Elt F)) :
    after (ops (F := F)) V (Proc.devRef .tc main_v51) = Read.val_main_v51 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) :=
  (fin_binary _ _ V writesEach dests_nodup 59 rfl rfl (by decide) (by decide)).trans (by rw [stage_v47 V, stage_v50 V]; rfl)

theorem stage_v52 (V : Valuation τ sig (Elt F)) :
    after (ops (F := F)) V (Proc.devRef .tc main_v52) = Read.val_main_v52 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) (V (Proc.devRef .tc main_arg11)) (V (Proc.devRef .tc main_arg12)) :=
  (fin_binary _ _ V writesEach dests_nodup 60 rfl rfl (by decide) (by decide)).trans (by rw [stage_v51 V, stage_v37 V]; rfl)

end Cert.ReferenceIdeal.HandRun
-- ==== Proof.RefRunC.lean ====
/- The stages of the reference line, third branch: keys, values, scaled scores against the shared queries,
   softmax, context. -/
import proofs.«117683_j11484742549629_2_alg».proof.Proof.RefRunA

set_option maxRecDepth 16384

noncomputable section

namespace Cert.ReferenceIdeal.HandRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

theorem stage_v53 (V : Valuation τ sig (Elt F)) :
    after (ops (F := F)) V (Proc.devRef .tc main_v53) = Read.val_main_v53 (F := F) (V (Proc.devRef .tc main_arg2)) (V (Proc.devRef .tc main_arg13)) :=
  (fin_binary _ _ V writesEach dests_nodup 61 rfl rfl (by decide) (by decide)).trans (by rw [launch_kept V main_arg2 (by decide), launch_kept V main_arg13 (by decide)]; rfl)

theorem stage_v54 (V : Valuation τ sig (Elt F)) :
    after (ops (F := F)) V (Proc.devRef .tc main_v54) = Read.val_main_v54 (F := F) (V (Proc.devRef .tc main_arg14)) :=
  (fin_unary _ _ V writesEach dests_nodup 62 rfl rfl (by decide)).trans (by rw [launch_kept V main_arg14 (by decide)]; rfl)

theorem stage_v55 (V : Valuation τ sig (Elt F)) :
    after (ops (F := F)) V (Proc.devRef .tc main_v55) = Read.val_main_v55 (F := F) (V (Proc.devRef .tc main_arg14)) :=
  (fin_unary _ _ V writesEach dests_nodup 63 rfl rfl (by decide)).trans (by rw [stage_v54 V]; rfl)

theorem stage_v56 (V : Valuation τ sig (Elt F)) :
    after (ops (F := F)) V (Proc.devRef .tc main_v56) = Read.val_main_v56 (F := F) (V (Proc.devRef .tc main_arg2)) (V (Proc.devRef .tc main_arg13)) (V (Proc.devRef .tc main_arg14)) :=
  (fin_binary _ _ V writesEach dests_nodup 64 rfl rfl (by decide) (by decide)).trans (by rw [stage_v53 V, stage_v55 V]; rfl)

theorem stage_v57 (V : Valuation τ sig (Elt F)) :
    after (ops (F := F)) V (Proc.devRef .tc main_v57) = Read.val_main_v57 (F := F) (V (Proc.devRef .tc main_arg2)) (V (Proc.devRef .tc main_arg15)) :=
  (fin_binary _ _ V writesEach dests_nodup 65 rfl rfl (by decide) (by decide)).trans (by rw [launch_kept V main_arg2 (by decide), launch_kept V main_arg15 (by decide)]; rfl)

theorem stage_v58 (V : Valuation τ sig (Elt F)) :
    after (ops (F := F)) V (Proc.devRef .tc main_v58) = Read.val_main_v58 (F := F) (V (Proc.devRef .tc main_arg16)) :=
  (fin_unary _ _ V writesEach dests_nodup 66 rfl rfl (by decide)).trans (by rw [launch_kept V main_arg16 (by decide)]; rfl)

theorem stage_v59 (V : Valuation τ sig (Elt F)) :
    after (ops (F := F)) V (Proc.devRef .tc main_v59) = Read.val_main_v59 (F := F) (V (Proc.devRef .tc main_arg16)) :=
  (fin_unary _ _ V writesEach dests_nodup 67 rfl rfl (by decide)).trans (by rw [stage_v58 V]; rfl)

theorem stage_v60 (V : Valuation τ sig (Elt F)) :
    after (ops (F := F)) V (Proc.devRef .tc main_v60) = Read.val_main_v60 (F := F) (V (Proc.devRef .tc main_arg2)) (V (Proc.devRef .tc main_arg15)) (V (Proc.devRef .tc main_arg16)) :=
  (fin_binary _ _ V writesEach dests_nodup 68 rfl rfl (by decide) (by decide)).trans (by rw [stage_v57 V, stage_v59 V]; rfl)

theorem stage_v61 (V : Valuation τ sig (Elt F)) :
    after (ops (F := F)) V (Proc.devRef .tc main_v61) = Read.val_main_v61 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_binary _ _ V writesEach dests_nodup 69 rfl rfl (by decide) (by decide)).trans (by rw [stage_v6 V, stage_v56 V]; rfl)

theorem stage_v62 (V : Valuation τ sig (Elt F)) :
    after (ops (F := F)) V (Proc.devRef .tc main_v62) = Read.val_main_v62 (F := F) :=
  (fin_unary _ _ V writesEach dests_nodup 70 rfl rfl (by decide)).trans (by rw [stage_v1 V]; rfl)

theorem stage_v63 (V : Valuation τ sig (Elt F)) :
    after (ops (F := F)) V (Proc.devRef .tc main_v63) = Read.val_main_v63 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_binary _ _ V writesEach dests_nodup 71 rfl rfl (by decide) (by decide)).trans (by rw [stage_v61 V, stage_v62 V]; rfl)

theorem stage_cst_7 (V : Valuation τ sig (Elt F)) :
    after (ops (F := F)) V (Proc.devRef .tc main_cst_7) = Read.val_main_cst_7 (F := F) :=
  (fin_nullary _ _ V writesEach dests_nodup 72 rfl rfl).trans rfl

theorem stage_v64 (V : Valuation τ sig (Elt F)) :
    after (ops (F := F)) V (Proc.devRef .tc main_v64) = Read.val_main_v64 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_binary _ _ V writesEach dests_nodup 73 rfl rfl (by decide) (by decide)).trans (by rw [stage_v63 V, stage_cst_7 V]; rfl)

theorem stage_cst_8 (V : Valuation τ sig (Elt F)) :
    after (ops (F := F)) V (Proc.devRef .tc main_cst_8) = Read.val_main_cst_8 (F := F) :=
  (fin_nullary _ _ V writesEach dests_nodup 74 rfl rfl).trans rfl

theorem stage_v65 (V : Valuation τ sig (Elt F)) :
    after (ops (F := F)) V (Proc.devRef .tc main_v65) = Read.val_main_v65 (F := F) :=
  (fin_unary _ _ V writesEach dests_nodup 75 rfl rfl (by decide)).trans (by rw [stage_cst_8 V]; rfl)

theorem stage_v66 (V : Valuation τ sig (Elt F)) :
    after (ops (F := F)) V (Proc.devRef .tc main_v66) = Read.val_main_v66 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_binary _ _ V writesEach dests_nodup 76 rfl rfl (by decide) (by decide)).trans (by rw [stage_v65 V, stage_v64 V]; rfl)

theorem stage_v67 (V : Valuation τ sig (Elt F)) :
    after (ops (F := F)) V (Proc.devRef .tc main_v67) = Read.val_main_v67 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_unary _ _ V writesEach dests_nodup 77 rfl rfl (by decide)).trans (by rw [stage_v66 V]; rfl)

theorem stage_v68 (V : Valuation τ sig (Elt F)) :
    after (ops (F := F)) V (Proc.devRef .tc main_v68) = Read.val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_unary _ _ V writesEach dests_nodup 78 rfl rfl (by decide)).trans (by rw [stage_v67 V]; rfl)

theorem stage_v69 (V : Valuation τ sig (Elt F)) :
    after (ops (F := F)) V (Proc.devRef .tc main_v69) = Read.val_main_v69 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_binary _ _ V writesEach dests_nodup 79 rfl rfl (by decide) (by decide)).trans (by rw [stage_v63 V, stage_v68 V]; rfl)

theorem stage_v70 (V : Valuation τ sig (Elt F)) :
    after (ops (F := F)) V (Proc.devRef .tc main_v70) = Read.val_main_v70 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_unary _ _ V writesEach dests_nodup 80 rfl rfl (by decide)).trans (by rw [stage_v69 V]; rfl)

theorem stage_cst_9 (V : Valuation τ sig (Elt F)) :
    after (ops (F := F)) V (Proc.devRef .tc main_cst_9) = Read.val_main_cst_9 (F := F) :=
  (fin_nullary _ _ V writesEach dests_nodup 81 rfl rfl).trans rfl

theorem stage_v71 (V : Valuation τ sig (Elt F)) :
    after (ops (F := F)) V (Proc.devRef .tc main_v71) = Read.val_main_v71 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_binary _ _ V writesEach dests_nodup 82 rfl rfl (by decide) (by decide)).trans (by rw [stage_v70 V, stage_cst_9 V]; rfl)

theorem stage_v72 (V : Valuation τ sig (Elt F)) :
    after (ops (F := F)) V (Proc.devRef .tc main_v72) = Read.val_main_v72 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_unary _ _ V writesEach dests_nodup 83 rfl rfl (by decide)).trans (by rw [stage_v71 V]; rfl)

theorem stage_v73 (V : Valuation τ sig (Elt F)) :
    after (ops (F := F)) V (Proc.devRef .tc main_v73) = Read.val_main_v73 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_unary _ _ V writesEach dests_nodup 84 rfl rfl (by decide)).trans (by rw [stage_v72 V]; rfl)

theorem stage_v74 (V : Valuation τ sig (Elt F)) :
    after (ops (F := F)) V (Proc.devRef .tc main_v74) = Read.val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) :=
  (fin_binary _ _ V writesEach dests_nodup 85 rfl rfl (by decide) (by decide)).trans (by rw [stage_v70 V, stage_v73 V]; rfl)

theorem stage_v75 (V : Valuation τ sig (Elt F)) :
    after (ops (F := F)) V (Proc.devRef .tc main_v75) = Read.val_main_v75 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) (V (Proc.devRef .tc main_arg15)) (V (Proc.devRef .tc main_arg16)) :=
  (fin_binary _ _ V writesEach dests_nodup 86 rfl rfl (by decide) (by decide)).trans (by rw [stage_v74 V, stage_v60 V]; rfl)

end Cert.ReferenceIdeal.HandRun
-- ==== Proof.RefRun.lean ====
/- The stages of the reference line, last part (the three output projections and the stacking of the results),
   and the run of the reference program: it terminates with its four results at their stages of the launch
   contents of the arguments, and the arguments unchanged. -/
import proofs.«117683_j11484742549629_2_alg».proof.Proof.RefRunA
import proofs.«117683_j11484742549629_2_alg».proof.Proof.RefRunB
import proofs.«117683_j11484742549629_2_alg».proof.Proof.RefRunC

set_option maxRecDepth 16384

noncomputable section

namespace Cert.ReferenceIdeal.HandRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

theorem stage_v76 (V : Valuation τ sig (Elt F)) :
    after (ops (F := F)) V (Proc.devRef .tc main_v76) = Read.val_main_v76 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (fin_binary _ _ V writesEach dests_nodup 87 rfl rfl (by decide) (by decide)).trans (by rw [launch_kept V main_arg0 (by decide), stage_v29 V]; rfl)

theorem stage_v77 (V : Valuation τ sig (Elt F)) :
    after (ops (F := F)) V (Proc.devRef .tc main_v77) = Read.val_main_v77 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg17)) :=
  (fin_binary _ _ V writesEach dests_nodup 88 rfl rfl (by decide) (by decide)).trans (by rw [stage_v76 V, launch_kept V main_arg17 (by decide)]; rfl)

theorem stage_v78 (V : Valuation τ sig (Elt F)) :
    after (ops (F := F)) V (Proc.devRef .tc main_v78) = Read.val_main_v78 (F := F) (V (Proc.devRef .tc main_arg18)) :=
  (fin_unary _ _ V writesEach dests_nodup 89 rfl rfl (by decide)).trans (by rw [launch_kept V main_arg18 (by decide)]; rfl)

theorem stage_v79 (V : Valuation τ sig (Elt F)) :
    after (ops (F := F)) V (Proc.devRef .tc main_v79) = Read.val_main_v79 (F := F) (V (Proc.devRef .tc main_arg18)) :=
  (fin_unary _ _ V writesEach dests_nodup 90 rfl rfl (by decide)).trans (by rw [stage_v78 V]; rfl)

theorem stage_v80 (V : Valuation τ sig (Elt F)) :
    after (ops (F := F)) V (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg17)) (V (Proc.devRef .tc main_arg18)) :=
  (fin_binary _ _ V writesEach dests_nodup 91 rfl rfl (by decide) (by decide)).trans (by rw [stage_v77 V, stage_v79 V]; rfl)

theorem stage_v81 (V : Valuation τ sig (Elt F)) :
    after (ops (F := F)) V (Proc.devRef .tc main_v81) = Read.val_main_v81 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) (V (Proc.devRef .tc main_arg11)) (V (Proc.devRef .tc main_arg12)) :=
  (fin_binary _ _ V writesEach dests_nodup 92 rfl rfl (by decide) (by decide)).trans (by rw [launch_kept V main_arg1 (by decide), stage_v52 V]; rfl)

theorem stage_v82 (V : Valuation τ sig (Elt F)) :
    after (ops (F := F)) V (Proc.devRef .tc main_v82) = Read.val_main_v82 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) (V (Proc.devRef .tc main_arg11)) (V (Proc.devRef .tc main_arg12)) (V (Proc.devRef .tc main_arg19)) :=
  (fin_binary _ _ V writesEach dests_nodup 93 rfl rfl (by decide) (by decide)).trans (by rw [stage_v81 V, launch_kept V main_arg19 (by decide)]; rfl)

theorem stage_v83 (V : Valuation τ sig (Elt F)) :
    after (ops (F := F)) V (Proc.devRef .tc main_v83) = Read.val_main_v83 (F := F) (V (Proc.devRef .tc main_arg20)) :=
  (fin_unary _ _ V writesEach dests_nodup 94 rfl rfl (by decide)).trans (by rw [launch_kept V main_arg20 (by decide)]; rfl)

theorem stage_v84 (V : Valuation τ sig (Elt F)) :
    after (ops (F := F)) V (Proc.devRef .tc main_v84) = Read.val_main_v84 (F := F) (V (Proc.devRef .tc main_arg20)) :=
  (fin_unary _ _ V writesEach dests_nodup 95 rfl rfl (by decide)).trans (by rw [stage_v83 V]; rfl)

theorem stage_v85 (V : Valuation τ sig (Elt F)) :
    after (ops (F := F)) V (Proc.devRef .tc main_v85) = Read.val_main_v85 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) (V (Proc.devRef .tc main_arg11)) (V (Proc.devRef .tc main_arg12)) (V (Proc.devRef .tc main_arg19)) (V (Proc.devRef .tc main_arg20)) :=
  (fin_binary _ _ V writesEach dests_nodup 96 rfl rfl (by decide) (by decide)).trans (by rw [stage_v82 V, stage_v84 V]; rfl)

theorem stage_v86 (V : Valuation τ sig (Elt F)) :
    after (ops (F := F)) V (Proc.devRef .tc main_v86) = Read.val_main_v86 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) (V (Proc.devRef .tc main_arg15)) (V (Proc.devRef .tc main_arg16)) :=
  (fin_binary _ _ V writesEach dests_nodup 97 rfl rfl (by decide) (by decide)).trans (by rw [launch_kept V main_arg2 (by decide), stage_v75 V]; rfl)

theorem stage_v87 (V : Valuation τ sig (Elt F)) :
    after (ops (F := F)) V (Proc.devRef .tc main_v87) = Read.val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) (V (Proc.devRef .tc main_arg15)) (V (Proc.devRef .tc main_arg16)) (V (Proc.devRef .tc main_arg21)) :=
  (fin_binary _ _ V writesEach dests_nodup 98 rfl rfl (by decide) (by decide)).trans (by rw [stage_v86 V, launch_kept V main_arg21 (by decide)]; rfl)

theorem stage_v88 (V : Valuation τ sig (Elt F)) :
    after (ops (F := F)) V (Proc.devRef .tc main_v88) = Read.val_main_v88 (F := F) (V (Proc.devRef .tc main_arg22)) :=
  (fin_unary _ _ V writesEach dests_nodup 99 rfl rfl (by decide)).trans (by rw [launch_kept V main_arg22 (by decide)]; rfl)

theorem stage_v89 (V : Valuation τ sig (Elt F)) :
    after (ops (F := F)) V (Proc.devRef .tc main_v89) = Read.val_main_v89 (F := F) (V (Proc.devRef .tc main_arg22)) :=
  (fin_unary _ _ V writesEach dests_nodup 100 rfl rfl (by decide)).trans (by rw [stage_v88 V]; rfl)

theorem stage_v90 (V : Valuation τ sig (Elt F)) :
    after (ops (F := F)) V (Proc.devRef .tc main_v90) = Read.val_main_v90 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) (V (Proc.devRef .tc main_arg15)) (V (Proc.devRef .tc main_arg16)) (V (Proc.devRef .tc main_arg21)) (V (Proc.devRef .tc main_arg22)) :=
  (fin_binary _ _ V writesEach dests_nodup 101 rfl rfl (by decide) (by decide)).trans (by rw [stage_v87 V, stage_v89 V]; rfl)

theorem stage_v91 (V : Valuation τ sig (Elt F)) :
    after (ops (F := F)) V (Proc.devRef .tc main_v91) = Read.val_main_v91 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg17)) (V (Proc.devRef .tc main_arg18)) :=
  (fin_unary _ _ V writesEach dests_nodup 102 rfl rfl (by decide)).trans (by rw [stage_v80 V]; rfl)

theorem stage_v92 (V : Valuation τ sig (Elt F)) :
    after (ops (F := F)) V (Proc.devRef .tc main_v92) = Read.val_main_v92 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) (V (Proc.devRef .tc main_arg11)) (V (Proc.devRef .tc main_arg12)) (V (Proc.devRef .tc main_arg19)) (V (Proc.devRef .tc main_arg20)) :=
  (fin_unary _ _ V writesEach dests_nodup 103 rfl rfl (by decide)).trans (by rw [stage_v85 V]; rfl)

theorem stage_v93 (V : Valuation τ sig (Elt F)) :
    after (ops (F := F)) V (Proc.devRef .tc main_v93) = Read.val_main_v93 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg17)) (V (Proc.devRef .tc main_arg18)) (V (Proc.devRef .tc main_arg19)) (V (Proc.devRef .tc main_arg20)) :=
  (fin_binary _ _ V writesEach dests_nodup 104 rfl rfl (by decide) (by decide)).trans (by rw [stage_v91 V, stage_v92 V]; rfl)

theorem stage_v94 (V : Valuation τ sig (Elt F)) :
    after (ops (F := F)) V (Proc.devRef .tc main_v94) = Read.val_main_v94 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg17)) (V (Proc.devRef .tc main_arg18)) (V (Proc.devRef .tc main_arg19)) (V (Proc.devRef .tc main_arg20)) :=
  (fin_reshape _ _ V writesEach dests_nodup 105 rfl rfl (by decide)).trans (by rw [stage_v93 V]; rfl)

theorem stage_v95 (V : Valuation τ sig (Elt F)) :
    after (ops (F := F)) V (Proc.devRef .tc main_v95) = Read.val_main_v95 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  (fin_binary _ _ V writesEach dests_nodup 106 rfl rfl (by decide) (by decide)).trans (by rw [stage_v94 V, stage_v90 V]; rfl)

/-! ## The run -/

set_option maxHeartbeats 4000000 in
/-- On every device, from any memory with zero counters: every weakly fair execution of the reference program
    terminates; each of its four results holds the corresponding stage of the argument arrays' launch contents, and
    every argument array holds what it held at launch. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = Read.val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg17)) (m ((c.tc : Thread nD τ).loc main_arg18))
      ∧ r.2.mem ((c.tc : Thread nD τ).loc main_v85) = Read.val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg19)) (m ((c.tc : Thread nD τ).loc main_arg20))
      ∧ r.2.mem ((c.tc : Thread nD τ).loc main_v90) = Read.val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22))
      ∧ r.2.mem ((c.tc : Thread nD τ).loc main_v95) = Read.val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v80).trans (stage_v80 (launchContents m c)),
      (h c main_v85).trans (stage_v85 (launchContents m c)),
      (h c main_v90).trans (stage_v90 (launchContents m c)),
      (h c main_v95).trans (stage_v95 (launchContents m c)),
      (h c main_arg0).trans (launch_kept (launchContents m c) main_arg0 (by decide)),
      (h c main_arg1).trans (launch_kept (launchContents m c) main_arg1 (by decide)),
      (h c main_arg2).trans (launch_kept (launchContents m c) main_arg2 (by decide)),
      (h c main_arg3).trans (launch_kept (launchContents m c) main_arg3 (by decide)),
      (h c main_arg4).trans (launch_kept (launchContents m c) main_arg4 (by decide)),
      (h c main_arg5).trans (launch_kept (launchContents m c) main_arg5 (by decide)),
      (h c main_arg6).trans (launch_kept (launchContents m c) main_arg6 (by decide)),
      (h c main_arg7).trans (launch_kept (launchContents m c) main_arg7 (by decide)),
      (h c main_arg8).trans (launch_kept (launchContents m c) main_arg8 (by decide)),
      (h c main_arg9).trans (launch_kept (launchContents m c) main_arg9 (by decide)),
      (h c main_arg10).trans (launch_kept (launchContents m c) main_arg10 (by decide)),
      (h c main_arg11).trans (launch_kept (launchContents m c) main_arg11 (by decide)),
      (h c main_arg12).trans (launch_kept (launchContents m c) main_arg12 (by decide)),
      (h c main_arg13).trans (launch_kept (launchContents m c) main_arg13 (by decide)),
      (h c main_arg14).trans (launch_kept (launchContents m c) main_arg14 (by decide)),
      (h c main_arg15).trans (launch_kept (launchContents m c) main_arg15 (by decide)),
      (h c main_arg16).trans (launch_kept (launchContents m c) main_arg16 (by decide)),
      (h c main_arg17).trans (launch_kept (launchContents m c) main_arg17 (by decide)),
      (h c main_arg18).trans (launch_kept (launchContents m c) main_arg18 (by decide)),
      (h c main_arg19).trans (launch_kept (launchContents m c) main_arg19 (by decide)),
      (h c main_arg20).trans (launch_kept (launchContents m c) main_arg20 (by decide)),
      (h c main_arg21).trans (launch_kept (launchContents m c) main_arg21 (by decide)),
      (h c main_arg22).trans (launch_kept (launchContents m c) main_arg22 (by decide))⟩)
    (run_seq scopedRefs_eq scopedSems_eq defs main (fun _ => ops) main_eq (fun _ => ops_sub) m ρ)

end Cert.ReferenceIdeal.HandRun
-- ==== Proof.ValSpec.lean ====
/-
  The three linear maps of the projection stages, entry by entry, and what "every entry is a real number" means.

  All arrays here are functions from a rank-2 index to the extended reals. With R rows (512 for one block of
  rows, 8192 for a whole array), 1024 input features and 1024 output features:
    * `lin1 x w b`  is  x · w + b                      (one product and a bias row, broadcast down the rows);
    * `lin2 x c wx wc b`  is  (x · wx + c · wc) + b     (two products);
    * `lin3 x1 x2 x3 w1 w2 w3 b`  is  ((x1 · w1 + x2 · w2) + x3 · w3) + b   (three products),
  each sum associated exactly in this order. Entry (p, q) of a product x · w is the sum over k of x[p, k] * w[k, q].
  A row of the result depends on the same row of the left operands only, which is why a block of rows of the
  result is the same map applied to the corresponding blocks of rows.
-/
import Idealize.ShloMosaic.Lib.ValueIdx

noncomputable section

namespace Cert.KernelIdeal.HandVal

open Idealize.ShloMosaic Idealize.ShloMosaic.ValueIdx

/-- An [R, C] array of extended reals. -/
abbrev Mat (R C : Nat) : Type := (⟨2, ![R, C]⟩ : Shape).Idx → EReal

/-- Every entry of the array is a real number (neither +∞ nor −∞). -/
abbrev AllReal {ι : Type} (a : ι → EReal) : Prop := ∀ i, ∃ r : ℝ, a i = (r : EReal)

theorem AllReal_def {ι : Type} (a : ι → EReal) : AllReal a ↔ ∀ i, ∃ r : ℝ, a i = (r : EReal) := Iff.rfl

/-- An extended real is a real number exactly when it is neither infinity. -/
theorem exists_real_iff (x : EReal) : (∃ r : ℝ, x = (r : EReal)) ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem allReal_iff {ι : Type} (a : ι → EReal) : AllReal a ↔ ∀ i, a i ≠ ⊤ ∧ a i ≠ ⊥ :=
  forall_congr' fun i => exists_real_iff (a i)

/-- Entry (p, q) of the product x · w: the sum over the 1024 features k of x[p, k] * w[k, q]. -/
def rowDot {R : Nat} (x : Mat R 1024) (w : Mat 1024 1024) (p : Fin R) (q : Fin 1024) : EReal :=
  ∑ k : Fin 1024, x (ix2 p k) * w (ix2 k q)

/-- x · w + b, the bias row b broadcast down the rows. -/
def lin1 {R : Nat} (x : Mat R 1024) (w : Mat 1024 1024) (b : Mat 1 1024) : Mat R 1024 :=
  fun i => rowDot x w (i 0) (i 1) + b (ix2 0 (i 1))

/-- (x · wx + c · wc) + b. -/
def lin2 {R : Nat} (x c : Mat R 1024) (wx wc : Mat 1024 1024) (b : Mat 1 1024) : Mat R 1024 :=
  fun i => (rowDot x wx (i 0) (i 1) + rowDot c wc (i 0) (i 1)) + b (ix2 0 (i 1))

/-- ((x1 · w1 + x2 · w2) + x3 · w3) + b. -/
def lin3 {R : Nat} (x1 x2 x3 : Mat R 1024) (w1 w2 w3 : Mat 1024 1024) (b : Mat 1 1024) : Mat R 1024 :=
  fun i => ((rowDot x1 w1 (i 0) (i 1) + rowDot x2 w2 (i 0) (i 1)) + rowDot x3 w3 (i 0) (i 1)) + b (ix2 0 (i 1))

theorem lin1_apply {R : Nat} (x : Mat R 1024) (w : Mat 1024 1024) (b : Mat 1 1024) (p : Fin R) (q : Fin 1024) :
    lin1 x w b (ix2 p q) = rowDot x w p q + b (ix2 0 q) := rfl

theorem lin2_apply {R : Nat} (x c : Mat R 1024) (wx wc : Mat 1024 1024) (b : Mat 1 1024) (p : Fin R) (q : Fin 1024) :
    lin2 x c wx wc b (ix2 p q) = (rowDot x wx p q + rowDot c wc p q) + b (ix2 0 q) := rfl

theorem lin3_apply {R : Nat} (x1 x2 x3 : Mat R 1024) (w1 w2 w3 : Mat 1024 1024) (b : Mat 1 1024) (p : Fin R) (q : Fin 1024) :
    lin3 x1 x2 x3 w1 w2 w3 b (ix2 p q)
      = ((rowDot x1 w1 p q + rowDot x2 w2 p q) + rowDot x3 w3 p q) + b (ix2 0 q) := rfl

/-! ## Real entries in, real entries out -/

/-- A finite sum of real numbers, read in the extended reals, is a real number. -/
theorem sum_real {κ : Type} (s : Finset κ) (f : κ → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    obtain ⟨ra, hra⟩ := hf a (Finset.mem_insert_self a s)
    obtain ⟨rs, hrs⟩ := ih fun k hk => hf k (Finset.mem_insert_of_mem hk)
    exact ⟨ra + rs, by rw [Finset.sum_insert ha, hra, hrs, EReal.coe_add]⟩

theorem add_real {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem mul_real {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem rowDot_real {R : Nat} {x : Mat R 1024} {w : Mat 1024 1024} (hx : AllReal x) (hw : AllReal w)
    (p : Fin R) (q : Fin 1024) : ∃ r : ℝ, rowDot x w p q = (r : EReal) :=
  sum_real _ _ fun k _ => mul_real (hx _) (hw _)

theorem lin1_real {R : Nat} {x : Mat R 1024} {w : Mat 1024 1024} {b : Mat 1 1024}
    (hx : AllReal x) (hw : AllReal w) (hb : AllReal b) : AllReal (lin1 x w b) :=
  fun i => add_real (rowDot_real hx hw _ _) (hb _)

theorem lin2_real {R : Nat} {x c : Mat R 1024} {wx wc : Mat 1024 1024} {b : Mat 1 1024}
    (hx : AllReal x) (hc : AllReal c) (hwx : AllReal wx) (hwc : AllReal wc) (hb : AllReal b) :
    AllReal (lin2 x c wx wc b) :=
  fun i => add_real (add_real (rowDot_real hx hwx _ _) (rowDot_real hc hwc _ _)) (hb _)

theorem lin3_real {R : Nat} {x1 x2 x3 : Mat R 1024} {w1 w2 w3 : Mat 1024 1024} {b : Mat 1 1024}
    (h1 : AllReal x1) (h2 : AllReal x2) (h3 : AllReal x3) (hw1 : AllReal w1) (hw2 : AllReal w2) (hw3 : AllReal w3)
    (hb : AllReal b) : AllReal (lin3 x1 x2 x3 w1 w2 w3 b) :=
  fun i => add_real (add_real (add_real (rowDot_real h1 hw1 _ _) (rowDot_real h2 hw2 _ _)) (rowDot_real h3 hw3 _ _)) (hb _)

end Cert.KernelIdeal.HandVal

end
-- ==== Proof.PreReal.lean ====
/-
  Finiteness of the arguments, from the precondition.

  The precondition evaluates, for each of the 23 argument arrays a, the conjunction over all entries of the test
  |a[i]| < +∞ (the absolute value is max a[i] (-a[i]), the bound is the f32 word 0x7F800000, which denotes +∞), and then
  the conjunction of the 23 answers; it asks for the answer 1. Over the extended reals |x| < +∞ fails exactly at x = +∞
  and x = -∞, so the answer 1 says that every entry of every argument array is a real number.
-/
import proofs.«117683_j11484742549629_2_alg».proof.Defs
import proofs.«117683_j11484742549629_2_alg».proof.Proof.Gen.Pre_finite_inputs
import proofs.«117683_j11484742549629_2_alg».proof.Proof.Gen.KernelIdeal
import proofs.«117683_j11484742549629_2_alg».proof.Proof.ValSpec
import Idealize.ShloMosaic.Lib.ReduceAll

noncomputable section

namespace Cert.KernelIdeal.HandPre

open Idealize.ShloMosaic Idealize.ShloMosaic.ValueIdx Idealize.SL.Sem
open Cert.KernelIdeal.HandVal (AllReal)

/-- The rank-0 shape has exactly one index. -/
instance scalarIdx_subsingleton : Subsingleton Cert.Pre_finite_inputs.S_.Idx :=
  ⟨fun a b => funext fun d => d.elim0⟩

/-- The f32 word 0x7F800000 (sign 0, exponent all ones, fraction 0) denotes +∞. -/
theorem posInf_word : Ideal.ofBits .f32 0x7F800000#32 = (⊤ : EReal) := by
  simp [Ideal.ofBits, Ideal.ieee]

/-- An extended real whose absolute value max x (-x) is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One lane of the test "|x| < +∞" answering 1 means the lane holds a real number. -/
theorem real_of_lane (x : EReal)
    (h : FloatOps.cmpf (F := Ideal) (φ := .f32) .olt (FloatOps.hostAbsf (F := Ideal) (φ := .f32) x)
          (FloatOps.ofBits (F := Ideal) .f32 0x7F800000#32) = 1#1) : ∃ r : ℝ, x = (r : EReal) := by
  rw [Ideal.ofBits_def, posInf_word] at h
  change BitVec.ofBool (decide (max x (-x) < ⊤)) = 1#1 at h
  refine real_of_abs_lt_top x ?_
  by_contra hn
  rw [decide_eq_false hn] at h
  exact absurd h (by decide)

/-- If the conjunction over all entries of the test |x[i]| < +∞ answers 1 then every entry of x is a real number.
    Stated at one index of the rank-0 result. -/
theorem allReal_of_finite_at {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (h0 : 0 < Cert.Pre_finite_inputs.S_.numel)
    (j : Cert.Pre_finite_inputs.S_.Idx)
    (h : Host.reduce IntOp.andi
          (cmpf .olt (Host.absf x) (broadcastInDim S ![] hb (constant Cert.Pre_finite_inputs.S_ .f32 0x7F800000#32)))
          (constantI Cert.Pre_finite_inputs.S_ 1 1#1) hr h0 j = 1#1) : AllReal x := by
  intro i
  have e := Host.reduce_andi_all _ _ hr h0 j h i
  exact real_of_lane (x i) e

/-- The same, with the whole rank-0 result equal to the all-ones array. -/
theorem allReal_of_finite {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (h0 : 0 < Cert.Pre_finite_inputs.S_.numel)
    (h : Host.reduce IntOp.andi
          (cmpf .olt (Host.absf x) (broadcastInDim S ![] hb (constant Cert.Pre_finite_inputs.S_ .f32 0x7F800000#32)))
          (constantI Cert.Pre_finite_inputs.S_ 1 1#1) hr h0 = fun _ => 1#1) : AllReal x :=
  allReal_of_finite_at x hb hr h0 ix0 (congrFun h ix0)

section Decode

variable [Cert.Pre_finite_inputs.Facts]

open Cert.Pre_finite_inputs in
/-- The predicate is the conjunction, array by array, of "every entry has |a[i]| < +∞"; when it answers 1 every one of
    its 23 arrays has only real entries. -/
theorem reals_of_fn (a0 : FVec Ideal S4x2048x1024 .f32) (a1 : FVec Ideal S4x2048x1024 .f32) (a2 : FVec Ideal S4x2048x1024 .f32) (a3 : FVec Ideal S3072x1024 .f32) (a4 : FVec Ideal S1024 .f32) (a5 : FVec Ideal S1024x1024 .f32) (a6 : FVec Ideal S1024 .f32) (a7 : FVec Ideal S1024x1024 .f32) (a8 : FVec Ideal S1024 .f32) (a9 : FVec Ideal S1024x1024 .f32) (a10 : FVec Ideal S1024 .f32) (a11 : FVec Ideal S1024x1024 .f32) (a12 : FVec Ideal S1024 .f32) (a13 : FVec Ideal S1024x1024 .f32) (a14 : FVec Ideal S1024 .f32) (a15 : FVec Ideal S1024x1024 .f32) (a16 : FVec Ideal S1024 .f32) (a17 : FVec Ideal S2048x1024 .f32) (a18 : FVec Ideal S1024 .f32) (a19 : FVec Ideal S2048x1024 .f32) (a20 : FVec Ideal S1024 .f32) (a21 : FVec Ideal S2048x1024 .f32) (a22 : FVec Ideal S1024 .f32)
    (h : fn (F := Ideal) a0 a1 a2 a3 a4 a5 a6 a7 a8 a9 a10 a11 a12 a13 a14 a15 a16 a17 a18 a19 a20 a21 a22 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 := by
  have e := congrFun h ix0
  dsimp only [fn, fn_part1, fn_part2, fn_part3, fn_part4, fn_part5, fn_part6] at e
  simp only [Idealize.ShloMosaic.andi, IntOp.andi_eq_one] at e
  obtain ⟨⟨⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩, e21⟩, e22⟩ := e
  exact ⟨allReal_of_finite_at _ _ _ _ _ e0,
    allReal_of_finite_at _ _ _ _ _ e1,
    allReal_of_finite_at _ _ _ _ _ e2,
    allReal_of_finite_at _ _ _ _ _ e3,
    allReal_of_finite_at _ _ _ _ _ e4,
    allReal_of_finite_at _ _ _ _ _ e5,
    allReal_of_finite_at _ _ _ _ _ e6,
    allReal_of_finite_at _ _ _ _ _ e7,
    allReal_of_finite_at _ _ _ _ _ e8,
    allReal_of_finite_at _ _ _ _ _ e9,
    allReal_of_finite_at _ _ _ _ _ e10,
    allReal_of_finite_at _ _ _ _ _ e11,
    allReal_of_finite_at _ _ _ _ _ e12,
    allReal_of_finite_at _ _ _ _ _ e13,
    allReal_of_finite_at _ _ _ _ _ e14,
    allReal_of_finite_at _ _ _ _ _ e15,
    allReal_of_finite_at _ _ _ _ _ e16,
    allReal_of_finite_at _ _ _ _ _ e17,
    allReal_of_finite_at _ _ _ _ _ e18,
    allReal_of_finite_at _ _ _ _ _ e19,
    allReal_of_finite_at _ _ _ _ _ e20,
    allReal_of_finite_at _ _ _ _ _ e21,
    allReal_of_finite_at _ _ _ _ _ e22⟩

end Decode

/-- Under the precondition every one of the 23 argument arrays, on every device, holds real numbers only. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    AllReal (m ((c.tc : Thread Cert.KernelIdeal.nD Cert.KernelIdeal.τ).loc Cert.KernelIdeal.main_arg0)) ∧
      AllReal (m ((c.tc : Thread Cert.KernelIdeal.nD Cert.KernelIdeal.τ).loc Cert.KernelIdeal.main_arg1)) ∧
      AllReal (m ((c.tc : Thread Cert.KernelIdeal.nD Cert.KernelIdeal.τ).loc Cert.KernelIdeal.main_arg2)) ∧
      AllReal (m ((c.tc : Thread Cert.KernelIdeal.nD Cert.KernelIdeal.τ).loc Cert.KernelIdeal.main_arg3)) ∧
      AllReal (m ((c.tc : Thread Cert.KernelIdeal.nD Cert.KernelIdeal.τ).loc Cert.KernelIdeal.main_arg4)) ∧
      AllReal (m ((c.tc : Thread Cert.KernelIdeal.nD Cert.KernelIdeal.τ).loc Cert.KernelIdeal.main_arg5)) ∧
      AllReal (m ((c.tc : Thread Cert.KernelIdeal.nD Cert.KernelIdeal.τ).loc Cert.KernelIdeal.main_arg6)) ∧
      AllReal (m ((c.tc : Thread Cert.KernelIdeal.nD Cert.KernelIdeal.τ).loc Cert.KernelIdeal.main_arg7)) ∧
      AllReal (m ((c.tc : Thread Cert.KernelIdeal.nD Cert.KernelIdeal.τ).loc Cert.KernelIdeal.main_arg8)) ∧
      AllReal (m ((c.tc : Thread Cert.KernelIdeal.nD Cert.KernelIdeal.τ).loc Cert.KernelIdeal.main_arg9)) ∧
      AllReal (m ((c.tc : Thread Cert.KernelIdeal.nD Cert.KernelIdeal.τ).loc Cert.KernelIdeal.main_arg10)) ∧
      AllReal (m ((c.tc : Thread Cert.KernelIdeal.nD Cert.KernelIdeal.τ).loc Cert.KernelIdeal.main_arg11)) ∧
      AllReal (m ((c.tc : Thread Cert.KernelIdeal.nD Cert.KernelIdeal.τ).loc Cert.KernelIdeal.main_arg12)) ∧
      AllReal (m ((c.tc : Thread Cert.KernelIdeal.nD Cert.KernelIdeal.τ).loc Cert.KernelIdeal.main_arg13)) ∧
      AllReal (m ((c.tc : Thread Cert.KernelIdeal.nD Cert.KernelIdeal.τ).loc Cert.KernelIdeal.main_arg14)) ∧
      AllReal (m ((c.tc : Thread Cert.KernelIdeal.nD Cert.KernelIdeal.τ).loc Cert.KernelIdeal.main_arg15)) ∧
      AllReal (m ((c.tc : Thread Cert.KernelIdeal.nD Cert.KernelIdeal.τ).loc Cert.KernelIdeal.main_arg16)) ∧
      AllReal (m ((c.tc : Thread Cert.KernelIdeal.nD Cert.KernelIdeal.τ).loc Cert.KernelIdeal.main_arg17)) ∧
      AllReal (m ((c.tc : Thread Cert.KernelIdeal.nD Cert.KernelIdeal.τ).loc Cert.KernelIdeal.main_arg18)) ∧
      AllReal (m ((c.tc : Thread Cert.KernelIdeal.nD Cert.KernelIdeal.τ).loc Cert.KernelIdeal.main_arg19)) ∧
      AllReal (m ((c.tc : Thread Cert.KernelIdeal.nD Cert.KernelIdeal.τ).loc Cert.KernelIdeal.main_arg20)) ∧
      AllReal (m ((c.tc : Thread Cert.KernelIdeal.nD Cert.KernelIdeal.τ).loc Cert.KernelIdeal.main_arg21)) ∧
      AllReal (m ((c.tc : Thread Cert.KernelIdeal.nD Cert.KernelIdeal.τ).loc Cert.KernelIdeal.main_arg22)) :=
  reals_of_fn _ _ _ _ _ _ _ _ _ _ _ _ _ _ _ _ _ _ _ _ _ _ _ (h c)

end Cert.KernelIdeal.HandPre
-- ==== Proof.HostRead.lean ====
/-
  What each host stretch of the kernel program's @main leaves in the buffers it writes.

  A host stretch is a list of array operations (slices, conversions to bf16, reshapes, and in the last stretch two
  insertions of a unit axis and two concatenations), each writing one buffer. For every buffer a stretch writes, the lemma
  below states its contents after the stretch as the operation's function applied to the contents W before the stretch;
  when an operand was itself written earlier in the same stretch, its expression is substituted, so every right-hand side
  mentions W only at buffers the stretch does not write. The statements hold for every float instance.
-/
import proofs.«117683_j11484742549629_2_alg».proof.Proof.RegionsKI
import Idealize.ShloMosaic.Lib.StableHlo.Run

set_option maxRecDepth 4096

noncomputable section

namespace Cert.KernelIdeal.Hand

open Idealize.ShloMosaic Idealize.ShloMosaic.TcCoe Idealize.SL.Sem
open Cert.KernelIdeal Cert.KernelIdeal.Gen

variable {F : FTy → Type} [FloatOps F]

/-! ## Host stretch 0 -/

/-- main_v0 is the block at offset ![0, 0] of main_arg3. -/
theorem read_v0 (W : Valuation τ sig (Elt F)) :
    StableHlo.after hostOps0 W (Proc.devRef .tc main_v0) =
      extractStridedSlice S1024x1024 ![0, 0] (W (Proc.devRef .tc main_arg3)) slices_S3072x1024_S1024x1024_0_0 := by
  after_results <;> try rfl

/-- main_v1 is the block at offset ![0, 0] of main_arg3, every entry converted to bf16. -/
theorem read_v1 (W : Valuation τ sig (Elt F)) :
    StableHlo.after hostOps0 W (Proc.devRef .tc main_v1) =
      truncf .bf16 (extractStridedSlice S1024x1024 ![0, 0] (W (Proc.devRef .tc main_arg3)) slices_S3072x1024_S1024x1024_0_0) bitsLt_bf16_f32 := by
  after_results <;> try rfl

/-- main_v2 is the block at offset ![1024, 0] of main_arg3. -/
theorem read_v2 (W : Valuation τ sig (Elt F)) :
    StableHlo.after hostOps0 W (Proc.devRef .tc main_v2) =
      extractStridedSlice S1024x1024 ![1024, 0] (W (Proc.devRef .tc main_arg3)) slices_S3072x1024_S1024x1024_1024_0 := by
  after_results <;> try rfl

/-- main_v3 is the block at offset ![1024, 0] of main_arg3, every entry converted to bf16. -/
theorem read_v3 (W : Valuation τ sig (Elt F)) :
    StableHlo.after hostOps0 W (Proc.devRef .tc main_v3) =
      truncf .bf16 (extractStridedSlice S1024x1024 ![1024, 0] (W (Proc.devRef .tc main_arg3)) slices_S3072x1024_S1024x1024_1024_0) bitsLt_bf16_f32 := by
  after_results <;> try rfl

/-- main_v4 is the block at offset ![2048, 0] of main_arg3. -/
theorem read_v4 (W : Valuation τ sig (Elt F)) :
    StableHlo.after hostOps0 W (Proc.devRef .tc main_v4) =
      extractStridedSlice S1024x1024 ![2048, 0] (W (Proc.devRef .tc main_arg3)) slices_S3072x1024_S1024x1024_2048_0 := by
  after_results <;> try rfl

/-- main_v5 is the block at offset ![2048, 0] of main_arg3, every entry converted to bf16. -/
theorem read_v5 (W : Valuation τ sig (Elt F)) :
    StableHlo.after hostOps0 W (Proc.devRef .tc main_v5) =
      truncf .bf16 (extractStridedSlice S1024x1024 ![2048, 0] (W (Proc.devRef .tc main_arg3)) slices_S3072x1024_S1024x1024_2048_0) bitsLt_bf16_f32 := by
  after_results <;> try rfl

/-- main_v6 is main_arg0 reshaped (same row-major order of entries). -/
theorem read_v6 (W : Valuation τ sig (Elt F)) :
    StableHlo.after hostOps0 W (Proc.devRef .tc main_v6) =
      shapeCast S8192x1024 (W (Proc.devRef .tc main_arg0)) shapeCasts_S4x2048x1024_S8192x1024 := by
  after_results <;> try rfl

/-- main_v7 is main_arg1 reshaped (same row-major order of entries). -/
theorem read_v7 (W : Valuation τ sig (Elt F)) :
    StableHlo.after hostOps0 W (Proc.devRef .tc main_v7) =
      shapeCast S8192x1024 (W (Proc.devRef .tc main_arg1)) shapeCasts_S4x2048x1024_S8192x1024 := by
  after_results <;> try rfl

/-- main_v8 is main_arg2 reshaped (same row-major order of entries). -/
theorem read_v8 (W : Valuation τ sig (Elt F)) :
    StableHlo.after hostOps0 W (Proc.devRef .tc main_v8) =
      shapeCast S8192x1024 (W (Proc.devRef .tc main_arg2)) shapeCasts_S4x2048x1024_S8192x1024 := by
  after_results <;> try rfl

/-- main_v9 is main_arg4 reshaped (same row-major order of entries). -/
theorem read_v9 (W : Valuation τ sig (Elt F)) :
    StableHlo.after hostOps0 W (Proc.devRef .tc main_v9) =
      shapeCast S1x1024 (W (Proc.devRef .tc main_arg4)) shapeCasts_S1024_S1x1024 := by
  after_results <;> try rfl

/-! ## Host stretch 1 -/

/-- main_v11 is main_v10 reshaped (same row-major order of entries). -/
theorem read_v11 (W : Valuation τ sig (Elt F)) :
    StableHlo.after hostOps1 W (Proc.devRef .tc main_v11) =
      shapeCast S4x2048x1024 (W (Proc.devRef .tc main_v10)) shapeCasts_S8192x1024_S4x2048x1024 := by
  after_results <;> try rfl

/-- main_v12 is main_arg5, every entry converted to bf16. -/
theorem read_v12 (W : Valuation τ sig (Elt F)) :
    StableHlo.after hostOps1 W (Proc.devRef .tc main_v12) =
      truncf .bf16 (W (Proc.devRef .tc main_arg5)) bitsLt_bf16_f32 := by
  after_results <;> try rfl

/-- main_v13 is main_arg0 reshaped (same row-major order of entries). -/
theorem read_v13 (W : Valuation τ sig (Elt F)) :
    StableHlo.after hostOps1 W (Proc.devRef .tc main_v13) =
      shapeCast S8192x1024 (W (Proc.devRef .tc main_arg0)) shapeCasts_S4x2048x1024_S8192x1024 := by
  after_results <;> try rfl

/-- main_v14 is main_arg6 reshaped (same row-major order of entries). -/
theorem read_v14 (W : Valuation τ sig (Elt F)) :
    StableHlo.after hostOps1 W (Proc.devRef .tc main_v14) =
      shapeCast S1x1024 (W (Proc.devRef .tc main_arg6)) shapeCasts_S1024_S1x1024 := by
  after_results <;> try rfl

/-! ## Host stretch 2 -/

/-- main_v16 is main_v15 reshaped (same row-major order of entries). -/
theorem read_v16 (W : Valuation τ sig (Elt F)) :
    StableHlo.after hostOps2 W (Proc.devRef .tc main_v16) =
      shapeCast S4x2048x1024 (W (Proc.devRef .tc main_v15)) shapeCasts_S8192x1024_S4x2048x1024 := by
  after_results <;> try rfl

/-- main_v17 is main_arg7, every entry converted to bf16. -/
theorem read_v17 (W : Valuation τ sig (Elt F)) :
    StableHlo.after hostOps2 W (Proc.devRef .tc main_v17) =
      truncf .bf16 (W (Proc.devRef .tc main_arg7)) bitsLt_bf16_f32 := by
  after_results <;> try rfl

/-- main_v18 is main_arg0 reshaped (same row-major order of entries). -/
theorem read_v18 (W : Valuation τ sig (Elt F)) :
    StableHlo.after hostOps2 W (Proc.devRef .tc main_v18) =
      shapeCast S8192x1024 (W (Proc.devRef .tc main_arg0)) shapeCasts_S4x2048x1024_S8192x1024 := by
  after_results <;> try rfl

/-- main_v19 is main_arg8 reshaped (same row-major order of entries). -/
theorem read_v19 (W : Valuation τ sig (Elt F)) :
    StableHlo.after hostOps2 W (Proc.devRef .tc main_v19) =
      shapeCast S1x1024 (W (Proc.devRef .tc main_arg8)) shapeCasts_S1024_S1x1024 := by
  after_results <;> try rfl

/-! ## Host stretch 3 -/

/-- main_v21 is main_v20 reshaped (same row-major order of entries). -/
theorem read_v21 (W : Valuation τ sig (Elt F)) :
    StableHlo.after hostOps3 W (Proc.devRef .tc main_v21) =
      shapeCast S4x2048x1024 (W (Proc.devRef .tc main_v20)) shapeCasts_S8192x1024_S4x2048x1024 := by
  after_results <;> try rfl

/-! ## Host stretch 4 -/

/-- main_v23 is main_arg9, every entry converted to bf16. -/
theorem read_v23 (W : Valuation τ sig (Elt F)) :
    StableHlo.after hostOps4 W (Proc.devRef .tc main_v23) =
      truncf .bf16 (W (Proc.devRef .tc main_arg9)) bitsLt_bf16_f32 := by
  after_results <;> try rfl

/-- main_v24 is main_arg1 reshaped (same row-major order of entries). -/
theorem read_v24 (W : Valuation τ sig (Elt F)) :
    StableHlo.after hostOps4 W (Proc.devRef .tc main_v24) =
      shapeCast S8192x1024 (W (Proc.devRef .tc main_arg1)) shapeCasts_S4x2048x1024_S8192x1024 := by
  after_results <;> try rfl

/-- main_v25 is main_arg10 reshaped (same row-major order of entries). -/
theorem read_v25 (W : Valuation τ sig (Elt F)) :
    StableHlo.after hostOps4 W (Proc.devRef .tc main_v25) =
      shapeCast S1x1024 (W (Proc.devRef .tc main_arg10)) shapeCasts_S1024_S1x1024 := by
  after_results <;> try rfl

/-! ## Host stretch 5 -/

/-- main_v27 is main_v26 reshaped (same row-major order of entries). -/
theorem read_v27 (W : Valuation τ sig (Elt F)) :
    StableHlo.after hostOps5 W (Proc.devRef .tc main_v27) =
      shapeCast S4x2048x1024 (W (Proc.devRef .tc main_v26)) shapeCasts_S8192x1024_S4x2048x1024 := by
  after_results <;> try rfl

/-- main_v28 is main_arg11, every entry converted to bf16. -/
theorem read_v28 (W : Valuation τ sig (Elt F)) :
    StableHlo.after hostOps5 W (Proc.devRef .tc main_v28) =
      truncf .bf16 (W (Proc.devRef .tc main_arg11)) bitsLt_bf16_f32 := by
  after_results <;> try rfl

/-- main_v29 is main_arg1 reshaped (same row-major order of entries). -/
theorem read_v29 (W : Valuation τ sig (Elt F)) :
    StableHlo.after hostOps5 W (Proc.devRef .tc main_v29) =
      shapeCast S8192x1024 (W (Proc.devRef .tc main_arg1)) shapeCasts_S4x2048x1024_S8192x1024 := by
  after_results <;> try rfl

/-- main_v30 is main_arg12 reshaped (same row-major order of entries). -/
theorem read_v30 (W : Valuation τ sig (Elt F)) :
    StableHlo.after hostOps5 W (Proc.devRef .tc main_v30) =
      shapeCast S1x1024 (W (Proc.devRef .tc main_arg12)) shapeCasts_S1024_S1x1024 := by
  after_results <;> try rfl

/-! ## Host stretch 6 -/

/-- main_v32 is main_v31 reshaped (same row-major order of entries). -/
theorem read_v32 (W : Valuation τ sig (Elt F)) :
    StableHlo.after hostOps6 W (Proc.devRef .tc main_v32) =
      shapeCast S4x2048x1024 (W (Proc.devRef .tc main_v31)) shapeCasts_S8192x1024_S4x2048x1024 := by
  after_results <;> try rfl

/-! ## Host stretch 7 -/

/-- main_v34 is main_arg13, every entry converted to bf16. -/
theorem read_v34 (W : Valuation τ sig (Elt F)) :
    StableHlo.after hostOps7 W (Proc.devRef .tc main_v34) =
      truncf .bf16 (W (Proc.devRef .tc main_arg13)) bitsLt_bf16_f32 := by
  after_results <;> try rfl

/-- main_v35 is main_arg2 reshaped (same row-major order of entries). -/
theorem read_v35 (W : Valuation τ sig (Elt F)) :
    StableHlo.after hostOps7 W (Proc.devRef .tc main_v35) =
      shapeCast S8192x1024 (W (Proc.devRef .tc main_arg2)) shapeCasts_S4x2048x1024_S8192x1024 := by
  after_results <;> try rfl

/-- main_v36 is main_arg14 reshaped (same row-major order of entries). -/
theorem read_v36 (W : Valuation τ sig (Elt F)) :
    StableHlo.after hostOps7 W (Proc.devRef .tc main_v36) =
      shapeCast S1x1024 (W (Proc.devRef .tc main_arg14)) shapeCasts_S1024_S1x1024 := by
  after_results <;> try rfl

/-! ## Host stretch 8 -/

/-- main_v38 is main_v37 reshaped (same row-major order of entries). -/
theorem read_v38 (W : Valuation τ sig (Elt F)) :
    StableHlo.after hostOps8 W (Proc.devRef .tc main_v38) =
      shapeCast S4x2048x1024 (W (Proc.devRef .tc main_v37)) shapeCasts_S8192x1024_S4x2048x1024 := by
  after_results <;> try rfl

/-- main_v39 is main_arg15, every entry converted to bf16. -/
theorem read_v39 (W : Valuation τ sig (Elt F)) :
    StableHlo.after hostOps8 W (Proc.devRef .tc main_v39) =
      truncf .bf16 (W (Proc.devRef .tc main_arg15)) bitsLt_bf16_f32 := by
  after_results <;> try rfl

/-- main_v40 is main_arg2 reshaped (same row-major order of entries). -/
theorem read_v40 (W : Valuation τ sig (Elt F)) :
    StableHlo.after hostOps8 W (Proc.devRef .tc main_v40) =
      shapeCast S8192x1024 (W (Proc.devRef .tc main_arg2)) shapeCasts_S4x2048x1024_S8192x1024 := by
  after_results <;> try rfl

/-- main_v41 is main_arg16 reshaped (same row-major order of entries). -/
theorem read_v41 (W : Valuation τ sig (Elt F)) :
    StableHlo.after hostOps8 W (Proc.devRef .tc main_v41) =
      shapeCast S1x1024 (W (Proc.devRef .tc main_arg16)) shapeCasts_S1024_S1x1024 := by
  after_results <;> try rfl

/-! ## Host stretch 9 -/

/-- main_v43 is main_v42 reshaped (same row-major order of entries). -/
theorem read_v43 (W : Valuation τ sig (Elt F)) :
    StableHlo.after hostOps9 W (Proc.devRef .tc main_v43) =
      shapeCast S4x2048x1024 (W (Proc.devRef .tc main_v42)) shapeCasts_S8192x1024_S4x2048x1024 := by
  after_results <;> try rfl

/-! ## Host stretch 10 -/

/-- main_v45 is the block at offset ![0, 0] of main_arg17. -/
theorem read_v45 (W : Valuation τ sig (Elt F)) :
    StableHlo.after hostOps10 W (Proc.devRef .tc main_v45) =
      extractStridedSlice S1024x1024 ![0, 0] (W (Proc.devRef .tc main_arg17)) slices_S2048x1024_S1024x1024_0_0 := by
  after_results <;> try rfl

/-- main_v46 is the block at offset ![0, 0] of main_arg17, every entry converted to bf16. -/
theorem read_v46 (W : Valuation τ sig (Elt F)) :
    StableHlo.after hostOps10 W (Proc.devRef .tc main_v46) =
      truncf .bf16 (extractStridedSlice S1024x1024 ![0, 0] (W (Proc.devRef .tc main_arg17)) slices_S2048x1024_S1024x1024_0_0) bitsLt_bf16_f32 := by
  after_results <;> try rfl

/-- main_v47 is the block at offset ![1024, 0] of main_arg17. -/
theorem read_v47 (W : Valuation τ sig (Elt F)) :
    StableHlo.after hostOps10 W (Proc.devRef .tc main_v47) =
      extractStridedSlice S1024x1024 ![1024, 0] (W (Proc.devRef .tc main_arg17)) slices_S2048x1024_S1024x1024_1024_0 := by
  after_results <;> try rfl

/-- main_v48 is the block at offset ![1024, 0] of main_arg17, every entry converted to bf16. -/
theorem read_v48 (W : Valuation τ sig (Elt F)) :
    StableHlo.after hostOps10 W (Proc.devRef .tc main_v48) =
      truncf .bf16 (extractStridedSlice S1024x1024 ![1024, 0] (W (Proc.devRef .tc main_arg17)) slices_S2048x1024_S1024x1024_1024_0) bitsLt_bf16_f32 := by
  after_results <;> try rfl

/-- main_v49 is the block at offset ![0, 0] of main_arg19. -/
theorem read_v49 (W : Valuation τ sig (Elt F)) :
    StableHlo.after hostOps10 W (Proc.devRef .tc main_v49) =
      extractStridedSlice S1024x1024 ![0, 0] (W (Proc.devRef .tc main_arg19)) slices_S2048x1024_S1024x1024_0_0 := by
  after_results <;> try rfl

/-- main_v50 is the block at offset ![0, 0] of main_arg19, every entry converted to bf16. -/
theorem read_v50 (W : Valuation τ sig (Elt F)) :
    StableHlo.after hostOps10 W (Proc.devRef .tc main_v50) =
      truncf .bf16 (extractStridedSlice S1024x1024 ![0, 0] (W (Proc.devRef .tc main_arg19)) slices_S2048x1024_S1024x1024_0_0) bitsLt_bf16_f32 := by
  after_results <;> try rfl

/-- main_v51 is the block at offset ![1024, 0] of main_arg19. -/
theorem read_v51 (W : Valuation τ sig (Elt F)) :
    StableHlo.after hostOps10 W (Proc.devRef .tc main_v51) =
      extractStridedSlice S1024x1024 ![1024, 0] (W (Proc.devRef .tc main_arg19)) slices_S2048x1024_S1024x1024_1024_0 := by
  after_results <;> try rfl

/-- main_v52 is the block at offset ![1024, 0] of main_arg19, every entry converted to bf16. -/
theorem read_v52 (W : Valuation τ sig (Elt F)) :
    StableHlo.after hostOps10 W (Proc.devRef .tc main_v52) =
      truncf .bf16 (extractStridedSlice S1024x1024 ![1024, 0] (W (Proc.devRef .tc main_arg19)) slices_S2048x1024_S1024x1024_1024_0) bitsLt_bf16_f32 := by
  after_results <;> try rfl

/-- main_v53 is the block at offset ![0, 0] of main_arg21. -/
theorem read_v53 (W : Valuation τ sig (Elt F)) :
    StableHlo.after hostOps10 W (Proc.devRef .tc main_v53) =
      extractStridedSlice S1024x1024 ![0, 0] (W (Proc.devRef .tc main_arg21)) slices_S2048x1024_S1024x1024_0_0 := by
  after_results <;> try rfl

/-- main_v54 is the block at offset ![0, 0] of main_arg21, every entry converted to bf16. -/
theorem read_v54 (W : Valuation τ sig (Elt F)) :
    StableHlo.after hostOps10 W (Proc.devRef .tc main_v54) =
      truncf .bf16 (extractStridedSlice S1024x1024 ![0, 0] (W (Proc.devRef .tc main_arg21)) slices_S2048x1024_S1024x1024_0_0) bitsLt_bf16_f32 := by
  after_results <;> try rfl

/-- main_v55 is the block at offset ![1024, 0] of main_arg21. -/
theorem read_v55 (W : Valuation τ sig (Elt F)) :
    StableHlo.after hostOps10 W (Proc.devRef .tc main_v55) =
      extractStridedSlice S1024x1024 ![1024, 0] (W (Proc.devRef .tc main_arg21)) slices_S2048x1024_S1024x1024_1024_0 := by
  after_results <;> try rfl

/-- main_v56 is the block at offset ![1024, 0] of main_arg21, every entry converted to bf16. -/
theorem read_v56 (W : Valuation τ sig (Elt F)) :
    StableHlo.after hostOps10 W (Proc.devRef .tc main_v56) =
      truncf .bf16 (extractStridedSlice S1024x1024 ![1024, 0] (W (Proc.devRef .tc main_arg21)) slices_S2048x1024_S1024x1024_1024_0) bitsLt_bf16_f32 := by
  after_results <;> try rfl

/-- main_v57 is main_arg0 reshaped (same row-major order of entries). -/
theorem read_v57 (W : Valuation τ sig (Elt F)) :
    StableHlo.after hostOps10 W (Proc.devRef .tc main_v57) =
      shapeCast S8192x1024 (W (Proc.devRef .tc main_arg0)) shapeCasts_S4x2048x1024_S8192x1024 := by
  after_results <;> try rfl

/-- main_v58 is main_v22 reshaped (same row-major order of entries). -/
theorem read_v58 (W : Valuation τ sig (Elt F)) :
    StableHlo.after hostOps10 W (Proc.devRef .tc main_v58) =
      shapeCast S8192x1024 (W (Proc.devRef .tc main_v22)) shapeCasts_S4x2048x1024_S8192x1024 := by
  after_results <;> try rfl

/-- main_v59 is main_arg18 reshaped (same row-major order of entries). -/
theorem read_v59 (W : Valuation τ sig (Elt F)) :
    StableHlo.after hostOps10 W (Proc.devRef .tc main_v59) =
      shapeCast S1x1024 (W (Proc.devRef .tc main_arg18)) shapeCasts_S1024_S1x1024 := by
  after_results <;> try rfl

/-! ## Host stretch 11 -/

/-- main_v61 is main_v60 reshaped (same row-major order of entries). -/
theorem read_v61 (W : Valuation τ sig (Elt F)) :
    StableHlo.after hostOps11 W (Proc.devRef .tc main_v61) =
      shapeCast S4x2048x1024 (W (Proc.devRef .tc main_v60)) shapeCasts_S8192x1024_S4x2048x1024 := by
  after_results <;> try rfl

/-- main_v62 is main_arg1 reshaped (same row-major order of entries). -/
theorem read_v62 (W : Valuation τ sig (Elt F)) :
    StableHlo.after hostOps11 W (Proc.devRef .tc main_v62) =
      shapeCast S8192x1024 (W (Proc.devRef .tc main_arg1)) shapeCasts_S4x2048x1024_S8192x1024 := by
  after_results <;> try rfl

/-- main_v63 is main_v33 reshaped (same row-major order of entries). -/
theorem read_v63 (W : Valuation τ sig (Elt F)) :
    StableHlo.after hostOps11 W (Proc.devRef .tc main_v63) =
      shapeCast S8192x1024 (W (Proc.devRef .tc main_v33)) shapeCasts_S4x2048x1024_S8192x1024 := by
  after_results <;> try rfl

/-- main_v64 is main_arg20 reshaped (same row-major order of entries). -/
theorem read_v64 (W : Valuation τ sig (Elt F)) :
    StableHlo.after hostOps11 W (Proc.devRef .tc main_v64) =
      shapeCast S1x1024 (W (Proc.devRef .tc main_arg20)) shapeCasts_S1024_S1x1024 := by
  after_results <;> try rfl

/-! ## Host stretch 12 -/

/-- main_v66 is main_v65 reshaped (same row-major order of entries). -/
theorem read_v66 (W : Valuation τ sig (Elt F)) :
    StableHlo.after hostOps12 W (Proc.devRef .tc main_v66) =
      shapeCast S4x2048x1024 (W (Proc.devRef .tc main_v65)) shapeCasts_S8192x1024_S4x2048x1024 := by
  after_results <;> try rfl

/-- main_v67 is main_arg2 reshaped (same row-major order of entries). -/
theorem read_v67 (W : Valuation τ sig (Elt F)) :
    StableHlo.after hostOps12 W (Proc.devRef .tc main_v67) =
      shapeCast S8192x1024 (W (Proc.devRef .tc main_arg2)) shapeCasts_S4x2048x1024_S8192x1024 := by
  after_results <;> try rfl

/-- main_v68 is main_v44 reshaped (same row-major order of entries). -/
theorem read_v68 (W : Valuation τ sig (Elt F)) :
    StableHlo.after hostOps12 W (Proc.devRef .tc main_v68) =
      shapeCast S8192x1024 (W (Proc.devRef .tc main_v44)) shapeCasts_S4x2048x1024_S8192x1024 := by
  after_results <;> try rfl

/-- main_v69 is main_arg22 reshaped (same row-major order of entries). -/
theorem read_v69 (W : Valuation τ sig (Elt F)) :
    StableHlo.after hostOps12 W (Proc.devRef .tc main_v69) =
      shapeCast S1x1024 (W (Proc.devRef .tc main_arg22)) shapeCasts_S1024_S1x1024 := by
  after_results <;> try rfl

/-! ## Host stretch 13 -/

/-- main_v71 is main_v70 reshaped (same row-major order of entries). -/
theorem read_v71 (W : Valuation τ sig (Elt F)) :
    StableHlo.after hostOps13 W (Proc.devRef .tc main_v71) =
      shapeCast S4x2048x1024 (W (Proc.devRef .tc main_v70)) shapeCasts_S8192x1024_S4x2048x1024 := by
  after_results <;> try rfl

/-- main_v72 is main_v61 with a new axis of size one inserted at position 2. -/
theorem read_v72 (W : Valuation τ sig (Elt F)) :
    StableHlo.after hostOps13 W (Proc.devRef .tc main_v72) =
      broadcastInDim S4x2048x1x1024 ![0, 1, 3] bcast_S4x2048x1024_S4x2048x1x1024_0_1_3 (W (Proc.devRef .tc main_v61)) := by
  after_results <;> try rfl

/-- main_v73 is main_v66 with a new axis of size one inserted at position 2. -/
theorem read_v73 (W : Valuation τ sig (Elt F)) :
    StableHlo.after hostOps13 W (Proc.devRef .tc main_v73) =
      broadcastInDim S4x2048x1x1024 ![0, 1, 3] bcast_S4x2048x1024_S4x2048x1x1024_0_1_3 (W (Proc.devRef .tc main_v66)) := by
  after_results <;> try rfl

/-- main_v74 is the concatenation, along axis 2, of the arrays built from main_v61, main_v66. -/
theorem read_v74 (W : Valuation τ sig (Elt F)) :
    StableHlo.after hostOps13 W (Proc.devRef .tc main_v74) =
      concatenate S4x2048x2x1024 2 [⟨S4x2048x1x1024, (broadcastInDim S4x2048x1x1024 ![0, 1, 3] bcast_S4x2048x1024_S4x2048x1x1024_0_1_3 (W (Proc.devRef .tc main_v61)))⟩, ⟨S4x2048x1x1024, (broadcastInDim S4x2048x1x1024 ![0, 1, 3] bcast_S4x2048x1024_S4x2048x1x1024_0_1_3 (W (Proc.devRef .tc main_v66)))⟩] concatenates_S4x2048x1x1024_S4x2048x1x1024_S4x2048x2x1024_d2 := by
  after_results <;> try rfl

/-- main_v75 is the reshape of the array built from main_v61, main_v66 (same row-major order of entries). -/
theorem read_v75 (W : Valuation τ sig (Elt F)) :
    StableHlo.after hostOps13 W (Proc.devRef .tc main_v75) =
      shapeCast S4x4096x1024 (concatenate S4x2048x2x1024 2 [⟨S4x2048x1x1024, (broadcastInDim S4x2048x1x1024 ![0, 1, 3] bcast_S4x2048x1024_S4x2048x1x1024_0_1_3 (W (Proc.devRef .tc main_v61)))⟩, ⟨S4x2048x1x1024, (broadcastInDim S4x2048x1x1024 ![0, 1, 3] bcast_S4x2048x1024_S4x2048x1x1024_0_1_3 (W (Proc.devRef .tc main_v66)))⟩] concatenates_S4x2048x1x1024_S4x2048x1x1024_S4x2048x2x1024_d2) shapeCasts_S4x2048x2x1024_S4x4096x1024 := by
  after_results <;> try rfl

/-- main_v76 is the concatenation, along axis 1, of the arrays built from main_v61, main_v66, main_v70. -/
theorem read_v76 (W : Valuation τ sig (Elt F)) :
    StableHlo.after hostOps13 W (Proc.devRef .tc main_v76) =
      concatenate S4x6144x1024 1 [⟨S4x4096x1024, (shapeCast S4x4096x1024 (concatenate S4x2048x2x1024 2 [⟨S4x2048x1x1024, (broadcastInDim S4x2048x1x1024 ![0, 1, 3] bcast_S4x2048x1024_S4x2048x1x1024_0_1_3 (W (Proc.devRef .tc main_v61)))⟩, ⟨S4x2048x1x1024, (broadcastInDim S4x2048x1x1024 ![0, 1, 3] bcast_S4x2048x1024_S4x2048x1x1024_0_1_3 (W (Proc.devRef .tc main_v66)))⟩] concatenates_S4x2048x1x1024_S4x2048x1x1024_S4x2048x2x1024_d2) shapeCasts_S4x2048x2x1024_S4x4096x1024)⟩, ⟨S4x2048x1024, (shapeCast S4x2048x1024 (W (Proc.devRef .tc main_v70)) shapeCasts_S8192x1024_S4x2048x1024)⟩] concatenates_S4x4096x1024_S4x2048x1024_S4x6144x1024_d1 := by
  after_results <;> try rfl

/-! ## The four result arrays after the last host stretch

main_v61 and main_v66 are not written by the last stretch, so they are what they were before it; main_v71 and main_v76 are
written by it. -/

/-- The last stretch leaves main_v61 as it was. -/
theorem result_v61 (W : Valuation τ sig (Elt F)) :
    StableHlo.after hostOps13 W (Proc.devRef .tc main_v61) = W (Proc.devRef .tc main_v61) :=
  StableHlo.after_of_writes_sub hostOps13 _ hostOps13_writes (by decide)

/-- The last stretch leaves main_v66 as it was. -/
theorem result_v66 (W : Valuation τ sig (Elt F)) :
    StableHlo.after hostOps13 W (Proc.devRef .tc main_v66) = W (Proc.devRef .tc main_v66) :=
  StableHlo.after_of_writes_sub hostOps13 _ hostOps13_writes (by decide)

/-- main_v71 after the last stretch (the same statement as read_v71). -/
theorem result_v71 (W : Valuation τ sig (Elt F)) :
    StableHlo.after hostOps13 W (Proc.devRef .tc main_v71) =
      shapeCast S4x2048x1024 (W (Proc.devRef .tc main_v70)) shapeCasts_S8192x1024_S4x2048x1024 := read_v71 W

/-- main_v76 after the last stretch (the same statement as read_v76). -/
theorem result_v76 (W : Valuation τ sig (Elt F)) :
    StableHlo.after hostOps13 W (Proc.devRef .tc main_v76) =
      concatenate S4x6144x1024 1 [⟨S4x4096x1024, (shapeCast S4x4096x1024 (concatenate S4x2048x2x1024 2 [⟨S4x2048x1x1024, (broadcastInDim S4x2048x1x1024 ![0, 1, 3] bcast_S4x2048x1024_S4x2048x1x1024_0_1_3 (W (Proc.devRef .tc main_v61)))⟩, ⟨S4x2048x1x1024, (broadcastInDim S4x2048x1x1024 ![0, 1, 3] bcast_S4x2048x1024_S4x2048x1x1024_0_1_3 (W (Proc.devRef .tc main_v66)))⟩] concatenates_S4x2048x1x1024_S4x2048x1x1024_S4x2048x2x1024_d2) shapeCasts_S4x2048x2x1024_S4x4096x1024)⟩, ⟨S4x2048x1024, (shapeCast S4x2048x1024 (W (Proc.devRef .tc main_v70)) shapeCasts_S8192x1024_S4x2048x1024)⟩] concatenates_S4x4096x1024_S4x2048x1024_S4x6144x1024_d1 := read_v76 W

end Cert.KernelIdeal.Hand
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.ValPay.lean ====
/-
  What each projection kernel stores for one tile of 512 rows, as the linear maps of ValSpec.

  On extended reals a conversion between f32 and bf16 is the identity and a shape cast to the same shape changes
  nothing, so a kernel body's stored value is: the tile times the resident weight (a product accumulated into the
  zero splat is the plain sum over the 1024 features), further products added in the order the body adds them, and
  the bias row broadcast down the rows added last. That is `lin1`, `lin2` or `lin3` at R = 512.
-/
import proofs.«117683_j11484742549629_2_alg».proof.Proof.Gen.KernelIdeal.Skeleton
import proofs.«117683_j11484742549629_2_alg».proof.Proof.ValSpec
import proofs.«117683_j11484742549629_2_alg».proof.Proof.LibDotRows
import Idealize.ShloMosaic.Lib.Pipeline.Value
import Idealize.ShloMosaic.Lib.ValueLayout

noncomputable section

namespace Cert.KernelIdeal.HandVal

open Cert.KernelIdeal Cert.KernelIdeal.Gen Idealize.ShloMosaic Idealize.ShloMosaic.ValueIdx

/-- The tile product's dimension numbers are the plain ones: contract axis 1 of the [512, 1024] tile with axis 0 of
    the [1024, 1024] weight. -/
theorem tileDims_plain : dot_S512x1024_S1024x1024_S512x1024_1_0_0_1_n_n = DotDims.plain 512 1024 1024 := rfl

/-- Entry (p, q) of a tile's product with a weight, accumulated into the zero splat, is the sum over k of
    x[p, k] * w[k, q]. -/
theorem tileProduct (x : Mat 512 1024) (w : Mat 1024 1024) (p : Fin 512) (q : Fin 1024) :
    matmul (F := Ideal) dot_S512x1024_S1024x1024_S512x1024_1_0_0_1_n_n none (φ₁ := .bf16) (φ₂ := .bf16) x w
        (constant S512x1024 .f32 0x00000000#32) (ix2 p q)
      = rowDot x w p q := by
  rw [tileDims_plain]
  exact Cert.Lib.DotRows.matmul_plain_apply (M := 512) (K := 1024) (N := 1024) (φ₁ := .bf16) (φ₂ := .bf16) x w p q

/-- The bias row broadcast down the 512 rows of a tile reads, at (p, q), the row's entry q. -/
theorem biasRow (b : Mat 1 1024) (p : Fin 512) (q : Fin 1024) :
    broadcastTo S512x1024 b broadcasts_S1x1024_S512x1024 (ix2 p q) = b (ix2 0 q) :=
  broadcastTo_1b_ab_apply b broadcasts_S1x1024_S512x1024 p q

/-! ## One product: the key and value projections -/

/-- A body that stores (tile · weight + bias row), converted to bf16, stores `lin1` of its three loads. -/
theorem oneProduct_pay
    (f : Vec Ideal S512x1024 .f32 → Vec Ideal S1024x1024 .bf16 → Vec Ideal S1x1024 .f32 → FVec Ideal S512x1024 .bf16)
    (hf : ∀ x w b, f x w b = truncf .bf16 (addf (matmul (φ₁ := .bf16) (φ₂ := .bf16) dot_S512x1024_S1024x1024_S512x1024_1_0_0_1_n_n none
        (truncf .bf16 (φ := .f32) x bitsLt_bf16_f32) w (constant S512x1024 .f32 0x00000000#32))
        (broadcastTo S512x1024 b broadcasts_S1x1024_S512x1024)) bitsLt_bf16_f32)
    (x : Vec Ideal S512x1024 .f32) (w : Vec Ideal S1024x1024 .bf16) (b : Vec Ideal S1x1024 .f32) :
    f x w b = lin1 x w b := by
  rw [hf]
  funext j
  obtain ⟨p, q, rfl⟩ : ∃ (p : Fin 512) (q : Fin 1024), j = ix2 p q := ⟨j 0, j 1, eq_ix2 j⟩
  rw [lin1_apply]
  exact congrArg₂ (· + ·) (tileProduct x w p q) (biasRow b p q)

theorem k1_pay1_eq (x : Vec Ideal S512x1024 .f32) (w : Vec Ideal S1024x1024 .bf16) (b : Vec Ideal S1x1024 .f32) :
    Gen.k1_pay1 (F := Ideal) x w b = lin1 x w b :=
  oneProduct_pay _ (fun x w b => by unfold Gen.k1_pay1; simp only [shapeCast_self]) x w b

theorem k2_pay1_eq (x : Vec Ideal S512x1024 .f32) (w : Vec Ideal S1024x1024 .bf16) (b : Vec Ideal S1x1024 .f32) :
    Gen.k2_pay1 (F := Ideal) x w b = lin1 x w b :=
  oneProduct_pay _ (fun x w b => by unfold Gen.k2_pay1; simp only [shapeCast_self]) x w b

theorem k4_pay1_eq (x : Vec Ideal S512x1024 .f32) (w : Vec Ideal S1024x1024 .bf16) (b : Vec Ideal S1x1024 .f32) :
    Gen.k4_pay1 (F := Ideal) x w b = lin1 x w b :=
  oneProduct_pay _ (fun x w b => by unfold Gen.k4_pay1; simp only [shapeCast_self]) x w b

theorem k5_pay1_eq (x : Vec Ideal S512x1024 .f32) (w : Vec Ideal S1024x1024 .bf16) (b : Vec Ideal S1x1024 .f32) :
    Gen.k5_pay1 (F := Ideal) x w b = lin1 x w b :=
  oneProduct_pay _ (fun x w b => by unfold Gen.k5_pay1; simp only [shapeCast_self]) x w b

theorem k7_pay1_eq (x : Vec Ideal S512x1024 .f32) (w : Vec Ideal S1024x1024 .bf16) (b : Vec Ideal S1x1024 .f32) :
    Gen.k7_pay1 (F := Ideal) x w b = lin1 x w b :=
  oneProduct_pay _ (fun x w b => by unfold Gen.k7_pay1; simp only [shapeCast_self]) x w b

theorem k8_pay1_eq (x : Vec Ideal S512x1024 .f32) (w : Vec Ideal S1024x1024 .bf16) (b : Vec Ideal S1x1024 .f32) :
    Gen.k8_pay1 (F := Ideal) x w b = lin1 x w b :=
  oneProduct_pay _ (fun x w b => by unfold Gen.k8_pay1; simp only [shapeCast_self]) x w b

/-! ## Three products: the query projection -/

/-- The query projection's tile: three products added left to right, then the bias row: `lin3`. -/
theorem k0_pay1_eq (x1 x2 x3 : Vec Ideal S512x1024 .f32) (w1 w2 w3 : Vec Ideal S1024x1024 .bf16) (b : Vec Ideal S1x1024 .f32) :
    Gen.k0_pay1 (F := Ideal) x1 x2 x3 w1 w2 w3 b = lin3 x1 x2 x3 w1 w2 w3 b := by
  unfold Gen.k0_pay1
  simp only [shapeCast_self]
  funext j
  obtain ⟨p, q, rfl⟩ : ∃ (p : Fin 512) (q : Fin 1024), j = ix2 p q := ⟨j 0, j 1, eq_ix2 j⟩
  rw [lin3_apply]
  exact congrArg₂ (· + ·)
    (congrArg₂ (· + ·) (congrArg₂ (· + ·) (tileProduct x1 w1 p q) (tileProduct x2 w2 p q)) (tileProduct x3 w3 p q))
    (biasRow b p q)

/-! ## Two products: the output projections -/

/-- A body that stores (tile · wx + context tile · wc) + bias row stores `lin2` of its five loads. -/
theorem twoProducts_pay
    (f : Vec Ideal S512x1024 .f32 → Vec Ideal S512x1024 .bf16 → Vec Ideal S1024x1024 .bf16 → Vec Ideal S1024x1024 .bf16 →
      Vec Ideal S1x1024 .f32 → FVec Ideal S512x1024 .f32)
    (hf : ∀ x c wx wc b, f x c wx wc b = addf (addf
        (matmul (φ₁ := .bf16) (φ₂ := .bf16) dot_S512x1024_S1024x1024_S512x1024_1_0_0_1_n_n none
          (truncf .bf16 (φ := .f32) x bitsLt_bf16_f32) wx (constant S512x1024 .f32 0x00000000#32))
        (matmul (φ₁ := .bf16) (φ₂ := .bf16) dot_S512x1024_S1024x1024_S512x1024_1_0_0_1_n_n none c wc
          (constant S512x1024 .f32 0x00000000#32)))
        (broadcastTo S512x1024 b broadcasts_S1x1024_S512x1024))
    (x : Vec Ideal S512x1024 .f32) (c : Vec Ideal S512x1024 .bf16) (wx wc : Vec Ideal S1024x1024 .bf16)
    (b : Vec Ideal S1x1024 .f32) :
    f x c wx wc b = lin2 x c wx wc b := by
  rw [hf]
  funext j
  obtain ⟨p, q, rfl⟩ : ∃ (p : Fin 512) (q : Fin 1024), j = ix2 p q := ⟨j 0, j 1, eq_ix2 j⟩
  rw [lin2_apply]
  exact congrArg₂ (· + ·) (congrArg₂ (· + ·) (tileProduct x wx p q) (tileProduct c wc p q)) (biasRow b p q)

theorem k10_pay1_eq (x : Vec Ideal S512x1024 .f32) (c : Vec Ideal S512x1024 .bf16) (wx wc : Vec Ideal S1024x1024 .bf16)
    (b : Vec Ideal S1x1024 .f32) : Gen.k10_pay1 (F := Ideal) x c wx wc b = lin2 x c wx wc b :=
  twoProducts_pay _ (fun x c wx wc b => by unfold Gen.k10_pay1; simp only [shapeCast_self]) x c wx wc b

theorem k11_pay1_eq (x : Vec Ideal S512x1024 .f32) (c : Vec Ideal S512x1024 .bf16) (wx wc : Vec Ideal S1024x1024 .bf16)
    (b : Vec Ideal S1x1024 .f32) : Gen.k11_pay1 (F := Ideal) x c wx wc b = lin2 x c wx wc b :=
  twoProducts_pay _ (fun x c wx wc b => by unfold Gen.k11_pay1; simp only [shapeCast_self]) x c wx wc b

theorem k12_pay1_eq (x : Vec Ideal S512x1024 .f32) (c : Vec Ideal S512x1024 .bf16) (wx wc : Vec Ideal S1024x1024 .bf16)
    (b : Vec Ideal S1x1024 .f32) : Gen.k12_pay1 (F := Ideal) x c wx wc b = lin2 x c wx wc b :=
  twoProducts_pay _ (fun x c wx wc b => by unfold Gen.k12_pay1; simp only [shapeCast_self]) x c wx wc b

end Cert.KernelIdeal.HandVal

end
-- ==== Proof.ValArr0.lean ====
/-
  From the blocks the grid points write back to the whole result array of a projection region.

  Grid point t of a projection region stages rows 512 t … 512 t + 511 of each activation array, the whole weight
  matrices and the bias row, and writes back the same rows of the result. What it writes is the linear map of
  ValSpec applied to the staged blocks (ValPay); a row of the linear map depends only on the same row of the
  activations, so the block written is the corresponding block of rows of the linear map applied to the whole
  arrays. The 16 blocks tile the 8192 rows, so after the run the result array IS that linear map of the entry arrays.
-/
import proofs.«117683_j11484742549629_2_alg».proof.Proof.LinDat0
import proofs.«117683_j11484742549629_2_alg».proof.Proof.ValPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- what the TensorCore's buffers hold when the region starts
variable (V : (c : Dev nD) → (b : Ref sig .tc) → Buf (Elt Ideal) ((c : Thread nD τ).loc b))

/-! ## Region 0 (the query projection) -/

/-- Where region 0's windows sit at grid point t: the three activation tiles and the result tile at row block t, the
    three weights and the bias row at the origin. Decided over the 16 points. -/
theorem where0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- What grid point t writes back is rows 512 t … 512 t + 511 of `lin3` of the seven entry arrays. -/
theorem flushed0_eq (c : Dev nD) (t : Fin cfg0.N) :
    (dat0 V c).flushed 7 t
      = ((cfg0.win 7).blk t).view.read (Elt Ideal)
          (lin3 (R := 8192) (V c main_v6) (V c main_v7) (V c main_v8) (V c main_v1) (V c main_v3) (V c main_v5) (V c main_v9)) := by
  show (cfg0.win 7).cut (grid0.coords t) ((dat0 V c).after 7 t) = _
  rw [after0_7_pay, k0_pay1_eq]
  obtain ⟨a0, a1, b0, b1, c0, c1, d0, d1, f0, f1, g0, g1, h0, h1, o0, o1⟩ := where0 t
  funext j
  show lin3 (iblk0 V c 0 t) (iblk0 V c 1 t) (iblk0 V c 2 t) (iblk0 V c 3 t) (iblk0 V c 4 t) (iblk0 V c 5 t) (iblk0 V c 6 t) j
    = lin3 (R := 8192) (V c main_v6) (V c main_v7) (V c main_v8) (V c main_v1) (V c main_v3) (V c main_v5) (V c main_v9)
        (((cfg0.win 7).blk t).view.emb j)
  refine congrArg₂ (· + ·) (congrArg₂ (· + ·) (congrArg₂ (· + ·)
      (Finset.sum_congr rfl fun k _ => congrArg₂ (· * ·) (congrArg (V c main_v6) ?_) (congrArg (V c main_v1) ?_))
      (Finset.sum_congr rfl fun k _ => congrArg₂ (· * ·) (congrArg (V c main_v7) ?_) (congrArg (V c main_v3) ?_)))
      (Finset.sum_congr rfl fun k _ => congrArg₂ (· * ·) (congrArg (V c main_v8) ?_) (congrArg (V c main_v5) ?_)))
    (congrArg (V c main_v9) ?_)
  · funext a; apply Fin.ext
    match a with
    | ⟨0, _⟩ => show win0_0.index t (0 : Fin 2) * 512 + 1 * (j 0).val = win0_7.index t (0 : Fin 2) * 512 + 1 * (j 0).val; omega
    | ⟨1, _⟩ => show win0_0.index t (1 : Fin 2) * 1024 + 1 * k.val = k.val; omega
  · funext a; apply Fin.ext
    match a with
    | ⟨0, _⟩ => show win0_3.index t (0 : Fin 2) * 1024 + 1 * k.val = k.val; omega
    | ⟨1, _⟩ => show win0_3.index t (1 : Fin 2) * 1024 + 1 * (j 1).val = win0_7.index t (1 : Fin 2) * 1024 + 1 * (j 1).val; omega
  · funext a; apply Fin.ext
    match a with
    | ⟨0, _⟩ => show win0_1.index t (0 : Fin 2) * 512 + 1 * (j 0).val = win0_7.index t (0 : Fin 2) * 512 + 1 * (j 0).val; omega
    | ⟨1, _⟩ => show win0_1.index t (1 : Fin 2) * 1024 + 1 * k.val = k.val; omega
  · funext a; apply Fin.ext
    match a with
    | ⟨0, _⟩ => show win0_4.index t (0 : Fin 2) * 1024 + 1 * k.val = k.val; omega
    | ⟨1, _⟩ => show win0_4.index t (1 : Fin 2) * 1024 + 1 * (j 1).val = win0_7.index t (1 : Fin 2) * 1024 + 1 * (j 1).val; omega
  · funext a; apply Fin.ext
    match a with
    | ⟨0, _⟩ => show win0_2.index t (0 : Fin 2) * 512 + 1 * (j 0).val = win0_7.index t (0 : Fin 2) * 512 + 1 * (j 0).val; omega
    | ⟨1, _⟩ => show win0_2.index t (1 : Fin 2) * 1024 + 1 * k.val = k.val; omega
  · funext a; apply Fin.ext
    match a with
    | ⟨0, _⟩ => show win0_5.index t (0 : Fin 2) * 1024 + 1 * k.val = k.val; omega
    | ⟨1, _⟩ => show win0_5.index t (1 : Fin 2) * 1024 + 1 * (j 1).val = win0_7.index t (1 : Fin 2) * 1024 + 1 * (j 1).val; omega
  · funext a; apply Fin.ext
    match a with
    | ⟨0, _⟩ => show win0_6.index t (0 : Fin 2) * 1 + 1 * 0 = 0; omega
    | ⟨1, _⟩ => show win0_6.index t (1 : Fin 2) * 1024 + 1 * (j 1).val = win0_7.index t (1 : Fin 2) * 1024 + 1 * (j 1).val; omega

/-- An index of the result array lies in point t's block exactly when its coordinates are in the block's ranges. -/
theorem mem_blk0 (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v10).slice (win0_7.rect t)).set ↔ _
  rw [View.set_slice_whole, Rect.mem_set_unit]
  exact Iff.rfl

/-- The 16 blocks of 512 rows tile the 8192 rows: row r lies in the block of point r / 512. -/
theorem cover0 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := (by decide : grid0.N = 16)
  let t : Fin cfg0.N := ⟨(i 0).val / 512, by rw [hN]; omega⟩
  obtain ⟨a0, a1, b0, b1, c0, c1, d0, d1, f0, f1, g0, g1, h0, h1, o0, o1⟩ := where0 t
  have ht : t.val = (i 0).val / 512 := rfl
  refine ⟨t, flush0_7 t, ?_⟩
  rw [mem_blk0]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- THE RESULT ARRAY of region 0 after its run: `lin3` of the three activation arrays, the three weights and the bias
    row as the region finds them. -/
theorem arr0 (c : Dev nD) :
    (dat0 V c).arrAt 7 cfg0.N
      = lin3 (R := 8192) (V c main_v6) (V c main_v7) (V c main_v8) (V c main_v1) (V c main_v3) (V c main_v5) (V c main_v9) :=
  (dat0 V c).arrAt_eq_of_cover 7 _ (fun t _ => flushed0_eq V c t) cover0

end Cert.KernelIdeal.HandVal

end
-- ==== Proof.ValFlat.lean ====
/-
  The projection stages over [4, 2048, 1024] arrays, and the flattened computation that equals them.

  A projection is applied to an array x of shape [4, 2048, 1024] (batch, position, feature) by flattening it to
  [8192, 1024] (row r = 2048 * batch + position, the row-major order), applying the linear map of ValSpec to the
  8192 rows, and reshaping the result back. Entry (b, s, d) of the outcome is

      (∑ k, x[b, s, k] * w[k, d]) + bias[d]

  with more products added for the stages with several inputs. When the weights of a several-input stage are row
  blocks of one taller weight W (rows 0 … 1023 for the first input, 1024 … 2047 for the second, 2048 … 3071 for the
  third), the products are written against W directly: x2's product uses W[1024 + k, d], and so on.
-/
import proofs.«117683_j11484742549629_2_alg».proof.Proof.ValSpec
import Idealize.ShloMosaic.Lib.Pipeline.Value
import Idealize.ShloMosaic.Lib.ValueLayout

noncomputable section

namespace Cert.KernelIdeal.HandVal

open Idealize.ShloMosaic Idealize.ShloMosaic.ValueIdx

/-- A [4, 2048, 1024] array of extended reals. -/
abbrev Arr3 : Type := (⟨3, ![4, 2048, 1024]⟩ : Shape).Idx → EReal

/-- A vector of 1024 extended reals. -/
abbrev Vec1 : Type := (⟨1, ![1024]⟩ : Shape).Idx → EReal

/-- The flattened row of batch b and position s. -/
def flatRow (b : Fin 4) (s : Fin 2048) : Fin 8192 := ⟨b.val * 2048 + s.val, by have := b.isLt; have := s.isLt; omega⟩

/-- (∑ k, x[b, s, k] * w[o + k, d]) for a weight of H rows read from row o on. -/
def dot3 {H : Nat} (x : Arr3) (w : Mat H 1024) (o : Nat) (ho : o + 1024 ≤ H) (b : Fin 4) (s : Fin 2048) (d : Fin 1024) : EReal :=
  ∑ k : Fin 1024, x (ix3 b s k) * w (ix2 ⟨o + k.val, by have := k.isLt; omega⟩ d)

/-- One input: x · W + bias. -/
def proj1 (x : Arr3) (W : Mat 1024 1024) (bias : Vec1) : Arr3 :=
  fun i => dot3 x W 0 (by omega) (i 0) (i 1) (i 2) + bias (ix1 (i 2))

/-- Two inputs against the two row blocks of a [2048, 1024] weight: (x · W[0:1024] + c · W[1024:2048]) + bias. -/
def proj2 (x c : Arr3) (W : Mat 2048 1024) (bias : Vec1) : Arr3 :=
  fun i => (dot3 x W 0 (by omega) (i 0) (i 1) (i 2) + dot3 c W 1024 (by omega) (i 0) (i 1) (i 2)) + bias (ix1 (i 2))

/-- Three inputs against the three row blocks of a [3072, 1024] weight. -/
def proj3 (x1 x2 x3 : Arr3) (W : Mat 3072 1024) (bias : Vec1) : Arr3 :=
  fun i => ((dot3 x1 W 0 (by omega) (i 0) (i 1) (i 2) + dot3 x2 W 1024 (by omega) (i 0) (i 1) (i 2))
      + dot3 x3 W 2048 (by omega) (i 0) (i 1) (i 2)) + bias (ix1 (i 2))

theorem proj1_apply (x : Arr3) (W : Mat 1024 1024) (bias : Vec1) (b : Fin 4) (s : Fin 2048) (d : Fin 1024) :
    proj1 x W bias (ix3 b s d) = dot3 x W 0 (by omega) b s d + bias (ix1 d) := rfl

theorem proj2_apply (x c : Arr3) (W : Mat 2048 1024) (bias : Vec1) (b : Fin 4) (s : Fin 2048) (d : Fin 1024) :
    proj2 x c W bias (ix3 b s d) = (dot3 x W 0 (by omega) b s d + dot3 c W 1024 (by omega) b s d) + bias (ix1 d) := rfl

theorem proj3_apply (x1 x2 x3 : Arr3) (W : Mat 3072 1024) (bias : Vec1) (b : Fin 4) (s : Fin 2048) (d : Fin 1024) :
    proj3 x1 x2 x3 W bias (ix3 b s d)
      = ((dot3 x1 W 0 (by omega) b s d + dot3 x2 W 1024 (by omega) b s d) + dot3 x3 W 2048 (by omega) b s d)
        + bias (ix1 d) := rfl

/-! ## Flattening and its inverse, read at an index -/

/-- The flattened array at (row of (b, s), k) is the array at (b, s, k). -/
theorem flat_apply {α : Type} (x : (⟨3, ![4, 2048, 1024]⟩ : Shape).Idx → α)
    (h : (⟨3, ![4, 2048, 1024]⟩ : Shape).ShapeCasts ⟨2, ![8192, 1024]⟩) (b : Fin 4) (s : Fin 2048) (k : Fin 1024) :
    shapeCast ⟨2, ![8192, 1024]⟩ x h (ix2 (flatRow b s) k) = x (ix3 b s k) :=
  shapeCast_apply x h _ _ (by
    rw [Shape.rowMajor_val_three, Shape.rowMajor_val_two]
    show (b.val * 2048 + s.val) * 1024 + k.val = (b.val * 2048 + s.val) * 1024 + k.val
    rfl)

/-- A [8192, 1024] array reshaped to [4, 2048, 1024], at (b, s, d), is the array at (row of (b, s), d). -/
theorem unflat_apply {α : Type} (y : (⟨2, ![8192, 1024]⟩ : Shape).Idx → α)
    (h : (⟨2, ![8192, 1024]⟩ : Shape).ShapeCasts ⟨3, ![4, 2048, 1024]⟩) (b : Fin 4) (s : Fin 2048) (d : Fin 1024) :
    shapeCast ⟨3, ![4, 2048, 1024]⟩ y h (ix3 b s d) = y (ix2 (flatRow b s) d) :=
  shapeCast_apply y h _ _ (by
    rw [Shape.rowMajor_val_three, Shape.rowMajor_val_two]
    show (b.val * 2048 + s.val) * 1024 + d.val = (b.val * 2048 + s.val) * 1024 + d.val
    rfl)

/-- A product of the flattened array with a weight that is the row block of W from row o, at (row of (b, s), d). -/
theorem rowDot_flat {H : Nat} (x : Arr3) (W : Mat H 1024) (o : Nat) (ho : o + 1024 ≤ H)
    (xf : Mat 8192 1024) (w : Mat 1024 1024)
    (hx : ∀ b s k, xf (ix2 (flatRow b s) k) = x (ix3 b s k))
    (hw : ∀ (k d : Fin 1024), w (ix2 k d) = W (ix2 ⟨o + k.val, by have := k.isLt; omega⟩ d))
    (b : Fin 4) (s : Fin 2048) (d : Fin 1024) :
    rowDot xf w (flatRow b s) d = dot3 x W o ho b s d :=
  Finset.sum_congr rfl fun k _ => by rw [hx, hw]

/-! ## The flattened computation is the projection -/

/-- One input. The kernel-side inputs are variables: the flattened activations `xf`, the weight `w` as the
    kernel holds it, the bias as a [1, 1024] row `b2`; each is tied to the stage's argument by reading it at an
    index. -/
theorem unflat_lin1 (x : Arr3) (W : Mat 1024 1024) (bias : Vec1) (xf : Mat 8192 1024) (w : Mat 1024 1024) (b2 : Mat 1 1024)
    (h : (⟨2, ![8192, 1024]⟩ : Shape).ShapeCasts ⟨3, ![4, 2048, 1024]⟩)
    (hx : ∀ b s k, xf (ix2 (flatRow b s) k) = x (ix3 b s k))
    (hw : ∀ (k d : Fin 1024), w (ix2 k d) = W (ix2 k d))
    (hb : ∀ d : Fin 1024, b2 (ix2 0 d) = bias (ix1 d)) :
    shapeCast ⟨3, ![4, 2048, 1024]⟩ (lin1 xf w b2) h = proj1 x W bias := by
  funext i
  obtain ⟨b, s, d, rfl⟩ : ∃ (b : Fin 4) (s : Fin 2048) (d : Fin 1024), i = ix3 b s d := ⟨i 0, i 1, i 2, eq_ix3 i⟩
  rw [unflat_apply, lin1_apply, proj1_apply, hb]
  refine congrArg (· + bias (ix1 d)) ?_
  exact rowDot_flat x W 0 (by omega) xf w hx (fun k d => (hw k d).trans (congrArg W (congrArg (ix2 · d) (Fin.ext (Nat.zero_add _).symm)))) b s d

/-- Two inputs, the weights the two row blocks of W. -/
theorem unflat_lin2 (x c : Arr3) (W : Mat 2048 1024) (bias : Vec1) (xf cf : Mat 8192 1024) (wx wc : Mat 1024 1024) (b2 : Mat 1 1024)
    (h : (⟨2, ![8192, 1024]⟩ : Shape).ShapeCasts ⟨3, ![4, 2048, 1024]⟩)
    (hx : ∀ b s k, xf (ix2 (flatRow b s) k) = x (ix3 b s k))
    (hc : ∀ b s k, cf (ix2 (flatRow b s) k) = c (ix3 b s k))
    (hwx : ∀ (k d : Fin 1024), wx (ix2 k d) = W (ix2 ⟨0 + k.val, by have := k.isLt; omega⟩ d))
    (hwc : ∀ (k d : Fin 1024), wc (ix2 k d) = W (ix2 ⟨1024 + k.val, by have := k.isLt; omega⟩ d))
    (hb : ∀ d : Fin 1024, b2 (ix2 0 d) = bias (ix1 d)) :
    shapeCast ⟨3, ![4, 2048, 1024]⟩ (lin2 xf cf wx wc b2) h = proj2 x c W bias := by
  funext i
  obtain ⟨b, s, d, rfl⟩ : ∃ (b : Fin 4) (s : Fin 2048) (d : Fin 1024), i = ix3 b s d := ⟨i 0, i 1, i 2, eq_ix3 i⟩
  rw [unflat_apply, lin2_apply, proj2_apply, hb,
    rowDot_flat x W 0 (by omega) xf wx hx hwx b s d, rowDot_flat c W 1024 (by omega) cf wc hc hwc b s d]

/-- Three inputs, the weights the three row blocks of W. -/
theorem unflat_lin3 (x1 x2 x3 : Arr3) (W : Mat 3072 1024) (bias : Vec1) (f1 f2 f3 : Mat 8192 1024) (w1 w2 w3 : Mat 1024 1024)
    (b2 : Mat 1 1024) (h : (⟨2, ![8192, 1024]⟩ : Shape).ShapeCasts ⟨3, ![4, 2048, 1024]⟩)
    (h1 : ∀ b s k, f1 (ix2 (flatRow b s) k) = x1 (ix3 b s k))
    (h2 : ∀ b s k, f2 (ix2 (flatRow b s) k) = x2 (ix3 b s k))
    (h3 : ∀ b s k, f3 (ix2 (flatRow b s) k) = x3 (ix3 b s k))
    (hw1 : ∀ (k d : Fin 1024), w1 (ix2 k d) = W (ix2 ⟨0 + k.val, by have := k.isLt; omega⟩ d))
    (hw2 : ∀ (k d : Fin 1024), w2 (ix2 k d) = W (ix2 ⟨1024 + k.val, by have := k.isLt; omega⟩ d))
    (hw3 : ∀ (k d : Fin 1024), w3 (ix2 k d) = W (ix2 ⟨2048 + k.val, by have := k.isLt; omega⟩ d))
    (hb : ∀ d : Fin 1024, b2 (ix2 0 d) = bias (ix1 d)) :
    shapeCast ⟨3, ![4, 2048, 1024]⟩ (lin3 f1 f2 f3 w1 w2 w3 b2) h = proj3 x1 x2 x3 W bias := by
  funext i
  obtain ⟨b, s, d, rfl⟩ : ∃ (b : Fin 4) (s : Fin 2048) (d : Fin 1024), i = ix3 b s d := ⟨i 0, i 1, i 2, eq_ix3 i⟩
  rw [unflat_apply, lin3_apply, proj3_apply, hb,
    rowDot_flat x1 W 0 (by omega) f1 w1 h1 hw1 b s d, rowDot_flat x2 W 1024 (by omega) f2 w2 h2 hw2 b s d,
    rowDot_flat x3 W 2048 (by omega) f3 w3 h3 hw3 b s d]

/-! ## Real entries in, real entries out -/

theorem dot3_real {H : Nat} {x : Arr3} {W : Mat H 1024} (hx : AllReal x) (hW : AllReal W) (o : Nat) (ho : o + 1024 ≤ H)
    (b : Fin 4) (s : Fin 2048) (d : Fin 1024) : ∃ r : ℝ, dot3 x W o ho b s d = (r : EReal) :=
  sum_real _ _ fun k _ => mul_real (hx _) (hW _)

theorem proj1_real {x : Arr3} {W : Mat 1024 1024} {bias : Vec1} (hx : AllReal x) (hW : AllReal W) (hb : AllReal bias) :
    AllReal (proj1 x W bias) :=
  fun i => add_real (dot3_real hx hW _ _ _ _ _) (hb _)

theorem proj2_real {x c : Arr3} {W : Mat 2048 1024} {bias : Vec1} (hx : AllReal x) (hc : AllReal c) (hW : AllReal W)
    (hb : AllReal bias) : AllReal (proj2 x c W bias) :=
  fun i => add_real (add_real (dot3_real hx hW _ _ _ _ _) (dot3_real hc hW _ _ _ _ _)) (hb _)

theorem proj3_real {x1 x2 x3 : Arr3} {W : Mat 3072 1024} {bias : Vec1} (h1 : AllReal x1) (h2 : AllReal x2) (h3 : AllReal x3)
    (hW : AllReal W) (hb : AllReal bias) : AllReal (proj3 x1 x2 x3 W bias) :=
  fun i => add_real (add_real (add_real (dot3_real h1 hW _ _ _ _ _) (dot3_real h2 hW _ _ _ _ _)) (dot3_real h3 hW _ _ _ _ _)) (hb _)

end Cert.KernelIdeal.HandVal

end
-- ==== Proof.ValCat.lean ====
/-
  Arrays joined along their last axis, and a sum over the joined axis cut at the joints.

  Joining [A, B, n] arrays along the last axis gives an [A, B, n + n] (or [A, B, n + n + n]) array whose entry
  (a, b, l) is the entry (a, b, l − offset) of the piece whose lanes hold l. A sum over all lanes of the joined array
  is therefore the sum of one sum per piece; no property of the summands is needed, only associativity.
-/
import Idealize.ShloMosaic.Lib.Pipeline.Value
import Idealize.ShloMosaic.Lib.ValueIdx

namespace Cert.KernelIdeal.HandVal

open Idealize.ShloMosaic Idealize.ShloMosaic.ValueIdx

/-- A sum over n + n positions is the sum over the first n plus the sum over the last n. -/
theorem sum_split2 {M : Type} [AddCommMonoid M] (n : Nat) (f : Fin (n + n) → M) :
    ∑ k, f k = (∑ k : Fin n, f (Fin.castAdd n k)) + ∑ k : Fin n, f (Fin.natAdd n k) :=
  Fin.sum_univ_add f

/-- A sum over n + n + n positions is the three sums over the consecutive runs of n positions, added left to right. -/
theorem sum_split3 {M : Type} [AddCommMonoid M] (n : Nat) (f : Fin (n + n + n) → M) :
    ∑ k, f k = ((∑ k : Fin n, f (Fin.castAdd n (Fin.castAdd n k))) + ∑ k : Fin n, f (Fin.castAdd n (Fin.natAdd n k)))
      + ∑ k : Fin n, f (Fin.natAdd (n + n) k) := by
  rw [Fin.sum_univ_add, Fin.sum_univ_add]

section
variable {α : Type} {A B n w : Nat}

/-- Of two [A, B, n] arrays joined along the last axis, lane l < n of the result is lane l of the first. -/
theorem join2_first (x y : (⟨3, ![A, B, n]⟩ : Shape).Idx → α)
    (h : Shape.Concatenates [(⟨3, ![A, B, n]⟩ : Shape), ⟨3, ![A, B, n]⟩] ⟨3, ![A, B, w]⟩ 2)
    (a : Fin A) (b : Fin B) (l : Fin w) (k : Fin n) (hk : l.val = k.val) :
    concatenate ⟨3, ![A, B, w]⟩ 2 [⟨⟨3, ![A, B, n]⟩, x⟩, ⟨⟨3, ![A, B, n]⟩, y⟩] h (ix3 a b l) = x (ix3 a b k) :=
  concatenate_pair_apply_left (2 : Fin 3) x y h (ix3 a b l) rfl (ix3 a b k) fun bb => by
    match bb with
    | ⟨0, _⟩ => rfl
    | ⟨1, _⟩ => rfl
    | ⟨2, _⟩ => exact hk.symm

/-- … and lane n + k of the result is lane k of the second. -/
theorem join2_second (x y : (⟨3, ![A, B, n]⟩ : Shape).Idx → α)
    (h : Shape.Concatenates [(⟨3, ![A, B, n]⟩ : Shape), ⟨3, ![A, B, n]⟩] ⟨3, ![A, B, w]⟩ 2)
    (a : Fin A) (b : Fin B) (l : Fin w) (k : Fin n) (hk : l.val = n + k.val) :
    concatenate ⟨3, ![A, B, w]⟩ 2 [⟨⟨3, ![A, B, n]⟩, x⟩, ⟨⟨3, ![A, B, n]⟩, y⟩] h (ix3 a b l) = y (ix3 a b k) :=
  concatenate_pair_apply_right (2 : Fin 3) x y h (ix3 a b l) rfl rfl (ix3 a b k) (fun bb hbb => by
    match bb with
    | ⟨0, _⟩ => rfl
    | ⟨1, _⟩ => rfl
    | ⟨2, _⟩ => exact absurd rfl hbb) (by show k.val + n = l.val; omega)

/-- Of three [A, B, n] arrays joined along the last axis, lane (pre + k) of the result is lane k of piece number
    `pc`, where `pre` is n times the number of pieces before it. -/
theorem join3_piece (x0 x1 x2 : (⟨3, ![A, B, n]⟩ : Shape).Idx → α)
    (h : Shape.Concatenates ([(⟨⟨3, ![A, B, n]⟩, x0⟩ : (s : Shape) × (s.Idx → α)), ⟨⟨3, ![A, B, n]⟩, x1⟩, ⟨⟨3, ![A, B, n]⟩, x2⟩].map (·.1))
      ⟨3, ![A, B, w]⟩ 2)
    (a : Fin A) (b : Fin B) (l : Fin w) (k : Fin n) (pc : Fin 3) (hk : l.val = pc.val * n + k.val) :
    concatenate ⟨3, ![A, B, w]⟩ 2 [⟨⟨3, ![A, B, n]⟩, x0⟩, ⟨⟨3, ![A, B, n]⟩, x1⟩, ⟨⟨3, ![A, B, n]⟩, x2⟩] h (ix3 a b l)
      = (match pc with | 0 => x0 | 1 => x1 | 2 => x2) (ix3 a b k) := by
  have hoff : ∀ bb : Fin (⟨3, ![A, B, n]⟩ : Shape).rank,
      bb.cast (rfl : (⟨3, ![A, B, n]⟩ : Shape).rank = (⟨3, ![A, B, w]⟩ : Shape).rank) ≠ (2 : Fin 3) →
        ((ix3 a b k : (⟨3, ![A, B, n]⟩ : Shape).Idx) bb).val = ((ix3 a b l : (⟨3, ![A, B, w]⟩ : Shape).Idx) (bb.cast rfl)).val := by
    intro bb hbb
    match bb with
    | ⟨0, _⟩ => rfl
    | ⟨1, _⟩ => rfl
    | ⟨2, _⟩ => exact absurd rfl hbb
  match pc with
  | 0 =>
    exact concatenate_apply_piece (2 : Fin 3) _ h (ix3 a b l) 0 (by simp) ⟨3, ![A, B, n]⟩ x0 rfl rfl 0 rfl
      (ix3 a b k) hoff (by show 0 + k.val = l.val; simp at hk; omega)
  | 1 =>
    exact concatenate_apply_piece (2 : Fin 3) _ h (ix3 a b l) 1 (by simp) ⟨3, ![A, B, n]⟩ x1 rfl rfl n (by simp)
      (ix3 a b k) hoff (by show n + k.val = l.val; simp at hk; omega)
  | 2 =>
    exact concatenate_apply_piece (2 : Fin 3) _ h (ix3 a b l) 2 (by simp) ⟨3, ![A, B, n]⟩ x2 rfl rfl (n + n) (by simp)
      (ix3 a b k) hoff (by show n + n + k.val = l.val; have : l.val = 2 * n + k.val := hk; omega)

end

end Cert.KernelIdeal.HandVal
-- ==== Proof.ValBridge.lean ====
/-
  Each linear stage of the two programs is the same projection.

  Kernel side: a stage flattens its [4, 2048, 1024] inputs to [8192, 1024], cuts the taller weights into their
  1024-row blocks, turns the bias into a [1, 1024] row, runs the linear map of ValSpec over the 8192 rows and
  reshapes the result back. By ValFlat this is `proj1`, `proj2` or `proj3`.

  Reference side: a stage joins its inputs along the feature axis, contracts the joined axis with the tall weight
  and adds the broadcast bias. A sum over the joined axis is the sum of one sum per input (no finiteness is
  needed: only the order of the additions matters, and it is the kernel's), and lane o + k of the joined array is
  lane k of the input that starts at lane o. So this too is `proj1`, `proj2` or `proj3`.

  The last stage (the two interleaved outputs followed by the third) is the same text in both programs; it is
  carried as one function `refTail` and never opened.
-/
import proofs.«117683_j11484742549629_2_alg».proof.Proof.Gen.KernelIdeal
import proofs.«117683_j11484742549629_2_alg».proof.Proof.ReadRI
import proofs.«117683_j11484742549629_2_alg».proof.Proof.ValFlat
import proofs.«117683_j11484742549629_2_alg».proof.Proof.ValCat
import Idealize.ShloMosaic.Lib.ValueLayout

noncomputable section

namespace Cert.KernelIdeal.HandVal

open Cert.KernelIdeal Cert.KernelIdeal.Gen Idealize.ShloMosaic Idealize.ShloMosaic.ValueIdx

/-! ## The reference's stages, over abstract arrays -/

/-- A key or value stage of the reference: x · W + bias. Every such stage is this one function. -/
abbrev refLin (x : Arr3) (W : Mat 1024 1024) (bias : Vec1) : Arr3 := Cert.ReferenceIdeal.Read.val_main_v10 (F := Ideal) x W bias

theorem v14_eq (x : Arr3) (W : Mat 1024 1024) (bias : Vec1) : Cert.ReferenceIdeal.Read.val_main_v14 (F := Ideal) x W bias = refLin x W bias := rfl
theorem v33_eq (x : Arr3) (W : Mat 1024 1024) (bias : Vec1) : Cert.ReferenceIdeal.Read.val_main_v33 (F := Ideal) x W bias = refLin x W bias := rfl
theorem v37_eq (x : Arr3) (W : Mat 1024 1024) (bias : Vec1) : Cert.ReferenceIdeal.Read.val_main_v37 (F := Ideal) x W bias = refLin x W bias := rfl
theorem v56_eq (x : Arr3) (W : Mat 1024 1024) (bias : Vec1) : Cert.ReferenceIdeal.Read.val_main_v56 (F := Ideal) x W bias = refLin x W bias := rfl
theorem v60_eq (x : Arr3) (W : Mat 1024 1024) (bias : Vec1) : Cert.ReferenceIdeal.Read.val_main_v60 (F := Ideal) x W bias = refLin x W bias := rfl

/-- The query stage of the reference: the three inputs joined, times Wq, plus bias. -/
abbrev refQ (x1 x2 x3 : Arr3) (Wq : Mat 3072 1024) (bias : Vec1) : Arr3 := Cert.ReferenceIdeal.Read.val_main_v6 (F := Ideal) x1 x2 x3 Wq bias

/-- An output stage of the reference over an abstract context array: [x, ctx] joined, times Wo, plus bias. -/
def refOut (x ctx : Arr3) (Wo : Mat 2048 1024) (bias : Vec1) : Arr3 :=
  addf (F := Ideal) (φ := .f32)
    (Host.dotGeneral (F := Ideal) (φ₁ := .f32) (φ₂ := .f32) Cert.ReferenceIdeal.dot_S4x2048x2048_S2048x1024_S4x2048x1024_2_0_01_1_n_n none
      (concatenate Cert.ReferenceIdeal.S4x2048x2048 2 [⟨Cert.ReferenceIdeal.S4x2048x1024, x⟩, ⟨Cert.ReferenceIdeal.S4x2048x1024, ctx⟩]
        Cert.ReferenceIdeal.Gen.concatenates_S4x2048x1024_S4x2048x1024_S4x2048x2048_d2) Wo)
    (broadcastInDim Cert.ReferenceIdeal.S4x2048x1024 ![0, 1, 2] Cert.ReferenceIdeal.Gen.bcast_S1x1x1024_S4x2048x1024_0_1_2
      (broadcastInDim Cert.ReferenceIdeal.S1x1x1024 ![2] Cert.ReferenceIdeal.Gen.bcast_S1024_S1x1x1024_2 bias))

theorem v80_eq (x0 x1 x2 : Arr3) (x3 : Mat 3072 1024) (x4 : Vec1) (x5 : Mat 1024 1024) (x6 : Vec1) (x7 : Mat 1024 1024) (x8 : Vec1)
    (x17 : Mat 2048 1024) (x18 : Vec1) :
    Cert.ReferenceIdeal.Read.val_main_v80 (F := Ideal) x0 x1 x2 x3 x4 x5 x6 x7 x8 x17 x18
      = refOut x0 (Cert.ReferenceIdeal.Read.val_main_v29 (F := Ideal) x0 x1 x2 x3 x4 x5 x6 x7 x8) x17 x18 := rfl

theorem v85_eq (x0 x1 x2 : Arr3) (x3 : Mat 3072 1024) (x4 : Vec1) (x9 : Mat 1024 1024) (x10 : Vec1) (x11 : Mat 1024 1024) (x12 : Vec1)
    (x19 : Mat 2048 1024) (x20 : Vec1) :
    Cert.ReferenceIdeal.Read.val_main_v85 (F := Ideal) x0 x1 x2 x3 x4 x9 x10 x11 x12 x19 x20
      = refOut x1 (Cert.ReferenceIdeal.Read.val_main_v52 (F := Ideal) x0 x1 x2 x3 x4 x9 x10 x11 x12) x19 x20 := rfl

theorem v90_eq (x0 x1 x2 : Arr3) (x3 : Mat 3072 1024) (x4 : Vec1) (x13 : Mat 1024 1024) (x14 : Vec1) (x15 : Mat 1024 1024) (x16 : Vec1)
    (x21 : Mat 2048 1024) (x22 : Vec1) :
    Cert.ReferenceIdeal.Read.val_main_v90 (F := Ideal) x0 x1 x2 x3 x4 x13 x14 x15 x16 x21 x22
      = refOut x2 (Cert.ReferenceIdeal.Read.val_main_v75 (F := Ideal) x0 x1 x2 x3 x4 x13 x14 x15 x16) x21 x22 := rfl

/-- The last stage: the first two outputs interleaved along the positions, followed by the third. -/
def refTail (o1 o2 o3 : Arr3) : (⟨Cert.ReferenceIdeal.S4x6144x1024, .f32⟩ : BufTy).Contents (Elt Ideal) :=
  concatenate Cert.ReferenceIdeal.S4x6144x1024 1
    [⟨Cert.ReferenceIdeal.S4x4096x1024, shapeCast _ (concatenate Cert.ReferenceIdeal.S4x2048x2x1024 2
        [⟨Cert.ReferenceIdeal.S4x2048x1x1024, broadcastInDim Cert.ReferenceIdeal.S4x2048x1x1024 ![0, 1, 3] Cert.ReferenceIdeal.Gen.bcast_S4x2048x1024_S4x2048x1x1024_0_1_3 o1⟩,
         ⟨Cert.ReferenceIdeal.S4x2048x1x1024, broadcastInDim Cert.ReferenceIdeal.S4x2048x1x1024 ![0, 1, 3] Cert.ReferenceIdeal.Gen.bcast_S4x2048x1024_S4x2048x1x1024_0_1_3 o2⟩]
        Cert.ReferenceIdeal.Gen.concatenates_S4x2048x1x1024_S4x2048x1x1024_S4x2048x2x1024_d2)
      Cert.ReferenceIdeal.Gen.shapeCasts_S4x2048x2x1024_S4x4096x1024⟩,
     ⟨Cert.ReferenceIdeal.S4x2048x1024, o3⟩]
    Cert.ReferenceIdeal.Gen.concatenates_S4x4096x1024_S4x2048x1024_S4x6144x1024_d1

/-- The reference's last stage is `refTail` of its three output stages. -/
theorem v95_eq (x0 x1 x2 : Arr3) (x3 : Mat 3072 1024) (x4 : Vec1) (x5 : Mat 1024 1024) (x6 : Vec1) (x7 : Mat 1024 1024) (x8 : Vec1)
    (x9 : Mat 1024 1024) (x10 : Vec1) (x11 : Mat 1024 1024) (x12 : Vec1) (x13 : Mat 1024 1024) (x14 : Vec1) (x15 : Mat 1024 1024)
    (x16 : Vec1) (x17 : Mat 2048 1024) (x18 : Vec1) (x19 : Mat 2048 1024) (x20 : Vec1) (x21 : Mat 2048 1024) (x22 : Vec1) :
    Cert.ReferenceIdeal.Read.val_main_v95 (F := Ideal) x0 x1 x2 x3 x4 x5 x6 x7 x8 x9 x10 x11 x12 x13 x14 x15 x16 x17 x18 x19 x20 x21 x22
      = refTail (Cert.ReferenceIdeal.Read.val_main_v80 (F := Ideal) x0 x1 x2 x3 x4 x5 x6 x7 x8 x17 x18)
          (Cert.ReferenceIdeal.Read.val_main_v85 (F := Ideal) x0 x1 x2 x3 x4 x9 x10 x11 x12 x19 x20)
          (Cert.ReferenceIdeal.Read.val_main_v90 (F := Ideal) x0 x1 x2 x3 x4 x13 x14 x15 x16 x21 x22) := rfl

/-- The kernel program's last host stretch applies the same operations. -/
theorem tail_kernel_eq (o1 o2 o3 : Arr3) :
    concatenate S4x6144x1024 1
      [⟨S4x4096x1024, shapeCast _ (concatenate S4x2048x2x1024 2
          [⟨S4x2048x1x1024, broadcastInDim S4x2048x1x1024 ![0, 1, 3] bcast_S4x2048x1024_S4x2048x1x1024_0_1_3 o1⟩,
           ⟨S4x2048x1x1024, broadcastInDim S4x2048x1x1024 ![0, 1, 3] bcast_S4x2048x1024_S4x2048x1x1024_0_1_3 o2⟩]
          concatenates_S4x2048x1x1024_S4x2048x1x1024_S4x2048x2x1024_d2)
        shapeCasts_S4x2048x2x1024_S4x4096x1024⟩,
       ⟨S4x2048x1024, o3⟩]
      concatenates_S4x4096x1024_S4x2048x1024_S4x6144x1024_d1
      = refTail o1 o2 o3 := rfl

/-! ## Reading the reference's stages -/

/-- The two-step broadcast of a bias vector to [4, 2048, 1024] reads the bias at the feature coordinate. -/
theorem biasBroadcast_apply (bias : Vec1) (b : Fin 4) (s : Fin 2048) (d : Fin 1024) :
    broadcastInDim Cert.ReferenceIdeal.S4x2048x1024 ![0, 1, 2] Cert.ReferenceIdeal.Gen.bcast_S1x1x1024_S4x2048x1024_0_1_2
      (broadcastInDim Cert.ReferenceIdeal.S1x1x1024 ![2] Cert.ReferenceIdeal.Gen.bcast_S1024_S1x1x1024_2 bias) (ix3 b s d) = bias (ix1 d) := by
  refine (broadcastInDim_apply _ Cert.ReferenceIdeal.Gen.bcast_S1x1x1024_S4x2048x1024_0_1_2 _ (ix3 b s d) (ix3 (0 : Fin 1) (0 : Fin 1) d) fun a => ?_).trans
    (broadcastInDim_apply _ Cert.ReferenceIdeal.Gen.bcast_S1024_S1x1x1024_2 bias (ix3 (0 : Fin 1) (0 : Fin 1) d) (ix1 d) fun a => ?_)
  · match a with
    | ⟨0, _⟩ => show 0 = if (1 : Nat) = 1 then 0 else b.val; rw [if_pos rfl]
    | ⟨1, _⟩ => show 0 = if (1 : Nat) = 1 then 0 else s.val; rw [if_pos rfl]
    | ⟨2, _⟩ => show d.val = if (1024 : Nat) = 1 then 0 else d.val; rw [if_neg (by decide)]
  · match a with
    | ⟨0, _⟩ => show d.val = if (1024 : Nat) = 1 then 0 else d.val; rw [if_neg (by decide)]

/-- A key or value stage of the reference is `proj1`. -/
theorem refLin_proj (x : Arr3) (W : Mat 1024 1024) (bias : Vec1) : refLin x W bias = proj1 x W bias := by
  funext i
  obtain ⟨b, s, d, rfl⟩ : ∃ (b : Fin 4) (s : Fin 2048) (d : Fin 1024), i = ix3 b s d := ⟨i 0, i 1, i 2, eq_ix3 i⟩
  show Cert.ReferenceIdeal.Read.val_main_v7 (F := Ideal) x W (ix3 b s d) + _ = _
  rw [Cert.ReferenceIdeal.Read.val_main_v7_apply, proj1_apply]
  refine congrArg₂ (· + ·) (Finset.sum_congr rfl fun k _ => congrArg₂ (· * ·) (congrArg x ?_) (congrArg W ?_))
    (biasBroadcast_apply bias b s d)
  · funext a; apply Fin.ext
    match a with
    | ⟨0, _⟩ => rfl
    | ⟨1, _⟩ => rfl
    | ⟨2, _⟩ => rfl
  · funext a; apply Fin.ext
    match a with
    | ⟨0, _⟩ => exact (Nat.zero_add _).symm
    | ⟨1, _⟩ => rfl

/-- Lane l of the three inputs joined along the features, at batch b and position s: for l in the k-th position of
    input number pc (l = 1024 pc + k), it is that input at (b, s, k). -/
theorem joined3_apply (x1 x2 x3 : Arr3) (b : Fin 4) (s : Fin 2048) (l : Fin 3072) (k : Fin 1024) (pc : Fin 3)
    (hk : l.val = pc.val * 1024 + k.val) :
    Cert.ReferenceIdeal.Read.val_main_v2 (F := Ideal) x1 x2 x3 (ix3 b s l) = (match pc with | 0 => x1 | 1 => x2 | 2 => x3) (ix3 b s k) := by
  unfold Cert.ReferenceIdeal.Read.val_main_v2
  exact join3_piece (A := 4) (B := 2048) (n := 1024) (w := 3072) x1 x2 x3 _ b s l k pc hk

/-- The query stage of the reference is `proj3`: the sum over the 3072 joined features is cut at 1024 and 2048. -/
theorem refQ_proj (x1 x2 x3 : Arr3) (Wq : Mat 3072 1024) (bias : Vec1) : refQ x1 x2 x3 Wq bias = proj3 x1 x2 x3 Wq bias := by
  funext i
  obtain ⟨b, s, d, rfl⟩ : ∃ (b : Fin 4) (s : Fin 2048) (d : Fin 1024), i = ix3 b s d := ⟨i 0, i 1, i 2, eq_ix3 i⟩
  show Cert.ReferenceIdeal.Read.val_main_v3 (F := Ideal) x1 x2 x3 Wq (ix3 b s d) + _ = _
  rw [Cert.ReferenceIdeal.Read.val_main_v3_apply, proj3_apply]
  refine congrArg₂ (· + ·) ?_ (biasBroadcast_apply bias b s d)
  refine (sum_split3 1024 (fun k : Fin 3072 => Cert.ReferenceIdeal.Read.val_main_v2 (F := Ideal) x1 x2 x3 (Cert.ReferenceIdeal.Read.lidx_main_v3 (ix3 b s d) k)
      * Wq (Cert.ReferenceIdeal.Read.ridx_main_v3 (ix3 b s d) k))).trans ?_
  have hl : ∀ l : Fin 3072, Cert.ReferenceIdeal.Read.lidx_main_v3 (ix3 b s d) l = ix3 b s l := fun l => by
    funext a; apply Fin.ext
    match a with
    | ⟨0, _⟩ => rfl
    | ⟨1, _⟩ => rfl
    | ⟨2, _⟩ => rfl
  have hr : ∀ (l : Fin 3072) (o : Nat) (k : Fin 1024) (ho : o + 1024 ≤ 3072), l.val = o + k.val →
      Cert.ReferenceIdeal.Read.ridx_main_v3 (ix3 b s d) l = ix2 ⟨o + k.val, by have := k.isLt; omega⟩ d := fun l o k ho h => by
    funext a; apply Fin.ext
    match a with
    | ⟨0, _⟩ => exact h
    | ⟨1, _⟩ => rfl
  refine congrArg₂ (· + ·) (congrArg₂ (· + ·) (Finset.sum_congr rfl fun k _ => ?_) (Finset.sum_congr rfl fun k _ => ?_))
    (Finset.sum_congr rfl fun k _ => ?_)
  · show Cert.ReferenceIdeal.Read.val_main_v2 (F := Ideal) x1 x2 x3 (Cert.ReferenceIdeal.Read.lidx_main_v3 (ix3 b s d) _) * Wq (Cert.ReferenceIdeal.Read.ridx_main_v3 (ix3 b s d) _) = _
    rw [hl, joined3_apply x1 x2 x3 b s _ k 0 (by show k.val = 0 * 1024 + k.val; omega),
      hr _ 0 k (by omega) (by show k.val = 0 + k.val; omega)]
  · show Cert.ReferenceIdeal.Read.val_main_v2 (F := Ideal) x1 x2 x3 (Cert.ReferenceIdeal.Read.lidx_main_v3 (ix3 b s d) _) * Wq (Cert.ReferenceIdeal.Read.ridx_main_v3 (ix3 b s d) _) = _
    rw [hl, joined3_apply x1 x2 x3 b s _ k 1 (by show 1024 + k.val = 1 * 1024 + k.val; omega),
      hr _ 1024 k (by omega) (by show 1024 + k.val = 1024 + k.val; rfl)]
  · show Cert.ReferenceIdeal.Read.val_main_v2 (F := Ideal) x1 x2 x3 (Cert.ReferenceIdeal.Read.lidx_main_v3 (ix3 b s d) _) * Wq (Cert.ReferenceIdeal.Read.ridx_main_v3 (ix3 b s d) _) = _
    rw [hl, joined3_apply x1 x2 x3 b s _ k 2 (by show 1024 + 1024 + k.val = 2 * 1024 + k.val; omega),
      hr _ 2048 k (by omega) (by show 1024 + 1024 + k.val = 2048 + k.val; omega)]

/-- The output stages' contraction of a [4, 2048, 2048] array with a [2048, 1024] weight, read at an index: the sum
    over the 2048 joined features k, of the left operand at (b, s, k) times the weight at (k, d). -/
theorem outDot_apply (y : (⟨Cert.ReferenceIdeal.S4x2048x2048, .f32⟩ : BufTy).Contents (Elt Ideal)) (Wo : Mat 2048 1024) (i : Cert.ReferenceIdeal.S4x2048x1024.Idx) :
    Host.dotGeneral (F := Ideal) (φ₁ := .f32) (φ₂ := .f32) Cert.ReferenceIdeal.dot_S4x2048x2048_S2048x1024_S4x2048x1024_2_0_01_1_n_n none y Wo i
      = ∑ k : Fin 2048, y (Cert.ReferenceIdeal.Read.lidx_main_v77 i k) * Wo (Cert.ReferenceIdeal.Read.ridx_main_v77 i k) := by
  simp only [Host.dotGeneral]
  rw [Ideal.dotGeneral_apply,
    ← Equiv.sum_comp (contrEquiv1 Cert.ReferenceIdeal.dot_S4x2048x2048_S2048x1024_S4x2048x1024_2_0_01_1_n_n 2048 rfl rfl).symm]
  refine Finset.sum_congr rfl fun k _ => ?_
  have hk := contrEquiv1_symm_val Cert.ReferenceIdeal.dot_S4x2048x2048_S2048x1024_S4x2048x1024_2_0_01_1_n_n 2048 rfl rfl k
  refine congrArg₂ (· * ·) (congrArg y (funext fun a => Fin.ext ?_)) (congrArg Wo (funext fun a => Fin.ext ?_))
  · match a with
    | ⟨0, _⟩ => exact Cert.ReferenceIdeal.Read.lhs_main_v77_0 _ _
    | ⟨1, _⟩ => exact Cert.ReferenceIdeal.Read.lhs_main_v77_1 _ _
    | ⟨2, _⟩ => exact (Cert.ReferenceIdeal.Read.lhs_main_v77_2 _ _).trans hk
  · match a with
    | ⟨0, _⟩ => exact (Cert.ReferenceIdeal.Read.rhs_main_v77_0 _ _).trans hk
    | ⟨1, _⟩ => exact Cert.ReferenceIdeal.Read.rhs_main_v77_1 _ _

/-- An output stage of the reference is `proj2`: the sum over the 2048 joined features is cut at 1024. -/
theorem refOut_proj (x ctx : Arr3) (Wo : Mat 2048 1024) (bias : Vec1) : refOut x ctx Wo bias = proj2 x ctx Wo bias := by
  funext i
  obtain ⟨b, s, d, rfl⟩ : ∃ (b : Fin 4) (s : Fin 2048) (d : Fin 1024), i = ix3 b s d := ⟨i 0, i 1, i 2, eq_ix3 i⟩
  unfold refOut
  rw [addf_apply, outDot_apply, proj2_apply]
  refine congrArg₂ (· + ·) ?_ (biasBroadcast_apply bias b s d)
  refine (sum_split2 1024 (fun k : Fin 2048 =>
      concatenate Cert.ReferenceIdeal.S4x2048x2048 2 [⟨Cert.ReferenceIdeal.S4x2048x1024, x⟩, ⟨Cert.ReferenceIdeal.S4x2048x1024, ctx⟩]
        Cert.ReferenceIdeal.Gen.concatenates_S4x2048x1024_S4x2048x1024_S4x2048x2048_d2 (Cert.ReferenceIdeal.Read.lidx_main_v77 (ix3 b s d) k)
      * Wo (Cert.ReferenceIdeal.Read.ridx_main_v77 (ix3 b s d) k))).trans ?_
  have hl : ∀ l : Fin 2048, Cert.ReferenceIdeal.Read.lidx_main_v77 (ix3 b s d) l = ix3 b s l := fun l => by
    funext a; apply Fin.ext
    match a with
    | ⟨0, _⟩ => rfl
    | ⟨1, _⟩ => rfl
    | ⟨2, _⟩ => rfl
  have hr : ∀ (l : Fin 2048) (o : Nat) (k : Fin 1024) (ho : o + 1024 ≤ 2048), l.val = o + k.val →
      Cert.ReferenceIdeal.Read.ridx_main_v77 (ix3 b s d) l = ix2 ⟨o + k.val, by have := k.isLt; omega⟩ d := fun l o k ho h => by
    funext a; apply Fin.ext
    match a with
    | ⟨0, _⟩ => exact h
    | ⟨1, _⟩ => rfl
  refine congrArg₂ (· + ·) (Finset.sum_congr rfl fun k _ => ?_) (Finset.sum_congr rfl fun k _ => ?_)
  · show concatenate _ _ _ _ (Cert.ReferenceIdeal.Read.lidx_main_v77 (ix3 b s d) _) * Wo (Cert.ReferenceIdeal.Read.ridx_main_v77 (ix3 b s d) _) = _
    rw [hl, join2_first (A := 4) (B := 2048) (n := 1024) (w := 2048) x ctx _ b s _ k (by show k.val = k.val; rfl),
      hr _ 0 k (by omega) (by show k.val = 0 + k.val; omega)]
  · show concatenate _ _ _ _ (Cert.ReferenceIdeal.Read.lidx_main_v77 (ix3 b s d) _) * Wo (Cert.ReferenceIdeal.Read.ridx_main_v77 (ix3 b s d) _) = _
    rw [hl, join2_second (A := 4) (B := 2048) (n := 1024) (w := 2048) x ctx _ b s _ k (by show 1024 + k.val = 1024 + k.val; rfl),
      hr _ 1024 k (by omega) (by show 1024 + k.val = 1024 + k.val; rfl)]

/-! ## The bridges: the kernel program's stage, host operations included, is the reference's stage -/

/-- A key or value projection: flatten the activations, convert the weight to bf16, make the bias a row, run the
    region, reshape back. -/
theorem kv_bridge (x : Arr3) (W : Mat 1024 1024) (bias : Vec1) :
    shapeCast S4x2048x1024 (lin1 (R := 8192) (shapeCast S8192x1024 x shapeCasts_S4x2048x1024_S8192x1024)
        (truncf (F := Ideal) .bf16 (φ := .f32) W bitsLt_bf16_f32) (shapeCast S1x1024 bias shapeCasts_S1024_S1x1024))
      shapeCasts_S8192x1024_S4x2048x1024 = refLin x W bias :=
  (unflat_lin1 x W bias _ _ _ _ (fun b s k => flat_apply x _ b s k) (fun _ _ => rfl)
    (fun d => shapeCast_a_1a_apply bias _ 0 d)).trans (refLin_proj x W bias).symm

/-- The same with the region's three entry arrays as variables. -/
theorem kv_bridge_of (x : Arr3) (W : Mat 1024 1024) (bias : Vec1) (xf : Mat 8192 1024) (w : Mat 1024 1024) (b2 : Mat 1 1024)
    (hx : xf = shapeCast S8192x1024 x shapeCasts_S4x2048x1024_S8192x1024)
    (hw : w = truncf (F := Ideal) .bf16 (φ := .f32) W bitsLt_bf16_f32) (hb : b2 = shapeCast S1x1024 bias shapeCasts_S1024_S1x1024) :
    shapeCast S4x2048x1024 (lin1 xf w b2) shapeCasts_S8192x1024_S4x2048x1024 = refLin x W bias := by
  subst hx hw hb; exact kv_bridge x W bias

/-- The query projection: the three weights are the three 1024-row blocks of Wq. -/
theorem q_bridge (x1 x2 x3 : Arr3) (Wq : Mat 3072 1024) (bias : Vec1) :
    shapeCast S4x2048x1024 (lin3 (R := 8192)
        (shapeCast S8192x1024 x1 shapeCasts_S4x2048x1024_S8192x1024) (shapeCast S8192x1024 x2 shapeCasts_S4x2048x1024_S8192x1024)
        (shapeCast S8192x1024 x3 shapeCasts_S4x2048x1024_S8192x1024)
        (truncf (F := Ideal) .bf16 (φ := .f32) (extractStridedSlice S1024x1024 ![0, 0] Wq slices_S3072x1024_S1024x1024_0_0) bitsLt_bf16_f32)
        (truncf (F := Ideal) .bf16 (φ := .f32) (extractStridedSlice S1024x1024 ![1024, 0] Wq slices_S3072x1024_S1024x1024_1024_0) bitsLt_bf16_f32)
        (truncf (F := Ideal) .bf16 (φ := .f32) (extractStridedSlice S1024x1024 ![2048, 0] Wq slices_S3072x1024_S1024x1024_2048_0) bitsLt_bf16_f32)
        (shapeCast S1x1024 bias shapeCasts_S1024_S1x1024))
      shapeCasts_S8192x1024_S4x2048x1024 = refQ x1 x2 x3 Wq bias :=
  (unflat_lin3 x1 x2 x3 Wq bias _ _ _ _ _ _ _ _ (fun b s k => flat_apply x1 _ b s k) (fun b s k => flat_apply x2 _ b s k)
    (fun b s k => flat_apply x3 _ b s k)
    (fun k d => slice2_axis0_eq 0 Wq slices_S3072x1024_S1024x1024_0_0 k d)
    (fun k d => slice2_axis0_eq 1024 Wq slices_S3072x1024_S1024x1024_1024_0 k d)
    (fun k d => slice2_axis0_eq 2048 Wq slices_S3072x1024_S1024x1024_2048_0 k d)
    (fun d => shapeCast_a_1a_apply bias _ 0 d)).trans (refQ_proj x1 x2 x3 Wq bias).symm

theorem q_bridge_of (x1 x2 x3 : Arr3) (Wq : Mat 3072 1024) (bias : Vec1) (f1 f2 f3 : Mat 8192 1024) (w1 w2 w3 : Mat 1024 1024)
    (b2 : Mat 1 1024)
    (h1 : f1 = shapeCast S8192x1024 x1 shapeCasts_S4x2048x1024_S8192x1024)
    (h2 : f2 = shapeCast S8192x1024 x2 shapeCasts_S4x2048x1024_S8192x1024)
    (h3 : f3 = shapeCast S8192x1024 x3 shapeCasts_S4x2048x1024_S8192x1024)
    (hw1 : w1 = truncf (F := Ideal) .bf16 (φ := .f32) (extractStridedSlice S1024x1024 ![0, 0] Wq slices_S3072x1024_S1024x1024_0_0) bitsLt_bf16_f32)
    (hw2 : w2 = truncf (F := Ideal) .bf16 (φ := .f32) (extractStridedSlice S1024x1024 ![1024, 0] Wq slices_S3072x1024_S1024x1024_1024_0) bitsLt_bf16_f32)
    (hw3 : w3 = truncf (F := Ideal) .bf16 (φ := .f32) (extractStridedSlice S1024x1024 ![2048, 0] Wq slices_S3072x1024_S1024x1024_2048_0) bitsLt_bf16_f32)
    (hb : b2 = shapeCast S1x1024 bias shapeCasts_S1024_S1x1024) :
    shapeCast S4x2048x1024 (lin3 f1 f2 f3 w1 w2 w3 b2) shapeCasts_S8192x1024_S4x2048x1024 = refQ x1 x2 x3 Wq bias := by
  subst h1 h2 h3 hw1 hw2 hw3 hb; exact q_bridge x1 x2 x3 Wq bias

/-- An output projection: the two weights are the two 1024-row blocks of Wo; the context array comes from the
    attention stage. -/
theorem out_bridge (x ctx : Arr3) (Wo : Mat 2048 1024) (bias : Vec1) :
    shapeCast S4x2048x1024 (lin2 (R := 8192)
        (shapeCast S8192x1024 x shapeCasts_S4x2048x1024_S8192x1024) (shapeCast S8192x1024 ctx shapeCasts_S4x2048x1024_S8192x1024)
        (truncf (F := Ideal) .bf16 (φ := .f32) (extractStridedSlice S1024x1024 ![0, 0] Wo slices_S2048x1024_S1024x1024_0_0) bitsLt_bf16_f32)
        (truncf (F := Ideal) .bf16 (φ := .f32) (extractStridedSlice S1024x1024 ![1024, 0] Wo slices_S2048x1024_S1024x1024_1024_0) bitsLt_bf16_f32)
        (shapeCast S1x1024 bias shapeCasts_S1024_S1x1024))
      shapeCasts_S8192x1024_S4x2048x1024 = refOut x ctx Wo bias :=
  (unflat_lin2 x ctx Wo bias _ _ _ _ _ _ (fun b s k => flat_apply x _ b s k) (fun b s k => flat_apply ctx _ b s k)
    (fun k d => slice2_axis0_eq 0 Wo slices_S2048x1024_S1024x1024_0_0 k d)
    (fun k d => slice2_axis0_eq 1024 Wo slices_S2048x1024_S1024x1024_1024_0 k d)
    (fun d => shapeCast_a_1a_apply bias _ 0 d)).trans (refOut_proj x ctx Wo bias).symm

theorem out_bridge_of (x ctx : Arr3) (Wo : Mat 2048 1024) (bias : Vec1) (xf cf : Mat 8192 1024) (wx wc : Mat 1024 1024) (b2 : Mat 1 1024)
    (hx : xf = shapeCast S8192x1024 x shapeCasts_S4x2048x1024_S8192x1024)
    (hc : cf = shapeCast S8192x1024 ctx shapeCasts_S4x2048x1024_S8192x1024)
    (hwx : wx = truncf (F := Ideal) .bf16 (φ := .f32) (extractStridedSlice S1024x1024 ![0, 0] Wo slices_S2048x1024_S1024x1024_0_0) bitsLt_bf16_f32)
    (hwc : wc = truncf (F := Ideal) .bf16 (φ := .f32) (extractStridedSlice S1024x1024 ![1024, 0] Wo slices_S2048x1024_S1024x1024_1024_0) bitsLt_bf16_f32)
    (hb : b2 = shapeCast S1x1024 bias shapeCasts_S1024_S1x1024) :
    shapeCast S4x2048x1024 (lin2 xf cf wx wc b2) shapeCasts_S8192x1024_S4x2048x1024 = refOut x ctx Wo bias := by
  subst hx hc hwx hwc hb; exact out_bridge x ctx Wo bias

/-! ## Real entries in, real entries out, for the stages -/

theorem refLin_real {x : Arr3} {W : Mat 1024 1024} {bias : Vec1} (hx : AllReal x) (hW : AllReal W) (hb : AllReal bias) :
    AllReal (refLin x W bias) := by
  rw [refLin_proj]; exact proj1_real hx hW hb

theorem refQ_real {x1 x2 x3 : Arr3} {Wq : Mat 3072 1024} {bias : Vec1} (h1 : AllReal x1) (h2 : AllReal x2) (h3 : AllReal x3)
    (hW : AllReal Wq) (hb : AllReal bias) : AllReal (refQ x1 x2 x3 Wq bias) := by
  rw [refQ_proj]; exact proj3_real h1 h2 h3 hW hb

theorem refOut_real {x ctx : Arr3} {Wo : Mat 2048 1024} {bias : Vec1} (hx : AllReal x) (hc : AllReal ctx) (hW : AllReal Wo)
    (hb : AllReal bias) : AllReal (refOut x ctx Wo bias) := by
  rw [refOut_proj]; exact proj2_real hx hc hW hb

end Cert.KernelIdeal.HandVal

end
-- ==== Proof.CompQ.lean ====
/-
  The kernel program's stages are the reference's stages: the argument arrays, and the query projection.

  The run of the kernel program is a chain of contents U1, …, U27 of the unscoped buffers: a stretch of host operations
  rewrites the buffers it writes, a region replaces its one output array. An argument array is written by no item, so it
  is the launch memory's array at every point of the chain. The query stage: the first host stretch flattens the three
  inputs, cuts the query weight into its three blocks of 1024 rows and converts them, and makes the bias a row; region 0
  computes the three-product linear map over the 8192 rows; the next stretch reshapes the result back. That is the
  reference's query projection of the same arrays.
-/
import proofs.«117683_j11484742549629_2_alg».proof.Proof.RunVals
import proofs.«117683_j11484742549629_2_alg».proof.Proof.HostRead
import proofs.«117683_j11484742549629_2_alg».proof.Proof.PreReal
import proofs.«117683_j11484742549629_2_alg».proof.Proof.ValArr0
import proofs.«117683_j11484742549629_2_alg».proof.Proof.ValBridge

set_option maxRecDepth 4096
-- the 27-fold conjunction of list non-memberships is decided through one instance per conjunct
set_option synthInstance.maxSize 4096
set_option synthInstance.maxHeartbeats 400000

noncomputable section

namespace Cert.KernelIdeal.HandComp

open Idealize.ShloMosaic Idealize.ShloMosaic.TcCoe Idealize.SL.Sem
open Cert.KernelIdeal Cert.KernelIdeal.Gen Cert.KernelIdeal.Hand Cert.KernelIdeal.HandVal

variable (m : (ℓ : Loc nD τ sig) → Buf (Elt Ideal) ℓ) (c : Dev nD)

/-! ## The argument arrays, at the types the value lemmas speak of -/
abbrev A0 : Arr3 := m ((c.tc : Thread nD τ).loc main_arg0)
abbrev A1 : Arr3 := m ((c.tc : Thread nD τ).loc main_arg1)
abbrev A2 : Arr3 := m ((c.tc : Thread nD τ).loc main_arg2)
abbrev A3 : Mat 3072 1024 := m ((c.tc : Thread nD τ).loc main_arg3)
abbrev A4 : Vec1 := m ((c.tc : Thread nD τ).loc main_arg4)
abbrev A5 : Mat 1024 1024 := m ((c.tc : Thread nD τ).loc main_arg5)
abbrev A6 : Vec1 := m ((c.tc : Thread nD τ).loc main_arg6)
abbrev A7 : Mat 1024 1024 := m ((c.tc : Thread nD τ).loc main_arg7)
abbrev A8 : Vec1 := m ((c.tc : Thread nD τ).loc main_arg8)
abbrev A9 : Mat 1024 1024 := m ((c.tc : Thread nD τ).loc main_arg9)
abbrev A10 : Vec1 := m ((c.tc : Thread nD τ).loc main_arg10)
abbrev A11 : Mat 1024 1024 := m ((c.tc : Thread nD τ).loc main_arg11)
abbrev A12 : Vec1 := m ((c.tc : Thread nD τ).loc main_arg12)
abbrev A13 : Mat 1024 1024 := m ((c.tc : Thread nD τ).loc main_arg13)
abbrev A14 : Vec1 := m ((c.tc : Thread nD τ).loc main_arg14)
abbrev A15 : Mat 1024 1024 := m ((c.tc : Thread nD τ).loc main_arg15)
abbrev A16 : Vec1 := m ((c.tc : Thread nD τ).loc main_arg16)
abbrev A17 : Mat 2048 1024 := m ((c.tc : Thread nD τ).loc main_arg17)
abbrev A18 : Vec1 := m ((c.tc : Thread nD τ).loc main_arg18)
abbrev A19 : Mat 2048 1024 := m ((c.tc : Thread nD τ).loc main_arg19)
abbrev A20 : Vec1 := m ((c.tc : Thread nD τ).loc main_arg20)
abbrev A21 : Mat 2048 1024 := m ((c.tc : Thread nD τ).loc main_arg21)
abbrev A22 : Vec1 := m ((c.tc : Thread nD τ).loc main_arg22)

/-! ## A buffer no item writes keeps the launch contents along the whole chain -/

/-- The reference is written by none of the 27 items (14 host stretches, 13 regions). -/
abbrev Fixed (r : Ref sig .tc) : Prop :=
  r ∉ hostOps0_W ∧
  r ∉ ([main_v10] : List (Ref sig .tc)) ∧
  r ∉ hostOps1_W ∧
  r ∉ ([main_v15] : List (Ref sig .tc)) ∧
  r ∉ hostOps2_W ∧
  r ∉ ([main_v20] : List (Ref sig .tc)) ∧
  r ∉ hostOps3_W ∧
  r ∉ ([main_v22] : List (Ref sig .tc)) ∧
  r ∉ hostOps4_W ∧
  r ∉ ([main_v26] : List (Ref sig .tc)) ∧
  r ∉ hostOps5_W ∧
  r ∉ ([main_v31] : List (Ref sig .tc)) ∧
  r ∉ hostOps6_W ∧
  r ∉ ([main_v33] : List (Ref sig .tc)) ∧
  r ∉ hostOps7_W ∧
  r ∉ ([main_v37] : List (Ref sig .tc)) ∧
  r ∉ hostOps8_W ∧
  r ∉ ([main_v42] : List (Ref sig .tc)) ∧
  r ∉ hostOps9_W ∧
  r ∉ ([main_v44] : List (Ref sig .tc)) ∧
  r ∉ hostOps10_W ∧
  r ∉ ([main_v60] : List (Ref sig .tc)) ∧
  r ∉ hostOps11_W ∧
  r ∉ ([main_v65] : List (Ref sig .tc)) ∧
  r ∉ hostOps12_W ∧
  r ∉ ([main_v70] : List (Ref sig .tc)) ∧
  r ∉ hostOps13_W

variable {r : Ref sig .tc}
theorem fixed1 (h : Fixed r) : U1 m c r = V0 m c r := U1_of m c r h.1
theorem fixed2 (h : Fixed r) : U2 m c r = V0 m c r := (U2_of m c r h.2.1).trans (fixed1 m c h)
theorem fixed3 (h : Fixed r) : U3 m c r = V0 m c r := (U3_of m c r h.2.2.1).trans (fixed2 m c h)
theorem fixed4 (h : Fixed r) : U4 m c r = V0 m c r := (U4_of m c r h.2.2.2.1).trans (fixed3 m c h)
theorem fixed5 (h : Fixed r) : U5 m c r = V0 m c r := (U5_of m c r h.2.2.2.2.1).trans (fixed4 m c h)
theorem fixed6 (h : Fixed r) : U6 m c r = V0 m c r := (U6_of m c r h.2.2.2.2.2.1).trans (fixed5 m c h)
theorem fixed7 (h : Fixed r) : U7 m c r = V0 m c r := (U7_of m c r h.2.2.2.2.2.2.1).trans (fixed6 m c h)
theorem fixed8 (h : Fixed r) : U8 m c r = V0 m c r := (U8_of m c r h.2.2.2.2.2.2.2.1).trans (fixed7 m c h)
theorem fixed9 (h : Fixed r) : U9 m c r = V0 m c r := (U9_of m c r h.2.2.2.2.2.2.2.2.1).trans (fixed8 m c h)
theorem fixed10 (h : Fixed r) : U10 m c r = V0 m c r := (U10_of m c r h.2.2.2.2.2.2.2.2.2.1).trans (fixed9 m c h)
theorem fixed11 (h : Fixed r) : U11 m c r = V0 m c r := (U11_of m c r h.2.2.2.2.2.2.2.2.2.2.1).trans (fixed10 m c h)
theorem fixed12 (h : Fixed r) : U12 m c r = V0 m c r := (U12_of m c r h.2.2.2.2.2.2.2.2.2.2.2.1).trans (fixed11 m c h)
theorem fixed13 (h : Fixed r) : U13 m c r = V0 m c r := (U13_of m c r h.2.2.2.2.2.2.2.2.2.2.2.2.1).trans (fixed12 m c h)
theorem fixed14 (h : Fixed r) : U14 m c r = V0 m c r := (U14_of m c r h.2.2.2.2.2.2.2.2.2.2.2.2.2.1).trans (fixed13 m c h)
theorem fixed15 (h : Fixed r) : U15 m c r = V0 m c r := (U15_of m c r h.2.2.2.2.2.2.2.2.2.2.2.2.2.2.1).trans (fixed14 m c h)
theorem fixed16 (h : Fixed r) : U16 m c r = V0 m c r := (U16_of m c r h.2.2.2.2.2.2.2.2.2.2.2.2.2.2.2.1).trans (fixed15 m c h)
theorem fixed17 (h : Fixed r) : U17 m c r = V0 m c r := (U17_of m c r h.2.2.2.2.2.2.2.2.2.2.2.2.2.2.2.2.1).trans (fixed16 m c h)
theorem fixed18 (h : Fixed r) : U18 m c r = V0 m c r := (U18_of m c r h.2.2.2.2.2.2.2.2.2.2.2.2.2.2.2.2.2.1).trans (fixed17 m c h)
theorem fixed19 (h : Fixed r) : U19 m c r = V0 m c r := (U19_of m c r h.2.2.2.2.2.2.2.2.2.2.2.2.2.2.2.2.2.2.1).trans (fixed18 m c h)
theorem fixed20 (h : Fixed r) : U20 m c r = V0 m c r := (U20_of m c r h.2.2.2.2.2.2.2.2.2.2.2.2.2.2.2.2.2.2.2.1).trans (fixed19 m c h)
theorem fixed21 (h : Fixed r) : U21 m c r = V0 m c r := (U21_of m c r h.2.2.2.2.2.2.2.2.2.2.2.2.2.2.2.2.2.2.2.2.1).trans (fixed20 m c h)
theorem fixed22 (h : Fixed r) : U22 m c r = V0 m c r := (U22_of m c r h.2.2.2.2.2.2.2.2.2.2.2.2.2.2.2.2.2.2.2.2.2.1).trans (fixed21 m c h)
theorem fixed23 (h : Fixed r) : U23 m c r = V0 m c r := (U23_of m c r h.2.2.2.2.2.2.2.2.2.2.2.2.2.2.2.2.2.2.2.2.2.2.1).trans (fixed22 m c h)
theorem fixed24 (h : Fixed r) : U24 m c r = V0 m c r := (U24_of m c r h.2.2.2.2.2.2.2.2.2.2.2.2.2.2.2.2.2.2.2.2.2.2.2.1).trans (fixed23 m c h)
theorem fixed25 (h : Fixed r) : U25 m c r = V0 m c r := (U25_of m c r h.2.2.2.2.2.2.2.2.2.2.2.2.2.2.2.2.2.2.2.2.2.2.2.2.1).trans (fixed24 m c h)
theorem fixed26 (h : Fixed r) : U26 m c r = V0 m c r := (U26_of m c r h.2.2.2.2.2.2.2.2.2.2.2.2.2.2.2.2.2.2.2.2.2.2.2.2.2.1).trans (fixed25 m c h)

/-! ## The arguments where the host stretches read them -/
theorem arg2_5 : U2 m c main_arg5 = A5 m c := fixed2 m c (r := main_arg5) (by decide)
theorem arg2_0 : U2 m c main_arg0 = A0 m c := fixed2 m c (r := main_arg0) (by decide)
theorem arg2_6 : U2 m c main_arg6 = A6 m c := fixed2 m c (r := main_arg6) (by decide)
theorem arg4_7 : U4 m c main_arg7 = A7 m c := fixed4 m c (r := main_arg7) (by decide)
theorem arg4_0 : U4 m c main_arg0 = A0 m c := fixed4 m c (r := main_arg0) (by decide)
theorem arg4_8 : U4 m c main_arg8 = A8 m c := fixed4 m c (r := main_arg8) (by decide)
theorem arg8_9 : U8 m c main_arg9 = A9 m c := fixed8 m c (r := main_arg9) (by decide)
theorem arg8_1 : U8 m c main_arg1 = A1 m c := fixed8 m c (r := main_arg1) (by decide)
theorem arg8_10 : U8 m c main_arg10 = A10 m c := fixed8 m c (r := main_arg10) (by decide)
theorem arg10_11 : U10 m c main_arg11 = A11 m c := fixed10 m c (r := main_arg11) (by decide)
theorem arg10_1 : U10 m c main_arg1 = A1 m c := fixed10 m c (r := main_arg1) (by decide)
theorem arg10_12 : U10 m c main_arg12 = A12 m c := fixed10 m c (r := main_arg12) (by decide)
theorem arg14_13 : U14 m c main_arg13 = A13 m c := fixed14 m c (r := main_arg13) (by decide)
theorem arg14_2 : U14 m c main_arg2 = A2 m c := fixed14 m c (r := main_arg2) (by decide)
theorem arg14_14 : U14 m c main_arg14 = A14 m c := fixed14 m c (r := main_arg14) (by decide)
theorem arg16_15 : U16 m c main_arg15 = A15 m c := fixed16 m c (r := main_arg15) (by decide)
theorem arg16_2 : U16 m c main_arg2 = A2 m c := fixed16 m c (r := main_arg2) (by decide)
theorem arg16_16 : U16 m c main_arg16 = A16 m c := fixed16 m c (r := main_arg16) (by decide)
theorem arg20_17 : U20 m c main_arg17 = A17 m c := fixed20 m c (r := main_arg17) (by decide)
theorem arg20_19 : U20 m c main_arg19 = A19 m c := fixed20 m c (r := main_arg19) (by decide)
theorem arg20_21 : U20 m c main_arg21 = A21 m c := fixed20 m c (r := main_arg21) (by decide)
theorem arg20_0 : U20 m c main_arg0 = A0 m c := fixed20 m c (r := main_arg0) (by decide)
theorem arg20_18 : U20 m c main_arg18 = A18 m c := fixed20 m c (r := main_arg18) (by decide)
theorem arg22_1 : U22 m c main_arg1 = A1 m c := fixed22 m c (r := main_arg1) (by decide)
theorem arg22_20 : U22 m c main_arg20 = A20 m c := fixed22 m c (r := main_arg20) (by decide)
theorem arg24_2 : U24 m c main_arg2 = A2 m c := fixed24 m c (r := main_arg2) (by decide)
theorem arg24_22 : U24 m c main_arg22 = A22 m c := fixed24 m c (r := main_arg22) (by decide)

/-! ## The query stage -/

/-- The queries, as the second host stretch leaves them, are the reference's query projection of the arguments. -/
theorem stage_q : (U3 m c main_v11 : Arr3) = Cert.ReferenceIdeal.Read.val_main_v6 (F := Ideal) (A0 m c) (A1 m c) (A2 m c) (A3 m c) (A4 m c) := by
  have hr := read_v11 (U2 m c)
  have hu : U2 m c main_v10 = outArr0 (U1 m) c :=
    Function.update_self (Proc.devRef .tc main_v10 : DevRef τ sig) (outArr0 (U1 m) c) (U1 m c)
  have ha : outArr0 (U1 m) c = _ := arr0 (atTc (U1 m)) c
  refine hr.trans ?_
  rw [hu, ha]
  exact q_bridge_of (A0 m c) (A1 m c) (A2 m c) (A3 m c) (A4 m c) _ _ _ _ _ _ _
    (read_v6 (V0 m c)) (read_v7 (V0 m c)) (read_v8 (V0 m c)) (read_v1 (V0 m c)) (read_v3 (V0 m c)) (read_v5 (V0 m c))
    (read_v9 (V0 m c))

/-- The queries are real when the arguments are. -/
theorem q_real (hpre : Cert.Pre_KernelIdeal (hPre_finite_inputs := Cert.Pre_finite_inputs.Gen.facts) m) :
    AllReal (Cert.ReferenceIdeal.Read.val_main_v6 (F := Ideal) (A0 m c) (A1 m c) (A2 m c) (A3 m c) (A4 m c)) := by
  obtain ⟨h0, h1, h2, h3, h4, -⟩ := Cert.KernelIdeal.HandPre.args_real m hpre c
  exact refQ_real h0 h1 h2 h3 h4

end Cert.KernelIdeal.HandComp
-- ==== Proof.ValArr1.lean ====
/-
  From the blocks the grid points write back to the whole result array of a projection region.

  Grid point t of a projection region stages rows 512 t … 512 t + 511 of each activation array, the whole weight
  matrices and the bias row, and writes back the same rows of the result. What it writes is the linear map of
  ValSpec applied to the staged blocks (ValPay); a row of the linear map depends only on the same row of the
  activations, so the block written is the corresponding block of rows of the linear map applied to the whole
  arrays. The 16 blocks tile the 8192 rows, so after the run the result array IS that linear map of the entry arrays.
-/
import proofs.«117683_j11484742549629_2_alg».proof.Proof.LinDat1
import proofs.«117683_j11484742549629_2_alg».proof.Proof.ValPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- what the TensorCore's buffers hold when the region starts
variable (V : (c : Dev nD) → (b : Ref sig .tc) → Buf (Elt Ideal) ((c : Thread nD τ).loc b))

/-! ## Region 1 (a key or value projection) -/

/-- Where region 1's windows sit at grid point t: the activation and result tiles at row block t, the weight and the
    bias row at the origin. Decided over the 16 points. -/
theorem where1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is rows 512 t … 512 t + 511 of `lin1` of the three entry arrays. -/
theorem flushed1_eq (c : Dev nD) (t : Fin cfg1.N) :
    (dat1 V c).flushed 3 t
      = ((cfg1.win 3).blk t).view.read (Elt Ideal) (lin1 (R := 8192) (V c main_v13) (V c main_v12) (V c main_v14)) := by
  show (cfg1.win 3).cut (grid1.coords t) ((dat1 V c).after 3 t) = _
  rw [after1_3_pay, k1_pay1_eq]
  obtain ⟨e0, e1, e2, e3, e4, e5, e6, e7⟩ := where1 t
  funext j
  show lin1 (iblk1 V c 0 t) (iblk1 V c 1 t) (iblk1 V c 2 t) j
    = lin1 (R := 8192) (V c main_v13) (V c main_v12) (V c main_v14) (((cfg1.win 3).blk t).view.emb j)
  refine congrArg₂ (· + ·) (Finset.sum_congr rfl fun k _ => congrArg₂ (· * ·) (congrArg (V c main_v13) ?_) (congrArg (V c main_v12) ?_))
    (congrArg (V c main_v14) ?_)
  · funext a; apply Fin.ext
    match a with
    | ⟨0, _⟩ => show win1_0.index t (0 : Fin 2) * 512 + 1 * (j 0).val = win1_3.index t (0 : Fin 2) * 512 + 1 * (j 0).val; omega
    | ⟨1, _⟩ => show win1_0.index t (1 : Fin 2) * 1024 + 1 * k.val = k.val; omega
  · funext a; apply Fin.ext
    match a with
    | ⟨0, _⟩ => show win1_1.index t (0 : Fin 2) * 1024 + 1 * k.val = k.val; omega
    | ⟨1, _⟩ => show win1_1.index t (1 : Fin 2) * 1024 + 1 * (j 1).val = win1_3.index t (1 : Fin 2) * 1024 + 1 * (j 1).val; omega
  · funext a; apply Fin.ext
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega

/-- An index of the result array lies in point t's block exactly when its coordinates are in the block's ranges. -/
theorem mem_blk1 (t : Fin cfg1.N) (i : S8192x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v15).slice (win1_3.rect t)).set ↔ _
  rw [View.set_slice_whole, Rect.mem_set_unit]
  exact Iff.rfl

/-- The 16 blocks of 512 rows tile the 8192 rows: row r lies in the block of point r / 512. -/
theorem cover1 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 16 := (by decide : grid1.N = 16)
  let t : Fin cfg1.N := ⟨(i 0).val / 512, by rw [hN]; omega⟩
  obtain ⟨e0, e1, e2, e3, e4, e5, e6, e7⟩ := where1 t
  have ht : t.val = (i 0).val / 512 := rfl
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- THE RESULT ARRAY of region 1 after its run: `lin1` of the activation array, the weight and the bias row as the
    region finds them. -/
theorem arr1 (c : Dev nD) :
    (dat1 V c).arrAt 3 cfg1.N = lin1 (R := 8192) (V c main_v13) (V c main_v12) (V c main_v14) :=
  (dat1 V c).arrAt_eq_of_cover 3 _ (fun t _ => flushed1_eq V c t) cover1

end Cert.KernelIdeal.HandVal

end
-- ==== Proof.ValArr2.lean ====
/-
  From the blocks the grid points write back to the whole result array of a projection region.

  Grid point t of a projection region stages rows 512 t … 512 t + 511 of each activation array, the whole weight
  matrices and the bias row, and writes back the same rows of the result. What it writes is the linear map of
  ValSpec applied to the staged blocks (ValPay); a row of the linear map depends only on the same row of the
  activations, so the block written is the corresponding block of rows of the linear map applied to the whole
  arrays. The 16 blocks tile the 8192 rows, so after the run the result array IS that linear map of the entry arrays.
-/
import proofs.«117683_j11484742549629_2_alg».proof.Proof.LinDat2
import proofs.«117683_j11484742549629_2_alg».proof.Proof.ValPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- what the TensorCore's buffers hold when the region starts
variable (V : (c : Dev nD) → (b : Ref sig .tc) → Buf (Elt Ideal) ((c : Thread nD τ).loc b))

/-! ## Region 2 (a key or value projection) -/

/-- Where region 2's windows sit at grid point t: the activation and result tiles at row block t, the weight and the
    bias row at the origin. Decided over the 16 points. -/
theorem where2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point t writes back is rows 512 t … 512 t + 511 of `lin1` of the three entry arrays. -/
theorem flushed2_eq (c : Dev nD) (t : Fin cfg2.N) :
    (dat2 V c).flushed 3 t
      = ((cfg2.win 3).blk t).view.read (Elt Ideal) (lin1 (R := 8192) (V c main_v18) (V c main_v17) (V c main_v19)) := by
  show (cfg2.win 3).cut (grid2.coords t) ((dat2 V c).after 3 t) = _
  rw [after2_3_pay, k2_pay1_eq]
  obtain ⟨e0, e1, e2, e3, e4, e5, e6, e7⟩ := where2 t
  funext j
  show lin1 (iblk2 V c 0 t) (iblk2 V c 1 t) (iblk2 V c 2 t) j
    = lin1 (R := 8192) (V c main_v18) (V c main_v17) (V c main_v19) (((cfg2.win 3).blk t).view.emb j)
  refine congrArg₂ (· + ·) (Finset.sum_congr rfl fun k _ => congrArg₂ (· * ·) (congrArg (V c main_v18) ?_) (congrArg (V c main_v17) ?_))
    (congrArg (V c main_v19) ?_)
  · funext a; apply Fin.ext
    match a with
    | ⟨0, _⟩ => show win2_0.index t (0 : Fin 2) * 512 + 1 * (j 0).val = win2_3.index t (0 : Fin 2) * 512 + 1 * (j 0).val; omega
    | ⟨1, _⟩ => show win2_0.index t (1 : Fin 2) * 1024 + 1 * k.val = k.val; omega
  · funext a; apply Fin.ext
    match a with
    | ⟨0, _⟩ => show win2_1.index t (0 : Fin 2) * 1024 + 1 * k.val = k.val; omega
    | ⟨1, _⟩ => show win2_1.index t (1 : Fin 2) * 1024 + 1 * (j 1).val = win2_3.index t (1 : Fin 2) * 1024 + 1 * (j 1).val; omega
  · funext a; apply Fin.ext
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega

/-- An index of the result array lies in point t's block exactly when its coordinates are in the block's ranges. -/
theorem mem_blk2 (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v20).slice (win2_3.rect t)).set ↔ _
  rw [View.set_slice_whole, Rect.mem_set_unit]
  exact Iff.rfl

/-- The 16 blocks of 512 rows tile the 8192 rows: row r lies in the block of point r / 512. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 16 := (by decide : grid2.N = 16)
  let t : Fin cfg2.N := ⟨(i 0).val / 512, by rw [hN]; omega⟩
  obtain ⟨e0, e1, e2, e3, e4, e5, e6, e7⟩ := where2 t
  have ht : t.val = (i 0).val / 512 := rfl
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE RESULT ARRAY of region 2 after its run: `lin1` of the activation array, the weight and the bias row as the
    region finds them. -/
theorem arr2 (c : Dev nD) :
    (dat2 V c).arrAt 3 cfg2.N = lin1 (R := 8192) (V c main_v18) (V c main_v17) (V c main_v19) :=
  (dat2 V c).arrAt_eq_of_cover 3 _ (fun t _ => flushed2_eq V c t) cover2

end Cert.KernelIdeal.HandVal

end
-- ==== Proof.SmConst.lean ====
import Mathlib
import Idealize.ShloMosaic.PureOps.Ideal.Laws

/-!
# The float constants of the attention stage, as extended reals

The two programs scale the scores differently: one multiplies the query tile once by the bf16 constant
`1/32`, the other multiplies every score by `1 / √1024` computed from the f32 constants `1024` and `1`.
Read exactly these are the same real number, because `√1024 = 32`.  The other constants are the seed of
the running maximum (a large negative but finite f32 value), the f32 `-∞` that seeds a row maximum, and
the f32 zero that seeds the running sums.
-/

noncomputable section

namespace Cert.KernelIdeal.HandSm

open Idealize.ShloMosaic

/-- The f32 pattern of `1024.0` denotes the real `1024`. -/
theorem f32_1024 : Ideal.ofBits .f32 0x44800000#32 = ((1024 : ℝ) : EReal) := by
  simp [Ideal.ofBits, Ideal.ieee, -EReal.coe_mul]; norm_num

/-- The f32 pattern of `1.0` denotes `1`. -/
theorem f32_one : Ideal.ofBits .f32 0x3F800000#32 = ((1 : ℝ) : EReal) := by
  simp [Ideal.ofBits, Ideal.ieee, -EReal.coe_mul]; norm_num

/-- The bf16 pattern `0x3D00` denotes the real `1/32`. -/
theorem bf16_inv32 : Ideal.ofBits .bf16 0x3D00#16 = ((1 / 32 : ℝ) : EReal) := by
  simp [Ideal.ofBits, Ideal.ieee, -EReal.coe_mul]; norm_num

/-- The f32 pattern `0xFF800000` denotes `-∞`. -/
theorem f32_neg_inf : Ideal.ofBits .f32 0xFF800000#32 = ⊥ := by
  simp [Ideal.ofBits, Ideal.ieee]

/-- The seed of the running maximum, the f32 pattern `0xFF333332` (about `-2.38e38`), is a real number. -/
theorem f32_seed_real : ∃ r : ℝ, Ideal.ofBits .f32 0xFF333332#32 = (r : EReal) := by
  simp only [Ideal.ofBits, Ideal.ieee]
  simp [-EReal.coe_mul]
  exact ⟨_, (EReal.coe_neg _).symm⟩

/-- `√1024 = 32`. -/
theorem sqrt_1024 : Ideal.sqrt ((1024 : ℝ) : EReal) = ((32 : ℝ) : EReal) := by
  rw [Ideal.sqrt_coe, if_neg (by norm_num), show (1024 : ℝ) = 32 ^ 2 by norm_num,
    Real.sqrt_sq (by norm_num)]

/-- The reference's scale `1.0 / √1024.0` is the real `1/32` … -/
theorem ref_scale_eq : Ideal.div (Ideal.ofBits .f32 0x3F800000#32) (Ideal.sqrt (Ideal.ofBits .f32 0x44800000#32))
    = ((1 / 32 : ℝ) : EReal) := by
  rw [f32_1024, f32_one, sqrt_1024, Ideal.div_coe (by norm_num), ← EReal.coe_mul, one_mul]

/-- … which is the kernel's bf16 constant. -/
theorem ref_scale_eq_bf16 :
    Ideal.div (Ideal.ofBits .f32 0x3F800000#32) (Ideal.sqrt (Ideal.ofBits .f32 0x44800000#32))
      = Ideal.ofBits .bf16 0x3D00#16 := by
  rw [ref_scale_eq, bf16_inv32]

end Cert.KernelIdeal.HandSm

end
-- ==== Proof.SmPay.lean ====
import proofs.«117683_j11484742549629_2_alg».proof.Proof.Gen.KernelIdeal.Skeleton
import proofs.«117683_j11484742549629_2_alg».proof.Proof.SmConst
import Idealize.ShloMosaic.Lib.Pipeline.Value
import Idealize.ShloMosaic.Lib.ValueIdx
import Idealize.ShloMosaic.PureOps.Ideal.Laws

/-!
# The attention kernel's values, read at an index

Each value the attention kernel stores is a pure function of the values it loaded.  Read exactly, at one
index, these are the familiar formulas of one step of the online softmax on a tile of 512 queries and
512 keys: the scores of the tile are the dot products of the (already scaled) query rows with the key
rows; the new running maximum of a row is the larger of the old one and the largest score of the row; the
rescaling factor is `exp (old maximum - new maximum)`; the weights are `exp (score - new maximum)`; the
new denominator is the rescaled old one plus the sum of the weights; the new numerator is the rescaled old
one plus the weights times the value rows.  At the first key tile the state is reset (maximum to a large
negative finite seed, sums to zero, the query tile scaled by `1/32` once); after the last one the output
is the numerator times `1 / denominator`.
-/

noncomputable section

namespace Cert.KernelIdeal.HandSm

open Cert.KernelIdeal Cert.KernelIdeal.Gen Idealize.ShloMosaic Idealize.ShloMosaic.ValueIdx

/-- The score of query row `r` against key row `j` of a tile: the dot product over the 1024 features. -/
def score (qs : S512x1024.Idx → EReal) (k : S1x512x1024.Idx → EReal) (r j : Fin 512) : EReal :=
  ∑ c : Fin 1024, qs (ix2 r c) * k (ix3 0 j c)

/-! ## Index bookkeeping -/

/-- The dimension record of the product (queries) · (keys)ᵀ. -/
abbrev dQK := dot_S512x1024_S1024x512_S512x512_1_0_0_1_n_n
/-- The dimension record of the product (weights) · (values). -/
abbrev dPV := dot_S512x512_S512x1024_S512x1024_1_0_0_1_n_n

theorem qk_lhs0 (i : S512x512.Idx) (q : dQK.contr.Idx) : (dQK.lhsIdx i q 0).val = (i 0).val := by
  unfold DotDims.lhsIdx
  rw [dif_neg (show ¬(0 : Fin S512x1024.rank) ∈ dQK.lhsBatch by decide),
    dif_pos (show (0 : Fin S512x1024.rank) ∈ dQK.lhsNonContracting by decide)]
  rfl
theorem qk_lhs1 (i : S512x512.Idx) (q : dQK.contr.Idx) : (dQK.lhsIdx i q 1).val = (q ⟨0, by decide⟩).val :=
  dQK.lhsIdx_val_of_single rfl i q
theorem qk_rhs0 (i : S512x512.Idx) (q : dQK.contr.Idx) : (dQK.rhsIdx i q 0).val = (q ⟨0, by decide⟩).val :=
  dQK.rhsIdx_val_of_single rfl i q
theorem qk_rhs1 (i : S512x512.Idx) (q : dQK.contr.Idx) : (dQK.rhsIdx i q 1).val = (i 1).val := by
  unfold DotDims.rhsIdx
  rw [dif_neg (show ¬(1 : Fin S1024x512.rank) ∈ dQK.rhsBatch by decide),
    dif_pos (show (1 : Fin S1024x512.rank) ∈ dQK.rhsNonContracting by decide)]
  rfl

theorem pv_lhs0 (i : S512x1024.Idx) (q : dPV.contr.Idx) : (dPV.lhsIdx i q 0).val = (i 0).val := by
  unfold DotDims.lhsIdx
  rw [dif_neg (show ¬(0 : Fin S512x512.rank) ∈ dPV.lhsBatch by decide),
    dif_pos (show (0 : Fin S512x512.rank) ∈ dPV.lhsNonContracting by decide)]
  rfl
theorem pv_lhs1 (i : S512x1024.Idx) (q : dPV.contr.Idx) : (dPV.lhsIdx i q 1).val = (q ⟨0, by decide⟩).val :=
  dPV.lhsIdx_val_of_single rfl i q
theorem pv_rhs0 (i : S512x1024.Idx) (q : dPV.contr.Idx) : (dPV.rhsIdx i q 0).val = (q ⟨0, by decide⟩).val :=
  dPV.rhsIdx_val_of_single rfl i q
theorem pv_rhs1 (i : S512x1024.Idx) (q : dPV.contr.Idx) : (dPV.rhsIdx i q 1).val = (i 1).val := by
  unfold DotDims.rhsIdx
  rw [dif_neg (show ¬(1 : Fin S512x1024.rank) ∈ dPV.rhsBatch by decide),
    dif_pos (show (1 : Fin S512x1024.rank) ∈ dPV.rhsNonContracting by decide)]
  rfl

/-- A `[1,512,1024]` block viewed as `[512,1024]` reads `(0, j, c)` at `(j, c)`. -/
theorem block_as_matrix {α : Type} (x : S1x512x1024.Idx → α) (j : Fin 512) (c : Fin 1024) :
    shapeCast S512x1024 x shapeCasts_S1x512x1024_S512x1024 (ix2 j c) = x (ix3 0 j c) := by
  refine shapeCast_apply x _ (ix2 j c) (ix3 0 j c) ?_
  rw [Shape.rowMajor_val_three, Shape.rowMajor_val_two]
  show ((0 : ℕ) * 512 + j.val) * 1024 + c.val = j.val * 1024 + c.val
  omega

/-- A `[512,1024]` matrix stored as a `[1,512,1024]` block reads `(r, d)` at `(0, r, d)`. -/
theorem matrix_as_block {α : Type} (x : S512x1024.Idx → α) (r : Fin 512) (d : Fin 1024) :
    shapeCast S1x512x1024 x shapeCasts_S512x1024_S1x512x1024 (ix3 0 r d) = x (ix2 r d) := by
  refine shapeCast_apply x _ (ix3 0 r d) (ix2 r d) ?_
  rw [Shape.rowMajor_val_three, Shape.rowMajor_val_two]
  show r.val * 1024 + d.val = ((0 : ℕ) * 512 + r.val) * 1024 + d.val
  omega

/-- A vector of 512 row values viewed as a `[512,1]` column reads `r` at `(r, 0)`. -/
theorem rows_as_column {α : Type} (x : S512.Idx → α) (r : Fin 512) :
    shapeCast S512x1 x shapeCasts_S512_S512x1 (ix2 r 0) = x (ix1 r) := by
  refine shapeCast_apply x _ (ix2 r 0) (ix1 r) ?_
  rw [Shape.rowMajor_val_one, Shape.rowMajor_val_two]
  show r.val = r.val * 1 + 0
  omega

/-- A `[512,1]` column broadcast along the rows of a `[512,512]` tile reads `(r, 0)` at `(r, j)`. -/
theorem column_over_keys {α : Type} (x : S512x1.Idx → α) (r j : Fin 512) :
    broadcastTo S512x512 x broadcasts_S512x1_S512x512 (ix2 r j) = x (ix2 r 0) :=
  broadcastTo_apply x _ (ix2 r j) (ix2 r 0) fun a => by
    match a with
    | ⟨0, _⟩ => rfl
    | ⟨1, _⟩ => rfl

/-- A `[512,1]` column broadcast along the rows of a `[512,1024]` tile reads `(r, 0)` at `(r, d)`. -/
theorem column_over_features {α : Type} (x : S512x1.Idx → α) (r : Fin 512) (d : Fin 1024) :
    broadcastTo S512x1024 x broadcasts_S512x1_S512x1024 (ix2 r d) = x (ix2 r 0) :=
  broadcastTo_apply x _ (ix2 r d) (ix2 r 0) fun a => by
    match a with
    | ⟨0, _⟩ => rfl
    | ⟨1, _⟩ => rfl

/-- Inserting the key coordinate `j` into the row index `r` of a reduction along the keys gives `(r, j)`. -/
theorem row_lift (r j : Fin 512) : reduces_S512x512_S512.lift (ix1 r) j = ix2 r j :=
  funext fun a => Fin.ext (by
    match a with
    | ⟨0, _⟩ => rfl
    | ⟨1, _⟩ => rfl)

/-! ## The step -/

/-- The scores of the tile. -/
theorem pay9_apply (qs : Vec Ideal S512x1024 .bf16) (k : Vec Ideal S1x512x1024 .bf16) (r j : Fin 512) :
    k3_pay9 (F := Ideal) qs k (ix2 r j) = score qs k r j := by
  unfold k3_pay9 score
  simp only [matmul]
  rw [Ideal.matmul_constant_zero_apply, ← Equiv.sum_comp (ValueIdx.contrEquiv1 dQK 1024 rfl rfl).symm]
  refine Finset.sum_congr rfl fun c _ => ?_
  have hc := ValueIdx.contrEquiv1_symm_val dQK 1024 rfl rfl c
  have el : dQK.lhsIdx (ix2 r j) ((ValueIdx.contrEquiv1 dQK 1024 rfl rfl).symm c) = ix2 r c :=
    funext fun a => Fin.ext (by
      match a with
      | ⟨0, _⟩ => exact qk_lhs0 _ _
      | ⟨1, _⟩ => exact (qk_lhs1 _ _).trans hc)
  have er : dQK.rhsIdx (ix2 r j) ((ValueIdx.contrEquiv1 dQK 1024 rfl rfl).symm c) = ix2 c j :=
    funext fun a => Fin.ext (by
      match a with
      | ⟨0, _⟩ => exact (qk_rhs0 _ _).trans hc
      | ⟨1, _⟩ => exact qk_rhs1 _ _)
  rw [el, er, transpose_apply [1, 0] _ transposes_S512x1024_p1_0_S1024x512 (ix2 c j) (ix2 j c)
    (fun b => by match b with | ⟨0, _⟩ => rfl | ⟨1, _⟩ => rfl), block_as_matrix]

/-- The new running maximum of row `r`: the larger of the old one and the row's largest score. -/
theorem pay10_apply (qs : Vec Ideal S512x1024 .bf16) (k : Vec Ideal S1x512x1024 .bf16) (m : Vec Ideal S512x1 .f32)
    (r : Fin 512) :
    k3_pay10 (F := Ideal) qs k m (ix2 r 0)
      = max (m (ix2 r 0)) (Finset.univ.fold max ⊥ fun j => score qs k r j) := by
  unfold k3_pay10
  rw [maximumf_apply, rows_as_column]
  refine congrArg (max (m (ix2 r 0))) ?_
  refine (Ideal.multiReduction_maximumf_single _ _ reduces_S512x512_S512 _ _ (ix1 r)).trans ?_
  rw [show FloatOps.ofBits (F := Ideal) .f32 0xFF800000#32 = ⊥ from f32_neg_inf]
  refine Finset.fold_congr fun (j : Fin 512) _ => ?_
  exact (congrArg (k3_pay9 (F := Ideal) qs k) (row_lift r j)).trans (pay9_apply qs k r j)

/-- The rescaling factor of row `r`. -/
theorem pay11_apply (qs : Vec Ideal S512x1024 .bf16) (k : Vec Ideal S1x512x1024 .bf16) (m mOld : Vec Ideal S512x1 .f32)
    (i : S512x1.Idx) :
    k3_pay11 (F := Ideal) qs k m mOld i = Ideal.exp (mOld i - k3_pay10 (F := Ideal) qs k m i) := rfl

/-- The weight of key `j` for row `r`. -/
theorem pay12_apply (qs : Vec Ideal S512x1024 .bf16) (k : Vec Ideal S1x512x1024 .bf16) (m : Vec Ideal S512x1 .f32)
    (r j : Fin 512) :
    k3_pay12 (F := Ideal) qs k m (ix2 r j)
      = Ideal.exp (score qs k r j - k3_pay10 (F := Ideal) qs k m (ix2 r 0)) := by
  unfold k3_pay12
  show Ideal.exp (k3_pay9 (F := Ideal) qs k (ix2 r j)
    - broadcastTo S512x512 (k3_pay10 (F := Ideal) qs k m) broadcasts_S512x1_S512x512 (ix2 r j)) = _
  rw [pay9_apply, column_over_keys]

/-- The new denominator of row `r`. -/
theorem pay13_apply (qs : Vec Ideal S512x1024 .bf16) (k : Vec Ideal S1x512x1024 .bf16)
    (m mOld l : Vec Ideal S512x1 .f32) (r : Fin 512) :
    k3_pay13 (F := Ideal) qs k m mOld l (ix2 r 0)
      = Ideal.exp (mOld (ix2 r 0) - k3_pay10 (F := Ideal) qs k m (ix2 r 0)) * l (ix2 r 0)
        + ∑ j : Fin 512, Ideal.exp (score qs k r j - k3_pay10 (F := Ideal) qs k m (ix2 r 0)) := by
  unfold k3_pay13
  rw [shapeCast_self, addf_apply, mulf_apply, rows_as_column, pay11_apply]
  refine congrArg (fun x : EReal =>
    Ideal.exp (mOld (ix2 r 0) - k3_pay10 (F := Ideal) qs k m (ix2 r 0)) * l (ix2 r 0) + x) ?_
  refine (Ideal.multiReduction_add_single _ _ reduces_S512x512_S512 _ _ (ix1 r)).trans ?_
  refine Finset.sum_congr rfl fun (j : Fin 512) _ => ?_
  exact (congrArg (k3_pay12 (F := Ideal) qs k m) (row_lift r j)).trans (pay12_apply qs k m r j)

/-- The rescaled old numerator at `(r, d)`. -/
theorem pay14_apply (qs : Vec Ideal S512x1024 .bf16) (k : Vec Ideal S1x512x1024 .bf16)
    (m mOld : Vec Ideal S512x1 .f32) (acc : Vec Ideal S512x1024 .f32) (r : Fin 512) (d : Fin 1024) :
    k3_pay14 (F := Ideal) qs k m mOld acc (ix2 r d)
      = Ideal.exp (mOld (ix2 r 0) - k3_pay10 (F := Ideal) qs k m (ix2 r 0)) * acc (ix2 r d) := by
  unfold k3_pay14
  rw [mulf_apply, column_over_features, pay11_apply]

/-- The weights handed to the second product are the weights (the change of float format is exact). -/
theorem pay15_apply (qs : Vec Ideal S512x1024 .bf16) (k : Vec Ideal S1x512x1024 .bf16) (m : Vec Ideal S512x1 .f32)
    (i : S512x512.Idx) : k3_pay15 (F := Ideal) qs k m i = k3_pay12 (F := Ideal) qs k m i := rfl

/-- The value tile as a matrix. -/
theorem pay8_apply (v : Vec Ideal S1x512x1024 .bf16) (j : Fin 512) (d : Fin 1024) :
    k3_pay8 (F := Ideal) v (ix2 j d) = v (ix3 0 j d) := by
  unfold k3_pay8
  exact block_as_matrix v j d

/-- The new numerator at `(r, d)`: the rescaled old one plus the weights times the value rows. -/
theorem pay1_apply (v7 : FVec Ideal S512x1024 .bf16) (v30 : FVec Ideal S512x1024 .f32) (v31 : FVec Ideal S512x512 .bf16)
    (r : Fin 512) (d : Fin 1024) :
    k3_pay1 (F := Ideal) v7 v30 v31 (ix2 r d) = v30 (ix2 r d) + ∑ j : Fin 512, v31 (ix2 r j) * v7 (ix2 j d) := by
  unfold k3_pay1
  rw [shapeCast_self, addf_apply]
  simp only [matmul]
  rw [Ideal.matmul_constant_zero_apply, ← Equiv.sum_comp (ValueIdx.contrEquiv1 dPV 512 rfl rfl).symm]
  congr 1
  refine Finset.sum_congr rfl fun j _ => ?_
  have hj := ValueIdx.contrEquiv1_symm_val dPV 512 rfl rfl j
  have el : dPV.lhsIdx (ix2 r d) ((ValueIdx.contrEquiv1 dPV 512 rfl rfl).symm j) = ix2 r j :=
    funext fun a => Fin.ext (by
      match a with
      | ⟨0, _⟩ => exact pv_lhs0 _ _
      | ⟨1, _⟩ => exact (pv_lhs1 _ _).trans hj)
  have er : dPV.rhsIdx (ix2 r d) ((ValueIdx.contrEquiv1 dPV 512 rfl rfl).symm j) = ix2 j d :=
    funext fun a => Fin.ext (by
      match a with
      | ⟨0, _⟩ => exact (pv_rhs0 _ _).trans hj
      | ⟨1, _⟩ => exact pv_rhs1 _ _)
  rw [el, er]

/-- The stored maximum is the new maximum. -/
theorem pay2_eq (m : FVec Ideal S512x1 .f32) : k3_pay2 (F := Ideal) m = m := by
  unfold k3_pay2
  exact shapeCast_self m _

/-! ## The reset and the output -/

/-- The seed of the running maximum. -/
theorem pay4_apply (i : S512x1.Idx) : k3_pay4 (F := Ideal) i = Ideal.ofBits .f32 0xFF333332#32 := by
  unfold k3_pay4
  rw [shapeCast_self]
  rfl

/-- The denominator starts at zero. -/
theorem pay5_apply (i : S512x1.Idx) : k3_pay5 (F := Ideal) i = 0 := by
  unfold k3_pay5
  rw [shapeCast_self]
  exact Ideal.ofBits_zero_f32

/-- The numerator starts at zero. -/
theorem pay6_apply (i : S512x1024.Idx) : k3_pay6 (F := Ideal) i = 0 := by
  unfold k3_pay6
  rw [shapeCast_self]
  exact Ideal.ofBits_zero_f32

/-- The query tile, scaled once by `1/32`. -/
theorem pay7_apply (q : Vec Ideal S1x512x1024 .bf16) (r : Fin 512) (c : Fin 1024) :
    k3_pay7 (F := Ideal) q (ix2 r c) = q (ix3 0 r c) * (((1 / 32 : ℝ) : ℝ) : EReal) := by
  unfold k3_pay7
  rw [shapeCast_self, mulf_apply, block_as_matrix, ← bf16_inv32]
  rfl

/-- The output at `(r, d)`: the numerator times `1 / denominator`. -/
theorem pay3_apply (acc : Vec Ideal S512x1024 .f32) (l : Vec Ideal S512x1 .f32) (r : Fin 512) (d : Fin 1024) :
    k3_pay3 (F := Ideal) acc l (ix3 0 r d) = acc (ix2 r d) * Ideal.div 1 (l (ix2 r 0)) := by
  unfold k3_pay3
  rw [matrix_as_block, truncf_apply, mulf_apply, column_over_features, divf_apply, ← EReal.coe_one, ← f32_one]
  rfl

end Cert.KernelIdeal.HandSm

end
-- ==== Proof.LibOnlineSoftmax.lean ====
import Mathlib
import Idealize.ShloMosaic.PureOps.Ideal

/-!
# The online softmax recurrence

A softmax-weighted average `(∑ₖ exp (sₖ - M) · vₖ) / (∑ₖ exp (sₖ - M))` over keys `k` can be computed
tile by tile.  The keys are split into tiles `t = 0, 1, …` of `n` positions each; a running reference
point `m t`, a running denominator and a running numerator are kept, and on meeting tile `t` the two
running sums are rescaled from the old reference point to the new one:

* `den (t+1) = exp (m t - m (t+1)) · den t + ∑ⱼ exp (s t j - m (t+1))`
* `num (t+1) = exp (m t - m (t+1)) · num t + ∑ⱼ exp (s t j - m (t+1)) · v t j`

starting from `den 0 = num 0 = 0`.  Because `exp x · exp y = exp (x + y)`, after `t` tiles
`den t = ∑_{t' < t} ∑ⱼ exp (s t' j - m t)` and likewise for `num`; the quotient `num T / den T` does
not depend on the reference points at all, and equals the softmax-weighted average taken with ANY real
reference point `M` (the common factor `exp (M - m T)` cancels).  Nothing here uses that `m` is a
running maximum: that choice only keeps the exponentials small.

The first part is over `ℝ`.  The second part transfers the statement to extended reals: sequences of
extended reals that satisfy the same recurrences written with the exact operations on `EReal` (`+`, `*`,
`-`, the exponential `Ideal.exp`, the division `Ideal.div`) and whose inputs are real numbers.  There
every step needs finiteness (on `EReal`, distributivity and cancellation fail at `±∞`), which is why the
inputs carry real witnesses.
-/

open Finset
open Idealize.ShloMosaic

namespace OnlineSoftmax

variable {n : ℕ}

/-! ## Over the reals -/

/-- The running numerator: rescale by `exp (old point - new point)`, then add the new tile's weighted terms. -/
noncomputable def num (s v : ℕ → Fin n → ℝ) (m : ℕ → ℝ) : ℕ → ℝ
  | 0 => 0
  | t + 1 => Real.exp (m t - m (t + 1)) * num s v m t + ∑ j, Real.exp (s t j - m (t + 1)) * v t j

/-- The running denominator: the same with every weight `1`. -/
noncomputable def den (s : ℕ → Fin n → ℝ) (m : ℕ → ℝ) : ℕ → ℝ
  | 0 => 0
  | t + 1 => Real.exp (m t - m (t + 1)) * den s m t + ∑ j, Real.exp (s t j - m (t + 1))

/-- Moving the reference point of a sum of exponentials from `a` to `b` costs the factor `exp (b - a)`. -/
theorem sum_exp_shift (s v : ℕ → Fin n → ℝ) (a b : ℝ) (T : ℕ) :
    ∑ t ∈ range T, ∑ j, Real.exp (s t j - a) * v t j
      = Real.exp (b - a) * ∑ t ∈ range T, ∑ j, Real.exp (s t j - b) * v t j := by
  rw [mul_sum]
  refine sum_congr rfl fun t _ => ?_
  rw [mul_sum]
  refine sum_congr rfl fun j _ => ?_
  rw [← mul_assoc, ← Real.exp_add]
  congr 2
  ring

/-- After `t` tiles the running numerator is the sum over all keys met so far, at the current reference point. -/
theorem num_eq (s v : ℕ → Fin n → ℝ) (m : ℕ → ℝ) (t : ℕ) :
    num s v m t = ∑ t' ∈ range t, ∑ j, Real.exp (s t' j - m t) * v t' j := by
  induction t with
  | zero => simp [num]
  | succ t ih => rw [num, ih, sum_range_succ, ← sum_exp_shift s v (m (t + 1)) (m t) t]

theorem den_eq_num (s : ℕ → Fin n → ℝ) (m : ℕ → ℝ) (t : ℕ) : den s m t = num s (fun _ _ => 1) m t := by
  induction t with
  | zero => rfl
  | succ t ih => simp only [den, num, ih, mul_one]

/-- After `t` tiles the running denominator is the sum of the exponentials of all keys met so far. -/
theorem den_eq (s : ℕ → Fin n → ℝ) (m : ℕ → ℝ) (t : ℕ) :
    den s m t = ∑ t' ∈ range t, ∑ j, Real.exp (s t' j - m t) := by
  rw [den_eq_num, num_eq]; simp only [mul_one]

/-- A sum of exponentials over a nonempty set of keys is positive. -/
theorem sum_exp_pos (hn : 0 < n) (s : ℕ → Fin n → ℝ) (a : ℝ) {T : ℕ} (hT : 0 < T) :
    0 < ∑ t ∈ range T, ∑ j, Real.exp (s t j - a) := by
  haveI : NeZero n := ⟨hn.ne'⟩
  exact sum_pos (fun _ _ => sum_pos (fun _ _ => Real.exp_pos _) univ_nonempty) (nonempty_range_iff.mpr hT.ne')

theorem den_pos (hn : 0 < n) (s : ℕ → Fin n → ℝ) (m : ℕ → ℝ) {T : ℕ} (hT : 0 < T) : 0 < den s m T := by
  rw [den_eq]; exact sum_exp_pos hn s _ hT

/-- **Online softmax, over the reals.**  The running numerator times the reciprocal of the running
    denominator is the softmax-weighted average with any reference point `M`, in the form
    `∑ₖ (exp (sₖ - M) / ∑ᵢ exp (sᵢ - M)) · vₖ`. -/
theorem num_mul_inv_den (s v : ℕ → Fin n → ℝ) (m : ℕ → ℝ) (T : ℕ) (M : ℝ) :
    num s v m T * (1 / den s m T)
      = ∑ t ∈ range T, ∑ j, Real.exp (s t j - M) / (∑ t' ∈ range T, ∑ i, Real.exp (s t' i - M)) * v t j := by
  rw [num_eq, den_eq_num, num_eq, sum_exp_shift s v (m T) M, sum_exp_shift s (fun _ _ => 1) (m T) M]
  simp only [mul_one]
  rw [mul_one_div, mul_div_mul_left _ _ (Real.exp_pos _).ne', sum_div]
  refine sum_congr rfl fun t _ => ?_
  rw [sum_div]
  refine sum_congr rfl fun j _ => ?_
  ring

/-! ## Over the extended reals, with real inputs -/

/-- The inclusion of the reals in the extended reals commutes with finite sums. -/
theorem coe_sum {ι : Type*} (A : Finset ι) (f : ι → ℝ) :
    ((∑ i ∈ A, f i : ℝ) : EReal) = ∑ i ∈ A, (f i : EReal) := by
  classical
  induction A using Finset.induction_on with
  | empty => simp
  | insert a A ha ih => rw [sum_insert ha, sum_insert ha, EReal.coe_add, ih]

/-- The exact exponential of a difference of two reals. -/
theorem exp_coe_sub_coe (a b : ℝ) : Ideal.exp ((a : EReal) - (b : EReal)) = ((Real.exp (a - b) : ℝ) : EReal) := by
  rw [← EReal.coe_sub, Ideal.exp_coe]

/-- The exact quotient by a nonzero real is the product with the reciprocal. -/
theorem div_coe_coe (a : ℝ) {b : ℝ} (hb : b ≠ 0) : Ideal.div (a : EReal) (b : EReal) = ((a * (1 / b) : ℝ) : EReal) := by
  rw [Ideal.div_coe hb, EReal.coe_mul]

/-- A maximum, taken from a seed below `+∞`, of finitely many reals is below `+∞`. -/
theorem fold_max_coe_ne_top {b : EReal} (hb : b ≠ ⊤) (f : Fin n → ℝ) :
    (univ.fold max b fun j => (f j : EReal)) ≠ ⊤ := by
  rw [← lt_top_iff_ne_top, Finset.fold_max_lt]
  exact ⟨lt_top_iff_ne_top.mpr hb, fun j _ => EReal.coe_lt_top _⟩

/-- A maximum of a nonempty family of reals is above `-∞`, whatever the seed. -/
theorem fold_max_coe_ne_bot (hn : 0 < n) (b : EReal) (f : Fin n → ℝ) :
    (univ.fold max b fun j => (f j : EReal)) ≠ ⊥ := by
  rw [← bot_lt_iff_ne_bot, Finset.lt_fold_max]
  exact Or.inr ⟨⟨0, hn⟩, mem_univ _, EReal.bot_lt_coe _⟩

/-- The running maximum stays real: starting at a real seed, taking at each tile the larger of the old
    value and the tile's maximum (itself seeded below `+∞`, e.g. at `-∞`) never leaves the reals. -/
theorem running_max_real {T : ℕ} (S : ℕ → Fin n → EReal) (s : ℕ → Fin n → ℝ)
    (hS : ∀ t < T, ∀ j, S t j = (s t j : ℝ)) {b : EReal} (hb : b ≠ ⊤)
    (mE : ℕ → EReal) (m₀ : ℝ) (hm0 : mE 0 = (m₀ : ℝ))
    (hm : ∀ t < T, mE (t + 1) = max (mE t) (univ.fold max b (S t))) :
    ∀ t ≤ T, mE t = (((mE t).toReal : ℝ) : EReal) := by
  have key : ∀ t ≤ T, mE t ≠ ⊥ ∧ mE t ≠ ⊤ := by
    intro t
    induction t with
    | zero => intro _; rw [hm0]; exact ⟨EReal.coe_ne_bot _, EReal.coe_ne_top _⟩
    | succ t ih =>
      intro ht
      have ht' : t < T := ht
      obtain ⟨h1, h2⟩ := ih ht'.le
      have hX : univ.fold max b (S t) = univ.fold max b fun j => ((s t j : ℝ) : EReal) :=
        Finset.fold_congr fun j _ => hS t ht' j
      rw [hm t ht', hX]
      refine ⟨ne_bot_of_le_ne_bot h1 (le_max_left _ _), ne_of_lt (max_lt (lt_top_iff_ne_top.mpr h2) ?_)⟩
      exact lt_top_iff_ne_top.mpr (fold_max_coe_ne_top hb _)
  intro t ht
  exact (EReal.coe_toReal (key t ht).2 (key t ht).1).symm

/-- The running numerator over the extended reals is the real one, when every input is real. -/
theorem ereal_num {T : ℕ} (S V : ℕ → Fin n → EReal) (s v : ℕ → Fin n → ℝ)
    (hS : ∀ t < T, ∀ j, S t j = (s t j : ℝ)) (hV : ∀ t < T, ∀ j, V t j = (v t j : ℝ))
    (mE aE : ℕ → EReal) (m : ℕ → ℝ) (hm : ∀ t ≤ T, mE t = (m t : ℝ)) (ha0 : aE 0 = 0)
    (ha : ∀ t < T, aE (t + 1)
      = Ideal.exp (mE t - mE (t + 1)) * aE t + ∑ j, Ideal.exp (S t j - mE (t + 1)) * V t j) :
    ∀ t ≤ T, aE t = ((num s v m t : ℝ) : EReal) := by
  intro t
  induction t with
  | zero => intro _; rw [ha0]; rfl
  | succ t ih =>
    intro ht
    have ht' : t < T := ht
    rw [ha t ht', ih ht'.le, hm t ht'.le, hm (t + 1) ht, num, EReal.coe_add, EReal.coe_mul, coe_sum,
      exp_coe_sub_coe]
    congr 1
    refine sum_congr rfl fun j _ => ?_
    rw [hS t ht' j, hV t ht' j, exp_coe_sub_coe, EReal.coe_mul]

/-- The running denominator over the extended reals is the real one, when every input is real. -/
theorem ereal_den {T : ℕ} (S : ℕ → Fin n → EReal) (s : ℕ → Fin n → ℝ)
    (hS : ∀ t < T, ∀ j, S t j = (s t j : ℝ))
    (mE lE : ℕ → EReal) (m : ℕ → ℝ) (hm : ∀ t ≤ T, mE t = (m t : ℝ)) (hl0 : lE 0 = 0)
    (hl : ∀ t < T, lE (t + 1)
      = Ideal.exp (mE t - mE (t + 1)) * lE t + ∑ j, Ideal.exp (S t j - mE (t + 1))) :
    ∀ t ≤ T, lE t = ((den s m t : ℝ) : EReal) := by
  intro t
  induction t with
  | zero => intro _; rw [hl0]; rfl
  | succ t ih =>
    intro ht
    have ht' : t < T := ht
    rw [hl t ht', ih ht'.le, hm t ht'.le, hm (t + 1) ht, den, EReal.coe_add, EReal.coe_mul, coe_sum,
      exp_coe_sub_coe]
    congr 1
    refine sum_congr rfl fun j _ => ?_
    rw [hS t ht' j, exp_coe_sub_coe]

/-- The value of the online softmax over the extended reals is the real one. -/
theorem online_softmax_value {T : ℕ} (hn : 0 < n) (hT : 0 < T)
    (S V : ℕ → Fin n → EReal) (s v : ℕ → Fin n → ℝ)
    (hS : ∀ t < T, ∀ j, S t j = (s t j : ℝ)) (hV : ∀ t < T, ∀ j, V t j = (v t j : ℝ))
    (mE lE aE : ℕ → EReal) (m : ℕ → ℝ) (hm : ∀ t ≤ T, mE t = (m t : ℝ))
    (hl0 : lE 0 = 0) (ha0 : aE 0 = 0)
    (hl : ∀ t < T, lE (t + 1)
      = Ideal.exp (mE t - mE (t + 1)) * lE t + ∑ j, Ideal.exp (S t j - mE (t + 1)))
    (ha : ∀ t < T, aE (t + 1)
      = Ideal.exp (mE t - mE (t + 1)) * aE t + ∑ j, Ideal.exp (S t j - mE (t + 1)) * V t j) :
    aE T * Ideal.div 1 (lE T) = ((num s v m T * (1 / den s m T) : ℝ) : EReal) := by
  rw [ereal_num S V s v hS hV mE aE m hm ha0 ha T le_rfl, ereal_den S s hS mE lE m hm hl0 hl T le_rfl,
    ← EReal.coe_one, div_coe_coe 1 (den_pos hn s m hT).ne', one_mul, ← EReal.coe_mul]

/-- **Online softmax, over the extended reals.**  Let the scores `S` and the values `V` of `T ≥ 1` tiles of
    `n ≥ 1` keys be real numbers, let `mE` be any sequence of real reference points, and let `lE`, `aE` start
    at `0` and satisfy the rescaling recurrences written with the exact operations.  Then the final numerator
    times the exact quotient `1 / (final denominator)` is the softmax-weighted average of the values in
    the normalised form `∑ₖ (exp (Sₖ - M) / ∑ᵢ exp (Sᵢ - M)) · Vₖ`, for any real `M`. -/
theorem online_softmax {T : ℕ} (hn : 0 < n) (hT : 0 < T)
    (S V : ℕ → Fin n → EReal) (s v : ℕ → Fin n → ℝ)
    (hS : ∀ t < T, ∀ j, S t j = (s t j : ℝ)) (hV : ∀ t < T, ∀ j, V t j = (v t j : ℝ))
    (mE lE aE : ℕ → EReal) (m : ℕ → ℝ) (hm : ∀ t ≤ T, mE t = (m t : ℝ))
    (hl0 : lE 0 = 0) (ha0 : aE 0 = 0)
    (hl : ∀ t < T, lE (t + 1)
      = Ideal.exp (mE t - mE (t + 1)) * lE t + ∑ j, Ideal.exp (S t j - mE (t + 1)))
    (ha : ∀ t < T, aE (t + 1)
      = Ideal.exp (mE t - mE (t + 1)) * aE t + ∑ j, Ideal.exp (S t j - mE (t + 1)) * V t j)
    (M : ℝ) :
    aE T * Ideal.div 1 (lE T)
      = ∑ t ∈ range T, ∑ j,
          Ideal.div (Ideal.exp (S t j - (M : EReal))) (∑ t' ∈ range T, ∑ i, Ideal.exp (S t' i - (M : EReal)))
            * V t j := by
  have hZ : 0 < ∑ t' ∈ range T, ∑ i, Real.exp (s t' i - M) := sum_exp_pos hn s M hT
  have hZE : (∑ t' ∈ range T, ∑ i, Ideal.exp (S t' i - (M : EReal)))
      = ((∑ t' ∈ range T, ∑ i, Real.exp (s t' i - M) : ℝ) : EReal) := by
    rw [coe_sum]
    refine sum_congr rfl fun t ht => ?_
    rw [coe_sum]
    refine sum_congr rfl fun j _ => ?_
    rw [hS t (mem_range.mp ht) j, exp_coe_sub_coe]
  rw [online_softmax_value hn hT S V s v hS hV mE lE aE m hm hl0 ha0 hl ha, num_mul_inv_den s v m T M,
    hZE, coe_sum]
  refine sum_congr rfl fun t ht => ?_
  rw [coe_sum]
  refine sum_congr rfl fun j _ => ?_
  rw [hS t (mem_range.mp ht) j, hV t (mem_range.mp ht) j, exp_coe_sub_coe, div_coe_coe _ hZ.ne', ← EReal.coe_mul]
  congr 1
  ring

/-! ### The same, with finiteness stated as the existence of a real value -/

/-- An extended real that is some real number is its own real part. -/
theorem eq_coe_toReal {x : EReal} (h : ∃ r : ℝ, x = (r : EReal)) : x = ((x.toReal : ℝ) : EReal) := by
  obtain ⟨r, rfl⟩ := h
  rw [EReal.toReal_coe]

/-- The running maximum of real scores from a real seed is real at every tile. -/
theorem running_max_of_real {T : ℕ} (S : ℕ → Fin n → EReal)
    (hS : ∀ t < T, ∀ j, ∃ r : ℝ, S t j = (r : EReal)) {b : EReal} (hb : b ≠ ⊤)
    (mE : ℕ → EReal) (hm0 : ∃ r : ℝ, mE 0 = (r : EReal))
    (hm : ∀ t < T, mE (t + 1) = max (mE t) (univ.fold max b (S t))) :
    ∀ t ≤ T, ∃ r : ℝ, mE t = (r : EReal) := by
  obtain ⟨m₀, hm0⟩ := hm0
  intro t ht
  exact ⟨_, running_max_real S (fun t j => (S t j).toReal) (fun t ht j => eq_coe_toReal (hS t ht j)) hb mE m₀ hm0 hm
    t ht⟩

/-- **Online softmax, over the extended reals, inputs known to be real.**  As `online_softmax`, with the
    finiteness of the scores, the values, the reference points and `M` stated as `∃ r : ℝ, _ = r`; the
    result is moreover a real number. -/
theorem online_softmax_of_real {T : ℕ} (hn : 0 < n) (hT : 0 < T)
    (S V : ℕ → Fin n → EReal)
    (hS : ∀ t < T, ∀ j, ∃ r : ℝ, S t j = (r : EReal)) (hV : ∀ t < T, ∀ j, ∃ r : ℝ, V t j = (r : EReal))
    (mE lE aE : ℕ → EReal) (hm : ∀ t ≤ T, ∃ r : ℝ, mE t = (r : EReal))
    (hl0 : lE 0 = 0) (ha0 : aE 0 = 0)
    (hl : ∀ t < T, lE (t + 1)
      = Ideal.exp (mE t - mE (t + 1)) * lE t + ∑ j, Ideal.exp (S t j - mE (t + 1)))
    (ha : ∀ t < T, aE (t + 1)
      = Ideal.exp (mE t - mE (t + 1)) * aE t + ∑ j, Ideal.exp (S t j - mE (t + 1)) * V t j)
    (M : EReal) (hM : ∃ r : ℝ, M = (r : EReal)) :
    aE T * Ideal.div 1 (lE T)
        = ∑ t ∈ range T, ∑ j,
            Ideal.div (Ideal.exp (S t j - M)) (∑ t' ∈ range T, ∑ i, Ideal.exp (S t' i - M)) * V t j
      ∧ ∃ r : ℝ, aE T * Ideal.div 1 (lE T) = (r : EReal) := by
  obtain ⟨Mr, rfl⟩ := hM
  have hS' : ∀ t < T, ∀ j, S t j = (((S t j).toReal : ℝ) : EReal) := fun t ht j => eq_coe_toReal (hS t ht j)
  have hV' : ∀ t < T, ∀ j, V t j = (((V t j).toReal : ℝ) : EReal) := fun t ht j => eq_coe_toReal (hV t ht j)
  have hm' : ∀ t ≤ T, mE t = (((mE t).toReal : ℝ) : EReal) := fun t ht => eq_coe_toReal (hm t ht)
  exact ⟨online_softmax hn hT S V _ _ hS' hV' mE lE aE _ hm' hl0 ha0 hl ha Mr,
    _, online_softmax_value hn hT S V _ _ hS' hV' mE lE aE _ hm' hl0 ha0 hl ha⟩

/-! ## Splitting a key index into (tile, position) -/

/-- A sum over `T · n` consecutive keys is the sum over `T` tiles of the sums over the `n` positions of a tile. -/
theorem sum_fin_mul {α : Type*} [AddCommMonoid α] (T n : ℕ) (f : ℕ → α) :
    ∑ k : Fin (T * n), f k.val = ∑ t ∈ range T, ∑ j : Fin n, f (t * n + j.val) := by
  rw [← Fin.sum_univ_eq_sum_range (fun t => ∑ j : Fin n, f (t * n + j.val)) T, ← Fintype.sum_prod_type']
  refine (Fintype.sum_equiv finProdFinEquiv _ _ fun p => ?_).symm
  simp [finProdFinEquiv, mul_comm, add_comm]

end OnlineSoftmax
-- ==== Proof.SmRun.lean ====
import proofs.«117683_j11484742549629_2_alg».proof.Proof.SmPay
import proofs.«117683_j11484742549629_2_alg».proof.Proof.AttnDat
import proofs.«117683_j11484742549629_2_alg».proof.Proof.LibOnlineSoftmax
import proofs.«117683_j11484742549629_2_alg».proof.Proof.ValSpec

/-!
# Four key tiles folded into one query tile

The state the attention kernel carries across the key tiles of one query tile is reset at the first key tile
and updated once per key tile.  Read exactly, the three running quantities of a row — maximum, denominator,
numerator — satisfy the online softmax recurrence with the tile's scores `∑_c (q·(1/32))[r,c] · k[j,c]`, so
after the last tile the stored output `numerator · (1 / denominator)` is the softmax-weighted average of the
value rows over all keys met, for finite queries, keys and values; and it is a real number.
-/

noncomputable section

namespace Cert.KernelIdeal.HandSm

open Cert.KernelIdeal Cert.KernelIdeal.Gen Cert.KernelIdeal.Hand Cert.KernelIdeal.HandVal
open Idealize.ShloMosaic Idealize.ShloMosaic.ValueIdx Finset

/-- The carried state after the first `t` key tiles `kb 0, …, kb (t-1)` (with value tiles `vb`) of the query tile `q`. -/
def attnRun (q : Vec Ideal S1x512x1024 .bf16) (kb vb : ℕ → Vec Ideal S1x512x1024 .bf16) : ℕ → AttnScr Ideal
  | 0 => attnReset q
  | t + 1 => attnStep (kb t) (vb t) (attnRun q kb vb t)

variable (q : Vec Ideal S1x512x1024 .bf16) (kb vb : ℕ → Vec Ideal S1x512x1024 .bf16)

/-- The scaled queries never change. -/
theorem attnRun_qs (t : ℕ) : (attnRun q kb vb t).qs = k3_pay7 (F := Ideal) q := by
  induction t with
  | zero => rfl
  | succ t ih => exact ih

theorem attnRun_m_succ (t : ℕ) :
    (attnRun q kb vb (t + 1)).m = k3_pay10 (F := Ideal) (k3_pay7 (F := Ideal) q) (kb t) (attnRun q kb vb t).m := by
  show k3_pay2 (F := Ideal) (k3_pay10 (F := Ideal) (attnRun q kb vb t).qs (kb t) (attnRun q kb vb t).m) = _
  rw [pay2_eq, attnRun_qs]

/-- The running maximum of row `r`. -/
theorem attnRun_max (t : ℕ) (r : Fin 512) :
    (attnRun q kb vb (t + 1)).m (ix2 r 0)
      = max ((attnRun q kb vb t).m (ix2 r 0))
          (univ.fold max ⊥ fun j => score (k3_pay7 (F := Ideal) q) (kb t) r j) := by
  rw [attnRun_m_succ, pay10_apply]

/-- The running denominator of row `r`. -/
theorem attnRun_den (t : ℕ) (r : Fin 512) :
    (attnRun q kb vb (t + 1)).l (ix2 r 0)
      = Ideal.exp ((attnRun q kb vb t).m (ix2 r 0) - (attnRun q kb vb (t + 1)).m (ix2 r 0))
          * (attnRun q kb vb t).l (ix2 r 0)
        + ∑ j : Fin 512, Ideal.exp (score (k3_pay7 (F := Ideal) q) (kb t) r j
            - (attnRun q kb vb (t + 1)).m (ix2 r 0)) := by
  rw [attnRun_m_succ]
  show k3_pay13 (F := Ideal) (attnRun q kb vb t).qs (kb t) (attnRun q kb vb t).m (attnRun q kb vb t).m
    (attnRun q kb vb t).l (ix2 r 0) = _
  rw [pay13_apply, attnRun_qs]

/-- The running numerator at `(r, d)`. -/
theorem attnRun_num (t : ℕ) (r : Fin 512) (d : Fin 1024) :
    (attnRun q kb vb (t + 1)).acc (ix2 r d)
      = Ideal.exp ((attnRun q kb vb t).m (ix2 r 0) - (attnRun q kb vb (t + 1)).m (ix2 r 0))
          * (attnRun q kb vb t).acc (ix2 r d)
        + ∑ j : Fin 512, Ideal.exp (score (k3_pay7 (F := Ideal) q) (kb t) r j
            - (attnRun q kb vb (t + 1)).m (ix2 r 0)) * vb t (ix3 0 j d) := by
  rw [attnRun_m_succ]
  show k3_pay1 (F := Ideal) (k3_pay8 (F := Ideal) (vb t))
    (k3_pay14 (F := Ideal) (attnRun q kb vb t).qs (kb t) (attnRun q kb vb t).m (attnRun q kb vb t).m
      (attnRun q kb vb t).acc)
    (k3_pay15 (F := Ideal) (attnRun q kb vb t).qs (kb t) (attnRun q kb vb t).m) (ix2 r d) = _
  rw [pay1_apply, pay14_apply, attnRun_qs]
  refine congrArg (fun x : EReal => Ideal.exp ((attnRun q kb vb t).m (ix2 r 0)
      - k3_pay10 (F := Ideal) (k3_pay7 (F := Ideal) q) (kb t) (attnRun q kb vb t).m (ix2 r 0))
        * (attnRun q kb vb t).acc (ix2 r d) + x) ?_
  refine sum_congr rfl fun j _ => ?_
  rw [pay15_apply, pay12_apply, pay8_apply]

/-- The scaled query tile is real when the query tile is. -/
theorem scaled_queries_real (hq : AllReal q) (r : Fin 512) (c : Fin 1024) :
    ∃ x : ℝ, k3_pay7 (F := Ideal) q (ix2 r c) = (x : EReal) := by
  rw [pay7_apply]
  exact mul_real (hq _) ⟨_, rfl⟩

/-- A score of real queries against a real key tile is real. -/
theorem score_real (hq : AllReal q) {k : Vec Ideal S1x512x1024 .bf16} (hk : AllReal k) (r j : Fin 512) :
    ∃ x : ℝ, score (k3_pay7 (F := Ideal) q) k r j = (x : EReal) :=
  sum_real _ _ fun c _ => mul_real (scaled_queries_real q hq r c) (hk _)

/-- **The attention kernel on one query tile.**  For real queries, keys and values, after four key tiles the
    stored output at `(r, d)` is the softmax-weighted average of the value rows over the `4 · 512` keys met
    (written with any real reference point `M`), and it is a real number. -/
theorem attn_four_tiles (hq : AllReal q) (hk : ∀ t < 4, AllReal (kb t)) (hv : ∀ t < 4, AllReal (vb t))
    (r : Fin 512) (d : Fin 1024) (M : EReal) (hM : ∃ x : ℝ, M = (x : EReal)) :
    attnOut (attnRun q kb vb 4) (ix3 0 r d)
        = ∑ t ∈ range 4, ∑ j : Fin 512,
            Ideal.div (Ideal.exp (score (k3_pay7 (F := Ideal) q) (kb t) r j - M))
                (∑ t' ∈ range 4, ∑ i : Fin 512, Ideal.exp (score (k3_pay7 (F := Ideal) q) (kb t') r i - M))
              * vb t (ix3 0 j d)
      ∧ ∃ x : ℝ, attnOut (attnRun q kb vb 4) (ix3 0 r d) = (x : EReal) := by
  have hS : ∀ t < 4, ∀ j : Fin 512, ∃ x : ℝ, score (k3_pay7 (F := Ideal) q) (kb t) r j = (x : EReal) :=
    fun t ht j => score_real q hq (hk t ht) r j
  have hV : ∀ t < 4, ∀ j : Fin 512, ∃ x : ℝ, vb t (ix3 0 j d) = (x : EReal) := fun t ht j => hv t ht _
  have hm0 : ∃ x : ℝ, (attnRun q kb vb 0).m (ix2 r 0) = (x : EReal) := by
    show ∃ x : ℝ, k3_pay4 (F := Ideal) (ix2 r 0) = (x : EReal)
    rw [pay4_apply]
    exact f32_seed_real
  have hm := OnlineSoftmax.running_max_of_real (T := 4)
    (fun t j => score (k3_pay7 (F := Ideal) q) (kb t) r j) hS (b := ⊥) bot_ne_top
    (fun t => (attnRun q kb vb t).m (ix2 r 0)) hm0 (fun t _ => attnRun_max q kb vb t r)
  have hl0 : (attnRun q kb vb 0).l (ix2 r 0) = 0 := pay5_apply (ix2 r 0)
  have ha0 : (attnRun q kb vb 0).acc (ix2 r d) = 0 := pay6_apply (ix2 r d)
  have key := OnlineSoftmax.online_softmax_of_real (n := 512) (T := 4) (by norm_num) (by norm_num)
    (fun t j => score (k3_pay7 (F := Ideal) q) (kb t) r j) (fun t j => vb t (ix3 0 j d)) hS hV
    (fun t => (attnRun q kb vb t).m (ix2 r 0)) (fun t => (attnRun q kb vb t).l (ix2 r 0))
    (fun t => (attnRun q kb vb t).acc (ix2 r d)) hm hl0 ha0
    (fun t _ => attnRun_den q kb vb t r) (fun t _ => attnRun_num q kb vb t r d) M hM
  have hout : attnOut (attnRun q kb vb 4) (ix3 0 r d)
      = (attnRun q kb vb 4).acc (ix2 r d) * Ideal.div 1 ((attnRun q kb vb 4).l (ix2 r 0)) :=
    pay3_apply _ _ r d
  rw [hout]
  exact key

end Cert.KernelIdeal.HandSm

end
-- ==== Proof.SmSpec.lean ====
import Mathlib
import Idealize.ShloMosaic.Lib.ValueIdx
import Idealize.ShloMosaic.PureOps.Ideal

/-!
# Scaled dot-product attention of one branch, as a formula

For arrays `Q`, `K`, `V` of shape `[4, 2048, 1024]` (batch, position, feature), the attention output at
batch `b`, query position `r` and feature `d` is the softmax-weighted average of the value rows:
`∑ⱼ (exp (sⱼ - m) / ∑ᵢ exp (sᵢ - m)) · V[b, j, d]`, where `sⱼ = (∑_c Q[b, r, c] · K[b, j, c]) · (1/32)`
is the scaled score of key `j` (`32 = √1024`) and `m` is the largest of the 2048 scores of the row.
-/

noncomputable section

namespace Cert.KernelIdeal.HandSm

open Idealize.ShloMosaic Idealize.ShloMosaic.ValueIdx

/-- A `[4, 2048, 1024]` array of extended reals. -/
abbrev Arr3 : Type := (⟨3, ![4, 2048, 1024]⟩ : Shape).Idx → EReal

/-- The scaled score of key position `j` for query position `r` of batch `b`. -/
def attnScore (Q K : Arr3) (b : Fin 4) (r j : Fin 2048) : EReal :=
  (∑ c : Fin 1024, Q (ix3 b r c) * K (ix3 b j c)) * ((1 / 32 : ℝ) : EReal)

/-- The largest score of a row (the maximum over the 2048 keys, from `-∞`). -/
def attnMax (Q K : Arr3) (b : Fin 4) (r : Fin 2048) : EReal :=
  Finset.univ.fold max ⊥ fun j => attnScore Q K b r j

/-- The attention output: the softmax over the keys of the scaled scores, times the values. -/
def attnRef (Q K V : Arr3) : Arr3 := fun i =>
  ∑ j : Fin 2048,
    Ideal.div (Ideal.exp (attnScore Q K (i 0) (i 1) j - attnMax Q K (i 0) (i 1)))
        (∑ j' : Fin 2048, Ideal.exp (attnScore Q K (i 0) (i 1) j' - attnMax Q K (i 0) (i 1)))
      * V (ix3 (i 0) j (i 2))

theorem attnRef_apply (Q K V : Arr3) (b : Fin 4) (r : Fin 2048) (d : Fin 1024) :
    attnRef Q K V (ix3 b r d)
      = ∑ j : Fin 2048,
          Ideal.div (Ideal.exp (attnScore Q K b r j - attnMax Q K b r))
              (∑ j' : Fin 2048, Ideal.exp (attnScore Q K b r j' - attnMax Q K b r))
            * V (ix3 b j d) := rfl

end Cert.KernelIdeal.HandSm

end
-- ==== Proof.SmStage.lean ====
import proofs.«117683_j11484742549629_2_alg».proof.Proof.SmRun
import proofs.«117683_j11484742549629_2_alg».proof.Proof.SmSpec

/-!
# The attention kernel on tiles cut from arrays is the attention formula

Cut the query array into tiles of 512 rows and the key and value arrays into tiles of 512 rows.  The kernel,
run on one query tile against the four key and value tiles of the same batch, stores at `(r, d)` the attention
formula `attnRef` of the whole arrays at the tile's row `r`: the kernel's scores `∑_c (q · (1/32)) · k` are the
formula's `(∑_c q · k) · (1/32)` (distributivity, for finite entries), the sum over the 2048 keys splits into
the four tiles, and the softmax-weighted average does not depend on the reference point subtracted in the
exponentials, so the kernel's running maximum may be replaced by the row maximum the formula uses.
-/

noncomputable section

namespace Cert.KernelIdeal.HandSm

open Cert.KernelIdeal Cert.KernelIdeal.Gen Cert.KernelIdeal.Hand Cert.KernelIdeal.HandVal
open Idealize.ShloMosaic Idealize.ShloMosaic.ValueIdx Finset

/-- Row `r` of query tile `qi` is row `qi · 512 + r` of the array. -/
def rowOf (qi : Fin 4) (r : Fin 512) : Fin 2048 :=
  ⟨qi.val * 512 + r.val, by have := qi.isLt; have := r.isLt; omega⟩

/-- Key position `n` of the array (taken modulo the number of keys, so that it is total). -/
def keyOf (n : ℕ) : Fin 2048 := ⟨n % 2048, Nat.mod_lt _ (by norm_num)⟩

/-- Query tile `qi` of batch `b`. -/
def qTile (Q : Arr3) (b qi : Fin 4) : Vec Ideal S1x512x1024 .bf16 :=
  fun i => Q (ix3 b (rowOf qi (i 1)) (i 2))

/-- Key (or value) tile `t` of batch `b`. -/
def kTile (K : Arr3) (b : Fin 4) (t : ℕ) : Vec Ideal S1x512x1024 .bf16 :=
  fun i => K (ix3 b (keyOf (t * 512 + (i 1).val)) (i 2))

/-- Scaling one factor of every product of a finite sum of products of reals scales the sum. -/
theorem sum_scale {ι : Type*} (A : Finset ι) (f g : ι → EReal) (s : ℝ)
    (hf : ∀ c, ∃ x : ℝ, f c = (x : EReal)) (hg : ∀ c, ∃ x : ℝ, g c = (x : EReal)) :
    ∑ c ∈ A, (f c * (s : EReal)) * g c = (∑ c ∈ A, f c * g c) * (s : EReal) := by
  choose f' hf' using hf
  choose g' hg' using hg
  have h1 : ∀ c, f c * (s : EReal) * g c = ((f' c * s * g' c : ℝ) : EReal) := fun c => by
    rw [hf', hg', ← EReal.coe_mul, ← EReal.coe_mul]
  have h2 : ∀ c, f c * g c = ((f' c * g' c : ℝ) : EReal) := fun c => by
    rw [hf', hg', ← EReal.coe_mul]
  rw [sum_congr rfl (fun c _ => h1 c), sum_congr rfl (fun c _ => h2 c), ← OnlineSoftmax.coe_sum,
    ← OnlineSoftmax.coe_sum, ← EReal.coe_mul, Finset.sum_mul]
  congr 1
  exact sum_congr rfl fun c _ => by ring

variable (Q K V : Arr3)

/-- The kernel's score on tiles is the formula's scaled score on the arrays. -/
theorem score_tile (hQ : AllReal Q) (hK : AllReal K) (b qi : Fin 4) (t : ℕ) (r j : Fin 512) :
    score (k3_pay7 (F := Ideal) (qTile Q b qi)) (kTile K b t) r j
      = attnScore Q K b (rowOf qi r) (keyOf (t * 512 + j.val)) := by
  unfold score attnScore
  rw [← sum_scale univ (fun c => Q (ix3 b (rowOf qi r) c)) (fun c => K (ix3 b (keyOf (t * 512 + j.val)) c))
    (1 / 32) (fun c => hQ _) (fun c => hK _)]
  refine sum_congr rfl fun c _ => ?_
  rw [pay7_apply]
  rfl

theorem attnScore_real (hQ : AllReal Q) (hK : AllReal K) (b : Fin 4) (R J : Fin 2048) :
    ∃ x : ℝ, attnScore Q K b R J = (x : EReal) :=
  mul_real (sum_real _ _ fun c _ => mul_real (hQ _) (hK _)) ⟨_, rfl⟩

/-- The row maximum of finite scores is finite. -/
theorem attnMax_real (hQ : AllReal Q) (hK : AllReal K) (b : Fin 4) (R : Fin 2048) :
    ∃ x : ℝ, attnMax Q K b R = (x : EReal) := by
  choose s hs using fun J => attnScore_real Q K hQ hK b R J
  unfold attnMax
  rw [Finset.fold_congr (g := fun J => ((s J : ℝ) : EReal)) (fun J _ => hs J)]
  exact (exists_real_iff _).mpr
    ⟨OnlineSoftmax.fold_max_coe_ne_top bot_ne_top s, OnlineSoftmax.fold_max_coe_ne_bot (by norm_num) ⊥ s⟩

/-- The 2048 keys are the four tiles of 512. -/
theorem sum_keys (G : Fin 2048 → EReal) :
    ∑ J : Fin 2048, G J = ∑ t ∈ range 4, ∑ j : Fin 512, G (keyOf (t * 512 + j.val)) := by
  have h := OnlineSoftmax.sum_fin_mul 4 512 (fun n => G (keyOf n))
  refine Eq.trans ?_ h
  exact Fintype.sum_congr _ _ fun J => congrArg G (Fin.ext (Nat.mod_eq_of_lt J.isLt).symm)

/-- **One query tile against the four key tiles of its batch** stores the attention formula of the arrays,
    which is a real number there. -/
theorem attn_tile_eq_ref (hQ : AllReal Q) (hK : AllReal K) (hV : AllReal V) (b qi : Fin 4) (r : Fin 512)
    (d : Fin 1024) :
    attnOut (attnRun (qTile Q b qi) (kTile K b) (kTile V b) 4) (ix3 0 r d)
        = attnRef Q K V (ix3 b (rowOf qi r) d)
      ∧ ∃ x : ℝ, attnRef Q K V (ix3 b (rowOf qi r) d) = (x : EReal) := by
  have h4 := attn_four_tiles (qTile Q b qi) (kTile K b) (kTile V b) (fun i => hQ _) (fun t _ i => hK _)
    (fun t _ i => hV _) r d (attnMax Q K b (rowOf qi r)) (attnMax_real Q K hQ hK b (rowOf qi r))
  have hZ : (∑ J' : Fin 2048, Ideal.exp (attnScore Q K b (rowOf qi r) J' - attnMax Q K b (rowOf qi r)))
      = ∑ t' ∈ range 4, ∑ i : Fin 512,
          Ideal.exp (score (k3_pay7 (F := Ideal) (qTile Q b qi)) (kTile K b t') r i
            - attnMax Q K b (rowOf qi r)) := by
    rw [sum_keys]
    exact sum_congr rfl fun t _ => sum_congr rfl fun i _ => by rw [score_tile Q K hQ hK]
  have e : attnOut (attnRun (qTile Q b qi) (kTile K b) (kTile V b) 4) (ix3 0 r d)
      = attnRef Q K V (ix3 b (rowOf qi r) d) := by
    rw [h4.1, attnRef_apply, hZ, sum_keys]
    refine sum_congr rfl fun t _ => sum_congr rfl fun j _ => ?_
    rw [score_tile Q K hQ hK]
    rfl
  exact ⟨e, e ▸ h4.2⟩

/-- Every row of the array is a row of one of the four query tiles. -/
theorem row_split (R : Fin 2048) :
    R = rowOf ⟨R.val / 512, by have := R.isLt; omega⟩ ⟨R.val % 512, Nat.mod_lt _ (by norm_num)⟩ :=
  Fin.ext (by show R.val = R.val / 512 * 512 + R.val % 512; omega)

/-- The attention formula of finite arrays is finite. -/
theorem attnRef_real (hQ : AllReal Q) (hK : AllReal K) (hV : AllReal V) : AllReal (attnRef Q K V) := by
  intro i
  rw [eq_ix3 i, row_split (i 1)]
  exact (attn_tile_eq_ref Q K V hQ hK hV (i 0) _ _ (i 2)).2

end Cert.KernelIdeal.HandSm

end
-- ==== Proof.SmArr.lean ====
import proofs.«117683_j11484742549629_2_alg».proof.Proof.AttnDat
import proofs.«117683_j11484742549629_2_alg».proof.Proof.SmStage
import Idealize.ShloMosaic.Lib.Pipeline.Value
import Idealize.ShloMosaic.Lib.Decide

/-!
# The array the attention launch of branch 1 leaves

The launch runs over the grid batch × query tile × key tile (4 × 4 × 4, the key tile innermost), so grid
point `t` has batch `t / 16`, query tile `t / 4 mod 4` and key tile `t mod 4`.  Its query block is rows
`512 · (query tile) …` of the batch of the query array, its key and value blocks are rows
`512 · (key tile) …` of the batch of the key and value arrays, and at the last key tile it writes the
output block back to rows `512 · (query tile) …` of the batch of the result array.  So the carried state at a
last key tile is the four-tile run on tiles cut from the arrays, every row of the result is written by
exactly the point of its batch and query tile at the last key tile, and the result array ends holding the
attention formula of the three arrays.
-/

set_option maxRecDepth 16384

noncomputable section

namespace Cert.KernelIdeal.HandSm

open Cert.KernelIdeal Cert.KernelIdeal.Gen Cert.KernelIdeal.Hand Cert.KernelIdeal.HandVal
open Idealize.ShloMosaic Idealize.ShloMosaic.TcCoe Idealize.ShloMosaic.ValueIdx
open Idealize.ShloMosaic.Pipeline (Dat Cfg Window)

/-- The batch of grid position `n`. -/
def batchOf (n : ℕ) : Fin 4 := ⟨n / 16 % 4, Nat.mod_lt _ (by norm_num)⟩

/-- The query tile of grid position `n`. -/
def qtileOf (n : ℕ) : Fin 4 := ⟨n / 4 % 4, Nat.mod_lt _ (by norm_num)⟩

/-- The printed index maps of the four windows, decided over the 64 grid points. -/
theorem tile_indices3 : ∀ t : Fin cfg3.N,
    win3_0.index t (0 : Fin 3) = t.val / 16 ∧ win3_0.index t (1 : Fin 3) = t.val / 4 % 4
    ∧ win3_0.index t (2 : Fin 3) = 0
    ∧ win3_1.index t (0 : Fin 3) = t.val / 16 ∧ win3_1.index t (1 : Fin 3) = t.val % 4
    ∧ win3_1.index t (2 : Fin 3) = 0
    ∧ win3_2.index t (0 : Fin 3) = t.val / 16 ∧ win3_2.index t (1 : Fin 3) = t.val % 4
    ∧ win3_2.index t (2 : Fin 3) = 0
    ∧ win3_3.index t (0 : Fin 3) = t.val / 16 ∧ win3_3.index t (1 : Fin 3) = t.val / 4 % 4
    ∧ win3_3.index t (2 : Fin 3) = 0 :=
  (by decide +kernel : ∀ t : Fin grid3.N, _)

variable (V : (c : Dev nD) → (b : Ref sig .tc) → Buf (Elt Ideal) ((c : Thread nD τ).loc b))

/-- The query block of a point is the query tile of its batch and query tile. -/
theorem qBlk3_eq (c : Dev nD) (t : Fin cfg3.N) :
    qBlk3 V c t = qTile (V c main_v11 : Arr3) (batchOf t.val) (qtileOf t.val) := by
  funext j
  show V c main_v11 (((cfg3.win 0).blk t).view.emb j)
    = (V c main_v11 : Arr3) (ix3 (batchOf t.val) (rowOf (qtileOf t.val) (j 1)) (j 2))
  obtain ⟨e0, e1, e2, -⟩ := tile_indices3 t
  have ht : t.val < 64 := t.isLt
  refine congrArg (V c main_v11) (funext fun a => Fin.ext ?_)
  match a with
  | ⟨0, _⟩ =>
    show win3_0.index t (0 : Fin 3) * 1 + 1 * (j 0).val = t.val / 16 % 4
    have : (j 0).val < 1 := (j 0).isLt
    omega
  | ⟨1, _⟩ =>
    show win3_0.index t (1 : Fin 3) * 512 + 1 * (j 1).val = t.val / 4 % 4 * 512 + (j 1).val
    omega
  | ⟨2, _⟩ =>
    show win3_0.index t (2 : Fin 3) * 1024 + 1 * (j 2).val = (j 2).val
    omega

/-- The key block of a point is the key tile of its batch and key tile. -/
theorem kBlk3_eq (c : Dev nD) (t : Fin cfg3.N) :
    kBlk3 V c t = kTile (V c main_v16 : Arr3) (batchOf t.val) (t.val % 4) := by
  funext j
  show V c main_v16 (((cfg3.win 1).blk t).view.emb j)
    = (V c main_v16 : Arr3) (ix3 (batchOf t.val) (keyOf (t.val % 4 * 512 + (j 1).val)) (j 2))
  obtain ⟨-, -, -, e0, e1, e2, -⟩ := tile_indices3 t
  have ht : t.val < 64 := t.isLt
  refine congrArg (V c main_v16) (funext fun a => Fin.ext ?_)
  match a with
  | ⟨0, _⟩ =>
    show win3_1.index t (0 : Fin 3) * 1 + 1 * (j 0).val = t.val / 16 % 4
    have : (j 0).val < 1 := (j 0).isLt
    omega
  | ⟨1, _⟩ =>
    show win3_1.index t (1 : Fin 3) * 512 + 1 * (j 1).val = (t.val % 4 * 512 + (j 1).val) % 2048
    have : (j 1).val < 512 := (j 1).isLt
    omega
  | ⟨2, _⟩ =>
    show win3_1.index t (2 : Fin 3) * 1024 + 1 * (j 2).val = (j 2).val
    omega

/-- The value block of a point is the value tile of its batch and key tile. -/
theorem vBlk3_eq (c : Dev nD) (t : Fin cfg3.N) :
    vBlk3 V c t = kTile (V c main_v21 : Arr3) (batchOf t.val) (t.val % 4) := by
  funext j
  show V c main_v21 (((cfg3.win 2).blk t).view.emb j)
    = (V c main_v21 : Arr3) (ix3 (batchOf t.val) (keyOf (t.val % 4 * 512 + (j 1).val)) (j 2))
  obtain ⟨-, -, -, -, -, -, e0, e1, e2, -⟩ := tile_indices3 t
  have ht : t.val < 64 := t.isLt
  refine congrArg (V c main_v21) (funext fun a => Fin.ext ?_)
  match a with
  | ⟨0, _⟩ =>
    show win3_2.index t (0 : Fin 3) * 1 + 1 * (j 0).val = t.val / 16 % 4
    have : (j 0).val < 1 := (j 0).isLt
    omega
  | ⟨1, _⟩ =>
    show win3_2.index t (1 : Fin 3) * 512 + 1 * (j 1).val = (t.val % 4 * 512 + (j 1).val) % 2048
    have : (j 1).val < 512 := (j 1).isLt
    omega
  | ⟨2, _⟩ =>
    show win3_2.index t (2 : Fin 3) * 1024 + 1 * (j 2).val = (j 2).val
    omega

/-- The state a last key tile leaves is the four-tile run on the tiles of the point's batch and query tile. -/
theorem scr3_last (c : Dev nD) (t : Fin cfg3.N) (h3 : t.val % 4 = 3) :
    scr3 V c t = attnRun (qTile (V c main_v11 : Arr3) (batchOf t.val) (qtileOf t.val))
      (kTile (V c main_v16 : Arr3) (batchOf t.val)) (kTile (V c main_v21 : Arr3) (batchOf t.val)) 4 := by
  have ht : t.val < 64 := t.isLt
  have b1 : batchOf (t.val - 1) = batchOf t.val := Fin.ext (by show (t.val - 1) / 16 % 4 = t.val / 16 % 4; omega)
  have b2 : batchOf (t.val - 1 - 1) = batchOf t.val :=
    Fin.ext (by show (t.val - 1 - 1) / 16 % 4 = t.val / 16 % 4; omega)
  have b3 : batchOf (t.val - 1 - 1 - 1) = batchOf t.val :=
    Fin.ext (by show (t.val - 1 - 1 - 1) / 16 % 4 = t.val / 16 % 4; omega)
  have q3 : qtileOf (t.val - 1 - 1 - 1) = qtileOf t.val :=
    Fin.ext (by show (t.val - 1 - 1 - 1) / 4 % 4 = t.val / 4 % 4; omega)
  have k0 : (t.val - 1 - 1 - 1) % 4 = 0 := by omega
  have k1 : (t.val - 1 - 1) % 4 = 1 := by omega
  have k2 : (t.val - 1) % 4 = 2 := by omega
  rw [scr3_next V c t (by omega),
    scr3_next V c ⟨t.val - 1, _⟩ (by show ¬ (t.val - 1) % 4 = 0; omega),
    scr3_next V c ⟨t.val - 1 - 1, _⟩ (by show ¬ (t.val - 1 - 1) % 4 = 0; omega),
    scr3_first V c ⟨t.val - 1 - 1 - 1, _⟩ k0]
  simp only [kBlk3_eq, vBlk3_eq, qBlk3_eq, b1, b2, b3, q3, k0, k1, k2, h3]
  rfl

/-- Where a point's output block sits in the result array. -/
theorem out_emb3 (t : Fin cfg3.N) (j : ((cfg3.win 3).xblock (cfg3.grid.coords t)).Idx) :
    ((cfg3.win 3).blk t).view.emb j = ix3 (batchOf t.val) (rowOf (qtileOf t.val) (j 1)) (j 2) := by
  obtain ⟨-, -, -, -, -, -, -, -, -, e0, e1, e2⟩ := tile_indices3 t
  have ht : t.val < 64 := t.isLt
  refine funext fun a => Fin.ext ?_
  match a with
  | ⟨0, _⟩ =>
    show win3_3.index t (0 : Fin 3) * 1 + 1 * (j 0).val = t.val / 16 % 4
    have : (j 0).val < 1 := (j 0).isLt
    omega
  | ⟨1, _⟩ =>
    show win3_3.index t (1 : Fin 3) * 512 + 1 * (j 1).val = t.val / 4 % 4 * 512 + (j 1).val
    omega
  | ⟨2, _⟩ =>
    show win3_3.index t (2 : Fin 3) * 1024 + 1 * (j 2).val = (j 2).val
    omega

/-- What a last key tile writes back is its block of the attention formula of the three arrays. -/
theorem flushed3_eq (c : Dev nD) (hq : AllReal (V c main_v11 : Arr3)) (hk : AllReal (V c main_v16 : Arr3))
    (hv : AllReal (V c main_v21 : Arr3)) (t : Fin cfg3.N) (hf : (cfg3.win 3).flush t = true) :
    (dat3 V c).flushed 3 t = ((cfg3.win 3).blk t).view.read (Elt Ideal)
      (attnRef (V c main_v11 : Arr3) (V c main_v16 : Arr3) (V c main_v21 : Arr3)) := by
  have h3 : t.val % 4 = 3 := (flush3_3 t).mp hf
  show (cfg3.win 3).cut (grid3.coords t) ((dat3 V c).after 3 t) = _
  rw [after3_3]
  funext j
  show attnOut (scr3 V c t) j
    = attnRef (V c main_v11 : Arr3) (V c main_v16 : Arr3) (V c main_v21 : Arr3) (((cfg3.win 3).blk t).view.emb j)
  rw [out_emb3, scr3_last V c t h3]
  have hj : j = ix3 0 (j 1) (j 2) :=
    funext fun a => by
      match a with
      | ⟨0, _⟩ => exact Fin.ext (by have : (j 0).val < 1 := (j 0).isLt; show (j 0).val = 0; omega)
      | ⟨1, _⟩ => rfl
      | ⟨2, _⟩ => rfl
  have key := (attn_tile_eq_ref (V c main_v11 : Arr3) (V c main_v16 : Arr3) (V c main_v21 : Arr3) hq hk hv
    (batchOf t.val) (qtileOf t.val) (j 1) (j 2)).1
  exact (congrArg (attnOut (attnRun (qTile (V c main_v11 : Arr3) (batchOf t.val) (qtileOf t.val))
    (kTile (V c main_v16 : Arr3) (batchOf t.val)) (kTile (V c main_v21 : Arr3) (batchOf t.val)) 4)) hj).trans key

/-- An index of the result array is in a point's block iff each coordinate is in the block's range. -/
theorem mem_blk3 (t : Fin cfg3.N) (i : S4x2048x1024.Idx) :
    i ∈ ((cfg3.win 3).blk t).view.set
      ↔ ∀ a : Fin 3, win3_3.index t a * S1x512x1024.size a ≤ (i a).val
          ∧ (i a).val < win3_3.index t a * S1x512x1024.size a + S1x512x1024.size a := by
  show i ∈ ((View.whole main_v22).slice (win3_3.rect t)).set ↔ _
  rw [View.set_slice_whole, Rect.mem_set_unit]
  exact Iff.rfl

/-- Every row of the result is written by the point of its batch and query tile at the last key tile. -/
theorem cover3 (i : S4x2048x1024.Idx) :
    ∃ t : Fin cfg3.N, (cfg3.win 3).flush t = true ∧ i ∈ ((cfg3.win 3).blk t).view.set := by
  have h0 : (i 0).val < 4 := (i 0).isLt
  have h1 : (i 1).val < 2048 := (i 1).isLt
  have h2 : (i 2).val < 1024 := (i 2).isLt
  refine ⟨⟨((i 0).val * 4 + (i 1).val / 512) * 4 + 3, by show _ < 64; omega⟩, ?_, ?_⟩
  · exact (flush3_3 _).mpr (by show (((i 0).val * 4 + (i 1).val / 512) * 4 + 3) % 4 = 3; omega)
  · rw [mem_blk3]
    obtain ⟨-, -, -, -, -, -, -, -, -, e0, e1, e2⟩ :=
      tile_indices3 ⟨((i 0).val * 4 + (i 1).val / 512) * 4 + 3, by show _ < 64; omega⟩
    intro a
    match a with
    | ⟨0, _⟩ =>
      show win3_3.index _ (0 : Fin 3) * 1 ≤ (i 0).val ∧ (i 0).val < win3_3.index _ (0 : Fin 3) * 1 + 1
      rw [e0]
      show (((i 0).val * 4 + (i 1).val / 512) * 4 + 3) / 16 * 1 ≤ (i 0).val
        ∧ (i 0).val < (((i 0).val * 4 + (i 1).val / 512) * 4 + 3) / 16 * 1 + 1
      omega
    | ⟨1, _⟩ =>
      show win3_3.index _ (1 : Fin 3) * 512 ≤ (i 1).val ∧ (i 1).val < win3_3.index _ (1 : Fin 3) * 512 + 512
      rw [e1]
      show (((i 0).val * 4 + (i 1).val / 512) * 4 + 3) / 4 % 4 * 512 ≤ (i 1).val
        ∧ (i 1).val < (((i 0).val * 4 + (i 1).val / 512) * 4 + 3) / 4 % 4 * 512 + 512
      omega
    | ⟨2, _⟩ =>
      show win3_3.index _ (2 : Fin 3) * 1024 ≤ (i 2).val ∧ (i 2).val < win3_3.index _ (2 : Fin 3) * 1024 + 1024
      rw [e2]
      omega

/-- **The result array of the attention launch of branch 1** is the attention formula of the query, key and
    value arrays the launch finds, which is finite when they are. -/
theorem attn_arr3 (c : Dev nD) (hq : AllReal (V c main_v11 : Arr3)) (hk : AllReal (V c main_v16 : Arr3))
    (hv : AllReal (V c main_v21 : Arr3)) :
    (dat3 V c).arrAt 3 cfg3.N = attnRef (V c main_v11 : Arr3) (V c main_v16 : Arr3) (V c main_v21 : Arr3)
      ∧ AllReal (attnRef (V c main_v11 : Arr3) (V c main_v16 : Arr3) (V c main_v21 : Arr3)) :=
  ⟨(dat3 V c).arrAt_eq_of_cover 3 _ (fun t hf => flushed3_eq V c hq hk hv t hf) cover3,
    attnRef_real _ _ _ hq hk hv⟩

end Cert.KernelIdeal.HandSm

end
-- ==== Proof.SmRef.lean ====
import proofs.«117683_j11484742549629_2_alg».proof.Proof.ReadRI
import proofs.«117683_j11484742549629_2_alg».proof.Proof.SmConst
import proofs.«117683_j11484742549629_2_alg».proof.Proof.SmSpec

/-!
# The reference's attention stages are the attention formula

Each of the three branches of the reference computes, from its query, key and value projections: the scores
(a batched product of queries with keys, times the scalar `1 / √1024`), the row maximum, the exponentials of
the differences, their row sums, the quotients, and the batched product with the values.  Read at an index,
operation by operation, this is the formula `attnRef`: the scalar is `1/32`, the two-step maximum from `-∞`
is the maximum of the row, and the row sum from `0` is the sum.
-/

noncomputable section

namespace Cert.ReferenceIdeal.HandSm

open Cert.ReferenceIdeal Cert.ReferenceIdeal.Gen Cert.ReferenceIdeal.Read Cert.KernelIdeal.HandSm
open Idealize.ShloMosaic Idealize.ShloMosaic.ValueIdx Idealize.ShloMosaic.StableHlo

/-- The scalar the reference multiplies the scores by, `1.0 / √1024.0`, is `1/32`. -/
theorem ref_scale (i : S_.Idx) : val_main_v1 (F := Ideal) i = (((1 / 32 : ℝ) : ℝ) : EReal) := by
  rw [val_main_v1_apply, val_main_cst_0_apply, val_main_v0_apply, val_main_cst_apply]
  exact ref_scale_eq

/-- The keys of a row are reduced along the last axis. -/
theorem red_keys : S4x2048x2048.Reduces [2] S4x2048 := by decide

/-! ## Branch 1 -/

/-- The scaled scores of branch 1. -/
theorem ref_score1 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (i : S4x2048x2048.Idx) :
    val_main_v17 (F := Ideal) x0 x1 x2 x3 x4 x5 x6 i = attnScore (val_main_v6 (F := Ideal) x0 x1 x2 x3 x4) (val_main_v10 (F := Ideal) x0 x5 x6) (i 0) (i 1) (i 2) := by
  rw [val_main_v17_apply, val_main_v15_apply, val_main_v16_apply, ref_scale]
  unfold attnScore
  rw [Ideal.mulf_def]
  refine congrArg (· * (((1 / 32 : ℝ) : ℝ) : EReal)) ?_
  refine Finset.sum_congr rfl fun c _ => ?_
  have hl : lidx_main_v15 i c = ix3 (i 0) (i 1) c :=
    funext fun a => by
      match a with
      | ⟨0, _⟩ => rfl
      | ⟨1, _⟩ => rfl
      | ⟨2, _⟩ => rfl
  have hr : ridx_main_v15 i c = ix3 (i 0) (i 2) c :=
    funext fun a => by
      match a with
      | ⟨0, _⟩ => rfl
      | ⟨1, _⟩ => rfl
      | ⟨2, _⟩ => rfl
  rw [hl, hr]
  rfl

/-- The row maximum of branch 1. -/
theorem ref_max1 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (i : S4x2048.Idx) :
    val_main_v20 (F := Ideal) x0 x1 x2 x3 x4 x5 x6 i = attnMax (val_main_v6 (F := Ideal) x0 x1 x2 x3 x4) (val_main_v10 (F := Ideal) x0 x5 x6) (i 0) (i 1) := by
  rw [val_main_v20_apply, val_main_v19_apply, val_main_cst_2_apply]
  unfold val_main_v18 attnMax
  rw [Host.reduce_eq_fold_single FloatOps.maximumf _ _ _ red_keys _ i,
    val_main_cst_1_apply]
  show max (Ideal.ofBits .f32 0xFF800000#32) (Finset.univ.fold max (Ideal.ofBits .f32 0xFF800000#32) _) = _
  rw [f32_neg_inf, max_bot_left]
  refine Finset.fold_congr fun (j : Fin 2048) _ => ?_
  show val_main_v17 (F := Ideal) x0 x1 x2 x3 x4 x5 x6 (red_keys.lift i j) = _
  rw [ref_score1]
  rfl

/-- The exponentials of branch 1. -/
theorem ref_exp1 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (i : S4x2048x2048.Idx) :
    val_main_v24 (F := Ideal) x0 x1 x2 x3 x4 x5 x6 i
      = Ideal.exp (attnScore (val_main_v6 (F := Ideal) x0 x1 x2 x3 x4) (val_main_v10 (F := Ideal) x0 x5 x6) (i 0) (i 1) (i 2) - attnMax (val_main_v6 (F := Ideal) x0 x1 x2 x3 x4) (val_main_v10 (F := Ideal) x0 x5 x6) (i 0) (i 1)) := by
  rw [val_main_v24_apply, val_main_v23_apply, ref_score1, val_main_v22_apply, val_main_v21_apply, ref_max1]
  rfl

/-- The softmax denominators of branch 1. -/
theorem ref_den1 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (i : S4x2048.Idx) :
    val_main_v25 (F := Ideal) x0 x1 x2 x3 x4 x5 x6 i
      = ∑ j : Fin 2048, Ideal.exp (attnScore (val_main_v6 (F := Ideal) x0 x1 x2 x3 x4) (val_main_v10 (F := Ideal) x0 x5 x6) (i 0) (i 1) j - attnMax (val_main_v6 (F := Ideal) x0 x1 x2 x3 x4) (val_main_v10 (F := Ideal) x0 x5 x6) (i 0) (i 1)) := by
  rw [val_main_v25_apply, val_main_cst_3_apply]
  show Ideal.ofBits .f32 0x00000000#32 + _ = _
  rw [Ideal.ofBits_zero_f32, zero_add]
  refine Finset.sum_congr rfl fun j _ => ?_
  rw [ref_exp1]
  rfl

/-- **The reference's attention of branch 1** is the attention formula of its query, key and value stages. -/
theorem ref_attn1 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (i : S4x2048x1024.Idx) :
    val_main_v29 (F := Ideal) x0 x1 x2 x3 x4 x5 x6 x7 x8 i = attnRef (val_main_v6 (F := Ideal) x0 x1 x2 x3 x4) (val_main_v10 (F := Ideal) x0 x5 x6) (val_main_v14 (F := Ideal) x0 x7 x8) i := by
  rw [val_main_v29_apply]
  unfold attnRef
  refine Finset.sum_congr rfl fun j _ => ?_
  have hr : ridx_main_v29 i j = ix3 (i 0) j (i 2) :=
    funext fun a => by
      match a with
      | ⟨0, _⟩ => rfl
      | ⟨1, _⟩ => rfl
      | ⟨2, _⟩ => rfl
  rw [hr, val_main_v28_apply, ref_exp1, val_main_v27_apply, val_main_v26_apply, ref_den1]
  rfl

/-! ## Branch 2 -/

/-- The scaled scores of branch 2. -/
theorem ref_score2 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x9 : (⟨S1024x1024, .f32⟩ : BufTy).Contents (Elt Ideal)) (x10 : (⟨S1024, .f32⟩ : BufTy).Contents (Elt Ideal)) (i : S4x2048x2048.Idx) :
    val_main_v40 (F := Ideal) x0 x1 x2 x3 x4 x9 x10 i = attnScore (val_main_v6 (F := Ideal) x0 x1 x2 x3 x4) (val_main_v33 (F := Ideal) x1 x9 x10) (i 0) (i 1) (i 2) := by
  rw [val_main_v40_apply, val_main_v38_apply, val_main_v39_apply, ref_scale]
  unfold attnScore
  rw [Ideal.mulf_def]
  refine congrArg (· * (((1 / 32 : ℝ) : ℝ) : EReal)) ?_
  refine Finset.sum_congr rfl fun c _ => ?_
  have hl : lidx_main_v38 i c = ix3 (i 0) (i 1) c :=
    funext fun a => by
      match a with
      | ⟨0, _⟩ => rfl
      | ⟨1, _⟩ => rfl
      | ⟨2, _⟩ => rfl
  have hr : ridx_main_v38 i c = ix3 (i 0) (i 2) c :=
    funext fun a => by
      match a with
      | ⟨0, _⟩ => rfl
      | ⟨1, _⟩ => rfl
      | ⟨2, _⟩ => rfl
  rw [hl, hr]
  rfl

/-- The row maximum of branch 2. -/
theorem ref_max2 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x9 : (⟨S1024x1024, .f32⟩ : BufTy).Contents (Elt Ideal)) (x10 : (⟨S1024, .f32⟩ : BufTy).Contents (Elt Ideal)) (i : S4x2048.Idx) :
    val_main_v43 (F := Ideal) x0 x1 x2 x3 x4 x9 x10 i = attnMax (val_main_v6 (F := Ideal) x0 x1 x2 x3 x4) (val_main_v33 (F := Ideal) x1 x9 x10) (i 0) (i 1) := by
  rw [val_main_v43_apply, val_main_v42_apply, val_main_cst_5_apply]
  unfold val_main_v41 attnMax
  rw [Host.reduce_eq_fold_single FloatOps.maximumf _ _ _ red_keys _ i,
    val_main_cst_4_apply]
  show max (Ideal.ofBits .f32 0xFF800000#32) (Finset.univ.fold max (Ideal.ofBits .f32 0xFF800000#32) _) = _
  rw [f32_neg_inf, max_bot_left]
  refine Finset.fold_congr fun (j : Fin 2048) _ => ?_
  show val_main_v40 (F := Ideal) x0 x1 x2 x3 x4 x9 x10 (red_keys.lift i j) = _
  rw [ref_score2]
  rfl

/-- The exponentials of branch 2. -/
theorem ref_exp2 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x9 : (⟨S1024x1024, .f32⟩ : BufTy).Contents (Elt Ideal)) (x10 : (⟨S1024, .f32⟩ : BufTy).Contents (Elt Ideal)) (i : S4x2048x2048.Idx) :
    val_main_v47 (F := Ideal) x0 x1 x2 x3 x4 x9 x10 i
      = Ideal.exp (attnScore (val_main_v6 (F := Ideal) x0 x1 x2 x3 x4) (val_main_v33 (F := Ideal) x1 x9 x10) (i 0) (i 1) (i 2) - attnMax (val_main_v6 (F := Ideal) x0 x1 x2 x3 x4) (val_main_v33 (F := Ideal) x1 x9 x10) (i 0) (i 1)) := by
  rw [val_main_v47_apply, val_main_v46_apply, ref_score2, val_main_v45_apply, val_main_v44_apply, ref_max2]
  rfl

/-- The softmax denominators of branch 2. -/
theorem ref_den2 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x9 : (⟨S1024x1024, .f32⟩ : BufTy).Contents (Elt Ideal)) (x10 : (⟨S1024, .f32⟩ : BufTy).Contents (Elt Ideal)) (i : S4x2048.Idx) :
    val_main_v48 (F := Ideal) x0 x1 x2 x3 x4 x9 x10 i
      = ∑ j : Fin 2048, Ideal.exp (attnScore (val_main_v6 (F := Ideal) x0 x1 x2 x3 x4) (val_main_v33 (F := Ideal) x1 x9 x10) (i 0) (i 1) j - attnMax (val_main_v6 (F := Ideal) x0 x1 x2 x3 x4) (val_main_v33 (F := Ideal) x1 x9 x10) (i 0) (i 1)) := by
  rw [val_main_v48_apply, val_main_cst_6_apply]
  show Ideal.ofBits .f32 0x00000000#32 + _ = _
  rw [Ideal.ofBits_zero_f32, zero_add]
  refine Finset.sum_congr rfl fun j _ => ?_
  rw [ref_exp2]
  rfl

/-- **The reference's attention of branch 2** is the attention formula of its query, key and value stages. -/
theorem ref_attn2 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (i : S4x2048x1024.Idx) :
    val_main_v52 (F := Ideal) x0 x1 x2 x3 x4 x9 x10 x11 x12 i = attnRef (val_main_v6 (F := Ideal) x0 x1 x2 x3 x4) (val_main_v33 (F := Ideal) x1 x9 x10) (val_main_v37 (F := Ideal) x1 x11 x12) i := by
  rw [val_main_v52_apply]
  unfold attnRef
  refine Finset.sum_congr rfl fun j _ => ?_
  have hr : ridx_main_v52 i j = ix3 (i 0) j (i 2) :=
    funext fun a => by
      match a with
      | ⟨0, _⟩ => rfl
      | ⟨1, _⟩ => rfl
      | ⟨2, _⟩ => rfl
  rw [hr, val_main_v51_apply, ref_exp2, val_main_v50_apply, val_main_v49_apply, ref_den2]
  rfl

/-! ## Branch 3 -/

/-- The scaled scores of branch 3. -/
theorem ref_score3 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x13 : (⟨S1024x1024, .f32⟩ : BufTy).Contents (Elt Ideal)) (x14 : (⟨S1024, .f32⟩ : BufTy).Contents (Elt Ideal)) (i : S4x2048x2048.Idx) :
    val_main_v63 (F := Ideal) x0 x1 x2 x3 x4 x13 x14 i = attnScore (val_main_v6 (F := Ideal) x0 x1 x2 x3 x4) (val_main_v56 (F := Ideal) x2 x13 x14) (i 0) (i 1) (i 2) := by
  rw [val_main_v63_apply, val_main_v61_apply, val_main_v62_apply, ref_scale]
  unfold attnScore
  rw [Ideal.mulf_def]
  refine congrArg (· * (((1 / 32 : ℝ) : ℝ) : EReal)) ?_
  refine Finset.sum_congr rfl fun c _ => ?_
  have hl : lidx_main_v61 i c = ix3 (i 0) (i 1) c :=
    funext fun a => by
      match a with
      | ⟨0, _⟩ => rfl
      | ⟨1, _⟩ => rfl
      | ⟨2, _⟩ => rfl
  have hr : ridx_main_v61 i c = ix3 (i 0) (i 2) c :=
    funext fun a => by
      match a with
      | ⟨0, _⟩ => rfl
      | ⟨1, _⟩ => rfl
      | ⟨2, _⟩ => rfl
  rw [hl, hr]
  rfl

/-- The row maximum of branch 3. -/
theorem ref_max3 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x13 : (⟨S1024x1024, .f32⟩ : BufTy).Contents (Elt Ideal)) (x14 : (⟨S1024, .f32⟩ : BufTy).Contents (Elt Ideal)) (i : S4x2048.Idx) :
    val_main_v66 (F := Ideal) x0 x1 x2 x3 x4 x13 x14 i = attnMax (val_main_v6 (F := Ideal) x0 x1 x2 x3 x4) (val_main_v56 (F := Ideal) x2 x13 x14) (i 0) (i 1) := by
  rw [val_main_v66_apply, val_main_v65_apply, val_main_cst_8_apply]
  unfold val_main_v64 attnMax
  rw [Host.reduce_eq_fold_single FloatOps.maximumf _ _ _ red_keys _ i,
    val_main_cst_7_apply]
  show max (Ideal.ofBits .f32 0xFF800000#32) (Finset.univ.fold max (Ideal.ofBits .f32 0xFF800000#32) _) = _
  rw [f32_neg_inf, max_bot_left]
  refine Finset.fold_congr fun (j : Fin 2048) _ => ?_
  show val_main_v63 (F := Ideal) x0 x1 x2 x3 x4 x13 x14 (red_keys.lift i j) = _
  rw [ref_score3]
  rfl

/-- The exponentials of branch 3. -/
theorem ref_exp3 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x13 : (⟨S1024x1024, .f32⟩ : BufTy).Contents (Elt Ideal)) (x14 : (⟨S1024, .f32⟩ : BufTy).Contents (Elt Ideal)) (i : S4x2048x2048.Idx) :
    val_main_v70 (F := Ideal) x0 x1 x2 x3 x4 x13 x14 i
      = Ideal.exp (attnScore (val_main_v6 (F := Ideal) x0 x1 x2 x3 x4) (val_main_v56 (F := Ideal) x2 x13 x14) (i 0) (i 1) (i 2) - attnMax (val_main_v6 (F := Ideal) x0 x1 x2 x3 x4) (val_main_v56 (F := Ideal) x2 x13 x14) (i 0) (i 1)) := by
  rw [val_main_v70_apply, val_main_v69_apply, ref_score3, val_main_v68_apply, val_main_v67_apply, ref_max3]
  rfl

/-- The softmax denominators of branch 3. -/
theorem ref_den3 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x13 : (⟨S1024x1024, .f32⟩ : BufTy).Contents (Elt Ideal)) (x14 : (⟨S1024, .f32⟩ : BufTy).Contents (Elt Ideal)) (i : S4x2048.Idx) :
    val_main_v71 (F := Ideal) x0 x1 x2 x3 x4 x13 x14 i
      = ∑ j : Fin 2048, Ideal.exp (attnScore (val_main_v6 (F := Ideal) x0 x1 x2 x3 x4) (val_main_v56 (F := Ideal) x2 x13 x14) (i 0) (i 1) j - attnMax (val_main_v6 (F := Ideal) x0 x1 x2 x3 x4) (val_main_v56 (F := Ideal) x2 x13 x14) (i 0) (i 1)) := by
  rw [val_main_v71_apply, val_main_cst_9_apply]
  show Ideal.ofBits .f32 0x00000000#32 + _ = _
  rw [Ideal.ofBits_zero_f32, zero_add]
  refine Finset.sum_congr rfl fun j _ => ?_
  rw [ref_exp3]
  rfl

/-- **The reference's attention of branch 3** is the attention formula of its query, key and value stages. -/
theorem ref_attn3 (x0 x1 x2 : (⟨S4x2048x1024, .f32⟩ : BufTy).Contents (Elt Ideal)) (x3 : (⟨S3072x1024, .f32⟩ : BufTy).Contents (Elt Ideal)) (x4 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (i : S4x2048x1024.Idx) :
    val_main_v75 (F := Ideal) x0 x1 x2 x3 x4 x13 x14 x15 x16 i = attnRef (val_main_v6 (F := Ideal) x0 x1 x2 x3 x4) (val_main_v56 (F := Ideal) x2 x13 x14) (val_main_v60 (F := Ideal) x2 x15 x16) i := by
  rw [val_main_v75_apply]
  unfold attnRef
  refine Finset.sum_congr rfl fun j _ => ?_
  have hr : ridx_main_v75 i j = ix3 (i 0) j (i 2) :=
    funext fun a => by
      match a with
      | ⟨0, _⟩ => rfl
      | ⟨1, _⟩ => rfl
      | ⟨2, _⟩ => rfl
  rw [hr, val_main_v74_apply, ref_exp3, val_main_v73_apply, val_main_v72_apply, ref_den3]
  rfl

end Cert.ReferenceIdeal.HandSm

end
-- ==== Proof.CompB1.lean ====
/-
  Branch 1 of the kernel program is branch 1 of the reference: the key projection, the value projection, and the
  attention context.

  Each projection is a stretch of host operations that flattens the input, converts the weight and makes the bias a row,
  a region that computes the linear map over the 8192 rows, and a reshape back; that is the reference's x · W + bias.
  The attention region reads the queries (carried unchanged from the second host stretch), the keys and the values; its
  output is the softmax-weighted average of the value rows, which is what the reference's attention stage computes from
  the same three arrays. The attention region needs its three inputs to be real, which they are because the arguments
  are.
-/
import proofs.«117683_j11484742549629_2_alg».proof.Proof.CompQ
import proofs.«117683_j11484742549629_2_alg».proof.Proof.ValArr1
import proofs.«117683_j11484742549629_2_alg».proof.Proof.ValArr2
import proofs.«117683_j11484742549629_2_alg».proof.Proof.SmArr
import proofs.«117683_j11484742549629_2_alg».proof.Proof.SmRef

set_option maxRecDepth 4096

noncomputable section

namespace Cert.KernelIdeal.HandComp

open Idealize.ShloMosaic Idealize.ShloMosaic.TcCoe Idealize.SL.Sem
open Cert.KernelIdeal Cert.KernelIdeal.Gen Cert.KernelIdeal.Hand Cert.KernelIdeal.HandVal
open Cert.KernelIdeal.HandSm (attnRef)

variable (m : (ℓ : Loc nD τ sig) → Buf (Elt Ideal) ℓ) (c : Dev nD)

/-- The keys of branch 1, as the host stretch after region 1 leaves them. -/
theorem stage_k1 : (U5 m c main_v16 : Arr3) = Cert.ReferenceIdeal.Read.val_main_v10 (F := Ideal) (A0 m c) (A5 m c) (A6 m c) := by
  have hr := read_v16 (U4 m c)
  have hu : U4 m c main_v15 = outArr1 (U3 m) c :=
    Function.update_self (Proc.devRef .tc main_v15 : DevRef τ sig) (outArr1 (U3 m) c) (U3 m c)
  have ha : outArr1 (U3 m) c = _ := arr1 (atTc (U3 m)) c
  refine hr.trans ?_
  rw [hu, ha]
  exact (kv_bridge_of (A0 m c) (A5 m c) (A6 m c) _ _ _
    ((read_v13 (U2 m c)).trans (by rw [arg2_0] <;> rfl))
    ((read_v12 (U2 m c)).trans (by rw [arg2_5] <;> rfl))
    ((read_v14 (U2 m c)).trans (by rw [arg2_6] <;> rfl))).trans rfl

/-- The values of branch 1, as the host stretch after region 2 leaves them. -/
theorem stage_v1 : (U7 m c main_v21 : Arr3) = Cert.ReferenceIdeal.Read.val_main_v14 (F := Ideal) (A0 m c) (A7 m c) (A8 m c) := by
  have hr := read_v21 (U6 m c)
  have hu : U6 m c main_v20 = outArr2 (U5 m) c :=
    Function.update_self (Proc.devRef .tc main_v20 : DevRef τ sig) (outArr2 (U5 m) c) (U5 m c)
  have ha : outArr2 (U5 m) c = _ := arr2 (atTc (U5 m)) c
  refine hr.trans ?_
  rw [hu, ha]
  exact (kv_bridge_of (A0 m c) (A7 m c) (A8 m c) _ _ _
    ((read_v18 (U4 m c)).trans (by rw [arg4_0] <;> rfl))
    ((read_v17 (U4 m c)).trans (by rw [arg4_7] <;> rfl))
    ((read_v19 (U4 m c)).trans (by rw [arg4_8] <;> rfl))).trans (v14_eq _ _ _).symm

/-- The queries where attention region 3 reads them: unchanged since the second host stretch. -/
theorem q_at7 : (U7 m c main_v11 : Arr3) = Cert.ReferenceIdeal.Read.val_main_v6 (F := Ideal) (A0 m c) (A1 m c) (A2 m c) (A3 m c) (A4 m c) :=
  (U7_of m c main_v11 (by decide)).trans ((U6_of m c main_v11 (by decide)).trans ((U5_of m c main_v11 (by decide)).trans ((U4_of m c main_v11 (by decide)).trans (stage_q m c))))

/-- The keys where attention region 3 reads them. -/
theorem k_at7 : (U7 m c main_v16 : Arr3) = Cert.ReferenceIdeal.Read.val_main_v10 (F := Ideal) (A0 m c) (A5 m c) (A6 m c) :=
  (U7_of m c main_v16 (by decide)).trans ((U6_of m c main_v16 (by decide)).trans (stage_k1 m c))

/-- The attention context of branch 1: region 3's output is the reference's attention stage. -/
theorem stage_c1 (hpre : Cert.Pre_KernelIdeal (hPre_finite_inputs := Cert.Pre_finite_inputs.Gen.facts) m) :
    (U8 m c main_v22 : Arr3) = Cert.ReferenceIdeal.Read.val_main_v29 (F := Ideal) (A0 m c) (A1 m c) (A2 m c) (A3 m c) (A4 m c) (A5 m c) (A6 m c) (A7 m c) (A8 m c) := by
  obtain ⟨h0, h1, h2, h3, h4, h5, h6, h7, h8, h9, h10, h11, h12, h13, h14, h15, h16, h17, h18, h19, h20, h21, h22⟩ := Cert.KernelIdeal.HandPre.args_real m hpre c
  have hu : U8 m c main_v22 = attnArr3 (U7 m) c :=
    Function.update_self (Proc.devRef .tc main_v22 : DevRef τ sig) (attnArr3 (U7 m) c) (U7 m c)
  have hq := q_at7 m c
  have hk := k_at7 m c
  have hv := stage_v1 m c
  have hA : attnArr3 (U7 m) c
      = attnRef (U7 m c main_v11 : Arr3) (U7 m c main_v16 : Arr3) (U7 m c main_v21 : Arr3) :=
    (Cert.KernelIdeal.HandSm.attn_arr3 (atTc (U7 m)) c
      (by rw [show (atTc (U7 m) c main_v11 : Arr3) = _ from hq]; exact refQ_real h0 h1 h2 h3 h4)
      (by rw [show (atTc (U7 m) c main_v16 : Arr3) = _ from hk]; exact refLin_real h0 h5 h6)
      (by rw [show (atTc (U7 m) c main_v21 : Arr3) = _ from hv]; exact refLin_real h0 h7 h8)).1
  rw [hu, hA, hq, hk, hv]
  funext i
  exact (Cert.ReferenceIdeal.HandSm.ref_attn1 _ _ _ _ _ _ _ _ _ i).symm

/-- The context of branch 1 has real entries. -/
theorem c1_real (hpre : Cert.Pre_KernelIdeal (hPre_finite_inputs := Cert.Pre_finite_inputs.Gen.facts) m) :
    AllReal (Cert.ReferenceIdeal.Read.val_main_v29 (F := Ideal) (A0 m c) (A1 m c) (A2 m c) (A3 m c) (A4 m c) (A5 m c) (A6 m c) (A7 m c) (A8 m c)) := by
  obtain ⟨h0, h1, h2, h3, h4, h5, h6, h7, h8, h9, h10, h11, h12, h13, h14, h15, h16, h17, h18, h19, h20, h21, h22⟩ := Cert.KernelIdeal.HandPre.args_real m hpre c
  have e : Cert.ReferenceIdeal.Read.val_main_v29 (F := Ideal) (A0 m c) (A1 m c) (A2 m c) (A3 m c) (A4 m c) (A5 m c) (A6 m c) (A7 m c) (A8 m c)
      = attnRef (Cert.ReferenceIdeal.Read.val_main_v6 (F := Ideal) (A0 m c) (A1 m c) (A2 m c) (A3 m c) (A4 m c)) (Cert.ReferenceIdeal.Read.val_main_v10 (F := Ideal) (A0 m c) (A5 m c) (A6 m c))
          (Cert.ReferenceIdeal.Read.val_main_v14 (F := Ideal) (A0 m c) (A7 m c) (A8 m c)) :=
    funext fun i => Cert.ReferenceIdeal.HandSm.ref_attn1 _ _ _ _ _ _ _ _ _ i
  rw [e]
  exact Cert.KernelIdeal.HandSm.attnRef_real _ _ _ (refQ_real h0 h1 h2 h3 h4) (refLin_real h0 h5 h6)
    (refLin_real h0 h7 h8)

end Cert.KernelIdeal.HandComp
-- ==== Proof.ValArr4.lean ====
/-
  From the blocks the grid points write back to the whole result array of a projection region.

  Grid point t of a projection region stages rows 512 t … 512 t + 511 of each activation array, the whole weight
  matrices and the bias row, and writes back the same rows of the result. What it writes is the linear map of
  ValSpec applied to the staged blocks (ValPay); a row of the linear map depends only on the same row of the
  activations, so the block written is the corresponding block of rows of the linear map applied to the whole
  arrays. The 16 blocks tile the 8192 rows, so after the run the result array IS that linear map of the entry arrays.
-/
import proofs.«117683_j11484742549629_2_alg».proof.Proof.LinDat4
import proofs.«117683_j11484742549629_2_alg».proof.Proof.ValPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- what the TensorCore's buffers hold when the region starts
variable (V : (c : Dev nD) → (b : Ref sig .tc) → Buf (Elt Ideal) ((c : Thread nD τ).loc b))

/-! ## Region 4 (a key or value projection) -/

/-- Where region 4's windows sit at grid point t: the activation and result tiles at row block t, the weight and the
    bias row at the origin. Decided over the 16 points. -/
theorem where4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What grid point t writes back is rows 512 t … 512 t + 511 of `lin1` of the three entry arrays. -/
theorem flushed4_eq (c : Dev nD) (t : Fin cfg4.N) :
    (dat4 V c).flushed 3 t
      = ((cfg4.win 3).blk t).view.read (Elt Ideal) (lin1 (R := 8192) (V c main_v24) (V c main_v23) (V c main_v25)) := by
  show (cfg4.win 3).cut (grid4.coords t) ((dat4 V c).after 3 t) = _
  rw [after4_3_pay, k4_pay1_eq]
  obtain ⟨e0, e1, e2, e3, e4, e5, e6, e7⟩ := where4 t
  funext j
  show lin1 (iblk4 V c 0 t) (iblk4 V c 1 t) (iblk4 V c 2 t) j
    = lin1 (R := 8192) (V c main_v24) (V c main_v23) (V c main_v25) (((cfg4.win 3).blk t).view.emb j)
  refine congrArg₂ (· + ·) (Finset.sum_congr rfl fun k _ => congrArg₂ (· * ·) (congrArg (V c main_v24) ?_) (congrArg (V c main_v23) ?_))
    (congrArg (V c main_v25) ?_)
  · funext a; apply Fin.ext
    match a with
    | ⟨0, _⟩ => show win4_0.index t (0 : Fin 2) * 512 + 1 * (j 0).val = win4_3.index t (0 : Fin 2) * 512 + 1 * (j 0).val; omega
    | ⟨1, _⟩ => show win4_0.index t (1 : Fin 2) * 1024 + 1 * k.val = k.val; omega
  · funext a; apply Fin.ext
    match a with
    | ⟨0, _⟩ => show win4_1.index t (0 : Fin 2) * 1024 + 1 * k.val = k.val; omega
    | ⟨1, _⟩ => show win4_1.index t (1 : Fin 2) * 1024 + 1 * (j 1).val = win4_3.index t (1 : Fin 2) * 1024 + 1 * (j 1).val; omega
  · funext a; apply Fin.ext
    match a with
    | ⟨0, _⟩ => show win4_2.index t (0 : Fin 2) * 1 + 1 * 0 = 0; omega
    | ⟨1, _⟩ => show win4_2.index t (1 : Fin 2) * 1024 + 1 * (j 1).val = win4_3.index t (1 : Fin 2) * 1024 + 1 * (j 1).val; omega

/-- An index of the result array lies in point t's block exactly when its coordinates are in the block's ranges. -/
theorem mem_blk4 (t : Fin cfg4.N) (i : S8192x1024.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v26).slice (win4_3.rect t)).set ↔ _
  rw [View.set_slice_whole, Rect.mem_set_unit]
  exact Iff.rfl

/-- The 16 blocks of 512 rows tile the 8192 rows: row r lies in the block of point r / 512. -/
theorem cover4 (i : S8192x1024.Idx) :
    ∃ t : Fin cfg4.N, (cfg4.win 3).flush t = true ∧ i ∈ ((cfg4.win 3).blk t).view.set := by
  have hi0 : (i 0).val < 8192 := (i 0).isLt
  have hi1 : (i 1).val < 1024 := (i 1).isLt
  have hN : cfg4.N = 16 := (by decide : grid4.N = 16)
  let t : Fin cfg4.N := ⟨(i 0).val / 512, by rw [hN]; omega⟩
  obtain ⟨e0, e1, e2, e3, e4, e5, e6, e7⟩ := where4 t
  have ht : t.val = (i 0).val / 512 := rfl
  refine ⟨t, flush4_3 t, ?_⟩
  rw [mem_blk4]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- THE RESULT ARRAY of region 4 after its run: `lin1` of the activation array, the weight and the bias row as the
    region finds them. -/
theorem arr4 (c : Dev nD) :
    (dat4 V c).arrAt 3 cfg4.N = lin1 (R := 8192) (V c main_v24) (V c main_v23) (V c main_v25) :=
  (dat4 V c).arrAt_eq_of_cover 3 _ (fun t _ => flushed4_eq V c t) cover4

end Cert.KernelIdeal.HandVal

end
-- ==== Proof.ValArr5.lean ====
/-
  From the blocks the grid points write back to the whole result array of a projection region.

  Grid point t of a projection region stages rows 512 t … 512 t + 511 of each activation array, the whole weight
  matrices and the bias row, and writes back the same rows of the result. What it writes is the linear map of
  ValSpec applied to the staged blocks (ValPay); a row of the linear map depends only on the same row of the
  activations, so the block written is the corresponding block of rows of the linear map applied to the whole
  arrays. The 16 blocks tile the 8192 rows, so after the run the result array IS that linear map of the entry arrays.
-/
import proofs.«117683_j11484742549629_2_alg».proof.Proof.LinDat5
import proofs.«117683_j11484742549629_2_alg».proof.Proof.ValPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- what the TensorCore's buffers hold when the region starts
variable (V : (c : Dev nD) → (b : Ref sig .tc) → Buf (Elt Ideal) ((c : Thread nD τ).loc b))

/-! ## Region 5 (a key or value projection) -/

/-- Where region 5's windows sit at grid point t: the activation and result tiles at row block t, the weight and the
    bias row at the origin. Decided over the 16 points. -/
theorem where5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What grid point t writes back is rows 512 t … 512 t + 511 of `lin1` of the three entry arrays. -/
theorem flushed5_eq (c : Dev nD) (t : Fin cfg5.N) :
    (dat5 V c).flushed 3 t
      = ((cfg5.win 3).blk t).view.read (Elt Ideal) (lin1 (R := 8192) (V c main_v29) (V c main_v28) (V c main_v30)) := by
  show (cfg5.win 3).cut (grid5.coords t) ((dat5 V c).after 3 t) = _
  rw [after5_3_pay, k5_pay1_eq]
  obtain ⟨e0, e1, e2, e3, e4, e5, e6, e7⟩ := where5 t
  funext j
  show lin1 (iblk5 V c 0 t) (iblk5 V c 1 t) (iblk5 V c 2 t) j
    = lin1 (R := 8192) (V c main_v29) (V c main_v28) (V c main_v30) (((cfg5.win 3).blk t).view.emb j)
  refine congrArg₂ (· + ·) (Finset.sum_congr rfl fun k _ => congrArg₂ (· * ·) (congrArg (V c main_v29) ?_) (congrArg (V c main_v28) ?_))
    (congrArg (V c main_v30) ?_)
  · funext a; apply Fin.ext
    match a with
    | ⟨0, _⟩ => show win5_0.index t (0 : Fin 2) * 512 + 1 * (j 0).val = win5_3.index t (0 : Fin 2) * 512 + 1 * (j 0).val; omega
    | ⟨1, _⟩ => show win5_0.index t (1 : Fin 2) * 1024 + 1 * k.val = k.val; omega
  · funext a; apply Fin.ext
    match a with
    | ⟨0, _⟩ => show win5_1.index t (0 : Fin 2) * 1024 + 1 * k.val = k.val; omega
    | ⟨1, _⟩ => show win5_1.index t (1 : Fin 2) * 1024 + 1 * (j 1).val = win5_3.index t (1 : Fin 2) * 1024 + 1 * (j 1).val; omega
  · funext a; apply Fin.ext
    match a with
    | ⟨0, _⟩ => show win5_2.index t (0 : Fin 2) * 1 + 1 * 0 = 0; omega
    | ⟨1, _⟩ => show win5_2.index t (1 : Fin 2) * 1024 + 1 * (j 1).val = win5_3.index t (1 : Fin 2) * 1024 + 1 * (j 1).val; omega

/-- An index of the result array lies in point t's block exactly when its coordinates are in the block's ranges. -/
theorem mem_blk5 (t : Fin cfg5.N) (i : S8192x1024.Idx) :
    i ∈ ((cfg5.win 3).blk t).view.set ↔ ∀ a : Fin 2, win5_3.index t a * S512x1024.size a ≤ (i a).val
      ∧ (i a).val < win5_3.index t a * S512x1024.size a + S512x1024.size a := by
  show i ∈ ((View.whole main_v31).slice (win5_3.rect t)).set ↔ _
  rw [View.set_slice_whole, Rect.mem_set_unit]
  exact Iff.rfl

/-- The 16 blocks of 512 rows tile the 8192 rows: row r lies in the block of point r / 512. -/
theorem cover5 (i : S8192x1024.Idx) :
    ∃ t : Fin cfg5.N, (cfg5.win 3).flush t = true ∧ i ∈ ((cfg5.win 3).blk t).view.set := by
  have hi0 : (i 0).val < 8192 := (i 0).isLt
  have hi1 : (i 1).val < 1024 := (i 1).isLt
  have hN : cfg5.N = 16 := (by decide : grid5.N = 16)
  let t : Fin cfg5.N := ⟨(i 0).val / 512, by rw [hN]; omega⟩
  obtain ⟨e0, e1, e2, e3, e4, e5, e6, e7⟩ := where5 t
  have ht : t.val = (i 0).val / 512 := rfl
  refine ⟨t, flush5_3 t, ?_⟩
  rw [mem_blk5]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 1024 ≤ (i 1).val ∧ (i 1).val < win5_3.index t (1 : Fin 2) * 1024 + 1024; omega

/-- THE RESULT ARRAY of region 5 after its run: `lin1` of the activation array, the weight and the bias row as the
    region finds them. -/
theorem arr5 (c : Dev nD) :
    (dat5 V c).arrAt 3 cfg5.N = lin1 (R := 8192) (V c main_v29) (V c main_v28) (V c main_v30) :=
  (dat5 V c).arrAt_eq_of_cover 3 _ (fun t _ => flushed5_eq V c t) cover5

end Cert.KernelIdeal.HandVal

end
-- ==== Proof.SmArr6.lean ====
import proofs.«117683_j11484742549629_2_alg».proof.Proof.AttnDat6
import proofs.«117683_j11484742549629_2_alg».proof.Proof.SmArr
import proofs.«117683_j11484742549629_2_alg».proof.Proof.SmStage
import Idealize.ShloMosaic.Lib.Pipeline.Value
import Idealize.ShloMosaic.Lib.Decide

/-!
# The array the attention launch of branch 2 leaves

The launch runs over the grid batch × query tile × key tile (4 × 4 × 4, the key tile innermost), so grid
point `t` has batch `t / 16`, query tile `t / 4 mod 4` and key tile `t mod 4`.  Its query block is rows
`512 · (query tile) …` of the batch of the query array, its key and value blocks are rows
`512 · (key tile) …` of the batch of the key and value arrays, and at the last key tile it writes the
output block back to rows `512 · (query tile) …` of the batch of the result array.  So the carried state at a
last key tile is the four-tile run on tiles cut from the arrays, every row of the result is written by
exactly the point of its batch and query tile at the last key tile, and the result array ends holding the
attention formula of the three arrays.
-/

set_option maxRecDepth 16384

noncomputable section

namespace Cert.KernelIdeal.HandSm

open Cert.KernelIdeal Cert.KernelIdeal.Gen Cert.KernelIdeal.Hand Cert.KernelIdeal.HandVal
open Idealize.ShloMosaic Idealize.ShloMosaic.TcCoe Idealize.ShloMosaic.ValueIdx
open Idealize.ShloMosaic.Pipeline (Dat Cfg Window)

/-- The printed index maps of the four windows, decided over the 64 grid points. -/
theorem tile_indices6 : ∀ t : Fin cfg6.N,
    win6_0.index t (0 : Fin 3) = t.val / 16 ∧ win6_0.index t (1 : Fin 3) = t.val / 4 % 4
    ∧ win6_0.index t (2 : Fin 3) = 0
    ∧ win6_1.index t (0 : Fin 3) = t.val / 16 ∧ win6_1.index t (1 : Fin 3) = t.val % 4
    ∧ win6_1.index t (2 : Fin 3) = 0
    ∧ win6_2.index t (0 : Fin 3) = t.val / 16 ∧ win6_2.index t (1 : Fin 3) = t.val % 4
    ∧ win6_2.index t (2 : Fin 3) = 0
    ∧ win6_3.index t (0 : Fin 3) = t.val / 16 ∧ win6_3.index t (1 : Fin 3) = t.val / 4 % 4
    ∧ win6_3.index t (2 : Fin 3) = 0 :=
  (by decide +kernel : ∀ t : Fin grid6.N, _)

variable (V : (c : Dev nD) → (b : Ref sig .tc) → Buf (Elt Ideal) ((c : Thread nD τ).loc b))

/-- The query block of a point is the query tile of its batch and query tile. -/
theorem qBlk6_eq (c : Dev nD) (t : Fin cfg6.N) :
    qBlk6 V c t = qTile (V c main_v11 : Arr3) (batchOf t.val) (qtileOf t.val) := by
  funext j
  show V c main_v11 (((cfg6.win 0).blk t).view.emb j)
    = (V c main_v11 : Arr3) (ix3 (batchOf t.val) (rowOf (qtileOf t.val) (j 1)) (j 2))
  obtain ⟨e0, e1, e2, -⟩ := tile_indices6 t
  have ht : t.val < 64 := t.isLt
  refine congrArg (V c main_v11) (funext fun a => Fin.ext ?_)
  match a with
  | ⟨0, _⟩ =>
    show win6_0.index t (0 : Fin 3) * 1 + 1 * (j 0).val = t.val / 16 % 4
    have : (j 0).val < 1 := (j 0).isLt
    omega
  | ⟨1, _⟩ =>
    show win6_0.index t (1 : Fin 3) * 512 + 1 * (j 1).val = t.val / 4 % 4 * 512 + (j 1).val
    omega
  | ⟨2, _⟩ =>
    show win6_0.index t (2 : Fin 3) * 1024 + 1 * (j 2).val = (j 2).val
    omega

/-- The key block of a point is the key tile of its batch and key tile. -/
theorem kBlk6_eq (c : Dev nD) (t : Fin cfg6.N) :
    kBlk6 V c t = kTile (V c main_v27 : Arr3) (batchOf t.val) (t.val % 4) := by
  funext j
  show V c main_v27 (((cfg6.win 1).blk t).view.emb j)
    = (V c main_v27 : Arr3) (ix3 (batchOf t.val) (keyOf (t.val % 4 * 512 + (j 1).val)) (j 2))
  obtain ⟨-, -, -, e0, e1, e2, -⟩ := tile_indices6 t
  have ht : t.val < 64 := t.isLt
  refine congrArg (V c main_v27) (funext fun a => Fin.ext ?_)
  match a with
  | ⟨0, _⟩ =>
    show win6_1.index t (0 : Fin 3) * 1 + 1 * (j 0).val = t.val / 16 % 4
    have : (j 0).val < 1 := (j 0).isLt
    omega
  | ⟨1, _⟩ =>
    show win6_1.index t (1 : Fin 3) * 512 + 1 * (j 1).val = (t.val % 4 * 512 + (j 1).val) % 2048
    have : (j 1).val < 512 := (j 1).isLt
    omega
  | ⟨2, _⟩ =>
    show win6_1.index t (2 : Fin 3) * 1024 + 1 * (j 2).val = (j 2).val
    omega

/-- The value block of a point is the value tile of its batch and key tile. -/
theorem vBlk6_eq (c : Dev nD) (t : Fin cfg6.N) :
    vBlk6 V c t = kTile (V c main_v32 : Arr3) (batchOf t.val) (t.val % 4) := by
  funext j
  show V c main_v32 (((cfg6.win 2).blk t).view.emb j)
    = (V c main_v32 : Arr3) (ix3 (batchOf t.val) (keyOf (t.val % 4 * 512 + (j 1).val)) (j 2))
  obtain ⟨-, -, -, -, -, -, e0, e1, e2, -⟩ := tile_indices6 t
  have ht : t.val < 64 := t.isLt
  refine congrArg (V c main_v32) (funext fun a => Fin.ext ?_)
  match a with
  | ⟨0, _⟩ =>
    show win6_2.index t (0 : Fin 3) * 1 + 1 * (j 0).val = t.val / 16 % 4
    have : (j 0).val < 1 := (j 0).isLt
    omega
  | ⟨1, _⟩ =>
    show win6_2.index t (1 : Fin 3) * 512 + 1 * (j 1).val = (t.val % 4 * 512 + (j 1).val) % 2048
    have : (j 1).val < 512 := (j 1).isLt
    omega
  | ⟨2, _⟩ =>
    show win6_2.index t (2 : Fin 3) * 1024 + 1 * (j 2).val = (j 2).val
    omega

/-- The state a last key tile leaves is the four-tile run on the tiles of the point's batch and query tile. -/
theorem scr6_last (c : Dev nD) (t : Fin cfg6.N) (h3 : t.val % 4 = 3) :
    scr6 V c t = attnRun (qTile (V c main_v11 : Arr3) (batchOf t.val) (qtileOf t.val))
      (kTile (V c main_v27 : Arr3) (batchOf t.val)) (kTile (V c main_v32 : Arr3) (batchOf t.val)) 4 := by
  have ht : t.val < 64 := t.isLt
  have b1 : batchOf (t.val - 1) = batchOf t.val := Fin.ext (by show (t.val - 1) / 16 % 4 = t.val / 16 % 4; omega)
  have b2 : batchOf (t.val - 1 - 1) = batchOf t.val :=
    Fin.ext (by show (t.val - 1 - 1) / 16 % 4 = t.val / 16 % 4; omega)
  have b3 : batchOf (t.val - 1 - 1 - 1) = batchOf t.val :=
    Fin.ext (by show (t.val - 1 - 1 - 1) / 16 % 4 = t.val / 16 % 4; omega)
  have q3 : qtileOf (t.val - 1 - 1 - 1) = qtileOf t.val :=
    Fin.ext (by show (t.val - 1 - 1 - 1) / 4 % 4 = t.val / 4 % 4; omega)
  have k0 : (t.val - 1 - 1 - 1) % 4 = 0 := by omega
  have k1 : (t.val - 1 - 1) % 4 = 1 := by omega
  have k2 : (t.val - 1) % 4 = 2 := by omega
  rw [scr6_next V c t (by omega),
    scr6_next V c ⟨t.val - 1, _⟩ (by show ¬ (t.val - 1) % 4 = 0; omega),
    scr6_next V c ⟨t.val - 1 - 1, _⟩ (by show ¬ (t.val - 1 - 1) % 4 = 0; omega),
    scr6_first V c ⟨t.val - 1 - 1 - 1, _⟩ k0]
  simp only [kBlk6_eq, vBlk6_eq, qBlk6_eq, b1, b2, b3, q3, k0, k1, k2, h3]
  rfl

/-- Where a point's output block sits in the result array. -/
theorem out_emb6 (t : Fin cfg6.N) (j : ((cfg6.win 3).xblock (cfg6.grid.coords t)).Idx) :
    ((cfg6.win 3).blk t).view.emb j = ix3 (batchOf t.val) (rowOf (qtileOf t.val) (j 1)) (j 2) := by
  obtain ⟨-, -, -, -, -, -, -, -, -, e0, e1, e2⟩ := tile_indices6 t
  have ht : t.val < 64 := t.isLt
  refine funext fun a => Fin.ext ?_
  match a with
  | ⟨0, _⟩ =>
    show win6_3.index t (0 : Fin 3) * 1 + 1 * (j 0).val = t.val / 16 % 4
    have : (j 0).val < 1 := (j 0).isLt
    omega
  | ⟨1, _⟩ =>
    show win6_3.index t (1 : Fin 3) * 512 + 1 * (j 1).val = t.val / 4 % 4 * 512 + (j 1).val
    omega
  | ⟨2, _⟩ =>
    show win6_3.index t (2 : Fin 3) * 1024 + 1 * (j 2).val = (j 2).val
    omega

/-- What a last key tile writes back is its block of the attention formula of the three arrays. -/
theorem flushed6_eq (c : Dev nD) (hq : AllReal (V c main_v11 : Arr3)) (hk : AllReal (V c main_v27 : Arr3))
    (hv : AllReal (V c main_v32 : Arr3)) (t : Fin cfg6.N) (hf : (cfg6.win 3).flush t = true) :
    (dat6 V c).flushed 3 t = ((cfg6.win 3).blk t).view.read (Elt Ideal)
      (attnRef (V c main_v11 : Arr3) (V c main_v27 : Arr3) (V c main_v32 : Arr3)) := by
  have h3 : t.val % 4 = 3 := (flush6_3 t).mp hf
  show (cfg6.win 3).cut (grid6.coords t) ((dat6 V c).after 3 t) = _
  rw [after6_3]
  funext j
  show attnOut (scr6 V c t) j
    = attnRef (V c main_v11 : Arr3) (V c main_v27 : Arr3) (V c main_v32 : Arr3) (((cfg6.win 3).blk t).view.emb j)
  rw [out_emb6, scr6_last V c t h3]
  have hj : j = ix3 0 (j 1) (j 2) :=
    funext fun a => by
      match a with
      | ⟨0, _⟩ => exact Fin.ext (by have : (j 0).val < 1 := (j 0).isLt; show (j 0).val = 0; omega)
      | ⟨1, _⟩ => rfl
      | ⟨2, _⟩ => rfl
  have key := (attn_tile_eq_ref (V c main_v11 : Arr3) (V c main_v27 : Arr3) (V c main_v32 : Arr3) hq hk hv
    (batchOf t.val) (qtileOf t.val) (j 1) (j 2)).1
  exact (congrArg (attnOut (attnRun (qTile (V c main_v11 : Arr3) (batchOf t.val) (qtileOf t.val))
    (kTile (V c main_v27 : Arr3) (batchOf t.val)) (kTile (V c main_v32 : Arr3) (batchOf t.val)) 4)) hj).trans key

/-- An index of the result array is in a point's block iff each coordinate is in the block's range. -/
theorem mem_blk6 (t : Fin cfg6.N) (i : S4x2048x1024.Idx) :
    i ∈ ((cfg6.win 3).blk t).view.set
      ↔ ∀ a : Fin 3, win6_3.index t a * S1x512x1024.size a ≤ (i a).val
          ∧ (i a).val < win6_3.index t a * S1x512x1024.size a + S1x512x1024.size a := by
  show i ∈ ((View.whole main_v33).slice (win6_3.rect t)).set ↔ _
  rw [View.set_slice_whole, Rect.mem_set_unit]
  exact Iff.rfl

/-- Every row of the result is written by the point of its batch and query tile at the last key tile. -/
theorem cover6 (i : S4x2048x1024.Idx) :
    ∃ t : Fin cfg6.N, (cfg6.win 3).flush t = true ∧ i ∈ ((cfg6.win 3).blk t).view.set := by
  have h0 : (i 0).val < 4 := (i 0).isLt
  have h1 : (i 1).val < 2048 := (i 1).isLt
  have h2 : (i 2).val < 1024 := (i 2).isLt
  refine ⟨⟨((i 0).val * 4 + (i 1).val / 512) * 4 + 3, by show _ < 64; omega⟩, ?_, ?_⟩
  · exact (flush6_3 _).mpr (by show (((i 0).val * 4 + (i 1).val / 512) * 4 + 3) % 4 = 3; omega)
  · rw [mem_blk6]
    obtain ⟨-, -, -, -, -, -, -, -, -, e0, e1, e2⟩ :=
      tile_indices6 ⟨((i 0).val * 4 + (i 1).val / 512) * 4 + 3, by show _ < 64; omega⟩
    intro a
    match a with
    | ⟨0, _⟩ =>
      show win6_3.index _ (0 : Fin 3) * 1 ≤ (i 0).val ∧ (i 0).val < win6_3.index _ (0 : Fin 3) * 1 + 1
      rw [e0]
      show (((i 0).val * 4 + (i 1).val / 512) * 4 + 3) / 16 * 1 ≤ (i 0).val
        ∧ (i 0).val < (((i 0).val * 4 + (i 1).val / 512) * 4 + 3) / 16 * 1 + 1
      omega
    | ⟨1, _⟩ =>
      show win6_3.index _ (1 : Fin 3) * 512 ≤ (i 1).val ∧ (i 1).val < win6_3.index _ (1 : Fin 3) * 512 + 512
      rw [e1]
      show (((i 0).val * 4 + (i 1).val / 512) * 4 + 3) / 4 % 4 * 512 ≤ (i 1).val
        ∧ (i 1).val < (((i 0).val * 4 + (i 1).val / 512) * 4 + 3) / 4 % 4 * 512 + 512
      omega
    | ⟨2, _⟩ =>
      show win6_3.index _ (2 : Fin 3) * 1024 ≤ (i 2).val ∧ (i 2).val < win6_3.index _ (2 : Fin 3) * 1024 + 1024
      rw [e2]
      omega

/-- **The result array of the attention launch of branch 2** is the attention formula of the query, key and
    value arrays the launch finds, which is finite when they are. -/
theorem attn_arr6 (c : Dev nD) (hq : AllReal (V c main_v11 : Arr3)) (hk : AllReal (V c main_v27 : Arr3))
    (hv : AllReal (V c main_v32 : Arr3)) :
    (dat6 V c).arrAt 3 cfg6.N = attnRef (V c main_v11 : Arr3) (V c main_v27 : Arr3) (V c main_v32 : Arr3)
      ∧ AllReal (attnRef (V c main_v11 : Arr3) (V c main_v27 : Arr3) (V c main_v32 : Arr3)) :=
  ⟨(dat6 V c).arrAt_eq_of_cover 3 _ (fun t hf => flushed6_eq V c hq hk hv t hf) cover6,
    attnRef_real _ _ _ hq hk hv⟩

end Cert.KernelIdeal.HandSm

end
-- ==== Proof.CompB2.lean ====
/-
  Branch 2 of the kernel program is branch 2 of the reference: the key projection, the value projection, and the
  attention context.

  Each projection is a stretch of host operations that flattens the input, converts the weight and makes the bias a row,
  a region that computes the linear map over the 8192 rows, and a reshape back; that is the reference's x · W + bias.
  The attention region reads the queries (carried unchanged from the second host stretch), the keys and the values; its
  output is the softmax-weighted average of the value rows, which is what the reference's attention stage computes from
  the same three arrays. The attention region needs its three inputs to be real, which they are because the arguments
  are.
-/
import proofs.«117683_j11484742549629_2_alg».proof.Proof.CompQ
import proofs.«117683_j11484742549629_2_alg».proof.Proof.ValArr4
import proofs.«117683_j11484742549629_2_alg».proof.Proof.ValArr5
import proofs.«117683_j11484742549629_2_alg».proof.Proof.SmArr6
import proofs.«117683_j11484742549629_2_alg».proof.Proof.SmRef

set_option maxRecDepth 4096

noncomputable section

namespace Cert.KernelIdeal.HandComp

open Idealize.ShloMosaic Idealize.ShloMosaic.TcCoe Idealize.SL.Sem
open Cert.KernelIdeal Cert.KernelIdeal.Gen Cert.KernelIdeal.Hand Cert.KernelIdeal.HandVal
open Cert.KernelIdeal.HandSm (attnRef)

variable (m : (ℓ : Loc nD τ sig) → Buf (Elt Ideal) ℓ) (c : Dev nD)

/-- The keys of branch 2, as the host stretch after region 4 leaves them. -/
theorem stage_k2 : (U11 m c main_v27 : Arr3) = Cert.ReferenceIdeal.Read.val_main_v33 (F := Ideal) (A1 m c) (A9 m c) (A10 m c) := by
  have hr := read_v27 (U10 m c)
  have hu : U10 m c main_v26 = outArr4 (U9 m) c :=
    Function.update_self (Proc.devRef .tc main_v26 : DevRef τ sig) (outArr4 (U9 m) c) (U9 m c)
  have ha : outArr4 (U9 m) c = _ := arr4 (atTc (U9 m)) c
  refine hr.trans ?_
  rw [hu, ha]
  exact (kv_bridge_of (A1 m c) (A9 m c) (A10 m c) _ _ _
    ((read_v24 (U8 m c)).trans (by rw [arg8_1] <;> rfl))
    ((read_v23 (U8 m c)).trans (by rw [arg8_9] <;> rfl))
    ((read_v25 (U8 m c)).trans (by rw [arg8_10] <;> rfl))).trans (v33_eq _ _ _).symm

/-- The values of branch 2, as the host stretch after region 5 leaves them. -/
theorem stage_v2 : (U13 m c main_v32 : Arr3) = Cert.ReferenceIdeal.Read.val_main_v37 (F := Ideal) (A1 m c) (A11 m c) (A12 m c) := by
  have hr := read_v32 (U12 m c)
  have hu : U12 m c main_v31 = outArr5 (U11 m) c :=
    Function.update_self (Proc.devRef .tc main_v31 : DevRef τ sig) (outArr5 (U11 m) c) (U11 m c)
  have ha : outArr5 (U11 m) c = _ := arr5 (atTc (U11 m)) c
  refine hr.trans ?_
  rw [hu, ha]
  exact (kv_bridge_of (A1 m c) (A11 m c) (A12 m c) _ _ _
    ((read_v29 (U10 m c)).trans (by rw [arg10_1] <;> rfl))
    ((read_v28 (U10 m c)).trans (by rw [arg10_11] <;> rfl))
    ((read_v30 (U10 m c)).trans (by rw [arg10_12] <;> rfl))).trans (v37_eq _ _ _).symm

/-- The queries where attention region 6 reads them: unchanged since the second host stretch. -/
theorem q_at13 : (U13 m c main_v11 : Arr3) = Cert.ReferenceIdeal.Read.val_main_v6 (F := Ideal) (A0 m c) (A1 m c) (A2 m c) (A3 m c) (A4 m c) :=
  (U13_of m c main_v11 (by decide)).trans ((U12_of m c main_v11 (by decide)).trans ((U11_of m c main_v11 (by decide)).trans ((U10_of m c main_v11 (by decide)).trans ((U9_of m c main_v11 (by decide)).trans ((U8_of m c main_v11 (by decide)).trans ((U7_of m c main_v11 (by decide)).trans ((U6_of m c main_v11 (by decide)).trans ((U5_of m c main_v11 (by decide)).trans ((U4_of m c main_v11 (by decide)).trans (stage_q m c))))))))))

/-- The keys where attention region 6 reads them. -/
theorem k_at13 : (U13 m c main_v27 : Arr3) = Cert.ReferenceIdeal.Read.val_main_v33 (F := Ideal) (A1 m c) (A9 m c) (A10 m c) :=
  (U13_of m c main_v27 (by decide)).trans ((U12_of m c main_v27 (by decide)).trans (stage_k2 m c))

/-- The attention context of branch 2: region 6's output is the reference's attention stage. -/
theorem stage_c2 (hpre : Cert.Pre_KernelIdeal (hPre_finite_inputs := Cert.Pre_finite_inputs.Gen.facts) m) :
    (U14 m c main_v33 : Arr3) = Cert.ReferenceIdeal.Read.val_main_v52 (F := Ideal) (A0 m c) (A1 m c) (A2 m c) (A3 m c) (A4 m c) (A9 m c) (A10 m c) (A11 m c) (A12 m c) := by
  obtain ⟨h0, h1, h2, h3, h4, h5, h6, h7, h8, h9, h10, h11, h12, h13, h14, h15, h16, h17, h18, h19, h20, h21, h22⟩ := Cert.KernelIdeal.HandPre.args_real m hpre c
  have hu : U14 m c main_v33 = attnArr6 (U13 m) c :=
    Function.update_self (Proc.devRef .tc main_v33 : DevRef τ sig) (attnArr6 (U13 m) c) (U13 m c)
  have hq := q_at13 m c
  have hk := k_at13 m c
  have hv := stage_v2 m c
  have hA : attnArr6 (U13 m) c
      = attnRef (U13 m c main_v11 : Arr3) (U13 m c main_v27 : Arr3) (U13 m c main_v32 : Arr3) :=
    (Cert.KernelIdeal.HandSm.attn_arr6 (atTc (U13 m)) c
      (by rw [show (atTc (U13 m) c main_v11 : Arr3) = _ from hq]; exact refQ_real h0 h1 h2 h3 h4)
      (by rw [show (atTc (U13 m) c main_v27 : Arr3) = _ from hk]; exact refLin_real h1 h9 h10)
      (by rw [show (atTc (U13 m) c main_v32 : Arr3) = _ from hv]; exact refLin_real h1 h11 h12)).1
  rw [hu, hA, hq, hk, hv]
  funext i
  exact (Cert.ReferenceIdeal.HandSm.ref_attn2 _ _ _ _ _ _ _ _ _ i).symm

/-- The context of branch 2 has real entries. -/
theorem c2_real (hpre : Cert.Pre_KernelIdeal (hPre_finite_inputs := Cert.Pre_finite_inputs.Gen.facts) m) :
    AllReal (Cert.ReferenceIdeal.Read.val_main_v52 (F := Ideal) (A0 m c) (A1 m c) (A2 m c) (A3 m c) (A4 m c) (A9 m c) (A10 m c) (A11 m c) (A12 m c)) := by
  obtain ⟨h0, h1, h2, h3, h4, h5, h6, h7, h8, h9, h10, h11, h12, h13, h14, h15, h16, h17, h18, h19, h20, h21, h22⟩ := Cert.KernelIdeal.HandPre.args_real m hpre c
  have e : Cert.ReferenceIdeal.Read.val_main_v52 (F := Ideal) (A0 m c) (A1 m c) (A2 m c) (A3 m c) (A4 m c) (A9 m c) (A10 m c) (A11 m c) (A12 m c)
      = attnRef (Cert.ReferenceIdeal.Read.val_main_v6 (F := Ideal) (A0 m c) (A1 m c) (A2 m c) (A3 m c) (A4 m c)) (Cert.ReferenceIdeal.Read.val_main_v33 (F := Ideal) (A1 m c) (A9 m c) (A10 m c))
          (Cert.ReferenceIdeal.Read.val_main_v37 (F := Ideal) (A1 m c) (A11 m c) (A12 m c)) :=
    funext fun i => Cert.ReferenceIdeal.HandSm.ref_attn2 _ _ _ _ _ _ _ _ _ i
  rw [e]
  exact Cert.KernelIdeal.HandSm.attnRef_real _ _ _ (refQ_real h0 h1 h2 h3 h4) (refLin_real h1 h9 h10)
    (refLin_real h1 h11 h12)

end Cert.KernelIdeal.HandComp
-- ==== Proof.ValArr7.lean ====
/-
  From the blocks the grid points write back to the whole result array of a projection region.

  Grid point t of a projection region stages rows 512 t … 512 t + 511 of each activation array, the whole weight
  matrices and the bias row, and writes back the same rows of the result. What it writes is the linear map of
  ValSpec applied to the staged blocks (ValPay); a row of the linear map depends only on the same row of the
  activations, so the block written is the corresponding block of rows of the linear map applied to the whole
  arrays. The 16 blocks tile the 8192 rows, so after the run the result array IS that linear map of the entry arrays.
-/
import proofs.«117683_j11484742549629_2_alg».proof.Proof.LinDat7
import proofs.«117683_j11484742549629_2_alg».proof.Proof.ValPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- what the TensorCore's buffers hold when the region starts
variable (V : (c : Dev nD) → (b : Ref sig .tc) → Buf (Elt Ideal) ((c : Thread nD τ).loc b))

/-! ## Region 7 (a key or value projection) -/

/-- Where region 7's windows sit at grid point t: the activation and result tiles at row block t, the weight and the
    bias row at the origin. Decided over the 16 points. -/
theorem where7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What grid point t writes back is rows 512 t … 512 t + 511 of `lin1` of the three entry arrays. -/
theorem flushed7_eq (c : Dev nD) (t : Fin cfg7.N) :
    (dat7 V c).flushed 3 t
      = ((cfg7.win 3).blk t).view.read (Elt Ideal) (lin1 (R := 8192) (V c main_v35) (V c main_v34) (V c main_v36)) := by
  show (cfg7.win 3).cut (grid7.coords t) ((dat7 V c).after 3 t) = _
  rw [after7_3_pay, k7_pay1_eq]
  obtain ⟨e0, e1, e2, e3, e4, e5, e6, e7⟩ := where7 t
  funext j
  show lin1 (iblk7 V c 0 t) (iblk7 V c 1 t) (iblk7 V c 2 t) j
    = lin1 (R := 8192) (V c main_v35) (V c main_v34) (V c main_v36) (((cfg7.win 3).blk t).view.emb j)
  refine congrArg₂ (· + ·) (Finset.sum_congr rfl fun k _ => congrArg₂ (· * ·) (congrArg (V c main_v35) ?_) (congrArg (V c main_v34) ?_))
    (congrArg (V c main_v36) ?_)
  · funext a; apply Fin.ext
    match a with
    | ⟨0, _⟩ => show win7_0.index t (0 : Fin 2) * 512 + 1 * (j 0).val = win7_3.index t (0 : Fin 2) * 512 + 1 * (j 0).val; omega
    | ⟨1, _⟩ => show win7_0.index t (1 : Fin 2) * 1024 + 1 * k.val = k.val; omega
  · funext a; apply Fin.ext
    match a with
    | ⟨0, _⟩ => show win7_1.index t (0 : Fin 2) * 1024 + 1 * k.val = k.val; omega
    | ⟨1, _⟩ => show win7_1.index t (1 : Fin 2) * 1024 + 1 * (j 1).val = win7_3.index t (1 : Fin 2) * 1024 + 1 * (j 1).val; omega
  · funext a; apply Fin.ext
    match a with
    | ⟨0, _⟩ => show win7_2.index t (0 : Fin 2) * 1 + 1 * 0 = 0; omega
    | ⟨1, _⟩ => show win7_2.index t (1 : Fin 2) * 1024 + 1 * (j 1).val = win7_3.index t (1 : Fin 2) * 1024 + 1 * (j 1).val; omega

/-- An index of the result array lies in point t's block exactly when its coordinates are in the block's ranges. -/
theorem mem_blk7 (t : Fin cfg7.N) (i : S8192x1024.Idx) :
    i ∈ ((cfg7.win 3).blk t).view.set ↔ ∀ a : Fin 2, win7_3.index t a * S512x1024.size a ≤ (i a).val
      ∧ (i a).val < win7_3.index t a * S512x1024.size a + S512x1024.size a := by
  show i ∈ ((View.whole main_v37).slice (win7_3.rect t)).set ↔ _
  rw [View.set_slice_whole, Rect.mem_set_unit]
  exact Iff.rfl

/-- The 16 blocks of 512 rows tile the 8192 rows: row r lies in the block of point r / 512. -/
theorem cover7 (i : S8192x1024.Idx) :
    ∃ t : Fin cfg7.N, (cfg7.win 3).flush t = true ∧ i ∈ ((cfg7.win 3).blk t).view.set := by
  have hi0 : (i 0).val < 8192 := (i 0).isLt
  have hi1 : (i 1).val < 1024 := (i 1).isLt
  have hN : cfg7.N = 16 := (by decide : grid7.N = 16)
  let t : Fin cfg7.N := ⟨(i 0).val / 512, by rw [hN]; omega⟩
  obtain ⟨e0, e1, e2, e3, e4, e5, e6, e7⟩ := where7 t
  have ht : t.val = (i 0).val / 512 := rfl
  refine ⟨t, flush7_3 t, ?_⟩
  rw [mem_blk7]
  intro a
  match a with
  | ⟨0, _⟩ => show win7_3.index t (0 : Fin 2) * 512 ≤ (i 0).val ∧ (i 0).val < win7_3.index t (0 : Fin 2) * 512 + 512; omega
  | ⟨1, _⟩ => show win7_3.index t (1 : Fin 2) * 1024 ≤ (i 1).val ∧ (i 1).val < win7_3.index t (1 : Fin 2) * 1024 + 1024; omega

/-- THE RESULT ARRAY of region 7 after its run: `lin1` of the activation array, the weight and the bias row as the
    region finds them. -/
theorem arr7 (c : Dev nD) :
    (dat7 V c).arrAt 3 cfg7.N = lin1 (R := 8192) (V c main_v35) (V c main_v34) (V c main_v36) :=
  (dat7 V c).arrAt_eq_of_cover 3 _ (fun t _ => flushed7_eq V c t) cover7

end Cert.KernelIdeal.HandVal

end
-- ==== Proof.ValArr8.lean ====
/-
  From the blocks the grid points write back to the whole result array of a projection region.

  Grid point t of a projection region stages rows 512 t … 512 t + 511 of each activation array, the whole weight
  matrices and the bias row, and writes back the same rows of the result. What it writes is the linear map of
  ValSpec applied to the staged blocks (ValPay); a row of the linear map depends only on the same row of the
  activations, so the block written is the corresponding block of rows of the linear map applied to the whole
  arrays. The 16 blocks tile the 8192 rows, so after the run the result array IS that linear map of the entry arrays.
-/
import proofs.«117683_j11484742549629_2_alg».proof.Proof.LinDat8
import proofs.«117683_j11484742549629_2_alg».proof.Proof.ValPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- what the TensorCore's buffers hold when the region starts
variable (V : (c : Dev nD) → (b : Ref sig .tc) → Buf (Elt Ideal) ((c : Thread nD τ).loc b))

/-! ## Region 8 (a key or value projection) -/

/-- Where region 8's windows sit at grid point t: the activation and result tiles at row block t, the weight and the
    bias row at the origin. Decided over the 16 points. -/
theorem where8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What grid point t writes back is rows 512 t … 512 t + 511 of `lin1` of the three entry arrays. -/
theorem flushed8_eq (c : Dev nD) (t : Fin cfg8.N) :
    (dat8 V c).flushed 3 t
      = ((cfg8.win 3).blk t).view.read (Elt Ideal) (lin1 (R := 8192) (V c main_v40) (V c main_v39) (V c main_v41)) := by
  show (cfg8.win 3).cut (grid8.coords t) ((dat8 V c).after 3 t) = _
  rw [after8_3_pay, k8_pay1_eq]
  obtain ⟨e0, e1, e2, e3, e4, e5, e6, e7⟩ := where8 t
  funext j
  show lin1 (iblk8 V c 0 t) (iblk8 V c 1 t) (iblk8 V c 2 t) j
    = lin1 (R := 8192) (V c main_v40) (V c main_v39) (V c main_v41) (((cfg8.win 3).blk t).view.emb j)
  refine congrArg₂ (· + ·) (Finset.sum_congr rfl fun k _ => congrArg₂ (· * ·) (congrArg (V c main_v40) ?_) (congrArg (V c main_v39) ?_))
    (congrArg (V c main_v41) ?_)
  · funext a; apply Fin.ext
    match a with
    | ⟨0, _⟩ => show win8_0.index t (0 : Fin 2) * 512 + 1 * (j 0).val = win8_3.index t (0 : Fin 2) * 512 + 1 * (j 0).val; omega
    | ⟨1, _⟩ => show win8_0.index t (1 : Fin 2) * 1024 + 1 * k.val = k.val; omega
  · funext a; apply Fin.ext
    match a with
    | ⟨0, _⟩ => show win8_1.index t (0 : Fin 2) * 1024 + 1 * k.val = k.val; omega
    | ⟨1, _⟩ => show win8_1.index t (1 : Fin 2) * 1024 + 1 * (j 1).val = win8_3.index t (1 : Fin 2) * 1024 + 1 * (j 1).val; omega
  · funext a; apply Fin.ext
    match a with
    | ⟨0, _⟩ => show win8_2.index t (0 : Fin 2) * 1 + 1 * 0 = 0; omega
    | ⟨1, _⟩ => show win8_2.index t (1 : Fin 2) * 1024 + 1 * (j 1).val = win8_3.index t (1 : Fin 2) * 1024 + 1 * (j 1).val; omega

/-- An index of the result array lies in point t's block exactly when its coordinates are in the block's ranges. -/
theorem mem_blk8 (t : Fin cfg8.N) (i : S8192x1024.Idx) :
    i ∈ ((cfg8.win 3).blk t).view.set ↔ ∀ a : Fin 2, win8_3.index t a * S512x1024.size a ≤ (i a).val
      ∧ (i a).val < win8_3.index t a * S512x1024.size a + S512x1024.size a := by
  show i ∈ ((View.whole main_v42).slice (win8_3.rect t)).set ↔ _
  rw [View.set_slice_whole, Rect.mem_set_unit]
  exact Iff.rfl

/-- The 16 blocks of 512 rows tile the 8192 rows: row r lies in the block of point r / 512. -/
theorem cover8 (i : S8192x1024.Idx) :
    ∃ t : Fin cfg8.N, (cfg8.win 3).flush t = true ∧ i ∈ ((cfg8.win 3).blk t).view.set := by
  have hi0 : (i 0).val < 8192 := (i 0).isLt
  have hi1 : (i 1).val < 1024 := (i 1).isLt
  have hN : cfg8.N = 16 := (by decide : grid8.N = 16)
  let t : Fin cfg8.N := ⟨(i 0).val / 512, by rw [hN]; omega⟩
  obtain ⟨e0, e1, e2, e3, e4, e5, e6, e7⟩ := where8 t
  have ht : t.val = (i 0).val / 512 := rfl
  refine ⟨t, flush8_3 t, ?_⟩
  rw [mem_blk8]
  intro a
  match a with
  | ⟨0, _⟩ => show win8_3.index t (0 : Fin 2) * 512 ≤ (i 0).val ∧ (i 0).val < win8_3.index t (0 : Fin 2) * 512 + 512; omega
  | ⟨1, _⟩ => show win8_3.index t (1 : Fin 2) * 1024 ≤ (i 1).val ∧ (i 1).val < win8_3.index t (1 : Fin 2) * 1024 + 1024; omega

/-- THE RESULT ARRAY of region 8 after its run: `lin1` of the activation array, the weight and the bias row as the
    region finds them. -/
theorem arr8 (c : Dev nD) :
    (dat8 V c).arrAt 3 cfg8.N = lin1 (R := 8192) (V c main_v40) (V c main_v39) (V c main_v41) :=
  (dat8 V c).arrAt_eq_of_cover 3 _ (fun t _ => flushed8_eq V c t) cover8

end Cert.KernelIdeal.HandVal

end
-- ==== Proof.SmArr9.lean ====
import proofs.«117683_j11484742549629_2_alg».proof.Proof.AttnDat9
import proofs.«117683_j11484742549629_2_alg».proof.Proof.SmArr
import proofs.«117683_j11484742549629_2_alg».proof.Proof.SmStage
import Idealize.ShloMosaic.Lib.Pipeline.Value
import Idealize.ShloMosaic.Lib.Decide

/-!
# The array the attention launch of branch 3 leaves

The launch runs over the grid batch × query tile × key tile (4 × 4 × 4, the key tile innermost), so grid
point `t` has batch `t / 16`, query tile `t / 4 mod 4` and key tile `t mod 4`.  Its query block is rows
`512 · (query tile) …` of the batch of the query array, its key and value blocks are rows
`512 · (key tile) …` of the batch of the key and value arrays, and at the last key tile it writes the
output block back to rows `512 · (query tile) …` of the batch of the result array.  So the carried state at a
last key tile is the four-tile run on tiles cut from the arrays, every row of the result is written by
exactly the point of its batch and query tile at the last key tile, and the result array ends holding the
attention formula of the three arrays.
-/

set_option maxRecDepth 16384

noncomputable section

namespace Cert.KernelIdeal.HandSm

open Cert.KernelIdeal Cert.KernelIdeal.Gen Cert.KernelIdeal.Hand Cert.KernelIdeal.HandVal
open Idealize.ShloMosaic Idealize.ShloMosaic.TcCoe Idealize.ShloMosaic.ValueIdx
open Idealize.ShloMosaic.Pipeline (Dat Cfg Window)

/-- The printed index maps of the four windows, decided over the 64 grid points. -/
theorem tile_indices9 : ∀ t : Fin cfg9.N,
    win9_0.index t (0 : Fin 3) = t.val / 16 ∧ win9_0.index t (1 : Fin 3) = t.val / 4 % 4
    ∧ win9_0.index t (2 : Fin 3) = 0
    ∧ win9_1.index t (0 : Fin 3) = t.val / 16 ∧ win9_1.index t (1 : Fin 3) = t.val % 4
    ∧ win9_1.index t (2 : Fin 3) = 0
    ∧ win9_2.index t (0 : Fin 3) = t.val / 16 ∧ win9_2.index t (1 : Fin 3) = t.val % 4
    ∧ win9_2.index t (2 : Fin 3) = 0
    ∧ win9_3.index t (0 : Fin 3) = t.val / 16 ∧ win9_3.index t (1 : Fin 3) = t.val / 4 % 4
    ∧ win9_3.index t (2 : Fin 3) = 0 :=
  (by decide +kernel : ∀ t : Fin grid9.N, _)

variable (V : (c : Dev nD) → (b : Ref sig .tc) → Buf (Elt Ideal) ((c : Thread nD τ).loc b))

/-- The query block of a point is the query tile of its batch and query tile. -/
theorem qBlk9_eq (c : Dev nD) (t : Fin cfg9.N) :
    qBlk9 V c t = qTile (V c main_v11 : Arr3) (batchOf t.val) (qtileOf t.val) := by
  funext j
  show V c main_v11 (((cfg9.win 0).blk t).view.emb j)
    = (V c main_v11 : Arr3) (ix3 (batchOf t.val) (rowOf (qtileOf t.val) (j 1)) (j 2))
  obtain ⟨e0, e1, e2, -⟩ := tile_indices9 t
  have ht : t.val < 64 := t.isLt
  refine congrArg (V c main_v11) (funext fun a => Fin.ext ?_)
  match a with
  | ⟨0, _⟩ =>
    show win9_0.index t (0 : Fin 3) * 1 + 1 * (j 0).val = t.val / 16 % 4
    have : (j 0).val < 1 := (j 0).isLt
    omega
  | ⟨1, _⟩ =>
    show win9_0.index t (1 : Fin 3) * 512 + 1 * (j 1).val = t.val / 4 % 4 * 512 + (j 1).val
    omega
  | ⟨2, _⟩ =>
    show win9_0.index t (2 : Fin 3) * 1024 + 1 * (j 2).val = (j 2).val
    omega

/-- The key block of a point is the key tile of its batch and key tile. -/
theorem kBlk9_eq (c : Dev nD) (t : Fin cfg9.N) :
    kBlk9 V c t = kTile (V c main_v38 : Arr3) (batchOf t.val) (t.val % 4) := by
  funext j
  show V c main_v38 (((cfg9.win 1).blk t).view.emb j)
    = (V c main_v38 : Arr3) (ix3 (batchOf t.val) (keyOf (t.val % 4 * 512 + (j 1).val)) (j 2))
  obtain ⟨-, -, -, e0, e1, e2, -⟩ := tile_indices9 t
  have ht : t.val < 64 := t.isLt
  refine congrArg (V c main_v38) (funext fun a => Fin.ext ?_)
  match a with
  | ⟨0, _⟩ =>
    show win9_1.index t (0 : Fin 3) * 1 + 1 * (j 0).val = t.val / 16 % 4
    have : (j 0).val < 1 := (j 0).isLt
    omega
  | ⟨1, _⟩ =>
    show win9_1.index t (1 : Fin 3) * 512 + 1 * (j 1).val = (t.val % 4 * 512 + (j 1).val) % 2048
    have : (j 1).val < 512 := (j 1).isLt
    omega
  | ⟨2, _⟩ =>
    show win9_1.index t (2 : Fin 3) * 1024 + 1 * (j 2).val = (j 2).val
    omega

/-- The value block of a point is the value tile of its batch and key tile. -/
theorem vBlk9_eq (c : Dev nD) (t : Fin cfg9.N) :
    vBlk9 V c t = kTile (V c main_v43 : Arr3) (batchOf t.val) (t.val % 4) := by
  funext j
  show V c main_v43 (((cfg9.win 2).blk t).view.emb j)
    = (V c main_v43 : Arr3) (ix3 (batchOf t.val) (keyOf (t.val % 4 * 512 + (j 1).val)) (j 2))
  obtain ⟨-, -, -, -, -, -, e0, e1, e2, -⟩ := tile_indices9 t
  have ht : t.val < 64 := t.isLt
  refine congrArg (V c main_v43) (funext fun a => Fin.ext ?_)
  match a with
  | ⟨0, _⟩ =>
    show win9_2.index t (0 : Fin 3) * 1 + 1 * (j 0).val = t.val / 16 % 4
    have : (j 0).val < 1 := (j 0).isLt
    omega
  | ⟨1, _⟩ =>
    show win9_2.index t (1 : Fin 3) * 512 + 1 * (j 1).val = (t.val % 4 * 512 + (j 1).val) % 2048
    have : (j 1).val < 512 := (j 1).isLt
    omega
  | ⟨2, _⟩ =>
    show win9_2.index t (2 : Fin 3) * 1024 + 1 * (j 2).val = (j 2).val
    omega

/-- The state a last key tile leaves is the four-tile run on the tiles of the point's batch and query tile. -/
theorem scr9_last (c : Dev nD) (t : Fin cfg9.N) (h3 : t.val % 4 = 3) :
    scr9 V c t = attnRun (qTile (V c main_v11 : Arr3) (batchOf t.val) (qtileOf t.val))
      (kTile (V c main_v38 : Arr3) (batchOf t.val)) (kTile (V c main_v43 : Arr3) (batchOf t.val)) 4 := by
  have ht : t.val < 64 := t.isLt
  have b1 : batchOf (t.val - 1) = batchOf t.val := Fin.ext (by show (t.val - 1) / 16 % 4 = t.val / 16 % 4; omega)
  have b2 : batchOf (t.val - 1 - 1) = batchOf t.val :=
    Fin.ext (by show (t.val - 1 - 1) / 16 % 4 = t.val / 16 % 4; omega)
  have b3 : batchOf (t.val - 1 - 1 - 1) = batchOf t.val :=
    Fin.ext (by show (t.val - 1 - 1 - 1) / 16 % 4 = t.val / 16 % 4; omega)
  have q3 : qtileOf (t.val - 1 - 1 - 1) = qtileOf t.val :=
    Fin.ext (by show (t.val - 1 - 1 - 1) / 4 % 4 = t.val / 4 % 4; omega)
  have k0 : (t.val - 1 - 1 - 1) % 4 = 0 := by omega
  have k1 : (t.val - 1 - 1) % 4 = 1 := by omega
  have k2 : (t.val - 1) % 4 = 2 := by omega
  rw [scr9_next V c t (by omega),
    scr9_next V c ⟨t.val - 1, _⟩ (by show ¬ (t.val - 1) % 4 = 0; omega),
    scr9_next V c ⟨t.val - 1 - 1, _⟩ (by show ¬ (t.val - 1 - 1) % 4 = 0; omega),
    scr9_first V c ⟨t.val - 1 - 1 - 1, _⟩ k0]
  simp only [kBlk9_eq, vBlk9_eq, qBlk9_eq, b1, b2, b3, q3, k0, k1, k2, h3]
  rfl

/-- Where a point's output block sits in the result array. -/
theorem out_emb9 (t : Fin cfg9.N) (j : ((cfg9.win 3).xblock (cfg9.grid.coords t)).Idx) :
    ((cfg9.win 3).blk t).view.emb j = ix3 (batchOf t.val) (rowOf (qtileOf t.val) (j 1)) (j 2) := by
  obtain ⟨-, -, -, -, -, -, -, -, -, e0, e1, e2⟩ := tile_indices9 t
  have ht : t.val < 64 := t.isLt
  refine funext fun a => Fin.ext ?_
  match a with
  | ⟨0, _⟩ =>
    show win9_3.index t (0 : Fin 3) * 1 + 1 * (j 0).val = t.val / 16 % 4
    have : (j 0).val < 1 := (j 0).isLt
    omega
  | ⟨1, _⟩ =>
    show win9_3.index t (1 : Fin 3) * 512 + 1 * (j 1).val = t.val / 4 % 4 * 512 + (j 1).val
    omega
  | ⟨2, _⟩ =>
    show win9_3.index t (2 : Fin 3) * 1024 + 1 * (j 2).val = (j 2).val
    omega

/-- What a last key tile writes back is its block of the attention formula of the three arrays. -/
theorem flushed9_eq (c : Dev nD) (hq : AllReal (V c main_v11 : Arr3)) (hk : AllReal (V c main_v38 : Arr3))
    (hv : AllReal (V c main_v43 : Arr3)) (t : Fin cfg9.N) (hf : (cfg9.win 3).flush t = true) :
    (dat9 V c).flushed 3 t = ((cfg9.win 3).blk t).view.read (Elt Ideal)
      (attnRef (V c main_v11 : Arr3) (V c main_v38 : Arr3) (V c main_v43 : Arr3)) := by
  have h3 : t.val % 4 = 3 := (flush9_3 t).mp hf
  show (cfg9.win 3).cut (grid9.coords t) ((dat9 V c).after 3 t) = _
  rw [after9_3]
  funext j
  show attnOut (scr9 V c t) j
    = attnRef (V c main_v11 : Arr3) (V c main_v38 : Arr3) (V c main_v43 : Arr3) (((cfg9.win 3).blk t).view.emb j)
  rw [out_emb9, scr9_last V c t h3]
  have hj : j = ix3 0 (j 1) (j 2) :=
    funext fun a => by
      match a with
      | ⟨0, _⟩ => exact Fin.ext (by have : (j 0).val < 1 := (j 0).isLt; show (j 0).val = 0; omega)
      | ⟨1, _⟩ => rfl
      | ⟨2, _⟩ => rfl
  have key := (attn_tile_eq_ref (V c main_v11 : Arr3) (V c main_v38 : Arr3) (V c main_v43 : Arr3) hq hk hv
    (batchOf t.val) (qtileOf t.val) (j 1) (j 2)).1
  exact (congrArg (attnOut (attnRun (qTile (V c main_v11 : Arr3) (batchOf t.val) (qtileOf t.val))
    (kTile (V c main_v38 : Arr3) (batchOf t.val)) (kTile (V c main_v43 : Arr3) (batchOf t.val)) 4)) hj).trans key

/-- An index of the result array is in a point's block iff each coordinate is in the block's range. -/
theorem mem_blk9 (t : Fin cfg9.N) (i : S4x2048x1024.Idx) :
    i ∈ ((cfg9.win 3).blk t).view.set
      ↔ ∀ a : Fin 3, win9_3.index t a * S1x512x1024.size a ≤ (i a).val
          ∧ (i a).val < win9_3.index t a * S1x512x1024.size a + S1x512x1024.size a := by
  show i ∈ ((View.whole main_v44).slice (win9_3.rect t)).set ↔ _
  rw [View.set_slice_whole, Rect.mem_set_unit]
  exact Iff.rfl

/-- Every row of the result is written by the point of its batch and query tile at the last key tile. -/
theorem cover9 (i : S4x2048x1024.Idx) :
    ∃ t : Fin cfg9.N, (cfg9.win 3).flush t = true ∧ i ∈ ((cfg9.win 3).blk t).view.set := by
  have h0 : (i 0).val < 4 := (i 0).isLt
  have h1 : (i 1).val < 2048 := (i 1).isLt
  have h2 : (i 2).val < 1024 := (i 2).isLt
  refine ⟨⟨((i 0).val * 4 + (i 1).val / 512) * 4 + 3, by show _ < 64; omega⟩, ?_, ?_⟩
  · exact (flush9_3 _).mpr (by show (((i 0).val * 4 + (i 1).val / 512) * 4 + 3) % 4 = 3; omega)
  · rw [mem_blk9]
    obtain ⟨-, -, -, -, -, -, -, -, -, e0, e1, e2⟩ :=
      tile_indices9 ⟨((i 0).val * 4 + (i 1).val / 512) * 4 + 3, by show _ < 64; omega⟩
    intro a
    match a with
    | ⟨0, _⟩ =>
      show win9_3.index _ (0 : Fin 3) * 1 ≤ (i 0).val ∧ (i 0).val < win9_3.index _ (0 : Fin 3) * 1 + 1
      rw [e0]
      show (((i 0).val * 4 + (i 1).val / 512) * 4 + 3) / 16 * 1 ≤ (i 0).val
        ∧ (i 0).val < (((i 0).val * 4 + (i 1).val / 512) * 4 + 3) / 16 * 1 + 1
      omega
    | ⟨1, _⟩ =>
      show win9_3.index _ (1 : Fin 3) * 512 ≤ (i 1).val ∧ (i 1).val < win9_3.index _ (1 : Fin 3) * 512 + 512
      rw [e1]
      show (((i 0).val * 4 + (i 1).val / 512) * 4 + 3) / 4 % 4 * 512 ≤ (i 1).val
        ∧ (i 1).val < (((i 0).val * 4 + (i 1).val / 512) * 4 + 3) / 4 % 4 * 512 + 512
      omega
    | ⟨2, _⟩ =>
      show win9_3.index _ (2 : Fin 3) * 1024 ≤ (i 2).val ∧ (i 2).val < win9_3.index _ (2 : Fin 3) * 1024 + 1024
      rw [e2]
      omega

/-- **The result array of the attention launch of branch 3** is the attention formula of the query, key and
    value arrays the launch finds, which is finite when they are. -/
theorem attn_arr9 (c : Dev nD) (hq : AllReal (V c main_v11 : Arr3)) (hk : AllReal (V c main_v38 : Arr3))
    (hv : AllReal (V c main_v43 : Arr3)) :
    (dat9 V c).arrAt 3 cfg9.N = attnRef (V c main_v11 : Arr3) (V c main_v38 : Arr3) (V c main_v43 : Arr3)
      ∧ AllReal (attnRef (V c main_v11 : Arr3) (V c main_v38 : Arr3) (V c main_v43 : Arr3)) :=
  ⟨(dat9 V c).arrAt_eq_of_cover 3 _ (fun t hf => flushed9_eq V c hq hk hv t hf) cover9,
    attnRef_real _ _ _ hq hk hv⟩

end Cert.KernelIdeal.HandSm

end
-- ==== Proof.CompB3.lean ====
/-
  Branch 3 of the kernel program is branch 3 of the reference: the key projection, the value projection, and the
  attention context.

  Each projection is a stretch of host operations that flattens the input, converts the weight and makes the bias a row,
  a region that computes the linear map over the 8192 rows, and a reshape back; that is the reference's x · W + bias.
  The attention region reads the queries (carried unchanged from the second host stretch), the keys and the values; its
  output is the softmax-weighted average of the value rows, which is what the reference's attention stage computes from
  the same three arrays. The attention region needs its three inputs to be real, which they are because the arguments
  are.
-/
import proofs.«117683_j11484742549629_2_alg».proof.Proof.CompQ
import proofs.«117683_j11484742549629_2_alg».proof.Proof.ValArr7
import proofs.«117683_j11484742549629_2_alg».proof.Proof.ValArr8
import proofs.«117683_j11484742549629_2_alg».proof.Proof.SmArr9
import proofs.«117683_j11484742549629_2_alg».proof.Proof.SmRef

set_option maxRecDepth 4096

noncomputable section

namespace Cert.KernelIdeal.HandComp

open Idealize.ShloMosaic Idealize.ShloMosaic.TcCoe Idealize.SL.Sem
open Cert.KernelIdeal Cert.KernelIdeal.Gen Cert.KernelIdeal.Hand Cert.KernelIdeal.HandVal
open Cert.KernelIdeal.HandSm (attnRef)

variable (m : (ℓ : Loc nD τ sig) → Buf (Elt Ideal) ℓ) (c : Dev nD)

/-- The keys of branch 3, as the host stretch after region 7 leaves them. -/
theorem stage_k3 : (U17 m c main_v38 : Arr3) = Cert.ReferenceIdeal.Read.val_main_v56 (F := Ideal) (A2 m c) (A13 m c) (A14 m c) := by
  have hr := read_v38 (U16 m c)
  have hu : U16 m c main_v37 = outArr7 (U15 m) c :=
    Function.update_self (Proc.devRef .tc main_v37 : DevRef τ sig) (outArr7 (U15 m) c) (U15 m c)
  have ha : outArr7 (U15 m) c = _ := arr7 (atTc (U15 m)) c
  refine hr.trans ?_
  rw [hu, ha]
  exact (kv_bridge_of (A2 m c) (A13 m c) (A14 m c) _ _ _
    ((read_v35 (U14 m c)).trans (by rw [arg14_2] <;> rfl))
    ((read_v34 (U14 m c)).trans (by rw [arg14_13] <;> rfl))
    ((read_v36 (U14 m c)).trans (by rw [arg14_14] <;> rfl))).trans (v56_eq _ _ _).symm

/-- The values of branch 3, as the host stretch after region 8 leaves them. -/
theorem stage_v3 : (U19 m c main_v43 : Arr3) = Cert.ReferenceIdeal.Read.val_main_v60 (F := Ideal) (A2 m c) (A15 m c) (A16 m c) := by
  have hr := read_v43 (U18 m c)
  have hu : U18 m c main_v42 = outArr8 (U17 m) c :=
    Function.update_self (Proc.devRef .tc main_v42 : DevRef τ sig) (outArr8 (U17 m) c) (U17 m c)
  have ha : outArr8 (U17 m) c = _ := arr8 (atTc (U17 m)) c
  refine hr.trans ?_
  rw [hu, ha]
  exact (kv_bridge_of (A2 m c) (A15 m c) (A16 m c) _ _ _
    ((read_v40 (U16 m c)).trans (by rw [arg16_2] <;> rfl))
    ((read_v39 (U16 m c)).trans (by rw [arg16_15] <;> rfl))
    ((read_v41 (U16 m c)).trans (by rw [arg16_16] <;> rfl))).trans (v60_eq _ _ _).symm

/-- The queries where attention region 9 reads them: unchanged since the second host stretch. -/
theorem q_at19 : (U19 m c main_v11 : Arr3) = Cert.ReferenceIdeal.Read.val_main_v6 (F := Ideal) (A0 m c) (A1 m c) (A2 m c) (A3 m c) (A4 m c) :=
  (U19_of m c main_v11 (by decide)).trans ((U18_of m c main_v11 (by decide)).trans ((U17_of m c main_v11 (by decide)).trans ((U16_of m c main_v11 (by decide)).trans ((U15_of m c main_v11 (by decide)).trans ((U14_of m c main_v11 (by decide)).trans ((U13_of m c main_v11 (by decide)).trans ((U12_of m c main_v11 (by decide)).trans ((U11_of m c main_v11 (by decide)).trans ((U10_of m c main_v11 (by decide)).trans ((U9_of m c main_v11 (by decide)).trans ((U8_of m c main_v11 (by decide)).trans ((U7_of m c main_v11 (by decide)).trans ((U6_of m c main_v11 (by decide)).trans ((U5_of m c main_v11 (by decide)).trans ((U4_of m c main_v11 (by decide)).trans (stage_q m c))))))))))))))))

/-- The keys where attention region 9 reads them. -/
theorem k_at19 : (U19 m c main_v38 : Arr3) = Cert.ReferenceIdeal.Read.val_main_v56 (F := Ideal) (A2 m c) (A13 m c) (A14 m c) :=
  (U19_of m c main_v38 (by decide)).trans ((U18_of m c main_v38 (by decide)).trans (stage_k3 m c))

/-- The attention context of branch 3: region 9's output is the reference's attention stage. -/
theorem stage_c3 (hpre : Cert.Pre_KernelIdeal (hPre_finite_inputs := Cert.Pre_finite_inputs.Gen.facts) m) :
    (U20 m c main_v44 : Arr3) = Cert.ReferenceIdeal.Read.val_main_v75 (F := Ideal) (A0 m c) (A1 m c) (A2 m c) (A3 m c) (A4 m c) (A13 m c) (A14 m c) (A15 m c) (A16 m c) := by
  obtain ⟨h0, h1, h2, h3, h4, h5, h6, h7, h8, h9, h10, h11, h12, h13, h14, h15, h16, h17, h18, h19, h20, h21, h22⟩ := Cert.KernelIdeal.HandPre.args_real m hpre c
  have hu : U20 m c main_v44 = attnArr9 (U19 m) c :=
    Function.update_self (Proc.devRef .tc main_v44 : DevRef τ sig) (attnArr9 (U19 m) c) (U19 m c)
  have hq := q_at19 m c
  have hk := k_at19 m c
  have hv := stage_v3 m c
  have hA : attnArr9 (U19 m) c
      = attnRef (U19 m c main_v11 : Arr3) (U19 m c main_v38 : Arr3) (U19 m c main_v43 : Arr3) :=
    (Cert.KernelIdeal.HandSm.attn_arr9 (atTc (U19 m)) c
      (by rw [show (atTc (U19 m) c main_v11 : Arr3) = _ from hq]; exact refQ_real h0 h1 h2 h3 h4)
      (by rw [show (atTc (U19 m) c main_v38 : Arr3) = _ from hk]; exact refLin_real h2 h13 h14)
      (by rw [show (atTc (U19 m) c main_v43 : Arr3) = _ from hv]; exact refLin_real h2 h15 h16)).1
  rw [hu, hA, hq, hk, hv]
  funext i
  exact (Cert.ReferenceIdeal.HandSm.ref_attn3 _ _ _ _ _ _ _ _ _ i).symm

/-- The context of branch 3 has real entries. -/
theorem c3_real (hpre : Cert.Pre_KernelIdeal (hPre_finite_inputs := Cert.Pre_finite_inputs.Gen.facts) m) :
    AllReal (Cert.ReferenceIdeal.Read.val_main_v75 (F := Ideal) (A0 m c) (A1 m c) (A2 m c) (A3 m c) (A4 m c) (A13 m c) (A14 m c) (A15 m c) (A16 m c)) := by
  obtain ⟨h0, h1, h2, h3, h4, h5, h6, h7, h8, h9, h10, h11, h12, h13, h14, h15, h16, h17, h18, h19, h20, h21, h22⟩ := Cert.KernelIdeal.HandPre.args_real m hpre c
  have e : Cert.ReferenceIdeal.Read.val_main_v75 (F := Ideal) (A0 m c) (A1 m c) (A2 m c) (A3 m c) (A4 m c) (A13 m c) (A14 m c) (A15 m c) (A16 m c)
      = attnRef (Cert.ReferenceIdeal.Read.val_main_v6 (F := Ideal) (A0 m c) (A1 m c) (A2 m c) (A3 m c) (A4 m c)) (Cert.ReferenceIdeal.Read.val_main_v56 (F := Ideal) (A2 m c) (A13 m c) (A14 m c))
          (Cert.ReferenceIdeal.Read.val_main_v60 (F := Ideal) (A2 m c) (A15 m c) (A16 m c)) :=
    funext fun i => Cert.ReferenceIdeal.HandSm.ref_attn3 _ _ _ _ _ _ _ _ _ i
  rw [e]
  exact Cert.KernelIdeal.HandSm.attnRef_real _ _ _ (refQ_real h0 h1 h2 h3 h4) (refLin_real h2 h13 h14)
    (refLin_real h2 h15 h16)

end Cert.KernelIdeal.HandComp
-- ==== Proof.ValArr10.lean ====
/-
  From the blocks the grid points write back to the whole result array of a projection region.

  Grid point t of a projection region stages rows 512 t … 512 t + 511 of each activation array, the whole weight
  matrices and the bias row, and writes back the same rows of the result. What it writes is the linear map of
  ValSpec applied to the staged blocks (ValPay); a row of the linear map depends only on the same row of the
  activations, so the block written is the corresponding block of rows of the linear map applied to the whole
  arrays. The 16 blocks tile the 8192 rows, so after the run the result array IS that linear map of the entry arrays.
-/
import proofs.«117683_j11484742549629_2_alg».proof.Proof.LinDat10
import proofs.«117683_j11484742549629_2_alg».proof.Proof.ValPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- what the TensorCore's buffers hold when the region starts
variable (V : (c : Dev nD) → (b : Ref sig .tc) → Buf (Elt Ideal) ((c : Thread nD τ).loc b))

/-! ## Region 10 (an output projection) -/

/-- Where region 10's windows sit at grid point t: the activation, context and result tiles at row block t, the two
    weights and the bias row at the origin. Decided over the 16 points. -/
theorem where10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- What grid point t writes back is rows 512 t … 512 t + 511 of `lin2` of the five entry arrays. -/
theorem flushed10_eq (c : Dev nD) (t : Fin cfg10.N) :
    (dat10 V c).flushed 5 t
      = ((cfg10.win 5).blk t).view.read (Elt Ideal)
          (lin2 (R := 8192) (V c main_v57) (V c main_v58) (V c main_v46) (V c main_v48) (V c main_v59)) := by
  show (cfg10.win 5).cut (grid10.coords t) ((dat10 V c).after 5 t) = _
  rw [after10_5_pay, k10_pay1_eq]
  obtain ⟨a0, a1, b0, b1, c0, c1, d0, d1, f0, f1, o0, o1⟩ := where10 t
  funext j
  show lin2 (iblk10 V c 0 t) (iblk10 V c 1 t) (iblk10 V c 2 t) (iblk10 V c 3 t) (iblk10 V c 4 t) j
    = lin2 (R := 8192) (V c main_v57) (V c main_v58) (V c main_v46) (V c main_v48) (V c main_v59) (((cfg10.win 5).blk t).view.emb j)
  refine congrArg₂ (· + ·) (congrArg₂ (· + ·)
      (Finset.sum_congr rfl fun k _ => congrArg₂ (· * ·) (congrArg (V c main_v57) ?_) (congrArg (V c main_v46) ?_))
      (Finset.sum_congr rfl fun k _ => congrArg₂ (· * ·) (congrArg (V c main_v58) ?_) (congrArg (V c main_v48) ?_)))
    (congrArg (V c main_v59) ?_)
  · funext a; apply Fin.ext
    match a with
    | ⟨0, _⟩ => show win10_0.index t (0 : Fin 2) * 512 + 1 * (j 0).val = win10_5.index t (0 : Fin 2) * 512 + 1 * (j 0).val; omega
    | ⟨1, _⟩ => show win10_0.index t (1 : Fin 2) * 1024 + 1 * k.val = k.val; omega
  · funext a; apply Fin.ext
    match a with
    | ⟨0, _⟩ => show win10_2.index t (0 : Fin 2) * 1024 + 1 * k.val = k.val; omega
    | ⟨1, _⟩ => show win10_2.index t (1 : Fin 2) * 1024 + 1 * (j 1).val = win10_5.index t (1 : Fin 2) * 1024 + 1 * (j 1).val; omega
  · funext a; apply Fin.ext
    match a with
    | ⟨0, _⟩ => show win10_1.index t (0 : Fin 2) * 512 + 1 * (j 0).val = win10_5.index t (0 : Fin 2) * 512 + 1 * (j 0).val; omega
    | ⟨1, _⟩ => show win10_1.index t (1 : Fin 2) * 1024 + 1 * k.val = k.val; omega
  · funext a; apply Fin.ext
    match a with
    | ⟨0, _⟩ => show win10_3.index t (0 : Fin 2) * 1024 + 1 * k.val = k.val; omega
    | ⟨1, _⟩ => show win10_3.index t (1 : Fin 2) * 1024 + 1 * (j 1).val = win10_5.index t (1 : Fin 2) * 1024 + 1 * (j 1).val; omega
  · funext a; apply Fin.ext
    match a with
    | ⟨0, _⟩ => show win10_4.index t (0 : Fin 2) * 1 + 1 * 0 = 0; omega
    | ⟨1, _⟩ => show win10_4.index t (1 : Fin 2) * 1024 + 1 * (j 1).val = win10_5.index t (1 : Fin 2) * 1024 + 1 * (j 1).val; omega

/-- An index of the result array lies in point t's block exactly when its coordinates are in the block's ranges. -/
theorem mem_blk10 (t : Fin cfg10.N) (i : S8192x1024.Idx) :
    i ∈ ((cfg10.win 5).blk t).view.set ↔ ∀ a : Fin 2, win10_5.index t a * S512x1024.size a ≤ (i a).val
      ∧ (i a).val < win10_5.index t a * S512x1024.size a + S512x1024.size a := by
  show i ∈ ((View.whole main_v60).slice (win10_5.rect t)).set ↔ _
  rw [View.set_slice_whole, Rect.mem_set_unit]
  exact Iff.rfl

/-- The 16 blocks of 512 rows tile the 8192 rows: row r lies in the block of point r / 512. -/
theorem cover10 (i : S8192x1024.Idx) :
    ∃ t : Fin cfg10.N, (cfg10.win 5).flush t = true ∧ i ∈ ((cfg10.win 5).blk t).view.set := by
  have hi0 : (i 0).val < 8192 := (i 0).isLt
  have hi1 : (i 1).val < 1024 := (i 1).isLt
  have hN : cfg10.N = 16 := (by decide : grid10.N = 16)
  let t : Fin cfg10.N := ⟨(i 0).val / 512, by rw [hN]; omega⟩
  obtain ⟨a0, a1, b0, b1, c0, c1, d0, d1, f0, f1, o0, o1⟩ := where10 t
  have ht : t.val = (i 0).val / 512 := rfl
  refine ⟨t, flush10_5 t, ?_⟩
  rw [mem_blk10]
  intro a
  match a with
  | ⟨0, _⟩ => show win10_5.index t (0 : Fin 2) * 512 ≤ (i 0).val ∧ (i 0).val < win10_5.index t (0 : Fin 2) * 512 + 512; omega
  | ⟨1, _⟩ => show win10_5.index t (1 : Fin 2) * 1024 ≤ (i 1).val ∧ (i 1).val < win10_5.index t (1 : Fin 2) * 1024 + 1024; omega

/-- THE RESULT ARRAY of region 10 after its run: `lin2` of the activation and context arrays, the two weights and the
    bias row as the region finds them. -/
theorem arr10 (c : Dev nD) :
    (dat10 V c).arrAt 5 cfg10.N = lin2 (R := 8192) (V c main_v57) (V c main_v58) (V c main_v46) (V c main_v48) (V c main_v59) :=
  (dat10 V c).arrAt_eq_of_cover 5 _ (fun t _ => flushed10_eq V c t) cover10

end Cert.KernelIdeal.HandVal

end
-- ==== Proof.ValArr11.lean ====
/-
  From the blocks the grid points write back to the whole result array of a projection region.

  Grid point t of a projection region stages rows 512 t … 512 t + 511 of each activation array, the whole weight
  matrices and the bias row, and writes back the same rows of the result. What it writes is the linear map of
  ValSpec applied to the staged blocks (ValPay); a row of the linear map depends only on the same row of the
  activations, so the block written is the corresponding block of rows of the linear map applied to the whole
  arrays. The 16 blocks tile the 8192 rows, so after the run the result array IS that linear map of the entry arrays.
-/
import proofs.«117683_j11484742549629_2_alg».proof.Proof.LinDat11
import proofs.«117683_j11484742549629_2_alg».proof.Proof.ValPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- what the TensorCore's buffers hold when the region starts
variable (V : (c : Dev nD) → (b : Ref sig .tc) → Buf (Elt Ideal) ((c : Thread nD τ).loc b))

/-! ## Region 11 (an output projection) -/

/-- Where region 11's windows sit at grid point t: the activation, context and result tiles at row block t, the two
    weights and the bias row at the origin. Decided over the 16 points. -/
theorem where11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- What grid point t writes back is rows 512 t … 512 t + 511 of `lin2` of the five entry arrays. -/
theorem flushed11_eq (c : Dev nD) (t : Fin cfg11.N) :
    (dat11 V c).flushed 5 t
      = ((cfg11.win 5).blk t).view.read (Elt Ideal)
          (lin2 (R := 8192) (V c main_v62) (V c main_v63) (V c main_v50) (V c main_v52) (V c main_v64)) := by
  show (cfg11.win 5).cut (grid11.coords t) ((dat11 V c).after 5 t) = _
  rw [after11_5_pay, k11_pay1_eq]
  obtain ⟨a0, a1, b0, b1, c0, c1, d0, d1, f0, f1, o0, o1⟩ := where11 t
  funext j
  show lin2 (iblk11 V c 0 t) (iblk11 V c 1 t) (iblk11 V c 2 t) (iblk11 V c 3 t) (iblk11 V c 4 t) j
    = lin2 (R := 8192) (V c main_v62) (V c main_v63) (V c main_v50) (V c main_v52) (V c main_v64) (((cfg11.win 5).blk t).view.emb j)
  refine congrArg₂ (· + ·) (congrArg₂ (· + ·)
      (Finset.sum_congr rfl fun k _ => congrArg₂ (· * ·) (congrArg (V c main_v62) ?_) (congrArg (V c main_v50) ?_))
      (Finset.sum_congr rfl fun k _ => congrArg₂ (· * ·) (congrArg (V c main_v63) ?_) (congrArg (V c main_v52) ?_)))
    (congrArg (V c main_v64) ?_)
  · funext a; apply Fin.ext
    match a with
    | ⟨0, _⟩ => show win11_0.index t (0 : Fin 2) * 512 + 1 * (j 0).val = win11_5.index t (0 : Fin 2) * 512 + 1 * (j 0).val; omega
    | ⟨1, _⟩ => show win11_0.index t (1 : Fin 2) * 1024 + 1 * k.val = k.val; omega
  · funext a; apply Fin.ext
    match a with
    | ⟨0, _⟩ => show win11_2.index t (0 : Fin 2) * 1024 + 1 * k.val = k.val; omega
    | ⟨1, _⟩ => show win11_2.index t (1 : Fin 2) * 1024 + 1 * (j 1).val = win11_5.index t (1 : Fin 2) * 1024 + 1 * (j 1).val; omega
  · funext a; apply Fin.ext
    match a with
    | ⟨0, _⟩ => show win11_1.index t (0 : Fin 2) * 512 + 1 * (j 0).val = win11_5.index t (0 : Fin 2) * 512 + 1 * (j 0).val; omega
    | ⟨1, _⟩ => show win11_1.index t (1 : Fin 2) * 1024 + 1 * k.val = k.val; omega
  · funext a; apply Fin.ext
    match a with
    | ⟨0, _⟩ => show win11_3.index t (0 : Fin 2) * 1024 + 1 * k.val = k.val; omega
    | ⟨1, _⟩ => show win11_3.index t (1 : Fin 2) * 1024 + 1 * (j 1).val = win11_5.index t (1 : Fin 2) * 1024 + 1 * (j 1).val; omega
  · funext a; apply Fin.ext
    match a with
    | ⟨0, _⟩ => show win11_4.index t (0 : Fin 2) * 1 + 1 * 0 = 0; omega
    | ⟨1, _⟩ => show win11_4.index t (1 : Fin 2) * 1024 + 1 * (j 1).val = win11_5.index t (1 : Fin 2) * 1024 + 1 * (j 1).val; omega

/-- An index of the result array lies in point t's block exactly when its coordinates are in the block's ranges. -/
theorem mem_blk11 (t : Fin cfg11.N) (i : S8192x1024.Idx) :
    i ∈ ((cfg11.win 5).blk t).view.set ↔ ∀ a : Fin 2, win11_5.index t a * S512x1024.size a ≤ (i a).val
      ∧ (i a).val < win11_5.index t a * S512x1024.size a + S512x1024.size a := by
  show i ∈ ((View.whole main_v65).slice (win11_5.rect t)).set ↔ _
  rw [View.set_slice_whole, Rect.mem_set_unit]
  exact Iff.rfl

/-- The 16 blocks of 512 rows tile the 8192 rows: row r lies in the block of point r / 512. -/
theorem cover11 (i : S8192x1024.Idx) :
    ∃ t : Fin cfg11.N, (cfg11.win 5).flush t = true ∧ i ∈ ((cfg11.win 5).blk t).view.set := by
  have hi0 : (i 0).val < 8192 := (i 0).isLt
  have hi1 : (i 1).val < 1024 := (i 1).isLt
  have hN : cfg11.N = 16 := (by decide : grid11.N = 16)
  let t : Fin cfg11.N := ⟨(i 0).val / 512, by rw [hN]; omega⟩
  obtain ⟨a0, a1, b0, b1, c0, c1, d0, d1, f0, f1, o0, o1⟩ := where11 t
  have ht : t.val = (i 0).val / 512 := rfl
  refine ⟨t, flush11_5 t, ?_⟩
  rw [mem_blk11]
  intro a
  match a with
  | ⟨0, _⟩ => show win11_5.index t (0 : Fin 2) * 512 ≤ (i 0).val ∧ (i 0).val < win11_5.index t (0 : Fin 2) * 512 + 512; omega
  | ⟨1, _⟩ => show win11_5.index t (1 : Fin 2) * 1024 ≤ (i 1).val ∧ (i 1).val < win11_5.index t (1 : Fin 2) * 1024 + 1024; omega

/-- THE RESULT ARRAY of region 11 after its run: `lin2` of the activation and context arrays, the two weights and the
    bias row as the region finds them. -/
theorem arr11 (c : Dev nD) :
    (dat11 V c).arrAt 5 cfg11.N = lin2 (R := 8192) (V c main_v62) (V c main_v63) (V c main_v50) (V c main_v52) (V c main_v64) :=
  (dat11 V c).arrAt_eq_of_cover 5 _ (fun t _ => flushed11_eq V c t) cover11

end Cert.KernelIdeal.HandVal

end
-- ==== Proof.ValArr12.lean ====
/-
  From the blocks the grid points write back to the whole result array of a projection region.

  Grid point t of a projection region stages rows 512 t … 512 t + 511 of each activation array, the whole weight
  matrices and the bias row, and writes back the same rows of the result. What it writes is the linear map of
  ValSpec applied to the staged blocks (ValPay); a row of the linear map depends only on the same row of the
  activations, so the block written is the corresponding block of rows of the linear map applied to the whole
  arrays. The 16 blocks tile the 8192 rows, so after the run the result array IS that linear map of the entry arrays.
-/
import proofs.«117683_j11484742549629_2_alg».proof.Proof.LinDat12
import proofs.«117683_j11484742549629_2_alg».proof.Proof.ValPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

-- what the TensorCore's buffers hold when the region starts
variable (V : (c : Dev nD) → (b : Ref sig .tc) → Buf (Elt Ideal) ((c : Thread nD τ).loc b))

/-! ## Region 12 (an output projection) -/

/-- Where region 12's windows sit at grid point t: the activation, context and result tiles at row block t, the two
    weights and the bias row at the origin. Decided over the 16 points. -/
theorem where12 : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-- What grid point t writes back is rows 512 t … 512 t + 511 of `lin2` of the five entry arrays. -/
theorem flushed12_eq (c : Dev nD) (t : Fin cfg12.N) :
    (dat12 V c).flushed 5 t
      = ((cfg12.win 5).blk t).view.read (Elt Ideal)
          (lin2 (R := 8192) (V c main_v67) (V c main_v68) (V c main_v54) (V c main_v56) (V c main_v69)) := by
  show (cfg12.win 5).cut (grid12.coords t) ((dat12 V c).after 5 t) = _
  rw [after12_5_pay, k12_pay1_eq]
  obtain ⟨a0, a1, b0, b1, c0, c1, d0, d1, f0, f1, o0, o1⟩ := where12 t
  funext j
  show lin2 (iblk12 V c 0 t) (iblk12 V c 1 t) (iblk12 V c 2 t) (iblk12 V c 3 t) (iblk12 V c 4 t) j
    = lin2 (R := 8192) (V c main_v67) (V c main_v68) (V c main_v54) (V c main_v56) (V c main_v69) (((cfg12.win 5).blk t).view.emb j)
  refine congrArg₂ (· + ·) (congrArg₂ (· + ·)
      (Finset.sum_congr rfl fun k _ => congrArg₂ (· * ·) (congrArg (V c main_v67) ?_) (congrArg (V c main_v54) ?_))
      (Finset.sum_congr rfl fun k _ => congrArg₂ (· * ·) (congrArg (V c main_v68) ?_) (congrArg (V c main_v56) ?_)))
    (congrArg (V c main_v69) ?_)
  · funext a; apply Fin.ext
    match a with
    | ⟨0, _⟩ => show win12_0.index t (0 : Fin 2) * 512 + 1 * (j 0).val = win12_5.index t (0 : Fin 2) * 512 + 1 * (j 0).val; omega
    | ⟨1, _⟩ => show win12_0.index t (1 : Fin 2) * 1024 + 1 * k.val = k.val; omega
  · funext a; apply Fin.ext
    match a with
    | ⟨0, _⟩ => show win12_2.index t (0 : Fin 2) * 1024 + 1 * k.val = k.val; omega
    | ⟨1, _⟩ => show win12_2.index t (1 : Fin 2) * 1024 + 1 * (j 1).val = win12_5.index t (1 : Fin 2) * 1024 + 1 * (j 1).val; omega
  · funext a; apply Fin.ext
    match a with
    | ⟨0, _⟩ => show win12_1.index t (0 : Fin 2) * 512 + 1 * (j 0).val = win12_5.index t (0 : Fin 2) * 512 + 1 * (j 0).val; omega
    | ⟨1, _⟩ => show win12_1.index t (1 : Fin 2) * 1024 + 1 * k.val = k.val; omega
  · funext a; apply Fin.ext
    match a with
    | ⟨0, _⟩ => show win12_3.index t (0 : Fin 2) * 1024 + 1 * k.val = k.val; omega
    | ⟨1, _⟩ => show win12_3.index t (1 : Fin 2) * 1024 + 1 * (j 1).val = win12_5.index t (1 : Fin 2) * 1024 + 1 * (j 1).val; omega
  · funext a; apply Fin.ext
    match a with
    | ⟨0, _⟩ => show win12_4.index t (0 : Fin 2) * 1 + 1 * 0 = 0; omega
    | ⟨1, _⟩ => show win12_4.index t (1 : Fin 2) * 1024 + 1 * (j 1).val = win12_5.index t (1 : Fin 2) * 1024 + 1 * (j 1).val; omega

/-- An index of the result array lies in point t's block exactly when its coordinates are in the block's ranges. -/
theorem mem_blk12 (t : Fin cfg12.N) (i : S8192x1024.Idx) :
    i ∈ ((cfg12.win 5).blk t).view.set ↔ ∀ a : Fin 2, win12_5.index t a * S512x1024.size a ≤ (i a).val
      ∧ (i a).val < win12_5.index t a * S512x1024.size a + S512x1024.size a := by
  show i ∈ ((View.whole main_v70).slice (win12_5.rect t)).set ↔ _
  rw [View.set_slice_whole, Rect.mem_set_unit]
  exact Iff.rfl

/-- The 16 blocks of 512 rows tile the 8192 rows: row r lies in the block of point r / 512. -/
theorem cover12 (i : S8192x1024.Idx) :
    ∃ t : Fin cfg12.N, (cfg12.win 5).flush t = true ∧ i ∈ ((cfg12.win 5).blk t).view.set := by
  have hi0 : (i 0).val < 8192 := (i 0).isLt
  have hi1 : (i 1).val < 1024 := (i 1).isLt
  have hN : cfg12.N = 16 := (by decide : grid12.N = 16)
  let t : Fin cfg12.N := ⟨(i 0).val / 512, by rw [hN]; omega⟩
  obtain ⟨a0, a1, b0, b1, c0, c1, d0, d1, f0, f1, o0, o1⟩ := where12 t
  have ht : t.val = (i 0).val / 512 := rfl
  refine ⟨t, flush12_5 t, ?_⟩
  rw [mem_blk12]
  intro a
  match a with
  | ⟨0, _⟩ => show win12_5.index t (0 : Fin 2) * 512 ≤ (i 0).val ∧ (i 0).val < win12_5.index t (0 : Fin 2) * 512 + 512; omega
  | ⟨1, _⟩ => show win12_5.index t (1 : Fin 2) * 1024 ≤ (i 1).val ∧ (i 1).val < win12_5.index t (1 : Fin 2) * 1024 + 1024; omega

/-- THE RESULT ARRAY of region 12 after its run: `lin2` of the activation and context arrays, the two weights and the
    bias row as the region finds them. -/
theorem arr12 (c : Dev nD) :
    (dat12 V c).arrAt 5 cfg12.N = lin2 (R := 8192) (V c main_v67) (V c main_v68) (V c main_v54) (V c main_v56) (V c main_v69) :=
  (dat12 V c).arrAt_eq_of_cover 5 _ (fun t _ => flushed12_eq V c t) cover12

end Cert.KernelIdeal.HandVal

end
-- ==== Proof.CompOut.lean ====
/-
  The three output projections and the four results.

  An output projection joins the branch's input with its attention context: a host stretch flattens both, cuts the
  output weight into its two blocks of 1024 rows and converts them, and makes the bias a row; a region computes the
  two-product linear map over the 8192 rows; the next stretch reshapes the result back. That is the reference's output
  stage of the same input, the reference's attention stage, and the same weight and bias. The last host stretch
  interleaves the first two outputs along the positions and appends the third, exactly as the reference's last stage
  does. So the four result arrays of the kernel program are the reference's four result stages of the argument arrays.
-/
import proofs.«117683_j11484742549629_2_alg».proof.Proof.CompB1
import proofs.«117683_j11484742549629_2_alg».proof.Proof.CompB2
import proofs.«117683_j11484742549629_2_alg».proof.Proof.CompB3
import proofs.«117683_j11484742549629_2_alg».proof.Proof.ValArr10
import proofs.«117683_j11484742549629_2_alg».proof.Proof.ValArr11
import proofs.«117683_j11484742549629_2_alg».proof.Proof.ValArr12

set_option maxRecDepth 4096

noncomputable section

namespace Cert.KernelIdeal.HandComp

open Idealize.ShloMosaic Idealize.ShloMosaic.TcCoe Idealize.SL.Sem
open Cert.KernelIdeal Cert.KernelIdeal.Gen Cert.KernelIdeal.Hand Cert.KernelIdeal.HandVal
open Cert.KernelIdeal.HandSm (attnRef)

section Stages

variable (m : (ℓ : Loc nD τ sig) → Buf (Elt Ideal) ℓ) (c : Dev nD)

/-- The context of branch 1 where the stretch before region 10 reads it. -/
theorem c1_at20 (hpre : Cert.Pre_KernelIdeal (hPre_finite_inputs := Cert.Pre_finite_inputs.Gen.facts) m) :
    (U20 m c main_v22 : Arr3) = Cert.ReferenceIdeal.Read.val_main_v29 (F := Ideal) (A0 m c) (A1 m c) (A2 m c) (A3 m c) (A4 m c) (A5 m c) (A6 m c) (A7 m c) (A8 m c) :=
  (U20_of m c main_v22 (by decide)).trans ((U19_of m c main_v22 (by decide)).trans ((U18_of m c main_v22 (by decide)).trans ((U17_of m c main_v22 (by decide)).trans ((U16_of m c main_v22 (by decide)).trans ((U15_of m c main_v22 (by decide)).trans ((U14_of m c main_v22 (by decide)).trans ((U13_of m c main_v22 (by decide)).trans ((U12_of m c main_v22 (by decide)).trans ((U11_of m c main_v22 (by decide)).trans ((U10_of m c main_v22 (by decide)).trans ((U9_of m c main_v22 (by decide)).trans (stage_c1 m c hpre))))))))))))

/-- Output 1, as the host stretch after region 10 leaves it. -/
theorem stage_o1 (hpre : Cert.Pre_KernelIdeal (hPre_finite_inputs := Cert.Pre_finite_inputs.Gen.facts) m) :
    (U23 m c main_v61 : Arr3) = Cert.ReferenceIdeal.Read.val_main_v80 (F := Ideal) (A0 m c) (A1 m c) (A2 m c) (A3 m c) (A4 m c) (A5 m c) (A6 m c) (A7 m c) (A8 m c) (A17 m c) (A18 m c) := by
  have hr := read_v61 (U22 m c)
  have hu : U22 m c main_v60 = outArr10 (U21 m) c :=
    Function.update_self (Proc.devRef .tc main_v60 : DevRef τ sig) (outArr10 (U21 m) c) (U21 m c)
  have ha : outArr10 (U21 m) c = _ := arr10 (atTc (U21 m)) c
  refine hr.trans ?_
  rw [hu, ha]
  exact (out_bridge_of (A0 m c) (Cert.ReferenceIdeal.Read.val_main_v29 (F := Ideal) (A0 m c) (A1 m c) (A2 m c) (A3 m c) (A4 m c) (A5 m c) (A6 m c) (A7 m c) (A8 m c)) (A17 m c) (A18 m c) _ _ _ _ _
    ((read_v57 (U20 m c)).trans (by rw [arg20_0] <;> rfl))
    ((read_v58 (U20 m c)).trans (by rw [c1_at20 m c hpre] <;> rfl))
    ((read_v46 (U20 m c)).trans (by rw [arg20_17] <;> rfl))
    ((read_v48 (U20 m c)).trans (by rw [arg20_17] <;> rfl))
    ((read_v59 (U20 m c)).trans (by rw [arg20_18] <;> rfl))).trans (v80_eq _ _ _ _ _ _ _ _ _ _ _).symm

/-- The context of branch 2 where the stretch before region 11 reads it. -/
theorem c2_at22 (hpre : Cert.Pre_KernelIdeal (hPre_finite_inputs := Cert.Pre_finite_inputs.Gen.facts) m) :
    (U22 m c main_v33 : Arr3) = Cert.ReferenceIdeal.Read.val_main_v52 (F := Ideal) (A0 m c) (A1 m c) (A2 m c) (A3 m c) (A4 m c) (A9 m c) (A10 m c) (A11 m c) (A12 m c) :=
  (U22_of m c main_v33 (by decide)).trans ((U21_of m c main_v33 (by decide)).trans ((U20_of m c main_v33 (by decide)).trans ((U19_of m c main_v33 (by decide)).trans ((U18_of m c main_v33 (by decide)).trans ((U17_of m c main_v33 (by decide)).trans ((U16_of m c main_v33 (by decide)).trans ((U15_of m c main_v33 (by decide)).trans (stage_c2 m c hpre))))))))

/-- Output 2, as the host stretch after region 11 leaves it. -/
theorem stage_o2 (hpre : Cert.Pre_KernelIdeal (hPre_finite_inputs := Cert.Pre_finite_inputs.Gen.facts) m) :
    (U25 m c main_v66 : Arr3) = Cert.ReferenceIdeal.Read.val_main_v85 (F := Ideal) (A0 m c) (A1 m c) (A2 m c) (A3 m c) (A4 m c) (A9 m c) (A10 m c) (A11 m c) (A12 m c) (A19 m c) (A20 m c) := by
  have hr := read_v66 (U24 m c)
  have hu : U24 m c main_v65 = outArr11 (U23 m) c :=
    Function.update_self (Proc.devRef .tc main_v65 : DevRef τ sig) (outArr11 (U23 m) c) (U23 m c)
  have ha : outArr11 (U23 m) c = _ := arr11 (atTc (U23 m)) c
  refine hr.trans ?_
  rw [hu, ha]
  exact (out_bridge_of (A1 m c) (Cert.ReferenceIdeal.Read.val_main_v52 (F := Ideal) (A0 m c) (A1 m c) (A2 m c) (A3 m c) (A4 m c) (A9 m c) (A10 m c) (A11 m c) (A12 m c)) (A19 m c) (A20 m c) _ _ _ _ _
    ((read_v62 (U22 m c)).trans (by rw [arg22_1] <;> rfl))
    ((read_v63 (U22 m c)).trans (by rw [c2_at22 m c hpre] <;> rfl))
    ((U23_of m c main_v50 (by decide)).trans ((U22_of m c main_v50 (by decide)).trans ((read_v50 (U20 m c)).trans (by rw [arg20_19] <;> rfl))))
    ((U23_of m c main_v52 (by decide)).trans ((U22_of m c main_v52 (by decide)).trans ((read_v52 (U20 m c)).trans (by rw [arg20_19] <;> rfl))))
    ((read_v64 (U22 m c)).trans (by rw [arg22_20] <;> rfl))).trans (v85_eq _ _ _ _ _ _ _ _ _ _ _).symm

/-- The context of branch 3 where the stretch before region 12 reads it. -/
theorem c3_at24 (hpre : Cert.Pre_KernelIdeal (hPre_finite_inputs := Cert.Pre_finite_inputs.Gen.facts) m) :
    (U24 m c main_v44 : Arr3) = Cert.ReferenceIdeal.Read.val_main_v75 (F := Ideal) (A0 m c) (A1 m c) (A2 m c) (A3 m c) (A4 m c) (A13 m c) (A14 m c) (A15 m c) (A16 m c) :=
  (U24_of m c main_v44 (by decide)).trans ((U23_of m c main_v44 (by decide)).trans ((U22_of m c main_v44 (by decide)).trans ((U21_of m c main_v44 (by decide)).trans (stage_c3 m c hpre))))

/-- Output 3, as the host stretch after region 12 leaves it. -/
theorem stage_o3 (hpre : Cert.Pre_KernelIdeal (hPre_finite_inputs := Cert.Pre_finite_inputs.Gen.facts) m) :
    (U27 m c main_v71 : Arr3) = Cert.ReferenceIdeal.Read.val_main_v90 (F := Ideal) (A0 m c) (A1 m c) (A2 m c) (A3 m c) (A4 m c) (A13 m c) (A14 m c) (A15 m c) (A16 m c) (A21 m c) (A22 m c) := by
  have hr := read_v71 (U26 m c)
  have hu : U26 m c main_v70 = outArr12 (U25 m) c :=
    Function.update_self (Proc.devRef .tc main_v70 : DevRef τ sig) (outArr12 (U25 m) c) (U25 m c)
  have ha : outArr12 (U25 m) c = _ := arr12 (atTc (U25 m)) c
  refine hr.trans ?_
  rw [hu, ha]
  exact (out_bridge_of (A2 m c) (Cert.ReferenceIdeal.Read.val_main_v75 (F := Ideal) (A0 m c) (A1 m c) (A2 m c) (A3 m c) (A4 m c) (A13 m c) (A14 m c) (A15 m c) (A16 m c)) (A21 m c) (A22 m c) _ _ _ _ _
    ((read_v67 (U24 m c)).trans (by rw [arg24_2] <;> rfl))
    ((read_v68 (U24 m c)).trans (by rw [c3_at24 m c hpre] <;> rfl))
    ((U25_of m c main_v54 (by decide)).trans ((U24_of m c main_v54 (by decide)).trans ((U23_of m c main_v54 (by decide)).trans ((U22_of m c main_v54 (by decide)).trans ((read_v54 (U20 m c)).trans (by rw [arg20_21] <;> rfl))))))
    ((U25_of m c main_v56 (by decide)).trans ((U24_of m c main_v56 (by decide)).trans ((U23_of m c main_v56 (by decide)).trans ((U22_of m c main_v56 (by decide)).trans ((read_v56 (U20 m c)).trans (by rw [arg20_21] <;> rfl))))))
    ((read_v69 (U24 m c)).trans (by rw [arg24_22] <;> rfl))).trans (v90_eq _ _ _ _ _ _ _ _ _ _ _).symm

/-- Output 1 before the last stretch. -/
theorem o1_at26 (hpre : Cert.Pre_KernelIdeal (hPre_finite_inputs := Cert.Pre_finite_inputs.Gen.facts) m) : (U26 m c main_v61 : Arr3) = Cert.ReferenceIdeal.Read.val_main_v80 (F := Ideal) (A0 m c) (A1 m c) (A2 m c) (A3 m c) (A4 m c) (A5 m c) (A6 m c) (A7 m c) (A8 m c) (A17 m c) (A18 m c) :=
  (U26_of m c main_v61 (by decide)).trans ((U25_of m c main_v61 (by decide)).trans ((U24_of m c main_v61 (by decide)).trans (stage_o1 m c hpre)))

/-- Output 2 before the last stretch. -/
theorem o2_at26 (hpre : Cert.Pre_KernelIdeal (hPre_finite_inputs := Cert.Pre_finite_inputs.Gen.facts) m) : (U26 m c main_v66 : Arr3) = Cert.ReferenceIdeal.Read.val_main_v85 (F := Ideal) (A0 m c) (A1 m c) (A2 m c) (A3 m c) (A4 m c) (A9 m c) (A10 m c) (A11 m c) (A12 m c) (A19 m c) (A20 m c) :=
  (U26_of m c main_v66 (by decide)).trans (stage_o2 m c hpre)

end Stages

/-! ## The four results, after the last host stretch -/

variable (m : (ℓ : Loc nD τ sig) → Buf (Elt Ideal) ℓ)

/-- The first result: output 1. -/
theorem out1_eq (hpre : Cert.Pre_KernelIdeal (hPre_finite_inputs := Cert.Pre_finite_inputs.Gen.facts) m) (c : Dev nD) : (U27 m c main_v61 : Arr3) = Cert.ReferenceIdeal.Read.val_main_v80 (F := Ideal) (A0 m c) (A1 m c) (A2 m c) (A3 m c) (A4 m c) (A5 m c) (A6 m c) (A7 m c) (A8 m c) (A17 m c) (A18 m c) :=
  (result_v61 (U26 m c)).trans (o1_at26 m c hpre)

/-- The second result: output 2. -/
theorem out2_eq (hpre : Cert.Pre_KernelIdeal (hPre_finite_inputs := Cert.Pre_finite_inputs.Gen.facts) m) (c : Dev nD) : (U27 m c main_v66 : Arr3) = Cert.ReferenceIdeal.Read.val_main_v85 (F := Ideal) (A0 m c) (A1 m c) (A2 m c) (A3 m c) (A4 m c) (A9 m c) (A10 m c) (A11 m c) (A12 m c) (A19 m c) (A20 m c) :=
  (result_v66 (U26 m c)).trans (o2_at26 m c hpre)

/-- The third result: output 3. -/
theorem out3_eq (hpre : Cert.Pre_KernelIdeal (hPre_finite_inputs := Cert.Pre_finite_inputs.Gen.facts) m) (c : Dev nD) : (U27 m c main_v71 : Arr3) = Cert.ReferenceIdeal.Read.val_main_v90 (F := Ideal) (A0 m c) (A1 m c) (A2 m c) (A3 m c) (A4 m c) (A13 m c) (A14 m c) (A15 m c) (A16 m c) (A21 m c) (A22 m c) :=
  stage_o3 m c hpre

/-- The fourth result: outputs 1 and 2 interleaved along the positions, followed by output 3. -/
theorem glob_eq (hpre : Cert.Pre_KernelIdeal (hPre_finite_inputs := Cert.Pre_finite_inputs.Gen.facts) m) (c : Dev nD) :
    (U27 m c main_v76 : (⟨Cert.ReferenceIdeal.S4x6144x1024, .f32⟩ : BufTy).Contents (Elt Ideal))
      = Cert.ReferenceIdeal.Read.val_main_v95 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) := by
  have hr := read_v76 (U26 m c)
  have e1 := o1_at26 m c hpre
  have e2 := o2_at26 m c hpre
  have e3 := (read_v71 (U26 m c)).symm.trans (stage_o3 m c hpre)
  refine hr.trans ?_
  rw [e1, e2, e3]
  exact (tail_kernel_eq _ _ _).trans (v95_eq _ _ _ _ _ _ _ _ _ _ _ _ _ _ _ _ _ _ _ _ _ _ _).symm

end Cert.KernelIdeal.HandComp
-- ==== Proof.lean ====
/-
  A three-branch cross-attention block (batch 4, sequence 2048, width 1024) as thirteen kernel launches — one query
  projection, a key and a value projection per branch, an attention launch per branch that accumulates an online softmax
  over four tiles of 512 keys, and one output projection per branch — against the plain formulation: concatenate, multiply,
  softmax over all 2048 keys, multiply, project. Over the extended reals, for finite inputs, the two agree: a product
  with a concatenation is a sum of products with the pieces; scaling the queries by 1/32 before the product with the keys
  is scaling the scores by 1/sqrt(1024) after it; and the online softmax with any finite starting maximum ends at the
  same quotient as the softmax taken at the true maximum, because exp (x - a) = exp (x - b) * exp (b - a) on the reals and
  the common positive factor cancels.
-/
import proofs.«117683_j11484742549629_2_alg».proof.Defs
import proofs.«117683_j11484742549629_2_alg».proof.Proof.Gen.Kernel
import proofs.«117683_j11484742549629_2_alg».proof.Proof.Gen.KernelIdeal
import proofs.«117683_j11484742549629_2_alg».proof.Proof.Gen.ReferenceIdeal
import proofs.«117683_j11484742549629_2_alg».proof.Proof.Gen.Pre_finite_inputs
import proofs.«117683_j11484742549629_2_alg».proof.Proof.RunMain
import proofs.«117683_j11484742549629_2_alg».proof.Proof.BRunMain
import proofs.«117683_j11484742549629_2_alg».proof.Proof.RefRun
import proofs.«117683_j11484742549629_2_alg».proof.Proof.ReadRI
import proofs.«117683_j11484742549629_2_alg».proof.Proof.PreReal
import proofs.«117683_j11484742549629_2_alg».proof.Proof.CompOut
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments as launched: its thirteen regions
    and fourteen host stretches as a list of segments. -/
theorem frame_kernel : Cert.frame_Kernel (hKernel := Cert.Kernel.Gen.facts) (hPre_finite_inputs := Cert.Pre_finite_inputs.Gen.facts) :=
  fun m ρ _ => Cert.Kernel.Hand.frame_all (F := Bits) m ρ

/-- The same for the idealized kernel program: the frame modules are written once for any float instance. -/
theorem frame_kernel_ideal : Cert.frame_KernelIdeal (hKernelIdeal := Cert.KernelIdeal.Gen.facts) (hPre_finite_inputs := Cert.Pre_finite_inputs.Gen.facts) :=
  fun m ρ _ => Cert.KernelIdeal.Hand.frame_all (F := Ideal) m ρ

/-- The reference program is host operations only, each writing a buffer of its own once: its run, with the results dropped,
    is its frame. -/
theorem frame_reference : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2.2.2) (Cert.ReferenceIdeal.HandRun.ref_run (F := Ideal) m ρ)

open Cert.KernelIdeal Cert.KernelIdeal.Gen Cert.KernelIdeal.Hand in
/-- Over the extended reals, from memories that agree on the arguments, the two programs end with the same four results. The
    kernel program's results are what its last valuation holds at the four result buffers; the reference's are its
    stages of the arguments, one per host operation; the composition of the regions' values through the host stretches joins them, for finite inputs. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => U27 (F := Ideal) m c main_v61, fun c => U27 (F := Ideal) m c main_v66, fun c => U27 (F := Ideal) m c main_v71, fun c => U27 (F := Ideal) m c main_v76, ?_, ?_⟩
  · exact (θ_run Cert.KernelIdeal.defs _ _).mono (fun r h c =>
      ⟨h c _ (mem_unscoped main_v61 (by decide)), h c _ (mem_unscoped main_v66 (by decide)), h c _ (mem_unscoped main_v71 (by decide)), h c _ (mem_unscoped main_v76 (by decide)),
       (h c _ (mem_unscoped main_arg0 (by decide))).trans (U27_arg0 m c),
       (h c _ (mem_unscoped main_arg1 (by decide))).trans (U27_arg1 m c),
       (h c _ (mem_unscoped main_arg2 (by decide))).trans (U27_arg2 m c),
       (h c _ (mem_unscoped main_arg3 (by decide))).trans (U27_arg3 m c),
       (h c _ (mem_unscoped main_arg4 (by decide))).trans (U27_arg4 m c),
       (h c _ (mem_unscoped main_arg5 (by decide))).trans (U27_arg5 m c),
       (h c _ (mem_unscoped main_arg6 (by decide))).trans (U27_arg6 m c),
       (h c _ (mem_unscoped main_arg7 (by decide))).trans (U27_arg7 m c),
       (h c _ (mem_unscoped main_arg8 (by decide))).trans (U27_arg8 m c),
       (h c _ (mem_unscoped main_arg9 (by decide))).trans (U27_arg9 m c),
       (h c _ (mem_unscoped main_arg10 (by decide))).trans (U27_arg10 m c),
       (h c _ (mem_unscoped main_arg11 (by decide))).trans (U27_arg11 m c),
       (h c _ (mem_unscoped main_arg12 (by decide))).trans (U27_arg12 m c),
       (h c _ (mem_unscoped main_arg13 (by decide))).trans (U27_arg13 m c),
       (h c _ (mem_unscoped main_arg14 (by decide))).trans (U27_arg14 m c),
       (h c _ (mem_unscoped main_arg15 (by decide))).trans (U27_arg15 m c),
       (h c _ (mem_unscoped main_arg16 (by decide))).trans (U27_arg16 m c),
       (h c _ (mem_unscoped main_arg17 (by decide))).trans (U27_arg17 m c),
       (h c _ (mem_unscoped main_arg18 (by decide))).trans (U27_arg18 m c),
       (h c _ (mem_unscoped main_arg19 (by decide))).trans (U27_arg19 m c),
       (h c _ (mem_unscoped main_arg20 (by decide))).trans (U27_arg20 m c),
       (h c _ (mem_unscoped main_arg21 (by decide))).trans (U27_arg21 m c),
       (h c _ (mem_unscoped main_arg22 (by decide))).trans (U27_arg22 m c)⟩)
      (run_all (F := Ideal) m ρ)
  · refine (θ_run Cert.ReferenceIdeal.defs _ _).mono (fun r h c => ⟨(h c).1.trans ?_, (h c).2.1.trans ?_, (h c).2.2.1.trans ?_, (h c).2.2.2.1.trans ?_, (h c).2.2.2.2⟩)
      (Cert.ReferenceIdeal.HandRun.ref_run (F := Ideal) m' ρ')
    all_goals obtain ⟨e0, e1, e2, e3, e4, e5, e6, e7, e8, e9, e10, e11, e12, e13, e14, e15, e16, e17, e18, e19, e20, e21, e22⟩ := hagree c
    · simp only [e0, e1, e2, e3, e4, e5, e6, e7, e8, e9, e10, e11, e12, e13, e14, e15, e16, e17, e18, e19, e20, e21, e22]; exact (Cert.KernelIdeal.HandComp.out1_eq m hpre c).symm
    · simp only [e0, e1, e2, e3, e4, e5, e6, e7, e8, e9, e10, e11, e12, e13, e14, e15, e16, e17, e18, e19, e20, e21, e22]; exact (Cert.KernelIdeal.HandComp.out2_eq m hpre c).symm
    · simp only [e0, e1, e2, e3, e4, e5, e6, e7, e8, e9, e10, e11, e12, e13, e14, e15, e16, e17, e18, e19, e20, e21, e22]; exact (Cert.KernelIdeal.HandComp.out3_eq m hpre c).symm
    · simp only [e0, e1, e2, e3, e4, e5, e6, e7, e8, e9, e10, e11, e12, e13, e14, e15, e16, e17, e18, e19, e20, e21, e22]; exact (Cert.KernelIdeal.HandComp.glob_eq m hpre c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
